-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v23_0)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S1x8192 : Shape := ⟨2, ![1, 8192]⟩
abbrev S8192x1 : Shape := ⟨2, ![8192, 1]⟩
abbrev S1024x8192 : Shape := ⟨2, ![1024, 8192]⟩

abbrev nBuf : Space → Nat
  | .hbm => 34
  | .vmem => 140
  | .smem => 0
  | _ => 0

abbrev vmemTy0_0 (i : Nat) : BufTy := match i % 128 with
  | 0 => ⟨S1024x64, .f32⟩
  | 1 => ⟨S1024x64, .f32⟩
  | 2 => ⟨S1024x64, .f32⟩
  | 3 => ⟨S1024x64, .f32⟩
  | 4 => ⟨S1024x1024, .bf16⟩
  | 5 => ⟨S1024x1024, .bf16⟩
  | 6 => ⟨S1024x8192, .bf16⟩
  | 7 => ⟨S1024x8192, .bf16⟩
  | 8 => ⟨S1x8192, .f32⟩
  | 9 => ⟨S1024x1, .f32⟩
  | 10 => ⟨S1024x1, .f32⟩
  | 11 => ⟨S1024x1024, .bf16⟩
  | 12 => ⟨S1024x1024, .bf16⟩
  | 13 => ⟨S1024x1, .f32⟩
  | 14 => ⟨S1024x1, .f32⟩
  | 15 => ⟨S1x1024, .f32⟩
  | 16 => ⟨S1x1024, .f32⟩
  | 17 => ⟨S1x1024, .f32⟩
  | 18 => ⟨S1024x8192, .bf16⟩
  | 19 => ⟨S1024x8192, .bf16⟩
  | 20 => ⟨S1x8192, .f32⟩
  | 21 => ⟨S1024x1, .f32⟩
  | 22 => ⟨S1024x1, .f32⟩
  | 23 => ⟨S1024x1024, .bf16⟩
  | 24 => ⟨S1024x1024, .bf16⟩
  | 25 => ⟨S1024x1, .f32⟩
  | 26 => ⟨S1024x1, .f32⟩
  | 27 => ⟨S1x1024, .f32⟩
  | 28 => ⟨S1x1024, .f32⟩
  | 29 => ⟨S1x1024, .f32⟩
  | 30 => ⟨S1024x8192, .bf16⟩
  | 31 => ⟨S1024x8192, .bf16⟩
  | 32 => ⟨S1x8192, .f32⟩
  | 33 => ⟨S1024x1, .f32⟩
  | 34 => ⟨S1024x1, .f32⟩
  | 35 => ⟨S1024x1024, .bf16⟩
  | 36 => ⟨S1024x1024, .bf16⟩
  | 37 => ⟨S1024x1, .f32⟩
  | 38 => ⟨S1024x1, .f32⟩
  | 39 => ⟨S1x1024, .f32⟩
  | 40 => ⟨S1x1024, .f32⟩
  | 41 => ⟨S1x1024, .f32⟩
  | 42 => ⟨S1024x8192, .bf16⟩
  | 43 => ⟨S1024x8192, .bf16⟩
  | 44 => ⟨S1x8192, .f32⟩
  | 45 => ⟨S1024x1, .f32⟩
  | 46 => ⟨S1024x1, .f32⟩
  | 47 => ⟨S1024x1024, .bf16⟩
  | 48 => ⟨S1024x1024, .bf16⟩
  | 49 => ⟨S1024x1, .f32⟩
  | 50 => ⟨S1024x1, .f32⟩
  | 51 => ⟨S1x1024, .f32⟩
  | 52 => ⟨S1x1024, .f32⟩
  | 53 => ⟨S1x1024, .f32⟩
  | 54 => ⟨S1024x8192, .bf16⟩
  | 55 => ⟨S1024x8192, .bf16⟩
  | 56 => ⟨S1x8192, .f32⟩
  | 57 => ⟨S1024x1, .f32⟩
  | 58 => ⟨S1024x1, .f32⟩
  | 59 => ⟨S1024x1024, .bf16⟩
  | 60 => ⟨S1024x1024, .bf16⟩
  | 61 => ⟨S1024x1, .f32⟩
  | 62 => ⟨S1024x1, .f32⟩
  | 63 => ⟨S1x1024, .f32⟩
  | 64 => ⟨S1x1024, .f32⟩
  | 65 => ⟨S1x1024, .f32⟩
  | 66 => ⟨S1024x8192, .bf16⟩
  | 67 => ⟨S1024x8192, .bf16⟩
  | 68 => ⟨S1x8192, .f32⟩
  | 69 => ⟨S1024x1, .f32⟩
  | 70 => ⟨S1024x1, .f32⟩
  | 71 => ⟨S1024x1024, .bf16⟩
  | 72 => ⟨S1024x1024, .bf16⟩
  | 73 => ⟨S1024x1, .f32⟩
  | 74 => ⟨S1024x1, .f32⟩
  | 75 => ⟨S1x1024, .f32⟩
  | 76 => ⟨S1x1024, .f32⟩
  | 77 => ⟨S1x1024, .f32⟩
  | 78 => ⟨S1024x8192, .bf16⟩
  | 79 => ⟨S1024x8192, .bf16⟩
  | 80 => ⟨S1x8192, .f32⟩
  | 81 => ⟨S1024x1, .f32⟩
  | 82 => ⟨S1024x1, .f32⟩
  | 83 => ⟨S1024x1024, .bf16⟩
  | 84 => ⟨S1024x1024, .bf16⟩
  | 85 => ⟨S1024x1, .f32⟩
  | 86 => ⟨S1024x1, .f32⟩
  | 87 => ⟨S1x1024, .f32⟩
  | 88 => ⟨S1x1024, .f32⟩
  | 89 => ⟨S1x1024, .f32⟩
  | 90 => ⟨S1024x8192, .bf16⟩
  | 91 => ⟨S1024x8192, .bf16⟩
  | 92 => ⟨S1x8192, .f32⟩
  | 93 => ⟨S1024x1, .f32⟩
  | 94 => ⟨S1024x1, .f32⟩
  | 95 => ⟨S1024x1024, .bf16⟩
  | 96 => ⟨S1024x1024, .bf16⟩
  | 97 => ⟨S1024x1, .f32⟩
  | 98 => ⟨S1024x1, .f32⟩
  | 99 => ⟨S1x1024, .f32⟩
  | 100 => ⟨S1x1024, .f32⟩
  | 101 => ⟨S1x1024, .f32⟩
  | 102 => ⟨S1024x8192, .bf16⟩
  | 103 => ⟨S1024x8192, .bf16⟩
  | 104 => ⟨S1x8192, .f32⟩
  | 105 => ⟨S1024x1, .f32⟩
  | 106 => ⟨S1024x1, .f32⟩
  | 107 => ⟨S1024x1024, .bf16⟩
  | 108 => ⟨S1024x1024, .bf16⟩
  | 109 => ⟨S1024x1, .f32⟩
  | 110 => ⟨S1024x1, .f32⟩
  | 111 => ⟨S1x1024, .f32⟩
  | 112 => ⟨S1x1024, .f32⟩
  | 113 => ⟨S1x1024, .f32⟩
  | 114 => ⟨S1024x8192, .bf16⟩
  | 115 => ⟨S1024x8192, .bf16⟩
  | 116 => ⟨S1x8192, .f32⟩
  | 117 => ⟨S1024x1, .f32⟩
  | 118 => ⟨S1024x1, .f32⟩
  | 119 => ⟨S1024x1024, .bf16⟩
  | 120 => ⟨S1024x1024, .bf16⟩
  | 121 => ⟨S1024x1, .f32⟩
  | 122 => ⟨S1024x1, .f32⟩
  | 123 => ⟨S1x1024, .f32⟩
  | 124 => ⟨S1x1024, .f32⟩
  | 125 => ⟨S1x1024, .f32⟩
  | 126 => ⟨S1024x64, .f32⟩
  | 127 => ⟨S1024x64, .f32⟩
  | _ => ⟨S8192x64, .f32⟩

abbrev vmemTy0_1 (i : Nat) : BufTy := match i % 128 with
  | 0 => ⟨S1024x64, .f32⟩
  | 1 => ⟨S1024x64, .f32⟩
  | 2 => ⟨S1024x1024, .bf16⟩
  | 3 => ⟨S1024x1024, .bf16⟩
  | 4 => ⟨S1024x1, .f32⟩
  | 5 => ⟨S1024x1, .f32⟩
  | 6 => ⟨S1x1024, .f32⟩
  | 7 => ⟨S1x1024, .f32⟩
  | 8 => ⟨S1024x1024, .f32⟩
  | 9 => ⟨S1024x1024, .f32⟩
  | 10 => ⟨S1024x1, .f32⟩
  | 11 => ⟨S1024x1, .f32⟩
  | _ => ⟨S8192x64, .f32⟩

abbrev vmemTy (i : Nat) : BufTy := match i / 128 with
  | 0 => vmemTy0_0 i
  | 1 => vmemTy0_1 i
  | _ => ⟨S8192x64, .f32⟩

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .bf16⟩
  | .hbm, ⟨3, _⟩ => ⟨S_, .f32⟩
  | .hbm, ⟨4, _⟩ => ⟨S1x8192, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S8192x1, .f32⟩
  | .hbm, ⟨10, _⟩ => ⟨S1x8192, .f32⟩
  | .hbm, ⟨11, _⟩ => ⟨S8192x1, .f32⟩
  | .hbm, ⟨12, _⟩ => ⟨S1x8192, .f32⟩
  | .hbm, ⟨13, _⟩ => ⟨S8192x1, .f32⟩
  | .hbm, ⟨14, _⟩ => ⟨S1x8192, .f32⟩
  | .hbm, ⟨15, _⟩ => ⟨S8192x1, .f32⟩
  | .hbm, ⟨16, _⟩ => ⟨S1x8192, .f32⟩
  | .hbm, ⟨17, _⟩ => ⟨S8192x1, .f32⟩
  | .hbm, ⟨18, _⟩ => ⟨S1x8192, .f32⟩
  | .hbm, ⟨19, _⟩ => ⟨S8192x1, .f32⟩
  | .hbm, ⟨20, _⟩ => ⟨S1x8192, .f32⟩
  | .hbm, ⟨21, _⟩ => ⟨S8192x1, .f32⟩
  | .hbm, ⟨22, _⟩ => ⟨S1x8192, .f32⟩
  | .hbm, ⟨23, _⟩ => ⟨S8192x1, .f32⟩
  | .hbm, ⟨24, _⟩ => ⟨S1x8192, .f32⟩
  | .hbm, ⟨25, _⟩ => ⟨S8192x1, .f32⟩
  | .hbm, ⟨26, _⟩ => ⟨S1x8192, .f32⟩
  | .hbm, ⟨27, _⟩ => ⟨S8192x8192, .f32⟩
  | .hbm, ⟨28, _⟩ => ⟨S8192x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x1, .f32⟩
  | .local _ .vmem, ⟨i, _⟩ => vmemTy i
  | _, _ => ⟨S8192x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23_0 : Ref sig .tc := ⟨.hbm, 27, rfl⟩
abbrev main_v23_1 : Ref sig .tc := ⟨.hbm, 28, rfl⟩
abbrev main_cst_1 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc6_scratch0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc8_stg2_1 : Ref sig .tc := ⟨.vmem, 52, rfl⟩
abbrev cc8_scratch0 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg1_1 : Ref sig .tc := ⟨.vmem, 62, rfl⟩
abbrev cc10_stg2_0 : Ref sig .tc := ⟨.vmem, 63, rfl⟩
abbrev cc10_stg2_1 : Ref sig .tc := ⟨.vmem, 64, rfl⟩
abbrev cc10_scratch0 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg2_0 : Ref sig .tc := ⟨.vmem, 69, rfl⟩
abbrev cc11_stg2_1 : Ref sig .tc := ⟨.vmem, 70, rfl⟩
abbrev cc12_stg0_0 : Ref sig .tc := ⟨.vmem, 71, rfl⟩
abbrev cc12_stg0_1 : Ref sig .tc := ⟨.vmem, 72, rfl⟩
abbrev cc12_stg1_0 : Ref sig .tc := ⟨.vmem, 73, rfl⟩
abbrev cc12_stg1_1 : Ref sig .tc := ⟨.vmem, 74, rfl⟩
abbrev cc12_stg2_0 : Ref sig .tc := ⟨.vmem, 75, rfl⟩
abbrev cc12_stg2_1 : Ref sig .tc := ⟨.vmem, 76, rfl⟩
abbrev cc12_scratch0 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg2_0 : Ref sig .tc := ⟨.vmem, 81, rfl⟩
abbrev cc13_stg2_1 : Ref sig .tc := ⟨.vmem, 82, rfl⟩
abbrev cc14_stg0_0 : Ref sig .tc := ⟨.vmem, 83, rfl⟩
abbrev cc14_stg0_1 : Ref sig .tc := ⟨.vmem, 84, rfl⟩
abbrev cc14_stg1_0 : Ref sig .tc := ⟨.vmem, 85, rfl⟩
abbrev cc14_stg1_1 : Ref sig .tc := ⟨.vmem, 86, rfl⟩
abbrev cc14_stg2_0 : Ref sig .tc := ⟨.vmem, 87, rfl⟩
abbrev cc14_stg2_1 : Ref sig .tc := ⟨.vmem, 88, rfl⟩
abbrev cc14_scratch0 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg2_0 : Ref sig .tc := ⟨.vmem, 93, rfl⟩
abbrev cc15_stg2_1 : Ref sig .tc := ⟨.vmem, 94, rfl⟩
abbrev cc16_stg0_0 : Ref sig .tc := ⟨.vmem, 95, rfl⟩
abbrev cc16_stg0_1 : Ref sig .tc := ⟨.vmem, 96, rfl⟩
abbrev cc16_stg1_0 : Ref sig .tc := ⟨.vmem, 97, rfl⟩
abbrev cc16_stg1_1 : Ref sig .tc := ⟨.vmem, 98, rfl⟩
abbrev cc16_stg2_0 : Ref sig .tc := ⟨.vmem, 99, rfl⟩
abbrev cc16_stg2_1 : Ref sig .tc := ⟨.vmem, 100, rfl⟩
abbrev cc16_scratch0 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg2_0 : Ref sig .tc := ⟨.vmem, 105, rfl⟩
abbrev cc17_stg2_1 : Ref sig .tc := ⟨.vmem, 106, rfl⟩
abbrev cc18_stg0_0 : Ref sig .tc := ⟨.vmem, 107, rfl⟩
abbrev cc18_stg0_1 : Ref sig .tc := ⟨.vmem, 108, rfl⟩
abbrev cc18_stg1_0 : Ref sig .tc := ⟨.vmem, 109, rfl⟩
abbrev cc18_stg1_1 : Ref sig .tc := ⟨.vmem, 110, rfl⟩
abbrev cc18_stg2_0 : Ref sig .tc := ⟨.vmem, 111, rfl⟩
abbrev cc18_stg2_1 : Ref sig .tc := ⟨.vmem, 112, rfl⟩
abbrev cc18_scratch0 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg2_0 : Ref sig .tc := ⟨.vmem, 117, rfl⟩
abbrev cc19_stg2_1 : Ref sig .tc := ⟨.vmem, 118, rfl⟩
abbrev cc20_stg0_0 : Ref sig .tc := ⟨.vmem, 119, rfl⟩
abbrev cc20_stg0_1 : Ref sig .tc := ⟨.vmem, 120, rfl⟩
abbrev cc20_stg1_0 : Ref sig .tc := ⟨.vmem, 121, rfl⟩
abbrev cc20_stg1_1 : Ref sig .tc := ⟨.vmem, 122, rfl⟩
abbrev cc20_stg2_0 : Ref sig .tc := ⟨.vmem, 123, rfl⟩
abbrev cc20_stg2_1 : Ref sig .tc := ⟨.vmem, 124, rfl⟩
abbrev cc20_scratch0 : Ref sig .tc := ⟨.vmem, 125, rfl⟩
abbrev cc21_stg0_0 : Ref sig .tc := ⟨.vmem, 126, rfl⟩
abbrev cc21_stg0_1 : Ref sig .tc := ⟨.vmem, 127, rfl⟩
abbrev cc21_stg1_0 : Ref sig .tc := ⟨.vmem, 128, rfl⟩
abbrev cc21_stg1_1 : Ref sig .tc := ⟨.vmem, 129, rfl⟩
abbrev cc21_stg2_0 : Ref sig .tc := ⟨.vmem, 130, rfl⟩
abbrev cc21_stg2_1 : Ref sig .tc := ⟨.vmem, 131, rfl⟩
abbrev cc21_stg3_0 : Ref sig .tc := ⟨.vmem, 132, rfl⟩
abbrev cc21_stg3_1 : Ref sig .tc := ⟨.vmem, 133, rfl⟩
abbrev cc21_stg4_0 : Ref sig .tc := ⟨.vmem, 134, rfl⟩
abbrev cc21_stg4_1 : Ref sig .tc := ⟨.vmem, 135, rfl⟩
abbrev cc21_stg5_0 : Ref sig .tc := ⟨.vmem, 136, rfl⟩
abbrev cc21_stg5_1 : Ref sig .tc := ⟨.vmem, 137, rfl⟩
abbrev cc21_stg6_0 : Ref sig .tc := ⟨.vmem, 138, rfl⟩
abbrev cc21_stg6_1 : Ref sig .tc := ⟨.vmem, 139, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem2_1 : DmaSem sig := 54
abbrev cc10_sem0_0 : DmaSem sig := 55
abbrev cc10_sem0_1 : DmaSem sig := 56
abbrev cc10_sem1_0 : DmaSem sig := 57
abbrev cc10_sem1_1 : DmaSem sig := 58
abbrev cc10_sem2_0 : DmaSem sig := 59
abbrev cc10_sem2_1 : DmaSem sig := 60
abbrev cc11_sem0_0 : DmaSem sig := 61
abbrev cc11_sem0_1 : DmaSem sig := 62
abbrev cc11_sem1_0 : DmaSem sig := 63
abbrev cc11_sem2_0 : DmaSem sig := 64
abbrev cc11_sem2_1 : DmaSem sig := 65
abbrev cc12_sem0_0 : DmaSem sig := 66
abbrev cc12_sem0_1 : DmaSem sig := 67
abbrev cc12_sem1_0 : DmaSem sig := 68
abbrev cc12_sem1_1 : DmaSem sig := 69
abbrev cc12_sem2_0 : DmaSem sig := 70
abbrev cc12_sem2_1 : DmaSem sig := 71
abbrev cc13_sem0_0 : DmaSem sig := 72
abbrev cc13_sem0_1 : DmaSem sig := 73
abbrev cc13_sem1_0 : DmaSem sig := 74
abbrev cc13_sem2_0 : DmaSem sig := 75
abbrev cc13_sem2_1 : DmaSem sig := 76
abbrev cc14_sem0_0 : DmaSem sig := 77
abbrev cc14_sem0_1 : DmaSem sig := 78
abbrev cc14_sem1_0 : DmaSem sig := 79
abbrev cc14_sem1_1 : DmaSem sig := 80
abbrev cc14_sem2_0 : DmaSem sig := 81
abbrev cc14_sem2_1 : DmaSem sig := 82
abbrev cc15_sem0_0 : DmaSem sig := 83
abbrev cc15_sem0_1 : DmaSem sig := 84
abbrev cc15_sem1_0 : DmaSem sig := 85
abbrev cc15_sem2_0 : DmaSem sig := 86
abbrev cc15_sem2_1 : DmaSem sig := 87
abbrev cc16_sem0_0 : DmaSem sig := 88
abbrev cc16_sem0_1 : DmaSem sig := 89
abbrev cc16_sem1_0 : DmaSem sig := 90
abbrev cc16_sem1_1 : DmaSem sig := 91
abbrev cc16_sem2_0 : DmaSem sig := 92
abbrev cc16_sem2_1 : DmaSem sig := 93
abbrev cc17_sem0_0 : DmaSem sig := 94
abbrev cc17_sem0_1 : DmaSem sig := 95
abbrev cc17_sem1_0 : DmaSem sig := 96
abbrev cc17_sem2_0 : DmaSem sig := 97
abbrev cc17_sem2_1 : DmaSem sig := 98
abbrev cc18_sem0_0 : DmaSem sig := 99
abbrev cc18_sem0_1 : DmaSem sig := 100
abbrev cc18_sem1_0 : DmaSem sig := 101
abbrev cc18_sem1_1 : DmaSem sig := 102
abbrev cc18_sem2_0 : DmaSem sig := 103
abbrev cc18_sem2_1 : DmaSem sig := 104
abbrev cc19_sem0_0 : DmaSem sig := 105
abbrev cc19_sem0_1 : DmaSem sig := 106
abbrev cc19_sem1_0 : DmaSem sig := 107
abbrev cc19_sem2_0 : DmaSem sig := 108
abbrev cc19_sem2_1 : DmaSem sig := 109
abbrev cc20_sem0_0 : DmaSem sig := 110
abbrev cc20_sem0_1 : DmaSem sig := 111
abbrev cc20_sem1_0 : DmaSem sig := 112
abbrev cc20_sem1_1 : DmaSem sig := 113
abbrev cc20_sem2_0 : DmaSem sig := 114
abbrev cc20_sem2_1 : DmaSem sig := 115
abbrev cc21_sem0_0 : DmaSem sig := 116
abbrev cc21_sem0_1 : DmaSem sig := 117
abbrev cc21_sem1_0 : DmaSem sig := 118
abbrev cc21_sem1_1 : DmaSem sig := 119
abbrev cc21_sem2_0 : DmaSem sig := 120
abbrev cc21_sem2_1 : DmaSem sig := 121
abbrev cc21_sem3_0 : DmaSem sig := 122
abbrev cc21_sem3_1 : DmaSem sig := 123
abbrev cc21_sem4_0 : DmaSem sig := 124
abbrev cc21_sem4_1 : DmaSem sig := 125
abbrev cc21_sem5_0 : DmaSem sig := 126
abbrev cc21_sem5_1 : DmaSem sig := 127
abbrev cc21_sem6_0 : DmaSem sig := 128
abbrev cc21_sem6_1 : DmaSem sig := 129

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8192 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1024x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![8, 8], ![false, false]⟩

def k6_cond2 (i : grid6.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x8192 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x8192 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1024x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨2, ![8, 8], ![false, false]⟩

def k8_cond2 (i : grid8.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1024x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x8192 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x8192 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1024x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![8, 8], ![false, false]⟩

def k10_cond2 (i : grid10.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1024x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1024x8192 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x8192 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S1024x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨2, ![8, 8], ![false, false]⟩

def k12_cond2 (i : grid12.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1024x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S1024x8192 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x8192 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S1024x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨2, ![8, 8], ![false, false]⟩

def k14_cond2 (i : grid14.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage14_0 : Fin 2 → Memref sig .tc .vmem S1024x1024 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 2 → Memref sig .tc .vmem S1024x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1x1024 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, false]

abbrev grid15 : Pipeline.Grid := ⟨1, ![8], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S1024x8192 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x8192 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S1024x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨2, ![8, 8], ![false, false]⟩

def k16_cond2 (i : grid16.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage16_0 : Fin 2 → Memref sig .tc .vmem S1024x1024 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 2 → Memref sig .tc .vmem S1024x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true]

abbrev stage16_2 : Fin 2 → Memref sig .tc .vmem S1x1024 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, false]

abbrev grid17 : Pipeline.Grid := ⟨1, ![8], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S1024x8192 .bf16 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x8192 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S1024x1 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨2, ![8, 8], ![false, false]⟩

def k18_cond2 (i : grid18.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc18_transform_0 (i : grid18.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage18_0 : Fin 2 → Memref sig .tc .vmem S1024x1024 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, true]

abbrev stage18_1 : Fin 2 → Memref sig .tc .vmem S1024x1 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true]

abbrev stage18_2 : Fin 2 → Memref sig .tc .vmem S1x1024 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, false]

abbrev grid19 : Pipeline.Grid := ⟨1, ![8], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S1024x8192 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x8192 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S1024x1 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨2, ![8, 8], ![false, false]⟩

def k20_cond2 (i : grid20.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc20_transform_0 (i : grid20.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc20_transform_1 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc20_transform_2 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage20_0 : Fin 2 → Memref sig .tc .vmem S1024x1024 .bf16 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, true]

abbrev stage20_1 : Fin 2 → Memref sig .tc .vmem S1024x1 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![false, true]

abbrev stage20_2 : Fin 2 → Memref sig .tc .vmem S1x1024 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true, false]

abbrev grid21 : Pipeline.Grid := ⟨2, ![8, 8], ![false, false]⟩

def cc21_transform_0 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc21_transform_2 (i : grid21.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc21_transform_3 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc21_transform_4 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc21_transform_5 (i : grid21.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc21_transform_6 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage21_0 : Fin 2 → Memref sig .tc .vmem S1024x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true, false]

abbrev stage21_1 : Fin 2 → Memref sig .tc .vmem S1024x64 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![false, true]

abbrev stage21_2 : Fin 2 → Memref sig .tc .vmem S1024x1024 .bf16 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true, true]

abbrev stage21_3 : Fin 2 → Memref sig .tc .vmem S1024x1 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true, false]

abbrev stage21_4 : Fin 2 → Memref sig .tc .vmem S1x1024 .f32 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![false, true]

abbrev stage21_5 : Fin 2 → Memref sig .tc .vmem S1024x1024 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true, true]

abbrev stage21_6 : Fin 2 → Memref sig .tc .vmem S1024x1 .f32 := fun | 0 => Memref.whole cc21_stg6_0 | 1 => Memref.whole cc21_stg6_1 | ⟨_ + 2, h⟩ => absurd h (Nat.not_lt.2 (Nat.le_add_left _ _))
abbrev sem21_6 : Fin 2 → DmaSem sig := fun | 0 => cc21_sem6_0 | 1 => cc21_sem6_1 | ⟨_ + 2, h⟩ => absurd h (Nat.not_lt.2 (Nat.le_add_left _ _))
abbrev reads21_6 : Fin grid21.rank → Bool := ![true, false]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  bcast_S_S1x8192 : S_.BroadcastsInDim S1x8192 (![] : Fin 0 → Fin S1x8192.rank)
  bcast_S_S8192x1 : S_.BroadcastsInDim S8192x1 (![] : Fin 0 → Fin S8192x1.rank)
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S1024x8192 : S1x8192.Broadcasts S1024x8192
  reduces_S1024x8192_S1024 : S1024x8192.Reduces [1] S1024
  inb_S1024x1_S1024x1_0_0 : ∀ a, (![0, 0] : Fin 2 → Nat) a + S1024x1.size a ≤ S1024x1.size a
  h_S1024x1 : 0 < S1024x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x1024_S1024x1024 : S1024x1024.ShapeCasts S1024x1024
  shapeCasts_S1024x1_S1024x1 : S1024x1.ShapeCasts S1024x1
  reduces_S1024x1024_S1024 : S1024x1024.Reduces [0] S1024
  shapeCasts_S1024_S1x1024 : S1024.ShapeCasts S1x1024
  reduces_S1024x1024_S1024_2 : S1024x1024.Reduces [1] S1024
  reducesTo_S8192x1_S_d0_1 : S8192x1.ReducesTo [0, 1] S_
  h_S_ : 0 < S_.numel
  transposes_S1x8192_S8192x1_1_0 : S1x8192.Transposes [1, 0] S8192x1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x8192.size a ≤ S8192x8192.size a
  hwx1_0 : ∀ i : grid1.Coords, EltTy.bits .bf16 = 32 ∨ (Rect.block (s := S8192x8192) S1024x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S8192x1.size a
  hwx2_1 : ∀ i : grid2.Coords, EltTy.bits .f32 = 32 ∨ (Rect.block (s := S8192x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x8192.size a ≤ S8192x8192.size a
  hwx3_0 : ∀ i : grid3.Coords, EltTy.bits .bf16 = 32 ∨ (Rect.block (s := S8192x8192) S1024x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8192.size a ≤ S1x8192.size a
  hwx3_1 : ∀ i : grid3.Coords, EltTy.bits .f32 = 32 ∨ (Rect.block (s := S1x8192) S1x8192.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .bf16 = 32 ∨ (Rect.block (s := S8192x8192) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1.size a ≤ S8192x1.size a
  hwx4_1 : ∀ i : grid4.Coords, EltTy.bits .f32 = 32 ∨ (Rect.block (s := S8192x1) S1024x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x8192.size a
  hwx4_2 : ∀ i : grid4.Coords, EltTy.bits .f32 = 32 ∨ (Rect.block (s := S1x8192) S1x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x8192.size a ≤ S8192x8192.size a
  hwx5_0 : ∀ i : grid5.Coords, EltTy.bits .bf16 = 32 ∨ (Rect.block (s := S8192x8192) S1024x8192.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8192.size a ≤ S1x8192.size a
  hwx5_1 : ∀ i : grid5.Coords, EltTy.bits .f32 = 32 ∨ (Rect.block (s := S1x8192) S1x8192.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1.size a ≤ S8192x1.size a
  hwx5_2 : ∀ i : grid5.Coords, EltTy.bits .f32 = 32 ∨ (Rect.block (s := S8192x1) S1024x1.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S8192x8192.size a
  hwx6_0 : ∀ i : grid6.Coords, EltTy.bits .bf16 = 32 ∨ (Rect.block (s := S8192x8192) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x1.size a ≤ S8192x1.size a
  hwx6_1 : ∀ i : grid6.Coords, EltTy.bits .f32 = 32 ∨ (Rect.block (s := S8192x1) S1024x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x8192.size a
  hwx6_2 : ∀ i : grid6.Coords, EltTy.bits .f32 = 32 ∨ (Rect.block (s := S1x8192) S1x1024.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x8192.size a ≤ S8192x8192.size a
  hwx7_0 : ∀ i : grid7.Coords, EltTy.bits .bf16 = 32 ∨ (Rect.block (s := S8192x8192) S1024x8192.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x8192.size a ≤ S1x8192.size a
  hwx7_1 : ∀ i : grid7.Coords, EltTy.bits .f32 = 32 ∨ (Rect.block (s := S1x8192) S1x8192.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1.size a ≤ S8192x1.size a
  hwx7_2 : ∀ i : grid7.Coords, EltTy.bits .f32 = 32 ∨ (Rect.block (s := S8192x1) S1024x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S8192x8192.size a
  hwx8_0 : ∀ i : grid8.Coords, EltTy.bits .bf16 = 32 ∨ (Rect.block (s := S8192x8192) S1024x1024.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x1.size a ≤ S8192x1.size a
  hwx8_1 : ∀ i : grid8.Coords, EltTy.bits .f32 = 32 ∨ (Rect.block (s := S8192x1) S1024x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x8192.size a
  hwx8_2 : ∀ i : grid8.Coords, EltTy.bits .f32 = 32 ∨ (Rect.block (s := S1x8192) S1x1024.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x8192.size a ≤ S8192x8192.size a
  hwx9_0 : ∀ i : grid9.Coords, EltTy.bits .bf16 = 32 ∨ (Rect.block (s := S8192x8192) S1024x8192.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x8192.size a ≤ S1x8192.size a
  hwx9_1 : ∀ i : grid9.Coords, EltTy.bits .f32 = 32 ∨ (Rect.block (s := S1x8192) S1x8192.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x1.size a ≤ S8192x1.size a
  hwx9_2 : ∀ i : grid9.Coords, EltTy.bits .f32 = 32 ∨ (Rect.block (s := S8192x1) S1024x1.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x1024.size a ≤ S8192x8192.size a
  hwx10_0 : ∀ i : grid10.Coords, EltTy.bits .bf16 = 32 ∨ (Rect.block (s := S8192x8192) S1024x1024.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x1.size a ≤ S8192x1.size a
  hwx10_1 : ∀ i : grid10.Coords, EltTy.bits .f32 = 32 ∨ (Rect.block (s := S8192x1) S1024x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x1024.size a ≤ S1x8192.size a
  hwx10_2 : ∀ i : grid10.Coords, EltTy.bits .f32 = 32 ∨ (Rect.block (s := S1x8192) S1x1024.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x8192.size a ≤ S8192x8192.size a
  hwx11_0 : ∀ i : grid11.Coords, EltTy.bits .bf16 = 32 ∨ (Rect.block (s := S8192x8192) S1024x8192.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x8192.size a ≤ S1x8192.size a
  hwx11_1 : ∀ i : grid11.Coords, EltTy.bits .f32 = 32 ∨ (Rect.block (s := S1x8192) S1x8192.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x1.size a ≤ S8192x1.size a
  hwx11_2 : ∀ i : grid11.Coords, EltTy.bits .f32 = 32 ∨ (Rect.block (s := S8192x1) S1024x1.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x1024.size a ≤ S8192x8192.size a
  hwx12_0 : ∀ i : grid12.Coords, EltTy.bits .bf16 = 32 ∨ (Rect.block (s := S8192x8192) S1024x1024.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1024x1.size a ≤ S8192x1.size a
  hwx12_1 : ∀ i : grid12.Coords, EltTy.bits .f32 = 32 ∨ (Rect.block (s := S8192x1) S1024x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x1024.size a ≤ S1x8192.size a
  hwx12_2 : ∀ i : grid12.Coords, EltTy.bits .f32 = 32 ∨ (Rect.block (s := S1x8192) S1x1024.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x8192.size a ≤ S8192x8192.size a
  hwx13_0 : ∀ i : grid13.Coords, EltTy.bits .bf16 = 32 ∨ (Rect.block (s := S8192x8192) S1024x8192.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x8192.size a ≤ S1x8192.size a
  hwx13_1 : ∀ i : grid13.Coords, EltTy.bits .f32 = 32 ∨ (Rect.block (s := S1x8192) S1x8192.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1024x1.size a ≤ S8192x1.size a
  hwx13_2 : ∀ i : grid13.Coords, EltTy.bits .f32 = 32 ∨ (Rect.block (s := S8192x1) S1024x1.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1024x1024.size a ≤ S8192x8192.size a
  hwx14_0 : ∀ i : grid14.Coords, EltTy.bits .bf16 = 32 ∨ (Rect.block (s := S8192x8192) S1024x1024.size (cc14_transform_0 i) (hinb14_0 i)).WholeWords (EltTy.packing .bf16)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1024x1.size a ≤ S8192x1.size a
  hwx14_1 : ∀ i : grid14.Coords, EltTy.bits .f32 = 32 ∨ (Rect.block (s := S8192x1) S1024x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1x1024.size a ≤ S1x8192.size a
  hwx14_2 : ∀ i : grid14.Coords, EltTy.bits .f32 = 32 ∨ (Rect.block (s := S1x8192) S1x1024.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1024x8192.size a ≤ S8192x8192.size a
  hwx15_0 : ∀ i : grid15.Coords, EltTy.bits .bf16 = 32 ∨ (Rect.block (s := S8192x8192) S1024x8192.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x8192.size a ≤ S1x8192.size a
  hwx15_1 : ∀ i : grid15.Coords, EltTy.bits .f32 = 32 ∨ (Rect.block (s := S1x8192) S1x8192.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1024x1.size a ≤ S8192x1.size a
  hwx15_2 : ∀ i : grid15.Coords, EltTy.bits .f32 = 32 ∨ (Rect.block (s := S8192x1) S1024x1.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1024x1024.size a ≤ S8192x8192.size a
  hwx16_0 : ∀ i : grid16.Coords, EltTy.bits .bf16 = 32 ∨ (Rect.block (s := S8192x8192) S1024x1024.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1024x1.size a ≤ S8192x1.size a
  hwx16_1 : ∀ i : grid16.Coords, EltTy.bits .f32 = 32 ∨ (Rect.block (s := S8192x1) S1024x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1x1024.size a ≤ S1x8192.size a
  hwx16_2 : ∀ i : grid16.Coords, EltTy.bits .f32 = 32 ∨ (Rect.block (s := S1x8192) S1x1024.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1024x8192.size a ≤ S8192x8192.size a
  hwx17_0 : ∀ i : grid17.Coords, EltTy.bits .bf16 = 32 ∨ (Rect.block (s := S8192x8192) S1024x8192.size (cc17_transform_0 i) (hinb17_0 i)).WholeWords (EltTy.packing .bf16)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x8192.size a ≤ S1x8192.size a
  hwx17_1 : ∀ i : grid17.Coords, EltTy.bits .f32 = 32 ∨ (Rect.block (s := S1x8192) S1x8192.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S1024x1.size a ≤ S8192x1.size a
  hwx17_2 : ∀ i : grid17.Coords, EltTy.bits .f32 = 32 ∨ (Rect.block (s := S8192x1) S1024x1.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1024x1024.size a ≤ S8192x8192.size a
  hwx18_0 : ∀ i : grid18.Coords, EltTy.bits .bf16 = 32 ∨ (Rect.block (s := S8192x8192) S1024x1024.size (cc18_transform_0 i) (hinb18_0 i)).WholeWords (EltTy.packing .bf16)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1024x1.size a ≤ S8192x1.size a
  hwx18_1 : ∀ i : grid18.Coords, EltTy.bits .f32 = 32 ∨ (Rect.block (s := S8192x1) S1024x1.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1x1024.size a ≤ S1x8192.size a
  hwx18_2 : ∀ i : grid18.Coords, EltTy.bits .f32 = 32 ∨ (Rect.block (s := S1x8192) S1x1024.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1024x8192.size a ≤ S8192x8192.size a
  hwx19_0 : ∀ i : grid19.Coords, EltTy.bits .bf16 = 32 ∨ (Rect.block (s := S8192x8192) S1024x8192.size (cc19_transform_0 i) (hinb19_0 i)).WholeWords (EltTy.packing .bf16)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x8192.size a ≤ S1x8192.size a
  hwx19_1 : ∀ i : grid19.Coords, EltTy.bits .f32 = 32 ∨ (Rect.block (s := S1x8192) S1x8192.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S1024x1.size a ≤ S8192x1.size a
  hwx19_2 : ∀ i : grid19.Coords, EltTy.bits .f32 = 32 ∨ (Rect.block (s := S8192x1) S1024x1.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1024x1024.size a ≤ S8192x8192.size a
  hwx20_0 : ∀ i : grid20.Coords, EltTy.bits .bf16 = 32 ∨ (Rect.block (s := S8192x8192) S1024x1024.size (cc20_transform_0 i) (hinb20_0 i)).WholeWords (EltTy.packing .bf16)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S1024x1.size a ≤ S8192x1.size a
  hwx20_1 : ∀ i : grid20.Coords, EltTy.bits .f32 = 32 ∨ (Rect.block (s := S8192x1) S1024x1.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S1x1024.size a ≤ S1x8192.size a
  hwx20_2 : ∀ i : grid20.Coords, EltTy.bits .f32 = 32 ∨ (Rect.block (s := S1x8192) S1x1024.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S1024x64.size a ≤ S8192x64.size a
  hwx21_0 : ∀ i : grid21.Coords, EltTy.bits .f32 = 32 ∨ (Rect.block (s := S8192x64) S1024x64.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S1024x64.size a ≤ S8192x64.size a
  hwx21_1 : ∀ i : grid21.Coords, EltTy.bits .f32 = 32 ∨ (Rect.block (s := S8192x64) S1024x64.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S1024x1024.size a ≤ S8192x8192.size a
  hwx21_2 : ∀ i : grid21.Coords, EltTy.bits .bf16 = 32 ∨ (Rect.block (s := S8192x8192) S1024x1024.size (cc21_transform_2 i) (hinb21_2 i)).WholeWords (EltTy.packing .bf16)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S1024x1.size a ≤ S8192x1.size a
  hwx21_3 : ∀ i : grid21.Coords, EltTy.bits .f32 = 32 ∨ (Rect.block (s := S8192x1) S1024x1.size (cc21_transform_3 i) (hinb21_3 i)).WholeWords (EltTy.packing .f32)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S1x1024.size a ≤ S1x8192.size a
  hwx21_4 : ∀ i : grid21.Coords, EltTy.bits .f32 = 32 ∨ (Rect.block (s := S1x8192) S1x1024.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S1024x1024.size a ≤ S8192x8192.size a
  hwx21_5 : ∀ i : grid21.Coords, EltTy.bits .f32 = 32 ∨ (Rect.block (s := S8192x8192) S1024x1024.size (cc21_transform_5 i) (hinb21_5 i)).WholeWords (EltTy.packing .f32)
  hstage21_6 : ∀ j, (stage21_6 j).IsWhole
  nbuf21_6 : grid21.bufCount reads21_6 false = 2
  hreads21_6 : ∀ i i' : grid21.Coords, (∀ a, reads21_6 a = true → i a = i' a) → cc21_transform_6 i = cc21_transform_6 i'
  hinb21_6 : ∀ (i : grid21.Coords) a, (cc21_transform_6 i a + 1) * S1024x1.size a ≤ S8192x1.size a
  hwx21_6 : ∀ i : grid21.Coords, EltTy.bits .f32 = 32 ∨ (Rect.block (s := S8192x1) S1024x1.size (cc21_transform_6 i) (hinb21_6 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v0) S1024x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1x8192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1024x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1024x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S1x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v0) S1024x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S1x8192.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v7) S1024x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v0) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S1024x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v8) S1x1024.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v0) S1024x8192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S1x8192.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v9) S1024x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v0) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v9) S1024x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v10) S1x1024.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v0) S1024x8192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v10) S1x8192.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v11) S1024x1.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v0) S1024x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v11) S1024x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v12) S1x1024.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v0) S1024x8192.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v12) S1x8192.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v13) S1024x1.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v0) S1024x1024.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v13) S1024x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v14) S1x1024.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v0) S1024x8192.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v14) S1x8192.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v15) S1024x1.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v0) S1024x1024.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v15) S1024x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v16) S1x1024.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

abbrev win15_0 : Pipeline.Window sig grid15 :=
  Pipeline.Window.ofSpec (Memref.whole main_v0) S1024x8192.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v16) S1x8192.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v17) S1024x1.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v0) S1024x1024.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v17) S1024x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v18) S1x1024.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev idle16 : Fin 3 → grid16.Coords → Bool := fun | 0 => fun _ => false | 1 => fun _ => false | 2 => fun i => !(k16_cond2 i == 1#1) | ⟨_ + 3, h⟩ => absurd h (Nat.not_lt.2 (Nat.le_add_left _ _))

abbrev win17_0 : Pipeline.Window sig grid17 :=
  Pipeline.Window.ofSpec (Memref.whole main_v0) S1024x8192.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v18) S1x8192.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v19) S1024x1.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v0) S1024x1024.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v19) S1024x1.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v20) S1x1024.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev idle18 : Fin 3 → grid18.Coords → Bool := fun | 0 => fun _ => false | 1 => fun _ => false | 2 => fun i => !(k18_cond2 i == 1#1) | ⟨_ + 3, h⟩ => absurd h (Nat.not_lt.2 (Nat.le_add_left _ _))

abbrev win19_0 : Pipeline.Window sig grid19 :=
  Pipeline.Window.ofSpec (Memref.whole main_v0) S1024x8192.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v20) S1x8192.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v21) S1024x1.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v0) S1024x1024.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v21) S1024x1.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v22) S1x1024.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev idle20 : Fin 3 → grid20.Coords → Bool := fun | 0 => fun _ => false | 1 => fun _ => false | 2 => fun i => !(k20_cond2 i == 1#1) | ⟨_ + 3, h⟩ => absurd h (Nat.not_lt.2 (Nat.le_add_left _ _))

abbrev win21_0 : Pipeline.Window sig grid21 :=
  Pipeline.Window.ofSpec (Memref.whole main_arg0) S1024x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_arg1) S1024x64.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v0) S1024x1024.size cc21_transform_2 reads21_2 false false 2 stage21_2 sem21_2
    hrank21 hreads21_2 hinb21_2 nbuf21_2 (Memref.isWhole_whole _) hwx21_2 hstage21_2

abbrev win21_3 : Pipeline.Window sig grid21 :=
  Pipeline.Window.ofSpec (Memref.whole main_v21) S1024x1.size cc21_transform_3 reads21_3 false false 2 stage21_3 sem21_3
    hrank21 hreads21_3 hinb21_3 nbuf21_3 (Memref.isWhole_whole _) hwx21_3 hstage21_3

abbrev win21_4 : Pipeline.Window sig grid21 :=
  Pipeline.Window.ofSpec (Memref.whole main_v22) S1x1024.size cc21_transform_4 reads21_4 false false 2 stage21_4 sem21_4
    hrank21 hreads21_4 hinb21_4 nbuf21_4 (Memref.isWhole_whole _) hwx21_4 hstage21_4

abbrev win21_5 : Pipeline.Window sig grid21 :=
  Pipeline.Window.ofSpec (Memref.whole main_v23_0) S1024x1024.size cc21_transform_5 reads21_5 true false 2 stage21_5 sem21_5
    hrank21 hreads21_5 hinb21_5 nbuf21_5 (Memref.isWhole_whole _) hwx21_5 hstage21_5

abbrev win21_6 : Pipeline.Window sig grid21 :=
  Pipeline.Window.ofSpec (Memref.whole main_v23_1) S1024x1.size cc21_transform_6 reads21_6 true false 2 stage21_6 sem21_6
    hrank21 hreads21_6 hinb21_6 nbuf21_6 (Memref.isWhole_whole _) hwx21_6 hstage21_6

abbrev win21 : Fin 7 → Pipeline.Window sig grid21 := fun | 0 => win21_0 | 1 => win21_1 | 2 => win21_2 | 3 => win21_3 | 4 => win21_4 | 5 => win21_5 | 6 => win21_6 | ⟨_ + 7, h⟩ => absurd h (Nat.not_lt.2 (Nat.le_add_left _ _))
abbrev spec21 : Fin 7 → Pipeline.WinSpec sig grid21.rank := fun w => (win21 w).toWinSpec

class Facts : Prop extends Facts₀ where

variable [Facts]
-- ==== ReferenceIdeal.lean ====
abbrev S8192x64 : Shape := ⟨2, ![8192, 64]⟩
abbrev S_ : Shape := ⟨0, ![]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 157
  | .vmem => 0
  | .smem => 0
  | _ => 0

abbrev hbmTy0_0 (i : Nat) : BufTy := match i % 128 with
  | 0 => ⟨S8192x64, .f32⟩
  | 1 => ⟨S8192x64, .f32⟩
  | 2 => ⟨S_, .f32⟩
  | 3 => ⟨S8192x1, .f32⟩
  | 4 => ⟨S_, .f32⟩
  | 5 => ⟨S8192x1, .f32⟩
  | 6 => ⟨S8192x64, .f32⟩
  | 7 => ⟨S_, .f32⟩
  | 8 => ⟨S8192, .f32⟩
  | 9 => ⟨S8192x1, .f32⟩
  | 10 => ⟨S8192x64, .f32⟩
  | 11 => ⟨S_, .f32⟩
  | 12 => ⟨S8192, .f32⟩
  | 13 => ⟨S8192x1, .f32⟩
  | 14 => ⟨S1x8192, .f32⟩
  | 15 => ⟨S8192x8192, .f32⟩
  | 16 => ⟨S8192x8192, .f32⟩
  | 17 => ⟨S8192x8192, .f32⟩
  | 18 => ⟨S64x8192, .f32⟩
  | 19 => ⟨S8192x8192, .f32⟩
  | 20 => ⟨S_, .f32⟩
  | 21 => ⟨S8192x8192, .f32⟩
  | 22 => ⟨S8192x8192, .f32⟩
  | 23 => ⟨S8192x8192, .f32⟩
  | 24 => ⟨S_, .f32⟩
  | 25 => ⟨S8192x8192, .f32⟩
  | 26 => ⟨S8192x8192, .f32⟩
  | 27 => ⟨S8192x8192, .f32⟩
  | 28 => ⟨S8192x8192, .f32⟩
  | 29 => ⟨S_, .f32⟩
  | 30 => ⟨S8192x8192, .f32⟩
  | 31 => ⟨S8192x8192, .f32⟩
  | 32 => ⟨S8192x8192, .f32⟩
  | 33 => ⟨S_, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x8192, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x8192, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x8192, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x8192, .f32⟩
  | 76 => ⟨S8192x1, .f32⟩
  | 77 => ⟨S_, .f32⟩
  | 78 => ⟨S8192x1, .f32⟩
  | 79 => ⟨S8192x1, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x1, .f32⟩
  | 86 => ⟨S8192x8192, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x1, .f32⟩
  | 97 => ⟨S8192x8192, .f32⟩
  | 98 => ⟨S8192x1, .f32⟩
  | 99 => ⟨S_, .f32⟩
  | 100 => ⟨S8192x1, .f32⟩
  | 101 => ⟨S8192x1, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S8192x1, .f32⟩
  | 108 => ⟨S8192x8192, .f32⟩
  | 109 => ⟨S8192x1, .f32⟩
  | 110 => ⟨S_, .f32⟩
  | 111 => ⟨S8192x1, .f32⟩
  | 112 => ⟨S8192x1, .f32⟩
  | 113 => ⟨S8192x1, .f32⟩
  | 114 => ⟨S8192x1, .f32⟩
  | 115 => ⟨S_, .f32⟩
  | 116 => ⟨S8192x1, .f32⟩
  | 117 => ⟨S8192x1, .f32⟩
  | 118 => ⟨S8192x1, .f32⟩
  | 119 => ⟨S8192x8192, .f32⟩
  | 120 => ⟨S8192x1, .f32⟩
  | 121 => ⟨S_, .f32⟩
  | 122 => ⟨S8192x1, .f32⟩
  | 123 => ⟨S8192x1, .f32⟩
  | 124 => ⟨S8192x1, .f32⟩
  | 125 => ⟨S8192x1, .f32⟩
  | 126 => ⟨S_, .f32⟩
  | 127 => ⟨S8192x1, .f32⟩
  | _ => ⟨S8192x64, .f32⟩

abbrev hbmTy0_1 (i : Nat) : BufTy := match i % 128 with
  | 0 => ⟨S8192x1, .f32⟩
  | 1 => ⟨S8192x1, .f32⟩
  | 2 => ⟨S8192x8192, .f32⟩
  | 3 => ⟨S8192x1, .f32⟩
  | 4 => ⟨S_, .f32⟩
  | 5 => ⟨S8192x1, .f32⟩
  | 6 => ⟨S8192x1, .f32⟩
  | 7 => ⟨S8192x1, .f32⟩
  | 8 => ⟨S8192x1, .f32⟩
  | 9 => ⟨S_, .f32⟩
  | 10 => ⟨S8192x1, .f32⟩
  | 11 => ⟨S8192x1, .f32⟩
  | 12 => ⟨S8192x1, .f32⟩
  | 13 => ⟨S8192x8192, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x8192, .f32⟩
  | 20 => ⟨S8192x8192, .f32⟩
  | 21 => ⟨S1x8192, .f32⟩
  | 22 => ⟨S8192x8192, .f32⟩
  | 23 => ⟨S8192x8192, .f32⟩
  | 24 => ⟨S8192x8192, .f32⟩
  | 25 => ⟨S_, .f32⟩
  | 26 => ⟨S_, .f32⟩
  | 27 => ⟨S_, .f32⟩
  | 28 => ⟨S_, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_11 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_13 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_14 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_15 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_16 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_17 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_18 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_19 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_20 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_21 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_22 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_23 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_24 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_25 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_26 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_27 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_28 : Ref sig .tc := ⟨.hbm, 153, rfl⟩
abbrev main_v122 : Ref sig .tc := ⟨.hbm, 154, rfl⟩
abbrev main_cst_29 : Ref sig .tc := ⟨.hbm, 155, rfl⟩
abbrev main_v123 : Ref sig .tc := ⟨.hbm, 156, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  transposes_S8192x8192_S8192x8192_1_0 : S8192x8192.Transposes [1, 0] S8192x8192
  reducesTo_S8192x8192_S_d0_1 : S8192x8192.ReducesTo [0, 1] S_
  dot_S8192x64_S64x8192_S8192x8192_1_0_0_1_n_n_wf : DotDims.WF S8192x64 S64x8192 S8192x8192 [1] [0] [0] [1] [] []
  dot_S8192x8192_S8192x1_S8192x1_1_0_0_1_n_n_wf : DotDims.WF S8192x8192 S8192x1 S8192x1 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.K.R0.lean ====
/- Region 0 of the program: the launch that builds the Gibbs matrix, its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the Gibbs-matrix kernel. One point per 1024×1024 tile (i, j): from rows block i of the first argument and
    rows block j of the second, the tile exp(-‖s_r − t_c‖ / ε). -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_in : Rect S1024x64 := Rect.unit (s := S1024x64) ![0, 0] S1024x64.size inb_S1024x64_S1024x64_0_0
abbrev r0_out : Rect S1024x1024 := Rect.unit (s := S1024x1024) ![0, 0] S1024x1024.size inb_S1024x1024_S1024x1024_0_0

def out0_2 (x0 : Vec F S1024x64 .f32) (x1 : Vec F S1024x64 .f32) : Vec F S1024x1024 .bf16 :=
  View.canon [⟨r0_out, k0_pay1 (View.ld x0 r0_in) (View.ld x1 r0_in)⟩]

theorem cover0_2 (p0 : Vec F S1024x1024 .bf16) (y : S1024x1024.Idx) :
    ∃ pc ∈ ([⟨r0_out, p0⟩] : List (View.Piece (Elt F) S1024x1024 .bf16)), y ∈ pc.1.set :=
  View.cover_of_tiled [⟨r0_out, p0⟩] S1024x1024.size (by rfl) y

set_option maxHeartbeats 1000000 in
theorem sound_kernel0 (c : Dev nD) (E : Set ℕ) (i : grid0.Coords) (arg2 : Memref sig .tc .vmem S1024x64 .f32) (harg2 : arg2.IsWhole)
    (arg3 : Memref sig .tc .vmem S1024x64 .f32) (harg3 : arg3.IsWhole) (arg4 : Memref sig .tc .vmem S1024x1024 .bf16) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__gibbs_kernel i arg2 harg2 arg3 harg3 arg4 harg4) K := by
  simp only [cc0__gibbs_kernel_eq_skeleton]; unfold cc0__gibbs_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Region 1 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: the row-sum kernel. One point per block of 1024 rows of the matrix; the point's result block is
    w / (Σ_k M[r,k]·v[k] + stab) for each of its rows r. -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix window's staging buffer holds the point's block of rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The vector window's staging buffer holds the whole row vector at every point (fetched once, never moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_2 : Rect S1024x1 := Rect.unit (s := S1024x1) ![0, 0] S1024x1.size inb_S1024x1_S1024x1_0_0
abbrev r1_0 : Rect S1024x8192 := Rect.unit (s := S1024x8192) ![0, 0] S1024x8192.size inb_S1024x8192_S1024x8192_0_0
abbrev r1_1 : Rect S1x8192 := Rect.unit (s := S1x8192) ![0, 0] S1x8192.size inb_S1x8192_S1x8192_0_0

/-- The result window's staging buffer after the body: its one whole-block store of the payload. -/
def out1_2 (x0 : Vec F S1024x8192 .bf16) (x1 : Vec F S1x8192 .f32) : Vec F S1024x1 .f32 :=
  View.canon [⟨r1_2, k1_pay1 (View.ld x0 r1_0) (View.ld x1 r1_1)⟩]

theorem cover1_2 (p0 : Vec F S1024x1 .f32) (y : S1024x1.Idx) :
    ∃ pc ∈ ([⟨r1_2, p0⟩] : List (View.Piece (Elt F) S1024x1 .f32)), y ∈ pc.1.set :=
  View.cover_of_tiled [⟨r1_2, p0⟩] S1024x1.size (by rfl) y

set_option maxHeartbeats 1000000 in
/-- The body on whole staging memrefs: the inputs are handed back as read, the result's buffer holds the payload. -/
theorem sound_kernel1 (c : Dev nD) (E : Set ℕ) (i : grid1.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matvec_kernel i arg1 harg1 arg2 harg2 arg3 harg3) K := by
  simp only [cc1__matvec_kernel_eq_skeleton]; unfold cc1__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data: arrays as found; after the body each input's buffer at its block, the result's at the payload. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Region 2 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: the column-sum kernel. The grid is (column block j, row block i), i innermost; a VMEM accumulator is
    zeroed at i = 0, gains the column sums of the tile times the row weights at every i, and at i = 7 the result
    block w / (acc + stab) is stored. -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's two conditions: the row block is the first (the accumulator is zeroed), the row block is the last (the result is stored). -/
abbrev cFirst2 (i : grid2.Coords) : Prop := (Scalar.cmpi .ne (Scalar.extui (Scalar.cmpi .eq (BitVec.ofNat 32 (i 1).val) 0#32)) 0#32) = 1#1
abbrev cLast2 (i : grid2.Coords) : Prop := k2_cond2 i = 1#1
theorem hFirst2 : ∀ t : Fin cfg2.N, cFirst2 (grid2.coords t) ↔ t.val % 8 = 0 :=
  (by decide +kernel : ∀ t : Fin grid2.N, cFirst2 (grid2.coords t) ↔ t.val % 8 = 0)
theorem hLast2 : ∀ t : Fin cfg2.N, cLast2 (grid2.coords t) ↔ t.val % 8 = 7 :=
  (by decide +kernel : ∀ t : Fin grid2.N, cLast2 (grid2.coords t) ↔ t.val % 8 = 7)
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, ¬ t.val % 8 = 7 → cfg2.idle 2 (grid2.coords t) = true := by decide +kernel
theorem noFlush2_2 : ∀ t : Fin cfg2.N, ¬ t.val % 8 = 7 → (cfg2.win 2).flush t = false := by decide +kernel
theorem live2_2 : ∀ t : Fin cfg2.N, t.val % 8 = 7 → cfg2.idle 2 (grid2.coords t) = false := by decide +kernel

theorem hz2_2 : (![0, 0] : Fin 2 → Nat) = fun _ => 0 := by funext a; fin_cases a <;> rfl

/-- The accumulator after a point's body, from the tile, the row weights and the accumulator it started from (zero at a first row block). -/
def accNew2 (first : Prop) [Decidable first] (x0 : Vec F S1024x1024 .bf16) (x1 : Vec F S1024x1 .f32) (s : Vec F S1x1024 .f32) : Vec F S1x1024 .f32 :=
  k2_pay2 x0 (if first then k2_pay1 (F := F) else s) x1

set_option maxHeartbeats 4000000 in
/-- The body at a first row block that is not the last: the accumulator ends at the tile's weighted column sums over zero; the result's buffer is untouched. -/
theorem sound_kernel2_A (c : Dev nD) (E : Set ℕ) (i : grid2.Coords) (hc1 : cFirst2 i) (hc2 : ¬ cLast2 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k2_pay2 x0 (k2_pay1 (F := F)) x1)) -∗ K ⟨⟩))
      ⊢ wp frame (wpE (defs₀ (F := F)) Variants.none c none) E (cc2__colreduce_kernel i arg2 harg2 arg3 harg3 arg4 harg4 arg5 harg5) K := by
  simp only [cc2__colreduce_kernel_eq_skeleton]; unfold cc2__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_2 inb_S1x1024_S1x1024_0_0 y⟩)).trans ?_
  refine (View.canon_cons_unit_zero (S := S1x1024) hz2_2 inb_S1x1024_S1x1024_0_0 _ _).trans ?_
  sl_unfold_run_names
  rw [View.readCov_unit_zero (S := S1x1024) _ hz2_2, View.readAt_eq_ld, View.readAt_eq_ld, View.ld_unit_zero (S := S1024x1024) hz2_2, View.ld_unit_zero (S := S1024x1) hz2_2]

set_option maxHeartbeats 4000000 in
/-- The body at a row block neither first nor last: the accumulator gains the tile's weighted column sums; the result's buffer is untouched. -/
theorem sound_kernel2_B (c : Dev nD) (E : Set ℕ) (i : grid2.Coords) (hc1 : ¬ cFirst2 i) (hc2 : ¬ cLast2 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k2_pay2 x0 s x1)) -∗ K ⟨⟩))
      ⊢ wp frame (wpE (defs₀ (F := F)) Variants.none c none) E (cc2__colreduce_kernel i arg2 harg2 arg3 harg3 arg4 harg4 arg5 harg5) K := by
  simp only [cc2__colreduce_kernel_eq_skeleton]; unfold cc2__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_2 inb_S1x1024_S1x1024_0_0 y⟩)).trans ?_
  refine (View.canon_cons_unit_zero (S := S1x1024) hz2_2 inb_S1x1024_S1x1024_0_0 _ _).trans ?_
  simp only [View.readAt_eq_ld, View.ld_unit_zero (S := S1024x1024) hz2_2, View.ld_unit_zero (S := S1x1024) hz2_2, View.ld_unit_zero (S := S1024x1) hz2_2]

set_option maxHeartbeats 4000000 in
/-- The body at the last row block (never the first): the accumulator gains the tile's weighted column sums and the result's buffer
    is stored w / (accumulator + stab). -/
theorem sound_kernel2_C (c : Dev nD) (E : Set ℕ) (i : grid2.Coords) (hc1 : ¬ cFirst2 i) (hc2 : cLast2 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k2_pay3 (k2_pay2 x0 s x1))
            ∗ owns (c : Thread nD τ) arg5 fullShare (k2_pay2 x0 s x1)) -∗ K ⟨⟩))
      ⊢ wp frame (wpE (defs₀ (F := F)) Variants.none c none) E (cc2__colreduce_kernel i arg2 harg2 arg3 harg3 arg4 harg4 arg5 harg5) K := by
  simp only [cc2__colreduce_kernel_eq_skeleton]; unfold cc2__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_2 inb_S1x1024_S1x1024_0_0 y⟩)).trans ?_
    refine (View.canon_cons_unit_zero (S := S1x1024) hz2_2 inb_S1x1024_S1x1024_0_0 _ _).trans ?_
    sl_unfold_run_names
    rw [View.readCov_unit_zero (S := S1x1024) _ hz2_2]
    simp only [View.readAt_eq_ld, View.ld_unit_zero (S := S1024x1024) hz2_2, View.ld_unit_zero (S := S1x1024) hz2_2, View.ld_unit_zero (S := S1024x1) hz2_2]
  iexists _; isplitr
  swap; · iexact HS
  ipureintro
  refine (View.read_writes_eq_canon _ _ _ (fun y => ⟨_, List.mem_cons_self, View.mem_set_unit_zero (S := S1x1024) hz2_2 inb_S1x1024_S1x1024_0_0 y⟩)).trans ?_
  refine (View.canon_cons_unit_zero (S := S1x1024) hz2_2 inb_S1x1024_S1x1024_0_0 _ _).trans ?_
  sl_unfold_run_names
  simp only [View.readAt_eq_ld, View.ld_unit_zero (S := S1024x1024) hz2_2, View.ld_unit_zero (S := S1x1024) hz2_2, View.ld_unit_zero (S := S1024x1) hz2_2]

/-! ### The accumulator point by point, the proof data and the body obligation -/

/-- The accumulator after the body at position n: over zero at a first row block, else over what the point before left. -/
def accAt2 (c : Dev nD) : (n : ℕ) → n < cfg2.N → Vec F S1x1024 .f32
  | 0, hn => k2_pay2 (iblk2 V c 0 ⟨0, hn⟩) (k2_pay1 (F := F)) (iblk2 V c 1 ⟨0, hn⟩)
  | n + 1, hn =>
    if (n + 1) % 8 = 0 then k2_pay2 (iblk2 V c 0 ⟨n + 1, hn⟩) (k2_pay1 (F := F)) (iblk2 V c 1 ⟨n + 1, hn⟩)
    else k2_pay2 (iblk2 V c 0 ⟨n + 1, hn⟩) (accAt2 c n (Nat.lt_of_succ_lt hn)) (iblk2 V c 1 ⟨n + 1, hn⟩)

theorem accAt2_first (c : Dev nD) (t : Fin cfg2.N) (h : t.val % 8 = 0) :
    accAt2 V c t.val t.isLt = k2_pay2 (iblk2 V c 0 t) (k2_pay1 (F := F)) (iblk2 V c 1 t) := by
  obtain ⟨n, hn⟩ := t
  cases n with
  | zero => rfl
  | succ n => exact if_pos h

theorem accAt2_next (c : Dev nD) (t : Fin cfg2.N) (h : ¬ t.val % 8 = 0) :
    accAt2 V c t.val t.isLt = k2_pay2 (iblk2 V c 0 t) (accAt2 V c (t.val - 1) (Nat.lt_of_le_of_lt (Nat.sub_le _ _) t.isLt)) (iblk2 V c 1 t) := by
  obtain ⟨n, hn⟩ := t
  cases n with
  | zero => exact absurd (Nat.zero_mod _) h
  | succ n => exact if_neg h

/-- The kernel's accumulator: a whole scoped buffer of its own. -/
abbrev scM2 : Memref sig .tc .vmem S1x1024 .f32 := Memref.whole cc2_scratch0

/-- The class's invariant with the accumulator split out of the scoped rest. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The region invariant before position n: before the first point the class's; afterwards the accumulator at what the point
    before left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2 fullShare (accAt2 V c n hn))
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2 fullShare (accAt2 V c n hn))
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(iprop(owns (c : Thread nD τ) scM2 fullShare (accAt2 V c (n - 1) (by omega)))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the point's position among the row blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  by_cases h0 : t.val % 8 = 0
  · have h7 : ¬ t.val % 8 = 7 := by omega
    rw [Dat.leavesExact_idle (dat2 V c) 2 t (idle2_2 t h7) (noFlush2_2 t h7)]
    rw [accAt2_first V c t h0]
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩⟩
      iapply (sound_kernel2_A c Set.univ (grid2.coords t) ((hFirst2 t).mpr h0) (fun h => h7 ((hLast2 t).mp h)) _ _ _ _ _ _ _ _ (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, Hrest⟩, Hg⟩, Ho, ⟨%d0, H0⟩, ⟨%d1, H1⟩, ⟨%d2, H2⟩⟩
      iapply (sound_kernel2_A c Set.univ (grid2.coords t) ((hFirst2 t).mpr h0) (fun h => h7 ((hLast2 t).mp h)) _ _ _ _ _ _ _ _ (iblk2 V c 0 t) (iblk2 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS2_castSucc V c t, PhiS2_pos V c _ _ hz]
    rw [accAt2_next V c t h0]
    by_cases h7 : t.val % 8 = 7
    · rw [show (dat2 V c).leavesExact 2 t = owns (c : Thread nD τ) (st2_2 t) fullShare ((dat2 V c).after 2 t) from by
        unfold Dat.leavesExact; rw [live2_2 t h7], after2_2, accAt2_next V c t h0]
      iintro ⟨⟨⟨HS, Hrest⟩, Hg⟩, Ho, ⟨%d0, H0⟩, ⟨%d1, H1⟩, ⟨%d2, H2⟩⟩
      iapply (sound_kernel2_C c Set.univ (grid2.coords t) (fun h => h0 ((hFirst2 t).mp h)) ((hLast2 t).mpr h7) _ _ _ _ _ _ _ _ (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat2 V c) 2 t (idle2_2 t h7) (noFlush2_2 t h7)]
      iintro ⟨⟨⟨HS, Hrest⟩, Hg⟩, Ho, ⟨%d0, H0⟩, ⟨%d1, H1⟩, ⟨%d2, H2⟩⟩
      iapply (sound_kernel2_B c Set.univ (grid2.coords t) (fun h => h0 ((hFirst2 t).mp h)) (fun h => h7 ((hLast2 t).mp h)) _ _ _ _ _ _ _ _ (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point; -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, Hrest⟩, Hg⟩
  isplitl [HS Hrest]
  · isplitl [HS]; · iexists _; iexact HS
    iexact Hrest
  iexact Hg

end Cert.Kernel.Hand

end
-- ==== Proof.K.R3.lean ====
/- Region 3 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: the row-sum kernel. One point per block of 1024 rows of the matrix; the point's result block is
    w / (Σ_k M[r,k]·v[k] + stab) for each of its rows r. -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The matrix window's staging buffer holds the point's block of rows. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The vector window's staging buffer holds the whole row vector at every point (fetched once, never moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_2 : Rect S1024x1 := Rect.unit (s := S1024x1) ![0, 0] S1024x1.size inb_S1024x1_S1024x1_0_0
abbrev r3_0 : Rect S1024x8192 := Rect.unit (s := S1024x8192) ![0, 0] S1024x8192.size inb_S1024x8192_S1024x8192_0_0
abbrev r3_1 : Rect S1x8192 := Rect.unit (s := S1x8192) ![0, 0] S1x8192.size inb_S1x8192_S1x8192_0_0

/-- The result window's staging buffer after the body: its one whole-block store of the payload. -/
def out3_2 (x0 : Vec F S1024x8192 .bf16) (x1 : Vec F S1x8192 .f32) : Vec F S1024x1 .f32 :=
  View.canon [⟨r3_2, k3_pay1 (View.ld x0 r3_0) (View.ld x1 r3_1)⟩]

theorem cover3_2 (p0 : Vec F S1024x1 .f32) (y : S1024x1.Idx) :
    ∃ pc ∈ ([⟨r3_2, p0⟩] : List (View.Piece (Elt F) S1024x1 .f32)), y ∈ pc.1.set :=
  View.cover_of_tiled [⟨r3_2, p0⟩] S1024x1.size (by rfl) y

set_option maxHeartbeats 1000000 in
/-- The body on whole staging memrefs: the inputs are handed back as read, the result's buffer holds the payload. -/
theorem sound_kernel3 (c : Dev nD) (E : Set ℕ) (i : grid3.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matvec_kernel i arg1 harg1 arg2 harg2 arg3 harg3) K := by
  simp only [cc3__matvec_kernel_eq_skeleton]; unfold cc3__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data: arrays as found; after the body each input's buffer at its block, the result's at the payload. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/- Region 4 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 4: the column-sum kernel. The grid is (column block j, row block i), i innermost; a VMEM accumulator is
    zeroed at i = 0, gains the column sums of the tile times the row weights at every i, and at i = 7 the result
    block w / (acc + stab) is stored. -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's two conditions: the row block is the first (the accumulator is zeroed), the row block is the last (the result is stored). -/
abbrev cFirst4 (i : grid4.Coords) : Prop := (Scalar.cmpi .ne (Scalar.extui (Scalar.cmpi .eq (BitVec.ofNat 32 (i 1).val) 0#32)) 0#32) = 1#1
abbrev cLast4 (i : grid4.Coords) : Prop := k4_cond2 i = 1#1
theorem hFirst4 : ∀ t : Fin cfg4.N, cFirst4 (grid4.coords t) ↔ t.val % 8 = 0 :=
  (by decide +kernel : ∀ t : Fin grid4.N, cFirst4 (grid4.coords t) ↔ t.val % 8 = 0)
theorem hLast4 : ∀ t : Fin cfg4.N, cLast4 (grid4.coords t) ↔ t.val % 8 = 7 :=
  (by decide +kernel : ∀ t : Fin grid4.N, cLast4 (grid4.coords t) ↔ t.val % 8 = 7)
theorem live4_0 : ∀ t : Fin cfg4.N, cfg4.idle 0 (grid4.coords t) = false := by decide +kernel
theorem live4_1 : ∀ t : Fin cfg4.N, cfg4.idle 1 (grid4.coords t) = false := by decide +kernel
theorem idle4_2 : ∀ t : Fin cfg4.N, ¬ t.val % 8 = 7 → cfg4.idle 2 (grid4.coords t) = true := by decide +kernel
theorem noFlush4_2 : ∀ t : Fin cfg4.N, ¬ t.val % 8 = 7 → (cfg4.win 2).flush t = false := by decide +kernel
theorem live4_2 : ∀ t : Fin cfg4.N, t.val % 8 = 7 → cfg4.idle 2 (grid4.coords t) = false := by decide +kernel

theorem hz2_4 : (![0, 0] : Fin 2 → Nat) = fun _ => 0 := by funext a; fin_cases a <;> rfl

/-- The accumulator after a point's body, from the tile, the row weights and the accumulator it started from (zero at a first row block). -/
def accNew4 (first : Prop) [Decidable first] (x0 : Vec F S1024x1024 .bf16) (x1 : Vec F S1024x1 .f32) (s : Vec F S1x1024 .f32) : Vec F S1x1024 .f32 :=
  k4_pay2 x0 (if first then k4_pay1 (F := F) else s) x1

set_option maxHeartbeats 4000000 in
/-- The body at a first row block that is not the last: the accumulator ends at the tile's weighted column sums over zero; the result's buffer is untouched. -/
theorem sound_kernel4_A (c : Dev nD) (E : Set ℕ) (i : grid4.Coords) (hc1 : cFirst4 i) (hc2 : ¬ cLast4 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k4_pay2 x0 (k4_pay1 (F := F)) x1)) -∗ K ⟨⟩))
      ⊢ wp frame (wpE (defs₀ (F := F)) Variants.none c none) E (cc4__colreduce_kernel i arg2 harg2 arg3 harg3 arg4 harg4 arg5 harg5) K := by
  simp only [cc4__colreduce_kernel_eq_skeleton]; unfold cc4__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_4 inb_S1x1024_S1x1024_0_0 y⟩)).trans ?_
  refine (View.canon_cons_unit_zero (S := S1x1024) hz2_4 inb_S1x1024_S1x1024_0_0 _ _).trans ?_
  sl_unfold_run_names
  rw [View.readCov_unit_zero (S := S1x1024) _ hz2_4, View.readAt_eq_ld, View.readAt_eq_ld, View.ld_unit_zero (S := S1024x1024) hz2_4, View.ld_unit_zero (S := S1024x1) hz2_4]

set_option maxHeartbeats 4000000 in
/-- The body at a row block neither first nor last: the accumulator gains the tile's weighted column sums; the result's buffer is untouched. -/
theorem sound_kernel4_B (c : Dev nD) (E : Set ℕ) (i : grid4.Coords) (hc1 : ¬ cFirst4 i) (hc2 : ¬ cLast4 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k4_pay2 x0 s x1)) -∗ K ⟨⟩))
      ⊢ wp frame (wpE (defs₀ (F := F)) Variants.none c none) E (cc4__colreduce_kernel i arg2 harg2 arg3 harg3 arg4 harg4 arg5 harg5) K := by
  simp only [cc4__colreduce_kernel_eq_skeleton]; unfold cc4__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_4 inb_S1x1024_S1x1024_0_0 y⟩)).trans ?_
  refine (View.canon_cons_unit_zero (S := S1x1024) hz2_4 inb_S1x1024_S1x1024_0_0 _ _).trans ?_
  simp only [View.readAt_eq_ld, View.ld_unit_zero (S := S1024x1024) hz2_4, View.ld_unit_zero (S := S1x1024) hz2_4, View.ld_unit_zero (S := S1024x1) hz2_4]

set_option maxHeartbeats 4000000 in
/-- The body at the last row block (never the first): the accumulator gains the tile's weighted column sums and the result's buffer
    is stored w / (accumulator + stab). -/
theorem sound_kernel4_C (c : Dev nD) (E : Set ℕ) (i : grid4.Coords) (hc1 : ¬ cFirst4 i) (hc2 : cLast4 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k4_pay3 (k4_pay2 x0 s x1))
            ∗ owns (c : Thread nD τ) arg5 fullShare (k4_pay2 x0 s x1)) -∗ K ⟨⟩))
      ⊢ wp frame (wpE (defs₀ (F := F)) Variants.none c none) E (cc4__colreduce_kernel i arg2 harg2 arg3 harg3 arg4 harg4 arg5 harg5) K := by
  simp only [cc4__colreduce_kernel_eq_skeleton]; unfold cc4__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_4 inb_S1x1024_S1x1024_0_0 y⟩)).trans ?_
    refine (View.canon_cons_unit_zero (S := S1x1024) hz2_4 inb_S1x1024_S1x1024_0_0 _ _).trans ?_
    sl_unfold_run_names
    rw [View.readCov_unit_zero (S := S1x1024) _ hz2_4]
    simp only [View.readAt_eq_ld, View.ld_unit_zero (S := S1024x1024) hz2_4, View.ld_unit_zero (S := S1x1024) hz2_4, View.ld_unit_zero (S := S1024x1) hz2_4]
  iexists _; isplitr
  swap; · iexact HS
  ipureintro
  refine (View.read_writes_eq_canon _ _ _ (fun y => ⟨_, List.mem_cons_self, View.mem_set_unit_zero (S := S1x1024) hz2_4 inb_S1x1024_S1x1024_0_0 y⟩)).trans ?_
  refine (View.canon_cons_unit_zero (S := S1x1024) hz2_4 inb_S1x1024_S1x1024_0_0 _ _).trans ?_
  sl_unfold_run_names
  simp only [View.readAt_eq_ld, View.ld_unit_zero (S := S1024x1024) hz2_4, View.ld_unit_zero (S := S1x1024) hz2_4, View.ld_unit_zero (S := S1024x1) hz2_4]

/-! ### The accumulator point by point, the proof data and the body obligation -/

/-- The accumulator after the body at position n: over zero at a first row block, else over what the point before left. -/
def accAt4 (c : Dev nD) : (n : ℕ) → n < cfg4.N → Vec F S1x1024 .f32
  | 0, hn => k4_pay2 (iblk4 V c 0 ⟨0, hn⟩) (k4_pay1 (F := F)) (iblk4 V c 1 ⟨0, hn⟩)
  | n + 1, hn =>
    if (n + 1) % 8 = 0 then k4_pay2 (iblk4 V c 0 ⟨n + 1, hn⟩) (k4_pay1 (F := F)) (iblk4 V c 1 ⟨n + 1, hn⟩)
    else k4_pay2 (iblk4 V c 0 ⟨n + 1, hn⟩) (accAt4 c n (Nat.lt_of_succ_lt hn)) (iblk4 V c 1 ⟨n + 1, hn⟩)

theorem accAt4_first (c : Dev nD) (t : Fin cfg4.N) (h : t.val % 8 = 0) :
    accAt4 V c t.val t.isLt = k4_pay2 (iblk4 V c 0 t) (k4_pay1 (F := F)) (iblk4 V c 1 t) := by
  obtain ⟨n, hn⟩ := t
  cases n with
  | zero => rfl
  | succ n => exact if_pos h

theorem accAt4_next (c : Dev nD) (t : Fin cfg4.N) (h : ¬ t.val % 8 = 0) :
    accAt4 V c t.val t.isLt = k4_pay2 (iblk4 V c 0 t) (accAt4 V c (t.val - 1) (Nat.lt_of_le_of_lt (Nat.sub_le _ _) t.isLt)) (iblk4 V c 1 t) := by
  obtain ⟨n, hn⟩ := t
  cases n with
  | zero => exact absurd (Nat.zero_mod _) h
  | succ n => exact if_neg h

/-- The kernel's accumulator: a whole scoped buffer of its own. -/
abbrev scM4 : Memref sig .tc .vmem S1x1024 .f32 := Memref.whole cc4_scratch0

/-- The class's invariant with the accumulator split out of the scoped rest. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The region invariant before position n: before the first point the class's; afterwards the accumulator at what the point
    before left, the other scoped buffers at anything, the generator register at some state. -/
def PhiS4 (c : Dev nD) : (n : ℕ) → n ≤ cfg4.N → sProp 𝕄
  | 0, _ => Pipeline.ΦA spec4 c
  | n + 1, hn => iprop(iprop(iprop(owns (c : Thread nD τ) scM4 fullShare (accAt4 V c n hn))
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4 fullShare (accAt4 V c n hn))
      ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(iprop(owns (c : Thread nD τ) scM4 fullShare (accAt4 V c (n - 1) (by omega)))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (accAt4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (accAt4 V c t.val t.isLt) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point, by the point's position among the row blocks. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (st4_0 t) fullShare ((dat4 V c).after 0 t) from by
    unfold Dat.leavesExact; rw [live4_0 t], after4_0]
  rw [show (dat4 V c).leavesExact 1 t = owns (c : Thread nD τ) (st4_1 t) fullShare ((dat4 V c).after 1 t) from by
    unfold Dat.leavesExact; rw [live4_1 t], after4_1]
  by_cases h0 : t.val % 8 = 0
  · have h7 : ¬ t.val % 8 = 7 := by omega
    rw [Dat.leavesExact_idle (dat4 V c) 2 t (idle4_2 t h7) (noFlush4_2 t h7)]
    rw [accAt4_first V c t h0]
    by_cases hz : t.val = 0
    · rw [PhiS4_castSucc V c t, PhiS4_zero V c _ _ hz, PhiA4_eq]
      iintro ⟨⟨⟨HS, Hrest⟩, Hg⟩, Ho, ⟨%d0, H0⟩, ⟨%d1, H1⟩, ⟨%d2, H2⟩⟩
      iapply (sound_kernel4_A c Set.univ (grid4.coords t) ((hFirst4 t).mpr h0) (fun h => h7 ((hLast4 t).mp h)) _ _ _ _ _ _ _ _ (iblk4 V c 0 t) (iblk4 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS, Hrest⟩, Hg⟩, Ho, ⟨%d0, H0⟩, ⟨%d1, H1⟩, ⟨%d2, H2⟩⟩
      iapply (sound_kernel4_A c Set.univ (grid4.coords t) ((hFirst4 t).mpr h0) (fun h => h7 ((hLast4 t).mp h)) _ _ _ _ _ _ _ _ (iblk4 V c 0 t) (iblk4 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS4_castSucc V c t, PhiS4_pos V c _ _ hz]
    rw [accAt4_next V c t h0]
    by_cases h7 : t.val % 8 = 7
    · rw [show (dat4 V c).leavesExact 2 t = owns (c : Thread nD τ) (st4_2 t) fullShare ((dat4 V c).after 2 t) from by
        unfold Dat.leavesExact; rw [live4_2 t h7], after4_2, accAt4_next V c t h0]
      iintro ⟨⟨⟨HS, Hrest⟩, Hg⟩, Ho, ⟨%d0, H0⟩, ⟨%d1, H1⟩, ⟨%d2, H2⟩⟩
      iapply (sound_kernel4_C c Set.univ (grid4.coords t) (fun h => h0 ((hFirst4 t).mp h)) ((hLast4 t).mpr h7) _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat4 V c) 2 t (idle4_2 t h7) (noFlush4_2 t h7)]
      iintro ⟨⟨⟨HS, Hrest⟩, Hg⟩, Ho, ⟨%d0, H0⟩, ⟨%d1, H1⟩, ⟨%d2, H2⟩⟩
      iapply (sound_kernel4_B c Set.univ (grid4.coords t) (fun h => h0 ((hFirst4 t).mp h)) (fun h => h7 ((hLast4 t).mp h)) _ _ _ _ _ _ _ _ (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

/-- What the launch hands the region is the invariant before the first point; -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- and after the last point the invariant gives it back, the accumulator's contents forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 64 := N_4; omega), PhiA4_eq]
  iintro ⟨⟨HS, Hrest⟩, Hg⟩
  isplitl [HS Hrest]
  · isplitl [HS]; · iexists _; iexact HS
    iexact Hrest
  iexact Hg

end Cert.Kernel.Hand

end
-- ==== Proof.K.R5.lean ====
/- Region 5 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 5: the row-sum kernel. One point per block of 1024 rows of the matrix; the point's result block is
    w / (Σ_k M[r,k]·v[k] + stab) for each of its rows r. -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The matrix window's staging buffer holds the point's block of rows. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The vector window's staging buffer holds the whole row vector at every point (fetched once, never moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_2 : Rect S1024x1 := Rect.unit (s := S1024x1) ![0, 0] S1024x1.size inb_S1024x1_S1024x1_0_0
abbrev r5_0 : Rect S1024x8192 := Rect.unit (s := S1024x8192) ![0, 0] S1024x8192.size inb_S1024x8192_S1024x8192_0_0
abbrev r5_1 : Rect S1x8192 := Rect.unit (s := S1x8192) ![0, 0] S1x8192.size inb_S1x8192_S1x8192_0_0

/-- The result window's staging buffer after the body: its one whole-block store of the payload. -/
def out5_2 (x0 : Vec F S1024x8192 .bf16) (x1 : Vec F S1x8192 .f32) : Vec F S1024x1 .f32 :=
  View.canon [⟨r5_2, k5_pay1 (View.ld x0 r5_0) (View.ld x1 r5_1)⟩]

theorem cover5_2 (p0 : Vec F S1024x1 .f32) (y : S1024x1.Idx) :
    ∃ pc ∈ ([⟨r5_2, p0⟩] : List (View.Piece (Elt F) S1024x1 .f32)), y ∈ pc.1.set :=
  View.cover_of_tiled [⟨r5_2, p0⟩] S1024x1.size (by rfl) y

set_option maxHeartbeats 1000000 in
/-- The body on whole staging memrefs: the inputs are handed back as read, the result's buffer holds the payload. -/
theorem sound_kernel5 (c : Dev nD) (E : Set ℕ) (i : grid5.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matvec_kernel i arg1 harg1 arg2 harg2 arg3 harg3) K := by
  simp only [cc5__matvec_kernel_eq_skeleton]; unfold cc5__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data: arrays as found; after the body each input's buffer at its block, the result's at the payload. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/- Region 6 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 6: the column-sum kernel. The grid is (column block j, row block i), i innermost; a VMEM accumulator is
    zeroed at i = 0, gains the column sums of the tile times the row weights at every i, and at i = 7 the result
    block w / (acc + stab) is stored. -/

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The body's two conditions: the row block is the first (the accumulator is zeroed), the row block is the last (the result is stored). -/
abbrev cFirst6 (i : grid6.Coords) : Prop := (Scalar.cmpi .ne (Scalar.extui (Scalar.cmpi .eq (BitVec.ofNat 32 (i 1).val) 0#32)) 0#32) = 1#1
abbrev cLast6 (i : grid6.Coords) : Prop := k6_cond2 i = 1#1
theorem hFirst6 : ∀ t : Fin cfg6.N, cFirst6 (grid6.coords t) ↔ t.val % 8 = 0 :=
  (by decide +kernel : ∀ t : Fin grid6.N, cFirst6 (grid6.coords t) ↔ t.val % 8 = 0)
theorem hLast6 : ∀ t : Fin cfg6.N, cLast6 (grid6.coords t) ↔ t.val % 8 = 7 :=
  (by decide +kernel : ∀ t : Fin grid6.N, cLast6 (grid6.coords t) ↔ t.val % 8 = 7)
theorem live6_0 : ∀ t : Fin cfg6.N, cfg6.idle 0 (grid6.coords t) = false := by decide +kernel
theorem live6_1 : ∀ t : Fin cfg6.N, cfg6.idle 1 (grid6.coords t) = false := by decide +kernel
theorem idle6_2 : ∀ t : Fin cfg6.N, ¬ t.val % 8 = 7 → cfg6.idle 2 (grid6.coords t) = true := by decide +kernel
theorem noFlush6_2 : ∀ t : Fin cfg6.N, ¬ t.val % 8 = 7 → (cfg6.win 2).flush t = false := by decide +kernel
theorem live6_2 : ∀ t : Fin cfg6.N, t.val % 8 = 7 → cfg6.idle 2 (grid6.coords t) = false := by decide +kernel

theorem hz2_6 : (![0, 0] : Fin 2 → Nat) = fun _ => 0 := by funext a; fin_cases a <;> rfl

/-- The accumulator after a point's body, from the tile, the row weights and the accumulator it started from (zero at a first row block). -/
def accNew6 (first : Prop) [Decidable first] (x0 : Vec F S1024x1024 .bf16) (x1 : Vec F S1024x1 .f32) (s : Vec F S1x1024 .f32) : Vec F S1x1024 .f32 :=
  k6_pay2 x0 (if first then k6_pay1 (F := F) else s) x1

set_option maxHeartbeats 4000000 in
/-- The body at a first row block that is not the last: the accumulator ends at the tile's weighted column sums over zero; the result's buffer is untouched. -/
theorem sound_kernel6_A (c : Dev nD) (E : Set ℕ) (i : grid6.Coords) (hc1 : cFirst6 i) (hc2 : ¬ cLast6 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k6_pay2 x0 (k6_pay1 (F := F)) x1)) -∗ K ⟨⟩))
      ⊢ wp frame (wpE (defs₀ (F := F)) Variants.none c none) E (cc6__colreduce_kernel i arg2 harg2 arg3 harg3 arg4 harg4 arg5 harg5) K := by
  simp only [cc6__colreduce_kernel_eq_skeleton]; unfold cc6__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_6 inb_S1x1024_S1x1024_0_0 y⟩)).trans ?_
  refine (View.canon_cons_unit_zero (S := S1x1024) hz2_6 inb_S1x1024_S1x1024_0_0 _ _).trans ?_
  sl_unfold_run_names
  rw [View.readCov_unit_zero (S := S1x1024) _ hz2_6, View.readAt_eq_ld, View.readAt_eq_ld, View.ld_unit_zero (S := S1024x1024) hz2_6, View.ld_unit_zero (S := S1024x1) hz2_6]

set_option maxHeartbeats 4000000 in
/-- The body at a row block neither first nor last: the accumulator gains the tile's weighted column sums; the result's buffer is untouched. -/
theorem sound_kernel6_B (c : Dev nD) (E : Set ℕ) (i : grid6.Coords) (hc1 : ¬ cFirst6 i) (hc2 : ¬ cLast6 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k6_pay2 x0 s x1)) -∗ K ⟨⟩))
      ⊢ wp frame (wpE (defs₀ (F := F)) Variants.none c none) E (cc6__colreduce_kernel i arg2 harg2 arg3 harg3 arg4 harg4 arg5 harg5) K := by
  simp only [cc6__colreduce_kernel_eq_skeleton]; unfold cc6__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_6 inb_S1x1024_S1x1024_0_0 y⟩)).trans ?_
  refine (View.canon_cons_unit_zero (S := S1x1024) hz2_6 inb_S1x1024_S1x1024_0_0 _ _).trans ?_
  simp only [View.readAt_eq_ld, View.ld_unit_zero (S := S1024x1024) hz2_6, View.ld_unit_zero (S := S1x1024) hz2_6, View.ld_unit_zero (S := S1024x1) hz2_6]

set_option maxHeartbeats 4000000 in
/-- The body at the last row block (never the first): the accumulator gains the tile's weighted column sums and the result's buffer
    is stored w / (accumulator + stab). -/
theorem sound_kernel6_C (c : Dev nD) (E : Set ℕ) (i : grid6.Coords) (hc1 : ¬ cFirst6 i) (hc2 : cLast6 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k6_pay3 (k6_pay2 x0 s x1))
            ∗ owns (c : Thread nD τ) arg5 fullShare (k6_pay2 x0 s x1)) -∗ K ⟨⟩))
      ⊢ wp frame (wpE (defs₀ (F := F)) Variants.none c none) E (cc6__colreduce_kernel i arg2 harg2 arg3 harg3 arg4 harg4 arg5 harg5) K := by
  simp only [cc6__colreduce_kernel_eq_skeleton]; unfold cc6__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_6 inb_S1x1024_S1x1024_0_0 y⟩)).trans ?_
    refine (View.canon_cons_unit_zero (S := S1x1024) hz2_6 inb_S1x1024_S1x1024_0_0 _ _).trans ?_
    sl_unfold_run_names
    rw [View.readCov_unit_zero (S := S1x1024) _ hz2_6]
    simp only [View.readAt_eq_ld, View.ld_unit_zero (S := S1024x1024) hz2_6, View.ld_unit_zero (S := S1x1024) hz2_6, View.ld_unit_zero (S := S1024x1) hz2_6]
  iexists _; isplitr
  swap; · iexact HS
  ipureintro
  refine (View.read_writes_eq_canon _ _ _ (fun y => ⟨_, List.mem_cons_self, View.mem_set_unit_zero (S := S1x1024) hz2_6 inb_S1x1024_S1x1024_0_0 y⟩)).trans ?_
  refine (View.canon_cons_unit_zero (S := S1x1024) hz2_6 inb_S1x1024_S1x1024_0_0 _ _).trans ?_
  sl_unfold_run_names
  simp only [View.readAt_eq_ld, View.ld_unit_zero (S := S1024x1024) hz2_6, View.ld_unit_zero (S := S1x1024) hz2_6, View.ld_unit_zero (S := S1024x1) hz2_6]

/-! ### The accumulator point by point, the proof data and the body obligation -/

/-- The accumulator after the body at position n: over zero at a first row block, else over what the point before left. -/
def accAt6 (c : Dev nD) : (n : ℕ) → n < cfg6.N → Vec F S1x1024 .f32
  | 0, hn => k6_pay2 (iblk6 V c 0 ⟨0, hn⟩) (k6_pay1 (F := F)) (iblk6 V c 1 ⟨0, hn⟩)
  | n + 1, hn =>
    if (n + 1) % 8 = 0 then k6_pay2 (iblk6 V c 0 ⟨n + 1, hn⟩) (k6_pay1 (F := F)) (iblk6 V c 1 ⟨n + 1, hn⟩)
    else k6_pay2 (iblk6 V c 0 ⟨n + 1, hn⟩) (accAt6 c n (Nat.lt_of_succ_lt hn)) (iblk6 V c 1 ⟨n + 1, hn⟩)

theorem accAt6_first (c : Dev nD) (t : Fin cfg6.N) (h : t.val % 8 = 0) :
    accAt6 V c t.val t.isLt = k6_pay2 (iblk6 V c 0 t) (k6_pay1 (F := F)) (iblk6 V c 1 t) := by
  obtain ⟨n, hn⟩ := t
  cases n with
  | zero => rfl
  | succ n => exact if_pos h

theorem accAt6_next (c : Dev nD) (t : Fin cfg6.N) (h : ¬ t.val % 8 = 0) :
    accAt6 V c t.val t.isLt = k6_pay2 (iblk6 V c 0 t) (accAt6 V c (t.val - 1) (Nat.lt_of_le_of_lt (Nat.sub_le _ _) t.isLt)) (iblk6 V c 1 t) := by
  obtain ⟨n, hn⟩ := t
  cases n with
  | zero => exact absurd (Nat.zero_mod _) h
  | succ n => exact if_neg h

/-- The kernel's accumulator: a whole scoped buffer of its own. -/
abbrev scM6 : Memref sig .tc .vmem S1x1024 .f32 := Memref.whole cc6_scratch0

/-- The class's invariant with the accumulator split out of the scoped rest. -/
theorem PhiA6_eq (c : Dev nD) :
    (Pipeline.ΦA spec6 c : sProp 𝕄)
      = iprop(iprop(iprop((∃ d, owns (c : Thread nD τ) scM6 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- The region invariant before position n: before the first point the class's; afterwards the accumulator at what the point
    before left, the other scoped buffers at anything, the generator register at some state. -/
def PhiS6 (c : Dev nD) : (n : ℕ) → n ≤ cfg6.N → sProp 𝕄
  | 0, _ => Pipeline.ΦA spec6 c
  | n + 1, hn => iprop(iprop(iprop(owns (c : Thread nD τ) scM6 fullShare (accAt6 V c n hn))
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6 fullShare (accAt6 V c n hn))
      ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(iprop(owns (c : Thread nD τ) scM6 fullShare (accAt6 V c (n - 1) (by omega)))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (accAt6 V c t.val t.isLt)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay3 (accAt6 V c t.val t.isLt) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point, by the point's position among the row blocks. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 64 := lt_of_lt_of_eq t.isLt (show cfg6.N = 64 from N_6)
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  by_cases h0 : t.val % 8 = 0
  · have h7 : ¬ t.val % 8 = 7 := by omega
    rw [Dat.leavesExact_idle (dat6 V c) 2 t (idle6_2 t h7) (noFlush6_2 t h7)]
    rw [accAt6_first V c t h0]
    by_cases hz : t.val = 0
    · rw [PhiS6_castSucc V c t, PhiS6_zero V c _ _ hz, PhiA6_eq]
      iintro ⟨⟨⟨HS, Hrest⟩, Hg⟩, Ho, ⟨%d0, H0⟩, ⟨%d1, H1⟩, ⟨%d2, H2⟩⟩
      iapply (sound_kernel6_A c Set.univ (grid6.coords t) ((hFirst6 t).mpr h0) (fun h => h7 ((hLast6 t).mp h)) _ _ _ _ _ _ _ _ (iblk6 V c 0 t) (iblk6 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS6_castSucc V c t, PhiS6_pos V c _ _ hz]
      iintro ⟨⟨⟨HS, Hrest⟩, Hg⟩, Ho, ⟨%d0, H0⟩, ⟨%d1, H1⟩, ⟨%d2, H2⟩⟩
      iapply (sound_kernel6_A c Set.univ (grid6.coords t) ((hFirst6 t).mpr h0) (fun h => h7 ((hLast6 t).mp h)) _ _ _ _ _ _ _ _ (iblk6 V c 0 t) (iblk6 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS6_castSucc V c t, PhiS6_pos V c _ _ hz]
    rw [accAt6_next V c t h0]
    by_cases h7 : t.val % 8 = 7
    · rw [show (dat6 V c).leavesExact 2 t = owns (c : Thread nD τ) (st6_2 t) fullShare ((dat6 V c).after 2 t) from by
        unfold Dat.leavesExact; rw [live6_2 t h7], after6_2, accAt6_next V c t h0]
      iintro ⟨⟨⟨HS, Hrest⟩, Hg⟩, Ho, ⟨%d0, H0⟩, ⟨%d1, H1⟩, ⟨%d2, H2⟩⟩
      iapply (sound_kernel6_C c Set.univ (grid6.coords t) (fun h => h0 ((hFirst6 t).mp h)) ((hLast6 t).mpr h7) _ _ _ _ _ _ _ _ (iblk6 V c 0 t) (iblk6 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat6 V c) 2 t (idle6_2 t h7) (noFlush6_2 t h7)]
      iintro ⟨⟨⟨HS, Hrest⟩, Hg⟩, Ho, ⟨%d0, H0⟩, ⟨%d1, H1⟩, ⟨%d2, H2⟩⟩
      iapply (sound_kernel6_B c Set.univ (grid6.coords t) (fun h => h0 ((hFirst6 t).mp h)) (fun h => h7 ((hLast6 t).mp h)) _ _ _ _ _ _ _ _ (iblk6 V c 0 t) (iblk6 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation6 (c : Dev nD) : BodyObligation (dat6 (F := F) V c) (defs₀ (F := F)) Variants.none () Set.univ := fun t => by
  rw [bigSep_W6, bigSep_W6]
  exact sound_body6 V c t

/-- What the launch hands the region is the invariant before the first point; -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- and after the last point the invariant gives it back, the accumulator's contents forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 64 := N_6; omega), PhiA6_eq]
  iintro ⟨⟨HS, Hrest⟩, Hg⟩
  isplitl [HS Hrest]
  · isplitl [HS]; · iexists _; iexact HS
    iexact Hrest
  iexact Hg

end Cert.Kernel.Hand

end
-- ==== Proof.K.R7.lean ====
/- Region 7 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 7: the row-sum kernel. One point per block of 1024 rows of the matrix; the point's result block is
    w / (Σ_k M[r,k]·v[k] + stab) for each of its rows r. -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The matrix window's staging buffer holds the point's block of rows. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The vector window's staging buffer holds the whole row vector at every point (fetched once, never moved). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_2 : Rect S1024x1 := Rect.unit (s := S1024x1) ![0, 0] S1024x1.size inb_S1024x1_S1024x1_0_0
abbrev r7_0 : Rect S1024x8192 := Rect.unit (s := S1024x8192) ![0, 0] S1024x8192.size inb_S1024x8192_S1024x8192_0_0
abbrev r7_1 : Rect S1x8192 := Rect.unit (s := S1x8192) ![0, 0] S1x8192.size inb_S1x8192_S1x8192_0_0

/-- The result window's staging buffer after the body: its one whole-block store of the payload. -/
def out7_2 (x0 : Vec F S1024x8192 .bf16) (x1 : Vec F S1x8192 .f32) : Vec F S1024x1 .f32 :=
  View.canon [⟨r7_2, k7_pay1 (View.ld x0 r7_0) (View.ld x1 r7_1)⟩]

theorem cover7_2 (p0 : Vec F S1024x1 .f32) (y : S1024x1.Idx) :
    ∃ pc ∈ ([⟨r7_2, p0⟩] : List (View.Piece (Elt F) S1024x1 .f32)), y ∈ pc.1.set :=
  View.cover_of_tiled [⟨r7_2, p0⟩] S1024x1.size (by rfl) y

set_option maxHeartbeats 1000000 in
/-- The body on whole staging memrefs: the inputs are handed back as read, the result's buffer holds the payload. -/
theorem sound_kernel7 (c : Dev nD) (E : Set ℕ) (i : grid7.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__matvec_kernel i arg1 harg1 arg2 harg2 arg3 harg3) K := by
  simp only [cc7__matvec_kernel_eq_skeleton]; unfold cc7__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The region's proof data: arrays as found; after the body each input's buffer at its block, the result's at the payload. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
/- Region 8 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 8: the column-sum kernel. The grid is (column block j, row block i), i innermost; a VMEM accumulator is
    zeroed at i = 0, gains the column sums of the tile times the row weights at every i, and at i = 7 the result
    block w / (acc + stab) is stored. -/

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The body's two conditions: the row block is the first (the accumulator is zeroed), the row block is the last (the result is stored). -/
abbrev cFirst8 (i : grid8.Coords) : Prop := (Scalar.cmpi .ne (Scalar.extui (Scalar.cmpi .eq (BitVec.ofNat 32 (i 1).val) 0#32)) 0#32) = 1#1
abbrev cLast8 (i : grid8.Coords) : Prop := k8_cond2 i = 1#1
theorem hFirst8 : ∀ t : Fin cfg8.N, cFirst8 (grid8.coords t) ↔ t.val % 8 = 0 :=
  (by decide +kernel : ∀ t : Fin grid8.N, cFirst8 (grid8.coords t) ↔ t.val % 8 = 0)
theorem hLast8 : ∀ t : Fin cfg8.N, cLast8 (grid8.coords t) ↔ t.val % 8 = 7 :=
  (by decide +kernel : ∀ t : Fin grid8.N, cLast8 (grid8.coords t) ↔ t.val % 8 = 7)
theorem live8_0 : ∀ t : Fin cfg8.N, cfg8.idle 0 (grid8.coords t) = false := by decide +kernel
theorem live8_1 : ∀ t : Fin cfg8.N, cfg8.idle 1 (grid8.coords t) = false := by decide +kernel
theorem idle8_2 : ∀ t : Fin cfg8.N, ¬ t.val % 8 = 7 → cfg8.idle 2 (grid8.coords t) = true := by decide +kernel
theorem noFlush8_2 : ∀ t : Fin cfg8.N, ¬ t.val % 8 = 7 → (cfg8.win 2).flush t = false := by decide +kernel
theorem live8_2 : ∀ t : Fin cfg8.N, t.val % 8 = 7 → cfg8.idle 2 (grid8.coords t) = false := by decide +kernel

theorem hz2_8 : (![0, 0] : Fin 2 → Nat) = fun _ => 0 := by funext a; fin_cases a <;> rfl

/-- The accumulator after a point's body, from the tile, the row weights and the accumulator it started from (zero at a first row block). -/
def accNew8 (first : Prop) [Decidable first] (x0 : Vec F S1024x1024 .bf16) (x1 : Vec F S1024x1 .f32) (s : Vec F S1x1024 .f32) : Vec F S1x1024 .f32 :=
  k8_pay2 x0 (if first then k8_pay1 (F := F) else s) x1

set_option maxHeartbeats 4000000 in
/-- The body at a first row block that is not the last: the accumulator ends at the tile's weighted column sums over zero; the result's buffer is untouched. -/
theorem sound_kernel8_A (c : Dev nD) (E : Set ℕ) (i : grid8.Coords) (hc1 : cFirst8 i) (hc2 : ¬ cLast8 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k8_pay2 x0 (k8_pay1 (F := F)) x1)) -∗ K ⟨⟩))
      ⊢ wp frame (wpE (defs₀ (F := F)) Variants.none c none) E (cc8__colreduce_kernel i arg2 harg2 arg3 harg3 arg4 harg4 arg5 harg5) K := by
  simp only [cc8__colreduce_kernel_eq_skeleton]; unfold cc8__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_8 inb_S1x1024_S1x1024_0_0 y⟩)).trans ?_
  refine (View.canon_cons_unit_zero (S := S1x1024) hz2_8 inb_S1x1024_S1x1024_0_0 _ _).trans ?_
  sl_unfold_run_names
  rw [View.readCov_unit_zero (S := S1x1024) _ hz2_8, View.readAt_eq_ld, View.readAt_eq_ld, View.ld_unit_zero (S := S1024x1024) hz2_8, View.ld_unit_zero (S := S1024x1) hz2_8]

set_option maxHeartbeats 4000000 in
/-- The body at a row block neither first nor last: the accumulator gains the tile's weighted column sums; the result's buffer is untouched. -/
theorem sound_kernel8_B (c : Dev nD) (E : Set ℕ) (i : grid8.Coords) (hc1 : ¬ cFirst8 i) (hc2 : ¬ cLast8 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k8_pay2 x0 s x1)) -∗ K ⟨⟩))
      ⊢ wp frame (wpE (defs₀ (F := F)) Variants.none c none) E (cc8__colreduce_kernel i arg2 harg2 arg3 harg3 arg4 harg4 arg5 harg5) K := by
  simp only [cc8__colreduce_kernel_eq_skeleton]; unfold cc8__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_8 inb_S1x1024_S1x1024_0_0 y⟩)).trans ?_
  refine (View.canon_cons_unit_zero (S := S1x1024) hz2_8 inb_S1x1024_S1x1024_0_0 _ _).trans ?_
  simp only [View.readAt_eq_ld, View.ld_unit_zero (S := S1024x1024) hz2_8, View.ld_unit_zero (S := S1x1024) hz2_8, View.ld_unit_zero (S := S1024x1) hz2_8]

set_option maxHeartbeats 4000000 in
/-- The body at the last row block (never the first): the accumulator gains the tile's weighted column sums and the result's buffer
    is stored w / (accumulator + stab). -/
theorem sound_kernel8_C (c : Dev nD) (E : Set ℕ) (i : grid8.Coords) (hc1 : ¬ cFirst8 i) (hc2 : cLast8 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k8_pay3 (k8_pay2 x0 s x1))
            ∗ owns (c : Thread nD τ) arg5 fullShare (k8_pay2 x0 s x1)) -∗ K ⟨⟩))
      ⊢ wp frame (wpE (defs₀ (F := F)) Variants.none c none) E (cc8__colreduce_kernel i arg2 harg2 arg3 harg3 arg4 harg4 arg5 harg5) K := by
  simp only [cc8__colreduce_kernel_eq_skeleton]; unfold cc8__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_8 inb_S1x1024_S1x1024_0_0 y⟩)).trans ?_
    refine (View.canon_cons_unit_zero (S := S1x1024) hz2_8 inb_S1x1024_S1x1024_0_0 _ _).trans ?_
    sl_unfold_run_names
    rw [View.readCov_unit_zero (S := S1x1024) _ hz2_8]
    simp only [View.readAt_eq_ld, View.ld_unit_zero (S := S1024x1024) hz2_8, View.ld_unit_zero (S := S1x1024) hz2_8, View.ld_unit_zero (S := S1024x1) hz2_8]
  iexists _; isplitr
  swap; · iexact HS
  ipureintro
  refine (View.read_writes_eq_canon _ _ _ (fun y => ⟨_, List.mem_cons_self, View.mem_set_unit_zero (S := S1x1024) hz2_8 inb_S1x1024_S1x1024_0_0 y⟩)).trans ?_
  refine (View.canon_cons_unit_zero (S := S1x1024) hz2_8 inb_S1x1024_S1x1024_0_0 _ _).trans ?_
  sl_unfold_run_names
  simp only [View.readAt_eq_ld, View.ld_unit_zero (S := S1024x1024) hz2_8, View.ld_unit_zero (S := S1x1024) hz2_8, View.ld_unit_zero (S := S1024x1) hz2_8]

/-! ### The accumulator point by point, the proof data and the body obligation -/

/-- The accumulator after the body at position n: over zero at a first row block, else over what the point before left. -/
def accAt8 (c : Dev nD) : (n : ℕ) → n < cfg8.N → Vec F S1x1024 .f32
  | 0, hn => k8_pay2 (iblk8 V c 0 ⟨0, hn⟩) (k8_pay1 (F := F)) (iblk8 V c 1 ⟨0, hn⟩)
  | n + 1, hn =>
    if (n + 1) % 8 = 0 then k8_pay2 (iblk8 V c 0 ⟨n + 1, hn⟩) (k8_pay1 (F := F)) (iblk8 V c 1 ⟨n + 1, hn⟩)
    else k8_pay2 (iblk8 V c 0 ⟨n + 1, hn⟩) (accAt8 c n (Nat.lt_of_succ_lt hn)) (iblk8 V c 1 ⟨n + 1, hn⟩)

theorem accAt8_first (c : Dev nD) (t : Fin cfg8.N) (h : t.val % 8 = 0) :
    accAt8 V c t.val t.isLt = k8_pay2 (iblk8 V c 0 t) (k8_pay1 (F := F)) (iblk8 V c 1 t) := by
  obtain ⟨n, hn⟩ := t
  cases n with
  | zero => rfl
  | succ n => exact if_pos h

theorem accAt8_next (c : Dev nD) (t : Fin cfg8.N) (h : ¬ t.val % 8 = 0) :
    accAt8 V c t.val t.isLt = k8_pay2 (iblk8 V c 0 t) (accAt8 V c (t.val - 1) (Nat.lt_of_le_of_lt (Nat.sub_le _ _) t.isLt)) (iblk8 V c 1 t) := by
  obtain ⟨n, hn⟩ := t
  cases n with
  | zero => exact absurd (Nat.zero_mod _) h
  | succ n => exact if_neg h

/-- The kernel's accumulator: a whole scoped buffer of its own. -/
abbrev scM8 : Memref sig .tc .vmem S1x1024 .f32 := Memref.whole cc8_scratch0

/-- The class's invariant with the accumulator split out of the scoped rest. -/
theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-- The region invariant before position n: before the first point the class's; afterwards the accumulator at what the point
    before left, the other scoped buffers at anything, the generator register at some state. -/
def PhiS8 (c : Dev nD) : (n : ℕ) → n ≤ cfg8.N → sProp 𝕄
  | 0, _ => Pipeline.ΦA spec8 c
  | n + 1, hn => iprop(iprop(iprop(owns (c : Thread nD τ) scM8 fullShare (accAt8 V c n hn))
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(iprop(owns (c : Thread nD τ) scM8 fullShare (accAt8 V c n hn))
      ∗ Pipeline.scopedRestBut (Ix := Unit) (Name := ℕ) (U := UR sig nD τ) (Lvl := ℕ) (Val := Elt F) spec8 c [cc8_scratch0]) ∗ (∃ r, prngReg c r)) := rfl
theorem PhiS8_pos (c : Dev nD) (n : ℕ) (h : n ≤ cfg8.N) (hz : n ≠ 0) :
    PhiS8 V c n h = iprop(iprop(iprop(owns (c : Thread nD τ) scM8 fullShare (accAt8 V c (n - 1) (by omega)))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay3 (accAt8 V c t.val t.isLt)
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = k8_pay3 (accAt8 V c t.val t.isLt) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point, by the point's position among the row blocks. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (st8_0 t) fullShare ((dat8 V c).after 0 t) from by
    unfold Dat.leavesExact; rw [live8_0 t], after8_0]
  rw [show (dat8 V c).leavesExact 1 t = owns (c : Thread nD τ) (st8_1 t) fullShare ((dat8 V c).after 1 t) from by
    unfold Dat.leavesExact; rw [live8_1 t], after8_1]
  by_cases h0 : t.val % 8 = 0
  · have h7 : ¬ t.val % 8 = 7 := by omega
    rw [Dat.leavesExact_idle (dat8 V c) 2 t (idle8_2 t h7) (noFlush8_2 t h7)]
    rw [accAt8_first V c t h0]
    by_cases hz : t.val = 0
    · rw [PhiS8_castSucc V c t, PhiS8_zero V c _ _ hz, PhiA8_eq]
      iintro ⟨⟨⟨HS, Hrest⟩, Hg⟩, Ho, ⟨%d0, H0⟩, ⟨%d1, H1⟩, ⟨%d2, H2⟩⟩
      iapply (sound_kernel8_A c Set.univ (grid8.coords t) ((hFirst8 t).mpr h0) (fun h => h7 ((hLast8 t).mp h)) _ _ _ _ _ _ _ _ (iblk8 V c 0 t) (iblk8 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS8_castSucc V c t, PhiS8_pos V c _ _ hz]
      iintro ⟨⟨⟨HS, Hrest⟩, Hg⟩, Ho, ⟨%d0, H0⟩, ⟨%d1, H1⟩, ⟨%d2, H2⟩⟩
      iapply (sound_kernel8_A c Set.univ (grid8.coords t) ((hFirst8 t).mpr h0) (fun h => h7 ((hLast8 t).mp h)) _ _ _ _ _ _ _ _ (iblk8 V c 0 t) (iblk8 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS8_castSucc V c t, PhiS8_pos V c _ _ hz]
    rw [accAt8_next V c t h0]
    by_cases h7 : t.val % 8 = 7
    · rw [show (dat8 V c).leavesExact 2 t = owns (c : Thread nD τ) (st8_2 t) fullShare ((dat8 V c).after 2 t) from by
        unfold Dat.leavesExact; rw [live8_2 t h7], after8_2, accAt8_next V c t h0]
      iintro ⟨⟨⟨HS, Hrest⟩, Hg⟩, Ho, ⟨%d0, H0⟩, ⟨%d1, H1⟩, ⟨%d2, H2⟩⟩
      iapply (sound_kernel8_C c Set.univ (grid8.coords t) (fun h => h0 ((hFirst8 t).mp h)) ((hLast8 t).mpr h7) _ _ _ _ _ _ _ _ (iblk8 V c 0 t) (iblk8 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat8 V c) 2 t (idle8_2 t h7) (noFlush8_2 t h7)]
      iintro ⟨⟨⟨HS, Hrest⟩, Hg⟩, Ho, ⟨%d0, H0⟩, ⟨%d1, H1⟩, ⟨%d2, H2⟩⟩
      iapply (sound_kernel8_B c Set.univ (grid8.coords t) (fun h => h0 ((hFirst8 t).mp h)) (fun h => h7 ((hLast8 t).mp h)) _ _ _ _ _ _ _ _ (iblk8 V c 0 t) (iblk8 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

/-- What the launch hands the region is the invariant before the first point; -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- and after the last point the invariant gives it back, the accumulator's contents forgotten. -/
theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 64 := N_8; omega), PhiA8_eq]
  iintro ⟨⟨HS, Hrest⟩, Hg⟩
  isplitl [HS Hrest]
  · isplitl [HS]; · iexists _; iexact HS
    iexact Hrest
  iexact Hg

end Cert.Kernel.Hand

end
-- ==== Proof.K.R9.lean ====
/- Region 9 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 9: the row-sum kernel. One point per block of 1024 rows of the matrix; the point's result block is
    w / (Σ_k M[r,k]·v[k] + stab) for each of its rows r. -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The matrix window's staging buffer holds the point's block of rows. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The vector window's staging buffer holds the whole row vector at every point (fetched once, never moved). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev r9_2 : Rect S1024x1 := Rect.unit (s := S1024x1) ![0, 0] S1024x1.size inb_S1024x1_S1024x1_0_0
abbrev r9_0 : Rect S1024x8192 := Rect.unit (s := S1024x8192) ![0, 0] S1024x8192.size inb_S1024x8192_S1024x8192_0_0
abbrev r9_1 : Rect S1x8192 := Rect.unit (s := S1x8192) ![0, 0] S1x8192.size inb_S1x8192_S1x8192_0_0

/-- The result window's staging buffer after the body: its one whole-block store of the payload. -/
def out9_2 (x0 : Vec F S1024x8192 .bf16) (x1 : Vec F S1x8192 .f32) : Vec F S1024x1 .f32 :=
  View.canon [⟨r9_2, k9_pay1 (View.ld x0 r9_0) (View.ld x1 r9_1)⟩]

theorem cover9_2 (p0 : Vec F S1024x1 .f32) (y : S1024x1.Idx) :
    ∃ pc ∈ ([⟨r9_2, p0⟩] : List (View.Piece (Elt F) S1024x1 .f32)), y ∈ pc.1.set :=
  View.cover_of_tiled [⟨r9_2, p0⟩] S1024x1.size (by rfl) y

set_option maxHeartbeats 1000000 in
/-- The body on whole staging memrefs: the inputs are handed back as read, the result's buffer holds the payload. -/
theorem sound_kernel9 (c : Dev nD) (E : Set ℕ) (i : grid9.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matvec_kernel i arg1 harg1 arg2 harg2 arg3 harg3) K := by
  simp only [cc9__matvec_kernel_eq_skeleton]; unfold cc9__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The region's proof data: arrays as found; after the body each input's buffer at its block, the result's at the payload. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10.lean ====
/- Region 10 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 10: the column-sum kernel. The grid is (column block j, row block i), i innermost; a VMEM accumulator is
    zeroed at i = 0, gains the column sums of the tile times the row weights at every i, and at i = 7 the result
    block w / (acc + stab) is stored. -/

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The body's two conditions: the row block is the first (the accumulator is zeroed), the row block is the last (the result is stored). -/
abbrev cFirst10 (i : grid10.Coords) : Prop := (Scalar.cmpi .ne (Scalar.extui (Scalar.cmpi .eq (BitVec.ofNat 32 (i 1).val) 0#32)) 0#32) = 1#1
abbrev cLast10 (i : grid10.Coords) : Prop := k10_cond2 i = 1#1
theorem hFirst10 : ∀ t : Fin cfg10.N, cFirst10 (grid10.coords t) ↔ t.val % 8 = 0 :=
  (by decide +kernel : ∀ t : Fin grid10.N, cFirst10 (grid10.coords t) ↔ t.val % 8 = 0)
theorem hLast10 : ∀ t : Fin cfg10.N, cLast10 (grid10.coords t) ↔ t.val % 8 = 7 :=
  (by decide +kernel : ∀ t : Fin grid10.N, cLast10 (grid10.coords t) ↔ t.val % 8 = 7)
theorem live10_0 : ∀ t : Fin cfg10.N, cfg10.idle 0 (grid10.coords t) = false := by decide +kernel
theorem live10_1 : ∀ t : Fin cfg10.N, cfg10.idle 1 (grid10.coords t) = false := by decide +kernel
theorem idle10_2 : ∀ t : Fin cfg10.N, ¬ t.val % 8 = 7 → cfg10.idle 2 (grid10.coords t) = true := by decide +kernel
theorem noFlush10_2 : ∀ t : Fin cfg10.N, ¬ t.val % 8 = 7 → (cfg10.win 2).flush t = false := by decide +kernel
theorem live10_2 : ∀ t : Fin cfg10.N, t.val % 8 = 7 → cfg10.idle 2 (grid10.coords t) = false := by decide +kernel

theorem hz2_10 : (![0, 0] : Fin 2 → Nat) = fun _ => 0 := by funext a; fin_cases a <;> rfl

/-- The accumulator after a point's body, from the tile, the row weights and the accumulator it started from (zero at a first row block). -/
def accNew10 (first : Prop) [Decidable first] (x0 : Vec F S1024x1024 .bf16) (x1 : Vec F S1024x1 .f32) (s : Vec F S1x1024 .f32) : Vec F S1x1024 .f32 :=
  k10_pay2 x0 (if first then k10_pay1 (F := F) else s) x1

set_option maxHeartbeats 4000000 in
/-- The body at a first row block that is not the last: the accumulator ends at the tile's weighted column sums over zero; the result's buffer is untouched. -/
theorem sound_kernel10_A (c : Dev nD) (E : Set ℕ) (i : grid10.Coords) (hc1 : cFirst10 i) (hc2 : ¬ cLast10 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k10_pay2 x0 (k10_pay1 (F := F)) x1)) -∗ K ⟨⟩))
      ⊢ wp frame (wpE (defs₀ (F := F)) Variants.none c none) E (cc10__colreduce_kernel i arg2 harg2 arg3 harg3 arg4 harg4 arg5 harg5) K := by
  simp only [cc10__colreduce_kernel_eq_skeleton]; unfold cc10__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_10 inb_S1x1024_S1x1024_0_0 y⟩)).trans ?_
  refine (View.canon_cons_unit_zero (S := S1x1024) hz2_10 inb_S1x1024_S1x1024_0_0 _ _).trans ?_
  sl_unfold_run_names
  rw [View.readCov_unit_zero (S := S1x1024) _ hz2_10, View.readAt_eq_ld, View.readAt_eq_ld, View.ld_unit_zero (S := S1024x1024) hz2_10, View.ld_unit_zero (S := S1024x1) hz2_10]

set_option maxHeartbeats 4000000 in
/-- The body at a row block neither first nor last: the accumulator gains the tile's weighted column sums; the result's buffer is untouched. -/
theorem sound_kernel10_B (c : Dev nD) (E : Set ℕ) (i : grid10.Coords) (hc1 : ¬ cFirst10 i) (hc2 : ¬ cLast10 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k10_pay2 x0 s x1)) -∗ K ⟨⟩))
      ⊢ wp frame (wpE (defs₀ (F := F)) Variants.none c none) E (cc10__colreduce_kernel i arg2 harg2 arg3 harg3 arg4 harg4 arg5 harg5) K := by
  simp only [cc10__colreduce_kernel_eq_skeleton]; unfold cc10__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_10 inb_S1x1024_S1x1024_0_0 y⟩)).trans ?_
  refine (View.canon_cons_unit_zero (S := S1x1024) hz2_10 inb_S1x1024_S1x1024_0_0 _ _).trans ?_
  simp only [View.readAt_eq_ld, View.ld_unit_zero (S := S1024x1024) hz2_10, View.ld_unit_zero (S := S1x1024) hz2_10, View.ld_unit_zero (S := S1024x1) hz2_10]

set_option maxHeartbeats 4000000 in
/-- The body at the last row block (never the first): the accumulator gains the tile's weighted column sums and the result's buffer
    is stored w / (accumulator + stab). -/
theorem sound_kernel10_C (c : Dev nD) (E : Set ℕ) (i : grid10.Coords) (hc1 : ¬ cFirst10 i) (hc2 : cLast10 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k10_pay3 (k10_pay2 x0 s x1))
            ∗ owns (c : Thread nD τ) arg5 fullShare (k10_pay2 x0 s x1)) -∗ K ⟨⟩))
      ⊢ wp frame (wpE (defs₀ (F := F)) Variants.none c none) E (cc10__colreduce_kernel i arg2 harg2 arg3 harg3 arg4 harg4 arg5 harg5) K := by
  simp only [cc10__colreduce_kernel_eq_skeleton]; unfold cc10__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_10 inb_S1x1024_S1x1024_0_0 y⟩)).trans ?_
    refine (View.canon_cons_unit_zero (S := S1x1024) hz2_10 inb_S1x1024_S1x1024_0_0 _ _).trans ?_
    sl_unfold_run_names
    rw [View.readCov_unit_zero (S := S1x1024) _ hz2_10]
    simp only [View.readAt_eq_ld, View.ld_unit_zero (S := S1024x1024) hz2_10, View.ld_unit_zero (S := S1x1024) hz2_10, View.ld_unit_zero (S := S1024x1) hz2_10]
  iexists _; isplitr
  swap; · iexact HS
  ipureintro
  refine (View.read_writes_eq_canon _ _ _ (fun y => ⟨_, List.mem_cons_self, View.mem_set_unit_zero (S := S1x1024) hz2_10 inb_S1x1024_S1x1024_0_0 y⟩)).trans ?_
  refine (View.canon_cons_unit_zero (S := S1x1024) hz2_10 inb_S1x1024_S1x1024_0_0 _ _).trans ?_
  sl_unfold_run_names
  simp only [View.readAt_eq_ld, View.ld_unit_zero (S := S1024x1024) hz2_10, View.ld_unit_zero (S := S1x1024) hz2_10, View.ld_unit_zero (S := S1024x1) hz2_10]

/-! ### The accumulator point by point, the proof data and the body obligation -/

/-- The accumulator after the body at position n: over zero at a first row block, else over what the point before left. -/
def accAt10 (c : Dev nD) : (n : ℕ) → n < cfg10.N → Vec F S1x1024 .f32
  | 0, hn => k10_pay2 (iblk10 V c 0 ⟨0, hn⟩) (k10_pay1 (F := F)) (iblk10 V c 1 ⟨0, hn⟩)
  | n + 1, hn =>
    if (n + 1) % 8 = 0 then k10_pay2 (iblk10 V c 0 ⟨n + 1, hn⟩) (k10_pay1 (F := F)) (iblk10 V c 1 ⟨n + 1, hn⟩)
    else k10_pay2 (iblk10 V c 0 ⟨n + 1, hn⟩) (accAt10 c n (Nat.lt_of_succ_lt hn)) (iblk10 V c 1 ⟨n + 1, hn⟩)

theorem accAt10_first (c : Dev nD) (t : Fin cfg10.N) (h : t.val % 8 = 0) :
    accAt10 V c t.val t.isLt = k10_pay2 (iblk10 V c 0 t) (k10_pay1 (F := F)) (iblk10 V c 1 t) := by
  obtain ⟨n, hn⟩ := t
  cases n with
  | zero => rfl
  | succ n => exact if_pos h

theorem accAt10_next (c : Dev nD) (t : Fin cfg10.N) (h : ¬ t.val % 8 = 0) :
    accAt10 V c t.val t.isLt = k10_pay2 (iblk10 V c 0 t) (accAt10 V c (t.val - 1) (Nat.lt_of_le_of_lt (Nat.sub_le _ _) t.isLt)) (iblk10 V c 1 t) := by
  obtain ⟨n, hn⟩ := t
  cases n with
  | zero => exact absurd (Nat.zero_mod _) h
  | succ n => exact if_neg h

/-- The kernel's accumulator: a whole scoped buffer of its own. -/
abbrev scM10 : Memref sig .tc .vmem S1x1024 .f32 := Memref.whole cc10_scratch0

/-- The class's invariant with the accumulator split out of the scoped rest. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-- The region invariant before position n: before the first point the class's; afterwards the accumulator at what the point
    before left, the other scoped buffers at anything, the generator register at some state. -/
def PhiS10 (c : Dev nD) : (n : ℕ) → n ≤ cfg10.N → sProp 𝕄
  | 0, _ => Pipeline.ΦA spec10 c
  | n + 1, hn => iprop(iprop(iprop(owns (c : Thread nD τ) scM10 fullShare (accAt10 V c n hn))
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(iprop(owns (c : Thread nD τ) scM10 fullShare (accAt10 V c n hn))
      ∗ Pipeline.scopedRestBut (Ix := Unit) (Name := ℕ) (U := UR sig nD τ) (Lvl := ℕ) (Val := Elt F) spec10 c [cc10_scratch0]) ∗ (∃ r, prngReg c r)) := rfl
theorem PhiS10_pos (c : Dev nD) (n : ℕ) (h : n ≤ cfg10.N) (hz : n ≠ 0) :
    PhiS10 V c n h = iprop(iprop(iprop(owns (c : Thread nD τ) scM10 fullShare (accAt10 V c (n - 1) (by omega)))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (accAt10 V c t.val t.isLt)
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay3 (accAt10 V c t.val t.isLt) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point, by the point's position among the row blocks. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 64 := lt_of_lt_of_eq t.isLt (show cfg10.N = 64 from N_10)
  rw [show (dat10 V c).leavesExact 0 t = owns (c : Thread nD τ) (st10_0 t) fullShare ((dat10 V c).after 0 t) from by
    unfold Dat.leavesExact; rw [live10_0 t], after10_0]
  rw [show (dat10 V c).leavesExact 1 t = owns (c : Thread nD τ) (st10_1 t) fullShare ((dat10 V c).after 1 t) from by
    unfold Dat.leavesExact; rw [live10_1 t], after10_1]
  by_cases h0 : t.val % 8 = 0
  · have h7 : ¬ t.val % 8 = 7 := by omega
    rw [Dat.leavesExact_idle (dat10 V c) 2 t (idle10_2 t h7) (noFlush10_2 t h7)]
    rw [accAt10_first V c t h0]
    by_cases hz : t.val = 0
    · rw [PhiS10_castSucc V c t, PhiS10_zero V c _ _ hz, PhiA10_eq]
      iintro ⟨⟨⟨HS, Hrest⟩, Hg⟩, Ho, ⟨%d0, H0⟩, ⟨%d1, H1⟩, ⟨%d2, H2⟩⟩
      iapply (sound_kernel10_A c Set.univ (grid10.coords t) ((hFirst10 t).mpr h0) (fun h => h7 ((hLast10 t).mp h)) _ _ _ _ _ _ _ _ (iblk10 V c 0 t) (iblk10 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS10_castSucc V c t, PhiS10_pos V c _ _ hz]
      iintro ⟨⟨⟨HS, Hrest⟩, Hg⟩, Ho, ⟨%d0, H0⟩, ⟨%d1, H1⟩, ⟨%d2, H2⟩⟩
      iapply (sound_kernel10_A c Set.univ (grid10.coords t) ((hFirst10 t).mpr h0) (fun h => h7 ((hLast10 t).mp h)) _ _ _ _ _ _ _ _ (iblk10 V c 0 t) (iblk10 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS10_castSucc V c t, PhiS10_pos V c _ _ hz]
    rw [accAt10_next V c t h0]
    by_cases h7 : t.val % 8 = 7
    · rw [show (dat10 V c).leavesExact 2 t = owns (c : Thread nD τ) (st10_2 t) fullShare ((dat10 V c).after 2 t) from by
        unfold Dat.leavesExact; rw [live10_2 t h7], after10_2, accAt10_next V c t h0]
      iintro ⟨⟨⟨HS, Hrest⟩, Hg⟩, Ho, ⟨%d0, H0⟩, ⟨%d1, H1⟩, ⟨%d2, H2⟩⟩
      iapply (sound_kernel10_C c Set.univ (grid10.coords t) (fun h => h0 ((hFirst10 t).mp h)) ((hLast10 t).mpr h7) _ _ _ _ _ _ _ _ (iblk10 V c 0 t) (iblk10 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat10 V c) 2 t (idle10_2 t h7) (noFlush10_2 t h7)]
      iintro ⟨⟨⟨HS, Hrest⟩, Hg⟩, Ho, ⟨%d0, H0⟩, ⟨%d1, H1⟩, ⟨%d2, H2⟩⟩
      iapply (sound_kernel10_B c Set.univ (grid10.coords t) (fun h => h0 ((hFirst10 t).mp h)) (fun h => h7 ((hLast10 t).mp h)) _ _ _ _ _ _ _ _ (iblk10 V c 0 t) (iblk10 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation10 (c : Dev nD) : BodyObligation (dat10 (F := F) V c) (defs₀ (F := F)) Variants.none () Set.univ := fun t => by
  rw [bigSep_W10, bigSep_W10]
  exact sound_body10 V c t

/-- What the launch hands the region is the invariant before the first point; -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- and after the last point the invariant gives it back, the accumulator's contents forgotten. -/
theorem hout10 (c : Dev nD) : (dat10 V c).Φ (Fin.last cfg10.N) ⊢ Pipeline.ΦA spec10 c := by
  rw [show (dat10 V c).Φ (Fin.last cfg10.N) = PhiS10 V c (Fin.last cfg10.N).val (Nat.le_of_lt_succ (Fin.last cfg10.N).isLt) from rfl,
    PhiS10_pos V c _ _ (by rw [Fin.val_last]; have : cfg10.N = 64 := N_10; omega), PhiA10_eq]
  iintro ⟨⟨HS, Hrest⟩, Hg⟩
  isplitl [HS Hrest]
  · isplitl [HS]; · iexists _; iexact HS
    iexact Hrest
  iexact Hg

end Cert.Kernel.Hand

end
-- ==== Proof.K.R11.lean ====
/- Region 11 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 11: the row-sum kernel. One point per block of 1024 rows of the matrix; the point's result block is
    w / (Σ_k M[r,k]·v[k] + stab) for each of its rows r. -/

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The matrix window's staging buffer holds the point's block of rows. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The vector window's staging buffer holds the whole row vector at every point (fetched once, never moved). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

abbrev r11_2 : Rect S1024x1 := Rect.unit (s := S1024x1) ![0, 0] S1024x1.size inb_S1024x1_S1024x1_0_0
abbrev r11_0 : Rect S1024x8192 := Rect.unit (s := S1024x8192) ![0, 0] S1024x8192.size inb_S1024x8192_S1024x8192_0_0
abbrev r11_1 : Rect S1x8192 := Rect.unit (s := S1x8192) ![0, 0] S1x8192.size inb_S1x8192_S1x8192_0_0

/-- The result window's staging buffer after the body: its one whole-block store of the payload. -/
def out11_2 (x0 : Vec F S1024x8192 .bf16) (x1 : Vec F S1x8192 .f32) : Vec F S1024x1 .f32 :=
  View.canon [⟨r11_2, k11_pay1 (View.ld x0 r11_0) (View.ld x1 r11_1)⟩]

theorem cover11_2 (p0 : Vec F S1024x1 .f32) (y : S1024x1.Idx) :
    ∃ pc ∈ ([⟨r11_2, p0⟩] : List (View.Piece (Elt F) S1024x1 .f32)), y ∈ pc.1.set :=
  View.cover_of_tiled [⟨r11_2, p0⟩] S1024x1.size (by rfl) y

set_option maxHeartbeats 1000000 in
/-- The body on whole staging memrefs: the inputs are handed back as read, the result's buffer holds the payload. -/
theorem sound_kernel11 (c : Dev nD) (E : Set ℕ) (i : grid11.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__matvec_kernel i arg1 harg1 arg2 harg2 arg3 harg3) K := by
  simp only [cc11__matvec_kernel_eq_skeleton]; unfold cc11__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The region's proof data: arrays as found; after the body each input's buffer at its block, the result's at the payload. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.R12.lean ====
/- Region 12 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 12: the column-sum kernel. The grid is (column block j, row block i), i innermost; a VMEM accumulator is
    zeroed at i = 0, gains the column sums of the tile times the row weights at every i, and at i = 7 the result
    block w / (acc + stab) is stored. -/

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The body's two conditions: the row block is the first (the accumulator is zeroed), the row block is the last (the result is stored). -/
abbrev cFirst12 (i : grid12.Coords) : Prop := (Scalar.cmpi .ne (Scalar.extui (Scalar.cmpi .eq (BitVec.ofNat 32 (i 1).val) 0#32)) 0#32) = 1#1
abbrev cLast12 (i : grid12.Coords) : Prop := k12_cond2 i = 1#1
theorem hFirst12 : ∀ t : Fin cfg12.N, cFirst12 (grid12.coords t) ↔ t.val % 8 = 0 :=
  (by decide +kernel : ∀ t : Fin grid12.N, cFirst12 (grid12.coords t) ↔ t.val % 8 = 0)
theorem hLast12 : ∀ t : Fin cfg12.N, cLast12 (grid12.coords t) ↔ t.val % 8 = 7 :=
  (by decide +kernel : ∀ t : Fin grid12.N, cLast12 (grid12.coords t) ↔ t.val % 8 = 7)
theorem live12_0 : ∀ t : Fin cfg12.N, cfg12.idle 0 (grid12.coords t) = false := by decide +kernel
theorem live12_1 : ∀ t : Fin cfg12.N, cfg12.idle 1 (grid12.coords t) = false := by decide +kernel
theorem idle12_2 : ∀ t : Fin cfg12.N, ¬ t.val % 8 = 7 → cfg12.idle 2 (grid12.coords t) = true := by decide +kernel
theorem noFlush12_2 : ∀ t : Fin cfg12.N, ¬ t.val % 8 = 7 → (cfg12.win 2).flush t = false := by decide +kernel
theorem live12_2 : ∀ t : Fin cfg12.N, t.val % 8 = 7 → cfg12.idle 2 (grid12.coords t) = false := by decide +kernel

theorem hz2_12 : (![0, 0] : Fin 2 → Nat) = fun _ => 0 := by funext a; fin_cases a <;> rfl

/-- The accumulator after a point's body, from the tile, the row weights and the accumulator it started from (zero at a first row block). -/
def accNew12 (first : Prop) [Decidable first] (x0 : Vec F S1024x1024 .bf16) (x1 : Vec F S1024x1 .f32) (s : Vec F S1x1024 .f32) : Vec F S1x1024 .f32 :=
  k12_pay2 x0 (if first then k12_pay1 (F := F) else s) x1

set_option maxHeartbeats 4000000 in
/-- The body at a first row block that is not the last: the accumulator ends at the tile's weighted column sums over zero; the result's buffer is untouched. -/
theorem sound_kernel12_A (c : Dev nD) (E : Set ℕ) (i : grid12.Coords) (hc1 : cFirst12 i) (hc2 : ¬ cLast12 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k12_pay2 x0 (k12_pay1 (F := F)) x1)) -∗ K ⟨⟩))
      ⊢ wp frame (wpE (defs₀ (F := F)) Variants.none c none) E (cc12__colreduce_kernel i arg2 harg2 arg3 harg3 arg4 harg4 arg5 harg5) K := by
  simp only [cc12__colreduce_kernel_eq_skeleton]; unfold cc12__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_12 inb_S1x1024_S1x1024_0_0 y⟩)).trans ?_
  refine (View.canon_cons_unit_zero (S := S1x1024) hz2_12 inb_S1x1024_S1x1024_0_0 _ _).trans ?_
  sl_unfold_run_names
  rw [View.readCov_unit_zero (S := S1x1024) _ hz2_12, View.readAt_eq_ld, View.readAt_eq_ld, View.ld_unit_zero (S := S1024x1024) hz2_12, View.ld_unit_zero (S := S1024x1) hz2_12]

set_option maxHeartbeats 4000000 in
/-- The body at a row block neither first nor last: the accumulator gains the tile's weighted column sums; the result's buffer is untouched. -/
theorem sound_kernel12_B (c : Dev nD) (E : Set ℕ) (i : grid12.Coords) (hc1 : ¬ cFirst12 i) (hc2 : ¬ cLast12 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k12_pay2 x0 s x1)) -∗ K ⟨⟩))
      ⊢ wp frame (wpE (defs₀ (F := F)) Variants.none c none) E (cc12__colreduce_kernel i arg2 harg2 arg3 harg3 arg4 harg4 arg5 harg5) K := by
  simp only [cc12__colreduce_kernel_eq_skeleton]; unfold cc12__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_12 inb_S1x1024_S1x1024_0_0 y⟩)).trans ?_
  refine (View.canon_cons_unit_zero (S := S1x1024) hz2_12 inb_S1x1024_S1x1024_0_0 _ _).trans ?_
  simp only [View.readAt_eq_ld, View.ld_unit_zero (S := S1024x1024) hz2_12, View.ld_unit_zero (S := S1x1024) hz2_12, View.ld_unit_zero (S := S1024x1) hz2_12]

set_option maxHeartbeats 4000000 in
/-- The body at the last row block (never the first): the accumulator gains the tile's weighted column sums and the result's buffer
    is stored w / (accumulator + stab). -/
theorem sound_kernel12_C (c : Dev nD) (E : Set ℕ) (i : grid12.Coords) (hc1 : ¬ cFirst12 i) (hc2 : cLast12 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k12_pay3 (k12_pay2 x0 s x1))
            ∗ owns (c : Thread nD τ) arg5 fullShare (k12_pay2 x0 s x1)) -∗ K ⟨⟩))
      ⊢ wp frame (wpE (defs₀ (F := F)) Variants.none c none) E (cc12__colreduce_kernel i arg2 harg2 arg3 harg3 arg4 harg4 arg5 harg5) K := by
  simp only [cc12__colreduce_kernel_eq_skeleton]; unfold cc12__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_12 inb_S1x1024_S1x1024_0_0 y⟩)).trans ?_
    refine (View.canon_cons_unit_zero (S := S1x1024) hz2_12 inb_S1x1024_S1x1024_0_0 _ _).trans ?_
    sl_unfold_run_names
    rw [View.readCov_unit_zero (S := S1x1024) _ hz2_12]
    simp only [View.readAt_eq_ld, View.ld_unit_zero (S := S1024x1024) hz2_12, View.ld_unit_zero (S := S1x1024) hz2_12, View.ld_unit_zero (S := S1024x1) hz2_12]
  iexists _; isplitr
  swap; · iexact HS
  ipureintro
  refine (View.read_writes_eq_canon _ _ _ (fun y => ⟨_, List.mem_cons_self, View.mem_set_unit_zero (S := S1x1024) hz2_12 inb_S1x1024_S1x1024_0_0 y⟩)).trans ?_
  refine (View.canon_cons_unit_zero (S := S1x1024) hz2_12 inb_S1x1024_S1x1024_0_0 _ _).trans ?_
  sl_unfold_run_names
  simp only [View.readAt_eq_ld, View.ld_unit_zero (S := S1024x1024) hz2_12, View.ld_unit_zero (S := S1x1024) hz2_12, View.ld_unit_zero (S := S1024x1) hz2_12]

/-! ### The accumulator point by point, the proof data and the body obligation -/

/-- The accumulator after the body at position n: over zero at a first row block, else over what the point before left. -/
def accAt12 (c : Dev nD) : (n : ℕ) → n < cfg12.N → Vec F S1x1024 .f32
  | 0, hn => k12_pay2 (iblk12 V c 0 ⟨0, hn⟩) (k12_pay1 (F := F)) (iblk12 V c 1 ⟨0, hn⟩)
  | n + 1, hn =>
    if (n + 1) % 8 = 0 then k12_pay2 (iblk12 V c 0 ⟨n + 1, hn⟩) (k12_pay1 (F := F)) (iblk12 V c 1 ⟨n + 1, hn⟩)
    else k12_pay2 (iblk12 V c 0 ⟨n + 1, hn⟩) (accAt12 c n (Nat.lt_of_succ_lt hn)) (iblk12 V c 1 ⟨n + 1, hn⟩)

theorem accAt12_first (c : Dev nD) (t : Fin cfg12.N) (h : t.val % 8 = 0) :
    accAt12 V c t.val t.isLt = k12_pay2 (iblk12 V c 0 t) (k12_pay1 (F := F)) (iblk12 V c 1 t) := by
  obtain ⟨n, hn⟩ := t
  cases n with
  | zero => rfl
  | succ n => exact if_pos h

theorem accAt12_next (c : Dev nD) (t : Fin cfg12.N) (h : ¬ t.val % 8 = 0) :
    accAt12 V c t.val t.isLt = k12_pay2 (iblk12 V c 0 t) (accAt12 V c (t.val - 1) (Nat.lt_of_le_of_lt (Nat.sub_le _ _) t.isLt)) (iblk12 V c 1 t) := by
  obtain ⟨n, hn⟩ := t
  cases n with
  | zero => exact absurd (Nat.zero_mod _) h
  | succ n => exact if_neg h

/-- The kernel's accumulator: a whole scoped buffer of its own. -/
abbrev scM12 : Memref sig .tc .vmem S1x1024 .f32 := Memref.whole cc12_scratch0

/-- The class's invariant with the accumulator split out of the scoped rest. -/
theorem PhiA12_eq (c : Dev nD) :
    (Pipeline.ΦA spec12 c : sProp 𝕄)
      = iprop(iprop(iprop((∃ d, owns (c : Thread nD τ) scM12 fullShare d))
          ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12, owns_whole]; try rfl

/-- The region invariant before position n: before the first point the class's; afterwards the accumulator at what the point
    before left, the other scoped buffers at anything, the generator register at some state. -/
def PhiS12 (c : Dev nD) : (n : ℕ) → n ≤ cfg12.N → sProp 𝕄
  | 0, _ => Pipeline.ΦA spec12 c
  | n + 1, hn => iprop(iprop(iprop(owns (c : Thread nD τ) scM12 fullShare (accAt12 V c n hn))
      ∗ Pipeline.scopedRestBut (Ix := Unit) (Name := ℕ) (U := UR sig nD τ) (Lvl := ℕ) (Val := Elt F) spec12 c [cc12_scratch0]) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(iprop(owns (c : Thread nD τ) scM12 fullShare (accAt12 V c n hn))
      ∗ Pipeline.scopedRestBut (Ix := Unit) (Name := ℕ) (U := UR sig nD τ) (Lvl := ℕ) (Val := Elt F) spec12 c [cc12_scratch0]) ∗ (∃ r, prngReg c r)) := rfl
theorem PhiS12_pos (c : Dev nD) (n : ℕ) (h : n ≤ cfg12.N) (hz : n ≠ 0) :
    PhiS12 V c n h = iprop(iprop(iprop(owns (c : Thread nD τ) scM12 fullShare (accAt12 V c (n - 1) (by omega)))
      ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => k12_pay3 (accAt12 V c t.val t.isLt)
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = k12_pay3 (accAt12 V c t.val t.isLt) := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point, by the point's position among the row blocks. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  have hN : t.val < 64 := lt_of_lt_of_eq t.isLt (show cfg12.N = 64 from N_12)
  rw [show (dat12 V c).leavesExact 0 t = owns (c : Thread nD τ) (st12_0 t) fullShare ((dat12 V c).after 0 t) from by
    unfold Dat.leavesExact; rw [live12_0 t], after12_0]
  rw [show (dat12 V c).leavesExact 1 t = owns (c : Thread nD τ) (st12_1 t) fullShare ((dat12 V c).after 1 t) from by
    unfold Dat.leavesExact; rw [live12_1 t], after12_1]
  by_cases h0 : t.val % 8 = 0
  · have h7 : ¬ t.val % 8 = 7 := by omega
    rw [Dat.leavesExact_idle (dat12 V c) 2 t (idle12_2 t h7) (noFlush12_2 t h7)]
    rw [accAt12_first V c t h0]
    by_cases hz : t.val = 0
    · rw [PhiS12_castSucc V c t, PhiS12_zero V c _ _ hz, PhiA12_eq]
      iintro ⟨⟨⟨HS, Hrest⟩, Hg⟩, Ho, ⟨%d0, H0⟩, ⟨%d1, H1⟩, ⟨%d2, H2⟩⟩
      iapply (sound_kernel12_A c Set.univ (grid12.coords t) ((hFirst12 t).mpr h0) (fun h => h7 ((hLast12 t).mp h)) _ _ _ _ _ _ _ _ (iblk12 V c 0 t) (iblk12 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS12_castSucc V c t, PhiS12_pos V c _ _ hz]
      iintro ⟨⟨⟨HS, Hrest⟩, Hg⟩, Ho, ⟨%d0, H0⟩, ⟨%d1, H1⟩, ⟨%d2, H2⟩⟩
      iapply (sound_kernel12_A c Set.univ (grid12.coords t) ((hFirst12 t).mpr h0) (fun h => h7 ((hLast12 t).mp h)) _ _ _ _ _ _ _ _ (iblk12 V c 0 t) (iblk12 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS12_castSucc V c t, PhiS12_pos V c _ _ hz]
    rw [accAt12_next V c t h0]
    by_cases h7 : t.val % 8 = 7
    · rw [show (dat12 V c).leavesExact 2 t = owns (c : Thread nD τ) (st12_2 t) fullShare ((dat12 V c).after 2 t) from by
        unfold Dat.leavesExact; rw [live12_2 t h7], after12_2, accAt12_next V c t h0]
      iintro ⟨⟨⟨HS, Hrest⟩, Hg⟩, Ho, ⟨%d0, H0⟩, ⟨%d1, H1⟩, ⟨%d2, H2⟩⟩
      iapply (sound_kernel12_C c Set.univ (grid12.coords t) (fun h => h0 ((hFirst12 t).mp h)) ((hLast12 t).mpr h7) _ _ _ _ _ _ _ _ (iblk12 V c 0 t) (iblk12 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat12 V c) 2 t (idle12_2 t h7) (noFlush12_2 t h7)]
      iintro ⟨⟨⟨HS, Hrest⟩, Hg⟩, Ho, ⟨%d0, H0⟩, ⟨%d1, H1⟩, ⟨%d2, H2⟩⟩
      iapply (sound_kernel12_B c Set.univ (grid12.coords t) (fun h => h0 ((hFirst12 t).mp h)) (fun h => h7 ((hLast12 t).mp h)) _ _ _ _ _ _ _ _ (iblk12 V c 0 t) (iblk12 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation12 (c : Dev nD) : BodyObligation (dat12 (F := F) V c) (defs₀ (F := F)) Variants.none () Set.univ := fun t => by
  rw [bigSep_W12, bigSep_W12]
  exact sound_body12 V c t

/-- What the launch hands the region is the invariant before the first point; -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- and after the last point the invariant gives it back, the accumulator's contents forgotten. -/
theorem hout12 (c : Dev nD) : (dat12 V c).Φ (Fin.last cfg12.N) ⊢ Pipeline.ΦA spec12 c := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 64 := N_12; omega), PhiA12_eq]
  iintro ⟨⟨HS, Hrest⟩, Hg⟩
  isplitl [HS Hrest]
  · isplitl [HS]; · iexists _; iexact HS
    iexact Hrest
  iexact Hg

end Cert.Kernel.Hand

end
-- ==== Proof.K.R13.lean ====
/- Region 13 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 13: the row-sum kernel. One point per block of 1024 rows of the matrix; the point's result block is
    w / (Σ_k M[r,k]·v[k] + stab) for each of its rows r. -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The matrix window's staging buffer holds the point's block of rows. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The vector window's staging buffer holds the whole row vector at every point (fetched once, never moved). -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

abbrev r13_2 : Rect S1024x1 := Rect.unit (s := S1024x1) ![0, 0] S1024x1.size inb_S1024x1_S1024x1_0_0
abbrev r13_0 : Rect S1024x8192 := Rect.unit (s := S1024x8192) ![0, 0] S1024x8192.size inb_S1024x8192_S1024x8192_0_0
abbrev r13_1 : Rect S1x8192 := Rect.unit (s := S1x8192) ![0, 0] S1x8192.size inb_S1x8192_S1x8192_0_0

/-- The result window's staging buffer after the body: its one whole-block store of the payload. -/
def out13_2 (x0 : Vec F S1024x8192 .bf16) (x1 : Vec F S1x8192 .f32) : Vec F S1024x1 .f32 :=
  View.canon [⟨r13_2, k13_pay1 (View.ld x0 r13_0) (View.ld x1 r13_1)⟩]

theorem cover13_2 (p0 : Vec F S1024x1 .f32) (y : S1024x1.Idx) :
    ∃ pc ∈ ([⟨r13_2, p0⟩] : List (View.Piece (Elt F) S1024x1 .f32)), y ∈ pc.1.set :=
  View.cover_of_tiled [⟨r13_2, p0⟩] S1024x1.size (by rfl) y

set_option maxHeartbeats 1000000 in
/-- The body on whole staging memrefs: the inputs are handed back as read, the result's buffer holds the payload. -/
theorem sound_kernel13 (c : Dev nD) (E : Set ℕ) (i : grid13.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__matvec_kernel i arg1 harg1 arg2 harg2 arg3 harg3) K := by
  simp only [cc13__matvec_kernel_eq_skeleton]; unfold cc13__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The region's proof data: arrays as found; after the body each input's buffer at its block, the result's at the payload. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.R14.lean ====
/- Region 14 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 14: the column-sum kernel. The grid is (column block j, row block i), i innermost; a VMEM accumulator is
    zeroed at i = 0, gains the column sums of the tile times the row weights at every i, and at i = 7 the result
    block w / (acc + stab) is stored. -/

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The body's two conditions: the row block is the first (the accumulator is zeroed), the row block is the last (the result is stored). -/
abbrev cFirst14 (i : grid14.Coords) : Prop := (Scalar.cmpi .ne (Scalar.extui (Scalar.cmpi .eq (BitVec.ofNat 32 (i 1).val) 0#32)) 0#32) = 1#1
abbrev cLast14 (i : grid14.Coords) : Prop := k14_cond2 i = 1#1
theorem hFirst14 : ∀ t : Fin cfg14.N, cFirst14 (grid14.coords t) ↔ t.val % 8 = 0 :=
  (by decide +kernel : ∀ t : Fin grid14.N, cFirst14 (grid14.coords t) ↔ t.val % 8 = 0)
theorem hLast14 : ∀ t : Fin cfg14.N, cLast14 (grid14.coords t) ↔ t.val % 8 = 7 :=
  (by decide +kernel : ∀ t : Fin grid14.N, cLast14 (grid14.coords t) ↔ t.val % 8 = 7)
theorem live14_0 : ∀ t : Fin cfg14.N, cfg14.idle 0 (grid14.coords t) = false := by decide +kernel
theorem live14_1 : ∀ t : Fin cfg14.N, cfg14.idle 1 (grid14.coords t) = false := by decide +kernel
theorem idle14_2 : ∀ t : Fin cfg14.N, ¬ t.val % 8 = 7 → cfg14.idle 2 (grid14.coords t) = true := by decide +kernel
theorem noFlush14_2 : ∀ t : Fin cfg14.N, ¬ t.val % 8 = 7 → (cfg14.win 2).flush t = false := by decide +kernel
theorem live14_2 : ∀ t : Fin cfg14.N, t.val % 8 = 7 → cfg14.idle 2 (grid14.coords t) = false := by decide +kernel

theorem hz2_14 : (![0, 0] : Fin 2 → Nat) = fun _ => 0 := by funext a; fin_cases a <;> rfl

/-- The accumulator after a point's body, from the tile, the row weights and the accumulator it started from (zero at a first row block). -/
def accNew14 (first : Prop) [Decidable first] (x0 : Vec F S1024x1024 .bf16) (x1 : Vec F S1024x1 .f32) (s : Vec F S1x1024 .f32) : Vec F S1x1024 .f32 :=
  k14_pay2 x0 (if first then k14_pay1 (F := F) else s) x1

set_option maxHeartbeats 4000000 in
/-- The body at a first row block that is not the last: the accumulator ends at the tile's weighted column sums over zero; the result's buffer is untouched. -/
theorem sound_kernel14_A (c : Dev nD) (E : Set ℕ) (i : grid14.Coords) (hc1 : cFirst14 i) (hc2 : ¬ cLast14 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k14_pay2 x0 (k14_pay1 (F := F)) x1)) -∗ K ⟨⟩))
      ⊢ wp frame (wpE (defs₀ (F := F)) Variants.none c none) E (cc14__colreduce_kernel i arg2 harg2 arg3 harg3 arg4 harg4 arg5 harg5) K := by
  simp only [cc14__colreduce_kernel_eq_skeleton]; unfold cc14__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_14 inb_S1x1024_S1x1024_0_0 y⟩)).trans ?_
  refine (View.canon_cons_unit_zero (S := S1x1024) hz2_14 inb_S1x1024_S1x1024_0_0 _ _).trans ?_
  sl_unfold_run_names
  rw [View.readCov_unit_zero (S := S1x1024) _ hz2_14, View.readAt_eq_ld, View.readAt_eq_ld, View.ld_unit_zero (S := S1024x1024) hz2_14, View.ld_unit_zero (S := S1024x1) hz2_14]

set_option maxHeartbeats 4000000 in
/-- The body at a row block neither first nor last: the accumulator gains the tile's weighted column sums; the result's buffer is untouched. -/
theorem sound_kernel14_B (c : Dev nD) (E : Set ℕ) (i : grid14.Coords) (hc1 : ¬ cFirst14 i) (hc2 : ¬ cLast14 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k14_pay2 x0 s x1)) -∗ K ⟨⟩))
      ⊢ wp frame (wpE (defs₀ (F := F)) Variants.none c none) E (cc14__colreduce_kernel i arg2 harg2 arg3 harg3 arg4 harg4 arg5 harg5) K := by
  simp only [cc14__colreduce_kernel_eq_skeleton]; unfold cc14__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_14 inb_S1x1024_S1x1024_0_0 y⟩)).trans ?_
  refine (View.canon_cons_unit_zero (S := S1x1024) hz2_14 inb_S1x1024_S1x1024_0_0 _ _).trans ?_
  simp only [View.readAt_eq_ld, View.ld_unit_zero (S := S1024x1024) hz2_14, View.ld_unit_zero (S := S1x1024) hz2_14, View.ld_unit_zero (S := S1024x1) hz2_14]

set_option maxHeartbeats 4000000 in
/-- The body at the last row block (never the first): the accumulator gains the tile's weighted column sums and the result's buffer
    is stored w / (accumulator + stab). -/
theorem sound_kernel14_C (c : Dev nD) (E : Set ℕ) (i : grid14.Coords) (hc1 : ¬ cFirst14 i) (hc2 : cLast14 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k14_pay3 (k14_pay2 x0 s x1))
            ∗ owns (c : Thread nD τ) arg5 fullShare (k14_pay2 x0 s x1)) -∗ K ⟨⟩))
      ⊢ wp frame (wpE (defs₀ (F := F)) Variants.none c none) E (cc14__colreduce_kernel i arg2 harg2 arg3 harg3 arg4 harg4 arg5 harg5) K := by
  simp only [cc14__colreduce_kernel_eq_skeleton]; unfold cc14__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_14 inb_S1x1024_S1x1024_0_0 y⟩)).trans ?_
    refine (View.canon_cons_unit_zero (S := S1x1024) hz2_14 inb_S1x1024_S1x1024_0_0 _ _).trans ?_
    sl_unfold_run_names
    rw [View.readCov_unit_zero (S := S1x1024) _ hz2_14]
    simp only [View.readAt_eq_ld, View.ld_unit_zero (S := S1024x1024) hz2_14, View.ld_unit_zero (S := S1x1024) hz2_14, View.ld_unit_zero (S := S1024x1) hz2_14]
  iexists _; isplitr
  swap; · iexact HS
  ipureintro
  refine (View.read_writes_eq_canon _ _ _ (fun y => ⟨_, List.mem_cons_self, View.mem_set_unit_zero (S := S1x1024) hz2_14 inb_S1x1024_S1x1024_0_0 y⟩)).trans ?_
  refine (View.canon_cons_unit_zero (S := S1x1024) hz2_14 inb_S1x1024_S1x1024_0_0 _ _).trans ?_
  sl_unfold_run_names
  simp only [View.readAt_eq_ld, View.ld_unit_zero (S := S1024x1024) hz2_14, View.ld_unit_zero (S := S1x1024) hz2_14, View.ld_unit_zero (S := S1024x1) hz2_14]

/-! ### The accumulator point by point, the proof data and the body obligation -/

/-- The accumulator after the body at position n: over zero at a first row block, else over what the point before left. -/
def accAt14 (c : Dev nD) : (n : ℕ) → n < cfg14.N → Vec F S1x1024 .f32
  | 0, hn => k14_pay2 (iblk14 V c 0 ⟨0, hn⟩) (k14_pay1 (F := F)) (iblk14 V c 1 ⟨0, hn⟩)
  | n + 1, hn =>
    if (n + 1) % 8 = 0 then k14_pay2 (iblk14 V c 0 ⟨n + 1, hn⟩) (k14_pay1 (F := F)) (iblk14 V c 1 ⟨n + 1, hn⟩)
    else k14_pay2 (iblk14 V c 0 ⟨n + 1, hn⟩) (accAt14 c n (Nat.lt_of_succ_lt hn)) (iblk14 V c 1 ⟨n + 1, hn⟩)

theorem accAt14_first (c : Dev nD) (t : Fin cfg14.N) (h : t.val % 8 = 0) :
    accAt14 V c t.val t.isLt = k14_pay2 (iblk14 V c 0 t) (k14_pay1 (F := F)) (iblk14 V c 1 t) := by
  obtain ⟨n, hn⟩ := t
  cases n with
  | zero => rfl
  | succ n => exact if_pos h

theorem accAt14_next (c : Dev nD) (t : Fin cfg14.N) (h : ¬ t.val % 8 = 0) :
    accAt14 V c t.val t.isLt = k14_pay2 (iblk14 V c 0 t) (accAt14 V c (t.val - 1) (Nat.lt_of_le_of_lt (Nat.sub_le _ _) t.isLt)) (iblk14 V c 1 t) := by
  obtain ⟨n, hn⟩ := t
  cases n with
  | zero => exact absurd (Nat.zero_mod _) h
  | succ n => exact if_neg h

/-- The kernel's accumulator: a whole scoped buffer of its own. -/
abbrev scM14 : Memref sig .tc .vmem S1x1024 .f32 := Memref.whole cc14_scratch0

/-- The class's invariant with the accumulator split out of the scoped rest. -/
theorem PhiA14_eq (c : Dev nD) :
    (Pipeline.ΦA spec14 c : sProp 𝕄)
      = iprop(iprop(iprop((∃ d, owns (c : Thread nD τ) scM14 fullShare d))
          ∗ Pipeline.scopedRestBut (Ix := Unit) (Name := ℕ) (U := UR sig nD τ) (Lvl := ℕ) (Val := Elt F) spec14 c [cc14_scratch0]) ∗ (∃ r, prngReg c r)) := by
  unfold Pipeline.ΦA; rw [scopedRest14_split]; simp only [scM14, owns_whole]; try rfl

/-- The region invariant before position n: before the first point the class's; afterwards the accumulator at what the point
    before left, the other scoped buffers at anything, the generator register at some state. -/
def PhiS14 (c : Dev nD) : (n : ℕ) → n ≤ cfg14.N → sProp 𝕄
  | 0, _ => Pipeline.ΦA spec14 c
  | n + 1, hn => iprop(iprop(iprop(owns (c : Thread nD τ) scM14 fullShare (accAt14 V c n hn))
      ∗ Pipeline.scopedRestBut (Ix := Unit) (Name := ℕ) (U := UR sig nD τ) (Lvl := ℕ) (Val := Elt F) spec14 c [cc14_scratch0]) ∗ (∃ r, prngReg c r))

theorem PhiS14_zero (c : Dev nD) (n : ℕ) (h : n ≤ cfg14.N) (hz : n = 0) : PhiS14 V c n h = Pipeline.ΦA spec14 c := by
  subst hz; rfl
theorem PhiS14_succ (c : Dev nD) (n : ℕ) (hn : n < cfg14.N) :
    PhiS14 V c (n + 1) hn = iprop(iprop(iprop(owns (c : Thread nD τ) scM14 fullShare (accAt14 V c n hn))
      ∗ Pipeline.scopedRestBut (Ix := Unit) (Name := ℕ) (U := UR sig nD τ) (Lvl := ℕ) (Val := Elt F) spec14 c [cc14_scratch0]) ∗ (∃ r, prngReg c r)) := rfl
theorem PhiS14_pos (c : Dev nD) (n : ℕ) (h : n ≤ cfg14.N) (hz : n ≠ 0) :
    PhiS14 V c n h = iprop(iprop(iprop(owns (c : Thread nD τ) scM14 fullShare (accAt14 V c (n - 1) (by omega)))
      ∗ Pipeline.scopedRestBut (Ix := Unit) (Name := ℕ) (U := UR sig nD τ) (Lvl := ℕ) (Val := Elt F) spec14 c [cc14_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => k14_pay3 (accAt14 V c t.val t.isLt)
  Φ t := PhiS14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem PhiS14_castSucc (c : Dev nD) (t : Fin cfg14.N) :
    (dat14 V c).Φ t.castSucc = PhiS14 V c t.val (Nat.le_of_lt t.isLt) := by
  dsimp only [dat14]; simp only [Fin.coe_castSucc]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = k14_pay3 (accAt14 V c t.val t.isLt) := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
/-- The body at any point, by the point's position among the row blocks. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = PhiS14 V c (t.val + 1) t.isLt from rfl, PhiS14_succ]
  have hN : t.val < 64 := lt_of_lt_of_eq t.isLt (show cfg14.N = 64 from N_14)
  rw [show (dat14 V c).leavesExact 0 t = owns (c : Thread nD τ) (st14_0 t) fullShare ((dat14 V c).after 0 t) from by
    unfold Dat.leavesExact; rw [live14_0 t], after14_0]
  rw [show (dat14 V c).leavesExact 1 t = owns (c : Thread nD τ) (st14_1 t) fullShare ((dat14 V c).after 1 t) from by
    unfold Dat.leavesExact; rw [live14_1 t], after14_1]
  by_cases h0 : t.val % 8 = 0
  · have h7 : ¬ t.val % 8 = 7 := by omega
    rw [Dat.leavesExact_idle (dat14 V c) 2 t (idle14_2 t h7) (noFlush14_2 t h7)]
    rw [accAt14_first V c t h0]
    by_cases hz : t.val = 0
    · rw [PhiS14_castSucc V c t, PhiS14_zero V c _ _ hz, PhiA14_eq]
      iintro ⟨⟨⟨HS, Hrest⟩, Hg⟩, Ho, ⟨%d0, H0⟩, ⟨%d1, H1⟩, ⟨%d2, H2⟩⟩
      iapply (sound_kernel14_A c Set.univ (grid14.coords t) ((hFirst14 t).mpr h0) (fun h => h7 ((hLast14 t).mp h)) _ _ _ _ _ _ _ _ (iblk14 V c 0 t) (iblk14 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS14_castSucc V c t, PhiS14_pos V c _ _ hz]
      iintro ⟨⟨⟨HS, Hrest⟩, Hg⟩, Ho, ⟨%d0, H0⟩, ⟨%d1, H1⟩, ⟨%d2, H2⟩⟩
      iapply (sound_kernel14_A c Set.univ (grid14.coords t) ((hFirst14 t).mpr h0) (fun h => h7 ((hLast14 t).mp h)) _ _ _ _ _ _ _ _ (iblk14 V c 0 t) (iblk14 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS14_castSucc V c t, PhiS14_pos V c _ _ hz]
    rw [accAt14_next V c t h0]
    by_cases h7 : t.val % 8 = 7
    · rw [show (dat14 V c).leavesExact 2 t = owns (c : Thread nD τ) (st14_2 t) fullShare ((dat14 V c).after 2 t) from by
        unfold Dat.leavesExact; rw [live14_2 t h7], after14_2, accAt14_next V c t h0]
      iintro ⟨⟨⟨HS, Hrest⟩, Hg⟩, Ho, ⟨%d0, H0⟩, ⟨%d1, H1⟩, ⟨%d2, H2⟩⟩
      iapply (sound_kernel14_C c Set.univ (grid14.coords t) (fun h => h0 ((hFirst14 t).mp h)) ((hLast14 t).mpr h7) _ _ _ _ _ _ _ _ (iblk14 V c 0 t) (iblk14 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat14 V c) 2 t (idle14_2 t h7) (noFlush14_2 t h7)]
      iintro ⟨⟨⟨HS, Hrest⟩, Hg⟩, Ho, ⟨%d0, H0⟩, ⟨%d1, H1⟩, ⟨%d2, H2⟩⟩
      iapply (sound_kernel14_B c Set.univ (grid14.coords t) (fun h => h0 ((hFirst14 t).mp h)) (fun h => h7 ((hLast14 t).mp h)) _ _ _ _ _ _ _ _ (iblk14 V c 0 t) (iblk14 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation14 (c : Dev nD) : BodyObligation (dat14 (F := F) V c) (defs₀ (F := F)) Variants.none () Set.univ := fun t => by
  rw [bigSep_W14, bigSep_W14]
  exact sound_body14 V c t

/-- What the launch hands the region is the invariant before the first point; -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- and after the last point the invariant gives it back, the accumulator's contents forgotten. -/
theorem hout14 (c : Dev nD) : (dat14 V c).Φ (Fin.last cfg14.N) ⊢ Pipeline.ΦA spec14 c := by
  rw [show (dat14 V c).Φ (Fin.last cfg14.N) = PhiS14 V c (Fin.last cfg14.N).val (Nat.le_of_lt_succ (Fin.last cfg14.N).isLt) from rfl,
    PhiS14_pos V c _ _ (by rw [Fin.val_last]; have : cfg14.N = 64 := N_14; omega), PhiA14_eq]
  iintro ⟨⟨HS, Hrest⟩, Hg⟩
  isplitl [HS Hrest]
  · isplitl [HS]; · iexists _; iexact HS
    iexact Hrest
  iexact Hg

end Cert.Kernel.Hand

end
-- ==== Proof.K.R15.lean ====
/- Region 15 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 15: the row-sum kernel. One point per block of 1024 rows of the matrix; the point's result block is
    w / (Σ_k M[r,k]·v[k] + stab) for each of its rows r. -/

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The matrix window's staging buffer holds the point's block of rows. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The vector window's staging buffer holds the whole row vector at every point (fetched once, never moved). -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

abbrev r15_2 : Rect S1024x1 := Rect.unit (s := S1024x1) ![0, 0] S1024x1.size inb_S1024x1_S1024x1_0_0
abbrev r15_0 : Rect S1024x8192 := Rect.unit (s := S1024x8192) ![0, 0] S1024x8192.size inb_S1024x8192_S1024x8192_0_0
abbrev r15_1 : Rect S1x8192 := Rect.unit (s := S1x8192) ![0, 0] S1x8192.size inb_S1x8192_S1x8192_0_0

/-- The result window's staging buffer after the body: its one whole-block store of the payload. -/
def out15_2 (x0 : Vec F S1024x8192 .bf16) (x1 : Vec F S1x8192 .f32) : Vec F S1024x1 .f32 :=
  View.canon [⟨r15_2, k15_pay1 (View.ld x0 r15_0) (View.ld x1 r15_1)⟩]

theorem cover15_2 (p0 : Vec F S1024x1 .f32) (y : S1024x1.Idx) :
    ∃ pc ∈ ([⟨r15_2, p0⟩] : List (View.Piece (Elt F) S1024x1 .f32)), y ∈ pc.1.set :=
  View.cover_of_tiled [⟨r15_2, p0⟩] S1024x1.size (by rfl) y

set_option maxHeartbeats 1000000 in
/-- The body on whole staging memrefs: the inputs are handed back as read, the result's buffer holds the payload. -/
theorem sound_kernel15 (c : Dev nD) (E : Set ℕ) (i : grid15.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matvec_kernel i arg1 harg1 arg2 harg2 arg3 harg3) K := by
  simp only [cc15__matvec_kernel_eq_skeleton]; unfold cc15__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

/-- The region's proof data: arrays as found; after the body each input's buffer at its block, the result's at the payload. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (c : Dev nD) : BodyObligation (dat15 (F := F) V c) (defs₀ (F := F)) Variants.none () Set.univ := fun t => by
  rw [bigSep_W15, bigSep_W15]
  exact sound_body15 V c t

end Cert.Kernel.Hand

end
-- ==== Proof.K.R16.lean ====
/- Region 16 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 16: the column-sum kernel. The grid is (column block j, row block i), i innermost; a VMEM accumulator is
    zeroed at i = 0, gains the column sums of the tile times the row weights at every i, and at i = 7 the result
    block w / (acc + stab) is stored. -/

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The body's two conditions: the row block is the first (the accumulator is zeroed), the row block is the last (the result is stored). -/
abbrev cFirst16 (i : grid16.Coords) : Prop := (Scalar.cmpi .ne (Scalar.extui (Scalar.cmpi .eq (BitVec.ofNat 32 (i 1).val) 0#32)) 0#32) = 1#1
abbrev cLast16 (i : grid16.Coords) : Prop := k16_cond2 i = 1#1
theorem hFirst16 : ∀ t : Fin cfg16.N, cFirst16 (grid16.coords t) ↔ t.val % 8 = 0 :=
  (by decide +kernel : ∀ t : Fin grid16.N, cFirst16 (grid16.coords t) ↔ t.val % 8 = 0)
theorem hLast16 : ∀ t : Fin cfg16.N, cLast16 (grid16.coords t) ↔ t.val % 8 = 7 :=
  (by decide +kernel : ∀ t : Fin grid16.N, cLast16 (grid16.coords t) ↔ t.val % 8 = 7)
theorem live16_0 : ∀ t : Fin cfg16.N, cfg16.idle 0 (grid16.coords t) = false := by decide +kernel
theorem live16_1 : ∀ t : Fin cfg16.N, cfg16.idle 1 (grid16.coords t) = false := by decide +kernel
theorem idle16_2 : ∀ t : Fin cfg16.N, ¬ t.val % 8 = 7 → cfg16.idle 2 (grid16.coords t) = true := by decide +kernel
theorem noFlush16_2 : ∀ t : Fin cfg16.N, ¬ t.val % 8 = 7 → (cfg16.win 2).flush t = false := by decide +kernel
theorem live16_2 : ∀ t : Fin cfg16.N, t.val % 8 = 7 → cfg16.idle 2 (grid16.coords t) = false := by decide +kernel

theorem hz2_16 : (![0, 0] : Fin 2 → Nat) = fun _ => 0 := by funext a; fin_cases a <;> rfl

/-- The accumulator after a point's body, from the tile, the row weights and the accumulator it started from (zero at a first row block). -/
def accNew16 (first : Prop) [Decidable first] (x0 : Vec F S1024x1024 .bf16) (x1 : Vec F S1024x1 .f32) (s : Vec F S1x1024 .f32) : Vec F S1x1024 .f32 :=
  k16_pay2 x0 (if first then k16_pay1 (F := F) else s) x1

set_option maxHeartbeats 4000000 in
/-- The body at a first row block that is not the last: the accumulator ends at the tile's weighted column sums over zero; the result's buffer is untouched. -/
theorem sound_kernel16_A (c : Dev nD) (E : Set ℕ) (i : grid16.Coords) (hc1 : cFirst16 i) (hc2 : ¬ cLast16 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k16_pay2 x0 (k16_pay1 (F := F)) x1)) -∗ K ⟨⟩))
      ⊢ wp frame (wpE (defs₀ (F := F)) Variants.none c none) E (cc16__colreduce_kernel i arg2 harg2 arg3 harg3 arg4 harg4 arg5 harg5) K := by
  simp only [cc16__colreduce_kernel_eq_skeleton]; unfold cc16__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_16 inb_S1x1024_S1x1024_0_0 y⟩)).trans ?_
  refine (View.canon_cons_unit_zero (S := S1x1024) hz2_16 inb_S1x1024_S1x1024_0_0 _ _).trans ?_
  sl_unfold_run_names
  rw [View.readCov_unit_zero (S := S1x1024) _ hz2_16, View.readAt_eq_ld, View.readAt_eq_ld, View.ld_unit_zero (S := S1024x1024) hz2_16, View.ld_unit_zero (S := S1024x1) hz2_16]

set_option maxHeartbeats 4000000 in
/-- The body at a row block neither first nor last: the accumulator gains the tile's weighted column sums; the result's buffer is untouched. -/
theorem sound_kernel16_B (c : Dev nD) (E : Set ℕ) (i : grid16.Coords) (hc1 : ¬ cFirst16 i) (hc2 : ¬ cLast16 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k16_pay2 x0 s x1)) -∗ K ⟨⟩))
      ⊢ wp frame (wpE (defs₀ (F := F)) Variants.none c none) E (cc16__colreduce_kernel i arg2 harg2 arg3 harg3 arg4 harg4 arg5 harg5) K := by
  simp only [cc16__colreduce_kernel_eq_skeleton]; unfold cc16__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_16 inb_S1x1024_S1x1024_0_0 y⟩)).trans ?_
  refine (View.canon_cons_unit_zero (S := S1x1024) hz2_16 inb_S1x1024_S1x1024_0_0 _ _).trans ?_
  simp only [View.readAt_eq_ld, View.ld_unit_zero (S := S1024x1024) hz2_16, View.ld_unit_zero (S := S1x1024) hz2_16, View.ld_unit_zero (S := S1024x1) hz2_16]

set_option maxHeartbeats 4000000 in
/-- The body at the last row block (never the first): the accumulator gains the tile's weighted column sums and the result's buffer
    is stored w / (accumulator + stab). -/
theorem sound_kernel16_C (c : Dev nD) (E : Set ℕ) (i : grid16.Coords) (hc1 : ¬ cFirst16 i) (hc2 : cLast16 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k16_pay3 (k16_pay2 x0 s x1))
            ∗ owns (c : Thread nD τ) arg5 fullShare (k16_pay2 x0 s x1)) -∗ K ⟨⟩))
      ⊢ wp frame (wpE (defs₀ (F := F)) Variants.none c none) E (cc16__colreduce_kernel i arg2 harg2 arg3 harg3 arg4 harg4 arg5 harg5) K := by
  simp only [cc16__colreduce_kernel_eq_skeleton]; unfold cc16__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_16 inb_S1x1024_S1x1024_0_0 y⟩)).trans ?_
    refine (View.canon_cons_unit_zero (S := S1x1024) hz2_16 inb_S1x1024_S1x1024_0_0 _ _).trans ?_
    sl_unfold_run_names
    rw [View.readCov_unit_zero (S := S1x1024) _ hz2_16]
    simp only [View.readAt_eq_ld, View.ld_unit_zero (S := S1024x1024) hz2_16, View.ld_unit_zero (S := S1x1024) hz2_16, View.ld_unit_zero (S := S1024x1) hz2_16]
  iexists _; isplitr
  swap; · iexact HS
  ipureintro
  refine (View.read_writes_eq_canon _ _ _ (fun y => ⟨_, List.mem_cons_self, View.mem_set_unit_zero (S := S1x1024) hz2_16 inb_S1x1024_S1x1024_0_0 y⟩)).trans ?_
  refine (View.canon_cons_unit_zero (S := S1x1024) hz2_16 inb_S1x1024_S1x1024_0_0 _ _).trans ?_
  sl_unfold_run_names
  simp only [View.readAt_eq_ld, View.ld_unit_zero (S := S1024x1024) hz2_16, View.ld_unit_zero (S := S1x1024) hz2_16, View.ld_unit_zero (S := S1024x1) hz2_16]

/-! ### The accumulator point by point, the proof data and the body obligation -/

/-- The accumulator after the body at position n: over zero at a first row block, else over what the point before left. -/
def accAt16 (c : Dev nD) : (n : ℕ) → n < cfg16.N → Vec F S1x1024 .f32
  | 0, hn => k16_pay2 (iblk16 V c 0 ⟨0, hn⟩) (k16_pay1 (F := F)) (iblk16 V c 1 ⟨0, hn⟩)
  | n + 1, hn =>
    if (n + 1) % 8 = 0 then k16_pay2 (iblk16 V c 0 ⟨n + 1, hn⟩) (k16_pay1 (F := F)) (iblk16 V c 1 ⟨n + 1, hn⟩)
    else k16_pay2 (iblk16 V c 0 ⟨n + 1, hn⟩) (accAt16 c n (Nat.lt_of_succ_lt hn)) (iblk16 V c 1 ⟨n + 1, hn⟩)

theorem accAt16_first (c : Dev nD) (t : Fin cfg16.N) (h : t.val % 8 = 0) :
    accAt16 V c t.val t.isLt = k16_pay2 (iblk16 V c 0 t) (k16_pay1 (F := F)) (iblk16 V c 1 t) := by
  obtain ⟨n, hn⟩ := t
  cases n with
  | zero => rfl
  | succ n => exact if_pos h

theorem accAt16_next (c : Dev nD) (t : Fin cfg16.N) (h : ¬ t.val % 8 = 0) :
    accAt16 V c t.val t.isLt = k16_pay2 (iblk16 V c 0 t) (accAt16 V c (t.val - 1) (Nat.lt_of_le_of_lt (Nat.sub_le _ _) t.isLt)) (iblk16 V c 1 t) := by
  obtain ⟨n, hn⟩ := t
  cases n with
  | zero => exact absurd (Nat.zero_mod _) h
  | succ n => exact if_neg h

/-- The kernel's accumulator: a whole scoped buffer of its own. -/
abbrev scM16 : Memref sig .tc .vmem S1x1024 .f32 := Memref.whole cc16_scratch0

/-- The class's invariant with the accumulator split out of the scoped rest. -/
theorem PhiA16_eq (c : Dev nD) :
    (Pipeline.ΦA spec16 c : sProp 𝕄)
      = iprop(iprop(iprop((∃ d, owns (c : Thread nD τ) scM16 fullShare d))
          ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16, owns_whole]; try rfl

/-- The region invariant before position n: before the first point the class's; afterwards the accumulator at what the point
    before left, the other scoped buffers at anything, the generator register at some state. -/
def PhiS16 (c : Dev nD) : (n : ℕ) → n ≤ cfg16.N → sProp 𝕄
  | 0, _ => Pipeline.ΦA spec16 c
  | n + 1, hn => iprop(iprop(iprop(owns (c : Thread nD τ) scM16 fullShare (accAt16 V c n hn))
      ∗ Pipeline.scopedRestBut (Ix := Unit) (Name := ℕ) (U := UR sig nD τ) (Lvl := ℕ) (Val := Elt F) spec16 c [cc16_scratch0]) ∗ (∃ r, prngReg c r))

theorem PhiS16_zero (c : Dev nD) (n : ℕ) (h : n ≤ cfg16.N) (hz : n = 0) : PhiS16 V c n h = Pipeline.ΦA spec16 c := by
  subst hz; rfl
theorem PhiS16_succ (c : Dev nD) (n : ℕ) (hn : n < cfg16.N) :
    PhiS16 V c (n + 1) hn = iprop(iprop(iprop(owns (c : Thread nD τ) scM16 fullShare (accAt16 V c n hn))
      ∗ Pipeline.scopedRestBut (Ix := Unit) (Name := ℕ) (U := UR sig nD τ) (Lvl := ℕ) (Val := Elt F) spec16 c [cc16_scratch0]) ∗ (∃ r, prngReg c r)) := rfl
theorem PhiS16_pos (c : Dev nD) (n : ℕ) (h : n ≤ cfg16.N) (hz : n ≠ 0) :
    PhiS16 V c n h = iprop(iprop(iprop(owns (c : Thread nD τ) scM16 fullShare (accAt16 V c (n - 1) (by omega)))
      ∗ Pipeline.scopedRestBut (Ix := Unit) (Name := ℕ) (U := UR sig nD τ) (Lvl := ℕ) (Val := Elt F) spec16 c [cc16_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => k16_pay3 (accAt16 V c t.val t.isLt)
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]
theorem PhiS16_castSucc (c : Dev nD) (t : Fin cfg16.N) :
    (dat16 V c).Φ t.castSucc = PhiS16 V c t.val (Nat.le_of_lt t.isLt) := by
  dsimp only [dat16]; simp only [Fin.coe_castSucc]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = k16_pay3 (accAt16 V c t.val t.isLt) := by dsimp only [dat16]
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t)

set_option maxHeartbeats 4800000 in
/-- The body at any point, by the point's position among the row blocks. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  have hN : t.val < 64 := lt_of_lt_of_eq t.isLt (show cfg16.N = 64 from N_16)
  rw [show (dat16 V c).leavesExact 0 t = owns (c : Thread nD τ) (st16_0 t) fullShare ((dat16 V c).after 0 t) from by
    unfold Dat.leavesExact; rw [live16_0 t], after16_0]
  rw [show (dat16 V c).leavesExact 1 t = owns (c : Thread nD τ) (st16_1 t) fullShare ((dat16 V c).after 1 t) from by
    unfold Dat.leavesExact; rw [live16_1 t], after16_1]
  by_cases h0 : t.val % 8 = 0
  · have h7 : ¬ t.val % 8 = 7 := by omega
    rw [Dat.leavesExact_idle (dat16 V c) 2 t (idle16_2 t h7) (noFlush16_2 t h7)]
    rw [accAt16_first V c t h0]
    by_cases hz : t.val = 0
    · rw [PhiS16_castSucc V c t, PhiS16_zero V c _ _ hz, PhiA16_eq]
      iintro ⟨⟨⟨HS, Hrest⟩, Hg⟩, Ho, ⟨%d0, H0⟩, ⟨%d1, H1⟩, ⟨%d2, H2⟩⟩
      iapply (sound_kernel16_A c Set.univ (grid16.coords t) ((hFirst16 t).mpr h0) (fun h => h7 ((hLast16 t).mp h)) _ _ _ _ _ _ _ _ (iblk16 V c 0 t) (iblk16 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS16_castSucc V c t, PhiS16_pos V c _ _ hz]
      iintro ⟨⟨⟨HS, Hrest⟩, Hg⟩, Ho, ⟨%d0, H0⟩, ⟨%d1, H1⟩, ⟨%d2, H2⟩⟩
      iapply (sound_kernel16_A c Set.univ (grid16.coords t) ((hFirst16 t).mpr h0) (fun h => h7 ((hLast16 t).mp h)) _ _ _ _ _ _ _ _ (iblk16 V c 0 t) (iblk16 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS16_castSucc V c t, PhiS16_pos V c _ _ hz]
    rw [accAt16_next V c t h0]
    by_cases h7 : t.val % 8 = 7
    · rw [show (dat16 V c).leavesExact 2 t = owns (c : Thread nD τ) (st16_2 t) fullShare ((dat16 V c).after 2 t) from by
        unfold Dat.leavesExact; rw [live16_2 t h7], after16_2, accAt16_next V c t h0]
      iintro ⟨⟨⟨HS, Hrest⟩, Hg⟩, Ho, ⟨%d0, H0⟩, ⟨%d1, H1⟩, ⟨%d2, H2⟩⟩
      iapply (sound_kernel16_C c Set.univ (grid16.coords t) (fun h => h0 ((hFirst16 t).mp h)) ((hLast16 t).mpr h7) _ _ _ _ _ _ _ _ (iblk16 V c 0 t) (iblk16 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat16 V c) 2 t (idle16_2 t h7) (noFlush16_2 t h7)]
      iintro ⟨⟨⟨HS, Hrest⟩, Hg⟩, Ho, ⟨%d0, H0⟩, ⟨%d1, H1⟩, ⟨%d2, H2⟩⟩
      iapply (sound_kernel16_B c Set.univ (grid16.coords t) (fun h => h0 ((hFirst16 t).mp h)) (fun h => h7 ((hLast16 t).mp h)) _ _ _ _ _ _ _ _ (iblk16 V c 0 t) (iblk16 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation16 (c : Dev nD) : BodyObligation (dat16 (F := F) V c) (defs₀ (F := F)) Variants.none () Set.univ := fun t => by
  rw [bigSep_W16, bigSep_W16]
  exact sound_body16 V c t

/-- What the launch hands the region is the invariant before the first point; -/
theorem hin16 (c : Dev nD) : Pipeline.ΦA spec16 c ⊢ (dat16 V c).Φ 0 := by
  rw [show (dat16 V c).Φ 0 = PhiS16 V c 0 (Nat.zero_le _) from rfl, PhiS16_zero V c 0 _ rfl]
  try exact Idealize.SL.BI.Entails.refl _

/-- and after the last point the invariant gives it back, the accumulator's contents forgotten. -/
theorem hout16 (c : Dev nD) : (dat16 V c).Φ (Fin.last cfg16.N) ⊢ Pipeline.ΦA spec16 c := by
  rw [show (dat16 V c).Φ (Fin.last cfg16.N) = PhiS16 V c (Fin.last cfg16.N).val (Nat.le_of_lt_succ (Fin.last cfg16.N).isLt) from rfl,
    PhiS16_pos V c _ _ (by rw [Fin.val_last]; have : cfg16.N = 64 := N_16; omega), PhiA16_eq]
  iintro ⟨⟨HS, Hrest⟩, Hg⟩
  isplitl [HS Hrest]
  · isplitl [HS]; · iexists _; iexact HS
    iexact Hrest
  iexact Hg

end Cert.Kernel.Hand

end
-- ==== Proof.K.R17.lean ====
/- Region 17 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 17: the row-sum kernel. One point per block of 1024 rows of the matrix; the point's result block is
    w / (Σ_k M[r,k]·v[k] + stab) for each of its rows r. -/

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The matrix window's staging buffer holds the point's block of rows. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The vector window's staging buffer holds the whole row vector at every point (fetched once, never moved). -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

abbrev r17_2 : Rect S1024x1 := Rect.unit (s := S1024x1) ![0, 0] S1024x1.size inb_S1024x1_S1024x1_0_0
abbrev r17_0 : Rect S1024x8192 := Rect.unit (s := S1024x8192) ![0, 0] S1024x8192.size inb_S1024x8192_S1024x8192_0_0
abbrev r17_1 : Rect S1x8192 := Rect.unit (s := S1x8192) ![0, 0] S1x8192.size inb_S1x8192_S1x8192_0_0

/-- The result window's staging buffer after the body: its one whole-block store of the payload. -/
def out17_2 (x0 : Vec F S1024x8192 .bf16) (x1 : Vec F S1x8192 .f32) : Vec F S1024x1 .f32 :=
  View.canon [⟨r17_2, k17_pay1 (View.ld x0 r17_0) (View.ld x1 r17_1)⟩]

theorem cover17_2 (p0 : Vec F S1024x1 .f32) (y : S1024x1.Idx) :
    ∃ pc ∈ ([⟨r17_2, p0⟩] : List (View.Piece (Elt F) S1024x1 .f32)), y ∈ pc.1.set :=
  View.cover_of_tiled [⟨r17_2, p0⟩] S1024x1.size (by rfl) y

set_option maxHeartbeats 1000000 in
/-- The body on whole staging memrefs: the inputs are handed back as read, the result's buffer holds the payload. -/
theorem sound_kernel17 (c : Dev nD) (E : Set ℕ) (i : grid17.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out17_2 x0 x1)) -∗ K ⟨⟩))
      ⊢ wp frame (wpE (defs₀ (F := F)) Variants.none c none) E (cc17__matvec_kernel i arg1 harg1 arg2 harg2 arg3 harg3) K := by
  simp only [cc17__matvec_kernel_eq_skeleton]; unfold cc17__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

/-- The region's proof data: arrays as found; after the body each input's buffer at its block, the result's at the payload. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by
  dsimp only [dat17]
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = out17_2 (iblk17 V c 0 t) (iblk17 V c 1 t) := by dsimp only [dat17]
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ _ _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation17 (c : Dev nD) : BodyObligation (dat17 (F := F) V c) (defs₀ (F := F)) Variants.none () Set.univ := fun t => by
  rw [bigSep_W17, bigSep_W17]
  exact sound_body17 V c t

end Cert.Kernel.Hand

end
-- ==== Proof.K.R18.lean ====
/- Region 18 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 18: the column-sum kernel. The grid is (column block j, row block i), i innermost; a VMEM accumulator is
    zeroed at i = 0, gains the column sums of the tile times the row weights at every i, and at i = 7 the result
    block w / (acc + stab) is stored. -/

def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- The body's two conditions: the row block is the first (the accumulator is zeroed), the row block is the last (the result is stored). -/
abbrev cFirst18 (i : grid18.Coords) : Prop := (Scalar.cmpi .ne (Scalar.extui (Scalar.cmpi .eq (BitVec.ofNat 32 (i 1).val) 0#32)) 0#32) = 1#1
abbrev cLast18 (i : grid18.Coords) : Prop := k18_cond2 i = 1#1
theorem hFirst18 : ∀ t : Fin cfg18.N, cFirst18 (grid18.coords t) ↔ t.val % 8 = 0 :=
  (by decide +kernel : ∀ t : Fin grid18.N, cFirst18 (grid18.coords t) ↔ t.val % 8 = 0)
theorem hLast18 : ∀ t : Fin cfg18.N, cLast18 (grid18.coords t) ↔ t.val % 8 = 7 :=
  (by decide +kernel : ∀ t : Fin grid18.N, cLast18 (grid18.coords t) ↔ t.val % 8 = 7)
theorem live18_0 : ∀ t : Fin cfg18.N, cfg18.idle 0 (grid18.coords t) = false := by decide +kernel
theorem live18_1 : ∀ t : Fin cfg18.N, cfg18.idle 1 (grid18.coords t) = false := by decide +kernel
theorem idle18_2 : ∀ t : Fin cfg18.N, ¬ t.val % 8 = 7 → cfg18.idle 2 (grid18.coords t) = true := by decide +kernel
theorem noFlush18_2 : ∀ t : Fin cfg18.N, ¬ t.val % 8 = 7 → (cfg18.win 2).flush t = false := by decide +kernel
theorem live18_2 : ∀ t : Fin cfg18.N, t.val % 8 = 7 → cfg18.idle 2 (grid18.coords t) = false := by decide +kernel

theorem hz2_18 : (![0, 0] : Fin 2 → Nat) = fun _ => 0 := by funext a; fin_cases a <;> rfl

/-- The accumulator after a point's body, from the tile, the row weights and the accumulator it started from (zero at a first row block). -/
def accNew18 (first : Prop) [Decidable first] (x0 : Vec F S1024x1024 .bf16) (x1 : Vec F S1024x1 .f32) (s : Vec F S1x1024 .f32) : Vec F S1x1024 .f32 :=
  k18_pay2 x0 (if first then k18_pay1 (F := F) else s) x1

set_option maxHeartbeats 4000000 in
/-- The body at a first row block that is not the last: the accumulator ends at the tile's weighted column sums over zero; the result's buffer is untouched. -/
theorem sound_kernel18_A (c : Dev nD) (E : Set ℕ) (i : grid18.Coords) (hc1 : cFirst18 i) (hc2 : ¬ cLast18 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k18_pay2 x0 (k18_pay1 (F := F)) x1)) -∗ K ⟨⟩))
      ⊢ wp frame (wpE (defs₀ (F := F)) Variants.none c none) E (cc18__colreduce_kernel i arg2 harg2 arg3 harg3 arg4 harg4 arg5 harg5) K := by
  simp only [cc18__colreduce_kernel_eq_skeleton]; unfold cc18__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_18 inb_S1x1024_S1x1024_0_0 y⟩)).trans ?_
  refine (View.canon_cons_unit_zero (S := S1x1024) hz2_18 inb_S1x1024_S1x1024_0_0 _ _).trans ?_
  sl_unfold_run_names
  rw [View.readCov_unit_zero (S := S1x1024) _ hz2_18, View.readAt_eq_ld, View.readAt_eq_ld, View.ld_unit_zero (S := S1024x1024) hz2_18, View.ld_unit_zero (S := S1024x1) hz2_18]

set_option maxHeartbeats 4000000 in
/-- The body at a row block neither first nor last: the accumulator gains the tile's weighted column sums; the result's buffer is untouched. -/
theorem sound_kernel18_B (c : Dev nD) (E : Set ℕ) (i : grid18.Coords) (hc1 : ¬ cFirst18 i) (hc2 : ¬ cLast18 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k18_pay2 x0 s x1)) -∗ K ⟨⟩))
      ⊢ wp frame (wpE (defs₀ (F := F)) Variants.none c none) E (cc18__colreduce_kernel i arg2 harg2 arg3 harg3 arg4 harg4 arg5 harg5) K := by
  simp only [cc18__colreduce_kernel_eq_skeleton]; unfold cc18__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_18 inb_S1x1024_S1x1024_0_0 y⟩)).trans ?_
  refine (View.canon_cons_unit_zero (S := S1x1024) hz2_18 inb_S1x1024_S1x1024_0_0 _ _).trans ?_
  simp only [View.readAt_eq_ld, View.ld_unit_zero (S := S1024x1024) hz2_18, View.ld_unit_zero (S := S1x1024) hz2_18, View.ld_unit_zero (S := S1024x1) hz2_18]

set_option maxHeartbeats 4000000 in
/-- The body at the last row block (never the first): the accumulator gains the tile's weighted column sums and the result's buffer
    is stored w / (accumulator + stab). -/
theorem sound_kernel18_C (c : Dev nD) (E : Set ℕ) (i : grid18.Coords) (hc1 : ¬ cFirst18 i) (hc2 : cLast18 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k18_pay3 (k18_pay2 x0 s x1))
            ∗ owns (c : Thread nD τ) arg5 fullShare (k18_pay2 x0 s x1)) -∗ K ⟨⟩))
      ⊢ wp frame (wpE (defs₀ (F := F)) Variants.none c none) E (cc18__colreduce_kernel i arg2 harg2 arg3 harg3 arg4 harg4 arg5 harg5) K := by
  simp only [cc18__colreduce_kernel_eq_skeleton]; unfold cc18__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_18 inb_S1x1024_S1x1024_0_0 y⟩)).trans ?_
    refine (View.canon_cons_unit_zero (S := S1x1024) hz2_18 inb_S1x1024_S1x1024_0_0 _ _).trans ?_
    sl_unfold_run_names
    rw [View.readCov_unit_zero (S := S1x1024) _ hz2_18]
    simp only [View.readAt_eq_ld, View.ld_unit_zero (S := S1024x1024) hz2_18, View.ld_unit_zero (S := S1x1024) hz2_18, View.ld_unit_zero (S := S1024x1) hz2_18]
  iexists _; isplitr
  swap; · iexact HS
  ipureintro
  refine (View.read_writes_eq_canon _ _ _ (fun y => ⟨_, List.mem_cons_self, View.mem_set_unit_zero (S := S1x1024) hz2_18 inb_S1x1024_S1x1024_0_0 y⟩)).trans ?_
  refine (View.canon_cons_unit_zero (S := S1x1024) hz2_18 inb_S1x1024_S1x1024_0_0 _ _).trans ?_
  sl_unfold_run_names
  simp only [View.readAt_eq_ld, View.ld_unit_zero (S := S1024x1024) hz2_18, View.ld_unit_zero (S := S1x1024) hz2_18, View.ld_unit_zero (S := S1024x1) hz2_18]

/-! ### The accumulator point by point, the proof data and the body obligation -/

/-- The accumulator after the body at position n: over zero at a first row block, else over what the point before left. -/
def accAt18 (c : Dev nD) : (n : ℕ) → n < cfg18.N → Vec F S1x1024 .f32
  | 0, hn => k18_pay2 (iblk18 V c 0 ⟨0, hn⟩) (k18_pay1 (F := F)) (iblk18 V c 1 ⟨0, hn⟩)
  | n + 1, hn =>
    if (n + 1) % 8 = 0 then k18_pay2 (iblk18 V c 0 ⟨n + 1, hn⟩) (k18_pay1 (F := F)) (iblk18 V c 1 ⟨n + 1, hn⟩)
    else k18_pay2 (iblk18 V c 0 ⟨n + 1, hn⟩) (accAt18 c n (Nat.lt_of_succ_lt hn)) (iblk18 V c 1 ⟨n + 1, hn⟩)

theorem accAt18_first (c : Dev nD) (t : Fin cfg18.N) (h : t.val % 8 = 0) :
    accAt18 V c t.val t.isLt = k18_pay2 (iblk18 V c 0 t) (k18_pay1 (F := F)) (iblk18 V c 1 t) := by
  obtain ⟨n, hn⟩ := t
  cases n with
  | zero => rfl
  | succ n => exact if_pos h

theorem accAt18_next (c : Dev nD) (t : Fin cfg18.N) (h : ¬ t.val % 8 = 0) :
    accAt18 V c t.val t.isLt = k18_pay2 (iblk18 V c 0 t) (accAt18 V c (t.val - 1) (Nat.lt_of_le_of_lt (Nat.sub_le _ _) t.isLt)) (iblk18 V c 1 t) := by
  obtain ⟨n, hn⟩ := t
  cases n with
  | zero => exact absurd (Nat.zero_mod _) h
  | succ n => exact if_neg h

/-- The kernel's accumulator: a whole scoped buffer of its own. -/
abbrev scM18 : Memref sig .tc .vmem S1x1024 .f32 := Memref.whole cc18_scratch0

/-- The class's invariant with the accumulator split out of the scoped rest. -/
theorem PhiA18_eq (c : Dev nD) :
    (Pipeline.ΦA spec18 c : sProp 𝕄)
      = iprop(iprop(iprop((∃ d, owns (c : Thread nD τ) scM18 fullShare d))
          ∗ Pipeline.scopedRestBut (Ix := Unit) (Name := ℕ) (U := UR sig nD τ) (Lvl := ℕ) (Val := Elt F) spec18 c [cc18_scratch0]) ∗ (∃ r, prngReg c r)) := by
  unfold Pipeline.ΦA; rw [scopedRest18_split]; simp only [scM18, owns_whole]; try rfl

/-- The region invariant before position n: before the first point the class's; afterwards the accumulator at what the point
    before left, the other scoped buffers at anything, the generator register at some state. -/
def PhiS18 (c : Dev nD) : (n : ℕ) → n ≤ cfg18.N → sProp 𝕄
  | 0, _ => Pipeline.ΦA spec18 c
  | n + 1, hn => iprop(iprop(iprop(owns (c : Thread nD τ) scM18 fullShare (accAt18 V c n hn))
      ∗ Pipeline.scopedRestBut (Ix := Unit) (Name := ℕ) (U := UR sig nD τ) (Lvl := ℕ) (Val := Elt F) spec18 c [cc18_scratch0]) ∗ (∃ r, prngReg c r))

theorem PhiS18_zero (c : Dev nD) (n : ℕ) (h : n ≤ cfg18.N) (hz : n = 0) : PhiS18 V c n h = Pipeline.ΦA spec18 c := by
  subst hz; rfl
theorem PhiS18_succ (c : Dev nD) (n : ℕ) (hn : n < cfg18.N) :
    PhiS18 V c (n + 1) hn = iprop(iprop(iprop(owns (c : Thread nD τ) scM18 fullShare (accAt18 V c n hn))
      ∗ Pipeline.scopedRestBut (Ix := Unit) (Name := ℕ) (U := UR sig nD τ) (Lvl := ℕ) (Val := Elt F) spec18 c [cc18_scratch0]) ∗ (∃ r, prngReg c r)) := rfl
theorem PhiS18_pos (c : Dev nD) (n : ℕ) (h : n ≤ cfg18.N) (hz : n ≠ 0) :
    PhiS18 V c n h = iprop(iprop(iprop(owns (c : Thread nD τ) scM18 fullShare (accAt18 V c (n - 1) (by omega)))
      ∗ Pipeline.scopedRestBut (Ix := Unit) (Name := ℕ) (U := UR sig nD τ) (Lvl := ℕ) (Val := Elt F) spec18 c [cc18_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => k18_pay3 (accAt18 V c t.val t.isLt)
  Φ t := PhiS18 V c t.val (Nat.le_of_lt_succ t.isLt)
  q _ := fullShare
  owed _ := 0

theorem A_eq18 (c : Dev nD) (w : Fin cfg18.W) : (dat18 V c).A w = V c (Pipeline.arrRef spec18 w) := by
  dsimp only [dat18]
theorem PhiS18_castSucc (c : Dev nD) (t : Fin cfg18.N) :
    (dat18 V c).Φ t.castSucc = PhiS18 V c t.val (Nat.le_of_lt t.isLt) := by
  dsimp only [dat18]; simp only [Fin.coe_castSucc]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = k18_pay3 (accAt18 V c t.val t.isLt) := by dsimp only [dat18]
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d)))

def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t)

set_option maxHeartbeats 4800000 in
/-- The body at any point, by the point's position among the row blocks. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = PhiS18 V c (t.val + 1) t.isLt from rfl, PhiS18_succ]
  have hN : t.val < 64 := lt_of_lt_of_eq t.isLt (show cfg18.N = 64 from N_18)
  rw [show (dat18 V c).leavesExact 0 t = owns (c : Thread nD τ) (st18_0 t) fullShare ((dat18 V c).after 0 t) from by
    unfold Dat.leavesExact; rw [live18_0 t], after18_0]
  rw [show (dat18 V c).leavesExact 1 t = owns (c : Thread nD τ) (st18_1 t) fullShare ((dat18 V c).after 1 t) from by
    unfold Dat.leavesExact; rw [live18_1 t], after18_1]
  by_cases h0 : t.val % 8 = 0
  · have h7 : ¬ t.val % 8 = 7 := by omega
    rw [Dat.leavesExact_idle (dat18 V c) 2 t (idle18_2 t h7) (noFlush18_2 t h7)]
    rw [accAt18_first V c t h0]
    by_cases hz : t.val = 0
    · rw [PhiS18_castSucc V c t, PhiS18_zero V c _ _ hz, PhiA18_eq]
      iintro ⟨⟨⟨HS, Hrest⟩, Hg⟩, Ho, ⟨%d0, H0⟩, ⟨%d1, H1⟩, ⟨%d2, H2⟩⟩
      iapply (sound_kernel18_A c Set.univ (grid18.coords t) ((hFirst18 t).mpr h0) (fun h => h7 ((hLast18 t).mp h)) _ _ _ _ _ _ _ _ (iblk18 V c 0 t) (iblk18 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS18_castSucc V c t, PhiS18_pos V c _ _ hz]
      iintro ⟨⟨⟨HS, Hrest⟩, Hg⟩, Ho, ⟨%d0, H0⟩, ⟨%d1, H1⟩, ⟨%d2, H2⟩⟩
      iapply (sound_kernel18_A c Set.univ (grid18.coords t) ((hFirst18 t).mpr h0) (fun h => h7 ((hLast18 t).mp h)) _ _ _ _ _ _ _ _ (iblk18 V c 0 t) (iblk18 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS18_castSucc V c t, PhiS18_pos V c _ _ hz]
    rw [accAt18_next V c t h0]
    by_cases h7 : t.val % 8 = 7
    · rw [show (dat18 V c).leavesExact 2 t = owns (c : Thread nD τ) (st18_2 t) fullShare ((dat18 V c).after 2 t) from by
        unfold Dat.leavesExact; rw [live18_2 t h7], after18_2, accAt18_next V c t h0]
      iintro ⟨⟨⟨HS, Hrest⟩, Hg⟩, Ho, ⟨%d0, H0⟩, ⟨%d1, H1⟩, ⟨%d2, H2⟩⟩
      iapply (sound_kernel18_C c Set.univ (grid18.coords t) (fun h => h0 ((hFirst18 t).mp h)) ((hLast18 t).mpr h7) _ _ _ _ _ _ _ _ (iblk18 V c 0 t) (iblk18 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat18 V c) 2 t (idle18_2 t h7) (noFlush18_2 t h7)]
      iintro ⟨⟨⟨HS, Hrest⟩, Hg⟩, Ho, ⟨%d0, H0⟩, ⟨%d1, H1⟩, ⟨%d2, H2⟩⟩
      iapply (sound_kernel18_B c Set.univ (grid18.coords t) (fun h => h0 ((hFirst18 t).mp h)) (fun h => h7 ((hLast18 t).mp h)) _ _ _ _ _ _ _ _ (iblk18 V c 0 t) (iblk18 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation18 (c : Dev nD) : BodyObligation (dat18 (F := F) V c) (defs₀ (F := F)) Variants.none () Set.univ := fun t => by
  rw [bigSep_W18, bigSep_W18]
  exact sound_body18 V c t

/-- What the launch hands the region is the invariant before the first point; -/
theorem hin18 (c : Dev nD) : Pipeline.ΦA spec18 c ⊢ (dat18 V c).Φ 0 := by
  rw [show (dat18 V c).Φ 0 = PhiS18 V c 0 (Nat.zero_le _) from rfl, PhiS18_zero V c 0 _ rfl]
  try exact Idealize.SL.BI.Entails.refl _

/-- and after the last point the invariant gives it back, the accumulator's contents forgotten. -/
theorem hout18 (c : Dev nD) : (dat18 V c).Φ (Fin.last cfg18.N) ⊢ Pipeline.ΦA spec18 c := by
  rw [show (dat18 V c).Φ (Fin.last cfg18.N) = PhiS18 V c (Fin.last cfg18.N).val (Nat.le_of_lt_succ (Fin.last cfg18.N).isLt) from rfl,
    PhiS18_pos V c _ _ (by rw [Fin.val_last]; have : cfg18.N = 64 := N_18; omega), PhiA18_eq]
  iintro ⟨⟨HS, Hrest⟩, Hg⟩
  isplitl [HS Hrest]
  · isplitl [HS]; · iexists _; iexact HS
    iexact Hrest
  iexact Hg

end Cert.Kernel.Hand

end
-- ==== Proof.K.R19.lean ====
/- Region 19 of the program: a row-sum launch (u = w / (K·v + stab)), its body run and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 19: the row-sum kernel. One point per block of 1024 rows of the matrix; the point's result block is
    w / (Σ_k M[r,k]·v[k] + stab) for each of its rows r. -/

/-- Window w's block at point t, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The matrix window's staging buffer holds the point's block of rows. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- The vector window's staging buffer holds the whole row vector at every point (fetched once, never moved). -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

abbrev r19_2 : Rect S1024x1 := Rect.unit (s := S1024x1) ![0, 0] S1024x1.size inb_S1024x1_S1024x1_0_0
abbrev r19_0 : Rect S1024x8192 := Rect.unit (s := S1024x8192) ![0, 0] S1024x8192.size inb_S1024x8192_S1024x8192_0_0
abbrev r19_1 : Rect S1x8192 := Rect.unit (s := S1x8192) ![0, 0] S1x8192.size inb_S1x8192_S1x8192_0_0

/-- The result window's staging buffer after the body: its one whole-block store of the payload. -/
def out19_2 (x0 : Vec F S1024x8192 .bf16) (x1 : Vec F S1x8192 .f32) : Vec F S1024x1 .f32 :=
  View.canon [⟨r19_2, k19_pay1 (View.ld x0 r19_0) (View.ld x1 r19_1)⟩]

theorem cover19_2 (p0 : Vec F S1024x1 .f32) (y : S1024x1.Idx) :
    ∃ pc ∈ ([⟨r19_2, p0⟩] : List (View.Piece (Elt F) S1024x1 .f32)), y ∈ pc.1.set :=
  View.cover_of_tiled [⟨r19_2, p0⟩] S1024x1.size (by rfl) y

set_option maxHeartbeats 1000000 in
/-- The body on whole staging memrefs: the inputs are handed back as read, the result's buffer holds the payload. -/
theorem sound_kernel19 (c : Dev nD) (E : Set ℕ) (i : grid19.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out19_2 x0 x1)) -∗ K ⟨⟩))
      ⊢ wp frame (wpE (defs₀ (F := F)) Variants.none c none) E (cc19__matvec_kernel i arg1 harg1 arg2 harg2 arg3 harg3) K := by
  simp only [cc19__matvec_kernel_eq_skeleton]; unfold cc19__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover19_2 _)

/-- The region's proof data: arrays as found; after the body each input's buffer at its block, the result's at the payload. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

theorem A_eq19 (c : Dev nD) (w : Fin cfg19.W) : (dat19 V c).A w = V c (Pipeline.arrRef spec19 w) := by
  dsimp only [dat19]
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = out19_2 (iblk19 V c 0 t) (iblk19 V c 1 t) := by dsimp only [dat19]
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%d0, H0⟩, ⟨%d1, H1⟩, ⟨%d2, H2⟩⟩
  iapply (sound_kernel19 c Set.univ _ _ _ _ _ _ _ (iblk19 V c 0 t) (iblk19 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation19 (c : Dev nD) : BodyObligation (dat19 (F := F) V c) (defs₀ (F := F)) Variants.none () Set.univ := fun t => by
  rw [bigSep_W19, bigSep_W19]
  exact sound_body19 V c t

end Cert.Kernel.Hand

end
-- ==== Proof.K.R20.lean ====
/- Region 20 of the program: a column-sum launch (v = w / (Kᵀ·u + stab)), its body run by cases, the accumulator it carries
   between grid points, and its proof data. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 20: the column-sum kernel. The grid is (column block j, row block i), i innermost; a VMEM accumulator is
    zeroed at i = 0, gains the column sums of the tile times the row weights at every i, and at i = 7 the result
    block w / (acc + stab) is stored. -/

def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- The body's two conditions: the row block is the first (the accumulator is zeroed), the row block is the last (the result is stored). -/
abbrev cFirst20 (i : grid20.Coords) : Prop := (Scalar.cmpi .ne (Scalar.extui (Scalar.cmpi .eq (BitVec.ofNat 32 (i 1).val) 0#32)) 0#32) = 1#1
abbrev cLast20 (i : grid20.Coords) : Prop := k20_cond2 i = 1#1
theorem hFirst20 : ∀ t : Fin cfg20.N, cFirst20 (grid20.coords t) ↔ t.val % 8 = 0 :=
  (by decide +kernel : ∀ t : Fin grid20.N, cFirst20 (grid20.coords t) ↔ t.val % 8 = 0)
theorem hLast20 : ∀ t : Fin cfg20.N, cLast20 (grid20.coords t) ↔ t.val % 8 = 7 :=
  (by decide +kernel : ∀ t : Fin grid20.N, cLast20 (grid20.coords t) ↔ t.val % 8 = 7)
theorem live20_0 : ∀ t : Fin cfg20.N, cfg20.idle 0 (grid20.coords t) = false := by decide +kernel
theorem live20_1 : ∀ t : Fin cfg20.N, cfg20.idle 1 (grid20.coords t) = false := by decide +kernel
theorem idle20_2 : ∀ t : Fin cfg20.N, ¬ t.val % 8 = 7 → cfg20.idle 2 (grid20.coords t) = true := by decide +kernel
theorem noFlush20_2 : ∀ t : Fin cfg20.N, ¬ t.val % 8 = 7 → (cfg20.win 2).flush t = false := by decide +kernel
theorem live20_2 : ∀ t : Fin cfg20.N, t.val % 8 = 7 → cfg20.idle 2 (grid20.coords t) = false := by decide +kernel

theorem hz2_20 : (![0, 0] : Fin 2 → Nat) = fun _ => 0 := by funext a; fin_cases a <;> rfl

/-- The accumulator after a point's body, from the tile, the row weights and the accumulator it started from (zero at a first row block). -/
def accNew20 (first : Prop) [Decidable first] (x0 : Vec F S1024x1024 .bf16) (x1 : Vec F S1024x1 .f32) (s : Vec F S1x1024 .f32) : Vec F S1x1024 .f32 :=
  k20_pay2 x0 (if first then k20_pay1 (F := F) else s) x1

set_option maxHeartbeats 4000000 in
/-- The body at a first row block that is not the last: the accumulator ends at the tile's weighted column sums over zero; the result's buffer is untouched. -/
theorem sound_kernel20_A (c : Dev nD) (E : Set ℕ) (i : grid20.Coords) (hc1 : cFirst20 i) (hc2 : ¬ cLast20 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k20_pay2 x0 (k20_pay1 (F := F)) x1)) -∗ K ⟨⟩))
      ⊢ wp frame (wpE (defs₀ (F := F)) Variants.none c none) E (cc20__colreduce_kernel i arg2 harg2 arg3 harg3 arg4 harg4 arg5 harg5) K := by
  simp only [cc20__colreduce_kernel_eq_skeleton]; unfold cc20__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_20 inb_S1x1024_S1x1024_0_0 y⟩)).trans ?_
  refine (View.canon_cons_unit_zero (S := S1x1024) hz2_20 inb_S1x1024_S1x1024_0_0 _ _).trans ?_
  sl_unfold_run_names
  rw [View.readCov_unit_zero (S := S1x1024) _ hz2_20, View.readAt_eq_ld, View.readAt_eq_ld, View.ld_unit_zero (S := S1024x1024) hz2_20, View.ld_unit_zero (S := S1024x1) hz2_20]

set_option maxHeartbeats 4000000 in
/-- The body at a row block neither first nor last: the accumulator gains the tile's weighted column sums; the result's buffer is untouched. -/
theorem sound_kernel20_B (c : Dev nD) (E : Set ℕ) (i : grid20.Coords) (hc1 : ¬ cFirst20 i) (hc2 : ¬ cLast20 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k20_pay2 x0 s x1)) -∗ K ⟨⟩))
      ⊢ wp frame (wpE (defs₀ (F := F)) Variants.none c none) E (cc20__colreduce_kernel i arg2 harg2 arg3 harg3 arg4 harg4 arg5 harg5) K := by
  simp only [cc20__colreduce_kernel_eq_skeleton]; unfold cc20__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_20 inb_S1x1024_S1x1024_0_0 y⟩)).trans ?_
  refine (View.canon_cons_unit_zero (S := S1x1024) hz2_20 inb_S1x1024_S1x1024_0_0 _ _).trans ?_
  simp only [View.readAt_eq_ld, View.ld_unit_zero (S := S1024x1024) hz2_20, View.ld_unit_zero (S := S1x1024) hz2_20, View.ld_unit_zero (S := S1024x1) hz2_20]

set_option maxHeartbeats 4000000 in
/-- The body at the last row block (never the first): the accumulator gains the tile's weighted column sums and the result's buffer
    is stored w / (accumulator + stab). -/
theorem sound_kernel20_C (c : Dev nD) (E : Set ℕ) (i : grid20.Coords) (hc1 : ¬ cFirst20 i) (hc2 : cLast20 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k20_pay3 (k20_pay2 x0 s x1))
            ∗ owns (c : Thread nD τ) arg5 fullShare (k20_pay2 x0 s x1)) -∗ K ⟨⟩))
      ⊢ wp frame (wpE (defs₀ (F := F)) Variants.none c none) E (cc20__colreduce_kernel i arg2 harg2 arg3 harg3 arg4 harg4 arg5 harg5) K := by
  simp only [cc20__colreduce_kernel_eq_skeleton]; unfold cc20__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_20 inb_S1x1024_S1x1024_0_0 y⟩)).trans ?_
    refine (View.canon_cons_unit_zero (S := S1x1024) hz2_20 inb_S1x1024_S1x1024_0_0 _ _).trans ?_
    sl_unfold_run_names
    rw [View.readCov_unit_zero (S := S1x1024) _ hz2_20]
    simp only [View.readAt_eq_ld, View.ld_unit_zero (S := S1024x1024) hz2_20, View.ld_unit_zero (S := S1x1024) hz2_20, View.ld_unit_zero (S := S1024x1) hz2_20]
  iexists _; isplitr
  swap; · iexact HS
  ipureintro
  refine (View.read_writes_eq_canon _ _ _ (fun y => ⟨_, List.mem_cons_self, View.mem_set_unit_zero (S := S1x1024) hz2_20 inb_S1x1024_S1x1024_0_0 y⟩)).trans ?_
  refine (View.canon_cons_unit_zero (S := S1x1024) hz2_20 inb_S1x1024_S1x1024_0_0 _ _).trans ?_
  sl_unfold_run_names
  simp only [View.readAt_eq_ld, View.ld_unit_zero (S := S1024x1024) hz2_20, View.ld_unit_zero (S := S1x1024) hz2_20, View.ld_unit_zero (S := S1024x1) hz2_20]

/-! ### The accumulator point by point, the proof data and the body obligation -/

/-- The accumulator after the body at position n: over zero at a first row block, else over what the point before left. -/
def accAt20 (c : Dev nD) : (n : ℕ) → n < cfg20.N → Vec F S1x1024 .f32
  | 0, hn => k20_pay2 (iblk20 V c 0 ⟨0, hn⟩) (k20_pay1 (F := F)) (iblk20 V c 1 ⟨0, hn⟩)
  | n + 1, hn =>
    if (n + 1) % 8 = 0 then k20_pay2 (iblk20 V c 0 ⟨n + 1, hn⟩) (k20_pay1 (F := F)) (iblk20 V c 1 ⟨n + 1, hn⟩)
    else k20_pay2 (iblk20 V c 0 ⟨n + 1, hn⟩) (accAt20 c n (Nat.lt_of_succ_lt hn)) (iblk20 V c 1 ⟨n + 1, hn⟩)

theorem accAt20_first (c : Dev nD) (t : Fin cfg20.N) (h : t.val % 8 = 0) :
    accAt20 V c t.val t.isLt = k20_pay2 (iblk20 V c 0 t) (k20_pay1 (F := F)) (iblk20 V c 1 t) := by
  obtain ⟨n, hn⟩ := t
  cases n with
  | zero => rfl
  | succ n => exact if_pos h

theorem accAt20_next (c : Dev nD) (t : Fin cfg20.N) (h : ¬ t.val % 8 = 0) :
    accAt20 V c t.val t.isLt = k20_pay2 (iblk20 V c 0 t) (accAt20 V c (t.val - 1) (Nat.lt_of_le_of_lt (Nat.sub_le _ _) t.isLt)) (iblk20 V c 1 t) := by
  obtain ⟨n, hn⟩ := t
  cases n with
  | zero => exact absurd (Nat.zero_mod _) h
  | succ n => exact if_neg h

/-- The kernel's accumulator: a whole scoped buffer of its own. -/
abbrev scM20 : Memref sig .tc .vmem S1x1024 .f32 := Memref.whole cc20_scratch0

/-- The class's invariant with the accumulator split out of the scoped rest. -/
theorem PhiA20_eq (c : Dev nD) :
    (Pipeline.ΦA spec20 c : sProp 𝕄)
      = iprop(iprop(iprop((∃ d, owns (c : Thread nD τ) scM20 fullShare d))
          ∗ Pipeline.scopedRestBut (Ix := Unit) (Name := ℕ) (U := UR sig nD τ) (Lvl := ℕ) (Val := Elt F) spec20 c [cc20_scratch0]) ∗ (∃ r, prngReg c r)) := by
  unfold Pipeline.ΦA; rw [scopedRest20_split]; simp only [scM20, owns_whole]; try rfl

/-- The region invariant before position n: before the first point the class's; afterwards the accumulator at what the point
    before left, the other scoped buffers at anything, the generator register at some state. -/
def PhiS20 (c : Dev nD) : (n : ℕ) → n ≤ cfg20.N → sProp 𝕄
  | 0, _ => Pipeline.ΦA spec20 c
  | n + 1, hn => iprop(iprop(iprop(owns (c : Thread nD τ) scM20 fullShare (accAt20 V c n hn))
      ∗ Pipeline.scopedRestBut (Ix := Unit) (Name := ℕ) (U := UR sig nD τ) (Lvl := ℕ) (Val := Elt F) spec20 c [cc20_scratch0]) ∗ (∃ r, prngReg c r))

theorem PhiS20_zero (c : Dev nD) (n : ℕ) (h : n ≤ cfg20.N) (hz : n = 0) : PhiS20 V c n h = Pipeline.ΦA spec20 c := by
  subst hz; rfl
theorem PhiS20_succ (c : Dev nD) (n : ℕ) (hn : n < cfg20.N) :
    PhiS20 V c (n + 1) hn = iprop(iprop(iprop(owns (c : Thread nD τ) scM20 fullShare (accAt20 V c n hn))
      ∗ Pipeline.scopedRestBut (Ix := Unit) (Name := ℕ) (U := UR sig nD τ) (Lvl := ℕ) (Val := Elt F) spec20 c [cc20_scratch0]) ∗ (∃ r, prngReg c r)) := rfl
theorem PhiS20_pos (c : Dev nD) (n : ℕ) (h : n ≤ cfg20.N) (hz : n ≠ 0) :
    PhiS20 V c n h = iprop(iprop(iprop(owns (c : Thread nD τ) scM20 fullShare (accAt20 V c (n - 1) (by omega)))
      ∗ Pipeline.scopedRestBut (Ix := Unit) (Name := ℕ) (U := UR sig nD τ) (Lvl := ℕ) (Val := Elt F) spec20 c [cc20_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => k20_pay3 (accAt20 V c t.val t.isLt)
  Φ t := PhiS20 V c t.val (Nat.le_of_lt_succ t.isLt)
  q _ := fullShare
  owed _ := 0

theorem A_eq20 (c : Dev nD) (w : Fin cfg20.W) : (dat20 V c).A w = V c (Pipeline.arrRef spec20 w) := by
  dsimp only [dat20]
theorem PhiS20_castSucc (c : Dev nD) (t : Fin cfg20.N) :
    (dat20 V c).Φ t.castSucc = PhiS20 V c t.val (Nat.le_of_lt t.isLt) := by
  dsimp only [dat20]; simp only [Fin.coe_castSucc]
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = k20_pay3 (accAt20 V c t.val t.isLt) := by dsimp only [dat20]
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

def bodyPost20 (c : Dev nD) (t : Fin cfg20.N) : sProp 𝕄 :=
  iprop((dat20 V c).Φ t.succ ∗ (dat20 V c).owesAt () t.succ
    ∗ (dat20 V c).leavesExact 0 t
    ∗ (dat20 V c).leavesExact 1 t
    ∗ (dat20 V c).leavesExact 2 t)

set_option maxHeartbeats 4800000 in
/-- The body at any point, by the point's position among the row blocks. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl]
  rw [show (dat20 V c).Φ t.succ = PhiS20 V c (t.val + 1) t.isLt from rfl, PhiS20_succ]
  have hN : t.val < 64 := lt_of_lt_of_eq t.isLt (show cfg20.N = 64 from N_20)
  rw [show (dat20 V c).leavesExact 0 t = owns (c : Thread nD τ) (st20_0 t) fullShare ((dat20 V c).after 0 t) from by
    unfold Dat.leavesExact; rw [live20_0 t], after20_0]
  rw [show (dat20 V c).leavesExact 1 t = owns (c : Thread nD τ) (st20_1 t) fullShare ((dat20 V c).after 1 t) from by
    unfold Dat.leavesExact; rw [live20_1 t], after20_1]
  by_cases h0 : t.val % 8 = 0
  · have h7 : ¬ t.val % 8 = 7 := by omega
    rw [Dat.leavesExact_idle (dat20 V c) 2 t (idle20_2 t h7) (noFlush20_2 t h7)]
    rw [accAt20_first V c t h0]
    by_cases hz : t.val = 0
    · rw [PhiS20_castSucc V c t, PhiS20_zero V c _ _ hz, PhiA20_eq]
      iintro ⟨⟨⟨HS, Hrest⟩, Hg⟩, Ho, ⟨%d0, H0⟩, ⟨%d1, H1⟩, ⟨%d2, H2⟩⟩
      iapply (sound_kernel20_A c Set.univ (grid20.coords t) ((hFirst20 t).mpr h0) (fun h => h7 ((hLast20 t).mp h)) _ _ _ _ _ _ _ _ (iblk20 V c 0 t) (iblk20 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS20_castSucc V c t, PhiS20_pos V c _ _ hz]
      iintro ⟨⟨⟨HS, Hrest⟩, Hg⟩, Ho, ⟨%d0, H0⟩, ⟨%d1, H1⟩, ⟨%d2, H2⟩⟩
      iapply (sound_kernel20_A c Set.univ (grid20.coords t) ((hFirst20 t).mpr h0) (fun h => h7 ((hLast20 t).mp h)) _ _ _ _ _ _ _ _ (iblk20 V c 0 t) (iblk20 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS20_castSucc V c t, PhiS20_pos V c _ _ hz]
    rw [accAt20_next V c t h0]
    by_cases h7 : t.val % 8 = 7
    · rw [show (dat20 V c).leavesExact 2 t = owns (c : Thread nD τ) (st20_2 t) fullShare ((dat20 V c).after 2 t) from by
        unfold Dat.leavesExact; rw [live20_2 t h7], after20_2, accAt20_next V c t h0]
      iintro ⟨⟨⟨HS, Hrest⟩, Hg⟩, Ho, ⟨%d0, H0⟩, ⟨%d1, H1⟩, ⟨%d2, H2⟩⟩
      iapply (sound_kernel20_C c Set.univ (grid20.coords t) (fun h => h0 ((hFirst20 t).mp h)) ((hLast20 t).mpr h7) _ _ _ _ _ _ _ _ (iblk20 V c 0 t) (iblk20 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat20 V c) 2 t (idle20_2 t h7) (noFlush20_2 t h7)]
      iintro ⟨⟨⟨HS, Hrest⟩, Hg⟩, Ho, ⟨%d0, H0⟩, ⟨%d1, H1⟩, ⟨%d2, H2⟩⟩
      iapply (sound_kernel20_B c Set.univ (grid20.coords t) (fun h => h0 ((hFirst20 t).mp h)) (fun h => h7 ((hLast20 t).mp h)) _ _ _ _ _ _ _ _ (iblk20 V c 0 t) (iblk20 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation20 (c : Dev nD) : BodyObligation (dat20 (F := F) V c) (defs₀ (F := F)) Variants.none () Set.univ := fun t => by
  rw [bigSep_W20, bigSep_W20]
  exact sound_body20 V c t

/-- What the launch hands the region is the invariant before the first point; -/
theorem hin20 (c : Dev nD) : Pipeline.ΦA spec20 c ⊢ (dat20 V c).Φ 0 := by
  rw [show (dat20 V c).Φ 0 = PhiS20 V c 0 (Nat.zero_le _) from rfl, PhiS20_zero V c 0 _ rfl]
  try exact Idealize.SL.BI.Entails.refl _

/-- and after the last point the invariant gives it back, the accumulator's contents forgotten. -/
theorem hout20 (c : Dev nD) : (dat20 V c).Φ (Fin.last cfg20.N) ⊢ Pipeline.ΦA spec20 c := by
  rw [show (dat20 V c).Φ (Fin.last cfg20.N) = PhiS20 V c (Fin.last cfg20.N).val (Nat.le_of_lt_succ (Fin.last cfg20.N).isLt) from rfl,
    PhiS20_pos V c _ _ (by rw [Fin.val_last]; have : cfg20.N = 64 := N_20; omega), PhiA20_eq]
  iintro ⟨⟨HS, Hrest⟩, Hg⟩
  isplitl [HS Hrest]
  · isplitl [HS]; · iexists _; iexact HS
    iexact Hrest
  iexact Hg

end Cert.Kernel.Hand

end
-- ==== Proof.K.R21a.lean ====
/- Region 21 of the program, first half: the coupling kernel's body run at a first and at a later column block. -/
import proofs.«111645_j15006615733809_2_alg».proof.Proof.Gen.Kernel.Launch
import proofs.«111645_j15006615733809_2_alg».proof.Proof.Gen.Kernel.Skeleton
import proofs.«111645_j15006615733809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 21: the coupling kernel. The grid is (row block i, column block j), j innermost. Each point stores the coupling tile
    u_r · K_rc · v_c, and a per-row running sum of coupling × cost (zeroed at j = 0) is kept in the second result's block,
    written back after j = 7. -/

def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)

abbrev cFirst21 (i : grid21.Coords) : Prop := (Scalar.cmpi .ne (Scalar.extui (Scalar.cmpi .eq (BitVec.ofNat 32 (i 1).val) 0#32)) 0#32) = 1#1
theorem hFirst21 : ∀ t : Fin cfg21.N, cFirst21 (grid21.coords t) ↔ t.val % 8 = 0 :=
  (by decide +kernel : ∀ t : Fin grid21.N, cFirst21 (grid21.coords t) ↔ t.val % 8 = 0)
theorem noFlush21_6 : ∀ t : Fin cfg21.N, ¬ t.val % 8 = 7 → (cfg21.win 6).flush t = false := by decide +kernel

theorem hz2_21 : (![0, 0] : Fin 2 → Nat) = fun _ => 0 := by funext a; fin_cases a <;> rfl

/-! Reading back a whole-block store, and the payloads over blocks loaded through the whole-block rectangle: small facts over variables. -/

/-- A cover by the first piece alone covers with any pieces after it. -/
theorem cover_cons21 {S : Shape} {e : EltTy} (p : View.Piece (Elt F) S e) (L : List (View.Piece (Elt F) S e))
    (h : ∀ y : S.Idx, ∃ pc ∈ [p], y ∈ pc.1.set) (y : S.Idx) : ∃ pc ∈ p :: L, y ∈ pc.1.set := by
  obtain ⟨pc, hm, hy⟩ := h y
  rw [List.mem_singleton] at hm
  subst hm
  exact ⟨_, List.mem_cons_self, hy⟩

theorem rb_cover21_7 (w : S1024x1024.Idx → Elt F .f32) (y : S1024x1024.Idx) :
    ∃ pc ∈ ([⟨Rect.unit ![0, 0] S1024x1024.size inb_S1024x1024_S1024x1024_0_0, w⟩] : List (View.Piece (Elt F) S1024x1024 .f32)), y ∈ pc.1.set :=
  View.cover_of_tiled [⟨Rect.unit ![0, 0] S1024x1024.size inb_S1024x1024_S1024x1024_0_0, w⟩] S1024x1024.size (by rfl) y
theorem rb_canon21_7 {sp : Space} (v : View sig .tc sp S1024x1024 .f32) (f : v.ty.Contents (Elt F)) (p : View.Piece (Elt F) S1024x1024 .f32)
    (L : List (View.Piece (Elt F) S1024x1024 .f32)) (h : ∀ y, ∃ pc ∈ p :: L, y ∈ pc.1.set) :
    v.read (Elt F) (v.writes (Elt F) f (p :: L)) = View.canon (p :: L) := View.read_writes_eq_canon _ _ _ h
theorem rb_unit21_7 (w : S1024x1024.Idx → Elt F .f32) (L : List (View.Piece (Elt F) S1024x1024 .f32)) :
    View.canon ((⟨Rect.unit ![0, 0] S1024x1024.size inb_S1024x1024_S1024x1024_0_0, w⟩ : View.Piece (Elt F) S1024x1024 .f32) :: L) = w :=
  View.canon_cons_unit_zero (S := S1024x1024) hz2_21 inb_S1024x1024_S1024x1024_0_0 w L
/-- A whole-block store, last, is read back as its payload. -/
theorem readback21_7 {sp : Space} (v : View sig .tc sp S1024x1024 .f32) (f : v.ty.Contents (Elt F)) (w : S1024x1024.Idx → Elt F .f32)
    (L : List (View.Piece (Elt F) S1024x1024 .f32)) :
    v.read (Elt F) (v.writes (Elt F) f (⟨Rect.unit ![0, 0] S1024x1024.size inb_S1024x1024_S1024x1024_0_0, w⟩ :: L)) = w :=
  (rb_canon21_7 v f ⟨Rect.unit ![0, 0] S1024x1024.size inb_S1024x1024_S1024x1024_0_0, w⟩ L (cover_cons21 _ L (rb_cover21_7 w))).trans (rb_unit21_7 w L)

theorem rb_cover21_8 (w : S1024x1.Idx → Elt F .f32) (y : S1024x1.Idx) :
    ∃ pc ∈ ([⟨Rect.unit ![0, 0] S1024x1.size inb_S1024x1_S1024x1_0_0, w⟩] : List (View.Piece (Elt F) S1024x1 .f32)), y ∈ pc.1.set :=
  View.cover_of_tiled [⟨Rect.unit ![0, 0] S1024x1.size inb_S1024x1_S1024x1_0_0, w⟩] S1024x1.size (by rfl) y
theorem rb_canon21_8 {sp : Space} (v : View sig .tc sp S1024x1 .f32) (f : v.ty.Contents (Elt F)) (p : View.Piece (Elt F) S1024x1 .f32)
    (L : List (View.Piece (Elt F) S1024x1 .f32)) (h : ∀ y, ∃ pc ∈ p :: L, y ∈ pc.1.set) :
    v.read (Elt F) (v.writes (Elt F) f (p :: L)) = View.canon (p :: L) := View.read_writes_eq_canon _ _ _ h
theorem rb_unit21_8 (w : S1024x1.Idx → Elt F .f32) (L : List (View.Piece (Elt F) S1024x1 .f32)) :
    View.canon ((⟨Rect.unit ![0, 0] S1024x1.size inb_S1024x1_S1024x1_0_0, w⟩ : View.Piece (Elt F) S1024x1 .f32) :: L) = w :=
  View.canon_cons_unit_zero (S := S1024x1) hz2_21 inb_S1024x1_S1024x1_0_0 w L
/-- A whole-block store, last, is read back as its payload. -/
theorem readback21_8 {sp : Space} (v : View sig .tc sp S1024x1 .f32) (f : v.ty.Contents (Elt F)) (w : S1024x1.Idx → Elt F .f32)
    (L : List (View.Piece (Elt F) S1024x1 .f32)) :
    v.read (Elt F) (v.writes (Elt F) f (⟨Rect.unit ![0, 0] S1024x1.size inb_S1024x1_S1024x1_0_0, w⟩ :: L)) = w :=
  (rb_canon21_8 v f ⟨Rect.unit ![0, 0] S1024x1.size inb_S1024x1_S1024x1_0_0, w⟩ L (cover_cons21 _ L (rb_cover21_8 w))).trans (rb_unit21_8 w L)

theorem pay3_ld21 {sp0 sp1 : Space} (v0 : View sig .tc sp0 S1024x64 .f32) (f0 : v0.ty.Contents (Elt F)) (v1 : View sig .tc sp1 S1024x64 .f32) (f1 : v1.ty.Contents (Elt F)) :
    k21_pay3 (View.readAt (Elt F) v0 (Rect.unit ![0, 0] S1024x64.size inb_S1024x64_S1024x64_0_0).toLoadRect f0)
        (View.readAt (Elt F) v1 (Rect.unit ![0, 0] S1024x64.size inb_S1024x64_S1024x64_0_0).toLoadRect f1)
      = k21_pay3 (v0.read (Elt F) f0) (v1.read (Elt F) f1) := by
  simp only [View.readAt_eq_ld, View.ld_unit_zero (S := S1024x64) hz2_21]

theorem pay4_ld21 {sp2 sp3 sp4 : Space} (v2 : View sig .tc sp2 S1024x1024 .bf16) (f2 : v2.ty.Contents (Elt F)) (v3 : View sig .tc sp3 S1024x1 .f32) (f3 : v3.ty.Contents (Elt F))
    (v4 : View sig .tc sp4 S1x1024 .f32) (f4 : v4.ty.Contents (Elt F)) :
    k21_pay4 (View.readAt (Elt F) v2 (Rect.unit ![0, 0] S1024x1024.size inb_S1024x1024_S1024x1024_0_0).toLoadRect f2)
        (View.readAt (Elt F) v3 (Rect.unit ![0, 0] S1024x1.size inb_S1024x1_S1024x1_0_0).toLoadRect f3)
        (View.readAt (Elt F) v4 (Rect.unit ![0, 0] S1x1024.size inb_S1x1024_S1x1024_0_0).toLoadRect f4)
      = k21_pay4 (v2.read (Elt F) f2) (v3.read (Elt F) f3) (v4.read (Elt F) f4) := by
  simp only [View.readAt_eq_ld, View.ld_unit_zero (S := S1024x1024) hz2_21, View.ld_unit_zero (S := S1x1024) hz2_21, View.ld_unit_zero (S := S1024x1) hz2_21]

theorem readAt8_21 {sp : Space} (v : View sig .tc sp S1024x1 .f32) (f : v.ty.Contents (Elt F)) :
    View.readAt (Elt F) v (Rect.unit ![0, 0] S1024x1.size inb_S1024x1_S1024x1_0_0).toLoadRect f = v.read (Elt F) f := by
  simp only [View.readAt_eq_ld, View.ld_unit_zero (S := S1024x1) hz2_21]

/-- The running row sums after a point's body, from the point's blocks and what the sums were (zero at a first column block). -/
def rowNew21 (x0 x1 : Vec F S1024x64 .f32) (x2 : Vec F S1024x1024 .bf16) (x3 : Vec F S1024x1 .f32) (x4 : Vec F S1x1024 .f32) (r : Vec F S1024x1 .f32) : Vec F S1024x1 .f32 :=
  k21_pay1 (k21_pay3 x0 x1) (k21_pay4 x2 x3 x4) r

set_option maxHeartbeats 8000000 in
/-- The body at a first column block: the sums start over zero. -/
theorem sound_kernel21_A (c : Dev nD) (E : Set ℕ) (i : grid21.Coords) (hc1 : cFirst21 i)
    (arg2 : Memref sig .tc .vmem S1024x64 .f32) (harg2 : arg2.IsWhole) (arg3 : Memref sig .tc .vmem S1024x64 .f32) (harg3 : arg3.IsWhole)
    (arg4 : Memref sig .tc .vmem S1024x1024 .bf16) (harg4 : arg4.IsWhole) (arg5 : Memref sig .tc .vmem S1024x1 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1 .f32) (harg8 : arg8.IsWhole)
    (x0 x1 : Vec F S1024x64 .f32) (x2 : Vec F S1024x1024 .bf16) (x3 : Vec F S1024x1 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k21_pay4 x2 x3 x4)
            ∗ owns (c : Thread nD τ) arg8 fullShare (rowNew21 x0 x1 x2 x3 x4 (k21_pay2 (F := F)))) -∗ K ⟨⟩))
      ⊢ wp frame (wpE (defs₀ (F := F)) Variants.none c none) E (cc21__final_kernel i arg2 harg2 arg3 harg3 arg4 harg4 arg5 harg5 arg6 harg6 arg7 harg7 arg8 harg8) K := by
  simp only [cc21__final_kernel_eq_skeleton]; unfold cc21__final_kernel_skel
  simp only [k21_part1_eq_skeleton]; unfold k21_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (readback21_7 _ _ _ _).trans (pay4_ld21 _ _ _ _ _ _)
  iexists _; isplitr
  swap; · iexact H6
  ipureintro
  refine (readback21_8 _ _ _ _).trans ?_
  dsimp only
  sl_unfold_run_names
  unfold rowNew21
  exact congr (congr (congrArg k21_pay1 (pay3_ld21 _ _ _ _)) (pay4_ld21 _ _ _ _ _ _)) (View.readCov_unit_zero (S := S1024x1) _ hz2_21 inb_S1024x1_S1024x1_0_0 _)

set_option maxHeartbeats 8000000 in
/-- The body at a later column block: the sums gain the tile's row sums of coupling × cost. -/
theorem sound_kernel21_B (c : Dev nD) (E : Set ℕ) (i : grid21.Coords) (hc1 : ¬ cFirst21 i)
    (arg2 : Memref sig .tc .vmem S1024x64 .f32) (harg2 : arg2.IsWhole) (arg3 : Memref sig .tc .vmem S1024x64 .f32) (harg3 : arg3.IsWhole)
    (arg4 : Memref sig .tc .vmem S1024x1024 .bf16) (harg4 : arg4.IsWhole) (arg5 : Memref sig .tc .vmem S1024x1 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1 .f32) (harg8 : arg8.IsWhole)
    (x0 x1 : Vec F S1024x64 .f32) (x2 : Vec F S1024x1024 .bf16) (x3 : Vec F S1024x1 .f32) (x4 : Vec F S1x1024 .f32) (r : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare r
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k21_pay4 x2 x3 x4)
            ∗ owns (c : Thread nD τ) arg8 fullShare (rowNew21 x0 x1 x2 x3 x4 r)) -∗ K ⟨⟩))
      ⊢ wp frame (wpE (defs₀ (F := F)) Variants.none c none) E (cc21__final_kernel i arg2 harg2 arg3 harg3 arg4 harg4 arg5 harg5 arg6 harg6 arg7 harg7 arg8 harg8) K := by
  simp only [cc21__final_kernel_eq_skeleton]; unfold cc21__final_kernel_skel
  simp only [k21_part1_eq_skeleton]; unfold k21_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (readback21_7 _ _ _ _).trans (pay4_ld21 _ _ _ _ _ _)
  iexists _; isplitr
  swap; · iexact H6
  ipureintro
  refine (readback21_8 _ _ _ _).trans ?_
  dsimp only
  sl_unfold_run_names
  unfold rowNew21
  exact congr (congr (congrArg k21_pay1 (pay3_ld21 _ _ _ _)) (pay4_ld21 _ _ _ _ _ _)) (readAt8_21 _ _)

end Cert.Kernel.Hand

end
-- ==== Proof.K.R21.lean ====
/- Region 21 of the program, second half: the running row sums its second result's block carries between grid points, its proof data
   and the body obligation. -/
import proofs.«111645_j15006615733809_2_alg».proof.Proof.K.R21a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ### The running sums point by point, the proof data and the body obligation -/

def rowAt21 (c : Dev nD) : (n : ℕ) → n < cfg21.N → Vec F S1024x1 .f32
  | 0, hn => rowNew21 (iblk21 V c 0 ⟨0, hn⟩) (iblk21 V c 1 ⟨0, hn⟩) (iblk21 V c 2 ⟨0, hn⟩) (iblk21 V c 3 ⟨0, hn⟩) (iblk21 V c 4 ⟨0, hn⟩) (k21_pay2 (F := F))
  | n + 1, hn =>
    if (n + 1) % 8 = 0 then rowNew21 (iblk21 V c 0 ⟨n + 1, hn⟩) (iblk21 V c 1 ⟨n + 1, hn⟩) (iblk21 V c 2 ⟨n + 1, hn⟩) (iblk21 V c 3 ⟨n + 1, hn⟩) (iblk21 V c 4 ⟨n + 1, hn⟩) (k21_pay2 (F := F))
    else rowNew21 (iblk21 V c 0 ⟨n + 1, hn⟩) (iblk21 V c 1 ⟨n + 1, hn⟩) (iblk21 V c 2 ⟨n + 1, hn⟩) (iblk21 V c 3 ⟨n + 1, hn⟩) (iblk21 V c 4 ⟨n + 1, hn⟩) (rowAt21 c n (Nat.lt_of_succ_lt hn))

theorem rowAt21_first (c : Dev nD) (t : Fin cfg21.N) (h : t.val % 8 = 0) :
    rowAt21 V c t.val t.isLt = rowNew21 (iblk21 V c 0 t) (iblk21 V c 1 t) (iblk21 V c 2 t) (iblk21 V c 3 t) (iblk21 V c 4 t) (k21_pay2 (F := F)) := by
  obtain ⟨n, hn⟩ := t
  cases n with
  | zero => rfl
  | succ n => exact if_pos h

theorem rowAt21_next (c : Dev nD) (t : Fin cfg21.N) (h : ¬ t.val % 8 = 0) :
    rowAt21 V c t.val t.isLt = rowNew21 (iblk21 V c 0 t) (iblk21 V c 1 t) (iblk21 V c 2 t) (iblk21 V c 3 t) (iblk21 V c 4 t) (rowAt21 V c (t.val - 1) (Nat.lt_of_le_of_lt (Nat.sub_le _ _) t.isLt)) := by
  obtain ⟨n, hn⟩ := t
  cases n with
  | zero => exact absurd (Nat.zero_mod _) h
  | succ n => exact if_neg h

def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => k21_pay4 (iblk21 V c 2 t) (iblk21 V c 3 t) (iblk21 V c 4 t)
    | ⟨6, _⟩ => rowAt21 V c t.val t.isLt
  Φ _ := Pipeline.ΦA spec21 c
  q _ := fullShare
  owed _ := 0

theorem A_eq21 (c : Dev nD) (w : Fin cfg21.W) : (dat21 V c).A w = V c (Pipeline.arrRef spec21 w) := by
  dsimp only [dat21]
theorem after21_0 (c : Dev nD) (t : Fin cfg21.N) : (dat21 V c).after 0 t = iblk21 V c 0 t := by dsimp only [dat21]
theorem before21_0 (c : Dev nD) (t : Fin cfg21.N) (d) : (dat21 V c).before 0 t d = iblk21 V c 0 t :=
  before21_0_of V (dat21 V c) (A_eq21 V c 0) (after21_0 V c) t d
theorem after21_1 (c : Dev nD) (t : Fin cfg21.N) : (dat21 V c).after 1 t = iblk21 V c 1 t := by dsimp only [dat21]
theorem before21_1 (c : Dev nD) (t : Fin cfg21.N) (d) : (dat21 V c).before 1 t d = iblk21 V c 1 t :=
  before21_1_of V (dat21 V c) (A_eq21 V c 1) (after21_1 V c) t d
theorem after21_2 (c : Dev nD) (t : Fin cfg21.N) : (dat21 V c).after 2 t = iblk21 V c 2 t := by dsimp only [dat21]
theorem before21_2 (c : Dev nD) (t : Fin cfg21.N) (d) : (dat21 V c).before 2 t d = iblk21 V c 2 t :=
  before21_2_of V (dat21 V c) (A_eq21 V c 2) (after21_2 V c) t d
theorem after21_3 (c : Dev nD) (t : Fin cfg21.N) : (dat21 V c).after 3 t = iblk21 V c 3 t := by dsimp only [dat21]
theorem before21_3 (c : Dev nD) (t : Fin cfg21.N) (d) : (dat21 V c).before 3 t d = iblk21 V c 3 t :=
  before21_3_of V (dat21 V c) (A_eq21 V c 3) (after21_3 V c) t d
theorem after21_4 (c : Dev nD) (t : Fin cfg21.N) : (dat21 V c).after 4 t = iblk21 V c 4 t := by dsimp only [dat21]
theorem before21_4 (c : Dev nD) (t : Fin cfg21.N) (d) : (dat21 V c).before 4 t d = iblk21 V c 4 t :=
  before21_4_of V (dat21 V c) (A_eq21 V c 4) (after21_4 V c) t d
theorem after21_5 (c : Dev nD) (t : Fin cfg21.N) : (dat21 V c).after 5 t = k21_pay4 (iblk21 V c 2 t) (iblk21 V c 3 t) (iblk21 V c 4 t) := by dsimp only [dat21]
theorem after21_6 (c : Dev nD) (t : Fin cfg21.N) : (dat21 V c).after 6 t = rowAt21 V c t.val t.isLt := by dsimp only [dat21]

/-- The row sums' buffer at a later column block holds what the point before left: the block is not written back between. -/
theorem before21_6 (c : Dev nD) (t : Fin cfg21.N) (h : ¬ t.val % 8 = 0) (d) :
    (dat21 V c).before 6 t d = rowAt21 V c (t.val - 1) (Nat.lt_of_le_of_lt (Nat.sub_le _ _) t.isLt) := by
  have ht : t.val ≠ 0 := fun e => h (by rw [e])
  rw [(dat21 V c).before_out_kept 6 rfl t ht (noFlush21_6 ⟨t.val - 1, Nat.lt_of_le_of_lt (Nat.sub_le _ _) t.isLt⟩ (by
      have hN : t.val < 64 := lt_of_lt_of_eq t.isLt (show cfg21.N = 64 from N_21)
      show ¬ (t.val - 1) % 8 = 7; omega)) (fun _ => rfl) (fun _ _ => rfl) d, after21_6]

def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d))
    ∗ (∃ d, owns (c : Thread nD τ) (st21_6 t) fullShare ((dat21 V c).before 6 t d)))

def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t)
    ∗ owns (c : Thread nD τ) (st21_6 t) fullShare ((dat21 V c).after 6 t))

set_option maxHeartbeats 4800000 in
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4]
  rw [show (dat21 V c).Φ t.succ = (dat21 V c).Φ t.castSucc from rfl,
    show (dat21 V c).owesAt () t.succ = (dat21 V c).owesAt () t.castSucc from rfl,
    after21_0, after21_1, after21_2, after21_3, after21_4, after21_5, after21_6]
  by_cases h0 : t.val % 8 = 0
  · rw [rowAt21_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel21_A c Set.univ (grid21.coords t) ((hFirst21 t).mpr h0) _ _ _ _ _ _ _ _ _ _ _ _ _ _ (iblk21 V c 0 t) (iblk21 V c 1 t) (iblk21 V c 2 t) (iblk21 V c 3 t) (iblk21 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [rowAt21_next V c t h0]
    simp only [before21_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel21_B c Set.univ (grid21.coords t) (fun h => h0 ((hFirst21 t).mp h)) _ _ _ _ _ _ _ _ _ _ _ _ _ _ (iblk21 V c 0 t) (iblk21 V c 1 t) (iblk21 V c 2 t) (iblk21 V c 3 t) (iblk21 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation21 (c : Dev nD) : BodyObligation (dat21 (F := F) V c) (defs₀ (F := F)) Variants.none () Set.univ := fun t => by
  rw [bigSep_W21, bigSep_W21]
  exact sound_body21 V c t

end Cert.Kernel.Hand

end
-- ==== Proof.K.Run.lean ====
/- The whole run of @main: the buffers' contents at every boundary between items (a fold from the launch memory: a host stretch
   applies its operations, a kernel region leaves its arrays at what its write-backs fold to and every other buffer alone), each region
   as a segment between two boundaries, and the run's post: every unscoped buffer ends at the last boundary's contents. -/
import proofs.«111645_j15006615733809_2_alg».proof.Proof.K.R0
import proofs.«111645_j15006615733809_2_alg».proof.Proof.K.R1
import proofs.«111645_j15006615733809_2_alg».proof.Proof.K.R2
import proofs.«111645_j15006615733809_2_alg».proof.Proof.K.R3
import proofs.«111645_j15006615733809_2_alg».proof.Proof.K.R4
import proofs.«111645_j15006615733809_2_alg».proof.Proof.K.R5
import proofs.«111645_j15006615733809_2_alg».proof.Proof.K.R6
import proofs.«111645_j15006615733809_2_alg».proof.Proof.K.R7
import proofs.«111645_j15006615733809_2_alg».proof.Proof.K.R8
import proofs.«111645_j15006615733809_2_alg».proof.Proof.K.R9
import proofs.«111645_j15006615733809_2_alg».proof.Proof.K.R10
import proofs.«111645_j15006615733809_2_alg».proof.Proof.K.R11
import proofs.«111645_j15006615733809_2_alg».proof.Proof.K.R12
import proofs.«111645_j15006615733809_2_alg».proof.Proof.K.R13
import proofs.«111645_j15006615733809_2_alg».proof.Proof.K.R14
import proofs.«111645_j15006615733809_2_alg».proof.Proof.K.R15
import proofs.«111645_j15006615733809_2_alg».proof.Proof.K.R16
import proofs.«111645_j15006615733809_2_alg».proof.Proof.K.R17
import proofs.«111645_j15006615733809_2_alg».proof.Proof.K.R18
import proofs.«111645_j15006615733809_2_alg».proof.Proof.K.R19
import proofs.«111645_j15006615733809_2_alg».proof.Proof.K.R20
import proofs.«111645_j15006615733809_2_alg».proof.Proof.K.R21
import proofs.«111645_j15006615733809_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core c's buffers at launch. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- At region 0's exit: its arrays at what the pipeline leaves, every other buffer as entered. -/
def WX0 (c : Dev nD) : Valuation τ sig (Elt F) :=
  Pipeline.withArrays spec0 c (W0 m ρ c) fun w => (dat0 (VE0 m ρ) c).arrAt w cfg0.N
theorem WX0_arr (c : Dev nD) (w : Fin cfg0.W) :
    WX0 m ρ c (Proc.devRef .tc (Pipeline.arrRef spec0 w)) = (dat0 (VE0 m ρ) c).arrAt w cfg0.N := by
  unfold WX0; exact Pipeline.withArrays_arr spec0 launch0.win.arr_inj c _ _ w
theorem WX0_of_ne (c : Dev nD) (b : Ref sig .tc) (hb : ∀ w, Pipeline.arrRef spec0 w ≠ b) :
    WX0 m ρ c (Proc.devRef .tc b) = W0 m ρ c (Proc.devRef .tc b) := by
  unfold WX0; exact Pipeline.withArrays_of_ne spec0 c _ _ b hb
abbrev VX0 : (c : Dev nD) → (b : Ref sig .tc) → Buf (Elt F) ((c : Thread nD τ).loc b) := fun c b => WX0 m ρ c b
theorem hF0 (c : Dev nD) (w : Fin cfg0.W) : (dat0 (VE0 m ρ) c).arrAt w cfg0.N = VX0 m ρ c (Pipeline.arrRef spec0 w) :=
  (WX0_arr m ρ c w).symm
theorem hrest0 (c : Dev nD) : ∀ b, b ∉ Finset.univ.image (Pipeline.arrRef spec0) → VX0 m ρ c b = VE0 m ρ c b :=
  fun b hb => WX0_of_ne m ρ c b fun w e => hb (Finset.mem_image.mpr ⟨w, Finset.mem_univ _, e⟩)
/-- Region 0 changes no buffer but its outputs' arrays. -/
theorem keep0 (c : Dev nD) (b : Ref sig .tc) (hb : ∀ w, (cfg0.win w).isOut = true → Pipeline.arrRef spec0 w ≠ b) :
    WX0 m ρ c (Proc.devRef .tc b) = W0 m ρ c (Proc.devRef .tc b) := by
  by_cases h : ∃ w, Pipeline.arrRef spec0 w = b
  · obtain ⟨w, rfl⟩ := h
    have hin : (cfg0.win w).isOut = false := by
      cases hh : (cfg0.win w).isOut
      · rfl
      · exact absurd rfl (hb w hh)
    exact (WX0_arr m ρ c w).trans (((dat0 (VE0 m ρ) c).arrAt_in w hin _).trans (A_eq0 (VE0 m ρ) c w))
  · exact WX0_of_ne m ρ c b (fun w e => h ⟨w, e⟩)
/-- After the first host stretch (the two all-ones vectors). -/
abbrev WE1 : Dev nD → Valuation τ sig (Elt F) := fun c => StableHlo.after hostOps1 (WX0 m ρ c)
abbrev VE1 : (c : Dev nD) → (b : Ref sig .tc) → Buf (Elt F) ((c : Thread nD τ).loc b) := fun c b => WE1 m ρ c b
/-- At region 1's exit: its arrays at what the pipeline leaves, every other buffer as entered. -/
def WX1 (c : Dev nD) : Valuation τ sig (Elt F) :=
  Pipeline.withArrays spec1 c (WE1 m ρ c) fun w => (dat1 (VE1 m ρ) c).arrAt w cfg1.N
theorem WX1_arr (c : Dev nD) (w : Fin cfg1.W) :
    WX1 m ρ c (Proc.devRef .tc (Pipeline.arrRef spec1 w)) = (dat1 (VE1 m ρ) c).arrAt w cfg1.N := by
  unfold WX1; exact Pipeline.withArrays_arr spec1 launch1.win.arr_inj c _ _ w
theorem WX1_of_ne (c : Dev nD) (b : Ref sig .tc) (hb : ∀ w, Pipeline.arrRef spec1 w ≠ b) :
    WX1 m ρ c (Proc.devRef .tc b) = WE1 m ρ c (Proc.devRef .tc b) := by
  unfold WX1; exact Pipeline.withArrays_of_ne spec1 c _ _ b hb
abbrev VX1 : (c : Dev nD) → (b : Ref sig .tc) → Buf (Elt F) ((c : Thread nD τ).loc b) := fun c b => WX1 m ρ c b
theorem hF1 (c : Dev nD) (w : Fin cfg1.W) : (dat1 (VE1 m ρ) c).arrAt w cfg1.N = VX1 m ρ c (Pipeline.arrRef spec1 w) :=
  (WX1_arr m ρ c w).symm
theorem hrest1 (c : Dev nD) : ∀ b, b ∉ Finset.univ.image (Pipeline.arrRef spec1) → VX1 m ρ c b = VE1 m ρ c b :=
  fun b hb => WX1_of_ne m ρ c b fun w e => hb (Finset.mem_image.mpr ⟨w, Finset.mem_univ _, e⟩)
/-- Region 1 changes no buffer but its outputs' arrays. -/
theorem keep1 (c : Dev nD) (b : Ref sig .tc) (hb : ∀ w, (cfg1.win w).isOut = true → Pipeline.arrRef spec1 w ≠ b) :
    WX1 m ρ c (Proc.devRef .tc b) = WE1 m ρ c (Proc.devRef .tc b) := by
  by_cases h : ∃ w, Pipeline.arrRef spec1 w = b
  · obtain ⟨w, rfl⟩ := h
    have hin : (cfg1.win w).isOut = false := by
      cases hh : (cfg1.win w).isOut
      · rfl
      · exact absurd rfl (hb w hh)
    exact (WX1_arr m ρ c w).trans (((dat1 (VE1 m ρ) c).arrAt_in w hin _).trans (A_eq1 (VE1 m ρ) c w))
  · exact WX1_of_ne m ρ c b (fun w e => h ⟨w, e⟩)
abbrev VE2 : (c : Dev nD) → (b : Ref sig .tc) → Buf (Elt F) ((c : Thread nD τ).loc b) := fun c b => WX1 m ρ c b
/-- At region 2's exit: its arrays at what the pipeline leaves, every other buffer as entered. -/
def WX2 (c : Dev nD) : Valuation τ sig (Elt F) :=
  Pipeline.withArrays spec2 c (WX1 m ρ c) fun w => (dat2 (VE2 m ρ) c).arrAt w cfg2.N
theorem WX2_arr (c : Dev nD) (w : Fin cfg2.W) :
    WX2 m ρ c (Proc.devRef .tc (Pipeline.arrRef spec2 w)) = (dat2 (VE2 m ρ) c).arrAt w cfg2.N := by
  unfold WX2; exact Pipeline.withArrays_arr spec2 launch2.win.arr_inj c _ _ w
theorem WX2_of_ne (c : Dev nD) (b : Ref sig .tc) (hb : ∀ w, Pipeline.arrRef spec2 w ≠ b) :
    WX2 m ρ c (Proc.devRef .tc b) = WX1 m ρ c (Proc.devRef .tc b) := by
  unfold WX2; exact Pipeline.withArrays_of_ne spec2 c _ _ b hb
abbrev VX2 : (c : Dev nD) → (b : Ref sig .tc) → Buf (Elt F) ((c : Thread nD τ).loc b) := fun c b => WX2 m ρ c b
theorem hF2 (c : Dev nD) (w : Fin cfg2.W) : (dat2 (VE2 m ρ) c).arrAt w cfg2.N = VX2 m ρ c (Pipeline.arrRef spec2 w) :=
  (WX2_arr m ρ c w).symm
theorem hrest2 (c : Dev nD) : ∀ b, b ∉ Finset.univ.image (Pipeline.arrRef spec2) → VX2 m ρ c b = VE2 m ρ c b :=
  fun b hb => WX2_of_ne m ρ c b fun w e => hb (Finset.mem_image.mpr ⟨w, Finset.mem_univ _, e⟩)
/-- Region 2 changes no buffer but its outputs' arrays. -/
theorem keep2 (c : Dev nD) (b : Ref sig .tc) (hb : ∀ w, (cfg2.win w).isOut = true → Pipeline.arrRef spec2 w ≠ b) :
    WX2 m ρ c (Proc.devRef .tc b) = WX1 m ρ c (Proc.devRef .tc b) := by
  by_cases h : ∃ w, Pipeline.arrRef spec2 w = b
  · obtain ⟨w, rfl⟩ := h
    have hin : (cfg2.win w).isOut = false := by
      cases hh : (cfg2.win w).isOut
      · rfl
      · exact absurd rfl (hb w hh)
    exact (WX2_arr m ρ c w).trans (((dat2 (VE2 m ρ) c).arrAt_in w hin _).trans (A_eq2 (VE2 m ρ) c w))
  · exact WX2_of_ne m ρ c b (fun w e => h ⟨w, e⟩)
abbrev VE3 : (c : Dev nD) → (b : Ref sig .tc) → Buf (Elt F) ((c : Thread nD τ).loc b) := fun c b => WX2 m ρ c b
/-- At region 3's exit: its arrays at what the pipeline leaves, every other buffer as entered. -/
def WX3 (c : Dev nD) : Valuation τ sig (Elt F) :=
  Pipeline.withArrays spec3 c (WX2 m ρ c) fun w => (dat3 (VE3 m ρ) c).arrAt w cfg3.N
theorem WX3_arr (c : Dev nD) (w : Fin cfg3.W) :
    WX3 m ρ c (Proc.devRef .tc (Pipeline.arrRef spec3 w)) = (dat3 (VE3 m ρ) c).arrAt w cfg3.N := by
  unfold WX3; exact Pipeline.withArrays_arr spec3 launch3.win.arr_inj c _ _ w
theorem WX3_of_ne (c : Dev nD) (b : Ref sig .tc) (hb : ∀ w, Pipeline.arrRef spec3 w ≠ b) :
    WX3 m ρ c (Proc.devRef .tc b) = WX2 m ρ c (Proc.devRef .tc b) := by
  unfold WX3; exact Pipeline.withArrays_of_ne spec3 c _ _ b hb
abbrev VX3 : (c : Dev nD) → (b : Ref sig .tc) → Buf (Elt F) ((c : Thread nD τ).loc b) := fun c b => WX3 m ρ c b
theorem hF3 (c : Dev nD) (w : Fin cfg3.W) : (dat3 (VE3 m ρ) c).arrAt w cfg3.N = VX3 m ρ c (Pipeline.arrRef spec3 w) :=
  (WX3_arr m ρ c w).symm
theorem hrest3 (c : Dev nD) : ∀ b, b ∉ Finset.univ.image (Pipeline.arrRef spec3) → VX3 m ρ c b = VE3 m ρ c b :=
  fun b hb => WX3_of_ne m ρ c b fun w e => hb (Finset.mem_image.mpr ⟨w, Finset.mem_univ _, e⟩)
/-- Region 3 changes no buffer but its outputs' arrays. -/
theorem keep3 (c : Dev nD) (b : Ref sig .tc) (hb : ∀ w, (cfg3.win w).isOut = true → Pipeline.arrRef spec3 w ≠ b) :
    WX3 m ρ c (Proc.devRef .tc b) = WX2 m ρ c (Proc.devRef .tc b) := by
  by_cases h : ∃ w, Pipeline.arrRef spec3 w = b
  · obtain ⟨w, rfl⟩ := h
    have hin : (cfg3.win w).isOut = false := by
      cases hh : (cfg3.win w).isOut
      · rfl
      · exact absurd rfl (hb w hh)
    exact (WX3_arr m ρ c w).trans (((dat3 (VE3 m ρ) c).arrAt_in w hin _).trans (A_eq3 (VE3 m ρ) c w))
  · exact WX3_of_ne m ρ c b (fun w e => h ⟨w, e⟩)
abbrev VE4 : (c : Dev nD) → (b : Ref sig .tc) → Buf (Elt F) ((c : Thread nD τ).loc b) := fun c b => WX3 m ρ c b
/-- At region 4's exit: its arrays at what the pipeline leaves, every other buffer as entered. -/
def WX4 (c : Dev nD) : Valuation τ sig (Elt F) :=
  Pipeline.withArrays spec4 c (WX3 m ρ c) fun w => (dat4 (VE4 m ρ) c).arrAt w cfg4.N
theorem WX4_arr (c : Dev nD) (w : Fin cfg4.W) :
    WX4 m ρ c (Proc.devRef .tc (Pipeline.arrRef spec4 w)) = (dat4 (VE4 m ρ) c).arrAt w cfg4.N := by
  unfold WX4; exact Pipeline.withArrays_arr spec4 launch4.win.arr_inj c _ _ w
theorem WX4_of_ne (c : Dev nD) (b : Ref sig .tc) (hb : ∀ w, Pipeline.arrRef spec4 w ≠ b) :
    WX4 m ρ c (Proc.devRef .tc b) = WX3 m ρ c (Proc.devRef .tc b) := by
  unfold WX4; exact Pipeline.withArrays_of_ne spec4 c _ _ b hb
abbrev VX4 : (c : Dev nD) → (b : Ref sig .tc) → Buf (Elt F) ((c : Thread nD τ).loc b) := fun c b => WX4 m ρ c b
theorem hF4 (c : Dev nD) (w : Fin cfg4.W) : (dat4 (VE4 m ρ) c).arrAt w cfg4.N = VX4 m ρ c (Pipeline.arrRef spec4 w) :=
  (WX4_arr m ρ c w).symm
theorem hrest4 (c : Dev nD) : ∀ b, b ∉ Finset.univ.image (Pipeline.arrRef spec4) → VX4 m ρ c b = VE4 m ρ c b :=
  fun b hb => WX4_of_ne m ρ c b fun w e => hb (Finset.mem_image.mpr ⟨w, Finset.mem_univ _, e⟩)
/-- Region 4 changes no buffer but its outputs' arrays. -/
theorem keep4 (c : Dev nD) (b : Ref sig .tc) (hb : ∀ w, (cfg4.win w).isOut = true → Pipeline.arrRef spec4 w ≠ b) :
    WX4 m ρ c (Proc.devRef .tc b) = WX3 m ρ c (Proc.devRef .tc b) := by
  by_cases h : ∃ w, Pipeline.arrRef spec4 w = b
  · obtain ⟨w, rfl⟩ := h
    have hin : (cfg4.win w).isOut = false := by
      cases hh : (cfg4.win w).isOut
      · rfl
      · exact absurd rfl (hb w hh)
    exact (WX4_arr m ρ c w).trans (((dat4 (VE4 m ρ) c).arrAt_in w hin _).trans (A_eq4 (VE4 m ρ) c w))
  · exact WX4_of_ne m ρ c b (fun w e => h ⟨w, e⟩)
abbrev VE5 : (c : Dev nD) → (b : Ref sig .tc) → Buf (Elt F) ((c : Thread nD τ).loc b) := fun c b => WX4 m ρ c b
/-- At region 5's exit: its arrays at what the pipeline leaves, every other buffer as entered. -/
def WX5 (c : Dev nD) : Valuation τ sig (Elt F) :=
  Pipeline.withArrays spec5 c (WX4 m ρ c) fun w => (dat5 (VE5 m ρ) c).arrAt w cfg5.N
theorem WX5_arr (c : Dev nD) (w : Fin cfg5.W) :
    WX5 m ρ c (Proc.devRef .tc (Pipeline.arrRef spec5 w)) = (dat5 (VE5 m ρ) c).arrAt w cfg5.N := by
  unfold WX5; exact Pipeline.withArrays_arr spec5 launch5.win.arr_inj c _ _ w
theorem WX5_of_ne (c : Dev nD) (b : Ref sig .tc) (hb : ∀ w, Pipeline.arrRef spec5 w ≠ b) :
    WX5 m ρ c (Proc.devRef .tc b) = WX4 m ρ c (Proc.devRef .tc b) := by
  unfold WX5; exact Pipeline.withArrays_of_ne spec5 c _ _ b hb
abbrev VX5 : (c : Dev nD) → (b : Ref sig .tc) → Buf (Elt F) ((c : Thread nD τ).loc b) := fun c b => WX5 m ρ c b
theorem hF5 (c : Dev nD) (w : Fin cfg5.W) : (dat5 (VE5 m ρ) c).arrAt w cfg5.N = VX5 m ρ c (Pipeline.arrRef spec5 w) :=
  (WX5_arr m ρ c w).symm
theorem hrest5 (c : Dev nD) : ∀ b, b ∉ Finset.univ.image (Pipeline.arrRef spec5) → VX5 m ρ c b = VE5 m ρ c b :=
  fun b hb => WX5_of_ne m ρ c b fun w e => hb (Finset.mem_image.mpr ⟨w, Finset.mem_univ _, e⟩)
/-- Region 5 changes no buffer but its outputs' arrays. -/
theorem keep5 (c : Dev nD) (b : Ref sig .tc) (hb : ∀ w, (cfg5.win w).isOut = true → Pipeline.arrRef spec5 w ≠ b) :
    WX5 m ρ c (Proc.devRef .tc b) = WX4 m ρ c (Proc.devRef .tc b) := by
  by_cases h : ∃ w, Pipeline.arrRef spec5 w = b
  · obtain ⟨w, rfl⟩ := h
    have hin : (cfg5.win w).isOut = false := by
      cases hh : (cfg5.win w).isOut
      · rfl
      · exact absurd rfl (hb w hh)
    exact (WX5_arr m ρ c w).trans (((dat5 (VE5 m ρ) c).arrAt_in w hin _).trans (A_eq5 (VE5 m ρ) c w))
  · exact WX5_of_ne m ρ c b (fun w e => h ⟨w, e⟩)
abbrev VE6 : (c : Dev nD) → (b : Ref sig .tc) → Buf (Elt F) ((c : Thread nD τ).loc b) := fun c b => WX5 m ρ c b
/-- At region 6's exit: its arrays at what the pipeline leaves, every other buffer as entered. -/
def WX6 (c : Dev nD) : Valuation τ sig (Elt F) :=
  Pipeline.withArrays spec6 c (WX5 m ρ c) fun w => (dat6 (VE6 m ρ) c).arrAt w cfg6.N
theorem WX6_arr (c : Dev nD) (w : Fin cfg6.W) :
    WX6 m ρ c (Proc.devRef .tc (Pipeline.arrRef spec6 w)) = (dat6 (VE6 m ρ) c).arrAt w cfg6.N := by
  unfold WX6; exact Pipeline.withArrays_arr spec6 launch6.win.arr_inj c _ _ w
theorem WX6_of_ne (c : Dev nD) (b : Ref sig .tc) (hb : ∀ w, Pipeline.arrRef spec6 w ≠ b) :
    WX6 m ρ c (Proc.devRef .tc b) = WX5 m ρ c (Proc.devRef .tc b) := by
  unfold WX6; exact Pipeline.withArrays_of_ne spec6 c _ _ b hb
abbrev VX6 : (c : Dev nD) → (b : Ref sig .tc) → Buf (Elt F) ((c : Thread nD τ).loc b) := fun c b => WX6 m ρ c b
theorem hF6 (c : Dev nD) (w : Fin cfg6.W) : (dat6 (VE6 m ρ) c).arrAt w cfg6.N = VX6 m ρ c (Pipeline.arrRef spec6 w) :=
  (WX6_arr m ρ c w).symm
theorem hrest6 (c : Dev nD) : ∀ b, b ∉ Finset.univ.image (Pipeline.arrRef spec6) → VX6 m ρ c b = VE6 m ρ c b :=
  fun b hb => WX6_of_ne m ρ c b fun w e => hb (Finset.mem_image.mpr ⟨w, Finset.mem_univ _, e⟩)
/-- Region 6 changes no buffer but its outputs' arrays. -/
theorem keep6 (c : Dev nD) (b : Ref sig .tc) (hb : ∀ w, (cfg6.win w).isOut = true → Pipeline.arrRef spec6 w ≠ b) :
    WX6 m ρ c (Proc.devRef .tc b) = WX5 m ρ c (Proc.devRef .tc b) := by
  by_cases h : ∃ w, Pipeline.arrRef spec6 w = b
  · obtain ⟨w, rfl⟩ := h
    have hin : (cfg6.win w).isOut = false := by
      cases hh : (cfg6.win w).isOut
      · rfl
      · exact absurd rfl (hb w hh)
    exact (WX6_arr m ρ c w).trans (((dat6 (VE6 m ρ) c).arrAt_in w hin _).trans (A_eq6 (VE6 m ρ) c w))
  · exact WX6_of_ne m ρ c b (fun w e => h ⟨w, e⟩)
abbrev VE7 : (c : Dev nD) → (b : Ref sig .tc) → Buf (Elt F) ((c : Thread nD τ).loc b) := fun c b => WX6 m ρ c b
/-- At region 7's exit: its arrays at what the pipeline leaves, every other buffer as entered. -/
def WX7 (c : Dev nD) : Valuation τ sig (Elt F) :=
  Pipeline.withArrays spec7 c (WX6 m ρ c) fun w => (dat7 (VE7 m ρ) c).arrAt w cfg7.N
theorem WX7_arr (c : Dev nD) (w : Fin cfg7.W) :
    WX7 m ρ c (Proc.devRef .tc (Pipeline.arrRef spec7 w)) = (dat7 (VE7 m ρ) c).arrAt w cfg7.N := by
  unfold WX7; exact Pipeline.withArrays_arr spec7 launch7.win.arr_inj c _ _ w
theorem WX7_of_ne (c : Dev nD) (b : Ref sig .tc) (hb : ∀ w, Pipeline.arrRef spec7 w ≠ b) :
    WX7 m ρ c (Proc.devRef .tc b) = WX6 m ρ c (Proc.devRef .tc b) := by
  unfold WX7; exact Pipeline.withArrays_of_ne spec7 c _ _ b hb
abbrev VX7 : (c : Dev nD) → (b : Ref sig .tc) → Buf (Elt F) ((c : Thread nD τ).loc b) := fun c b => WX7 m ρ c b
theorem hF7 (c : Dev nD) (w : Fin cfg7.W) : (dat7 (VE7 m ρ) c).arrAt w cfg7.N = VX7 m ρ c (Pipeline.arrRef spec7 w) :=
  (WX7_arr m ρ c w).symm
theorem hrest7 (c : Dev nD) : ∀ b, b ∉ Finset.univ.image (Pipeline.arrRef spec7) → VX7 m ρ c b = VE7 m ρ c b :=
  fun b hb => WX7_of_ne m ρ c b fun w e => hb (Finset.mem_image.mpr ⟨w, Finset.mem_univ _, e⟩)
/-- Region 7 changes no buffer but its outputs' arrays. -/
theorem keep7 (c : Dev nD) (b : Ref sig .tc) (hb : ∀ w, (cfg7.win w).isOut = true → Pipeline.arrRef spec7 w ≠ b) :
    WX7 m ρ c (Proc.devRef .tc b) = WX6 m ρ c (Proc.devRef .tc b) := by
  by_cases h : ∃ w, Pipeline.arrRef spec7 w = b
  · obtain ⟨w, rfl⟩ := h
    have hin : (cfg7.win w).isOut = false := by
      cases hh : (cfg7.win w).isOut
      · rfl
      · exact absurd rfl (hb w hh)
    exact (WX7_arr m ρ c w).trans (((dat7 (VE7 m ρ) c).arrAt_in w hin _).trans (A_eq7 (VE7 m ρ) c w))
  · exact WX7_of_ne m ρ c b (fun w e => h ⟨w, e⟩)
abbrev VE8 : (c : Dev nD) → (b : Ref sig .tc) → Buf (Elt F) ((c : Thread nD τ).loc b) := fun c b => WX7 m ρ c b
/-- At region 8's exit: its arrays at what the pipeline leaves, every other buffer as entered. -/
def WX8 (c : Dev nD) : Valuation τ sig (Elt F) :=
  Pipeline.withArrays spec8 c (WX7 m ρ c) fun w => (dat8 (VE8 m ρ) c).arrAt w cfg8.N
theorem WX8_arr (c : Dev nD) (w : Fin cfg8.W) :
    WX8 m ρ c (Proc.devRef .tc (Pipeline.arrRef spec8 w)) = (dat8 (VE8 m ρ) c).arrAt w cfg8.N := by
  unfold WX8; exact Pipeline.withArrays_arr spec8 launch8.win.arr_inj c _ _ w
theorem WX8_of_ne (c : Dev nD) (b : Ref sig .tc) (hb : ∀ w, Pipeline.arrRef spec8 w ≠ b) :
    WX8 m ρ c (Proc.devRef .tc b) = WX7 m ρ c (Proc.devRef .tc b) := by
  unfold WX8; exact Pipeline.withArrays_of_ne spec8 c _ _ b hb
abbrev VX8 : (c : Dev nD) → (b : Ref sig .tc) → Buf (Elt F) ((c : Thread nD τ).loc b) := fun c b => WX8 m ρ c b
theorem hF8 (c : Dev nD) (w : Fin cfg8.W) : (dat8 (VE8 m ρ) c).arrAt w cfg8.N = VX8 m ρ c (Pipeline.arrRef spec8 w) :=
  (WX8_arr m ρ c w).symm
theorem hrest8 (c : Dev nD) : ∀ b, b ∉ Finset.univ.image (Pipeline.arrRef spec8) → VX8 m ρ c b = VE8 m ρ c b :=
  fun b hb => WX8_of_ne m ρ c b fun w e => hb (Finset.mem_image.mpr ⟨w, Finset.mem_univ _, e⟩)
/-- Region 8 changes no buffer but its outputs' arrays. -/
theorem keep8 (c : Dev nD) (b : Ref sig .tc) (hb : ∀ w, (cfg8.win w).isOut = true → Pipeline.arrRef spec8 w ≠ b) :
    WX8 m ρ c (Proc.devRef .tc b) = WX7 m ρ c (Proc.devRef .tc b) := by
  by_cases h : ∃ w, Pipeline.arrRef spec8 w = b
  · obtain ⟨w, rfl⟩ := h
    have hin : (cfg8.win w).isOut = false := by
      cases hh : (cfg8.win w).isOut
      · rfl
      · exact absurd rfl (hb w hh)
    exact (WX8_arr m ρ c w).trans (((dat8 (VE8 m ρ) c).arrAt_in w hin _).trans (A_eq8 (VE8 m ρ) c w))
  · exact WX8_of_ne m ρ c b (fun w e => h ⟨w, e⟩)
abbrev VE9 : (c : Dev nD) → (b : Ref sig .tc) → Buf (Elt F) ((c : Thread nD τ).loc b) := fun c b => WX8 m ρ c b
/-- At region 9's exit: its arrays at what the pipeline leaves, every other buffer as entered. -/
def WX9 (c : Dev nD) : Valuation τ sig (Elt F) :=
  Pipeline.withArrays spec9 c (WX8 m ρ c) fun w => (dat9 (VE9 m ρ) c).arrAt w cfg9.N
theorem WX9_arr (c : Dev nD) (w : Fin cfg9.W) :
    WX9 m ρ c (Proc.devRef .tc (Pipeline.arrRef spec9 w)) = (dat9 (VE9 m ρ) c).arrAt w cfg9.N := by
  unfold WX9; exact Pipeline.withArrays_arr spec9 launch9.win.arr_inj c _ _ w
theorem WX9_of_ne (c : Dev nD) (b : Ref sig .tc) (hb : ∀ w, Pipeline.arrRef spec9 w ≠ b) :
    WX9 m ρ c (Proc.devRef .tc b) = WX8 m ρ c (Proc.devRef .tc b) := by
  unfold WX9; exact Pipeline.withArrays_of_ne spec9 c _ _ b hb
abbrev VX9 : (c : Dev nD) → (b : Ref sig .tc) → Buf (Elt F) ((c : Thread nD τ).loc b) := fun c b => WX9 m ρ c b
theorem hF9 (c : Dev nD) (w : Fin cfg9.W) : (dat9 (VE9 m ρ) c).arrAt w cfg9.N = VX9 m ρ c (Pipeline.arrRef spec9 w) :=
  (WX9_arr m ρ c w).symm
theorem hrest9 (c : Dev nD) : ∀ b, b ∉ Finset.univ.image (Pipeline.arrRef spec9) → VX9 m ρ c b = VE9 m ρ c b :=
  fun b hb => WX9_of_ne m ρ c b fun w e => hb (Finset.mem_image.mpr ⟨w, Finset.mem_univ _, e⟩)
/-- Region 9 changes no buffer but its outputs' arrays. -/
theorem keep9 (c : Dev nD) (b : Ref sig .tc) (hb : ∀ w, (cfg9.win w).isOut = true → Pipeline.arrRef spec9 w ≠ b) :
    WX9 m ρ c (Proc.devRef .tc b) = WX8 m ρ c (Proc.devRef .tc b) := by
  by_cases h : ∃ w, Pipeline.arrRef spec9 w = b
  · obtain ⟨w, rfl⟩ := h
    have hin : (cfg9.win w).isOut = false := by
      cases hh : (cfg9.win w).isOut
      · rfl
      · exact absurd rfl (hb w hh)
    exact (WX9_arr m ρ c w).trans (((dat9 (VE9 m ρ) c).arrAt_in w hin _).trans (A_eq9 (VE9 m ρ) c w))
  · exact WX9_of_ne m ρ c b (fun w e => h ⟨w, e⟩)
abbrev VE10 : (c : Dev nD) → (b : Ref sig .tc) → Buf (Elt F) ((c : Thread nD τ).loc b) := fun c b => WX9 m ρ c b
/-- At region 10's exit: its arrays at what the pipeline leaves, every other buffer as entered. -/
def WX10 (c : Dev nD) : Valuation τ sig (Elt F) :=
  Pipeline.withArrays spec10 c (WX9 m ρ c) fun w => (dat10 (VE10 m ρ) c).arrAt w cfg10.N
theorem WX10_arr (c : Dev nD) (w : Fin cfg10.W) :
    WX10 m ρ c (Proc.devRef .tc (Pipeline.arrRef spec10 w)) = (dat10 (VE10 m ρ) c).arrAt w cfg10.N := by
  unfold WX10; exact Pipeline.withArrays_arr spec10 launch10.win.arr_inj c _ _ w
theorem WX10_of_ne (c : Dev nD) (b : Ref sig .tc) (hb : ∀ w, Pipeline.arrRef spec10 w ≠ b) :
    WX10 m ρ c (Proc.devRef .tc b) = WX9 m ρ c (Proc.devRef .tc b) := by
  unfold WX10; exact Pipeline.withArrays_of_ne spec10 c _ _ b hb
abbrev VX10 : (c : Dev nD) → (b : Ref sig .tc) → Buf (Elt F) ((c : Thread nD τ).loc b) := fun c b => WX10 m ρ c b
theorem hF10 (c : Dev nD) (w : Fin cfg10.W) : (dat10 (VE10 m ρ) c).arrAt w cfg10.N = VX10 m ρ c (Pipeline.arrRef spec10 w) :=
  (WX10_arr m ρ c w).symm
theorem hrest10 (c : Dev nD) : ∀ b, b ∉ Finset.univ.image (Pipeline.arrRef spec10) → VX10 m ρ c b = VE10 m ρ c b :=
  fun b hb => WX10_of_ne m ρ c b fun w e => hb (Finset.mem_image.mpr ⟨w, Finset.mem_univ _, e⟩)
/-- Region 10 changes no buffer but its outputs' arrays. -/
theorem keep10 (c : Dev nD) (b : Ref sig .tc) (hb : ∀ w, (cfg10.win w).isOut = true → Pipeline.arrRef spec10 w ≠ b) :
    WX10 m ρ c (Proc.devRef .tc b) = WX9 m ρ c (Proc.devRef .tc b) := by
  by_cases h : ∃ w, Pipeline.arrRef spec10 w = b
  · obtain ⟨w, rfl⟩ := h
    have hin : (cfg10.win w).isOut = false := by
      cases hh : (cfg10.win w).isOut
      · rfl
      · exact absurd rfl (hb w hh)
    exact (WX10_arr m ρ c w).trans (((dat10 (VE10 m ρ) c).arrAt_in w hin _).trans (A_eq10 (VE10 m ρ) c w))
  · exact WX10_of_ne m ρ c b (fun w e => h ⟨w, e⟩)
abbrev VE11 : (c : Dev nD) → (b : Ref sig .tc) → Buf (Elt F) ((c : Thread nD τ).loc b) := fun c b => WX10 m ρ c b
/-- At region 11's exit: its arrays at what the pipeline leaves, every other buffer as entered. -/
def WX11 (c : Dev nD) : Valuation τ sig (Elt F) :=
  Pipeline.withArrays spec11 c (WX10 m ρ c) fun w => (dat11 (VE11 m ρ) c).arrAt w cfg11.N
theorem WX11_arr (c : Dev nD) (w : Fin cfg11.W) :
    WX11 m ρ c (Proc.devRef .tc (Pipeline.arrRef spec11 w)) = (dat11 (VE11 m ρ) c).arrAt w cfg11.N := by
  unfold WX11; exact Pipeline.withArrays_arr spec11 launch11.win.arr_inj c _ _ w
theorem WX11_of_ne (c : Dev nD) (b : Ref sig .tc) (hb : ∀ w, Pipeline.arrRef spec11 w ≠ b) :
    WX11 m ρ c (Proc.devRef .tc b) = WX10 m ρ c (Proc.devRef .tc b) := by
  unfold WX11; exact Pipeline.withArrays_of_ne spec11 c _ _ b hb
abbrev VX11 : (c : Dev nD) → (b : Ref sig .tc) → Buf (Elt F) ((c : Thread nD τ).loc b) := fun c b => WX11 m ρ c b
theorem hF11 (c : Dev nD) (w : Fin cfg11.W) : (dat11 (VE11 m ρ) c).arrAt w cfg11.N = VX11 m ρ c (Pipeline.arrRef spec11 w) :=
  (WX11_arr m ρ c w).symm
theorem hrest11 (c : Dev nD) : ∀ b, b ∉ Finset.univ.image (Pipeline.arrRef spec11) → VX11 m ρ c b = VE11 m ρ c b :=
  fun b hb => WX11_of_ne m ρ c b fun w e => hb (Finset.mem_image.mpr ⟨w, Finset.mem_univ _, e⟩)
/-- Region 11 changes no buffer but its outputs' arrays. -/
theorem keep11 (c : Dev nD) (b : Ref sig .tc) (hb : ∀ w, (cfg11.win w).isOut = true → Pipeline.arrRef spec11 w ≠ b) :
    WX11 m ρ c (Proc.devRef .tc b) = WX10 m ρ c (Proc.devRef .tc b) := by
  by_cases h : ∃ w, Pipeline.arrRef spec11 w = b
  · obtain ⟨w, rfl⟩ := h
    have hin : (cfg11.win w).isOut = false := by
      cases hh : (cfg11.win w).isOut
      · rfl
      · exact absurd rfl (hb w hh)
    exact (WX11_arr m ρ c w).trans (((dat11 (VE11 m ρ) c).arrAt_in w hin _).trans (A_eq11 (VE11 m ρ) c w))
  · exact WX11_of_ne m ρ c b (fun w e => h ⟨w, e⟩)
abbrev VE12 : (c : Dev nD) → (b : Ref sig .tc) → Buf (Elt F) ((c : Thread nD τ).loc b) := fun c b => WX11 m ρ c b
/-- At region 12's exit: its arrays at what the pipeline leaves, every other buffer as entered. -/
def WX12 (c : Dev nD) : Valuation τ sig (Elt F) :=
  Pipeline.withArrays spec12 c (WX11 m ρ c) fun w => (dat12 (VE12 m ρ) c).arrAt w cfg12.N
theorem WX12_arr (c : Dev nD) (w : Fin cfg12.W) :
    WX12 m ρ c (Proc.devRef .tc (Pipeline.arrRef spec12 w)) = (dat12 (VE12 m ρ) c).arrAt w cfg12.N := by
  unfold WX12; exact Pipeline.withArrays_arr spec12 launch12.win.arr_inj c _ _ w
theorem WX12_of_ne (c : Dev nD) (b : Ref sig .tc) (hb : ∀ w, Pipeline.arrRef spec12 w ≠ b) :
    WX12 m ρ c (Proc.devRef .tc b) = WX11 m ρ c (Proc.devRef .tc b) := by
  unfold WX12; exact Pipeline.withArrays_of_ne spec12 c _ _ b hb
abbrev VX12 : (c : Dev nD) → (b : Ref sig .tc) → Buf (Elt F) ((c : Thread nD τ).loc b) := fun c b => WX12 m ρ c b
theorem hF12 (c : Dev nD) (w : Fin cfg12.W) : (dat12 (VE12 m ρ) c).arrAt w cfg12.N = VX12 m ρ c (Pipeline.arrRef spec12 w) :=
  (WX12_arr m ρ c w).symm
theorem hrest12 (c : Dev nD) : ∀ b, b ∉ Finset.univ.image (Pipeline.arrRef spec12) → VX12 m ρ c b = VE12 m ρ c b :=
  fun b hb => WX12_of_ne m ρ c b fun w e => hb (Finset.mem_image.mpr ⟨w, Finset.mem_univ _, e⟩)
/-- Region 12 changes no buffer but its outputs' arrays. -/
theorem keep12 (c : Dev nD) (b : Ref sig .tc) (hb : ∀ w, (cfg12.win w).isOut = true → Pipeline.arrRef spec12 w ≠ b) :
    WX12 m ρ c (Proc.devRef .tc b) = WX11 m ρ c (Proc.devRef .tc b) := by
  by_cases h : ∃ w, Pipeline.arrRef spec12 w = b
  · obtain ⟨w, rfl⟩ := h
    have hin : (cfg12.win w).isOut = false := by
      cases hh : (cfg12.win w).isOut
      · rfl
      · exact absurd rfl (hb w hh)
    exact (WX12_arr m ρ c w).trans (((dat12 (VE12 m ρ) c).arrAt_in w hin _).trans (A_eq12 (VE12 m ρ) c w))
  · exact WX12_of_ne m ρ c b (fun w e => h ⟨w, e⟩)
abbrev VE13 : (c : Dev nD) → (b : Ref sig .tc) → Buf (Elt F) ((c : Thread nD τ).loc b) := fun c b => WX12 m ρ c b
/-- At region 13's exit: its arrays at what the pipeline leaves, every other buffer as entered. -/
def WX13 (c : Dev nD) : Valuation τ sig (Elt F) :=
  Pipeline.withArrays spec13 c (WX12 m ρ c) fun w => (dat13 (VE13 m ρ) c).arrAt w cfg13.N
theorem WX13_arr (c : Dev nD) (w : Fin cfg13.W) :
    WX13 m ρ c (Proc.devRef .tc (Pipeline.arrRef spec13 w)) = (dat13 (VE13 m ρ) c).arrAt w cfg13.N := by
  unfold WX13; exact Pipeline.withArrays_arr spec13 launch13.win.arr_inj c _ _ w
theorem WX13_of_ne (c : Dev nD) (b : Ref sig .tc) (hb : ∀ w, Pipeline.arrRef spec13 w ≠ b) :
    WX13 m ρ c (Proc.devRef .tc b) = WX12 m ρ c (Proc.devRef .tc b) := by
  unfold WX13; exact Pipeline.withArrays_of_ne spec13 c _ _ b hb
abbrev VX13 : (c : Dev nD) → (b : Ref sig .tc) → Buf (Elt F) ((c : Thread nD τ).loc b) := fun c b => WX13 m ρ c b
theorem hF13 (c : Dev nD) (w : Fin cfg13.W) : (dat13 (VE13 m ρ) c).arrAt w cfg13.N = VX13 m ρ c (Pipeline.arrRef spec13 w) :=
  (WX13_arr m ρ c w).symm
theorem hrest13 (c : Dev nD) : ∀ b, b ∉ Finset.univ.image (Pipeline.arrRef spec13) → VX13 m ρ c b = VE13 m ρ c b :=
  fun b hb => WX13_of_ne m ρ c b fun w e => hb (Finset.mem_image.mpr ⟨w, Finset.mem_univ _, e⟩)
/-- Region 13 changes no buffer but its outputs' arrays. -/
theorem keep13 (c : Dev nD) (b : Ref sig .tc) (hb : ∀ w, (cfg13.win w).isOut = true → Pipeline.arrRef spec13 w ≠ b) :
    WX13 m ρ c (Proc.devRef .tc b) = WX12 m ρ c (Proc.devRef .tc b) := by
  by_cases h : ∃ w, Pipeline.arrRef spec13 w = b
  · obtain ⟨w, rfl⟩ := h
    have hin : (cfg13.win w).isOut = false := by
      cases hh : (cfg13.win w).isOut
      · rfl
      · exact absurd rfl (hb w hh)
    exact (WX13_arr m ρ c w).trans (((dat13 (VE13 m ρ) c).arrAt_in w hin _).trans (A_eq13 (VE13 m ρ) c w))
  · exact WX13_of_ne m ρ c b (fun w e => h ⟨w, e⟩)
abbrev VE14 : (c : Dev nD) → (b : Ref sig .tc) → Buf (Elt F) ((c : Thread nD τ).loc b) := fun c b => WX13 m ρ c b
/-- At region 14's exit: its arrays at what the pipeline leaves, every other buffer as entered. -/
def WX14 (c : Dev nD) : Valuation τ sig (Elt F) :=
  Pipeline.withArrays spec14 c (WX13 m ρ c) fun w => (dat14 (VE14 m ρ) c).arrAt w cfg14.N
theorem WX14_arr (c : Dev nD) (w : Fin cfg14.W) :
    WX14 m ρ c (Proc.devRef .tc (Pipeline.arrRef spec14 w)) = (dat14 (VE14 m ρ) c).arrAt w cfg14.N := by
  unfold WX14; exact Pipeline.withArrays_arr spec14 launch14.win.arr_inj c _ _ w
theorem WX14_of_ne (c : Dev nD) (b : Ref sig .tc) (hb : ∀ w, Pipeline.arrRef spec14 w ≠ b) :
    WX14 m ρ c (Proc.devRef .tc b) = WX13 m ρ c (Proc.devRef .tc b) := by
  unfold WX14; exact Pipeline.withArrays_of_ne spec14 c _ _ b hb
abbrev VX14 : (c : Dev nD) → (b : Ref sig .tc) → Buf (Elt F) ((c : Thread nD τ).loc b) := fun c b => WX14 m ρ c b
theorem hF14 (c : Dev nD) (w : Fin cfg14.W) : (dat14 (VE14 m ρ) c).arrAt w cfg14.N = VX14 m ρ c (Pipeline.arrRef spec14 w) :=
  (WX14_arr m ρ c w).symm
theorem hrest14 (c : Dev nD) : ∀ b, b ∉ Finset.univ.image (Pipeline.arrRef spec14) → VX14 m ρ c b = VE14 m ρ c b :=
  fun b hb => WX14_of_ne m ρ c b fun w e => hb (Finset.mem_image.mpr ⟨w, Finset.mem_univ _, e⟩)
/-- Region 14 changes no buffer but its outputs' arrays. -/
theorem keep14 (c : Dev nD) (b : Ref sig .tc) (hb : ∀ w, (cfg14.win w).isOut = true → Pipeline.arrRef spec14 w ≠ b) :
    WX14 m ρ c (Proc.devRef .tc b) = WX13 m ρ c (Proc.devRef .tc b) := by
  by_cases h : ∃ w, Pipeline.arrRef spec14 w = b
  · obtain ⟨w, rfl⟩ := h
    have hin : (cfg14.win w).isOut = false := by
      cases hh : (cfg14.win w).isOut
      · rfl
      · exact absurd rfl (hb w hh)
    exact (WX14_arr m ρ c w).trans (((dat14 (VE14 m ρ) c).arrAt_in w hin _).trans (A_eq14 (VE14 m ρ) c w))
  · exact WX14_of_ne m ρ c b (fun w e => h ⟨w, e⟩)
abbrev VE15 : (c : Dev nD) → (b : Ref sig .tc) → Buf (Elt F) ((c : Thread nD τ).loc b) := fun c b => WX14 m ρ c b
/-- At region 15's exit: its arrays at what the pipeline leaves, every other buffer as entered. -/
def WX15 (c : Dev nD) : Valuation τ sig (Elt F) :=
  Pipeline.withArrays spec15 c (WX14 m ρ c) fun w => (dat15 (VE15 m ρ) c).arrAt w cfg15.N
theorem WX15_arr (c : Dev nD) (w : Fin cfg15.W) :
    WX15 m ρ c (Proc.devRef .tc (Pipeline.arrRef spec15 w)) = (dat15 (VE15 m ρ) c).arrAt w cfg15.N := by
  unfold WX15; exact Pipeline.withArrays_arr spec15 launch15.win.arr_inj c _ _ w
theorem WX15_of_ne (c : Dev nD) (b : Ref sig .tc) (hb : ∀ w, Pipeline.arrRef spec15 w ≠ b) :
    WX15 m ρ c (Proc.devRef .tc b) = WX14 m ρ c (Proc.devRef .tc b) := by
  unfold WX15; exact Pipeline.withArrays_of_ne spec15 c _ _ b hb
abbrev VX15 : (c : Dev nD) → (b : Ref sig .tc) → Buf (Elt F) ((c : Thread nD τ).loc b) := fun c b => WX15 m ρ c b
theorem hF15 (c : Dev nD) (w : Fin cfg15.W) : (dat15 (VE15 m ρ) c).arrAt w cfg15.N = VX15 m ρ c (Pipeline.arrRef spec15 w) :=
  (WX15_arr m ρ c w).symm
theorem hrest15 (c : Dev nD) : ∀ b, b ∉ Finset.univ.image (Pipeline.arrRef spec15) → VX15 m ρ c b = VE15 m ρ c b :=
  fun b hb => WX15_of_ne m ρ c b fun w e => hb (Finset.mem_image.mpr ⟨w, Finset.mem_univ _, e⟩)
/-- Region 15 changes no buffer but its outputs' arrays. -/
theorem keep15 (c : Dev nD) (b : Ref sig .tc) (hb : ∀ w, (cfg15.win w).isOut = true → Pipeline.arrRef spec15 w ≠ b) :
    WX15 m ρ c (Proc.devRef .tc b) = WX14 m ρ c (Proc.devRef .tc b) := by
  by_cases h : ∃ w, Pipeline.arrRef spec15 w = b
  · obtain ⟨w, rfl⟩ := h
    have hin : (cfg15.win w).isOut = false := by
      cases hh : (cfg15.win w).isOut
      · rfl
      · exact absurd rfl (hb w hh)
    exact (WX15_arr m ρ c w).trans (((dat15 (VE15 m ρ) c).arrAt_in w hin _).trans (A_eq15 (VE15 m ρ) c w))
  · exact WX15_of_ne m ρ c b (fun w e => h ⟨w, e⟩)
abbrev VE16 : (c : Dev nD) → (b : Ref sig .tc) → Buf (Elt F) ((c : Thread nD τ).loc b) := fun c b => WX15 m ρ c b
/-- At region 16's exit: its arrays at what the pipeline leaves, every other buffer as entered. -/
def WX16 (c : Dev nD) : Valuation τ sig (Elt F) :=
  Pipeline.withArrays spec16 c (WX15 m ρ c) fun w => (dat16 (VE16 m ρ) c).arrAt w cfg16.N
theorem WX16_arr (c : Dev nD) (w : Fin cfg16.W) :
    WX16 m ρ c (Proc.devRef .tc (Pipeline.arrRef spec16 w)) = (dat16 (VE16 m ρ) c).arrAt w cfg16.N := by
  unfold WX16; exact Pipeline.withArrays_arr spec16 launch16.win.arr_inj c _ _ w
theorem WX16_of_ne (c : Dev nD) (b : Ref sig .tc) (hb : ∀ w, Pipeline.arrRef spec16 w ≠ b) :
    WX16 m ρ c (Proc.devRef .tc b) = WX15 m ρ c (Proc.devRef .tc b) := by
  unfold WX16; exact Pipeline.withArrays_of_ne spec16 c _ _ b hb
abbrev VX16 : (c : Dev nD) → (b : Ref sig .tc) → Buf (Elt F) ((c : Thread nD τ).loc b) := fun c b => WX16 m ρ c b
theorem hF16 (c : Dev nD) (w : Fin cfg16.W) : (dat16 (VE16 m ρ) c).arrAt w cfg16.N = VX16 m ρ c (Pipeline.arrRef spec16 w) :=
  (WX16_arr m ρ c w).symm
theorem hrest16 (c : Dev nD) : ∀ b, b ∉ Finset.univ.image (Pipeline.arrRef spec16) → VX16 m ρ c b = VE16 m ρ c b :=
  fun b hb => WX16_of_ne m ρ c b fun w e => hb (Finset.mem_image.mpr ⟨w, Finset.mem_univ _, e⟩)
/-- Region 16 changes no buffer but its outputs' arrays. -/
theorem keep16 (c : Dev nD) (b : Ref sig .tc) (hb : ∀ w, (cfg16.win w).isOut = true → Pipeline.arrRef spec16 w ≠ b) :
    WX16 m ρ c (Proc.devRef .tc b) = WX15 m ρ c (Proc.devRef .tc b) := by
  by_cases h : ∃ w, Pipeline.arrRef spec16 w = b
  · obtain ⟨w, rfl⟩ := h
    have hin : (cfg16.win w).isOut = false := by
      cases hh : (cfg16.win w).isOut
      · rfl
      · exact absurd rfl (hb w hh)
    exact (WX16_arr m ρ c w).trans (((dat16 (VE16 m ρ) c).arrAt_in w hin _).trans (A_eq16 (VE16 m ρ) c w))
  · exact WX16_of_ne m ρ c b (fun w e => h ⟨w, e⟩)
abbrev VE17 : (c : Dev nD) → (b : Ref sig .tc) → Buf (Elt F) ((c : Thread nD τ).loc b) := fun c b => WX16 m ρ c b
/-- At region 17's exit: its arrays at what the pipeline leaves, every other buffer as entered. -/
def WX17 (c : Dev nD) : Valuation τ sig (Elt F) :=
  Pipeline.withArrays spec17 c (WX16 m ρ c) fun w => (dat17 (VE17 m ρ) c).arrAt w cfg17.N
theorem WX17_arr (c : Dev nD) (w : Fin cfg17.W) :
    WX17 m ρ c (Proc.devRef .tc (Pipeline.arrRef spec17 w)) = (dat17 (VE17 m ρ) c).arrAt w cfg17.N := by
  unfold WX17; exact Pipeline.withArrays_arr spec17 launch17.win.arr_inj c _ _ w
theorem WX17_of_ne (c : Dev nD) (b : Ref sig .tc) (hb : ∀ w, Pipeline.arrRef spec17 w ≠ b) :
    WX17 m ρ c (Proc.devRef .tc b) = WX16 m ρ c (Proc.devRef .tc b) := by
  unfold WX17; exact Pipeline.withArrays_of_ne spec17 c _ _ b hb
abbrev VX17 : (c : Dev nD) → (b : Ref sig .tc) → Buf (Elt F) ((c : Thread nD τ).loc b) := fun c b => WX17 m ρ c b
theorem hF17 (c : Dev nD) (w : Fin cfg17.W) : (dat17 (VE17 m ρ) c).arrAt w cfg17.N = VX17 m ρ c (Pipeline.arrRef spec17 w) :=
  (WX17_arr m ρ c w).symm
theorem hrest17 (c : Dev nD) : ∀ b, b ∉ Finset.univ.image (Pipeline.arrRef spec17) → VX17 m ρ c b = VE17 m ρ c b :=
  fun b hb => WX17_of_ne m ρ c b fun w e => hb (Finset.mem_image.mpr ⟨w, Finset.mem_univ _, e⟩)
/-- Region 17 changes no buffer but its outputs' arrays. -/
theorem keep17 (c : Dev nD) (b : Ref sig .tc) (hb : ∀ w, (cfg17.win w).isOut = true → Pipeline.arrRef spec17 w ≠ b) :
    WX17 m ρ c (Proc.devRef .tc b) = WX16 m ρ c (Proc.devRef .tc b) := by
  by_cases h : ∃ w, Pipeline.arrRef spec17 w = b
  · obtain ⟨w, rfl⟩ := h
    have hin : (cfg17.win w).isOut = false := by
      cases hh : (cfg17.win w).isOut
      · rfl
      · exact absurd rfl (hb w hh)
    exact (WX17_arr m ρ c w).trans (((dat17 (VE17 m ρ) c).arrAt_in w hin _).trans (A_eq17 (VE17 m ρ) c w))
  · exact WX17_of_ne m ρ c b (fun w e => h ⟨w, e⟩)
abbrev VE18 : (c : Dev nD) → (b : Ref sig .tc) → Buf (Elt F) ((c : Thread nD τ).loc b) := fun c b => WX17 m ρ c b
/-- At region 18's exit: its arrays at what the pipeline leaves, every other buffer as entered. -/
def WX18 (c : Dev nD) : Valuation τ sig (Elt F) :=
  Pipeline.withArrays spec18 c (WX17 m ρ c) fun w => (dat18 (VE18 m ρ) c).arrAt w cfg18.N
theorem WX18_arr (c : Dev nD) (w : Fin cfg18.W) :
    WX18 m ρ c (Proc.devRef .tc (Pipeline.arrRef spec18 w)) = (dat18 (VE18 m ρ) c).arrAt w cfg18.N := by
  unfold WX18; exact Pipeline.withArrays_arr spec18 launch18.win.arr_inj c _ _ w
theorem WX18_of_ne (c : Dev nD) (b : Ref sig .tc) (hb : ∀ w, Pipeline.arrRef spec18 w ≠ b) :
    WX18 m ρ c (Proc.devRef .tc b) = WX17 m ρ c (Proc.devRef .tc b) := by
  unfold WX18; exact Pipeline.withArrays_of_ne spec18 c _ _ b hb
abbrev VX18 : (c : Dev nD) → (b : Ref sig .tc) → Buf (Elt F) ((c : Thread nD τ).loc b) := fun c b => WX18 m ρ c b
theorem hF18 (c : Dev nD) (w : Fin cfg18.W) : (dat18 (VE18 m ρ) c).arrAt w cfg18.N = VX18 m ρ c (Pipeline.arrRef spec18 w) :=
  (WX18_arr m ρ c w).symm
theorem hrest18 (c : Dev nD) : ∀ b, b ∉ Finset.univ.image (Pipeline.arrRef spec18) → VX18 m ρ c b = VE18 m ρ c b :=
  fun b hb => WX18_of_ne m ρ c b fun w e => hb (Finset.mem_image.mpr ⟨w, Finset.mem_univ _, e⟩)
/-- Region 18 changes no buffer but its outputs' arrays. -/
theorem keep18 (c : Dev nD) (b : Ref sig .tc) (hb : ∀ w, (cfg18.win w).isOut = true → Pipeline.arrRef spec18 w ≠ b) :
    WX18 m ρ c (Proc.devRef .tc b) = WX17 m ρ c (Proc.devRef .tc b) := by
  by_cases h : ∃ w, Pipeline.arrRef spec18 w = b
  · obtain ⟨w, rfl⟩ := h
    have hin : (cfg18.win w).isOut = false := by
      cases hh : (cfg18.win w).isOut
      · rfl
      · exact absurd rfl (hb w hh)
    exact (WX18_arr m ρ c w).trans (((dat18 (VE18 m ρ) c).arrAt_in w hin _).trans (A_eq18 (VE18 m ρ) c w))
  · exact WX18_of_ne m ρ c b (fun w e => h ⟨w, e⟩)
abbrev VE19 : (c : Dev nD) → (b : Ref sig .tc) → Buf (Elt F) ((c : Thread nD τ).loc b) := fun c b => WX18 m ρ c b
/-- At region 19's exit: its arrays at what the pipeline leaves, every other buffer as entered. -/
def WX19 (c : Dev nD) : Valuation τ sig (Elt F) :=
  Pipeline.withArrays spec19 c (WX18 m ρ c) fun w => (dat19 (VE19 m ρ) c).arrAt w cfg19.N
theorem WX19_arr (c : Dev nD) (w : Fin cfg19.W) :
    WX19 m ρ c (Proc.devRef .tc (Pipeline.arrRef spec19 w)) = (dat19 (VE19 m ρ) c).arrAt w cfg19.N := by
  unfold WX19; exact Pipeline.withArrays_arr spec19 launch19.win.arr_inj c _ _ w
theorem WX19_of_ne (c : Dev nD) (b : Ref sig .tc) (hb : ∀ w, Pipeline.arrRef spec19 w ≠ b) :
    WX19 m ρ c (Proc.devRef .tc b) = WX18 m ρ c (Proc.devRef .tc b) := by
  unfold WX19; exact Pipeline.withArrays_of_ne spec19 c _ _ b hb
abbrev VX19 : (c : Dev nD) → (b : Ref sig .tc) → Buf (Elt F) ((c : Thread nD τ).loc b) := fun c b => WX19 m ρ c b
theorem hF19 (c : Dev nD) (w : Fin cfg19.W) : (dat19 (VE19 m ρ) c).arrAt w cfg19.N = VX19 m ρ c (Pipeline.arrRef spec19 w) :=
  (WX19_arr m ρ c w).symm
theorem hrest19 (c : Dev nD) : ∀ b, b ∉ Finset.univ.image (Pipeline.arrRef spec19) → VX19 m ρ c b = VE19 m ρ c b :=
  fun b hb => WX19_of_ne m ρ c b fun w e => hb (Finset.mem_image.mpr ⟨w, Finset.mem_univ _, e⟩)
/-- Region 19 changes no buffer but its outputs' arrays. -/
theorem keep19 (c : Dev nD) (b : Ref sig .tc) (hb : ∀ w, (cfg19.win w).isOut = true → Pipeline.arrRef spec19 w ≠ b) :
    WX19 m ρ c (Proc.devRef .tc b) = WX18 m ρ c (Proc.devRef .tc b) := by
  by_cases h : ∃ w, Pipeline.arrRef spec19 w = b
  · obtain ⟨w, rfl⟩ := h
    have hin : (cfg19.win w).isOut = false := by
      cases hh : (cfg19.win w).isOut
      · rfl
      · exact absurd rfl (hb w hh)
    exact (WX19_arr m ρ c w).trans (((dat19 (VE19 m ρ) c).arrAt_in w hin _).trans (A_eq19 (VE19 m ρ) c w))
  · exact WX19_of_ne m ρ c b (fun w e => h ⟨w, e⟩)
abbrev VE20 : (c : Dev nD) → (b : Ref sig .tc) → Buf (Elt F) ((c : Thread nD τ).loc b) := fun c b => WX19 m ρ c b
/-- At region 20's exit: its arrays at what the pipeline leaves, every other buffer as entered. -/
def WX20 (c : Dev nD) : Valuation τ sig (Elt F) :=
  Pipeline.withArrays spec20 c (WX19 m ρ c) fun w => (dat20 (VE20 m ρ) c).arrAt w cfg20.N
theorem WX20_arr (c : Dev nD) (w : Fin cfg20.W) :
    WX20 m ρ c (Proc.devRef .tc (Pipeline.arrRef spec20 w)) = (dat20 (VE20 m ρ) c).arrAt w cfg20.N := by
  unfold WX20; exact Pipeline.withArrays_arr spec20 launch20.win.arr_inj c _ _ w
theorem WX20_of_ne (c : Dev nD) (b : Ref sig .tc) (hb : ∀ w, Pipeline.arrRef spec20 w ≠ b) :
    WX20 m ρ c (Proc.devRef .tc b) = WX19 m ρ c (Proc.devRef .tc b) := by
  unfold WX20; exact Pipeline.withArrays_of_ne spec20 c _ _ b hb
abbrev VX20 : (c : Dev nD) → (b : Ref sig .tc) → Buf (Elt F) ((c : Thread nD τ).loc b) := fun c b => WX20 m ρ c b
theorem hF20 (c : Dev nD) (w : Fin cfg20.W) : (dat20 (VE20 m ρ) c).arrAt w cfg20.N = VX20 m ρ c (Pipeline.arrRef spec20 w) :=
  (WX20_arr m ρ c w).symm
theorem hrest20 (c : Dev nD) : ∀ b, b ∉ Finset.univ.image (Pipeline.arrRef spec20) → VX20 m ρ c b = VE20 m ρ c b :=
  fun b hb => WX20_of_ne m ρ c b fun w e => hb (Finset.mem_image.mpr ⟨w, Finset.mem_univ _, e⟩)
/-- Region 20 changes no buffer but its outputs' arrays. -/
theorem keep20 (c : Dev nD) (b : Ref sig .tc) (hb : ∀ w, (cfg20.win w).isOut = true → Pipeline.arrRef spec20 w ≠ b) :
    WX20 m ρ c (Proc.devRef .tc b) = WX19 m ρ c (Proc.devRef .tc b) := by
  by_cases h : ∃ w, Pipeline.arrRef spec20 w = b
  · obtain ⟨w, rfl⟩ := h
    have hin : (cfg20.win w).isOut = false := by
      cases hh : (cfg20.win w).isOut
      · rfl
      · exact absurd rfl (hb w hh)
    exact (WX20_arr m ρ c w).trans (((dat20 (VE20 m ρ) c).arrAt_in w hin _).trans (A_eq20 (VE20 m ρ) c w))
  · exact WX20_of_ne m ρ c b (fun w e => h ⟨w, e⟩)
abbrev VE21 : (c : Dev nD) → (b : Ref sig .tc) → Buf (Elt F) ((c : Thread nD τ).loc b) := fun c b => WX20 m ρ c b
/-- At region 21's exit: its arrays at what the pipeline leaves, every other buffer as entered. -/
def WX21 (c : Dev nD) : Valuation τ sig (Elt F) :=
  Pipeline.withArrays spec21 c (WX20 m ρ c) fun w => (dat21 (VE21 m ρ) c).arrAt w cfg21.N
theorem WX21_arr (c : Dev nD) (w : Fin cfg21.W) :
    WX21 m ρ c (Proc.devRef .tc (Pipeline.arrRef spec21 w)) = (dat21 (VE21 m ρ) c).arrAt w cfg21.N := by
  unfold WX21; exact Pipeline.withArrays_arr spec21 launch21.win.arr_inj c _ _ w
theorem WX21_of_ne (c : Dev nD) (b : Ref sig .tc) (hb : ∀ w, Pipeline.arrRef spec21 w ≠ b) :
    WX21 m ρ c (Proc.devRef .tc b) = WX20 m ρ c (Proc.devRef .tc b) := by
  unfold WX21; exact Pipeline.withArrays_of_ne spec21 c _ _ b hb
abbrev VX21 : (c : Dev nD) → (b : Ref sig .tc) → Buf (Elt F) ((c : Thread nD τ).loc b) := fun c b => WX21 m ρ c b
theorem hF21 (c : Dev nD) (w : Fin cfg21.W) : (dat21 (VE21 m ρ) c).arrAt w cfg21.N = VX21 m ρ c (Pipeline.arrRef spec21 w) :=
  (WX21_arr m ρ c w).symm
theorem hrest21 (c : Dev nD) : ∀ b, b ∉ Finset.univ.image (Pipeline.arrRef spec21) → VX21 m ρ c b = VE21 m ρ c b :=
  fun b hb => WX21_of_ne m ρ c b fun w e => hb (Finset.mem_image.mpr ⟨w, Finset.mem_univ _, e⟩)
/-- Region 21 changes no buffer but its outputs' arrays. -/
theorem keep21 (c : Dev nD) (b : Ref sig .tc) (hb : ∀ w, (cfg21.win w).isOut = true → Pipeline.arrRef spec21 w ≠ b) :
    WX21 m ρ c (Proc.devRef .tc b) = WX20 m ρ c (Proc.devRef .tc b) := by
  by_cases h : ∃ w, Pipeline.arrRef spec21 w = b
  · obtain ⟨w, rfl⟩ := h
    have hin : (cfg21.win w).isOut = false := by
      cases hh : (cfg21.win w).isOut
      · rfl
      · exact absurd rfl (hb w hh)
    exact (WX21_arr m ρ c w).trans (((dat21 (VE21 m ρ) c).arrAt_in w hin _).trans (A_eq21 (VE21 m ρ) c w))
  · exact WX21_of_ne m ρ c b (fun w e => h ⟨w, e⟩)
/-- After the last host stretch (the sum of the row sums, its quotient, the transposed column weights): the final contents. -/
abbrev Wfin : Dev nD → Valuation τ sig (Elt F) := fun c => StableHlo.after hostOps22 (WX21 m ρ c)

/-! ## The proof data family and the thread state -/

def hpdats : (p : Fin 22) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
  | ⟨7, _⟩ => fun c => dat7 (VE7 m ρ) c
  | ⟨8, _⟩ => fun c => dat8 (VE8 m ρ) c
  | ⟨9, _⟩ => fun c => dat9 (VE9 m ρ) c
  | ⟨10, _⟩ => fun c => dat10 (VE10 m ρ) c
  | ⟨11, _⟩ => fun c => dat11 (VE11 m ρ) c
  | ⟨12, _⟩ => fun c => dat12 (VE12 m ρ) c
  | ⟨13, _⟩ => fun c => dat13 (VE13 m ρ) c
  | ⟨14, _⟩ => fun c => dat14 (VE14 m ρ) c
  | ⟨15, _⟩ => fun c => dat15 (VE15 m ρ) c
  | ⟨16, _⟩ => fun c => dat16 (VE16 m ρ) c
  | ⟨17, _⟩ => fun c => dat17 (VE17 m ρ) c
  | ⟨18, _⟩ => fun c => dat18 (VE18 m ρ) c
  | ⟨19, _⟩ => fun c => dat19 (VE19 m ρ) c
  | ⟨20, _⟩ => fun c => dat20 (VE20 m ρ) c
  | ⟨21, _⟩ => fun c => dat21 (VE21 m ρ) c
  | ⟨_ + 22, h⟩ => absurd h (Nat.not_lt.2 (Nat.le_add_left _ _))
abbrev h𝒱₀ : Variants := Variants.none
abbrev hL : GSem nD τ sig → Finset Unit := fun _ => ∅
abbrev hlv : GSem nD τ sig → Unit → ℕ := fun _ _ => 0
/-- What rides beside the buffers through every segment: the generator register at some state and the core owing nothing. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱₀ hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTₙ (c : Dev nD) : sProp 𝕄 := iprop(StableHlo.held (c : Thread nD τ) (Pipeline.ucRefs τ sig) (Wfin m ρ c) ∗ ∃ r, prngReg c r)

/-! ## The regions as segments -/

set_option backward.isDefEq.respectTransparency.types false in
/-- Region 0 over the thread state: its arrays split out of the unscoped buffers at entry and put back at the exit contents. -/
def hreg0 : Pipeline.RegionSeg (pcfgs (F := F)) adm (hpdats m ρ) () defs₀ h𝒱₀ hL hlv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ hL hlv 0 fun _ _ => rfl
  pre c := iprop(StableHlo.held (c : Thread nD τ) (Pipeline.ucRefs τ sig) (W0 m ρ c) ∗ hR c)
  post c := iprop(StableHlo.held (c : Thread nD τ) (Pipeline.ucRefs τ sig) (WX0 m ρ c) ∗ hR c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (hpdats m ρ) launch0.win launch0.arr_whole c
      ((hpdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m ρ) ((hpdats m ρ 0 c).share_full fun _ => rfl)
      (VE0 m ρ c) (VX0 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit contents. -/
def hreg1 : Pipeline.RegionSeg (pcfgs (F := F)) adm (hpdats m ρ) () defs₀ h𝒱₀ hL hlv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ hL hlv 1 fun _ _ => rfl
  pre c := iprop(StableHlo.held (c : Thread nD τ) (Pipeline.ucRefs τ sig) (WE1 m ρ c) ∗ hR c)
  post c := iprop(StableHlo.held (c : Thread nD τ) (Pipeline.ucRefs τ sig) (WX1 m ρ c) ∗ hR c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (hpdats m ρ) launch1.win launch1.arr_whole c
      ((hpdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hpdats m ρ) ((hpdats m ρ 1 c).share_full fun _ => rfl)
      (VE1 m ρ c) (VX1 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit contents. -/
def hreg2 : Pipeline.RegionSeg (pcfgs (F := F)) adm (hpdats m ρ) () defs₀ h𝒱₀ hL hlv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ hL hlv 2 fun _ _ => rfl
  pre c := iprop(StableHlo.held (c : Thread nD τ) (Pipeline.ucRefs τ sig) (WX1 m ρ c) ∗ hR c)
  post c := iprop(StableHlo.held (c : Thread nD τ) (Pipeline.ucRefs τ sig) (WX2 m ρ c) ∗ hR c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) adm (hpdats m ρ) launch2.win launch2.arr_whole c
      ((hpdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = (dat2 (VE2 m ρ) c).Φ 0 from rfl]
    refine .trans ?_ (hin2 (VE2 m ρ) c)
    unfold Pipeline.ΦA
    iintro ⟨Hp, -, Hr⟩
    isplitl [Hr]; · iexact Hr
    iexact Hp
  hout c := by
    rw [Pipeline.ownSems0_none, show (hpdats m ρ 2 c).Φ (Fin.last _) = (dat2 (VE2 m ρ) c).Φ (Fin.last cfg2.N) from rfl]
    refine (hout2 (VE2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hpdats m ρ) ((hpdats m ρ 2 c).share_full fun _ => rfl)
      (VE2 m ρ c) (VX2 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers at entry and put back at the exit contents. -/
def hreg3 : Pipeline.RegionSeg (pcfgs (F := F)) adm (hpdats m ρ) () defs₀ h𝒱₀ hL hlv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ hL hlv 3 fun _ _ => rfl
  pre c := iprop(StableHlo.held (c : Thread nD τ) (Pipeline.ucRefs τ sig) (WX2 m ρ c) ∗ hR c)
  post c := iprop(StableHlo.held (c : Thread nD τ) (Pipeline.ucRefs τ sig) (WX3 m ρ c) ∗ hR c)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    rw [Pipeline.ownSems0_none]
    have hsplit := Pipeline.arrays_of_unscopedBufs (p := 3) (pcfgs (F := F)) adm (hpdats m ρ) launch3.win launch3.arr_whole c
      ((hpdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (hpdats m ρ) ((hpdats m ρ 3 c).share_full fun _ => rfl)
      (VE3 m ρ c) (VX3 m ρ c) ((hpdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers at entry and put back at the exit contents. -/
def hreg4 : Pipeline.RegionSeg (pcfgs (F := F)) adm (hpdats m ρ) () defs₀ h𝒱₀ hL hlv 4 where
  win := launch4.win.to₀
  block_pos := launch4.block_pos
  stage_whole := launch4.stage_whole
  K := PEmpty
  osem k := k.elim
  ho := Pipeline.OwnSemFacts.none _
  hbody c := (body_obligation4 (VE4 m ρ) c).loose
  hwaits := Pipeline.hwaits_of_owed_zero _ _ _ _ hL hlv 4 fun _ _ => rfl
  pre c := iprop(StableHlo.held (c : Thread nD τ) (Pipeline.ucRefs τ sig) (WX3 m ρ c) ∗ hR c)
  post c := iprop(StableHlo.held (c : Thread nD τ) (Pipeline.ucRefs τ sig) (WX4 m ρ c) ∗ hR c)
  X c := iprop(∃ r, prngReg c r)
  Y c := iprop(∃ r, prngReg c r)
  Z c := Pipeline.unscopedRest (Ix := Unit) (Name := ℕ) (U := UR sig nD τ) (Lvl := ℕ) spec4 c (VE4 m ρ c)
  hentry c := by
    rw [Pipeline.ownSems0_none]
    have hsplit := Pipeline.arrays_of_unscopedBufs (p := 4) (pcfgs (F := F)) adm (hpdats m ρ) launch4.win launch4.arr_whole c
      ((hpdats m ρ 4 c).share_full fun _ => rfl) (VE4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 4 c).Φ 0 = (dat4 (VE4 m ρ) c).Φ 0 from rfl]
    refine .trans ?_ (hin4 (VE4 m ρ) c)
    unfold Pipeline.ΦA
    iintro ⟨Hp, -, Hr⟩
    isplitl [Hr]; · iexact Hr
    iexact Hp
  hout c := by
    rw [Pipeline.ownSems0_none, show (hpdats m ρ 4 c).Φ (Fin.last _) = (dat4 (VE4 m ρ) c).Φ (Fin.last cfg4.N) from rfl]
    refine (hout4 (VE4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (hpdats m ρ) ((hpdats m ρ 4 c).share_full fun _ => rfl)
      (VE4 m ρ c) (VX4 m ρ c) ((hpdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays split out of the unscoped buffers at entry and put back at the exit contents. -/
def hreg5 : Pipeline.RegionSeg (pcfgs (F := F)) adm (hpdats m ρ) () defs₀ h𝒱₀ hL hlv 5 where
  win := launch5.win.to₀
  block_pos := launch5.block_pos
  stage_whole := launch5.stage_whole
  K := PEmpty
  osem k := k.elim
  ho := Pipeline.OwnSemFacts.none _
  hbody c := (body_obligation5 (VE5 m ρ) c).loose
  hwaits := Pipeline.hwaits_of_owed_zero _ _ _ _ hL hlv 5 fun _ _ => rfl
  pre c := iprop(StableHlo.held (c : Thread nD τ) (Pipeline.ucRefs τ sig) (WX4 m ρ c) ∗ hR c)
  post c := iprop(StableHlo.held (c : Thread nD τ) (Pipeline.ucRefs τ sig) (WX5 m ρ c) ∗ hR c)
  X c := iprop(∃ r, prngReg c r)
  Y c := iprop(∃ r, prngReg c r)
  Z c := Pipeline.unscopedRest (Ix := Unit) (Name := ℕ) (U := UR sig nD τ) (Lvl := ℕ) spec5 c (VE5 m ρ c)
  hentry c := by
    rw [Pipeline.ownSems0_none]
    have hsplit := Pipeline.arrays_of_unscopedBufs (p := 5) (pcfgs (F := F)) adm (hpdats m ρ) launch5.win launch5.arr_whole c
      ((hpdats m ρ 5 c).share_full fun _ => rfl) (VE5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (hpdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (hpdats m ρ) ((hpdats m ρ 5 c).share_full fun _ => rfl)
      (VE5 m ρ c) (VX5 m ρ c) ((hpdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: its arrays split out of the unscoped buffers at entry and put back at the exit contents. -/
def hreg6 : Pipeline.RegionSeg (pcfgs (F := F)) adm (hpdats m ρ) () defs₀ h𝒱₀ hL hlv 6 where
  win := launch6.win.to₀
  block_pos := launch6.block_pos
  stage_whole := launch6.stage_whole
  K := PEmpty
  osem k := k.elim
  ho := Pipeline.OwnSemFacts.none _
  hbody c := (body_obligation6 (VE6 m ρ) c).loose
  hwaits := Pipeline.hwaits_of_owed_zero _ _ _ _ hL hlv 6 fun _ _ => rfl
  pre c := iprop(StableHlo.held (c : Thread nD τ) (Pipeline.ucRefs τ sig) (WX5 m ρ c) ∗ hR c)
  post c := iprop(StableHlo.held (c : Thread nD τ) (Pipeline.ucRefs τ sig) (WX6 m ρ c) ∗ hR c)
  X c := iprop(∃ r, prngReg c r)
  Y c := iprop(∃ r, prngReg c r)
  Z c := Pipeline.unscopedRest (Ix := Unit) (Name := ℕ) (U := UR sig nD τ) (Lvl := ℕ) spec6 c (VE6 m ρ c)
  hentry c := by
    rw [Pipeline.ownSems0_none]
    have hsplit := Pipeline.arrays_of_unscopedBufs (p := 6) (pcfgs (F := F)) adm (hpdats m ρ) launch6.win launch6.arr_whole c
      ((hpdats m ρ 6 c).share_full fun _ => rfl) (VE6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 6 c).Φ 0 = (dat6 (VE6 m ρ) c).Φ 0 from rfl]
    refine .trans ?_ (hin6 (VE6 m ρ) c)
    unfold Pipeline.ΦA
    iintro ⟨Hp, -, Hr⟩
    isplitl [Hr]; · iexact Hr
    iexact Hp
  hout c := by
    rw [Pipeline.ownSems0_none, show (hpdats m ρ 6 c).Φ (Fin.last _) = (dat6 (VE6 m ρ) c).Φ (Fin.last cfg6.N) from rfl]
    refine (hout6 (VE6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (hpdats m ρ) ((hpdats m ρ 6 c).share_full fun _ => rfl)
      (VE6 m ρ c) (VX6 m ρ c) ((hpdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: its arrays split out of the unscoped buffers at entry and put back at the exit contents. -/
def hreg7 : Pipeline.RegionSeg (pcfgs (F := F)) adm (hpdats m ρ) () defs₀ h𝒱₀ hL hlv 7 where
  win := launch7.win.to₀
  block_pos := launch7.block_pos
  stage_whole := launch7.stage_whole
  K := PEmpty
  osem k := k.elim
  ho := Pipeline.OwnSemFacts.none _
  hbody c := (body_obligation7 (VE7 m ρ) c).loose
  hwaits := Pipeline.hwaits_of_owed_zero _ _ _ _ hL hlv 7 fun _ _ => rfl
  pre c := iprop(StableHlo.held (c : Thread nD τ) (Pipeline.ucRefs τ sig) (WX6 m ρ c) ∗ hR c)
  post c := iprop(StableHlo.held (c : Thread nD τ) (Pipeline.ucRefs τ sig) (WX7 m ρ c) ∗ hR c)
  X c := iprop(∃ r, prngReg c r)
  Y c := iprop(∃ r, prngReg c r)
  Z c := Pipeline.unscopedRest (Ix := Unit) (Name := ℕ) (U := UR sig nD τ) (Lvl := ℕ) spec7 c (VE7 m ρ c)
  hentry c := by
    rw [Pipeline.ownSems0_none]
    have hsplit := Pipeline.arrays_of_unscopedBufs (p := 7) (pcfgs (F := F)) adm (hpdats m ρ) launch7.win launch7.arr_whole c
      ((hpdats m ρ 7 c).share_full fun _ => rfl) (VE7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (hpdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (hpdats m ρ) ((hpdats m ρ 7 c).share_full fun _ => rfl)
      (VE7 m ρ c) (VX7 m ρ c) ((hpdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: its arrays split out of the unscoped buffers at entry and put back at the exit contents. -/
def hreg8 : Pipeline.RegionSeg (pcfgs (F := F)) adm (hpdats m ρ) () defs₀ h𝒱₀ hL hlv 8 where
  win := launch8.win.to₀
  block_pos := launch8.block_pos
  stage_whole := launch8.stage_whole
  K := PEmpty
  osem k := k.elim
  ho := Pipeline.OwnSemFacts.none _
  hbody c := (body_obligation8 (VE8 m ρ) c).loose
  hwaits := Pipeline.hwaits_of_owed_zero _ _ _ _ hL hlv 8 fun _ _ => rfl
  pre c := iprop(StableHlo.held (c : Thread nD τ) (Pipeline.ucRefs τ sig) (WX7 m ρ c) ∗ hR c)
  post c := iprop(StableHlo.held (c : Thread nD τ) (Pipeline.ucRefs τ sig) (WX8 m ρ c) ∗ hR c)
  X c := iprop(∃ r, prngReg c r)
  Y c := iprop(∃ r, prngReg c r)
  Z c := Pipeline.unscopedRest (Ix := Unit) (Name := ℕ) (U := UR sig nD τ) (Lvl := ℕ) spec8 c (VE8 m ρ c)
  hentry c := by
    rw [Pipeline.ownSems0_none]
    have hsplit := Pipeline.arrays_of_unscopedBufs (p := 8) (pcfgs (F := F)) adm (hpdats m ρ) launch8.win launch8.arr_whole c
      ((hpdats m ρ 8 c).share_full fun _ => rfl) (VE8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 8 c).Φ 0 = (dat8 (VE8 m ρ) c).Φ 0 from rfl]
    refine .trans ?_ (hin8 (VE8 m ρ) c)
    unfold Pipeline.ΦA
    iintro ⟨Hp, -, Hr⟩
    isplitl [Hr]; · iexact Hr
    iexact Hp
  hout c := by
    rw [Pipeline.ownSems0_none, show (hpdats m ρ 8 c).Φ (Fin.last _) = (dat8 (VE8 m ρ) c).Φ (Fin.last cfg8.N) from rfl]
    refine (hout8 (VE8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (hpdats m ρ) ((hpdats m ρ 8 c).share_full fun _ => rfl)
      (VE8 m ρ c) (VX8 m ρ c) ((hpdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: its arrays split out of the unscoped buffers at entry and put back at the exit contents. -/
def hreg9 : Pipeline.RegionSeg (pcfgs (F := F)) adm (hpdats m ρ) () defs₀ h𝒱₀ hL hlv 9 where
  win := launch9.win.to₀
  block_pos := launch9.block_pos
  stage_whole := launch9.stage_whole
  K := PEmpty
  osem k := k.elim
  ho := Pipeline.OwnSemFacts.none _
  hbody c := (body_obligation9 (VE9 m ρ) c).loose
  hwaits := Pipeline.hwaits_of_owed_zero _ _ _ _ hL hlv 9 fun _ _ => rfl
  pre c := iprop(StableHlo.held (c : Thread nD τ) (Pipeline.ucRefs τ sig) (WX8 m ρ c) ∗ hR c)
  post c := iprop(StableHlo.held (c : Thread nD τ) (Pipeline.ucRefs τ sig) (WX9 m ρ c) ∗ hR c)
  X c := iprop(∃ r, prngReg c r)
  Y c := iprop(∃ r, prngReg c r)
  Z c := Pipeline.unscopedRest (Ix := Unit) (Name := ℕ) (U := UR sig nD τ) (Lvl := ℕ) spec9 c (VE9 m ρ c)
  hentry c := by
    rw [Pipeline.ownSems0_none]
    have hsplit := Pipeline.arrays_of_unscopedBufs (p := 9) (pcfgs (F := F)) adm (hpdats m ρ) launch9.win launch9.arr_whole c
      ((hpdats m ρ 9 c).share_full fun _ => rfl) (VE9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (hpdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (hpdats m ρ) ((hpdats m ρ 9 c).share_full fun _ => rfl)
      (VE9 m ρ c) (VX9 m ρ c) ((hpdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: its arrays split out of the unscoped buffers at entry and put back at the exit contents. -/
def hreg10 : Pipeline.RegionSeg (pcfgs (F := F)) adm (hpdats m ρ) () defs₀ h𝒱₀ hL hlv 10 where
  win := launch10.win.to₀
  block_pos := launch10.block_pos
  stage_whole := launch10.stage_whole
  K := PEmpty
  osem k := k.elim
  ho := Pipeline.OwnSemFacts.none _
  hbody c := (body_obligation10 (VE10 m ρ) c).loose
  hwaits := Pipeline.hwaits_of_owed_zero _ _ _ _ hL hlv 10 fun _ _ => rfl
  pre c := iprop(StableHlo.held (c : Thread nD τ) (Pipeline.ucRefs τ sig) (WX9 m ρ c) ∗ hR c)
  post c := iprop(StableHlo.held (c : Thread nD τ) (Pipeline.ucRefs τ sig) (WX10 m ρ c) ∗ hR c)
  X c := iprop(∃ r, prngReg c r)
  Y c := iprop(∃ r, prngReg c r)
  Z c := Pipeline.unscopedRest (Ix := Unit) (Name := ℕ) (U := UR sig nD τ) (Lvl := ℕ) spec10 c (VE10 m ρ c)
  hentry c := by
    rw [Pipeline.ownSems0_none]
    have hsplit := Pipeline.arrays_of_unscopedBufs (p := 10) (pcfgs (F := F)) adm (hpdats m ρ) launch10.win launch10.arr_whole c
      ((hpdats m ρ 10 c).share_full fun _ => rfl) (VE10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 10 c).Φ 0 = (dat10 (VE10 m ρ) c).Φ 0 from rfl]
    refine .trans ?_ (hin10 (VE10 m ρ) c)
    unfold Pipeline.ΦA
    iintro ⟨Hp, -, Hr⟩
    isplitl [Hr]; · iexact Hr
    iexact Hp
  hout c := by
    rw [Pipeline.ownSems0_none, show (hpdats m ρ 10 c).Φ (Fin.last _) = (dat10 (VE10 m ρ) c).Φ (Fin.last cfg10.N) from rfl]
    refine (hout10 (VE10 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (hpdats m ρ) ((hpdats m ρ 10 c).share_full fun _ => rfl)
      (VE10 m ρ c) (VX10 m ρ c) ((hpdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: its arrays split out of the unscoped buffers at entry and put back at the exit contents. -/
def hreg11 : Pipeline.RegionSeg (pcfgs (F := F)) adm (hpdats m ρ) () defs₀ h𝒱₀ hL hlv 11 where
  win := launch11.win.to₀
  block_pos := launch11.block_pos
  stage_whole := launch11.stage_whole
  K := PEmpty
  osem k := k.elim
  ho := Pipeline.OwnSemFacts.none _
  hbody c := (body_obligation11 (VE11 m ρ) c).loose
  hwaits := Pipeline.hwaits_of_owed_zero _ _ _ _ hL hlv 11 fun _ _ => rfl
  pre c := iprop(StableHlo.held (c : Thread nD τ) (Pipeline.ucRefs τ sig) (WX10 m ρ c) ∗ hR c)
  post c := iprop(StableHlo.held (c : Thread nD τ) (Pipeline.ucRefs τ sig) (WX11 m ρ c) ∗ hR c)
  X c := iprop(∃ r, prngReg c r)
  Y c := iprop(∃ r, prngReg c r)
  Z c := Pipeline.unscopedRest (Ix := Unit) (Name := ℕ) (U := UR sig nD τ) (Lvl := ℕ) spec11 c (VE11 m ρ c)
  hentry c := by
    rw [Pipeline.ownSems0_none]
    have hsplit := Pipeline.arrays_of_unscopedBufs (p := 11) (pcfgs (F := F)) adm (hpdats m ρ) launch11.win launch11.arr_whole c
      ((hpdats m ρ 11 c).share_full fun _ => rfl) (VE11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (hpdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (hpdats m ρ) ((hpdats m ρ 11 c).share_full fun _ => rfl)
      (VE11 m ρ c) (VX11 m ρ c) ((hpdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: its arrays split out of the unscoped buffers at entry and put back at the exit contents. -/
def hreg12 : Pipeline.RegionSeg (pcfgs (F := F)) adm (hpdats m ρ) () defs₀ h𝒱₀ hL hlv 12 where
  win := launch12.win.to₀
  block_pos := launch12.block_pos
  stage_whole := launch12.stage_whole
  K := PEmpty
  osem k := k.elim
  ho := Pipeline.OwnSemFacts.none _
  hbody c := (body_obligation12 (VE12 m ρ) c).loose
  hwaits := Pipeline.hwaits_of_owed_zero _ _ _ _ hL hlv 12 fun _ _ => rfl
  pre c := iprop(StableHlo.held (c : Thread nD τ) (Pipeline.ucRefs τ sig) (WX11 m ρ c) ∗ hR c)
  post c := iprop(StableHlo.held (c : Thread nD τ) (Pipeline.ucRefs τ sig) (WX12 m ρ c) ∗ hR c)
  X c := iprop(∃ r, prngReg c r)
  Y c := iprop(∃ r, prngReg c r)
  Z c := Pipeline.unscopedRest (Ix := Unit) (Name := ℕ) (U := UR sig nD τ) (Lvl := ℕ) spec12 c (VE12 m ρ c)
  hentry c := by
    rw [Pipeline.ownSems0_none]
    have hsplit := Pipeline.arrays_of_unscopedBufs (p := 12) (pcfgs (F := F)) adm (hpdats m ρ) launch12.win launch12.arr_whole c
      ((hpdats m ρ 12 c).share_full fun _ => rfl) (VE12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 12 c).Φ 0 = (dat12 (VE12 m ρ) c).Φ 0 from rfl]
    refine .trans ?_ (hin12 (VE12 m ρ) c)
    unfold Pipeline.ΦA
    iintro ⟨Hp, -, Hr⟩
    isplitl [Hr]; · iexact Hr
    iexact Hp
  hout c := by
    rw [Pipeline.ownSems0_none, show (hpdats m ρ 12 c).Φ (Fin.last _) = (dat12 (VE12 m ρ) c).Φ (Fin.last cfg12.N) from rfl]
    refine (hout12 (VE12 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (hpdats m ρ) ((hpdats m ρ 12 c).share_full fun _ => rfl)
      (VE12 m ρ c) (VX12 m ρ c) ((hpdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: its arrays split out of the unscoped buffers at entry and put back at the exit contents. -/
def hreg13 : Pipeline.RegionSeg (pcfgs (F := F)) adm (hpdats m ρ) () defs₀ h𝒱₀ hL hlv 13 where
  win := launch13.win.to₀
  block_pos := launch13.block_pos
  stage_whole := launch13.stage_whole
  K := PEmpty
  osem k := k.elim
  ho := Pipeline.OwnSemFacts.none _
  hbody c := (body_obligation13 (VE13 m ρ) c).loose
  hwaits := Pipeline.hwaits_of_owed_zero _ _ _ _ hL hlv 13 fun _ _ => rfl
  pre c := iprop(StableHlo.held (c : Thread nD τ) (Pipeline.ucRefs τ sig) (WX12 m ρ c) ∗ hR c)
  post c := iprop(StableHlo.held (c : Thread nD τ) (Pipeline.ucRefs τ sig) (WX13 m ρ c) ∗ hR c)
  X c := iprop(∃ r, prngReg c r)
  Y c := iprop(∃ r, prngReg c r)
  Z c := Pipeline.unscopedRest (Ix := Unit) (Name := ℕ) (U := UR sig nD τ) (Lvl := ℕ) spec13 c (VE13 m ρ c)
  hentry c := by
    rw [Pipeline.ownSems0_none]
    have hsplit := Pipeline.arrays_of_unscopedBufs (p := 13) (pcfgs (F := F)) adm (hpdats m ρ) launch13.win launch13.arr_whole c
      ((hpdats m ρ 13 c).share_full fun _ => rfl) (VE13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (hpdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (hpdats m ρ) ((hpdats m ρ 13 c).share_full fun _ => rfl)
      (VE13 m ρ c) (VX13 m ρ c) ((hpdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: its arrays split out of the unscoped buffers at entry and put back at the exit contents. -/
def hreg14 : Pipeline.RegionSeg (pcfgs (F := F)) adm (hpdats m ρ) () defs₀ h𝒱₀ hL hlv 14 where
  win := launch14.win.to₀
  block_pos := launch14.block_pos
  stage_whole := launch14.stage_whole
  K := PEmpty
  osem k := k.elim
  ho := Pipeline.OwnSemFacts.none _
  hbody c := (body_obligation14 (VE14 m ρ) c).loose
  hwaits := Pipeline.hwaits_of_owed_zero _ _ _ _ hL hlv 14 fun _ _ => rfl
  pre c := iprop(StableHlo.held (c : Thread nD τ) (Pipeline.ucRefs τ sig) (WX13 m ρ c) ∗ hR c)
  post c := iprop(StableHlo.held (c : Thread nD τ) (Pipeline.ucRefs τ sig) (WX14 m ρ c) ∗ hR c)
  X c := iprop(∃ r, prngReg c r)
  Y c := iprop(∃ r, prngReg c r)
  Z c := Pipeline.unscopedRest (Ix := Unit) (Name := ℕ) (U := UR sig nD τ) (Lvl := ℕ) spec14 c (VE14 m ρ c)
  hentry c := by
    rw [Pipeline.ownSems0_none]
    have hsplit := Pipeline.arrays_of_unscopedBufs (p := 14) (pcfgs (F := F)) adm (hpdats m ρ) launch14.win launch14.arr_whole c
      ((hpdats m ρ 14 c).share_full fun _ => rfl) (VE14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 14 c).Φ 0 = (dat14 (VE14 m ρ) c).Φ 0 from rfl]
    refine .trans ?_ (hin14 (VE14 m ρ) c)
    unfold Pipeline.ΦA
    iintro ⟨Hp, -, Hr⟩
    isplitl [Hr]; · iexact Hr
    iexact Hp
  hout c := by
    rw [Pipeline.ownSems0_none, show (hpdats m ρ 14 c).Φ (Fin.last _) = (dat14 (VE14 m ρ) c).Φ (Fin.last cfg14.N) from rfl]
    refine (hout14 (VE14 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (hpdats m ρ) ((hpdats m ρ 14 c).share_full fun _ => rfl)
      (VE14 m ρ c) (VX14 m ρ c) ((hpdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15 over the thread state: its arrays split out of the unscoped buffers at entry and put back at the exit contents. -/
def hreg15 : Pipeline.RegionSeg (pcfgs (F := F)) adm (hpdats m ρ) () defs₀ h𝒱₀ hL hlv 15 where
  win := launch15.win.to₀
  block_pos := launch15.block_pos
  stage_whole := launch15.stage_whole
  K := PEmpty
  osem k := k.elim
  ho := Pipeline.OwnSemFacts.none _
  hbody c := (body_obligation15 (VE15 m ρ) c).loose
  hwaits := Pipeline.hwaits_of_owed_zero _ _ _ _ hL hlv 15 fun _ _ => rfl
  pre c := iprop(StableHlo.held (c : Thread nD τ) (Pipeline.ucRefs τ sig) (WX14 m ρ c) ∗ hR c)
  post c := iprop(StableHlo.held (c : Thread nD τ) (Pipeline.ucRefs τ sig) (WX15 m ρ c) ∗ hR c)
  X c := iprop(∃ r, prngReg c r)
  Y c := iprop(∃ r, prngReg c r)
  Z c := Pipeline.unscopedRest (Ix := Unit) (Name := ℕ) (U := UR sig nD τ) (Lvl := ℕ) spec15 c (VE15 m ρ c)
  hentry c := by
    rw [Pipeline.ownSems0_none]
    have hsplit := Pipeline.arrays_of_unscopedBufs (p := 15) (pcfgs (F := F)) adm (hpdats m ρ) launch15.win launch15.arr_whole c
      ((hpdats m ρ 15 c).share_full fun _ => rfl) (VE15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (hpdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (hpdats m ρ) ((hpdats m ρ 15 c).share_full fun _ => rfl)
      (VE15 m ρ c) (VX15 m ρ c) ((hpdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 16 over the thread state: its arrays split out of the unscoped buffers at entry and put back at the exit contents. -/
def hreg16 : Pipeline.RegionSeg (pcfgs (F := F)) adm (hpdats m ρ) () defs₀ h𝒱₀ hL hlv 16 where
  win := launch16.win.to₀
  block_pos := launch16.block_pos
  stage_whole := launch16.stage_whole
  K := PEmpty
  osem k := k.elim
  ho := Pipeline.OwnSemFacts.none _
  hbody c := (body_obligation16 (VE16 m ρ) c).loose
  hwaits := Pipeline.hwaits_of_owed_zero _ _ _ _ hL hlv 16 fun _ _ => rfl
  pre c := iprop(StableHlo.held (c : Thread nD τ) (Pipeline.ucRefs τ sig) (WX15 m ρ c) ∗ hR c)
  post c := iprop(StableHlo.held (c : Thread nD τ) (Pipeline.ucRefs τ sig) (WX16 m ρ c) ∗ hR c)
  X c := iprop(∃ r, prngReg c r)
  Y c := iprop(∃ r, prngReg c r)
  Z c := Pipeline.unscopedRest (Ix := Unit) (Name := ℕ) (U := UR sig nD τ) (Lvl := ℕ) spec16 c (VE16 m ρ c)
  hentry c := by
    rw [Pipeline.ownSems0_none]
    have hsplit := Pipeline.arrays_of_unscopedBufs (p := 16) (pcfgs (F := F)) adm (hpdats m ρ) launch16.win launch16.arr_whole c
      ((hpdats m ρ 16 c).share_full fun _ => rfl) (VE16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 16 c).Φ 0 = (dat16 (VE16 m ρ) c).Φ 0 from rfl]
    refine .trans ?_ (hin16 (VE16 m ρ) c)
    unfold Pipeline.ΦA
    iintro ⟨Hp, -, Hr⟩
    isplitl [Hr]; · iexact Hr
    iexact Hp
  hout c := by
    rw [Pipeline.ownSems0_none, show (hpdats m ρ 16 c).Φ (Fin.last _) = (dat16 (VE16 m ρ) c).Φ (Fin.last cfg16.N) from rfl]
    refine (hout16 (VE16 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (hpdats m ρ) ((hpdats m ρ 16 c).share_full fun _ => rfl)
      (VE16 m ρ c) (VX16 m ρ c) ((hpdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 17 over the thread state: its arrays split out of the unscoped buffers at entry and put back at the exit contents. -/
def hreg17 : Pipeline.RegionSeg (pcfgs (F := F)) adm (hpdats m ρ) () defs₀ h𝒱₀ hL hlv 17 where
  win := launch17.win.to₀
  block_pos := launch17.block_pos
  stage_whole := launch17.stage_whole
  K := PEmpty
  osem k := k.elim
  ho := Pipeline.OwnSemFacts.none _
  hbody c := (body_obligation17 (VE17 m ρ) c).loose
  hwaits := Pipeline.hwaits_of_owed_zero _ _ _ _ hL hlv 17 fun _ _ => rfl
  pre c := iprop(StableHlo.held (c : Thread nD τ) (Pipeline.ucRefs τ sig) (WX16 m ρ c) ∗ hR c)
  post c := iprop(StableHlo.held (c : Thread nD τ) (Pipeline.ucRefs τ sig) (WX17 m ρ c) ∗ hR c)
  X c := iprop(∃ r, prngReg c r)
  Y c := iprop(∃ r, prngReg c r)
  Z c := Pipeline.unscopedRest (Ix := Unit) (Name := ℕ) (U := UR sig nD τ) (Lvl := ℕ) spec17 c (VE17 m ρ c)
  hentry c := by
    rw [Pipeline.ownSems0_none]
    have hsplit := Pipeline.arrays_of_unscopedBufs (p := 17) (pcfgs (F := F)) adm (hpdats m ρ) launch17.win launch17.arr_whole c
      ((hpdats m ρ 17 c).share_full fun _ => rfl) (VE17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (hpdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (hpdats m ρ) ((hpdats m ρ 17 c).share_full fun _ => rfl)
      (VE17 m ρ c) (VX17 m ρ c) ((hpdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 18 over the thread state: its arrays split out of the unscoped buffers at entry and put back at the exit contents. -/
def hreg18 : Pipeline.RegionSeg (pcfgs (F := F)) adm (hpdats m ρ) () defs₀ h𝒱₀ hL hlv 18 where
  win := launch18.win.to₀
  block_pos := launch18.block_pos
  stage_whole := launch18.stage_whole
  K := PEmpty
  osem k := k.elim
  ho := Pipeline.OwnSemFacts.none _
  hbody c := (body_obligation18 (VE18 m ρ) c).loose
  hwaits := Pipeline.hwaits_of_owed_zero _ _ _ _ hL hlv 18 fun _ _ => rfl
  pre c := iprop(StableHlo.held (c : Thread nD τ) (Pipeline.ucRefs τ sig) (WX17 m ρ c) ∗ hR c)
  post c := iprop(StableHlo.held (c : Thread nD τ) (Pipeline.ucRefs τ sig) (WX18 m ρ c) ∗ hR c)
  X c := iprop(∃ r, prngReg c r)
  Y c := iprop(∃ r, prngReg c r)
  Z c := Pipeline.unscopedRest (Ix := Unit) (Name := ℕ) (U := UR sig nD τ) (Lvl := ℕ) spec18 c (VE18 m ρ c)
  hentry c := by
    rw [Pipeline.ownSems0_none]
    have hsplit := Pipeline.arrays_of_unscopedBufs (p := 18) (pcfgs (F := F)) adm (hpdats m ρ) launch18.win launch18.arr_whole c
      ((hpdats m ρ 18 c).share_full fun _ => rfl) (VE18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 18 c).Φ 0 = (dat18 (VE18 m ρ) c).Φ 0 from rfl]
    refine .trans ?_ (hin18 (VE18 m ρ) c)
    unfold Pipeline.ΦA
    iintro ⟨Hp, -, Hr⟩
    isplitl [Hr]; · iexact Hr
    iexact Hp
  hout c := by
    rw [Pipeline.ownSems0_none, show (hpdats m ρ 18 c).Φ (Fin.last _) = (dat18 (VE18 m ρ) c).Φ (Fin.last cfg18.N) from rfl]
    refine (hout18 (VE18 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (hpdats m ρ) ((hpdats m ρ 18 c).share_full fun _ => rfl)
      (VE18 m ρ c) (VX18 m ρ c) ((hpdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 19 over the thread state: its arrays split out of the unscoped buffers at entry and put back at the exit contents. -/
def hreg19 : Pipeline.RegionSeg (pcfgs (F := F)) adm (hpdats m ρ) () defs₀ h𝒱₀ hL hlv 19 where
  win := launch19.win.to₀
  block_pos := launch19.block_pos
  stage_whole := launch19.stage_whole
  K := PEmpty
  osem k := k.elim
  ho := Pipeline.OwnSemFacts.none _
  hbody c := (body_obligation19 (VE19 m ρ) c).loose
  hwaits := Pipeline.hwaits_of_owed_zero _ _ _ _ hL hlv 19 fun _ _ => rfl
  pre c := iprop(StableHlo.held (c : Thread nD τ) (Pipeline.ucRefs τ sig) (WX18 m ρ c) ∗ hR c)
  post c := iprop(StableHlo.held (c : Thread nD τ) (Pipeline.ucRefs τ sig) (WX19 m ρ c) ∗ hR c)
  X c := iprop(∃ r, prngReg c r)
  Y c := iprop(∃ r, prngReg c r)
  Z c := Pipeline.unscopedRest (Ix := Unit) (Name := ℕ) (U := UR sig nD τ) (Lvl := ℕ) spec19 c (VE19 m ρ c)
  hentry c := by
    rw [Pipeline.ownSems0_none]
    have hsplit := Pipeline.arrays_of_unscopedBufs (p := 19) (pcfgs (F := F)) adm (hpdats m ρ) launch19.win launch19.arr_whole c
      ((hpdats m ρ 19 c).share_full fun _ => rfl) (VE19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (hpdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (hpdats m ρ) ((hpdats m ρ 19 c).share_full fun _ => rfl)
      (VE19 m ρ c) (VX19 m ρ c) ((hpdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 20 over the thread state: its arrays split out of the unscoped buffers at entry and put back at the exit contents. -/
def hreg20 : Pipeline.RegionSeg (pcfgs (F := F)) adm (hpdats m ρ) () defs₀ h𝒱₀ hL hlv 20 where
  win := launch20.win.to₀
  block_pos := launch20.block_pos
  stage_whole := launch20.stage_whole
  K := PEmpty
  osem k := k.elim
  ho := Pipeline.OwnSemFacts.none _
  hbody c := (body_obligation20 (VE20 m ρ) c).loose
  hwaits := Pipeline.hwaits_of_owed_zero _ _ _ _ hL hlv 20 fun _ _ => rfl
  pre c := iprop(StableHlo.held (c : Thread nD τ) (Pipeline.ucRefs τ sig) (WX19 m ρ c) ∗ hR c)
  post c := iprop(StableHlo.held (c : Thread nD τ) (Pipeline.ucRefs τ sig) (WX20 m ρ c) ∗ hR c)
  X c := iprop(∃ r, prngReg c r)
  Y c := iprop(∃ r, prngReg c r)
  Z c := Pipeline.unscopedRest (Ix := Unit) (Name := ℕ) (U := UR sig nD τ) (Lvl := ℕ) spec20 c (VE20 m ρ c)
  hentry c := by
    rw [Pipeline.ownSems0_none]
    have hsplit := Pipeline.arrays_of_unscopedBufs (p := 20) (pcfgs (F := F)) adm (hpdats m ρ) launch20.win launch20.arr_whole c
      ((hpdats m ρ 20 c).share_full fun _ => rfl) (VE20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 20 c).Φ 0 = (dat20 (VE20 m ρ) c).Φ 0 from rfl]
    refine .trans ?_ (hin20 (VE20 m ρ) c)
    unfold Pipeline.ΦA
    iintro ⟨Hp, -, Hr⟩
    isplitl [Hr]; · iexact Hr
    iexact Hp
  hout c := by
    rw [Pipeline.ownSems0_none, show (hpdats m ρ 20 c).Φ (Fin.last _) = (dat20 (VE20 m ρ) c).Φ (Fin.last cfg20.N) from rfl]
    refine (hout20 (VE20 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (hpdats m ρ) ((hpdats m ρ 20 c).share_full fun _ => rfl)
      (VE20 m ρ c) (VX20 m ρ c) ((hpdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 21 over the thread state: its arrays split out of the unscoped buffers at entry and put back at the exit contents. -/
def hreg21 : Pipeline.RegionSeg (pcfgs (F := F)) adm (hpdats m ρ) () defs₀ h𝒱₀ hL hlv 21 where
  win := launch21.win.to₀
  block_pos := launch21.block_pos
  stage_whole := launch21.stage_whole
  K := PEmpty
  osem k := k.elim
  ho := Pipeline.OwnSemFacts.none _
  hbody c := (body_obligation21 (VE21 m ρ) c).loose
  hwaits := Pipeline.hwaits_of_owed_zero _ _ _ _ hL hlv 21 fun _ _ => rfl
  pre c := iprop(StableHlo.held (c : Thread nD τ) (Pipeline.ucRefs τ sig) (WX20 m ρ c) ∗ hR c)
  post c := iprop(StableHlo.held (c : Thread nD τ) (Pipeline.ucRefs τ sig) (WX21 m ρ c) ∗ hR c)
  X c := iprop(∃ r, prngReg c r)
  Y c := iprop(∃ r, prngReg c r)
  Z c := Pipeline.unscopedRest (Ix := Unit) (Name := ℕ) (U := UR sig nD τ) (Lvl := ℕ) spec21 c (VE21 m ρ c)
  hentry c := by
    rw [Pipeline.ownSems0_none]
    have hsplit := Pipeline.arrays_of_unscopedBufs (p := 21) (pcfgs (F := F)) adm (hpdats m ρ) launch21.win launch21.arr_whole c
      ((hpdats m ρ 21 c).share_full fun _ => rfl) (VE21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (hpdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (hpdats m ρ) ((hpdats m ρ 21 c).share_full fun _ => rfl)
      (VE21 m ρ c) (VX21 m ρ c) ((hpdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev hsegs : List (Pipeline.Seg (pcfgs (F := F)) adm (hpdats m ρ) () defs₀ h𝒱₀ hL hlv) :=
  [ .region (hreg0 m ρ),
    .host (hseg hostOps1 hostOps1_sub hostOps1_fresh (WX0 m ρ)),
    .region (hreg1 m ρ),
    .region (hreg2 m ρ),
    .region (hreg3 m ρ),
    .region (hreg4 m ρ),
    .region (hreg5 m ρ),
    .region (hreg6 m ρ),
    .region (hreg7 m ρ),
    .region (hreg8 m ρ),
    .region (hreg9 m ρ),
    .region (hreg10 m ρ),
    .region (hreg11 m ρ),
    .region (hreg12 m ρ),
    .region (hreg13 m ρ),
    .region (hreg14 m ρ),
    .region (hreg15 m ρ),
    .region (hreg16 m ρ),
    .region (hreg17 m ρ),
    .region (hreg18 m ρ),
    .region (hreg19 m ρ),
    .region (hreg20 m ρ),
    .region (hreg21 m ρ),
    .host (hseg hostOps22 hostOps22_sub hostOps22_fresh (WX21 m ρ)) ]

theorem main_run (c : Dev nD) : main (F := F) c = Pipeline.Seg.run (hsegs m ρ) := (main_chain c).trans (by chain_rfl)

set_option backward.isDefEq.respectTransparency.types false in
/-- Every weakly fair execution of @main from memory m with zero counters terminates, nothing faulting, and every final state holds
    each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (hpdats m ρ) () cellOf_inj emb₁ defs₀ h𝒱₀ hL hlv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (Wfin m ρ c) ∗ (∃ r, prngReg c r) ∗ ∃ W, owes (c : Thread nD τ) (0 : CellTallies nD τ sig Unit) W) : sProp 𝕄)
        ⊢ iprop((StableHlo.held (c : Thread nD τ) (Pipeline.ucRefs τ sig) (Wfin m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach hL hlv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h => h)

/-! ## The arguments end as launched -/
theorem main_arg0_X0 (c : Dev nD) : WX0 m ρ c (Proc.devRef .tc main_arg0) = m ((c : Thread nD τ).loc main_arg0) := (keep0 m ρ c main_arg0 (by decide)).trans rfl
theorem main_arg0_E1 (c : Dev nD) : WE1 m ρ c (Proc.devRef .tc main_arg0) = m ((c : Thread nD τ).loc main_arg0) :=
  (StableHlo.after_of_writes_sub hostOps1 _ hostOps1_writes (by decide)).trans (main_arg0_X0 m ρ c)
theorem main_arg0_X1 (c : Dev nD) : WX1 m ρ c (Proc.devRef .tc main_arg0) = m ((c : Thread nD τ).loc main_arg0) := (keep1 m ρ c main_arg0 (by decide)).trans (main_arg0_E1 m ρ c)
theorem main_arg0_X2 (c : Dev nD) : WX2 m ρ c (Proc.devRef .tc main_arg0) = m ((c : Thread nD τ).loc main_arg0) := (keep2 m ρ c main_arg0 (by decide)).trans (main_arg0_X1 m ρ c)
theorem main_arg0_X3 (c : Dev nD) : WX3 m ρ c (Proc.devRef .tc main_arg0) = m ((c : Thread nD τ).loc main_arg0) := (keep3 m ρ c main_arg0 (by decide)).trans (main_arg0_X2 m ρ c)
theorem main_arg0_X4 (c : Dev nD) : WX4 m ρ c (Proc.devRef .tc main_arg0) = m ((c : Thread nD τ).loc main_arg0) := (keep4 m ρ c main_arg0 (by decide)).trans (main_arg0_X3 m ρ c)
theorem main_arg0_X5 (c : Dev nD) : WX5 m ρ c (Proc.devRef .tc main_arg0) = m ((c : Thread nD τ).loc main_arg0) := (keep5 m ρ c main_arg0 (by decide)).trans (main_arg0_X4 m ρ c)
theorem main_arg0_X6 (c : Dev nD) : WX6 m ρ c (Proc.devRef .tc main_arg0) = m ((c : Thread nD τ).loc main_arg0) := (keep6 m ρ c main_arg0 (by decide)).trans (main_arg0_X5 m ρ c)
theorem main_arg0_X7 (c : Dev nD) : WX7 m ρ c (Proc.devRef .tc main_arg0) = m ((c : Thread nD τ).loc main_arg0) := (keep7 m ρ c main_arg0 (by decide)).trans (main_arg0_X6 m ρ c)
theorem main_arg0_X8 (c : Dev nD) : WX8 m ρ c (Proc.devRef .tc main_arg0) = m ((c : Thread nD τ).loc main_arg0) := (keep8 m ρ c main_arg0 (by decide)).trans (main_arg0_X7 m ρ c)
theorem main_arg0_X9 (c : Dev nD) : WX9 m ρ c (Proc.devRef .tc main_arg0) = m ((c : Thread nD τ).loc main_arg0) := (keep9 m ρ c main_arg0 (by decide)).trans (main_arg0_X8 m ρ c)
theorem main_arg0_X10 (c : Dev nD) : WX10 m ρ c (Proc.devRef .tc main_arg0) = m ((c : Thread nD τ).loc main_arg0) := (keep10 m ρ c main_arg0 (by decide)).trans (main_arg0_X9 m ρ c)
theorem main_arg0_X11 (c : Dev nD) : WX11 m ρ c (Proc.devRef .tc main_arg0) = m ((c : Thread nD τ).loc main_arg0) := (keep11 m ρ c main_arg0 (by decide)).trans (main_arg0_X10 m ρ c)
theorem main_arg0_X12 (c : Dev nD) : WX12 m ρ c (Proc.devRef .tc main_arg0) = m ((c : Thread nD τ).loc main_arg0) := (keep12 m ρ c main_arg0 (by decide)).trans (main_arg0_X11 m ρ c)
theorem main_arg0_X13 (c : Dev nD) : WX13 m ρ c (Proc.devRef .tc main_arg0) = m ((c : Thread nD τ).loc main_arg0) := (keep13 m ρ c main_arg0 (by decide)).trans (main_arg0_X12 m ρ c)
theorem main_arg0_X14 (c : Dev nD) : WX14 m ρ c (Proc.devRef .tc main_arg0) = m ((c : Thread nD τ).loc main_arg0) := (keep14 m ρ c main_arg0 (by decide)).trans (main_arg0_X13 m ρ c)
theorem main_arg0_X15 (c : Dev nD) : WX15 m ρ c (Proc.devRef .tc main_arg0) = m ((c : Thread nD τ).loc main_arg0) := (keep15 m ρ c main_arg0 (by decide)).trans (main_arg0_X14 m ρ c)
theorem main_arg0_X16 (c : Dev nD) : WX16 m ρ c (Proc.devRef .tc main_arg0) = m ((c : Thread nD τ).loc main_arg0) := (keep16 m ρ c main_arg0 (by decide)).trans (main_arg0_X15 m ρ c)
theorem main_arg0_X17 (c : Dev nD) : WX17 m ρ c (Proc.devRef .tc main_arg0) = m ((c : Thread nD τ).loc main_arg0) := (keep17 m ρ c main_arg0 (by decide)).trans (main_arg0_X16 m ρ c)
theorem main_arg0_X18 (c : Dev nD) : WX18 m ρ c (Proc.devRef .tc main_arg0) = m ((c : Thread nD τ).loc main_arg0) := (keep18 m ρ c main_arg0 (by decide)).trans (main_arg0_X17 m ρ c)
theorem main_arg0_X19 (c : Dev nD) : WX19 m ρ c (Proc.devRef .tc main_arg0) = m ((c : Thread nD τ).loc main_arg0) := (keep19 m ρ c main_arg0 (by decide)).trans (main_arg0_X18 m ρ c)
theorem main_arg0_X20 (c : Dev nD) : WX20 m ρ c (Proc.devRef .tc main_arg0) = m ((c : Thread nD τ).loc main_arg0) := (keep20 m ρ c main_arg0 (by decide)).trans (main_arg0_X19 m ρ c)
theorem main_arg0_X21 (c : Dev nD) : WX21 m ρ c (Proc.devRef .tc main_arg0) = m ((c : Thread nD τ).loc main_arg0) := (keep21 m ρ c main_arg0 (by decide)).trans (main_arg0_X20 m ρ c)
theorem main_arg0_fin (c : Dev nD) : Wfin m ρ c (Proc.devRef .tc main_arg0) = m ((c : Thread nD τ).loc main_arg0) :=
  (StableHlo.after_of_writes_sub hostOps22 _ hostOps22_writes (by decide)).trans (main_arg0_X21 m ρ c)
theorem main_arg1_X0 (c : Dev nD) : WX0 m ρ c (Proc.devRef .tc main_arg1) = m ((c : Thread nD τ).loc main_arg1) := (keep0 m ρ c main_arg1 (by decide)).trans rfl
theorem main_arg1_E1 (c : Dev nD) : WE1 m ρ c (Proc.devRef .tc main_arg1) = m ((c : Thread nD τ).loc main_arg1) :=
  (StableHlo.after_of_writes_sub hostOps1 _ hostOps1_writes (by decide)).trans (main_arg1_X0 m ρ c)
theorem main_arg1_X1 (c : Dev nD) : WX1 m ρ c (Proc.devRef .tc main_arg1) = m ((c : Thread nD τ).loc main_arg1) := (keep1 m ρ c main_arg1 (by decide)).trans (main_arg1_E1 m ρ c)
theorem main_arg1_X2 (c : Dev nD) : WX2 m ρ c (Proc.devRef .tc main_arg1) = m ((c : Thread nD τ).loc main_arg1) := (keep2 m ρ c main_arg1 (by decide)).trans (main_arg1_X1 m ρ c)
theorem main_arg1_X3 (c : Dev nD) : WX3 m ρ c (Proc.devRef .tc main_arg1) = m ((c : Thread nD τ).loc main_arg1) := (keep3 m ρ c main_arg1 (by decide)).trans (main_arg1_X2 m ρ c)
theorem main_arg1_X4 (c : Dev nD) : WX4 m ρ c (Proc.devRef .tc main_arg1) = m ((c : Thread nD τ).loc main_arg1) := (keep4 m ρ c main_arg1 (by decide)).trans (main_arg1_X3 m ρ c)
theorem main_arg1_X5 (c : Dev nD) : WX5 m ρ c (Proc.devRef .tc main_arg1) = m ((c : Thread nD τ).loc main_arg1) := (keep5 m ρ c main_arg1 (by decide)).trans (main_arg1_X4 m ρ c)
theorem main_arg1_X6 (c : Dev nD) : WX6 m ρ c (Proc.devRef .tc main_arg1) = m ((c : Thread nD τ).loc main_arg1) := (keep6 m ρ c main_arg1 (by decide)).trans (main_arg1_X5 m ρ c)
theorem main_arg1_X7 (c : Dev nD) : WX7 m ρ c (Proc.devRef .tc main_arg1) = m ((c : Thread nD τ).loc main_arg1) := (keep7 m ρ c main_arg1 (by decide)).trans (main_arg1_X6 m ρ c)
theorem main_arg1_X8 (c : Dev nD) : WX8 m ρ c (Proc.devRef .tc main_arg1) = m ((c : Thread nD τ).loc main_arg1) := (keep8 m ρ c main_arg1 (by decide)).trans (main_arg1_X7 m ρ c)
theorem main_arg1_X9 (c : Dev nD) : WX9 m ρ c (Proc.devRef .tc main_arg1) = m ((c : Thread nD τ).loc main_arg1) := (keep9 m ρ c main_arg1 (by decide)).trans (main_arg1_X8 m ρ c)
theorem main_arg1_X10 (c : Dev nD) : WX10 m ρ c (Proc.devRef .tc main_arg1) = m ((c : Thread nD τ).loc main_arg1) := (keep10 m ρ c main_arg1 (by decide)).trans (main_arg1_X9 m ρ c)
theorem main_arg1_X11 (c : Dev nD) : WX11 m ρ c (Proc.devRef .tc main_arg1) = m ((c : Thread nD τ).loc main_arg1) := (keep11 m ρ c main_arg1 (by decide)).trans (main_arg1_X10 m ρ c)
theorem main_arg1_X12 (c : Dev nD) : WX12 m ρ c (Proc.devRef .tc main_arg1) = m ((c : Thread nD τ).loc main_arg1) := (keep12 m ρ c main_arg1 (by decide)).trans (main_arg1_X11 m ρ c)
theorem main_arg1_X13 (c : Dev nD) : WX13 m ρ c (Proc.devRef .tc main_arg1) = m ((c : Thread nD τ).loc main_arg1) := (keep13 m ρ c main_arg1 (by decide)).trans (main_arg1_X12 m ρ c)
theorem main_arg1_X14 (c : Dev nD) : WX14 m ρ c (Proc.devRef .tc main_arg1) = m ((c : Thread nD τ).loc main_arg1) := (keep14 m ρ c main_arg1 (by decide)).trans (main_arg1_X13 m ρ c)
theorem main_arg1_X15 (c : Dev nD) : WX15 m ρ c (Proc.devRef .tc main_arg1) = m ((c : Thread nD τ).loc main_arg1) := (keep15 m ρ c main_arg1 (by decide)).trans (main_arg1_X14 m ρ c)
theorem main_arg1_X16 (c : Dev nD) : WX16 m ρ c (Proc.devRef .tc main_arg1) = m ((c : Thread nD τ).loc main_arg1) := (keep16 m ρ c main_arg1 (by decide)).trans (main_arg1_X15 m ρ c)
theorem main_arg1_X17 (c : Dev nD) : WX17 m ρ c (Proc.devRef .tc main_arg1) = m ((c : Thread nD τ).loc main_arg1) := (keep17 m ρ c main_arg1 (by decide)).trans (main_arg1_X16 m ρ c)
theorem main_arg1_X18 (c : Dev nD) : WX18 m ρ c (Proc.devRef .tc main_arg1) = m ((c : Thread nD τ).loc main_arg1) := (keep18 m ρ c main_arg1 (by decide)).trans (main_arg1_X17 m ρ c)
theorem main_arg1_X19 (c : Dev nD) : WX19 m ρ c (Proc.devRef .tc main_arg1) = m ((c : Thread nD τ).loc main_arg1) := (keep19 m ρ c main_arg1 (by decide)).trans (main_arg1_X18 m ρ c)
theorem main_arg1_X20 (c : Dev nD) : WX20 m ρ c (Proc.devRef .tc main_arg1) = m ((c : Thread nD τ).loc main_arg1) := (keep20 m ρ c main_arg1 (by decide)).trans (main_arg1_X19 m ρ c)
theorem main_arg1_X21 (c : Dev nD) : WX21 m ρ c (Proc.devRef .tc main_arg1) = m ((c : Thread nD τ).loc main_arg1) := (keep21 m ρ c main_arg1 (by decide)).trans (main_arg1_X20 m ρ c)
theorem main_arg1_fin (c : Dev nD) : Wfin m ρ c (Proc.devRef .tc main_arg1) = m ((c : Thread nD τ).loc main_arg1) :=
  (StableHlo.after_of_writes_sub hostOps22 _ hostOps22_writes (by decide)).trans (main_arg1_X21 m ρ c)

/-- The frame: @main runs to its end, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (main_arg0_fin m ρ c),
    (h c _ (mem_uc main_arg1 (by decide))).trans (main_arg1_fin m ρ c)⟩) (run_all m ρ)

end Cert.Kernel.Hand

end
-- ==== Proof.KI.R0.lean ====
/- Region 0 of the program: the launch that builds the Gibbs matrix, its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the Gibbs-matrix kernel. One point per 1024×1024 tile (i, j): from rows block i of the first argument and
    rows block j of the second, the tile exp(-‖s_r − t_c‖ / ε). -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_in : Rect S1024x64 := Rect.unit (s := S1024x64) ![0, 0] S1024x64.size inb_S1024x64_S1024x64_0_0
abbrev r0_out : Rect S1024x1024 := Rect.unit (s := S1024x1024) ![0, 0] S1024x1024.size inb_S1024x1024_S1024x1024_0_0

def out0_2 (x0 : Vec F S1024x64 .f32) (x1 : Vec F S1024x64 .f32) : Vec F S1024x1024 .bf16 :=
  View.canon [⟨r0_out, k0_pay1 (View.ld x0 r0_in) (View.ld x1 r0_in)⟩]

theorem cover0_2 (p0 : Vec F S1024x1024 .bf16) (y : S1024x1024.Idx) :
    ∃ pc ∈ ([⟨r0_out, p0⟩] : List (View.Piece (Elt F) S1024x1024 .bf16)), y ∈ pc.1.set :=
  View.cover_of_tiled [⟨r0_out, p0⟩] S1024x1024.size (by rfl) y

set_option maxHeartbeats 1000000 in
theorem sound_kernel0 (c : Dev nD) (E : Set ℕ) (i : grid0.Coords) (arg2 : Memref sig .tc .vmem S1024x64 .f32) (harg2 : arg2.IsWhole)
    (arg3 : Memref sig .tc .vmem S1024x64 .f32) (harg3 : arg3.IsWhole) (arg4 : Memref sig .tc .vmem S1024x1024 .bf16) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__gibbs_kernel i arg2 harg2 arg3 harg3 arg4 harg4) K := by
  simp only [cc0__gibbs_kernel_eq_skeleton]; unfold cc0__gibbs_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: the row-sum kernel. One point per block of 1024 rows of the matrix; the point's result block is
    w / (Σ_k M[r,k]·v[k] + stab) for each of its rows r. -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix window's staging buffer holds the point's block of rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The vector window's staging buffer holds the whole row vector at every point (fetched once, never moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_2 : Rect S1024x1 := Rect.unit (s := S1024x1) ![0, 0] S1024x1.size inb_S1024x1_S1024x1_0_0
abbrev r1_0 : Rect S1024x8192 := Rect.unit (s := S1024x8192) ![0, 0] S1024x8192.size inb_S1024x8192_S1024x8192_0_0
abbrev r1_1 : Rect S1x8192 := Rect.unit (s := S1x8192) ![0, 0] S1x8192.size inb_S1x8192_S1x8192_0_0

/-- The result window's staging buffer after the body: its one whole-block store of the payload. -/
def out1_2 (x0 : Vec F S1024x8192 .bf16) (x1 : Vec F S1x8192 .f32) : Vec F S1024x1 .f32 :=
  View.canon [⟨r1_2, k1_pay1 (View.ld x0 r1_0) (View.ld x1 r1_1)⟩]

theorem cover1_2 (p0 : Vec F S1024x1 .f32) (y : S1024x1.Idx) :
    ∃ pc ∈ ([⟨r1_2, p0⟩] : List (View.Piece (Elt F) S1024x1 .f32)), y ∈ pc.1.set :=
  View.cover_of_tiled [⟨r1_2, p0⟩] S1024x1.size (by rfl) y

set_option maxHeartbeats 1000000 in
/-- The body on whole staging memrefs: the inputs are handed back as read, the result's buffer holds the payload. -/
theorem sound_kernel1 (c : Dev nD) (E : Set ℕ) (i : grid1.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matvec_kernel i arg1 harg1 arg2 harg2 arg3 harg3) K := by
  simp only [cc1__matvec_kernel_eq_skeleton]; unfold cc1__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data: arrays as found; after the body each input's buffer at its block, the result's at the payload. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: the column-sum kernel. The grid is (column block j, row block i), i innermost; a VMEM accumulator is
    zeroed at i = 0, gains the column sums of the tile times the row weights at every i, and at i = 7 the result
    block w / (acc + stab) is stored. -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's two conditions: the row block is the first (the accumulator is zeroed), the row block is the last (the result is stored). -/
abbrev cFirst2 (i : grid2.Coords) : Prop := (Scalar.cmpi .ne (Scalar.extui (Scalar.cmpi .eq (BitVec.ofNat 32 (i 1).val) 0#32)) 0#32) = 1#1
abbrev cLast2 (i : grid2.Coords) : Prop := k2_cond2 i = 1#1
theorem hFirst2 : ∀ t : Fin cfg2.N, cFirst2 (grid2.coords t) ↔ t.val % 8 = 0 :=
  (by decide +kernel : ∀ t : Fin grid2.N, cFirst2 (grid2.coords t) ↔ t.val % 8 = 0)
theorem hLast2 : ∀ t : Fin cfg2.N, cLast2 (grid2.coords t) ↔ t.val % 8 = 7 :=
  (by decide +kernel : ∀ t : Fin grid2.N, cLast2 (grid2.coords t) ↔ t.val % 8 = 7)
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, ¬ t.val % 8 = 7 → cfg2.idle 2 (grid2.coords t) = true := by decide +kernel
theorem noFlush2_2 : ∀ t : Fin cfg2.N, ¬ t.val % 8 = 7 → (cfg2.win 2).flush t = false := by decide +kernel
theorem live2_2 : ∀ t : Fin cfg2.N, t.val % 8 = 7 → cfg2.idle 2 (grid2.coords t) = false := by decide +kernel

theorem hz2_2 : (![0, 0] : Fin 2 → Nat) = fun _ => 0 := by funext a; fin_cases a <;> rfl

/-- The accumulator after a point's body, from the tile, the row weights and the accumulator it started from (zero at a first row block). -/
def accNew2 (first : Prop) [Decidable first] (x0 : Vec F S1024x1024 .bf16) (x1 : Vec F S1024x1 .f32) (s : Vec F S1x1024 .f32) : Vec F S1x1024 .f32 :=
  k2_pay2 x0 (if first then k2_pay1 (F := F) else s) x1

set_option maxHeartbeats 4000000 in
/-- The body at a first row block that is not the last: the accumulator ends at the tile's weighted column sums over zero; the result's buffer is untouched. -/
theorem sound_kernel2_A (c : Dev nD) (E : Set ℕ) (i : grid2.Coords) (hc1 : cFirst2 i) (hc2 : ¬ cLast2 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k2_pay2 x0 (k2_pay1 (F := F)) x1)) -∗ K ⟨⟩))
      ⊢ wp frame (wpE (defs₀ (F := F)) Variants.none c none) E (cc2__colreduce_kernel i arg2 harg2 arg3 harg3 arg4 harg4 arg5 harg5) K := by
  simp only [cc2__colreduce_kernel_eq_skeleton]; unfold cc2__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_2 inb_S1x1024_S1x1024_0_0 y⟩)).trans ?_
  refine (View.canon_cons_unit_zero (S := S1x1024) hz2_2 inb_S1x1024_S1x1024_0_0 _ _).trans ?_
  sl_unfold_run_names
  rw [View.readCov_unit_zero (S := S1x1024) _ hz2_2, View.readAt_eq_ld, View.readAt_eq_ld, View.ld_unit_zero (S := S1024x1024) hz2_2, View.ld_unit_zero (S := S1024x1) hz2_2]

set_option maxHeartbeats 4000000 in
/-- The body at a row block neither first nor last: the accumulator gains the tile's weighted column sums; the result's buffer is untouched. -/
theorem sound_kernel2_B (c : Dev nD) (E : Set ℕ) (i : grid2.Coords) (hc1 : ¬ cFirst2 i) (hc2 : ¬ cLast2 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k2_pay2 x0 s x1)) -∗ K ⟨⟩))
      ⊢ wp frame (wpE (defs₀ (F := F)) Variants.none c none) E (cc2__colreduce_kernel i arg2 harg2 arg3 harg3 arg4 harg4 arg5 harg5) K := by
  simp only [cc2__colreduce_kernel_eq_skeleton]; unfold cc2__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_2 inb_S1x1024_S1x1024_0_0 y⟩)).trans ?_
  refine (View.canon_cons_unit_zero (S := S1x1024) hz2_2 inb_S1x1024_S1x1024_0_0 _ _).trans ?_
  simp only [View.readAt_eq_ld, View.ld_unit_zero (S := S1024x1024) hz2_2, View.ld_unit_zero (S := S1x1024) hz2_2, View.ld_unit_zero (S := S1024x1) hz2_2]

set_option maxHeartbeats 4000000 in
/-- The body at the last row block (never the first): the accumulator gains the tile's weighted column sums and the result's buffer
    is stored w / (accumulator + stab). -/
theorem sound_kernel2_C (c : Dev nD) (E : Set ℕ) (i : grid2.Coords) (hc1 : ¬ cFirst2 i) (hc2 : cLast2 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k2_pay3 (k2_pay2 x0 s x1))
            ∗ owns (c : Thread nD τ) arg5 fullShare (k2_pay2 x0 s x1)) -∗ K ⟨⟩))
      ⊢ wp frame (wpE (defs₀ (F := F)) Variants.none c none) E (cc2__colreduce_kernel i arg2 harg2 arg3 harg3 arg4 harg4 arg5 harg5) K := by
  simp only [cc2__colreduce_kernel_eq_skeleton]; unfold cc2__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_2 inb_S1x1024_S1x1024_0_0 y⟩)).trans ?_
    refine (View.canon_cons_unit_zero (S := S1x1024) hz2_2 inb_S1x1024_S1x1024_0_0 _ _).trans ?_
    sl_unfold_run_names
    rw [View.readCov_unit_zero (S := S1x1024) _ hz2_2]
    simp only [View.readAt_eq_ld, View.ld_unit_zero (S := S1024x1024) hz2_2, View.ld_unit_zero (S := S1x1024) hz2_2, View.ld_unit_zero (S := S1024x1) hz2_2]
  iexists _; isplitr
  swap; · iexact HS
  ipureintro
  refine (View.read_writes_eq_canon _ _ _ (fun y => ⟨_, List.mem_cons_self, View.mem_set_unit_zero (S := S1x1024) hz2_2 inb_S1x1024_S1x1024_0_0 y⟩)).trans ?_
  refine (View.canon_cons_unit_zero (S := S1x1024) hz2_2 inb_S1x1024_S1x1024_0_0 _ _).trans ?_
  sl_unfold_run_names
  simp only [View.readAt_eq_ld, View.ld_unit_zero (S := S1024x1024) hz2_2, View.ld_unit_zero (S := S1x1024) hz2_2, View.ld_unit_zero (S := S1024x1) hz2_2]

/-! ### The accumulator point by point, the proof data and the body obligation -/

/-- The accumulator after the body at position n: over zero at a first row block, else over what the point before left. -/
def accAt2 (c : Dev nD) : (n : ℕ) → n < cfg2.N → Vec F S1x1024 .f32
  | 0, hn => k2_pay2 (iblk2 V c 0 ⟨0, hn⟩) (k2_pay1 (F := F)) (iblk2 V c 1 ⟨0, hn⟩)
  | n + 1, hn =>
    if (n + 1) % 8 = 0 then k2_pay2 (iblk2 V c 0 ⟨n + 1, hn⟩) (k2_pay1 (F := F)) (iblk2 V c 1 ⟨n + 1, hn⟩)
    else k2_pay2 (iblk2 V c 0 ⟨n + 1, hn⟩) (accAt2 c n (Nat.lt_of_succ_lt hn)) (iblk2 V c 1 ⟨n + 1, hn⟩)

theorem accAt2_first (c : Dev nD) (t : Fin cfg2.N) (h : t.val % 8 = 0) :
    accAt2 V c t.val t.isLt = k2_pay2 (iblk2 V c 0 t) (k2_pay1 (F := F)) (iblk2 V c 1 t) := by
  obtain ⟨n, hn⟩ := t
  cases n with
  | zero => rfl
  | succ n => exact if_pos h

theorem accAt2_next (c : Dev nD) (t : Fin cfg2.N) (h : ¬ t.val % 8 = 0) :
    accAt2 V c t.val t.isLt = k2_pay2 (iblk2 V c 0 t) (accAt2 V c (t.val - 1) (Nat.lt_of_le_of_lt (Nat.sub_le _ _) t.isLt)) (iblk2 V c 1 t) := by
  obtain ⟨n, hn⟩ := t
  cases n with
  | zero => exact absurd (Nat.zero_mod _) h
  | succ n => exact if_neg h

/-- The kernel's accumulator: a whole scoped buffer of its own. -/
abbrev scM2 : Memref sig .tc .vmem S1x1024 .f32 := Memref.whole cc2_scratch0

/-- The class's invariant with the accumulator split out of the scoped rest. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The region invariant before position n: before the first point the class's; afterwards the accumulator at what the point
    before left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2 fullShare (accAt2 V c n hn))
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2 fullShare (accAt2 V c n hn))
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(iprop(owns (c : Thread nD τ) scM2 fullShare (accAt2 V c (n - 1) (by omega)))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the point's position among the row blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  by_cases h0 : t.val % 8 = 0
  · have h7 : ¬ t.val % 8 = 7 := by omega
    rw [Dat.leavesExact_idle (dat2 V c) 2 t (idle2_2 t h7) (noFlush2_2 t h7)]
    rw [accAt2_first V c t h0]
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩⟩
      iapply (sound_kernel2_A c Set.univ (grid2.coords t) ((hFirst2 t).mpr h0) (fun h => h7 ((hLast2 t).mp h)) _ _ _ _ _ _ _ _ (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, Hrest⟩, Hg⟩, Ho, ⟨%d0, H0⟩, ⟨%d1, H1⟩, ⟨%d2, H2⟩⟩
      iapply (sound_kernel2_A c Set.univ (grid2.coords t) ((hFirst2 t).mpr h0) (fun h => h7 ((hLast2 t).mp h)) _ _ _ _ _ _ _ _ (iblk2 V c 0 t) (iblk2 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS2_castSucc V c t, PhiS2_pos V c _ _ hz]
    rw [accAt2_next V c t h0]
    by_cases h7 : t.val % 8 = 7
    · rw [show (dat2 V c).leavesExact 2 t = owns (c : Thread nD τ) (st2_2 t) fullShare ((dat2 V c).after 2 t) from by
        unfold Dat.leavesExact; rw [live2_2 t h7], after2_2, accAt2_next V c t h0]
      iintro ⟨⟨⟨HS, Hrest⟩, Hg⟩, Ho, ⟨%d0, H0⟩, ⟨%d1, H1⟩, ⟨%d2, H2⟩⟩
      iapply (sound_kernel2_C c Set.univ (grid2.coords t) (fun h => h0 ((hFirst2 t).mp h)) ((hLast2 t).mpr h7) _ _ _ _ _ _ _ _ (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat2 V c) 2 t (idle2_2 t h7) (noFlush2_2 t h7)]
      iintro ⟨⟨⟨HS, Hrest⟩, Hg⟩, Ho, ⟨%d0, H0⟩, ⟨%d1, H1⟩, ⟨%d2, H2⟩⟩
      iapply (sound_kernel2_B c Set.univ (grid2.coords t) (fun h => h0 ((hFirst2 t).mp h)) (fun h => h7 ((hLast2 t).mp h)) _ _ _ _ _ _ _ _ (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point; -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, Hrest⟩, Hg⟩
  isplitl [HS Hrest]
  · isplitl [HS]; · iexists _; iexact HS
    iexact Hrest
  iexact Hg

end Cert.KernelIdeal.Hand

end
-- ==== Proof.KI.R3.lean ====
/- Region 3 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: the row-sum kernel. One point per block of 1024 rows of the matrix; the point's result block is
    w / (Σ_k M[r,k]·v[k] + stab) for each of its rows r. -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The matrix window's staging buffer holds the point's block of rows. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The vector window's staging buffer holds the whole row vector at every point (fetched once, never moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_2 : Rect S1024x1 := Rect.unit (s := S1024x1) ![0, 0] S1024x1.size inb_S1024x1_S1024x1_0_0
abbrev r3_0 : Rect S1024x8192 := Rect.unit (s := S1024x8192) ![0, 0] S1024x8192.size inb_S1024x8192_S1024x8192_0_0
abbrev r3_1 : Rect S1x8192 := Rect.unit (s := S1x8192) ![0, 0] S1x8192.size inb_S1x8192_S1x8192_0_0

/-- The result window's staging buffer after the body: its one whole-block store of the payload. -/
def out3_2 (x0 : Vec F S1024x8192 .bf16) (x1 : Vec F S1x8192 .f32) : Vec F S1024x1 .f32 :=
  View.canon [⟨r3_2, k3_pay1 (View.ld x0 r3_0) (View.ld x1 r3_1)⟩]

theorem cover3_2 (p0 : Vec F S1024x1 .f32) (y : S1024x1.Idx) :
    ∃ pc ∈ ([⟨r3_2, p0⟩] : List (View.Piece (Elt F) S1024x1 .f32)), y ∈ pc.1.set :=
  View.cover_of_tiled [⟨r3_2, p0⟩] S1024x1.size (by rfl) y

set_option maxHeartbeats 1000000 in
/-- The body on whole staging memrefs: the inputs are handed back as read, the result's buffer holds the payload. -/
theorem sound_kernel3 (c : Dev nD) (E : Set ℕ) (i : grid3.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matvec_kernel i arg1 harg1 arg2 harg2 arg3 harg3) K := by
  simp only [cc3__matvec_kernel_eq_skeleton]; unfold cc3__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data: arrays as found; after the body each input's buffer at its block, the result's at the payload. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/- Region 4 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 4: the column-sum kernel. The grid is (column block j, row block i), i innermost; a VMEM accumulator is
    zeroed at i = 0, gains the column sums of the tile times the row weights at every i, and at i = 7 the result
    block w / (acc + stab) is stored. -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's two conditions: the row block is the first (the accumulator is zeroed), the row block is the last (the result is stored). -/
abbrev cFirst4 (i : grid4.Coords) : Prop := (Scalar.cmpi .ne (Scalar.extui (Scalar.cmpi .eq (BitVec.ofNat 32 (i 1).val) 0#32)) 0#32) = 1#1
abbrev cLast4 (i : grid4.Coords) : Prop := k4_cond2 i = 1#1
theorem hFirst4 : ∀ t : Fin cfg4.N, cFirst4 (grid4.coords t) ↔ t.val % 8 = 0 :=
  (by decide +kernel : ∀ t : Fin grid4.N, cFirst4 (grid4.coords t) ↔ t.val % 8 = 0)
theorem hLast4 : ∀ t : Fin cfg4.N, cLast4 (grid4.coords t) ↔ t.val % 8 = 7 :=
  (by decide +kernel : ∀ t : Fin grid4.N, cLast4 (grid4.coords t) ↔ t.val % 8 = 7)
theorem live4_0 : ∀ t : Fin cfg4.N, cfg4.idle 0 (grid4.coords t) = false := by decide +kernel
theorem live4_1 : ∀ t : Fin cfg4.N, cfg4.idle 1 (grid4.coords t) = false := by decide +kernel
theorem idle4_2 : ∀ t : Fin cfg4.N, ¬ t.val % 8 = 7 → cfg4.idle 2 (grid4.coords t) = true := by decide +kernel
theorem noFlush4_2 : ∀ t : Fin cfg4.N, ¬ t.val % 8 = 7 → (cfg4.win 2).flush t = false := by decide +kernel
theorem live4_2 : ∀ t : Fin cfg4.N, t.val % 8 = 7 → cfg4.idle 2 (grid4.coords t) = false := by decide +kernel

theorem hz2_4 : (![0, 0] : Fin 2 → Nat) = fun _ => 0 := by funext a; fin_cases a <;> rfl

/-- The accumulator after a point's body, from the tile, the row weights and the accumulator it started from (zero at a first row block). -/
def accNew4 (first : Prop) [Decidable first] (x0 : Vec F S1024x1024 .bf16) (x1 : Vec F S1024x1 .f32) (s : Vec F S1x1024 .f32) : Vec F S1x1024 .f32 :=
  k4_pay2 x0 (if first then k4_pay1 (F := F) else s) x1

set_option maxHeartbeats 4000000 in
/-- The body at a first row block that is not the last: the accumulator ends at the tile's weighted column sums over zero; the result's buffer is untouched. -/
theorem sound_kernel4_A (c : Dev nD) (E : Set ℕ) (i : grid4.Coords) (hc1 : cFirst4 i) (hc2 : ¬ cLast4 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k4_pay2 x0 (k4_pay1 (F := F)) x1)) -∗ K ⟨⟩))
      ⊢ wp frame (wpE (defs₀ (F := F)) Variants.none c none) E (cc4__colreduce_kernel i arg2 harg2 arg3 harg3 arg4 harg4 arg5 harg5) K := by
  simp only [cc4__colreduce_kernel_eq_skeleton]; unfold cc4__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_4 inb_S1x1024_S1x1024_0_0 y⟩)).trans ?_
  refine (View.canon_cons_unit_zero (S := S1x1024) hz2_4 inb_S1x1024_S1x1024_0_0 _ _).trans ?_
  sl_unfold_run_names
  rw [View.readCov_unit_zero (S := S1x1024) _ hz2_4, View.readAt_eq_ld, View.readAt_eq_ld, View.ld_unit_zero (S := S1024x1024) hz2_4, View.ld_unit_zero (S := S1024x1) hz2_4]

set_option maxHeartbeats 4000000 in
/-- The body at a row block neither first nor last: the accumulator gains the tile's weighted column sums; the result's buffer is untouched. -/
theorem sound_kernel4_B (c : Dev nD) (E : Set ℕ) (i : grid4.Coords) (hc1 : ¬ cFirst4 i) (hc2 : ¬ cLast4 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k4_pay2 x0 s x1)) -∗ K ⟨⟩))
      ⊢ wp frame (wpE (defs₀ (F := F)) Variants.none c none) E (cc4__colreduce_kernel i arg2 harg2 arg3 harg3 arg4 harg4 arg5 harg5) K := by
  simp only [cc4__colreduce_kernel_eq_skeleton]; unfold cc4__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_4 inb_S1x1024_S1x1024_0_0 y⟩)).trans ?_
  refine (View.canon_cons_unit_zero (S := S1x1024) hz2_4 inb_S1x1024_S1x1024_0_0 _ _).trans ?_
  simp only [View.readAt_eq_ld, View.ld_unit_zero (S := S1024x1024) hz2_4, View.ld_unit_zero (S := S1x1024) hz2_4, View.ld_unit_zero (S := S1024x1) hz2_4]

set_option maxHeartbeats 4000000 in
/-- The body at the last row block (never the first): the accumulator gains the tile's weighted column sums and the result's buffer
    is stored w / (accumulator + stab). -/
theorem sound_kernel4_C (c : Dev nD) (E : Set ℕ) (i : grid4.Coords) (hc1 : ¬ cFirst4 i) (hc2 : cLast4 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k4_pay3 (k4_pay2 x0 s x1))
            ∗ owns (c : Thread nD τ) arg5 fullShare (k4_pay2 x0 s x1)) -∗ K ⟨⟩))
      ⊢ wp frame (wpE (defs₀ (F := F)) Variants.none c none) E (cc4__colreduce_kernel i arg2 harg2 arg3 harg3 arg4 harg4 arg5 harg5) K := by
  simp only [cc4__colreduce_kernel_eq_skeleton]; unfold cc4__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_4 inb_S1x1024_S1x1024_0_0 y⟩)).trans ?_
    refine (View.canon_cons_unit_zero (S := S1x1024) hz2_4 inb_S1x1024_S1x1024_0_0 _ _).trans ?_
    sl_unfold_run_names
    rw [View.readCov_unit_zero (S := S1x1024) _ hz2_4]
    simp only [View.readAt_eq_ld, View.ld_unit_zero (S := S1024x1024) hz2_4, View.ld_unit_zero (S := S1x1024) hz2_4, View.ld_unit_zero (S := S1024x1) hz2_4]
  iexists _; isplitr
  swap; · iexact HS
  ipureintro
  refine (View.read_writes_eq_canon _ _ _ (fun y => ⟨_, List.mem_cons_self, View.mem_set_unit_zero (S := S1x1024) hz2_4 inb_S1x1024_S1x1024_0_0 y⟩)).trans ?_
  refine (View.canon_cons_unit_zero (S := S1x1024) hz2_4 inb_S1x1024_S1x1024_0_0 _ _).trans ?_
  sl_unfold_run_names
  simp only [View.readAt_eq_ld, View.ld_unit_zero (S := S1024x1024) hz2_4, View.ld_unit_zero (S := S1x1024) hz2_4, View.ld_unit_zero (S := S1024x1) hz2_4]

/-! ### The accumulator point by point, the proof data and the body obligation -/

/-- The accumulator after the body at position n: over zero at a first row block, else over what the point before left. -/
def accAt4 (c : Dev nD) : (n : ℕ) → n < cfg4.N → Vec F S1x1024 .f32
  | 0, hn => k4_pay2 (iblk4 V c 0 ⟨0, hn⟩) (k4_pay1 (F := F)) (iblk4 V c 1 ⟨0, hn⟩)
  | n + 1, hn =>
    if (n + 1) % 8 = 0 then k4_pay2 (iblk4 V c 0 ⟨n + 1, hn⟩) (k4_pay1 (F := F)) (iblk4 V c 1 ⟨n + 1, hn⟩)
    else k4_pay2 (iblk4 V c 0 ⟨n + 1, hn⟩) (accAt4 c n (Nat.lt_of_succ_lt hn)) (iblk4 V c 1 ⟨n + 1, hn⟩)

theorem accAt4_first (c : Dev nD) (t : Fin cfg4.N) (h : t.val % 8 = 0) :
    accAt4 V c t.val t.isLt = k4_pay2 (iblk4 V c 0 t) (k4_pay1 (F := F)) (iblk4 V c 1 t) := by
  obtain ⟨n, hn⟩ := t
  cases n with
  | zero => rfl
  | succ n => exact if_pos h

theorem accAt4_next (c : Dev nD) (t : Fin cfg4.N) (h : ¬ t.val % 8 = 0) :
    accAt4 V c t.val t.isLt = k4_pay2 (iblk4 V c 0 t) (accAt4 V c (t.val - 1) (Nat.lt_of_le_of_lt (Nat.sub_le _ _) t.isLt)) (iblk4 V c 1 t) := by
  obtain ⟨n, hn⟩ := t
  cases n with
  | zero => exact absurd (Nat.zero_mod _) h
  | succ n => exact if_neg h

/-- The kernel's accumulator: a whole scoped buffer of its own. -/
abbrev scM4 : Memref sig .tc .vmem S1x1024 .f32 := Memref.whole cc4_scratch0

/-- The class's invariant with the accumulator split out of the scoped rest. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The region invariant before position n: before the first point the class's; afterwards the accumulator at what the point
    before left, the other scoped buffers at anything, the generator register at some state. -/
def PhiS4 (c : Dev nD) : (n : ℕ) → n ≤ cfg4.N → sProp 𝕄
  | 0, _ => Pipeline.ΦA spec4 c
  | n + 1, hn => iprop(iprop(iprop(owns (c : Thread nD τ) scM4 fullShare (accAt4 V c n hn))
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4 fullShare (accAt4 V c n hn))
      ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(iprop(owns (c : Thread nD τ) scM4 fullShare (accAt4 V c (n - 1) (by omega)))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (accAt4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (accAt4 V c t.val t.isLt) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point, by the point's position among the row blocks. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (st4_0 t) fullShare ((dat4 V c).after 0 t) from by
    unfold Dat.leavesExact; rw [live4_0 t], after4_0]
  rw [show (dat4 V c).leavesExact 1 t = owns (c : Thread nD τ) (st4_1 t) fullShare ((dat4 V c).after 1 t) from by
    unfold Dat.leavesExact; rw [live4_1 t], after4_1]
  by_cases h0 : t.val % 8 = 0
  · have h7 : ¬ t.val % 8 = 7 := by omega
    rw [Dat.leavesExact_idle (dat4 V c) 2 t (idle4_2 t h7) (noFlush4_2 t h7)]
    rw [accAt4_first V c t h0]
    by_cases hz : t.val = 0
    · rw [PhiS4_castSucc V c t, PhiS4_zero V c _ _ hz, PhiA4_eq]
      iintro ⟨⟨⟨HS, Hrest⟩, Hg⟩, Ho, ⟨%d0, H0⟩, ⟨%d1, H1⟩, ⟨%d2, H2⟩⟩
      iapply (sound_kernel4_A c Set.univ (grid4.coords t) ((hFirst4 t).mpr h0) (fun h => h7 ((hLast4 t).mp h)) _ _ _ _ _ _ _ _ (iblk4 V c 0 t) (iblk4 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS, Hrest⟩, Hg⟩, Ho, ⟨%d0, H0⟩, ⟨%d1, H1⟩, ⟨%d2, H2⟩⟩
      iapply (sound_kernel4_A c Set.univ (grid4.coords t) ((hFirst4 t).mpr h0) (fun h => h7 ((hLast4 t).mp h)) _ _ _ _ _ _ _ _ (iblk4 V c 0 t) (iblk4 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS4_castSucc V c t, PhiS4_pos V c _ _ hz]
    rw [accAt4_next V c t h0]
    by_cases h7 : t.val % 8 = 7
    · rw [show (dat4 V c).leavesExact 2 t = owns (c : Thread nD τ) (st4_2 t) fullShare ((dat4 V c).after 2 t) from by
        unfold Dat.leavesExact; rw [live4_2 t h7], after4_2, accAt4_next V c t h0]
      iintro ⟨⟨⟨HS, Hrest⟩, Hg⟩, Ho, ⟨%d0, H0⟩, ⟨%d1, H1⟩, ⟨%d2, H2⟩⟩
      iapply (sound_kernel4_C c Set.univ (grid4.coords t) (fun h => h0 ((hFirst4 t).mp h)) ((hLast4 t).mpr h7) _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat4 V c) 2 t (idle4_2 t h7) (noFlush4_2 t h7)]
      iintro ⟨⟨⟨HS, Hrest⟩, Hg⟩, Ho, ⟨%d0, H0⟩, ⟨%d1, H1⟩, ⟨%d2, H2⟩⟩
      iapply (sound_kernel4_B c Set.univ (grid4.coords t) (fun h => h0 ((hFirst4 t).mp h)) (fun h => h7 ((hLast4 t).mp h)) _ _ _ _ _ _ _ _ (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

/-- What the launch hands the region is the invariant before the first point; -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- and after the last point the invariant gives it back, the accumulator's contents forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 64 := N_4; omega), PhiA4_eq]
  iintro ⟨⟨HS, Hrest⟩, Hg⟩
  isplitl [HS Hrest]
  · isplitl [HS]; · iexists _; iexact HS
    iexact Hrest
  iexact Hg

end Cert.KernelIdeal.Hand

end
-- ==== Proof.KI.R5.lean ====
/- Region 5 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 5: the row-sum kernel. One point per block of 1024 rows of the matrix; the point's result block is
    w / (Σ_k M[r,k]·v[k] + stab) for each of its rows r. -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The matrix window's staging buffer holds the point's block of rows. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The vector window's staging buffer holds the whole row vector at every point (fetched once, never moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_2 : Rect S1024x1 := Rect.unit (s := S1024x1) ![0, 0] S1024x1.size inb_S1024x1_S1024x1_0_0
abbrev r5_0 : Rect S1024x8192 := Rect.unit (s := S1024x8192) ![0, 0] S1024x8192.size inb_S1024x8192_S1024x8192_0_0
abbrev r5_1 : Rect S1x8192 := Rect.unit (s := S1x8192) ![0, 0] S1x8192.size inb_S1x8192_S1x8192_0_0

/-- The result window's staging buffer after the body: its one whole-block store of the payload. -/
def out5_2 (x0 : Vec F S1024x8192 .bf16) (x1 : Vec F S1x8192 .f32) : Vec F S1024x1 .f32 :=
  View.canon [⟨r5_2, k5_pay1 (View.ld x0 r5_0) (View.ld x1 r5_1)⟩]

theorem cover5_2 (p0 : Vec F S1024x1 .f32) (y : S1024x1.Idx) :
    ∃ pc ∈ ([⟨r5_2, p0⟩] : List (View.Piece (Elt F) S1024x1 .f32)), y ∈ pc.1.set :=
  View.cover_of_tiled [⟨r5_2, p0⟩] S1024x1.size (by rfl) y

set_option maxHeartbeats 1000000 in
/-- The body on whole staging memrefs: the inputs are handed back as read, the result's buffer holds the payload. -/
theorem sound_kernel5 (c : Dev nD) (E : Set ℕ) (i : grid5.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matvec_kernel i arg1 harg1 arg2 harg2 arg3 harg3) K := by
  simp only [cc5__matvec_kernel_eq_skeleton]; unfold cc5__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data: arrays as found; after the body each input's buffer at its block, the result's at the payload. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/- Region 6 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 6: the column-sum kernel. The grid is (column block j, row block i), i innermost; a VMEM accumulator is
    zeroed at i = 0, gains the column sums of the tile times the row weights at every i, and at i = 7 the result
    block w / (acc + stab) is stored. -/

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The body's two conditions: the row block is the first (the accumulator is zeroed), the row block is the last (the result is stored). -/
abbrev cFirst6 (i : grid6.Coords) : Prop := (Scalar.cmpi .ne (Scalar.extui (Scalar.cmpi .eq (BitVec.ofNat 32 (i 1).val) 0#32)) 0#32) = 1#1
abbrev cLast6 (i : grid6.Coords) : Prop := k6_cond2 i = 1#1
theorem hFirst6 : ∀ t : Fin cfg6.N, cFirst6 (grid6.coords t) ↔ t.val % 8 = 0 :=
  (by decide +kernel : ∀ t : Fin grid6.N, cFirst6 (grid6.coords t) ↔ t.val % 8 = 0)
theorem hLast6 : ∀ t : Fin cfg6.N, cLast6 (grid6.coords t) ↔ t.val % 8 = 7 :=
  (by decide +kernel : ∀ t : Fin grid6.N, cLast6 (grid6.coords t) ↔ t.val % 8 = 7)
theorem live6_0 : ∀ t : Fin cfg6.N, cfg6.idle 0 (grid6.coords t) = false := by decide +kernel
theorem live6_1 : ∀ t : Fin cfg6.N, cfg6.idle 1 (grid6.coords t) = false := by decide +kernel
theorem idle6_2 : ∀ t : Fin cfg6.N, ¬ t.val % 8 = 7 → cfg6.idle 2 (grid6.coords t) = true := by decide +kernel
theorem noFlush6_2 : ∀ t : Fin cfg6.N, ¬ t.val % 8 = 7 → (cfg6.win 2).flush t = false := by decide +kernel
theorem live6_2 : ∀ t : Fin cfg6.N, t.val % 8 = 7 → cfg6.idle 2 (grid6.coords t) = false := by decide +kernel

theorem hz2_6 : (![0, 0] : Fin 2 → Nat) = fun _ => 0 := by funext a; fin_cases a <;> rfl

/-- The accumulator after a point's body, from the tile, the row weights and the accumulator it started from (zero at a first row block). -/
def accNew6 (first : Prop) [Decidable first] (x0 : Vec F S1024x1024 .bf16) (x1 : Vec F S1024x1 .f32) (s : Vec F S1x1024 .f32) : Vec F S1x1024 .f32 :=
  k6_pay2 x0 (if first then k6_pay1 (F := F) else s) x1

set_option maxHeartbeats 4000000 in
/-- The body at a first row block that is not the last: the accumulator ends at the tile's weighted column sums over zero; the result's buffer is untouched. -/
theorem sound_kernel6_A (c : Dev nD) (E : Set ℕ) (i : grid6.Coords) (hc1 : cFirst6 i) (hc2 : ¬ cLast6 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k6_pay2 x0 (k6_pay1 (F := F)) x1)) -∗ K ⟨⟩))
      ⊢ wp frame (wpE (defs₀ (F := F)) Variants.none c none) E (cc6__colreduce_kernel i arg2 harg2 arg3 harg3 arg4 harg4 arg5 harg5) K := by
  simp only [cc6__colreduce_kernel_eq_skeleton]; unfold cc6__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_6 inb_S1x1024_S1x1024_0_0 y⟩)).trans ?_
  refine (View.canon_cons_unit_zero (S := S1x1024) hz2_6 inb_S1x1024_S1x1024_0_0 _ _).trans ?_
  sl_unfold_run_names
  rw [View.readCov_unit_zero (S := S1x1024) _ hz2_6, View.readAt_eq_ld, View.readAt_eq_ld, View.ld_unit_zero (S := S1024x1024) hz2_6, View.ld_unit_zero (S := S1024x1) hz2_6]

set_option maxHeartbeats 4000000 in
/-- The body at a row block neither first nor last: the accumulator gains the tile's weighted column sums; the result's buffer is untouched. -/
theorem sound_kernel6_B (c : Dev nD) (E : Set ℕ) (i : grid6.Coords) (hc1 : ¬ cFirst6 i) (hc2 : ¬ cLast6 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k6_pay2 x0 s x1)) -∗ K ⟨⟩))
      ⊢ wp frame (wpE (defs₀ (F := F)) Variants.none c none) E (cc6__colreduce_kernel i arg2 harg2 arg3 harg3 arg4 harg4 arg5 harg5) K := by
  simp only [cc6__colreduce_kernel_eq_skeleton]; unfold cc6__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_6 inb_S1x1024_S1x1024_0_0 y⟩)).trans ?_
  refine (View.canon_cons_unit_zero (S := S1x1024) hz2_6 inb_S1x1024_S1x1024_0_0 _ _).trans ?_
  simp only [View.readAt_eq_ld, View.ld_unit_zero (S := S1024x1024) hz2_6, View.ld_unit_zero (S := S1x1024) hz2_6, View.ld_unit_zero (S := S1024x1) hz2_6]

set_option maxHeartbeats 4000000 in
/-- The body at the last row block (never the first): the accumulator gains the tile's weighted column sums and the result's buffer
    is stored w / (accumulator + stab). -/
theorem sound_kernel6_C (c : Dev nD) (E : Set ℕ) (i : grid6.Coords) (hc1 : ¬ cFirst6 i) (hc2 : cLast6 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k6_pay3 (k6_pay2 x0 s x1))
            ∗ owns (c : Thread nD τ) arg5 fullShare (k6_pay2 x0 s x1)) -∗ K ⟨⟩))
      ⊢ wp frame (wpE (defs₀ (F := F)) Variants.none c none) E (cc6__colreduce_kernel i arg2 harg2 arg3 harg3 arg4 harg4 arg5 harg5) K := by
  simp only [cc6__colreduce_kernel_eq_skeleton]; unfold cc6__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_6 inb_S1x1024_S1x1024_0_0 y⟩)).trans ?_
    refine (View.canon_cons_unit_zero (S := S1x1024) hz2_6 inb_S1x1024_S1x1024_0_0 _ _).trans ?_
    sl_unfold_run_names
    rw [View.readCov_unit_zero (S := S1x1024) _ hz2_6]
    simp only [View.readAt_eq_ld, View.ld_unit_zero (S := S1024x1024) hz2_6, View.ld_unit_zero (S := S1x1024) hz2_6, View.ld_unit_zero (S := S1024x1) hz2_6]
  iexists _; isplitr
  swap; · iexact HS
  ipureintro
  refine (View.read_writes_eq_canon _ _ _ (fun y => ⟨_, List.mem_cons_self, View.mem_set_unit_zero (S := S1x1024) hz2_6 inb_S1x1024_S1x1024_0_0 y⟩)).trans ?_
  refine (View.canon_cons_unit_zero (S := S1x1024) hz2_6 inb_S1x1024_S1x1024_0_0 _ _).trans ?_
  sl_unfold_run_names
  simp only [View.readAt_eq_ld, View.ld_unit_zero (S := S1024x1024) hz2_6, View.ld_unit_zero (S := S1x1024) hz2_6, View.ld_unit_zero (S := S1024x1) hz2_6]

/-! ### The accumulator point by point, the proof data and the body obligation -/

/-- The accumulator after the body at position n: over zero at a first row block, else over what the point before left. -/
def accAt6 (c : Dev nD) : (n : ℕ) → n < cfg6.N → Vec F S1x1024 .f32
  | 0, hn => k6_pay2 (iblk6 V c 0 ⟨0, hn⟩) (k6_pay1 (F := F)) (iblk6 V c 1 ⟨0, hn⟩)
  | n + 1, hn =>
    if (n + 1) % 8 = 0 then k6_pay2 (iblk6 V c 0 ⟨n + 1, hn⟩) (k6_pay1 (F := F)) (iblk6 V c 1 ⟨n + 1, hn⟩)
    else k6_pay2 (iblk6 V c 0 ⟨n + 1, hn⟩) (accAt6 c n (Nat.lt_of_succ_lt hn)) (iblk6 V c 1 ⟨n + 1, hn⟩)

theorem accAt6_first (c : Dev nD) (t : Fin cfg6.N) (h : t.val % 8 = 0) :
    accAt6 V c t.val t.isLt = k6_pay2 (iblk6 V c 0 t) (k6_pay1 (F := F)) (iblk6 V c 1 t) := by
  obtain ⟨n, hn⟩ := t
  cases n with
  | zero => rfl
  | succ n => exact if_pos h

theorem accAt6_next (c : Dev nD) (t : Fin cfg6.N) (h : ¬ t.val % 8 = 0) :
    accAt6 V c t.val t.isLt = k6_pay2 (iblk6 V c 0 t) (accAt6 V c (t.val - 1) (Nat.lt_of_le_of_lt (Nat.sub_le _ _) t.isLt)) (iblk6 V c 1 t) := by
  obtain ⟨n, hn⟩ := t
  cases n with
  | zero => exact absurd (Nat.zero_mod _) h
  | succ n => exact if_neg h

/-- The kernel's accumulator: a whole scoped buffer of its own. -/
abbrev scM6 : Memref sig .tc .vmem S1x1024 .f32 := Memref.whole cc6_scratch0

/-- The class's invariant with the accumulator split out of the scoped rest. -/
theorem PhiA6_eq (c : Dev nD) :
    (Pipeline.ΦA spec6 c : sProp 𝕄)
      = iprop(iprop(iprop((∃ d, owns (c : Thread nD τ) scM6 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- The region invariant before position n: before the first point the class's; afterwards the accumulator at what the point
    before left, the other scoped buffers at anything, the generator register at some state. -/
def PhiS6 (c : Dev nD) : (n : ℕ) → n ≤ cfg6.N → sProp 𝕄
  | 0, _ => Pipeline.ΦA spec6 c
  | n + 1, hn => iprop(iprop(iprop(owns (c : Thread nD τ) scM6 fullShare (accAt6 V c n hn))
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6 fullShare (accAt6 V c n hn))
      ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(iprop(owns (c : Thread nD τ) scM6 fullShare (accAt6 V c (n - 1) (by omega)))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (accAt6 V c t.val t.isLt)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay3 (accAt6 V c t.val t.isLt) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point, by the point's position among the row blocks. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 64 := lt_of_lt_of_eq t.isLt (show cfg6.N = 64 from N_6)
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  by_cases h0 : t.val % 8 = 0
  · have h7 : ¬ t.val % 8 = 7 := by omega
    rw [Dat.leavesExact_idle (dat6 V c) 2 t (idle6_2 t h7) (noFlush6_2 t h7)]
    rw [accAt6_first V c t h0]
    by_cases hz : t.val = 0
    · rw [PhiS6_castSucc V c t, PhiS6_zero V c _ _ hz, PhiA6_eq]
      iintro ⟨⟨⟨HS, Hrest⟩, Hg⟩, Ho, ⟨%d0, H0⟩, ⟨%d1, H1⟩, ⟨%d2, H2⟩⟩
      iapply (sound_kernel6_A c Set.univ (grid6.coords t) ((hFirst6 t).mpr h0) (fun h => h7 ((hLast6 t).mp h)) _ _ _ _ _ _ _ _ (iblk6 V c 0 t) (iblk6 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS6_castSucc V c t, PhiS6_pos V c _ _ hz]
      iintro ⟨⟨⟨HS, Hrest⟩, Hg⟩, Ho, ⟨%d0, H0⟩, ⟨%d1, H1⟩, ⟨%d2, H2⟩⟩
      iapply (sound_kernel6_A c Set.univ (grid6.coords t) ((hFirst6 t).mpr h0) (fun h => h7 ((hLast6 t).mp h)) _ _ _ _ _ _ _ _ (iblk6 V c 0 t) (iblk6 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS6_castSucc V c t, PhiS6_pos V c _ _ hz]
    rw [accAt6_next V c t h0]
    by_cases h7 : t.val % 8 = 7
    · rw [show (dat6 V c).leavesExact 2 t = owns (c : Thread nD τ) (st6_2 t) fullShare ((dat6 V c).after 2 t) from by
        unfold Dat.leavesExact; rw [live6_2 t h7], after6_2, accAt6_next V c t h0]
      iintro ⟨⟨⟨HS, Hrest⟩, Hg⟩, Ho, ⟨%d0, H0⟩, ⟨%d1, H1⟩, ⟨%d2, H2⟩⟩
      iapply (sound_kernel6_C c Set.univ (grid6.coords t) (fun h => h0 ((hFirst6 t).mp h)) ((hLast6 t).mpr h7) _ _ _ _ _ _ _ _ (iblk6 V c 0 t) (iblk6 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat6 V c) 2 t (idle6_2 t h7) (noFlush6_2 t h7)]
      iintro ⟨⟨⟨HS, Hrest⟩, Hg⟩, Ho, ⟨%d0, H0⟩, ⟨%d1, H1⟩, ⟨%d2, H2⟩⟩
      iapply (sound_kernel6_B c Set.univ (grid6.coords t) (fun h => h0 ((hFirst6 t).mp h)) (fun h => h7 ((hLast6 t).mp h)) _ _ _ _ _ _ _ _ (iblk6 V c 0 t) (iblk6 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation6 (c : Dev nD) : BodyObligation (dat6 (F := F) V c) (defs₀ (F := F)) Variants.none () Set.univ := fun t => by
  rw [bigSep_W6, bigSep_W6]
  exact sound_body6 V c t

/-- What the launch hands the region is the invariant before the first point; -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- and after the last point the invariant gives it back, the accumulator's contents forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 64 := N_6; omega), PhiA6_eq]
  iintro ⟨⟨HS, Hrest⟩, Hg⟩
  isplitl [HS Hrest]
  · isplitl [HS]; · iexists _; iexact HS
    iexact Hrest
  iexact Hg

end Cert.KernelIdeal.Hand

end
-- ==== Proof.KI.R7.lean ====
/- Region 7 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 7: the row-sum kernel. One point per block of 1024 rows of the matrix; the point's result block is
    w / (Σ_k M[r,k]·v[k] + stab) for each of its rows r. -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The matrix window's staging buffer holds the point's block of rows. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The vector window's staging buffer holds the whole row vector at every point (fetched once, never moved). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_2 : Rect S1024x1 := Rect.unit (s := S1024x1) ![0, 0] S1024x1.size inb_S1024x1_S1024x1_0_0
abbrev r7_0 : Rect S1024x8192 := Rect.unit (s := S1024x8192) ![0, 0] S1024x8192.size inb_S1024x8192_S1024x8192_0_0
abbrev r7_1 : Rect S1x8192 := Rect.unit (s := S1x8192) ![0, 0] S1x8192.size inb_S1x8192_S1x8192_0_0

/-- The result window's staging buffer after the body: its one whole-block store of the payload. -/
def out7_2 (x0 : Vec F S1024x8192 .bf16) (x1 : Vec F S1x8192 .f32) : Vec F S1024x1 .f32 :=
  View.canon [⟨r7_2, k7_pay1 (View.ld x0 r7_0) (View.ld x1 r7_1)⟩]

theorem cover7_2 (p0 : Vec F S1024x1 .f32) (y : S1024x1.Idx) :
    ∃ pc ∈ ([⟨r7_2, p0⟩] : List (View.Piece (Elt F) S1024x1 .f32)), y ∈ pc.1.set :=
  View.cover_of_tiled [⟨r7_2, p0⟩] S1024x1.size (by rfl) y

set_option maxHeartbeats 1000000 in
/-- The body on whole staging memrefs: the inputs are handed back as read, the result's buffer holds the payload. -/
theorem sound_kernel7 (c : Dev nD) (E : Set ℕ) (i : grid7.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__matvec_kernel i arg1 harg1 arg2 harg2 arg3 harg3) K := by
  simp only [cc7__matvec_kernel_eq_skeleton]; unfold cc7__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The region's proof data: arrays as found; after the body each input's buffer at its block, the result's at the payload. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
/- Region 8 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 8: the column-sum kernel. The grid is (column block j, row block i), i innermost; a VMEM accumulator is
    zeroed at i = 0, gains the column sums of the tile times the row weights at every i, and at i = 7 the result
    block w / (acc + stab) is stored. -/

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The body's two conditions: the row block is the first (the accumulator is zeroed), the row block is the last (the result is stored). -/
abbrev cFirst8 (i : grid8.Coords) : Prop := (Scalar.cmpi .ne (Scalar.extui (Scalar.cmpi .eq (BitVec.ofNat 32 (i 1).val) 0#32)) 0#32) = 1#1
abbrev cLast8 (i : grid8.Coords) : Prop := k8_cond2 i = 1#1
theorem hFirst8 : ∀ t : Fin cfg8.N, cFirst8 (grid8.coords t) ↔ t.val % 8 = 0 :=
  (by decide +kernel : ∀ t : Fin grid8.N, cFirst8 (grid8.coords t) ↔ t.val % 8 = 0)
theorem hLast8 : ∀ t : Fin cfg8.N, cLast8 (grid8.coords t) ↔ t.val % 8 = 7 :=
  (by decide +kernel : ∀ t : Fin grid8.N, cLast8 (grid8.coords t) ↔ t.val % 8 = 7)
theorem live8_0 : ∀ t : Fin cfg8.N, cfg8.idle 0 (grid8.coords t) = false := by decide +kernel
theorem live8_1 : ∀ t : Fin cfg8.N, cfg8.idle 1 (grid8.coords t) = false := by decide +kernel
theorem idle8_2 : ∀ t : Fin cfg8.N, ¬ t.val % 8 = 7 → cfg8.idle 2 (grid8.coords t) = true := by decide +kernel
theorem noFlush8_2 : ∀ t : Fin cfg8.N, ¬ t.val % 8 = 7 → (cfg8.win 2).flush t = false := by decide +kernel
theorem live8_2 : ∀ t : Fin cfg8.N, t.val % 8 = 7 → cfg8.idle 2 (grid8.coords t) = false := by decide +kernel

theorem hz2_8 : (![0, 0] : Fin 2 → Nat) = fun _ => 0 := by funext a; fin_cases a <;> rfl

/-- The accumulator after a point's body, from the tile, the row weights and the accumulator it started from (zero at a first row block). -/
def accNew8 (first : Prop) [Decidable first] (x0 : Vec F S1024x1024 .bf16) (x1 : Vec F S1024x1 .f32) (s : Vec F S1x1024 .f32) : Vec F S1x1024 .f32 :=
  k8_pay2 x0 (if first then k8_pay1 (F := F) else s) x1

set_option maxHeartbeats 4000000 in
/-- The body at a first row block that is not the last: the accumulator ends at the tile's weighted column sums over zero; the result's buffer is untouched. -/
theorem sound_kernel8_A (c : Dev nD) (E : Set ℕ) (i : grid8.Coords) (hc1 : cFirst8 i) (hc2 : ¬ cLast8 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k8_pay2 x0 (k8_pay1 (F := F)) x1)) -∗ K ⟨⟩))
      ⊢ wp frame (wpE (defs₀ (F := F)) Variants.none c none) E (cc8__colreduce_kernel i arg2 harg2 arg3 harg3 arg4 harg4 arg5 harg5) K := by
  simp only [cc8__colreduce_kernel_eq_skeleton]; unfold cc8__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_8 inb_S1x1024_S1x1024_0_0 y⟩)).trans ?_
  refine (View.canon_cons_unit_zero (S := S1x1024) hz2_8 inb_S1x1024_S1x1024_0_0 _ _).trans ?_
  sl_unfold_run_names
  rw [View.readCov_unit_zero (S := S1x1024) _ hz2_8, View.readAt_eq_ld, View.readAt_eq_ld, View.ld_unit_zero (S := S1024x1024) hz2_8, View.ld_unit_zero (S := S1024x1) hz2_8]

set_option maxHeartbeats 4000000 in
/-- The body at a row block neither first nor last: the accumulator gains the tile's weighted column sums; the result's buffer is untouched. -/
theorem sound_kernel8_B (c : Dev nD) (E : Set ℕ) (i : grid8.Coords) (hc1 : ¬ cFirst8 i) (hc2 : ¬ cLast8 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k8_pay2 x0 s x1)) -∗ K ⟨⟩))
      ⊢ wp frame (wpE (defs₀ (F := F)) Variants.none c none) E (cc8__colreduce_kernel i arg2 harg2 arg3 harg3 arg4 harg4 arg5 harg5) K := by
  simp only [cc8__colreduce_kernel_eq_skeleton]; unfold cc8__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_8 inb_S1x1024_S1x1024_0_0 y⟩)).trans ?_
  refine (View.canon_cons_unit_zero (S := S1x1024) hz2_8 inb_S1x1024_S1x1024_0_0 _ _).trans ?_
  simp only [View.readAt_eq_ld, View.ld_unit_zero (S := S1024x1024) hz2_8, View.ld_unit_zero (S := S1x1024) hz2_8, View.ld_unit_zero (S := S1024x1) hz2_8]

set_option maxHeartbeats 4000000 in
/-- The body at the last row block (never the first): the accumulator gains the tile's weighted column sums and the result's buffer
    is stored w / (accumulator + stab). -/
theorem sound_kernel8_C (c : Dev nD) (E : Set ℕ) (i : grid8.Coords) (hc1 : ¬ cFirst8 i) (hc2 : cLast8 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k8_pay3 (k8_pay2 x0 s x1))
            ∗ owns (c : Thread nD τ) arg5 fullShare (k8_pay2 x0 s x1)) -∗ K ⟨⟩))
      ⊢ wp frame (wpE (defs₀ (F := F)) Variants.none c none) E (cc8__colreduce_kernel i arg2 harg2 arg3 harg3 arg4 harg4 arg5 harg5) K := by
  simp only [cc8__colreduce_kernel_eq_skeleton]; unfold cc8__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_8 inb_S1x1024_S1x1024_0_0 y⟩)).trans ?_
    refine (View.canon_cons_unit_zero (S := S1x1024) hz2_8 inb_S1x1024_S1x1024_0_0 _ _).trans ?_
    sl_unfold_run_names
    rw [View.readCov_unit_zero (S := S1x1024) _ hz2_8]
    simp only [View.readAt_eq_ld, View.ld_unit_zero (S := S1024x1024) hz2_8, View.ld_unit_zero (S := S1x1024) hz2_8, View.ld_unit_zero (S := S1024x1) hz2_8]
  iexists _; isplitr
  swap; · iexact HS
  ipureintro
  refine (View.read_writes_eq_canon _ _ _ (fun y => ⟨_, List.mem_cons_self, View.mem_set_unit_zero (S := S1x1024) hz2_8 inb_S1x1024_S1x1024_0_0 y⟩)).trans ?_
  refine (View.canon_cons_unit_zero (S := S1x1024) hz2_8 inb_S1x1024_S1x1024_0_0 _ _).trans ?_
  sl_unfold_run_names
  simp only [View.readAt_eq_ld, View.ld_unit_zero (S := S1024x1024) hz2_8, View.ld_unit_zero (S := S1x1024) hz2_8, View.ld_unit_zero (S := S1024x1) hz2_8]

/-! ### The accumulator point by point, the proof data and the body obligation -/

/-- The accumulator after the body at position n: over zero at a first row block, else over what the point before left. -/
def accAt8 (c : Dev nD) : (n : ℕ) → n < cfg8.N → Vec F S1x1024 .f32
  | 0, hn => k8_pay2 (iblk8 V c 0 ⟨0, hn⟩) (k8_pay1 (F := F)) (iblk8 V c 1 ⟨0, hn⟩)
  | n + 1, hn =>
    if (n + 1) % 8 = 0 then k8_pay2 (iblk8 V c 0 ⟨n + 1, hn⟩) (k8_pay1 (F := F)) (iblk8 V c 1 ⟨n + 1, hn⟩)
    else k8_pay2 (iblk8 V c 0 ⟨n + 1, hn⟩) (accAt8 c n (Nat.lt_of_succ_lt hn)) (iblk8 V c 1 ⟨n + 1, hn⟩)

theorem accAt8_first (c : Dev nD) (t : Fin cfg8.N) (h : t.val % 8 = 0) :
    accAt8 V c t.val t.isLt = k8_pay2 (iblk8 V c 0 t) (k8_pay1 (F := F)) (iblk8 V c 1 t) := by
  obtain ⟨n, hn⟩ := t
  cases n with
  | zero => rfl
  | succ n => exact if_pos h

theorem accAt8_next (c : Dev nD) (t : Fin cfg8.N) (h : ¬ t.val % 8 = 0) :
    accAt8 V c t.val t.isLt = k8_pay2 (iblk8 V c 0 t) (accAt8 V c (t.val - 1) (Nat.lt_of_le_of_lt (Nat.sub_le _ _) t.isLt)) (iblk8 V c 1 t) := by
  obtain ⟨n, hn⟩ := t
  cases n with
  | zero => exact absurd (Nat.zero_mod _) h
  | succ n => exact if_neg h

/-- The kernel's accumulator: a whole scoped buffer of its own. -/
abbrev scM8 : Memref sig .tc .vmem S1x1024 .f32 := Memref.whole cc8_scratch0

/-- The class's invariant with the accumulator split out of the scoped rest. -/
theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-- The region invariant before position n: before the first point the class's; afterwards the accumulator at what the point
    before left, the other scoped buffers at anything, the generator register at some state. -/
def PhiS8 (c : Dev nD) : (n : ℕ) → n ≤ cfg8.N → sProp 𝕄
  | 0, _ => Pipeline.ΦA spec8 c
  | n + 1, hn => iprop(iprop(iprop(owns (c : Thread nD τ) scM8 fullShare (accAt8 V c n hn))
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(iprop(owns (c : Thread nD τ) scM8 fullShare (accAt8 V c n hn))
      ∗ Pipeline.scopedRestBut (Ix := Unit) (Name := ℕ) (U := UR sig nD τ) (Lvl := ℕ) (Val := Elt F) spec8 c [cc8_scratch0]) ∗ (∃ r, prngReg c r)) := rfl
theorem PhiS8_pos (c : Dev nD) (n : ℕ) (h : n ≤ cfg8.N) (hz : n ≠ 0) :
    PhiS8 V c n h = iprop(iprop(iprop(owns (c : Thread nD τ) scM8 fullShare (accAt8 V c (n - 1) (by omega)))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay3 (accAt8 V c t.val t.isLt)
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = k8_pay3 (accAt8 V c t.val t.isLt) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point, by the point's position among the row blocks. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (st8_0 t) fullShare ((dat8 V c).after 0 t) from by
    unfold Dat.leavesExact; rw [live8_0 t], after8_0]
  rw [show (dat8 V c).leavesExact 1 t = owns (c : Thread nD τ) (st8_1 t) fullShare ((dat8 V c).after 1 t) from by
    unfold Dat.leavesExact; rw [live8_1 t], after8_1]
  by_cases h0 : t.val % 8 = 0
  · have h7 : ¬ t.val % 8 = 7 := by omega
    rw [Dat.leavesExact_idle (dat8 V c) 2 t (idle8_2 t h7) (noFlush8_2 t h7)]
    rw [accAt8_first V c t h0]
    by_cases hz : t.val = 0
    · rw [PhiS8_castSucc V c t, PhiS8_zero V c _ _ hz, PhiA8_eq]
      iintro ⟨⟨⟨HS, Hrest⟩, Hg⟩, Ho, ⟨%d0, H0⟩, ⟨%d1, H1⟩, ⟨%d2, H2⟩⟩
      iapply (sound_kernel8_A c Set.univ (grid8.coords t) ((hFirst8 t).mpr h0) (fun h => h7 ((hLast8 t).mp h)) _ _ _ _ _ _ _ _ (iblk8 V c 0 t) (iblk8 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS8_castSucc V c t, PhiS8_pos V c _ _ hz]
      iintro ⟨⟨⟨HS, Hrest⟩, Hg⟩, Ho, ⟨%d0, H0⟩, ⟨%d1, H1⟩, ⟨%d2, H2⟩⟩
      iapply (sound_kernel8_A c Set.univ (grid8.coords t) ((hFirst8 t).mpr h0) (fun h => h7 ((hLast8 t).mp h)) _ _ _ _ _ _ _ _ (iblk8 V c 0 t) (iblk8 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS8_castSucc V c t, PhiS8_pos V c _ _ hz]
    rw [accAt8_next V c t h0]
    by_cases h7 : t.val % 8 = 7
    · rw [show (dat8 V c).leavesExact 2 t = owns (c : Thread nD τ) (st8_2 t) fullShare ((dat8 V c).after 2 t) from by
        unfold Dat.leavesExact; rw [live8_2 t h7], after8_2, accAt8_next V c t h0]
      iintro ⟨⟨⟨HS, Hrest⟩, Hg⟩, Ho, ⟨%d0, H0⟩, ⟨%d1, H1⟩, ⟨%d2, H2⟩⟩
      iapply (sound_kernel8_C c Set.univ (grid8.coords t) (fun h => h0 ((hFirst8 t).mp h)) ((hLast8 t).mpr h7) _ _ _ _ _ _ _ _ (iblk8 V c 0 t) (iblk8 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat8 V c) 2 t (idle8_2 t h7) (noFlush8_2 t h7)]
      iintro ⟨⟨⟨HS, Hrest⟩, Hg⟩, Ho, ⟨%d0, H0⟩, ⟨%d1, H1⟩, ⟨%d2, H2⟩⟩
      iapply (sound_kernel8_B c Set.univ (grid8.coords t) (fun h => h0 ((hFirst8 t).mp h)) (fun h => h7 ((hLast8 t).mp h)) _ _ _ _ _ _ _ _ (iblk8 V c 0 t) (iblk8 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

/-- What the launch hands the region is the invariant before the first point; -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- and after the last point the invariant gives it back, the accumulator's contents forgotten. -/
theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 64 := N_8; omega), PhiA8_eq]
  iintro ⟨⟨HS, Hrest⟩, Hg⟩
  isplitl [HS Hrest]
  · isplitl [HS]; · iexists _; iexact HS
    iexact Hrest
  iexact Hg

end Cert.KernelIdeal.Hand

end
-- ==== Proof.KI.R9.lean ====
/- Region 9 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 9: the row-sum kernel. One point per block of 1024 rows of the matrix; the point's result block is
    w / (Σ_k M[r,k]·v[k] + stab) for each of its rows r. -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The matrix window's staging buffer holds the point's block of rows. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The vector window's staging buffer holds the whole row vector at every point (fetched once, never moved). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev r9_2 : Rect S1024x1 := Rect.unit (s := S1024x1) ![0, 0] S1024x1.size inb_S1024x1_S1024x1_0_0
abbrev r9_0 : Rect S1024x8192 := Rect.unit (s := S1024x8192) ![0, 0] S1024x8192.size inb_S1024x8192_S1024x8192_0_0
abbrev r9_1 : Rect S1x8192 := Rect.unit (s := S1x8192) ![0, 0] S1x8192.size inb_S1x8192_S1x8192_0_0

/-- The result window's staging buffer after the body: its one whole-block store of the payload. -/
def out9_2 (x0 : Vec F S1024x8192 .bf16) (x1 : Vec F S1x8192 .f32) : Vec F S1024x1 .f32 :=
  View.canon [⟨r9_2, k9_pay1 (View.ld x0 r9_0) (View.ld x1 r9_1)⟩]

theorem cover9_2 (p0 : Vec F S1024x1 .f32) (y : S1024x1.Idx) :
    ∃ pc ∈ ([⟨r9_2, p0⟩] : List (View.Piece (Elt F) S1024x1 .f32)), y ∈ pc.1.set :=
  View.cover_of_tiled [⟨r9_2, p0⟩] S1024x1.size (by rfl) y

set_option maxHeartbeats 1000000 in
/-- The body on whole staging memrefs: the inputs are handed back as read, the result's buffer holds the payload. -/
theorem sound_kernel9 (c : Dev nD) (E : Set ℕ) (i : grid9.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matvec_kernel i arg1 harg1 arg2 harg2 arg3 harg3) K := by
  simp only [cc9__matvec_kernel_eq_skeleton]; unfold cc9__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The region's proof data: arrays as found; after the body each input's buffer at its block, the result's at the payload. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10.lean ====
/- Region 10 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 10: the column-sum kernel. The grid is (column block j, row block i), i innermost; a VMEM accumulator is
    zeroed at i = 0, gains the column sums of the tile times the row weights at every i, and at i = 7 the result
    block w / (acc + stab) is stored. -/

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The body's two conditions: the row block is the first (the accumulator is zeroed), the row block is the last (the result is stored). -/
abbrev cFirst10 (i : grid10.Coords) : Prop := (Scalar.cmpi .ne (Scalar.extui (Scalar.cmpi .eq (BitVec.ofNat 32 (i 1).val) 0#32)) 0#32) = 1#1
abbrev cLast10 (i : grid10.Coords) : Prop := k10_cond2 i = 1#1
theorem hFirst10 : ∀ t : Fin cfg10.N, cFirst10 (grid10.coords t) ↔ t.val % 8 = 0 :=
  (by decide +kernel : ∀ t : Fin grid10.N, cFirst10 (grid10.coords t) ↔ t.val % 8 = 0)
theorem hLast10 : ∀ t : Fin cfg10.N, cLast10 (grid10.coords t) ↔ t.val % 8 = 7 :=
  (by decide +kernel : ∀ t : Fin grid10.N, cLast10 (grid10.coords t) ↔ t.val % 8 = 7)
theorem live10_0 : ∀ t : Fin cfg10.N, cfg10.idle 0 (grid10.coords t) = false := by decide +kernel
theorem live10_1 : ∀ t : Fin cfg10.N, cfg10.idle 1 (grid10.coords t) = false := by decide +kernel
theorem idle10_2 : ∀ t : Fin cfg10.N, ¬ t.val % 8 = 7 → cfg10.idle 2 (grid10.coords t) = true := by decide +kernel
theorem noFlush10_2 : ∀ t : Fin cfg10.N, ¬ t.val % 8 = 7 → (cfg10.win 2).flush t = false := by decide +kernel
theorem live10_2 : ∀ t : Fin cfg10.N, t.val % 8 = 7 → cfg10.idle 2 (grid10.coords t) = false := by decide +kernel

theorem hz2_10 : (![0, 0] : Fin 2 → Nat) = fun _ => 0 := by funext a; fin_cases a <;> rfl

/-- The accumulator after a point's body, from the tile, the row weights and the accumulator it started from (zero at a first row block). -/
def accNew10 (first : Prop) [Decidable first] (x0 : Vec F S1024x1024 .bf16) (x1 : Vec F S1024x1 .f32) (s : Vec F S1x1024 .f32) : Vec F S1x1024 .f32 :=
  k10_pay2 x0 (if first then k10_pay1 (F := F) else s) x1

set_option maxHeartbeats 4000000 in
/-- The body at a first row block that is not the last: the accumulator ends at the tile's weighted column sums over zero; the result's buffer is untouched. -/
theorem sound_kernel10_A (c : Dev nD) (E : Set ℕ) (i : grid10.Coords) (hc1 : cFirst10 i) (hc2 : ¬ cLast10 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k10_pay2 x0 (k10_pay1 (F := F)) x1)) -∗ K ⟨⟩))
      ⊢ wp frame (wpE (defs₀ (F := F)) Variants.none c none) E (cc10__colreduce_kernel i arg2 harg2 arg3 harg3 arg4 harg4 arg5 harg5) K := by
  simp only [cc10__colreduce_kernel_eq_skeleton]; unfold cc10__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_10 inb_S1x1024_S1x1024_0_0 y⟩)).trans ?_
  refine (View.canon_cons_unit_zero (S := S1x1024) hz2_10 inb_S1x1024_S1x1024_0_0 _ _).trans ?_
  sl_unfold_run_names
  rw [View.readCov_unit_zero (S := S1x1024) _ hz2_10, View.readAt_eq_ld, View.readAt_eq_ld, View.ld_unit_zero (S := S1024x1024) hz2_10, View.ld_unit_zero (S := S1024x1) hz2_10]

set_option maxHeartbeats 4000000 in
/-- The body at a row block neither first nor last: the accumulator gains the tile's weighted column sums; the result's buffer is untouched. -/
theorem sound_kernel10_B (c : Dev nD) (E : Set ℕ) (i : grid10.Coords) (hc1 : ¬ cFirst10 i) (hc2 : ¬ cLast10 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k10_pay2 x0 s x1)) -∗ K ⟨⟩))
      ⊢ wp frame (wpE (defs₀ (F := F)) Variants.none c none) E (cc10__colreduce_kernel i arg2 harg2 arg3 harg3 arg4 harg4 arg5 harg5) K := by
  simp only [cc10__colreduce_kernel_eq_skeleton]; unfold cc10__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_10 inb_S1x1024_S1x1024_0_0 y⟩)).trans ?_
  refine (View.canon_cons_unit_zero (S := S1x1024) hz2_10 inb_S1x1024_S1x1024_0_0 _ _).trans ?_
  simp only [View.readAt_eq_ld, View.ld_unit_zero (S := S1024x1024) hz2_10, View.ld_unit_zero (S := S1x1024) hz2_10, View.ld_unit_zero (S := S1024x1) hz2_10]

set_option maxHeartbeats 4000000 in
/-- The body at the last row block (never the first): the accumulator gains the tile's weighted column sums and the result's buffer
    is stored w / (accumulator + stab). -/
theorem sound_kernel10_C (c : Dev nD) (E : Set ℕ) (i : grid10.Coords) (hc1 : ¬ cFirst10 i) (hc2 : cLast10 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k10_pay3 (k10_pay2 x0 s x1))
            ∗ owns (c : Thread nD τ) arg5 fullShare (k10_pay2 x0 s x1)) -∗ K ⟨⟩))
      ⊢ wp frame (wpE (defs₀ (F := F)) Variants.none c none) E (cc10__colreduce_kernel i arg2 harg2 arg3 harg3 arg4 harg4 arg5 harg5) K := by
  simp only [cc10__colreduce_kernel_eq_skeleton]; unfold cc10__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_10 inb_S1x1024_S1x1024_0_0 y⟩)).trans ?_
    refine (View.canon_cons_unit_zero (S := S1x1024) hz2_10 inb_S1x1024_S1x1024_0_0 _ _).trans ?_
    sl_unfold_run_names
    rw [View.readCov_unit_zero (S := S1x1024) _ hz2_10]
    simp only [View.readAt_eq_ld, View.ld_unit_zero (S := S1024x1024) hz2_10, View.ld_unit_zero (S := S1x1024) hz2_10, View.ld_unit_zero (S := S1024x1) hz2_10]
  iexists _; isplitr
  swap; · iexact HS
  ipureintro
  refine (View.read_writes_eq_canon _ _ _ (fun y => ⟨_, List.mem_cons_self, View.mem_set_unit_zero (S := S1x1024) hz2_10 inb_S1x1024_S1x1024_0_0 y⟩)).trans ?_
  refine (View.canon_cons_unit_zero (S := S1x1024) hz2_10 inb_S1x1024_S1x1024_0_0 _ _).trans ?_
  sl_unfold_run_names
  simp only [View.readAt_eq_ld, View.ld_unit_zero (S := S1024x1024) hz2_10, View.ld_unit_zero (S := S1x1024) hz2_10, View.ld_unit_zero (S := S1024x1) hz2_10]

/-! ### The accumulator point by point, the proof data and the body obligation -/

/-- The accumulator after the body at position n: over zero at a first row block, else over what the point before left. -/
def accAt10 (c : Dev nD) : (n : ℕ) → n < cfg10.N → Vec F S1x1024 .f32
  | 0, hn => k10_pay2 (iblk10 V c 0 ⟨0, hn⟩) (k10_pay1 (F := F)) (iblk10 V c 1 ⟨0, hn⟩)
  | n + 1, hn =>
    if (n + 1) % 8 = 0 then k10_pay2 (iblk10 V c 0 ⟨n + 1, hn⟩) (k10_pay1 (F := F)) (iblk10 V c 1 ⟨n + 1, hn⟩)
    else k10_pay2 (iblk10 V c 0 ⟨n + 1, hn⟩) (accAt10 c n (Nat.lt_of_succ_lt hn)) (iblk10 V c 1 ⟨n + 1, hn⟩)

theorem accAt10_first (c : Dev nD) (t : Fin cfg10.N) (h : t.val % 8 = 0) :
    accAt10 V c t.val t.isLt = k10_pay2 (iblk10 V c 0 t) (k10_pay1 (F := F)) (iblk10 V c 1 t) := by
  obtain ⟨n, hn⟩ := t
  cases n with
  | zero => rfl
  | succ n => exact if_pos h

theorem accAt10_next (c : Dev nD) (t : Fin cfg10.N) (h : ¬ t.val % 8 = 0) :
    accAt10 V c t.val t.isLt = k10_pay2 (iblk10 V c 0 t) (accAt10 V c (t.val - 1) (Nat.lt_of_le_of_lt (Nat.sub_le _ _) t.isLt)) (iblk10 V c 1 t) := by
  obtain ⟨n, hn⟩ := t
  cases n with
  | zero => exact absurd (Nat.zero_mod _) h
  | succ n => exact if_neg h

/-- The kernel's accumulator: a whole scoped buffer of its own. -/
abbrev scM10 : Memref sig .tc .vmem S1x1024 .f32 := Memref.whole cc10_scratch0

/-- The class's invariant with the accumulator split out of the scoped rest. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-- The region invariant before position n: before the first point the class's; afterwards the accumulator at what the point
    before left, the other scoped buffers at anything, the generator register at some state. -/
def PhiS10 (c : Dev nD) : (n : ℕ) → n ≤ cfg10.N → sProp 𝕄
  | 0, _ => Pipeline.ΦA spec10 c
  | n + 1, hn => iprop(iprop(iprop(owns (c : Thread nD τ) scM10 fullShare (accAt10 V c n hn))
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(iprop(owns (c : Thread nD τ) scM10 fullShare (accAt10 V c n hn))
      ∗ Pipeline.scopedRestBut (Ix := Unit) (Name := ℕ) (U := UR sig nD τ) (Lvl := ℕ) (Val := Elt F) spec10 c [cc10_scratch0]) ∗ (∃ r, prngReg c r)) := rfl
theorem PhiS10_pos (c : Dev nD) (n : ℕ) (h : n ≤ cfg10.N) (hz : n ≠ 0) :
    PhiS10 V c n h = iprop(iprop(iprop(owns (c : Thread nD τ) scM10 fullShare (accAt10 V c (n - 1) (by omega)))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (accAt10 V c t.val t.isLt)
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay3 (accAt10 V c t.val t.isLt) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point, by the point's position among the row blocks. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 64 := lt_of_lt_of_eq t.isLt (show cfg10.N = 64 from N_10)
  rw [show (dat10 V c).leavesExact 0 t = owns (c : Thread nD τ) (st10_0 t) fullShare ((dat10 V c).after 0 t) from by
    unfold Dat.leavesExact; rw [live10_0 t], after10_0]
  rw [show (dat10 V c).leavesExact 1 t = owns (c : Thread nD τ) (st10_1 t) fullShare ((dat10 V c).after 1 t) from by
    unfold Dat.leavesExact; rw [live10_1 t], after10_1]
  by_cases h0 : t.val % 8 = 0
  · have h7 : ¬ t.val % 8 = 7 := by omega
    rw [Dat.leavesExact_idle (dat10 V c) 2 t (idle10_2 t h7) (noFlush10_2 t h7)]
    rw [accAt10_first V c t h0]
    by_cases hz : t.val = 0
    · rw [PhiS10_castSucc V c t, PhiS10_zero V c _ _ hz, PhiA10_eq]
      iintro ⟨⟨⟨HS, Hrest⟩, Hg⟩, Ho, ⟨%d0, H0⟩, ⟨%d1, H1⟩, ⟨%d2, H2⟩⟩
      iapply (sound_kernel10_A c Set.univ (grid10.coords t) ((hFirst10 t).mpr h0) (fun h => h7 ((hLast10 t).mp h)) _ _ _ _ _ _ _ _ (iblk10 V c 0 t) (iblk10 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS10_castSucc V c t, PhiS10_pos V c _ _ hz]
      iintro ⟨⟨⟨HS, Hrest⟩, Hg⟩, Ho, ⟨%d0, H0⟩, ⟨%d1, H1⟩, ⟨%d2, H2⟩⟩
      iapply (sound_kernel10_A c Set.univ (grid10.coords t) ((hFirst10 t).mpr h0) (fun h => h7 ((hLast10 t).mp h)) _ _ _ _ _ _ _ _ (iblk10 V c 0 t) (iblk10 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS10_castSucc V c t, PhiS10_pos V c _ _ hz]
    rw [accAt10_next V c t h0]
    by_cases h7 : t.val % 8 = 7
    · rw [show (dat10 V c).leavesExact 2 t = owns (c : Thread nD τ) (st10_2 t) fullShare ((dat10 V c).after 2 t) from by
        unfold Dat.leavesExact; rw [live10_2 t h7], after10_2, accAt10_next V c t h0]
      iintro ⟨⟨⟨HS, Hrest⟩, Hg⟩, Ho, ⟨%d0, H0⟩, ⟨%d1, H1⟩, ⟨%d2, H2⟩⟩
      iapply (sound_kernel10_C c Set.univ (grid10.coords t) (fun h => h0 ((hFirst10 t).mp h)) ((hLast10 t).mpr h7) _ _ _ _ _ _ _ _ (iblk10 V c 0 t) (iblk10 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat10 V c) 2 t (idle10_2 t h7) (noFlush10_2 t h7)]
      iintro ⟨⟨⟨HS, Hrest⟩, Hg⟩, Ho, ⟨%d0, H0⟩, ⟨%d1, H1⟩, ⟨%d2, H2⟩⟩
      iapply (sound_kernel10_B c Set.univ (grid10.coords t) (fun h => h0 ((hFirst10 t).mp h)) (fun h => h7 ((hLast10 t).mp h)) _ _ _ _ _ _ _ _ (iblk10 V c 0 t) (iblk10 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation10 (c : Dev nD) : BodyObligation (dat10 (F := F) V c) (defs₀ (F := F)) Variants.none () Set.univ := fun t => by
  rw [bigSep_W10, bigSep_W10]
  exact sound_body10 V c t

/-- What the launch hands the region is the invariant before the first point; -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- and after the last point the invariant gives it back, the accumulator's contents forgotten. -/
theorem hout10 (c : Dev nD) : (dat10 V c).Φ (Fin.last cfg10.N) ⊢ Pipeline.ΦA spec10 c := by
  rw [show (dat10 V c).Φ (Fin.last cfg10.N) = PhiS10 V c (Fin.last cfg10.N).val (Nat.le_of_lt_succ (Fin.last cfg10.N).isLt) from rfl,
    PhiS10_pos V c _ _ (by rw [Fin.val_last]; have : cfg10.N = 64 := N_10; omega), PhiA10_eq]
  iintro ⟨⟨HS, Hrest⟩, Hg⟩
  isplitl [HS Hrest]
  · isplitl [HS]; · iexists _; iexact HS
    iexact Hrest
  iexact Hg

end Cert.KernelIdeal.Hand

end
-- ==== Proof.KI.R11.lean ====
/- Region 11 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 11: the row-sum kernel. One point per block of 1024 rows of the matrix; the point's result block is
    w / (Σ_k M[r,k]·v[k] + stab) for each of its rows r. -/

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The matrix window's staging buffer holds the point's block of rows. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The vector window's staging buffer holds the whole row vector at every point (fetched once, never moved). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

abbrev r11_2 : Rect S1024x1 := Rect.unit (s := S1024x1) ![0, 0] S1024x1.size inb_S1024x1_S1024x1_0_0
abbrev r11_0 : Rect S1024x8192 := Rect.unit (s := S1024x8192) ![0, 0] S1024x8192.size inb_S1024x8192_S1024x8192_0_0
abbrev r11_1 : Rect S1x8192 := Rect.unit (s := S1x8192) ![0, 0] S1x8192.size inb_S1x8192_S1x8192_0_0

/-- The result window's staging buffer after the body: its one whole-block store of the payload. -/
def out11_2 (x0 : Vec F S1024x8192 .bf16) (x1 : Vec F S1x8192 .f32) : Vec F S1024x1 .f32 :=
  View.canon [⟨r11_2, k11_pay1 (View.ld x0 r11_0) (View.ld x1 r11_1)⟩]

theorem cover11_2 (p0 : Vec F S1024x1 .f32) (y : S1024x1.Idx) :
    ∃ pc ∈ ([⟨r11_2, p0⟩] : List (View.Piece (Elt F) S1024x1 .f32)), y ∈ pc.1.set :=
  View.cover_of_tiled [⟨r11_2, p0⟩] S1024x1.size (by rfl) y

set_option maxHeartbeats 1000000 in
/-- The body on whole staging memrefs: the inputs are handed back as read, the result's buffer holds the payload. -/
theorem sound_kernel11 (c : Dev nD) (E : Set ℕ) (i : grid11.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__matvec_kernel i arg1 harg1 arg2 harg2 arg3 harg3) K := by
  simp only [cc11__matvec_kernel_eq_skeleton]; unfold cc11__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The region's proof data: arrays as found; after the body each input's buffer at its block, the result's at the payload. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.R12.lean ====
/- Region 12 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 12: the column-sum kernel. The grid is (column block j, row block i), i innermost; a VMEM accumulator is
    zeroed at i = 0, gains the column sums of the tile times the row weights at every i, and at i = 7 the result
    block w / (acc + stab) is stored. -/

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The body's two conditions: the row block is the first (the accumulator is zeroed), the row block is the last (the result is stored). -/
abbrev cFirst12 (i : grid12.Coords) : Prop := (Scalar.cmpi .ne (Scalar.extui (Scalar.cmpi .eq (BitVec.ofNat 32 (i 1).val) 0#32)) 0#32) = 1#1
abbrev cLast12 (i : grid12.Coords) : Prop := k12_cond2 i = 1#1
theorem hFirst12 : ∀ t : Fin cfg12.N, cFirst12 (grid12.coords t) ↔ t.val % 8 = 0 :=
  (by decide +kernel : ∀ t : Fin grid12.N, cFirst12 (grid12.coords t) ↔ t.val % 8 = 0)
theorem hLast12 : ∀ t : Fin cfg12.N, cLast12 (grid12.coords t) ↔ t.val % 8 = 7 :=
  (by decide +kernel : ∀ t : Fin grid12.N, cLast12 (grid12.coords t) ↔ t.val % 8 = 7)
theorem live12_0 : ∀ t : Fin cfg12.N, cfg12.idle 0 (grid12.coords t) = false := by decide +kernel
theorem live12_1 : ∀ t : Fin cfg12.N, cfg12.idle 1 (grid12.coords t) = false := by decide +kernel
theorem idle12_2 : ∀ t : Fin cfg12.N, ¬ t.val % 8 = 7 → cfg12.idle 2 (grid12.coords t) = true := by decide +kernel
theorem noFlush12_2 : ∀ t : Fin cfg12.N, ¬ t.val % 8 = 7 → (cfg12.win 2).flush t = false := by decide +kernel
theorem live12_2 : ∀ t : Fin cfg12.N, t.val % 8 = 7 → cfg12.idle 2 (grid12.coords t) = false := by decide +kernel

theorem hz2_12 : (![0, 0] : Fin 2 → Nat) = fun _ => 0 := by funext a; fin_cases a <;> rfl

/-- The accumulator after a point's body, from the tile, the row weights and the accumulator it started from (zero at a first row block). -/
def accNew12 (first : Prop) [Decidable first] (x0 : Vec F S1024x1024 .bf16) (x1 : Vec F S1024x1 .f32) (s : Vec F S1x1024 .f32) : Vec F S1x1024 .f32 :=
  k12_pay2 x0 (if first then k12_pay1 (F := F) else s) x1

set_option maxHeartbeats 4000000 in
/-- The body at a first row block that is not the last: the accumulator ends at the tile's weighted column sums over zero; the result's buffer is untouched. -/
theorem sound_kernel12_A (c : Dev nD) (E : Set ℕ) (i : grid12.Coords) (hc1 : cFirst12 i) (hc2 : ¬ cLast12 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k12_pay2 x0 (k12_pay1 (F := F)) x1)) -∗ K ⟨⟩))
      ⊢ wp frame (wpE (defs₀ (F := F)) Variants.none c none) E (cc12__colreduce_kernel i arg2 harg2 arg3 harg3 arg4 harg4 arg5 harg5) K := by
  simp only [cc12__colreduce_kernel_eq_skeleton]; unfold cc12__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_12 inb_S1x1024_S1x1024_0_0 y⟩)).trans ?_
  refine (View.canon_cons_unit_zero (S := S1x1024) hz2_12 inb_S1x1024_S1x1024_0_0 _ _).trans ?_
  sl_unfold_run_names
  rw [View.readCov_unit_zero (S := S1x1024) _ hz2_12, View.readAt_eq_ld, View.readAt_eq_ld, View.ld_unit_zero (S := S1024x1024) hz2_12, View.ld_unit_zero (S := S1024x1) hz2_12]

set_option maxHeartbeats 4000000 in
/-- The body at a row block neither first nor last: the accumulator gains the tile's weighted column sums; the result's buffer is untouched. -/
theorem sound_kernel12_B (c : Dev nD) (E : Set ℕ) (i : grid12.Coords) (hc1 : ¬ cFirst12 i) (hc2 : ¬ cLast12 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k12_pay2 x0 s x1)) -∗ K ⟨⟩))
      ⊢ wp frame (wpE (defs₀ (F := F)) Variants.none c none) E (cc12__colreduce_kernel i arg2 harg2 arg3 harg3 arg4 harg4 arg5 harg5) K := by
  simp only [cc12__colreduce_kernel_eq_skeleton]; unfold cc12__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_12 inb_S1x1024_S1x1024_0_0 y⟩)).trans ?_
  refine (View.canon_cons_unit_zero (S := S1x1024) hz2_12 inb_S1x1024_S1x1024_0_0 _ _).trans ?_
  simp only [View.readAt_eq_ld, View.ld_unit_zero (S := S1024x1024) hz2_12, View.ld_unit_zero (S := S1x1024) hz2_12, View.ld_unit_zero (S := S1024x1) hz2_12]

set_option maxHeartbeats 4000000 in
/-- The body at the last row block (never the first): the accumulator gains the tile's weighted column sums and the result's buffer
    is stored w / (accumulator + stab). -/
theorem sound_kernel12_C (c : Dev nD) (E : Set ℕ) (i : grid12.Coords) (hc1 : ¬ cFirst12 i) (hc2 : cLast12 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k12_pay3 (k12_pay2 x0 s x1))
            ∗ owns (c : Thread nD τ) arg5 fullShare (k12_pay2 x0 s x1)) -∗ K ⟨⟩))
      ⊢ wp frame (wpE (defs₀ (F := F)) Variants.none c none) E (cc12__colreduce_kernel i arg2 harg2 arg3 harg3 arg4 harg4 arg5 harg5) K := by
  simp only [cc12__colreduce_kernel_eq_skeleton]; unfold cc12__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_12 inb_S1x1024_S1x1024_0_0 y⟩)).trans ?_
    refine (View.canon_cons_unit_zero (S := S1x1024) hz2_12 inb_S1x1024_S1x1024_0_0 _ _).trans ?_
    sl_unfold_run_names
    rw [View.readCov_unit_zero (S := S1x1024) _ hz2_12]
    simp only [View.readAt_eq_ld, View.ld_unit_zero (S := S1024x1024) hz2_12, View.ld_unit_zero (S := S1x1024) hz2_12, View.ld_unit_zero (S := S1024x1) hz2_12]
  iexists _; isplitr
  swap; · iexact HS
  ipureintro
  refine (View.read_writes_eq_canon _ _ _ (fun y => ⟨_, List.mem_cons_self, View.mem_set_unit_zero (S := S1x1024) hz2_12 inb_S1x1024_S1x1024_0_0 y⟩)).trans ?_
  refine (View.canon_cons_unit_zero (S := S1x1024) hz2_12 inb_S1x1024_S1x1024_0_0 _ _).trans ?_
  sl_unfold_run_names
  simp only [View.readAt_eq_ld, View.ld_unit_zero (S := S1024x1024) hz2_12, View.ld_unit_zero (S := S1x1024) hz2_12, View.ld_unit_zero (S := S1024x1) hz2_12]

/-! ### The accumulator point by point, the proof data and the body obligation -/

/-- The accumulator after the body at position n: over zero at a first row block, else over what the point before left. -/
def accAt12 (c : Dev nD) : (n : ℕ) → n < cfg12.N → Vec F S1x1024 .f32
  | 0, hn => k12_pay2 (iblk12 V c 0 ⟨0, hn⟩) (k12_pay1 (F := F)) (iblk12 V c 1 ⟨0, hn⟩)
  | n + 1, hn =>
    if (n + 1) % 8 = 0 then k12_pay2 (iblk12 V c 0 ⟨n + 1, hn⟩) (k12_pay1 (F := F)) (iblk12 V c 1 ⟨n + 1, hn⟩)
    else k12_pay2 (iblk12 V c 0 ⟨n + 1, hn⟩) (accAt12 c n (Nat.lt_of_succ_lt hn)) (iblk12 V c 1 ⟨n + 1, hn⟩)

theorem accAt12_first (c : Dev nD) (t : Fin cfg12.N) (h : t.val % 8 = 0) :
    accAt12 V c t.val t.isLt = k12_pay2 (iblk12 V c 0 t) (k12_pay1 (F := F)) (iblk12 V c 1 t) := by
  obtain ⟨n, hn⟩ := t
  cases n with
  | zero => rfl
  | succ n => exact if_pos h

theorem accAt12_next (c : Dev nD) (t : Fin cfg12.N) (h : ¬ t.val % 8 = 0) :
    accAt12 V c t.val t.isLt = k12_pay2 (iblk12 V c 0 t) (accAt12 V c (t.val - 1) (Nat.lt_of_le_of_lt (Nat.sub_le _ _) t.isLt)) (iblk12 V c 1 t) := by
  obtain ⟨n, hn⟩ := t
  cases n with
  | zero => exact absurd (Nat.zero_mod _) h
  | succ n => exact if_neg h

/-- The kernel's accumulator: a whole scoped buffer of its own. -/
abbrev scM12 : Memref sig .tc .vmem S1x1024 .f32 := Memref.whole cc12_scratch0

/-- The class's invariant with the accumulator split out of the scoped rest. -/
theorem PhiA12_eq (c : Dev nD) :
    (Pipeline.ΦA spec12 c : sProp 𝕄)
      = iprop(iprop(iprop((∃ d, owns (c : Thread nD τ) scM12 fullShare d))
          ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12, owns_whole]; try rfl

/-- The region invariant before position n: before the first point the class's; afterwards the accumulator at what the point
    before left, the other scoped buffers at anything, the generator register at some state. -/
def PhiS12 (c : Dev nD) : (n : ℕ) → n ≤ cfg12.N → sProp 𝕄
  | 0, _ => Pipeline.ΦA spec12 c
  | n + 1, hn => iprop(iprop(iprop(owns (c : Thread nD τ) scM12 fullShare (accAt12 V c n hn))
      ∗ Pipeline.scopedRestBut (Ix := Unit) (Name := ℕ) (U := UR sig nD τ) (Lvl := ℕ) (Val := Elt F) spec12 c [cc12_scratch0]) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(iprop(owns (c : Thread nD τ) scM12 fullShare (accAt12 V c n hn))
      ∗ Pipeline.scopedRestBut (Ix := Unit) (Name := ℕ) (U := UR sig nD τ) (Lvl := ℕ) (Val := Elt F) spec12 c [cc12_scratch0]) ∗ (∃ r, prngReg c r)) := rfl
theorem PhiS12_pos (c : Dev nD) (n : ℕ) (h : n ≤ cfg12.N) (hz : n ≠ 0) :
    PhiS12 V c n h = iprop(iprop(iprop(owns (c : Thread nD τ) scM12 fullShare (accAt12 V c (n - 1) (by omega)))
      ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => k12_pay3 (accAt12 V c t.val t.isLt)
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = k12_pay3 (accAt12 V c t.val t.isLt) := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point, by the point's position among the row blocks. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  have hN : t.val < 64 := lt_of_lt_of_eq t.isLt (show cfg12.N = 64 from N_12)
  rw [show (dat12 V c).leavesExact 0 t = owns (c : Thread nD τ) (st12_0 t) fullShare ((dat12 V c).after 0 t) from by
    unfold Dat.leavesExact; rw [live12_0 t], after12_0]
  rw [show (dat12 V c).leavesExact 1 t = owns (c : Thread nD τ) (st12_1 t) fullShare ((dat12 V c).after 1 t) from by
    unfold Dat.leavesExact; rw [live12_1 t], after12_1]
  by_cases h0 : t.val % 8 = 0
  · have h7 : ¬ t.val % 8 = 7 := by omega
    rw [Dat.leavesExact_idle (dat12 V c) 2 t (idle12_2 t h7) (noFlush12_2 t h7)]
    rw [accAt12_first V c t h0]
    by_cases hz : t.val = 0
    · rw [PhiS12_castSucc V c t, PhiS12_zero V c _ _ hz, PhiA12_eq]
      iintro ⟨⟨⟨HS, Hrest⟩, Hg⟩, Ho, ⟨%d0, H0⟩, ⟨%d1, H1⟩, ⟨%d2, H2⟩⟩
      iapply (sound_kernel12_A c Set.univ (grid12.coords t) ((hFirst12 t).mpr h0) (fun h => h7 ((hLast12 t).mp h)) _ _ _ _ _ _ _ _ (iblk12 V c 0 t) (iblk12 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS12_castSucc V c t, PhiS12_pos V c _ _ hz]
      iintro ⟨⟨⟨HS, Hrest⟩, Hg⟩, Ho, ⟨%d0, H0⟩, ⟨%d1, H1⟩, ⟨%d2, H2⟩⟩
      iapply (sound_kernel12_A c Set.univ (grid12.coords t) ((hFirst12 t).mpr h0) (fun h => h7 ((hLast12 t).mp h)) _ _ _ _ _ _ _ _ (iblk12 V c 0 t) (iblk12 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS12_castSucc V c t, PhiS12_pos V c _ _ hz]
    rw [accAt12_next V c t h0]
    by_cases h7 : t.val % 8 = 7
    · rw [show (dat12 V c).leavesExact 2 t = owns (c : Thread nD τ) (st12_2 t) fullShare ((dat12 V c).after 2 t) from by
        unfold Dat.leavesExact; rw [live12_2 t h7], after12_2, accAt12_next V c t h0]
      iintro ⟨⟨⟨HS, Hrest⟩, Hg⟩, Ho, ⟨%d0, H0⟩, ⟨%d1, H1⟩, ⟨%d2, H2⟩⟩
      iapply (sound_kernel12_C c Set.univ (grid12.coords t) (fun h => h0 ((hFirst12 t).mp h)) ((hLast12 t).mpr h7) _ _ _ _ _ _ _ _ (iblk12 V c 0 t) (iblk12 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat12 V c) 2 t (idle12_2 t h7) (noFlush12_2 t h7)]
      iintro ⟨⟨⟨HS, Hrest⟩, Hg⟩, Ho, ⟨%d0, H0⟩, ⟨%d1, H1⟩, ⟨%d2, H2⟩⟩
      iapply (sound_kernel12_B c Set.univ (grid12.coords t) (fun h => h0 ((hFirst12 t).mp h)) (fun h => h7 ((hLast12 t).mp h)) _ _ _ _ _ _ _ _ (iblk12 V c 0 t) (iblk12 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation12 (c : Dev nD) : BodyObligation (dat12 (F := F) V c) (defs₀ (F := F)) Variants.none () Set.univ := fun t => by
  rw [bigSep_W12, bigSep_W12]
  exact sound_body12 V c t

/-- What the launch hands the region is the invariant before the first point; -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- and after the last point the invariant gives it back, the accumulator's contents forgotten. -/
theorem hout12 (c : Dev nD) : (dat12 V c).Φ (Fin.last cfg12.N) ⊢ Pipeline.ΦA spec12 c := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 64 := N_12; omega), PhiA12_eq]
  iintro ⟨⟨HS, Hrest⟩, Hg⟩
  isplitl [HS Hrest]
  · isplitl [HS]; · iexists _; iexact HS
    iexact Hrest
  iexact Hg

end Cert.KernelIdeal.Hand

end
-- ==== Proof.KI.R13.lean ====
/- Region 13 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 13: the row-sum kernel. One point per block of 1024 rows of the matrix; the point's result block is
    w / (Σ_k M[r,k]·v[k] + stab) for each of its rows r. -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The matrix window's staging buffer holds the point's block of rows. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The vector window's staging buffer holds the whole row vector at every point (fetched once, never moved). -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

abbrev r13_2 : Rect S1024x1 := Rect.unit (s := S1024x1) ![0, 0] S1024x1.size inb_S1024x1_S1024x1_0_0
abbrev r13_0 : Rect S1024x8192 := Rect.unit (s := S1024x8192) ![0, 0] S1024x8192.size inb_S1024x8192_S1024x8192_0_0
abbrev r13_1 : Rect S1x8192 := Rect.unit (s := S1x8192) ![0, 0] S1x8192.size inb_S1x8192_S1x8192_0_0

/-- The result window's staging buffer after the body: its one whole-block store of the payload. -/
def out13_2 (x0 : Vec F S1024x8192 .bf16) (x1 : Vec F S1x8192 .f32) : Vec F S1024x1 .f32 :=
  View.canon [⟨r13_2, k13_pay1 (View.ld x0 r13_0) (View.ld x1 r13_1)⟩]

theorem cover13_2 (p0 : Vec F S1024x1 .f32) (y : S1024x1.Idx) :
    ∃ pc ∈ ([⟨r13_2, p0⟩] : List (View.Piece (Elt F) S1024x1 .f32)), y ∈ pc.1.set :=
  View.cover_of_tiled [⟨r13_2, p0⟩] S1024x1.size (by rfl) y

set_option maxHeartbeats 1000000 in
/-- The body on whole staging memrefs: the inputs are handed back as read, the result's buffer holds the payload. -/
theorem sound_kernel13 (c : Dev nD) (E : Set ℕ) (i : grid13.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__matvec_kernel i arg1 harg1 arg2 harg2 arg3 harg3) K := by
  simp only [cc13__matvec_kernel_eq_skeleton]; unfold cc13__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The region's proof data: arrays as found; after the body each input's buffer at its block, the result's at the payload. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.R14.lean ====
/- Region 14 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 14: the column-sum kernel. The grid is (column block j, row block i), i innermost; a VMEM accumulator is
    zeroed at i = 0, gains the column sums of the tile times the row weights at every i, and at i = 7 the result
    block w / (acc + stab) is stored. -/

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The body's two conditions: the row block is the first (the accumulator is zeroed), the row block is the last (the result is stored). -/
abbrev cFirst14 (i : grid14.Coords) : Prop := (Scalar.cmpi .ne (Scalar.extui (Scalar.cmpi .eq (BitVec.ofNat 32 (i 1).val) 0#32)) 0#32) = 1#1
abbrev cLast14 (i : grid14.Coords) : Prop := k14_cond2 i = 1#1
theorem hFirst14 : ∀ t : Fin cfg14.N, cFirst14 (grid14.coords t) ↔ t.val % 8 = 0 :=
  (by decide +kernel : ∀ t : Fin grid14.N, cFirst14 (grid14.coords t) ↔ t.val % 8 = 0)
theorem hLast14 : ∀ t : Fin cfg14.N, cLast14 (grid14.coords t) ↔ t.val % 8 = 7 :=
  (by decide +kernel : ∀ t : Fin grid14.N, cLast14 (grid14.coords t) ↔ t.val % 8 = 7)
theorem live14_0 : ∀ t : Fin cfg14.N, cfg14.idle 0 (grid14.coords t) = false := by decide +kernel
theorem live14_1 : ∀ t : Fin cfg14.N, cfg14.idle 1 (grid14.coords t) = false := by decide +kernel
theorem idle14_2 : ∀ t : Fin cfg14.N, ¬ t.val % 8 = 7 → cfg14.idle 2 (grid14.coords t) = true := by decide +kernel
theorem noFlush14_2 : ∀ t : Fin cfg14.N, ¬ t.val % 8 = 7 → (cfg14.win 2).flush t = false := by decide +kernel
theorem live14_2 : ∀ t : Fin cfg14.N, t.val % 8 = 7 → cfg14.idle 2 (grid14.coords t) = false := by decide +kernel

theorem hz2_14 : (![0, 0] : Fin 2 → Nat) = fun _ => 0 := by funext a; fin_cases a <;> rfl

/-- The accumulator after a point's body, from the tile, the row weights and the accumulator it started from (zero at a first row block). -/
def accNew14 (first : Prop) [Decidable first] (x0 : Vec F S1024x1024 .bf16) (x1 : Vec F S1024x1 .f32) (s : Vec F S1x1024 .f32) : Vec F S1x1024 .f32 :=
  k14_pay2 x0 (if first then k14_pay1 (F := F) else s) x1

set_option maxHeartbeats 4000000 in
/-- The body at a first row block that is not the last: the accumulator ends at the tile's weighted column sums over zero; the result's buffer is untouched. -/
theorem sound_kernel14_A (c : Dev nD) (E : Set ℕ) (i : grid14.Coords) (hc1 : cFirst14 i) (hc2 : ¬ cLast14 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k14_pay2 x0 (k14_pay1 (F := F)) x1)) -∗ K ⟨⟩))
      ⊢ wp frame (wpE (defs₀ (F := F)) Variants.none c none) E (cc14__colreduce_kernel i arg2 harg2 arg3 harg3 arg4 harg4 arg5 harg5) K := by
  simp only [cc14__colreduce_kernel_eq_skeleton]; unfold cc14__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_14 inb_S1x1024_S1x1024_0_0 y⟩)).trans ?_
  refine (View.canon_cons_unit_zero (S := S1x1024) hz2_14 inb_S1x1024_S1x1024_0_0 _ _).trans ?_
  sl_unfold_run_names
  rw [View.readCov_unit_zero (S := S1x1024) _ hz2_14, View.readAt_eq_ld, View.readAt_eq_ld, View.ld_unit_zero (S := S1024x1024) hz2_14, View.ld_unit_zero (S := S1024x1) hz2_14]

set_option maxHeartbeats 4000000 in
/-- The body at a row block neither first nor last: the accumulator gains the tile's weighted column sums; the result's buffer is untouched. -/
theorem sound_kernel14_B (c : Dev nD) (E : Set ℕ) (i : grid14.Coords) (hc1 : ¬ cFirst14 i) (hc2 : ¬ cLast14 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k14_pay2 x0 s x1)) -∗ K ⟨⟩))
      ⊢ wp frame (wpE (defs₀ (F := F)) Variants.none c none) E (cc14__colreduce_kernel i arg2 harg2 arg3 harg3 arg4 harg4 arg5 harg5) K := by
  simp only [cc14__colreduce_kernel_eq_skeleton]; unfold cc14__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_14 inb_S1x1024_S1x1024_0_0 y⟩)).trans ?_
  refine (View.canon_cons_unit_zero (S := S1x1024) hz2_14 inb_S1x1024_S1x1024_0_0 _ _).trans ?_
  simp only [View.readAt_eq_ld, View.ld_unit_zero (S := S1024x1024) hz2_14, View.ld_unit_zero (S := S1x1024) hz2_14, View.ld_unit_zero (S := S1024x1) hz2_14]

set_option maxHeartbeats 4000000 in
/-- The body at the last row block (never the first): the accumulator gains the tile's weighted column sums and the result's buffer
    is stored w / (accumulator + stab). -/
theorem sound_kernel14_C (c : Dev nD) (E : Set ℕ) (i : grid14.Coords) (hc1 : ¬ cFirst14 i) (hc2 : cLast14 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k14_pay3 (k14_pay2 x0 s x1))
            ∗ owns (c : Thread nD τ) arg5 fullShare (k14_pay2 x0 s x1)) -∗ K ⟨⟩))
      ⊢ wp frame (wpE (defs₀ (F := F)) Variants.none c none) E (cc14__colreduce_kernel i arg2 harg2 arg3 harg3 arg4 harg4 arg5 harg5) K := by
  simp only [cc14__colreduce_kernel_eq_skeleton]; unfold cc14__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_14 inb_S1x1024_S1x1024_0_0 y⟩)).trans ?_
    refine (View.canon_cons_unit_zero (S := S1x1024) hz2_14 inb_S1x1024_S1x1024_0_0 _ _).trans ?_
    sl_unfold_run_names
    rw [View.readCov_unit_zero (S := S1x1024) _ hz2_14]
    simp only [View.readAt_eq_ld, View.ld_unit_zero (S := S1024x1024) hz2_14, View.ld_unit_zero (S := S1x1024) hz2_14, View.ld_unit_zero (S := S1024x1) hz2_14]
  iexists _; isplitr
  swap; · iexact HS
  ipureintro
  refine (View.read_writes_eq_canon _ _ _ (fun y => ⟨_, List.mem_cons_self, View.mem_set_unit_zero (S := S1x1024) hz2_14 inb_S1x1024_S1x1024_0_0 y⟩)).trans ?_
  refine (View.canon_cons_unit_zero (S := S1x1024) hz2_14 inb_S1x1024_S1x1024_0_0 _ _).trans ?_
  sl_unfold_run_names
  simp only [View.readAt_eq_ld, View.ld_unit_zero (S := S1024x1024) hz2_14, View.ld_unit_zero (S := S1x1024) hz2_14, View.ld_unit_zero (S := S1024x1) hz2_14]

/-! ### The accumulator point by point, the proof data and the body obligation -/

/-- The accumulator after the body at position n: over zero at a first row block, else over what the point before left. -/
def accAt14 (c : Dev nD) : (n : ℕ) → n < cfg14.N → Vec F S1x1024 .f32
  | 0, hn => k14_pay2 (iblk14 V c 0 ⟨0, hn⟩) (k14_pay1 (F := F)) (iblk14 V c 1 ⟨0, hn⟩)
  | n + 1, hn =>
    if (n + 1) % 8 = 0 then k14_pay2 (iblk14 V c 0 ⟨n + 1, hn⟩) (k14_pay1 (F := F)) (iblk14 V c 1 ⟨n + 1, hn⟩)
    else k14_pay2 (iblk14 V c 0 ⟨n + 1, hn⟩) (accAt14 c n (Nat.lt_of_succ_lt hn)) (iblk14 V c 1 ⟨n + 1, hn⟩)

theorem accAt14_first (c : Dev nD) (t : Fin cfg14.N) (h : t.val % 8 = 0) :
    accAt14 V c t.val t.isLt = k14_pay2 (iblk14 V c 0 t) (k14_pay1 (F := F)) (iblk14 V c 1 t) := by
  obtain ⟨n, hn⟩ := t
  cases n with
  | zero => rfl
  | succ n => exact if_pos h

theorem accAt14_next (c : Dev nD) (t : Fin cfg14.N) (h : ¬ t.val % 8 = 0) :
    accAt14 V c t.val t.isLt = k14_pay2 (iblk14 V c 0 t) (accAt14 V c (t.val - 1) (Nat.lt_of_le_of_lt (Nat.sub_le _ _) t.isLt)) (iblk14 V c 1 t) := by
  obtain ⟨n, hn⟩ := t
  cases n with
  | zero => exact absurd (Nat.zero_mod _) h
  | succ n => exact if_neg h

/-- The kernel's accumulator: a whole scoped buffer of its own. -/
abbrev scM14 : Memref sig .tc .vmem S1x1024 .f32 := Memref.whole cc14_scratch0

/-- The class's invariant with the accumulator split out of the scoped rest. -/
theorem PhiA14_eq (c : Dev nD) :
    (Pipeline.ΦA spec14 c : sProp 𝕄)
      = iprop(iprop(iprop((∃ d, owns (c : Thread nD τ) scM14 fullShare d))
          ∗ Pipeline.scopedRestBut (Ix := Unit) (Name := ℕ) (U := UR sig nD τ) (Lvl := ℕ) (Val := Elt F) spec14 c [cc14_scratch0]) ∗ (∃ r, prngReg c r)) := by
  unfold Pipeline.ΦA; rw [scopedRest14_split]; simp only [scM14, owns_whole]; try rfl

/-- The region invariant before position n: before the first point the class's; afterwards the accumulator at what the point
    before left, the other scoped buffers at anything, the generator register at some state. -/
def PhiS14 (c : Dev nD) : (n : ℕ) → n ≤ cfg14.N → sProp 𝕄
  | 0, _ => Pipeline.ΦA spec14 c
  | n + 1, hn => iprop(iprop(iprop(owns (c : Thread nD τ) scM14 fullShare (accAt14 V c n hn))
      ∗ Pipeline.scopedRestBut (Ix := Unit) (Name := ℕ) (U := UR sig nD τ) (Lvl := ℕ) (Val := Elt F) spec14 c [cc14_scratch0]) ∗ (∃ r, prngReg c r))

theorem PhiS14_zero (c : Dev nD) (n : ℕ) (h : n ≤ cfg14.N) (hz : n = 0) : PhiS14 V c n h = Pipeline.ΦA spec14 c := by
  subst hz; rfl
theorem PhiS14_succ (c : Dev nD) (n : ℕ) (hn : n < cfg14.N) :
    PhiS14 V c (n + 1) hn = iprop(iprop(iprop(owns (c : Thread nD τ) scM14 fullShare (accAt14 V c n hn))
      ∗ Pipeline.scopedRestBut (Ix := Unit) (Name := ℕ) (U := UR sig nD τ) (Lvl := ℕ) (Val := Elt F) spec14 c [cc14_scratch0]) ∗ (∃ r, prngReg c r)) := rfl
theorem PhiS14_pos (c : Dev nD) (n : ℕ) (h : n ≤ cfg14.N) (hz : n ≠ 0) :
    PhiS14 V c n h = iprop(iprop(iprop(owns (c : Thread nD τ) scM14 fullShare (accAt14 V c (n - 1) (by omega)))
      ∗ Pipeline.scopedRestBut (Ix := Unit) (Name := ℕ) (U := UR sig nD τ) (Lvl := ℕ) (Val := Elt F) spec14 c [cc14_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => k14_pay3 (accAt14 V c t.val t.isLt)
  Φ t := PhiS14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem PhiS14_castSucc (c : Dev nD) (t : Fin cfg14.N) :
    (dat14 V c).Φ t.castSucc = PhiS14 V c t.val (Nat.le_of_lt t.isLt) := by
  dsimp only [dat14]; simp only [Fin.coe_castSucc]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = k14_pay3 (accAt14 V c t.val t.isLt) := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
/-- The body at any point, by the point's position among the row blocks. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = PhiS14 V c (t.val + 1) t.isLt from rfl, PhiS14_succ]
  have hN : t.val < 64 := lt_of_lt_of_eq t.isLt (show cfg14.N = 64 from N_14)
  rw [show (dat14 V c).leavesExact 0 t = owns (c : Thread nD τ) (st14_0 t) fullShare ((dat14 V c).after 0 t) from by
    unfold Dat.leavesExact; rw [live14_0 t], after14_0]
  rw [show (dat14 V c).leavesExact 1 t = owns (c : Thread nD τ) (st14_1 t) fullShare ((dat14 V c).after 1 t) from by
    unfold Dat.leavesExact; rw [live14_1 t], after14_1]
  by_cases h0 : t.val % 8 = 0
  · have h7 : ¬ t.val % 8 = 7 := by omega
    rw [Dat.leavesExact_idle (dat14 V c) 2 t (idle14_2 t h7) (noFlush14_2 t h7)]
    rw [accAt14_first V c t h0]
    by_cases hz : t.val = 0
    · rw [PhiS14_castSucc V c t, PhiS14_zero V c _ _ hz, PhiA14_eq]
      iintro ⟨⟨⟨HS, Hrest⟩, Hg⟩, Ho, ⟨%d0, H0⟩, ⟨%d1, H1⟩, ⟨%d2, H2⟩⟩
      iapply (sound_kernel14_A c Set.univ (grid14.coords t) ((hFirst14 t).mpr h0) (fun h => h7 ((hLast14 t).mp h)) _ _ _ _ _ _ _ _ (iblk14 V c 0 t) (iblk14 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS14_castSucc V c t, PhiS14_pos V c _ _ hz]
      iintro ⟨⟨⟨HS, Hrest⟩, Hg⟩, Ho, ⟨%d0, H0⟩, ⟨%d1, H1⟩, ⟨%d2, H2⟩⟩
      iapply (sound_kernel14_A c Set.univ (grid14.coords t) ((hFirst14 t).mpr h0) (fun h => h7 ((hLast14 t).mp h)) _ _ _ _ _ _ _ _ (iblk14 V c 0 t) (iblk14 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS14_castSucc V c t, PhiS14_pos V c _ _ hz]
    rw [accAt14_next V c t h0]
    by_cases h7 : t.val % 8 = 7
    · rw [show (dat14 V c).leavesExact 2 t = owns (c : Thread nD τ) (st14_2 t) fullShare ((dat14 V c).after 2 t) from by
        unfold Dat.leavesExact; rw [live14_2 t h7], after14_2, accAt14_next V c t h0]
      iintro ⟨⟨⟨HS, Hrest⟩, Hg⟩, Ho, ⟨%d0, H0⟩, ⟨%d1, H1⟩, ⟨%d2, H2⟩⟩
      iapply (sound_kernel14_C c Set.univ (grid14.coords t) (fun h => h0 ((hFirst14 t).mp h)) ((hLast14 t).mpr h7) _ _ _ _ _ _ _ _ (iblk14 V c 0 t) (iblk14 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat14 V c) 2 t (idle14_2 t h7) (noFlush14_2 t h7)]
      iintro ⟨⟨⟨HS, Hrest⟩, Hg⟩, Ho, ⟨%d0, H0⟩, ⟨%d1, H1⟩, ⟨%d2, H2⟩⟩
      iapply (sound_kernel14_B c Set.univ (grid14.coords t) (fun h => h0 ((hFirst14 t).mp h)) (fun h => h7 ((hLast14 t).mp h)) _ _ _ _ _ _ _ _ (iblk14 V c 0 t) (iblk14 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation14 (c : Dev nD) : BodyObligation (dat14 (F := F) V c) (defs₀ (F := F)) Variants.none () Set.univ := fun t => by
  rw [bigSep_W14, bigSep_W14]
  exact sound_body14 V c t

/-- What the launch hands the region is the invariant before the first point; -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- and after the last point the invariant gives it back, the accumulator's contents forgotten. -/
theorem hout14 (c : Dev nD) : (dat14 V c).Φ (Fin.last cfg14.N) ⊢ Pipeline.ΦA spec14 c := by
  rw [show (dat14 V c).Φ (Fin.last cfg14.N) = PhiS14 V c (Fin.last cfg14.N).val (Nat.le_of_lt_succ (Fin.last cfg14.N).isLt) from rfl,
    PhiS14_pos V c _ _ (by rw [Fin.val_last]; have : cfg14.N = 64 := N_14; omega), PhiA14_eq]
  iintro ⟨⟨HS, Hrest⟩, Hg⟩
  isplitl [HS Hrest]
  · isplitl [HS]; · iexists _; iexact HS
    iexact Hrest
  iexact Hg

end Cert.KernelIdeal.Hand

end
-- ==== Proof.KI.R15.lean ====
/- Region 15 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 15: the row-sum kernel. One point per block of 1024 rows of the matrix; the point's result block is
    w / (Σ_k M[r,k]·v[k] + stab) for each of its rows r. -/

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The matrix window's staging buffer holds the point's block of rows. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The vector window's staging buffer holds the whole row vector at every point (fetched once, never moved). -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

abbrev r15_2 : Rect S1024x1 := Rect.unit (s := S1024x1) ![0, 0] S1024x1.size inb_S1024x1_S1024x1_0_0
abbrev r15_0 : Rect S1024x8192 := Rect.unit (s := S1024x8192) ![0, 0] S1024x8192.size inb_S1024x8192_S1024x8192_0_0
abbrev r15_1 : Rect S1x8192 := Rect.unit (s := S1x8192) ![0, 0] S1x8192.size inb_S1x8192_S1x8192_0_0

/-- The result window's staging buffer after the body: its one whole-block store of the payload. -/
def out15_2 (x0 : Vec F S1024x8192 .bf16) (x1 : Vec F S1x8192 .f32) : Vec F S1024x1 .f32 :=
  View.canon [⟨r15_2, k15_pay1 (View.ld x0 r15_0) (View.ld x1 r15_1)⟩]

theorem cover15_2 (p0 : Vec F S1024x1 .f32) (y : S1024x1.Idx) :
    ∃ pc ∈ ([⟨r15_2, p0⟩] : List (View.Piece (Elt F) S1024x1 .f32)), y ∈ pc.1.set :=
  View.cover_of_tiled [⟨r15_2, p0⟩] S1024x1.size (by rfl) y

set_option maxHeartbeats 1000000 in
/-- The body on whole staging memrefs: the inputs are handed back as read, the result's buffer holds the payload. -/
theorem sound_kernel15 (c : Dev nD) (E : Set ℕ) (i : grid15.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matvec_kernel i arg1 harg1 arg2 harg2 arg3 harg3) K := by
  simp only [cc15__matvec_kernel_eq_skeleton]; unfold cc15__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

/-- The region's proof data: arrays as found; after the body each input's buffer at its block, the result's at the payload. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (c : Dev nD) : BodyObligation (dat15 (F := F) V c) (defs₀ (F := F)) Variants.none () Set.univ := fun t => by
  rw [bigSep_W15, bigSep_W15]
  exact sound_body15 V c t

end Cert.KernelIdeal.Hand

end
-- ==== Proof.KI.R16.lean ====
/- Region 16 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 16: the column-sum kernel. The grid is (column block j, row block i), i innermost; a VMEM accumulator is
    zeroed at i = 0, gains the column sums of the tile times the row weights at every i, and at i = 7 the result
    block w / (acc + stab) is stored. -/

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The body's two conditions: the row block is the first (the accumulator is zeroed), the row block is the last (the result is stored). -/
abbrev cFirst16 (i : grid16.Coords) : Prop := (Scalar.cmpi .ne (Scalar.extui (Scalar.cmpi .eq (BitVec.ofNat 32 (i 1).val) 0#32)) 0#32) = 1#1
abbrev cLast16 (i : grid16.Coords) : Prop := k16_cond2 i = 1#1
theorem hFirst16 : ∀ t : Fin cfg16.N, cFirst16 (grid16.coords t) ↔ t.val % 8 = 0 :=
  (by decide +kernel : ∀ t : Fin grid16.N, cFirst16 (grid16.coords t) ↔ t.val % 8 = 0)
theorem hLast16 : ∀ t : Fin cfg16.N, cLast16 (grid16.coords t) ↔ t.val % 8 = 7 :=
  (by decide +kernel : ∀ t : Fin grid16.N, cLast16 (grid16.coords t) ↔ t.val % 8 = 7)
theorem live16_0 : ∀ t : Fin cfg16.N, cfg16.idle 0 (grid16.coords t) = false := by decide +kernel
theorem live16_1 : ∀ t : Fin cfg16.N, cfg16.idle 1 (grid16.coords t) = false := by decide +kernel
theorem idle16_2 : ∀ t : Fin cfg16.N, ¬ t.val % 8 = 7 → cfg16.idle 2 (grid16.coords t) = true := by decide +kernel
theorem noFlush16_2 : ∀ t : Fin cfg16.N, ¬ t.val % 8 = 7 → (cfg16.win 2).flush t = false := by decide +kernel
theorem live16_2 : ∀ t : Fin cfg16.N, t.val % 8 = 7 → cfg16.idle 2 (grid16.coords t) = false := by decide +kernel

theorem hz2_16 : (![0, 0] : Fin 2 → Nat) = fun _ => 0 := by funext a; fin_cases a <;> rfl

/-- The accumulator after a point's body, from the tile, the row weights and the accumulator it started from (zero at a first row block). -/
def accNew16 (first : Prop) [Decidable first] (x0 : Vec F S1024x1024 .bf16) (x1 : Vec F S1024x1 .f32) (s : Vec F S1x1024 .f32) : Vec F S1x1024 .f32 :=
  k16_pay2 x0 (if first then k16_pay1 (F := F) else s) x1

set_option maxHeartbeats 4000000 in
/-- The body at a first row block that is not the last: the accumulator ends at the tile's weighted column sums over zero; the result's buffer is untouched. -/
theorem sound_kernel16_A (c : Dev nD) (E : Set ℕ) (i : grid16.Coords) (hc1 : cFirst16 i) (hc2 : ¬ cLast16 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k16_pay2 x0 (k16_pay1 (F := F)) x1)) -∗ K ⟨⟩))
      ⊢ wp frame (wpE (defs₀ (F := F)) Variants.none c none) E (cc16__colreduce_kernel i arg2 harg2 arg3 harg3 arg4 harg4 arg5 harg5) K := by
  simp only [cc16__colreduce_kernel_eq_skeleton]; unfold cc16__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_16 inb_S1x1024_S1x1024_0_0 y⟩)).trans ?_
  refine (View.canon_cons_unit_zero (S := S1x1024) hz2_16 inb_S1x1024_S1x1024_0_0 _ _).trans ?_
  sl_unfold_run_names
  rw [View.readCov_unit_zero (S := S1x1024) _ hz2_16, View.readAt_eq_ld, View.readAt_eq_ld, View.ld_unit_zero (S := S1024x1024) hz2_16, View.ld_unit_zero (S := S1024x1) hz2_16]

set_option maxHeartbeats 4000000 in
/-- The body at a row block neither first nor last: the accumulator gains the tile's weighted column sums; the result's buffer is untouched. -/
theorem sound_kernel16_B (c : Dev nD) (E : Set ℕ) (i : grid16.Coords) (hc1 : ¬ cFirst16 i) (hc2 : ¬ cLast16 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k16_pay2 x0 s x1)) -∗ K ⟨⟩))
      ⊢ wp frame (wpE (defs₀ (F := F)) Variants.none c none) E (cc16__colreduce_kernel i arg2 harg2 arg3 harg3 arg4 harg4 arg5 harg5) K := by
  simp only [cc16__colreduce_kernel_eq_skeleton]; unfold cc16__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_16 inb_S1x1024_S1x1024_0_0 y⟩)).trans ?_
  refine (View.canon_cons_unit_zero (S := S1x1024) hz2_16 inb_S1x1024_S1x1024_0_0 _ _).trans ?_
  simp only [View.readAt_eq_ld, View.ld_unit_zero (S := S1024x1024) hz2_16, View.ld_unit_zero (S := S1x1024) hz2_16, View.ld_unit_zero (S := S1024x1) hz2_16]

set_option maxHeartbeats 4000000 in
/-- The body at the last row block (never the first): the accumulator gains the tile's weighted column sums and the result's buffer
    is stored w / (accumulator + stab). -/
theorem sound_kernel16_C (c : Dev nD) (E : Set ℕ) (i : grid16.Coords) (hc1 : ¬ cFirst16 i) (hc2 : cLast16 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k16_pay3 (k16_pay2 x0 s x1))
            ∗ owns (c : Thread nD τ) arg5 fullShare (k16_pay2 x0 s x1)) -∗ K ⟨⟩))
      ⊢ wp frame (wpE (defs₀ (F := F)) Variants.none c none) E (cc16__colreduce_kernel i arg2 harg2 arg3 harg3 arg4 harg4 arg5 harg5) K := by
  simp only [cc16__colreduce_kernel_eq_skeleton]; unfold cc16__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_16 inb_S1x1024_S1x1024_0_0 y⟩)).trans ?_
    refine (View.canon_cons_unit_zero (S := S1x1024) hz2_16 inb_S1x1024_S1x1024_0_0 _ _).trans ?_
    sl_unfold_run_names
    rw [View.readCov_unit_zero (S := S1x1024) _ hz2_16]
    simp only [View.readAt_eq_ld, View.ld_unit_zero (S := S1024x1024) hz2_16, View.ld_unit_zero (S := S1x1024) hz2_16, View.ld_unit_zero (S := S1024x1) hz2_16]
  iexists _; isplitr
  swap; · iexact HS
  ipureintro
  refine (View.read_writes_eq_canon _ _ _ (fun y => ⟨_, List.mem_cons_self, View.mem_set_unit_zero (S := S1x1024) hz2_16 inb_S1x1024_S1x1024_0_0 y⟩)).trans ?_
  refine (View.canon_cons_unit_zero (S := S1x1024) hz2_16 inb_S1x1024_S1x1024_0_0 _ _).trans ?_
  sl_unfold_run_names
  simp only [View.readAt_eq_ld, View.ld_unit_zero (S := S1024x1024) hz2_16, View.ld_unit_zero (S := S1x1024) hz2_16, View.ld_unit_zero (S := S1024x1) hz2_16]

/-! ### The accumulator point by point, the proof data and the body obligation -/

/-- The accumulator after the body at position n: over zero at a first row block, else over what the point before left. -/
def accAt16 (c : Dev nD) : (n : ℕ) → n < cfg16.N → Vec F S1x1024 .f32
  | 0, hn => k16_pay2 (iblk16 V c 0 ⟨0, hn⟩) (k16_pay1 (F := F)) (iblk16 V c 1 ⟨0, hn⟩)
  | n + 1, hn =>
    if (n + 1) % 8 = 0 then k16_pay2 (iblk16 V c 0 ⟨n + 1, hn⟩) (k16_pay1 (F := F)) (iblk16 V c 1 ⟨n + 1, hn⟩)
    else k16_pay2 (iblk16 V c 0 ⟨n + 1, hn⟩) (accAt16 c n (Nat.lt_of_succ_lt hn)) (iblk16 V c 1 ⟨n + 1, hn⟩)

theorem accAt16_first (c : Dev nD) (t : Fin cfg16.N) (h : t.val % 8 = 0) :
    accAt16 V c t.val t.isLt = k16_pay2 (iblk16 V c 0 t) (k16_pay1 (F := F)) (iblk16 V c 1 t) := by
  obtain ⟨n, hn⟩ := t
  cases n with
  | zero => rfl
  | succ n => exact if_pos h

theorem accAt16_next (c : Dev nD) (t : Fin cfg16.N) (h : ¬ t.val % 8 = 0) :
    accAt16 V c t.val t.isLt = k16_pay2 (iblk16 V c 0 t) (accAt16 V c (t.val - 1) (Nat.lt_of_le_of_lt (Nat.sub_le _ _) t.isLt)) (iblk16 V c 1 t) := by
  obtain ⟨n, hn⟩ := t
  cases n with
  | zero => exact absurd (Nat.zero_mod _) h
  | succ n => exact if_neg h

/-- The kernel's accumulator: a whole scoped buffer of its own. -/
abbrev scM16 : Memref sig .tc .vmem S1x1024 .f32 := Memref.whole cc16_scratch0

/-- The class's invariant with the accumulator split out of the scoped rest. -/
theorem PhiA16_eq (c : Dev nD) :
    (Pipeline.ΦA spec16 c : sProp 𝕄)
      = iprop(iprop(iprop((∃ d, owns (c : Thread nD τ) scM16 fullShare d))
          ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16, owns_whole]; try rfl

/-- The region invariant before position n: before the first point the class's; afterwards the accumulator at what the point
    before left, the other scoped buffers at anything, the generator register at some state. -/
def PhiS16 (c : Dev nD) : (n : ℕ) → n ≤ cfg16.N → sProp 𝕄
  | 0, _ => Pipeline.ΦA spec16 c
  | n + 1, hn => iprop(iprop(iprop(owns (c : Thread nD τ) scM16 fullShare (accAt16 V c n hn))
      ∗ Pipeline.scopedRestBut (Ix := Unit) (Name := ℕ) (U := UR sig nD τ) (Lvl := ℕ) (Val := Elt F) spec16 c [cc16_scratch0]) ∗ (∃ r, prngReg c r))

theorem PhiS16_zero (c : Dev nD) (n : ℕ) (h : n ≤ cfg16.N) (hz : n = 0) : PhiS16 V c n h = Pipeline.ΦA spec16 c := by
  subst hz; rfl
theorem PhiS16_succ (c : Dev nD) (n : ℕ) (hn : n < cfg16.N) :
    PhiS16 V c (n + 1) hn = iprop(iprop(iprop(owns (c : Thread nD τ) scM16 fullShare (accAt16 V c n hn))
      ∗ Pipeline.scopedRestBut (Ix := Unit) (Name := ℕ) (U := UR sig nD τ) (Lvl := ℕ) (Val := Elt F) spec16 c [cc16_scratch0]) ∗ (∃ r, prngReg c r)) := rfl
theorem PhiS16_pos (c : Dev nD) (n : ℕ) (h : n ≤ cfg16.N) (hz : n ≠ 0) :
    PhiS16 V c n h = iprop(iprop(iprop(owns (c : Thread nD τ) scM16 fullShare (accAt16 V c (n - 1) (by omega)))
      ∗ Pipeline.scopedRestBut (Ix := Unit) (Name := ℕ) (U := UR sig nD τ) (Lvl := ℕ) (Val := Elt F) spec16 c [cc16_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => k16_pay3 (accAt16 V c t.val t.isLt)
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]
theorem PhiS16_castSucc (c : Dev nD) (t : Fin cfg16.N) :
    (dat16 V c).Φ t.castSucc = PhiS16 V c t.val (Nat.le_of_lt t.isLt) := by
  dsimp only [dat16]; simp only [Fin.coe_castSucc]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = k16_pay3 (accAt16 V c t.val t.isLt) := by dsimp only [dat16]
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t)

set_option maxHeartbeats 4800000 in
/-- The body at any point, by the point's position among the row blocks. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  have hN : t.val < 64 := lt_of_lt_of_eq t.isLt (show cfg16.N = 64 from N_16)
  rw [show (dat16 V c).leavesExact 0 t = owns (c : Thread nD τ) (st16_0 t) fullShare ((dat16 V c).after 0 t) from by
    unfold Dat.leavesExact; rw [live16_0 t], after16_0]
  rw [show (dat16 V c).leavesExact 1 t = owns (c : Thread nD τ) (st16_1 t) fullShare ((dat16 V c).after 1 t) from by
    unfold Dat.leavesExact; rw [live16_1 t], after16_1]
  by_cases h0 : t.val % 8 = 0
  · have h7 : ¬ t.val % 8 = 7 := by omega
    rw [Dat.leavesExact_idle (dat16 V c) 2 t (idle16_2 t h7) (noFlush16_2 t h7)]
    rw [accAt16_first V c t h0]
    by_cases hz : t.val = 0
    · rw [PhiS16_castSucc V c t, PhiS16_zero V c _ _ hz, PhiA16_eq]
      iintro ⟨⟨⟨HS, Hrest⟩, Hg⟩, Ho, ⟨%d0, H0⟩, ⟨%d1, H1⟩, ⟨%d2, H2⟩⟩
      iapply (sound_kernel16_A c Set.univ (grid16.coords t) ((hFirst16 t).mpr h0) (fun h => h7 ((hLast16 t).mp h)) _ _ _ _ _ _ _ _ (iblk16 V c 0 t) (iblk16 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS16_castSucc V c t, PhiS16_pos V c _ _ hz]
      iintro ⟨⟨⟨HS, Hrest⟩, Hg⟩, Ho, ⟨%d0, H0⟩, ⟨%d1, H1⟩, ⟨%d2, H2⟩⟩
      iapply (sound_kernel16_A c Set.univ (grid16.coords t) ((hFirst16 t).mpr h0) (fun h => h7 ((hLast16 t).mp h)) _ _ _ _ _ _ _ _ (iblk16 V c 0 t) (iblk16 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS16_castSucc V c t, PhiS16_pos V c _ _ hz]
    rw [accAt16_next V c t h0]
    by_cases h7 : t.val % 8 = 7
    · rw [show (dat16 V c).leavesExact 2 t = owns (c : Thread nD τ) (st16_2 t) fullShare ((dat16 V c).after 2 t) from by
        unfold Dat.leavesExact; rw [live16_2 t h7], after16_2, accAt16_next V c t h0]
      iintro ⟨⟨⟨HS, Hrest⟩, Hg⟩, Ho, ⟨%d0, H0⟩, ⟨%d1, H1⟩, ⟨%d2, H2⟩⟩
      iapply (sound_kernel16_C c Set.univ (grid16.coords t) (fun h => h0 ((hFirst16 t).mp h)) ((hLast16 t).mpr h7) _ _ _ _ _ _ _ _ (iblk16 V c 0 t) (iblk16 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat16 V c) 2 t (idle16_2 t h7) (noFlush16_2 t h7)]
      iintro ⟨⟨⟨HS, Hrest⟩, Hg⟩, Ho, ⟨%d0, H0⟩, ⟨%d1, H1⟩, ⟨%d2, H2⟩⟩
      iapply (sound_kernel16_B c Set.univ (grid16.coords t) (fun h => h0 ((hFirst16 t).mp h)) (fun h => h7 ((hLast16 t).mp h)) _ _ _ _ _ _ _ _ (iblk16 V c 0 t) (iblk16 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation16 (c : Dev nD) : BodyObligation (dat16 (F := F) V c) (defs₀ (F := F)) Variants.none () Set.univ := fun t => by
  rw [bigSep_W16, bigSep_W16]
  exact sound_body16 V c t

/-- What the launch hands the region is the invariant before the first point; -/
theorem hin16 (c : Dev nD) : Pipeline.ΦA spec16 c ⊢ (dat16 V c).Φ 0 := by
  rw [show (dat16 V c).Φ 0 = PhiS16 V c 0 (Nat.zero_le _) from rfl, PhiS16_zero V c 0 _ rfl]
  try exact Idealize.SL.BI.Entails.refl _

/-- and after the last point the invariant gives it back, the accumulator's contents forgotten. -/
theorem hout16 (c : Dev nD) : (dat16 V c).Φ (Fin.last cfg16.N) ⊢ Pipeline.ΦA spec16 c := by
  rw [show (dat16 V c).Φ (Fin.last cfg16.N) = PhiS16 V c (Fin.last cfg16.N).val (Nat.le_of_lt_succ (Fin.last cfg16.N).isLt) from rfl,
    PhiS16_pos V c _ _ (by rw [Fin.val_last]; have : cfg16.N = 64 := N_16; omega), PhiA16_eq]
  iintro ⟨⟨HS, Hrest⟩, Hg⟩
  isplitl [HS Hrest]
  · isplitl [HS]; · iexists _; iexact HS
    iexact Hrest
  iexact Hg

end Cert.KernelIdeal.Hand

end
-- ==== Proof.KI.R17.lean ====
/- Region 17 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 17: the row-sum kernel. One point per block of 1024 rows of the matrix; the point's result block is
    w / (Σ_k M[r,k]·v[k] + stab) for each of its rows r. -/

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The matrix window's staging buffer holds the point's block of rows. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The vector window's staging buffer holds the whole row vector at every point (fetched once, never moved). -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

abbrev r17_2 : Rect S1024x1 := Rect.unit (s := S1024x1) ![0, 0] S1024x1.size inb_S1024x1_S1024x1_0_0
abbrev r17_0 : Rect S1024x8192 := Rect.unit (s := S1024x8192) ![0, 0] S1024x8192.size inb_S1024x8192_S1024x8192_0_0
abbrev r17_1 : Rect S1x8192 := Rect.unit (s := S1x8192) ![0, 0] S1x8192.size inb_S1x8192_S1x8192_0_0

/-- The result window's staging buffer after the body: its one whole-block store of the payload. -/
def out17_2 (x0 : Vec F S1024x8192 .bf16) (x1 : Vec F S1x8192 .f32) : Vec F S1024x1 .f32 :=
  View.canon [⟨r17_2, k17_pay1 (View.ld x0 r17_0) (View.ld x1 r17_1)⟩]

theorem cover17_2 (p0 : Vec F S1024x1 .f32) (y : S1024x1.Idx) :
    ∃ pc ∈ ([⟨r17_2, p0⟩] : List (View.Piece (Elt F) S1024x1 .f32)), y ∈ pc.1.set :=
  View.cover_of_tiled [⟨r17_2, p0⟩] S1024x1.size (by rfl) y

set_option maxHeartbeats 1000000 in
/-- The body on whole staging memrefs: the inputs are handed back as read, the result's buffer holds the payload. -/
theorem sound_kernel17 (c : Dev nD) (E : Set ℕ) (i : grid17.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out17_2 x0 x1)) -∗ K ⟨⟩))
      ⊢ wp frame (wpE (defs₀ (F := F)) Variants.none c none) E (cc17__matvec_kernel i arg1 harg1 arg2 harg2 arg3 harg3) K := by
  simp only [cc17__matvec_kernel_eq_skeleton]; unfold cc17__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

/-- The region's proof data: arrays as found; after the body each input's buffer at its block, the result's at the payload. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by
  dsimp only [dat17]
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = out17_2 (iblk17 V c 0 t) (iblk17 V c 1 t) := by dsimp only [dat17]
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ _ _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation17 (c : Dev nD) : BodyObligation (dat17 (F := F) V c) (defs₀ (F := F)) Variants.none () Set.univ := fun t => by
  rw [bigSep_W17, bigSep_W17]
  exact sound_body17 V c t

end Cert.KernelIdeal.Hand

end
-- ==== Proof.KI.R18.lean ====
/- Region 18 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 18: the column-sum kernel. The grid is (column block j, row block i), i innermost; a VMEM accumulator is
    zeroed at i = 0, gains the column sums of the tile times the row weights at every i, and at i = 7 the result
    block w / (acc + stab) is stored. -/

def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- The body's two conditions: the row block is the first (the accumulator is zeroed), the row block is the last (the result is stored). -/
abbrev cFirst18 (i : grid18.Coords) : Prop := (Scalar.cmpi .ne (Scalar.extui (Scalar.cmpi .eq (BitVec.ofNat 32 (i 1).val) 0#32)) 0#32) = 1#1
abbrev cLast18 (i : grid18.Coords) : Prop := k18_cond2 i = 1#1
theorem hFirst18 : ∀ t : Fin cfg18.N, cFirst18 (grid18.coords t) ↔ t.val % 8 = 0 :=
  (by decide +kernel : ∀ t : Fin grid18.N, cFirst18 (grid18.coords t) ↔ t.val % 8 = 0)
theorem hLast18 : ∀ t : Fin cfg18.N, cLast18 (grid18.coords t) ↔ t.val % 8 = 7 :=
  (by decide +kernel : ∀ t : Fin grid18.N, cLast18 (grid18.coords t) ↔ t.val % 8 = 7)
theorem live18_0 : ∀ t : Fin cfg18.N, cfg18.idle 0 (grid18.coords t) = false := by decide +kernel
theorem live18_1 : ∀ t : Fin cfg18.N, cfg18.idle 1 (grid18.coords t) = false := by decide +kernel
theorem idle18_2 : ∀ t : Fin cfg18.N, ¬ t.val % 8 = 7 → cfg18.idle 2 (grid18.coords t) = true := by decide +kernel
theorem noFlush18_2 : ∀ t : Fin cfg18.N, ¬ t.val % 8 = 7 → (cfg18.win 2).flush t = false := by decide +kernel
theorem live18_2 : ∀ t : Fin cfg18.N, t.val % 8 = 7 → cfg18.idle 2 (grid18.coords t) = false := by decide +kernel

theorem hz2_18 : (![0, 0] : Fin 2 → Nat) = fun _ => 0 := by funext a; fin_cases a <;> rfl

/-- The accumulator after a point's body, from the tile, the row weights and the accumulator it started from (zero at a first row block). -/
def accNew18 (first : Prop) [Decidable first] (x0 : Vec F S1024x1024 .bf16) (x1 : Vec F S1024x1 .f32) (s : Vec F S1x1024 .f32) : Vec F S1x1024 .f32 :=
  k18_pay2 x0 (if first then k18_pay1 (F := F) else s) x1

set_option maxHeartbeats 4000000 in
/-- The body at a first row block that is not the last: the accumulator ends at the tile's weighted column sums over zero; the result's buffer is untouched. -/
theorem sound_kernel18_A (c : Dev nD) (E : Set ℕ) (i : grid18.Coords) (hc1 : cFirst18 i) (hc2 : ¬ cLast18 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k18_pay2 x0 (k18_pay1 (F := F)) x1)) -∗ K ⟨⟩))
      ⊢ wp frame (wpE (defs₀ (F := F)) Variants.none c none) E (cc18__colreduce_kernel i arg2 harg2 arg3 harg3 arg4 harg4 arg5 harg5) K := by
  simp only [cc18__colreduce_kernel_eq_skeleton]; unfold cc18__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_18 inb_S1x1024_S1x1024_0_0 y⟩)).trans ?_
  refine (View.canon_cons_unit_zero (S := S1x1024) hz2_18 inb_S1x1024_S1x1024_0_0 _ _).trans ?_
  sl_unfold_run_names
  rw [View.readCov_unit_zero (S := S1x1024) _ hz2_18, View.readAt_eq_ld, View.readAt_eq_ld, View.ld_unit_zero (S := S1024x1024) hz2_18, View.ld_unit_zero (S := S1024x1) hz2_18]

set_option maxHeartbeats 4000000 in
/-- The body at a row block neither first nor last: the accumulator gains the tile's weighted column sums; the result's buffer is untouched. -/
theorem sound_kernel18_B (c : Dev nD) (E : Set ℕ) (i : grid18.Coords) (hc1 : ¬ cFirst18 i) (hc2 : ¬ cLast18 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k18_pay2 x0 s x1)) -∗ K ⟨⟩))
      ⊢ wp frame (wpE (defs₀ (F := F)) Variants.none c none) E (cc18__colreduce_kernel i arg2 harg2 arg3 harg3 arg4 harg4 arg5 harg5) K := by
  simp only [cc18__colreduce_kernel_eq_skeleton]; unfold cc18__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_18 inb_S1x1024_S1x1024_0_0 y⟩)).trans ?_
  refine (View.canon_cons_unit_zero (S := S1x1024) hz2_18 inb_S1x1024_S1x1024_0_0 _ _).trans ?_
  simp only [View.readAt_eq_ld, View.ld_unit_zero (S := S1024x1024) hz2_18, View.ld_unit_zero (S := S1x1024) hz2_18, View.ld_unit_zero (S := S1024x1) hz2_18]

set_option maxHeartbeats 4000000 in
/-- The body at the last row block (never the first): the accumulator gains the tile's weighted column sums and the result's buffer
    is stored w / (accumulator + stab). -/
theorem sound_kernel18_C (c : Dev nD) (E : Set ℕ) (i : grid18.Coords) (hc1 : ¬ cFirst18 i) (hc2 : cLast18 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k18_pay3 (k18_pay2 x0 s x1))
            ∗ owns (c : Thread nD τ) arg5 fullShare (k18_pay2 x0 s x1)) -∗ K ⟨⟩))
      ⊢ wp frame (wpE (defs₀ (F := F)) Variants.none c none) E (cc18__colreduce_kernel i arg2 harg2 arg3 harg3 arg4 harg4 arg5 harg5) K := by
  simp only [cc18__colreduce_kernel_eq_skeleton]; unfold cc18__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_18 inb_S1x1024_S1x1024_0_0 y⟩)).trans ?_
    refine (View.canon_cons_unit_zero (S := S1x1024) hz2_18 inb_S1x1024_S1x1024_0_0 _ _).trans ?_
    sl_unfold_run_names
    rw [View.readCov_unit_zero (S := S1x1024) _ hz2_18]
    simp only [View.readAt_eq_ld, View.ld_unit_zero (S := S1024x1024) hz2_18, View.ld_unit_zero (S := S1x1024) hz2_18, View.ld_unit_zero (S := S1024x1) hz2_18]
  iexists _; isplitr
  swap; · iexact HS
  ipureintro
  refine (View.read_writes_eq_canon _ _ _ (fun y => ⟨_, List.mem_cons_self, View.mem_set_unit_zero (S := S1x1024) hz2_18 inb_S1x1024_S1x1024_0_0 y⟩)).trans ?_
  refine (View.canon_cons_unit_zero (S := S1x1024) hz2_18 inb_S1x1024_S1x1024_0_0 _ _).trans ?_
  sl_unfold_run_names
  simp only [View.readAt_eq_ld, View.ld_unit_zero (S := S1024x1024) hz2_18, View.ld_unit_zero (S := S1x1024) hz2_18, View.ld_unit_zero (S := S1024x1) hz2_18]

/-! ### The accumulator point by point, the proof data and the body obligation -/

/-- The accumulator after the body at position n: over zero at a first row block, else over what the point before left. -/
def accAt18 (c : Dev nD) : (n : ℕ) → n < cfg18.N → Vec F S1x1024 .f32
  | 0, hn => k18_pay2 (iblk18 V c 0 ⟨0, hn⟩) (k18_pay1 (F := F)) (iblk18 V c 1 ⟨0, hn⟩)
  | n + 1, hn =>
    if (n + 1) % 8 = 0 then k18_pay2 (iblk18 V c 0 ⟨n + 1, hn⟩) (k18_pay1 (F := F)) (iblk18 V c 1 ⟨n + 1, hn⟩)
    else k18_pay2 (iblk18 V c 0 ⟨n + 1, hn⟩) (accAt18 c n (Nat.lt_of_succ_lt hn)) (iblk18 V c 1 ⟨n + 1, hn⟩)

theorem accAt18_first (c : Dev nD) (t : Fin cfg18.N) (h : t.val % 8 = 0) :
    accAt18 V c t.val t.isLt = k18_pay2 (iblk18 V c 0 t) (k18_pay1 (F := F)) (iblk18 V c 1 t) := by
  obtain ⟨n, hn⟩ := t
  cases n with
  | zero => rfl
  | succ n => exact if_pos h

theorem accAt18_next (c : Dev nD) (t : Fin cfg18.N) (h : ¬ t.val % 8 = 0) :
    accAt18 V c t.val t.isLt = k18_pay2 (iblk18 V c 0 t) (accAt18 V c (t.val - 1) (Nat.lt_of_le_of_lt (Nat.sub_le _ _) t.isLt)) (iblk18 V c 1 t) := by
  obtain ⟨n, hn⟩ := t
  cases n with
  | zero => exact absurd (Nat.zero_mod _) h
  | succ n => exact if_neg h

/-- The kernel's accumulator: a whole scoped buffer of its own. -/
abbrev scM18 : Memref sig .tc .vmem S1x1024 .f32 := Memref.whole cc18_scratch0

/-- The class's invariant with the accumulator split out of the scoped rest. -/
theorem PhiA18_eq (c : Dev nD) :
    (Pipeline.ΦA spec18 c : sProp 𝕄)
      = iprop(iprop(iprop((∃ d, owns (c : Thread nD τ) scM18 fullShare d))
          ∗ Pipeline.scopedRestBut (Ix := Unit) (Name := ℕ) (U := UR sig nD τ) (Lvl := ℕ) (Val := Elt F) spec18 c [cc18_scratch0]) ∗ (∃ r, prngReg c r)) := by
  unfold Pipeline.ΦA; rw [scopedRest18_split]; simp only [scM18, owns_whole]; try rfl

/-- The region invariant before position n: before the first point the class's; afterwards the accumulator at what the point
    before left, the other scoped buffers at anything, the generator register at some state. -/
def PhiS18 (c : Dev nD) : (n : ℕ) → n ≤ cfg18.N → sProp 𝕄
  | 0, _ => Pipeline.ΦA spec18 c
  | n + 1, hn => iprop(iprop(iprop(owns (c : Thread nD τ) scM18 fullShare (accAt18 V c n hn))
      ∗ Pipeline.scopedRestBut (Ix := Unit) (Name := ℕ) (U := UR sig nD τ) (Lvl := ℕ) (Val := Elt F) spec18 c [cc18_scratch0]) ∗ (∃ r, prngReg c r))

theorem PhiS18_zero (c : Dev nD) (n : ℕ) (h : n ≤ cfg18.N) (hz : n = 0) : PhiS18 V c n h = Pipeline.ΦA spec18 c := by
  subst hz; rfl
theorem PhiS18_succ (c : Dev nD) (n : ℕ) (hn : n < cfg18.N) :
    PhiS18 V c (n + 1) hn = iprop(iprop(iprop(owns (c : Thread nD τ) scM18 fullShare (accAt18 V c n hn))
      ∗ Pipeline.scopedRestBut (Ix := Unit) (Name := ℕ) (U := UR sig nD τ) (Lvl := ℕ) (Val := Elt F) spec18 c [cc18_scratch0]) ∗ (∃ r, prngReg c r)) := rfl
theorem PhiS18_pos (c : Dev nD) (n : ℕ) (h : n ≤ cfg18.N) (hz : n ≠ 0) :
    PhiS18 V c n h = iprop(iprop(iprop(owns (c : Thread nD τ) scM18 fullShare (accAt18 V c (n - 1) (by omega)))
      ∗ Pipeline.scopedRestBut (Ix := Unit) (Name := ℕ) (U := UR sig nD τ) (Lvl := ℕ) (Val := Elt F) spec18 c [cc18_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => k18_pay3 (accAt18 V c t.val t.isLt)
  Φ t := PhiS18 V c t.val (Nat.le_of_lt_succ t.isLt)
  q _ := fullShare
  owed _ := 0

theorem A_eq18 (c : Dev nD) (w : Fin cfg18.W) : (dat18 V c).A w = V c (Pipeline.arrRef spec18 w) := by
  dsimp only [dat18]
theorem PhiS18_castSucc (c : Dev nD) (t : Fin cfg18.N) :
    (dat18 V c).Φ t.castSucc = PhiS18 V c t.val (Nat.le_of_lt t.isLt) := by
  dsimp only [dat18]; simp only [Fin.coe_castSucc]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = k18_pay3 (accAt18 V c t.val t.isLt) := by dsimp only [dat18]
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d)))

def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t)

set_option maxHeartbeats 4800000 in
/-- The body at any point, by the point's position among the row blocks. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = PhiS18 V c (t.val + 1) t.isLt from rfl, PhiS18_succ]
  have hN : t.val < 64 := lt_of_lt_of_eq t.isLt (show cfg18.N = 64 from N_18)
  rw [show (dat18 V c).leavesExact 0 t = owns (c : Thread nD τ) (st18_0 t) fullShare ((dat18 V c).after 0 t) from by
    unfold Dat.leavesExact; rw [live18_0 t], after18_0]
  rw [show (dat18 V c).leavesExact 1 t = owns (c : Thread nD τ) (st18_1 t) fullShare ((dat18 V c).after 1 t) from by
    unfold Dat.leavesExact; rw [live18_1 t], after18_1]
  by_cases h0 : t.val % 8 = 0
  · have h7 : ¬ t.val % 8 = 7 := by omega
    rw [Dat.leavesExact_idle (dat18 V c) 2 t (idle18_2 t h7) (noFlush18_2 t h7)]
    rw [accAt18_first V c t h0]
    by_cases hz : t.val = 0
    · rw [PhiS18_castSucc V c t, PhiS18_zero V c _ _ hz, PhiA18_eq]
      iintro ⟨⟨⟨HS, Hrest⟩, Hg⟩, Ho, ⟨%d0, H0⟩, ⟨%d1, H1⟩, ⟨%d2, H2⟩⟩
      iapply (sound_kernel18_A c Set.univ (grid18.coords t) ((hFirst18 t).mpr h0) (fun h => h7 ((hLast18 t).mp h)) _ _ _ _ _ _ _ _ (iblk18 V c 0 t) (iblk18 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS18_castSucc V c t, PhiS18_pos V c _ _ hz]
      iintro ⟨⟨⟨HS, Hrest⟩, Hg⟩, Ho, ⟨%d0, H0⟩, ⟨%d1, H1⟩, ⟨%d2, H2⟩⟩
      iapply (sound_kernel18_A c Set.univ (grid18.coords t) ((hFirst18 t).mpr h0) (fun h => h7 ((hLast18 t).mp h)) _ _ _ _ _ _ _ _ (iblk18 V c 0 t) (iblk18 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS18_castSucc V c t, PhiS18_pos V c _ _ hz]
    rw [accAt18_next V c t h0]
    by_cases h7 : t.val % 8 = 7
    · rw [show (dat18 V c).leavesExact 2 t = owns (c : Thread nD τ) (st18_2 t) fullShare ((dat18 V c).after 2 t) from by
        unfold Dat.leavesExact; rw [live18_2 t h7], after18_2, accAt18_next V c t h0]
      iintro ⟨⟨⟨HS, Hrest⟩, Hg⟩, Ho, ⟨%d0, H0⟩, ⟨%d1, H1⟩, ⟨%d2, H2⟩⟩
      iapply (sound_kernel18_C c Set.univ (grid18.coords t) (fun h => h0 ((hFirst18 t).mp h)) ((hLast18 t).mpr h7) _ _ _ _ _ _ _ _ (iblk18 V c 0 t) (iblk18 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat18 V c) 2 t (idle18_2 t h7) (noFlush18_2 t h7)]
      iintro ⟨⟨⟨HS, Hrest⟩, Hg⟩, Ho, ⟨%d0, H0⟩, ⟨%d1, H1⟩, ⟨%d2, H2⟩⟩
      iapply (sound_kernel18_B c Set.univ (grid18.coords t) (fun h => h0 ((hFirst18 t).mp h)) (fun h => h7 ((hLast18 t).mp h)) _ _ _ _ _ _ _ _ (iblk18 V c 0 t) (iblk18 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation18 (c : Dev nD) : BodyObligation (dat18 (F := F) V c) (defs₀ (F := F)) Variants.none () Set.univ := fun t => by
  rw [bigSep_W18, bigSep_W18]
  exact sound_body18 V c t

/-- What the launch hands the region is the invariant before the first point; -/
theorem hin18 (c : Dev nD) : Pipeline.ΦA spec18 c ⊢ (dat18 V c).Φ 0 := by
  rw [show (dat18 V c).Φ 0 = PhiS18 V c 0 (Nat.zero_le _) from rfl, PhiS18_zero V c 0 _ rfl]
  try exact Idealize.SL.BI.Entails.refl _

/-- and after the last point the invariant gives it back, the accumulator's contents forgotten. -/
theorem hout18 (c : Dev nD) : (dat18 V c).Φ (Fin.last cfg18.N) ⊢ Pipeline.ΦA spec18 c := by
  rw [show (dat18 V c).Φ (Fin.last cfg18.N) = PhiS18 V c (Fin.last cfg18.N).val (Nat.le_of_lt_succ (Fin.last cfg18.N).isLt) from rfl,
    PhiS18_pos V c _ _ (by rw [Fin.val_last]; have : cfg18.N = 64 := N_18; omega), PhiA18_eq]
  iintro ⟨⟨HS, Hrest⟩, Hg⟩
  isplitl [HS Hrest]
  · isplitl [HS]; · iexists _; iexact HS
    iexact Hrest
  iexact Hg

end Cert.KernelIdeal.Hand

end
-- ==== Proof.KI.R19.lean ====
/- Region 19 of the program: a row-sum launch (u = w / (K·v + stab)), its body run and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 19: the row-sum kernel. One point per block of 1024 rows of the matrix; the point's result block is
    w / (Σ_k M[r,k]·v[k] + stab) for each of its rows r. -/

/-- Window w's block at point t, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The matrix window's staging buffer holds the point's block of rows. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- The vector window's staging buffer holds the whole row vector at every point (fetched once, never moved). -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

abbrev r19_2 : Rect S1024x1 := Rect.unit (s := S1024x1) ![0, 0] S1024x1.size inb_S1024x1_S1024x1_0_0
abbrev r19_0 : Rect S1024x8192 := Rect.unit (s := S1024x8192) ![0, 0] S1024x8192.size inb_S1024x8192_S1024x8192_0_0
abbrev r19_1 : Rect S1x8192 := Rect.unit (s := S1x8192) ![0, 0] S1x8192.size inb_S1x8192_S1x8192_0_0

/-- The result window's staging buffer after the body: its one whole-block store of the payload. -/
def out19_2 (x0 : Vec F S1024x8192 .bf16) (x1 : Vec F S1x8192 .f32) : Vec F S1024x1 .f32 :=
  View.canon [⟨r19_2, k19_pay1 (View.ld x0 r19_0) (View.ld x1 r19_1)⟩]

theorem cover19_2 (p0 : Vec F S1024x1 .f32) (y : S1024x1.Idx) :
    ∃ pc ∈ ([⟨r19_2, p0⟩] : List (View.Piece (Elt F) S1024x1 .f32)), y ∈ pc.1.set :=
  View.cover_of_tiled [⟨r19_2, p0⟩] S1024x1.size (by rfl) y

set_option maxHeartbeats 1000000 in
/-- The body on whole staging memrefs: the inputs are handed back as read, the result's buffer holds the payload. -/
theorem sound_kernel19 (c : Dev nD) (E : Set ℕ) (i : grid19.Coords) (arg1 : Memref sig .tc .vmem S1024x8192 .bf16) (harg1 : arg1.IsWhole)
    (arg2 : Memref sig .tc .vmem S1x8192 .f32) (harg2 : arg2.IsWhole) (arg3 : Memref sig .tc .vmem S1024x1 .f32) (harg3 : arg3.IsWhole)
    (x0 : Vec F S1024x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out19_2 x0 x1)) -∗ K ⟨⟩))
      ⊢ wp frame (wpE (defs₀ (F := F)) Variants.none c none) E (cc19__matvec_kernel i arg1 harg1 arg2 harg2 arg3 harg3) K := by
  simp only [cc19__matvec_kernel_eq_skeleton]; unfold cc19__matvec_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover19_2 _)

/-- The region's proof data: arrays as found; after the body each input's buffer at its block, the result's at the payload. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

theorem A_eq19 (c : Dev nD) (w : Fin cfg19.W) : (dat19 V c).A w = V c (Pipeline.arrRef spec19 w) := by
  dsimp only [dat19]
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = out19_2 (iblk19 V c 0 t) (iblk19 V c 1 t) := by dsimp only [dat19]
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%d0, H0⟩, ⟨%d1, H1⟩, ⟨%d2, H2⟩⟩
  iapply (sound_kernel19 c Set.univ _ _ _ _ _ _ _ (iblk19 V c 0 t) (iblk19 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation19 (c : Dev nD) : BodyObligation (dat19 (F := F) V c) (defs₀ (F := F)) Variants.none () Set.univ := fun t => by
  rw [bigSep_W19, bigSep_W19]
  exact sound_body19 V c t

end Cert.KernelIdeal.Hand

end
-- ==== Proof.KI.R20.lean ====
/- Region 20 of the program: a column-sum launch (v = w / (Kᵀ·u + stab)), its body run by cases, the accumulator it carries
   between grid points, and its proof data. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 20: the column-sum kernel. The grid is (column block j, row block i), i innermost; a VMEM accumulator is
    zeroed at i = 0, gains the column sums of the tile times the row weights at every i, and at i = 7 the result
    block w / (acc + stab) is stored. -/

def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- The body's two conditions: the row block is the first (the accumulator is zeroed), the row block is the last (the result is stored). -/
abbrev cFirst20 (i : grid20.Coords) : Prop := (Scalar.cmpi .ne (Scalar.extui (Scalar.cmpi .eq (BitVec.ofNat 32 (i 1).val) 0#32)) 0#32) = 1#1
abbrev cLast20 (i : grid20.Coords) : Prop := k20_cond2 i = 1#1
theorem hFirst20 : ∀ t : Fin cfg20.N, cFirst20 (grid20.coords t) ↔ t.val % 8 = 0 :=
  (by decide +kernel : ∀ t : Fin grid20.N, cFirst20 (grid20.coords t) ↔ t.val % 8 = 0)
theorem hLast20 : ∀ t : Fin cfg20.N, cLast20 (grid20.coords t) ↔ t.val % 8 = 7 :=
  (by decide +kernel : ∀ t : Fin grid20.N, cLast20 (grid20.coords t) ↔ t.val % 8 = 7)
theorem live20_0 : ∀ t : Fin cfg20.N, cfg20.idle 0 (grid20.coords t) = false := by decide +kernel
theorem live20_1 : ∀ t : Fin cfg20.N, cfg20.idle 1 (grid20.coords t) = false := by decide +kernel
theorem idle20_2 : ∀ t : Fin cfg20.N, ¬ t.val % 8 = 7 → cfg20.idle 2 (grid20.coords t) = true := by decide +kernel
theorem noFlush20_2 : ∀ t : Fin cfg20.N, ¬ t.val % 8 = 7 → (cfg20.win 2).flush t = false := by decide +kernel
theorem live20_2 : ∀ t : Fin cfg20.N, t.val % 8 = 7 → cfg20.idle 2 (grid20.coords t) = false := by decide +kernel

theorem hz2_20 : (![0, 0] : Fin 2 → Nat) = fun _ => 0 := by funext a; fin_cases a <;> rfl

/-- The accumulator after a point's body, from the tile, the row weights and the accumulator it started from (zero at a first row block). -/
def accNew20 (first : Prop) [Decidable first] (x0 : Vec F S1024x1024 .bf16) (x1 : Vec F S1024x1 .f32) (s : Vec F S1x1024 .f32) : Vec F S1x1024 .f32 :=
  k20_pay2 x0 (if first then k20_pay1 (F := F) else s) x1

set_option maxHeartbeats 4000000 in
/-- The body at a first row block that is not the last: the accumulator ends at the tile's weighted column sums over zero; the result's buffer is untouched. -/
theorem sound_kernel20_A (c : Dev nD) (E : Set ℕ) (i : grid20.Coords) (hc1 : cFirst20 i) (hc2 : ¬ cLast20 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (k20_pay2 x0 (k20_pay1 (F := F)) x1)) -∗ K ⟨⟩))
      ⊢ wp frame (wpE (defs₀ (F := F)) Variants.none c none) E (cc20__colreduce_kernel i arg2 harg2 arg3 harg3 arg4 harg4 arg5 harg5) K := by
  simp only [cc20__colreduce_kernel_eq_skeleton]; unfold cc20__colreduce_kernel_skel
  unfold owns
  iintro ⟨⟨%f0, %hf0, H0⟩, ⟨%f1, %hf1, H1⟩, ⟨%f2, %hf2, H2⟩, ⟨%s, %fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_20 inb_S1x1024_S1x1024_0_0 y⟩)).trans ?_
  refine (View.canon_cons_unit_zero (S := S1x1024) hz2_20 inb_S1x1024_S1x1024_0_0 _ _).trans ?_
  sl_unfold_run_names
  rw [View.readCov_unit_zero (S := S1x1024) _ hz2_20, View.readAt_eq_ld, View.readAt_eq_ld, View.ld_unit_zero (S := S1024x1024) hz2_20, View.ld_unit_zero (S := S1024x1) hz2_20]

set_option maxHeartbeats 4000000 in
/-- The body at a row block neither first nor last: the accumulator gains the tile's weighted column sums; the result's buffer is untouched. -/
theorem sound_kernel20_B (c : Dev nD) (E : Set ℕ) (i : grid20.Coords) (hc1 : ¬ cFirst20 i) (hc2 : ¬ cLast20 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (xo : Vec F S1x1024 .f32) (s : Vec F S1x1024 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k20_pay2 x0 s x1)) -∗ K ⟨⟩))
      ⊢ wp frame (wpE (defs₀ (F := F)) Variants.none c none) E (cc20__colreduce_kernel i arg2 harg2 arg3 harg3 arg4 harg4 arg5 harg5) K := by
  simp only [cc20__colreduce_kernel_eq_skeleton]; unfold cc20__colreduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1024) hz2_20 inb_S1x1024_S1x1024_0_0 y⟩)).trans ?_
  refine (View.canon_cons_unit_zero (S := S1x1024) hz2_20 inb_S1x1024_S1x1024_0_0 _ _).trans ?_
  simp only [View.readAt_eq_ld, View.ld_unit_zero (S := S1024x1024) hz2_20, View.ld_unit_zero (S := S1x1024) hz2_20, View.ld_unit_zero (S := S1024x1) hz2_20]

set_option maxHeartbeats 4000000 in
/-- The body at the last row block (never the first): the accumulator gains the tile's weighted column sums and the result's buffer
    is stored w / (accumulator + stab). -/
theorem sound_kernel20_C (c : Dev nD) (E : Set ℕ) (i : grid20.Coords) (hc1 : ¬ cFirst20 i) (hc2 : cLast20 i)
    (arg2 : Memref sig .tc .vmem S1024x1024 .bf16) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1x1024 .f32) (harg5 : arg5.IsWhole)
    (x0 : Vec F S1024x1024 .bf16) (x1 : Vec F S1024x1 .f32) (s : Vec F S1x1024 .f32) (K : PUnit → sProp 𝕄) :
    iprop(owns (c : Thread nD τ) arg2 fullShare x0 ∗ owns (c : Thread nD τ) arg3 fullShare x1 ∗ (∃ xo, owns (c : Thread nD τ) arg4 fullShare xo)
        ∗ owns (c : Thread nD τ) arg5 fullShare s
        ∗ (iprop(owns (c : Thread nD τ) arg2 fullShare x0 ∗ owns (c : Thread nD τ) arg3 fullShare x1
            ∗ owns (c : Thread nD τ) arg4 fullShare (k20_pay3 (k20_pay2 x0 s x1))
            ∗ owns (c : Thread nD τ) arg5 fullShare (k20_pay2 x0 s x1)) -∗ K ⟨⟩))
      ⊢ wp frame (wpE (defs₀ (F := F)) Variants.none c none) E (cc20__colreduce_kernel i arg2 harg2 arg3 harg3 arg4 harg4 arg5 harg5) K := by
  simp only [cc20__colreduce_kernel_eq_skeleton]; unfold cc20__colreduce_kernel_skel
  unfold owns
  iintro ⟨⟨%f0, %hf0, H0⟩, ⟨%f1, %hf1, H1⟩, ⟨%xo, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1024) hz2_20 inb_S1x1024_S1x1024_0_0 y⟩)).trans ?_
    refine (View.canon_cons_unit_zero (S := S1x1024) hz2_20 inb_S1x1024_S1x1024_0_0 _ _).trans ?_
    sl_unfold_run_names
    rw [View.readCov_unit_zero (S := S1x1024) _ hz2_20]
    simp only [View.readAt_eq_ld, View.ld_unit_zero (S := S1024x1024) hz2_20, View.ld_unit_zero (S := S1x1024) hz2_20, View.ld_unit_zero (S := S1024x1) hz2_20]
  iexists _; isplitr
  swap; · iexact HS
  ipureintro
  refine (View.read_writes_eq_canon _ _ _ (fun y => ⟨_, List.mem_cons_self, View.mem_set_unit_zero (S := S1x1024) hz2_20 inb_S1x1024_S1x1024_0_0 y⟩)).trans ?_
  refine (View.canon_cons_unit_zero (S := S1x1024) hz2_20 inb_S1x1024_S1x1024_0_0 _ _).trans ?_
  sl_unfold_run_names
  simp only [View.readAt_eq_ld, View.ld_unit_zero (S := S1024x1024) hz2_20, View.ld_unit_zero (S := S1x1024) hz2_20, View.ld_unit_zero (S := S1024x1) hz2_20]

/-! ### The accumulator point by point, the proof data and the body obligation -/

/-- The accumulator after the body at position n: over zero at a first row block, else over what the point before left. -/
def accAt20 (c : Dev nD) : (n : ℕ) → n < cfg20.N → Vec F S1x1024 .f32
  | 0, hn => k20_pay2 (iblk20 V c 0 ⟨0, hn⟩) (k20_pay1 (F := F)) (iblk20 V c 1 ⟨0, hn⟩)
  | n + 1, hn =>
    if (n + 1) % 8 = 0 then k20_pay2 (iblk20 V c 0 ⟨n + 1, hn⟩) (k20_pay1 (F := F)) (iblk20 V c 1 ⟨n + 1, hn⟩)
    else k20_pay2 (iblk20 V c 0 ⟨n + 1, hn⟩) (accAt20 c n (Nat.lt_of_succ_lt hn)) (iblk20 V c 1 ⟨n + 1, hn⟩)

theorem accAt20_first (c : Dev nD) (t : Fin cfg20.N) (h : t.val % 8 = 0) :
    accAt20 V c t.val t.isLt = k20_pay2 (iblk20 V c 0 t) (k20_pay1 (F := F)) (iblk20 V c 1 t) := by
  obtain ⟨n, hn⟩ := t
  cases n with
  | zero => rfl
  | succ n => exact if_pos h

theorem accAt20_next (c : Dev nD) (t : Fin cfg20.N) (h : ¬ t.val % 8 = 0) :
    accAt20 V c t.val t.isLt = k20_pay2 (iblk20 V c 0 t) (accAt20 V c (t.val - 1) (Nat.lt_of_le_of_lt (Nat.sub_le _ _) t.isLt)) (iblk20 V c 1 t) := by
  obtain ⟨n, hn⟩ := t
  cases n with
  | zero => exact absurd (Nat.zero_mod _) h
  | succ n => exact if_neg h

/-- The kernel's accumulator: a whole scoped buffer of its own. -/
abbrev scM20 : Memref sig .tc .vmem S1x1024 .f32 := Memref.whole cc20_scratch0

/-- The class's invariant with the accumulator split out of the scoped rest. -/
theorem PhiA20_eq (c : Dev nD) :
    (Pipeline.ΦA spec20 c : sProp 𝕄)
      = iprop(iprop(iprop((∃ d, owns (c : Thread nD τ) scM20 fullShare d))
          ∗ Pipeline.scopedRestBut (Ix := Unit) (Name := ℕ) (U := UR sig nD τ) (Lvl := ℕ) (Val := Elt F) spec20 c [cc20_scratch0]) ∗ (∃ r, prngReg c r)) := by
  unfold Pipeline.ΦA; rw [scopedRest20_split]; simp only [scM20, owns_whole]; try rfl

/-- The region invariant before position n: before the first point the class's; afterwards the accumulator at what the point
    before left, the other scoped buffers at anything, the generator register at some state. -/
def PhiS20 (c : Dev nD) : (n : ℕ) → n ≤ cfg20.N → sProp 𝕄
  | 0, _ => Pipeline.ΦA spec20 c
  | n + 1, hn => iprop(iprop(iprop(owns (c : Thread nD τ) scM20 fullShare (accAt20 V c n hn))
      ∗ Pipeline.scopedRestBut (Ix := Unit) (Name := ℕ) (U := UR sig nD τ) (Lvl := ℕ) (Val := Elt F) spec20 c [cc20_scratch0]) ∗ (∃ r, prngReg c r))

theorem PhiS20_zero (c : Dev nD) (n : ℕ) (h : n ≤ cfg20.N) (hz : n = 0) : PhiS20 V c n h = Pipeline.ΦA spec20 c := by
  subst hz; rfl
theorem PhiS20_succ (c : Dev nD) (n : ℕ) (hn : n < cfg20.N) :
    PhiS20 V c (n + 1) hn = iprop(iprop(iprop(owns (c : Thread nD τ) scM20 fullShare (accAt20 V c n hn))
      ∗ Pipeline.scopedRestBut (Ix := Unit) (Name := ℕ) (U := UR sig nD τ) (Lvl := ℕ) (Val := Elt F) spec20 c [cc20_scratch0]) ∗ (∃ r, prngReg c r)) := rfl
theorem PhiS20_pos (c : Dev nD) (n : ℕ) (h : n ≤ cfg20.N) (hz : n ≠ 0) :
    PhiS20 V c n h = iprop(iprop(iprop(owns (c : Thread nD τ) scM20 fullShare (accAt20 V c (n - 1) (by omega)))
      ∗ Pipeline.scopedRestBut (Ix := Unit) (Name := ℕ) (U := UR sig nD τ) (Lvl := ℕ) (Val := Elt F) spec20 c [cc20_scratch0]) ∗ (∃ r, prngReg c r)) := by
  cases n with
  | zero => exact absurd rfl hz
  | succ n => rfl

/-- The region's proof data: arrays as found; after the body each input's buffer at its block, the result's at w / (accumulator + stab)
    (consulted only where the block is written back: at the last row block); the invariant carrying the accumulator. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => k20_pay3 (accAt20 V c t.val t.isLt)
  Φ t := PhiS20 V c t.val (Nat.le_of_lt_succ t.isLt)
  q _ := fullShare
  owed _ := 0

theorem A_eq20 (c : Dev nD) (w : Fin cfg20.W) : (dat20 V c).A w = V c (Pipeline.arrRef spec20 w) := by
  dsimp only [dat20]
theorem PhiS20_castSucc (c : Dev nD) (t : Fin cfg20.N) :
    (dat20 V c).Φ t.castSucc = PhiS20 V c t.val (Nat.le_of_lt t.isLt) := by
  dsimp only [dat20]; simp only [Fin.coe_castSucc]
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = k20_pay3 (accAt20 V c t.val t.isLt) := by dsimp only [dat20]
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

def bodyPost20 (c : Dev nD) (t : Fin cfg20.N) : sProp 𝕄 :=
  iprop((dat20 V c).Φ t.succ ∗ (dat20 V c).owesAt () t.succ
    ∗ (dat20 V c).leavesExact 0 t
    ∗ (dat20 V c).leavesExact 1 t
    ∗ (dat20 V c).leavesExact 2 t)

set_option maxHeartbeats 4800000 in
/-- The body at any point, by the point's position among the row blocks. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl]
  rw [show (dat20 V c).Φ t.succ = PhiS20 V c (t.val + 1) t.isLt from rfl, PhiS20_succ]
  have hN : t.val < 64 := lt_of_lt_of_eq t.isLt (show cfg20.N = 64 from N_20)
  rw [show (dat20 V c).leavesExact 0 t = owns (c : Thread nD τ) (st20_0 t) fullShare ((dat20 V c).after 0 t) from by
    unfold Dat.leavesExact; rw [live20_0 t], after20_0]
  rw [show (dat20 V c).leavesExact 1 t = owns (c : Thread nD τ) (st20_1 t) fullShare ((dat20 V c).after 1 t) from by
    unfold Dat.leavesExact; rw [live20_1 t], after20_1]
  by_cases h0 : t.val % 8 = 0
  · have h7 : ¬ t.val % 8 = 7 := by omega
    rw [Dat.leavesExact_idle (dat20 V c) 2 t (idle20_2 t h7) (noFlush20_2 t h7)]
    rw [accAt20_first V c t h0]
    by_cases hz : t.val = 0
    · rw [PhiS20_castSucc V c t, PhiS20_zero V c _ _ hz, PhiA20_eq]
      iintro ⟨⟨⟨HS, Hrest⟩, Hg⟩, Ho, ⟨%d0, H0⟩, ⟨%d1, H1⟩, ⟨%d2, H2⟩⟩
      iapply (sound_kernel20_A c Set.univ (grid20.coords t) ((hFirst20 t).mpr h0) (fun h => h7 ((hLast20 t).mp h)) _ _ _ _ _ _ _ _ (iblk20 V c 0 t) (iblk20 V c 1 t) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS20_castSucc V c t, PhiS20_pos V c _ _ hz]
      iintro ⟨⟨⟨HS, Hrest⟩, Hg⟩, Ho, ⟨%d0, H0⟩, ⟨%d1, H1⟩, ⟨%d2, H2⟩⟩
      iapply (sound_kernel20_A c Set.univ (grid20.coords t) ((hFirst20 t).mpr h0) (fun h => h7 ((hLast20 t).mp h)) _ _ _ _ _ _ _ _ (iblk20 V c 0 t) (iblk20 V c 1 t) _ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS20_castSucc V c t, PhiS20_pos V c _ _ hz]
    rw [accAt20_next V c t h0]
    by_cases h7 : t.val % 8 = 7
    · rw [show (dat20 V c).leavesExact 2 t = owns (c : Thread nD τ) (st20_2 t) fullShare ((dat20 V c).after 2 t) from by
        unfold Dat.leavesExact; rw [live20_2 t h7], after20_2, accAt20_next V c t h0]
      iintro ⟨⟨⟨HS, Hrest⟩, Hg⟩, Ho, ⟨%d0, H0⟩, ⟨%d1, H1⟩, ⟨%d2, H2⟩⟩
      iapply (sound_kernel20_C c Set.univ (grid20.coords t) (fun h => h0 ((hFirst20 t).mp h)) ((hLast20 t).mpr h7) _ _ _ _ _ _ _ _ (iblk20 V c 0 t) (iblk20 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat20 V c) 2 t (idle20_2 t h7) (noFlush20_2 t h7)]
      iintro ⟨⟨⟨HS, Hrest⟩, Hg⟩, Ho, ⟨%d0, H0⟩, ⟨%d1, H1⟩, ⟨%d2, H2⟩⟩
      iapply (sound_kernel20_B c Set.univ (grid20.coords t) (fun h => h0 ((hFirst20 t).mp h)) (fun h => h7 ((hLast20 t).mp h)) _ _ _ _ _ _ _ _ (iblk20 V c 0 t) (iblk20 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

theorem body_obligation20 (c : Dev nD) : BodyObligation (dat20 (F := F) V c) (defs₀ (F := F)) Variants.none () Set.univ := fun t => by
  rw [bigSep_W20, bigSep_W20]
  exact sound_body20 V c t

/-- What the launch hands the region is the invariant before the first point; -/
theorem hin20 (c : Dev nD) : Pipeline.ΦA spec20 c ⊢ (dat20 V c).Φ 0 := by
  rw [show (dat20 V c).Φ 0 = PhiS20 V c 0 (Nat.zero_le _) from rfl, PhiS20_zero V c 0 _ rfl]
  try exact Idealize.SL.BI.Entails.refl _

/-- and after the last point the invariant gives it back, the accumulator's contents forgotten. -/
theorem hout20 (c : Dev nD) : (dat20 V c).Φ (Fin.last cfg20.N) ⊢ Pipeline.ΦA spec20 c := by
  rw [show (dat20 V c).Φ (Fin.last cfg20.N) = PhiS20 V c (Fin.last cfg20.N).val (Nat.le_of_lt_succ (Fin.last cfg20.N).isLt) from rfl,
    PhiS20_pos V c _ _ (by rw [Fin.val_last]; have : cfg20.N = 64 := N_20; omega), PhiA20_eq]
  iintro ⟨⟨HS, Hrest⟩, Hg⟩
  isplitl [HS Hrest]
  · isplitl [HS]; · iexists _; iexact HS
    iexact Hrest
  iexact Hg

end Cert.KernelIdeal.Hand

end
-- ==== Proof.KI.R21a.lean ====
/- Region 21 of the program, first half: the coupling kernel's body run at a first and at a later column block. -/
import proofs.«111645_j15006615733809_2_alg».proof.Proof.Gen.KernelIdeal.Launch
import proofs.«111645_j15006615733809_2_alg».proof.Proof.Gen.KernelIdeal.Skeleton
import proofs.«111645_j15006615733809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 21: the coupling kernel. The grid is (row block i, column block j), j innermost. Each point stores the coupling tile
    u_r · K_rc · v_c, and a per-row running sum of coupling × cost (zeroed at j = 0) is kept in the second result's block,
    written back after j = 7. -/

def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)

abbrev cFirst21 (i : grid21.Coords) : Prop := (Scalar.cmpi .ne (Scalar.extui (Scalar.cmpi .eq (BitVec.ofNat 32 (i 1).val) 0#32)) 0#32) = 1#1
theorem hFirst21 : ∀ t : Fin cfg21.N, cFirst21 (grid21.coords t) ↔ t.val % 8 = 0 :=
  (by decide +kernel : ∀ t : Fin grid21.N, cFirst21 (grid21.coords t) ↔ t.val % 8 = 0)
theorem noFlush21_6 : ∀ t : Fin cfg21.N, ¬ t.val % 8 = 7 → (cfg21.win 6).flush t = false := by decide +kernel

theorem hz2_21 : (![0, 0] : Fin 2 → Nat) = fun _ => 0 := by funext a; fin_cases a <;> rfl

/-! Reading back a whole-block store, and the payloads over blocks loaded through the whole-block rectangle: small facts over variables. -/

/-- A cover by the first piece alone covers with any pieces after it. -/
theorem cover_cons21 {S : Shape} {e : EltTy} (p : View.Piece (Elt F) S e) (L : List (View.Piece (Elt F) S e))
    (h : ∀ y : S.Idx, ∃ pc ∈ [p], y ∈ pc.1.set) (y : S.Idx) : ∃ pc ∈ p :: L, y ∈ pc.1.set := by
  obtain ⟨pc, hm, hy⟩ := h y
  rw [List.mem_singleton] at hm
  subst hm
  exact ⟨_, List.mem_cons_self, hy⟩

theorem rb_cover21_7 (w : S1024x1024.Idx → Elt F .f32) (y : S1024x1024.Idx) :
    ∃ pc ∈ ([⟨Rect.unit ![0, 0] S1024x1024.size inb_S1024x1024_S1024x1024_0_0, w⟩] : List (View.Piece (Elt F) S1024x1024 .f32)), y ∈ pc.1.set :=
  View.cover_of_tiled [⟨Rect.unit ![0, 0] S1024x1024.size inb_S1024x1024_S1024x1024_0_0, w⟩] S1024x1024.size (by rfl) y
theorem rb_canon21_7 {sp : Space} (v : View sig .tc sp S1024x1024 .f32) (f : v.ty.Contents (Elt F)) (p : View.Piece (Elt F) S1024x1024 .f32)
    (L : List (View.Piece (Elt F) S1024x1024 .f32)) (h : ∀ y, ∃ pc ∈ p :: L, y ∈ pc.1.set) :
    v.read (Elt F) (v.writes (Elt F) f (p :: L)) = View.canon (p :: L) := View.read_writes_eq_canon _ _ _ h
theorem rb_unit21_7 (w : S1024x1024.Idx → Elt F .f32) (L : List (View.Piece (Elt F) S1024x1024 .f32)) :
    View.canon ((⟨Rect.unit ![0, 0] S1024x1024.size inb_S1024x1024_S1024x1024_0_0, w⟩ : View.Piece (Elt F) S1024x1024 .f32) :: L) = w :=
  View.canon_cons_unit_zero (S := S1024x1024) hz2_21 inb_S1024x1024_S1024x1024_0_0 w L
/-- A whole-block store, last, is read back as its payload. -/
theorem readback21_7 {sp : Space} (v : View sig .tc sp S1024x1024 .f32) (f : v.ty.Contents (Elt F)) (w : S1024x1024.Idx → Elt F .f32)
    (L : List (View.Piece (Elt F) S1024x1024 .f32)) :
    v.read (Elt F) (v.writes (Elt F) f (⟨Rect.unit ![0, 0] S1024x1024.size inb_S1024x1024_S1024x1024_0_0, w⟩ :: L)) = w :=
  (rb_canon21_7 v f ⟨Rect.unit ![0, 0] S1024x1024.size inb_S1024x1024_S1024x1024_0_0, w⟩ L (cover_cons21 _ L (rb_cover21_7 w))).trans (rb_unit21_7 w L)

theorem rb_cover21_8 (w : S1024x1.Idx → Elt F .f32) (y : S1024x1.Idx) :
    ∃ pc ∈ ([⟨Rect.unit ![0, 0] S1024x1.size inb_S1024x1_S1024x1_0_0, w⟩] : List (View.Piece (Elt F) S1024x1 .f32)), y ∈ pc.1.set :=
  View.cover_of_tiled [⟨Rect.unit ![0, 0] S1024x1.size inb_S1024x1_S1024x1_0_0, w⟩] S1024x1.size (by rfl) y
theorem rb_canon21_8 {sp : Space} (v : View sig .tc sp S1024x1 .f32) (f : v.ty.Contents (Elt F)) (p : View.Piece (Elt F) S1024x1 .f32)
    (L : List (View.Piece (Elt F) S1024x1 .f32)) (h : ∀ y, ∃ pc ∈ p :: L, y ∈ pc.1.set) :
    v.read (Elt F) (v.writes (Elt F) f (p :: L)) = View.canon (p :: L) := View.read_writes_eq_canon _ _ _ h
theorem rb_unit21_8 (w : S1024x1.Idx → Elt F .f32) (L : List (View.Piece (Elt F) S1024x1 .f32)) :
    View.canon ((⟨Rect.unit ![0, 0] S1024x1.size inb_S1024x1_S1024x1_0_0, w⟩ : View.Piece (Elt F) S1024x1 .f32) :: L) = w :=
  View.canon_cons_unit_zero (S := S1024x1) hz2_21 inb_S1024x1_S1024x1_0_0 w L
/-- A whole-block store, last, is read back as its payload. -/
theorem readback21_8 {sp : Space} (v : View sig .tc sp S1024x1 .f32) (f : v.ty.Contents (Elt F)) (w : S1024x1.Idx → Elt F .f32)
    (L : List (View.Piece (Elt F) S1024x1 .f32)) :
    v.read (Elt F) (v.writes (Elt F) f (⟨Rect.unit ![0, 0] S1024x1.size inb_S1024x1_S1024x1_0_0, w⟩ :: L)) = w :=
  (rb_canon21_8 v f ⟨Rect.unit ![0, 0] S1024x1.size inb_S1024x1_S1024x1_0_0, w⟩ L (cover_cons21 _ L (rb_cover21_8 w))).trans (rb_unit21_8 w L)

theorem pay3_ld21 {sp0 sp1 : Space} (v0 : View sig .tc sp0 S1024x64 .f32) (f0 : v0.ty.Contents (Elt F)) (v1 : View sig .tc sp1 S1024x64 .f32) (f1 : v1.ty.Contents (Elt F)) :
    k21_pay3 (View.readAt (Elt F) v0 (Rect.unit ![0, 0] S1024x64.size inb_S1024x64_S1024x64_0_0).toLoadRect f0)
        (View.readAt (Elt F) v1 (Rect.unit ![0, 0] S1024x64.size inb_S1024x64_S1024x64_0_0).toLoadRect f1)
      = k21_pay3 (v0.read (Elt F) f0) (v1.read (Elt F) f1) := by
  simp only [View.readAt_eq_ld, View.ld_unit_zero (S := S1024x64) hz2_21]

theorem pay4_ld21 {sp2 sp3 sp4 : Space} (v2 : View sig .tc sp2 S1024x1024 .bf16) (f2 : v2.ty.Contents (Elt F)) (v3 : View sig .tc sp3 S1024x1 .f32) (f3 : v3.ty.Contents (Elt F))
    (v4 : View sig .tc sp4 S1x1024 .f32) (f4 : v4.ty.Contents (Elt F)) :
    k21_pay4 (View.readAt (Elt F) v2 (Rect.unit ![0, 0] S1024x1024.size inb_S1024x1024_S1024x1024_0_0).toLoadRect f2)
        (View.readAt (Elt F) v3 (Rect.unit ![0, 0] S1024x1.size inb_S1024x1_S1024x1_0_0).toLoadRect f3)
        (View.readAt (Elt F) v4 (Rect.unit ![0, 0] S1x1024.size inb_S1x1024_S1x1024_0_0).toLoadRect f4)
      = k21_pay4 (v2.read (Elt F) f2) (v3.read (Elt F) f3) (v4.read (Elt F) f4) := by
  simp only [View.readAt_eq_ld, View.ld_unit_zero (S := S1024x1024) hz2_21, View.ld_unit_zero (S := S1x1024) hz2_21, View.ld_unit_zero (S := S1024x1) hz2_21]

theorem readAt8_21 {sp : Space} (v : View sig .tc sp S1024x1 .f32) (f : v.ty.Contents (Elt F)) :
    View.readAt (Elt F) v (Rect.unit ![0, 0] S1024x1.size inb_S1024x1_S1024x1_0_0).toLoadRect f = v.read (Elt F) f := by
  simp only [View.readAt_eq_ld, View.ld_unit_zero (S := S1024x1) hz2_21]

/-- The running row sums after a point's body, from the point's blocks and what the sums were (zero at a first column block). -/
def rowNew21 (x0 x1 : Vec F S1024x64 .f32) (x2 : Vec F S1024x1024 .bf16) (x3 : Vec F S1024x1 .f32) (x4 : Vec F S1x1024 .f32) (r : Vec F S1024x1 .f32) : Vec F S1024x1 .f32 :=
  k21_pay1 (k21_pay3 x0 x1) (k21_pay4 x2 x3 x4) r

set_option maxHeartbeats 8000000 in
/-- The body at a first column block: the sums start over zero. -/
theorem sound_kernel21_A (c : Dev nD) (E : Set ℕ) (i : grid21.Coords) (hc1 : cFirst21 i)
    (arg2 : Memref sig .tc .vmem S1024x64 .f32) (harg2 : arg2.IsWhole) (arg3 : Memref sig .tc .vmem S1024x64 .f32) (harg3 : arg3.IsWhole)
    (arg4 : Memref sig .tc .vmem S1024x1024 .bf16) (harg4 : arg4.IsWhole) (arg5 : Memref sig .tc .vmem S1024x1 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1 .f32) (harg8 : arg8.IsWhole)
    (x0 x1 : Vec F S1024x64 .f32) (x2 : Vec F S1024x1024 .bf16) (x3 : Vec F S1024x1 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k21_pay4 x2 x3 x4)
            ∗ owns (c : Thread nD τ) arg8 fullShare (rowNew21 x0 x1 x2 x3 x4 (k21_pay2 (F := F)))) -∗ K ⟨⟩))
      ⊢ wp frame (wpE (defs₀ (F := F)) Variants.none c none) E (cc21__final_kernel i arg2 harg2 arg3 harg3 arg4 harg4 arg5 harg5 arg6 harg6 arg7 harg7 arg8 harg8) K := by
  simp only [cc21__final_kernel_eq_skeleton]; unfold cc21__final_kernel_skel
  simp only [k21_part1_eq_skeleton]; unfold k21_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (readback21_7 _ _ _ _).trans (pay4_ld21 _ _ _ _ _ _)
  iexists _; isplitr
  swap; · iexact H6
  ipureintro
  refine (readback21_8 _ _ _ _).trans ?_
  dsimp only
  sl_unfold_run_names
  unfold rowNew21
  exact congr (congr (congrArg k21_pay1 (pay3_ld21 _ _ _ _)) (pay4_ld21 _ _ _ _ _ _)) (View.readCov_unit_zero (S := S1024x1) _ hz2_21 inb_S1024x1_S1024x1_0_0 _)

set_option maxHeartbeats 8000000 in
/-- The body at a later column block: the sums gain the tile's row sums of coupling × cost. -/
theorem sound_kernel21_B (c : Dev nD) (E : Set ℕ) (i : grid21.Coords) (hc1 : ¬ cFirst21 i)
    (arg2 : Memref sig .tc .vmem S1024x64 .f32) (harg2 : arg2.IsWhole) (arg3 : Memref sig .tc .vmem S1024x64 .f32) (harg3 : arg3.IsWhole)
    (arg4 : Memref sig .tc .vmem S1024x1024 .bf16) (harg4 : arg4.IsWhole) (arg5 : Memref sig .tc .vmem S1024x1 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1 .f32) (harg8 : arg8.IsWhole)
    (x0 x1 : Vec F S1024x64 .f32) (x2 : Vec F S1024x1024 .bf16) (x3 : Vec F S1024x1 .f32) (x4 : Vec F S1x1024 .f32) (r : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare r
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k21_pay4 x2 x3 x4)
            ∗ owns (c : Thread nD τ) arg8 fullShare (rowNew21 x0 x1 x2 x3 x4 r)) -∗ K ⟨⟩))
      ⊢ wp frame (wpE (defs₀ (F := F)) Variants.none c none) E (cc21__final_kernel i arg2 harg2 arg3 harg3 arg4 harg4 arg5 harg5 arg6 harg6 arg7 harg7 arg8 harg8) K := by
  simp only [cc21__final_kernel_eq_skeleton]; unfold cc21__final_kernel_skel
  simp only [k21_part1_eq_skeleton]; unfold k21_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (readback21_7 _ _ _ _).trans (pay4_ld21 _ _ _ _ _ _)
  iexists _; isplitr
  swap; · iexact H6
  ipureintro
  refine (readback21_8 _ _ _ _).trans ?_
  dsimp only
  sl_unfold_run_names
  unfold rowNew21
  exact congr (congr (congrArg k21_pay1 (pay3_ld21 _ _ _ _)) (pay4_ld21 _ _ _ _ _ _)) (readAt8_21 _ _)

end Cert.KernelIdeal.Hand

end
-- ==== Proof.KI.R21.lean ====
/- Region 21 of the program, second half: the running row sums its second result's block carries between grid points, its proof data
   and the body obligation. -/
import proofs.«111645_j15006615733809_2_alg».proof.Proof.KI.R21a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ### The running sums point by point, the proof data and the body obligation -/

def rowAt21 (c : Dev nD) : (n : ℕ) → n < cfg21.N → Vec F S1024x1 .f32
  | 0, hn => rowNew21 (iblk21 V c 0 ⟨0, hn⟩) (iblk21 V c 1 ⟨0, hn⟩) (iblk21 V c 2 ⟨0, hn⟩) (iblk21 V c 3 ⟨0, hn⟩) (iblk21 V c 4 ⟨0, hn⟩) (k21_pay2 (F := F))
  | n + 1, hn =>
    if (n + 1) % 8 = 0 then rowNew21 (iblk21 V c 0 ⟨n + 1, hn⟩) (iblk21 V c 1 ⟨n + 1, hn⟩) (iblk21 V c 2 ⟨n + 1, hn⟩) (iblk21 V c 3 ⟨n + 1, hn⟩) (iblk21 V c 4 ⟨n + 1, hn⟩) (k21_pay2 (F := F))
    else rowNew21 (iblk21 V c 0 ⟨n + 1, hn⟩) (iblk21 V c 1 ⟨n + 1, hn⟩) (iblk21 V c 2 ⟨n + 1, hn⟩) (iblk21 V c 3 ⟨n + 1, hn⟩) (iblk21 V c 4 ⟨n + 1, hn⟩) (rowAt21 c n (Nat.lt_of_succ_lt hn))

theorem rowAt21_first (c : Dev nD) (t : Fin cfg21.N) (h : t.val % 8 = 0) :
    rowAt21 V c t.val t.isLt = rowNew21 (iblk21 V c 0 t) (iblk21 V c 1 t) (iblk21 V c 2 t) (iblk21 V c 3 t) (iblk21 V c 4 t) (k21_pay2 (F := F)) := by
  obtain ⟨n, hn⟩ := t
  cases n with
  | zero => rfl
  | succ n => exact if_pos h

theorem rowAt21_next (c : Dev nD) (t : Fin cfg21.N) (h : ¬ t.val % 8 = 0) :
    rowAt21 V c t.val t.isLt = rowNew21 (iblk21 V c 0 t) (iblk21 V c 1 t) (iblk21 V c 2 t) (iblk21 V c 3 t) (iblk21 V c 4 t) (rowAt21 V c (t.val - 1) (Nat.lt_of_le_of_lt (Nat.sub_le _ _) t.isLt)) := by
  obtain ⟨n, hn⟩ := t
  cases n with
  | zero => exact absurd (Nat.zero_mod _) h
  | succ n => exact if_neg h

def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => k21_pay4 (iblk21 V c 2 t) (iblk21 V c 3 t) (iblk21 V c 4 t)
    | ⟨6, _⟩ => rowAt21 V c t.val t.isLt
  Φ _ := Pipeline.ΦA spec21 c
  q _ := fullShare
  owed _ := 0

theorem A_eq21 (c : Dev nD) (w : Fin cfg21.W) : (dat21 V c).A w = V c (Pipeline.arrRef spec21 w) := by
  dsimp only [dat21]
theorem after21_0 (c : Dev nD) (t : Fin cfg21.N) : (dat21 V c).after 0 t = iblk21 V c 0 t := by dsimp only [dat21]
theorem before21_0 (c : Dev nD) (t : Fin cfg21.N) (d) : (dat21 V c).before 0 t d = iblk21 V c 0 t :=
  before21_0_of V (dat21 V c) (A_eq21 V c 0) (after21_0 V c) t d
theorem after21_1 (c : Dev nD) (t : Fin cfg21.N) : (dat21 V c).after 1 t = iblk21 V c 1 t := by dsimp only [dat21]
theorem before21_1 (c : Dev nD) (t : Fin cfg21.N) (d) : (dat21 V c).before 1 t d = iblk21 V c 1 t :=
  before21_1_of V (dat21 V c) (A_eq21 V c 1) (after21_1 V c) t d
theorem after21_2 (c : Dev nD) (t : Fin cfg21.N) : (dat21 V c).after 2 t = iblk21 V c 2 t := by dsimp only [dat21]
theorem before21_2 (c : Dev nD) (t : Fin cfg21.N) (d) : (dat21 V c).before 2 t d = iblk21 V c 2 t :=
  before21_2_of V (dat21 V c) (A_eq21 V c 2) (after21_2 V c) t d
theorem after21_3 (c : Dev nD) (t : Fin cfg21.N) : (dat21 V c).after 3 t = iblk21 V c 3 t := by dsimp only [dat21]
theorem before21_3 (c : Dev nD) (t : Fin cfg21.N) (d) : (dat21 V c).before 3 t d = iblk21 V c 3 t :=
  before21_3_of V (dat21 V c) (A_eq21 V c 3) (after21_3 V c) t d
theorem after21_4 (c : Dev nD) (t : Fin cfg21.N) : (dat21 V c).after 4 t = iblk21 V c 4 t := by dsimp only [dat21]
theorem before21_4 (c : Dev nD) (t : Fin cfg21.N) (d) : (dat21 V c).before 4 t d = iblk21 V c 4 t :=
  before21_4_of V (dat21 V c) (A_eq21 V c 4) (after21_4 V c) t d
theorem after21_5 (c : Dev nD) (t : Fin cfg21.N) : (dat21 V c).after 5 t = k21_pay4 (iblk21 V c 2 t) (iblk21 V c 3 t) (iblk21 V c 4 t) := by dsimp only [dat21]
theorem after21_6 (c : Dev nD) (t : Fin cfg21.N) : (dat21 V c).after 6 t = rowAt21 V c t.val t.isLt := by dsimp only [dat21]

/-- The row sums' buffer at a later column block holds what the point before left: the block is not written back between. -/
theorem before21_6 (c : Dev nD) (t : Fin cfg21.N) (h : ¬ t.val % 8 = 0) (d) :
    (dat21 V c).before 6 t d = rowAt21 V c (t.val - 1) (Nat.lt_of_le_of_lt (Nat.sub_le _ _) t.isLt) := by
  have ht : t.val ≠ 0 := fun e => h (by rw [e])
  rw [(dat21 V c).before_out_kept 6 rfl t ht (noFlush21_6 ⟨t.val - 1, Nat.lt_of_le_of_lt (Nat.sub_le _ _) t.isLt⟩ (by
      have hN : t.val < 64 := lt_of_lt_of_eq t.isLt (show cfg21.N = 64 from N_21)
      show ¬ (t.val - 1) % 8 = 7; omega)) (fun _ => rfl) (fun _ _ => rfl) d, after21_6]

def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d))
    ∗ (∃ d, owns (c : Thread nD τ) (st21_6 t) fullShare ((dat21 V c).before 6 t d)))

def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t)
    ∗ owns (c : Thread nD τ) (st21_6 t) fullShare ((dat21 V c).after 6 t))

set_option maxHeartbeats 4800000 in
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4]
  rw [show (dat21 V c).Φ t.succ = (dat21 V c).Φ t.castSucc from rfl,
    show (dat21 V c).owesAt () t.succ = (dat21 V c).owesAt () t.castSucc from rfl,
    after21_0, after21_1, after21_2, after21_3, after21_4, after21_5, after21_6]
  by_cases h0 : t.val % 8 = 0
  · rw [rowAt21_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel21_A c Set.univ (grid21.coords t) ((hFirst21 t).mpr h0) _ _ _ _ _ _ _ _ _ _ _ _ _ _ (iblk21 V c 0 t) (iblk21 V c 1 t) (iblk21 V c 2 t) (iblk21 V c 3 t) (iblk21 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [rowAt21_next V c t h0]
    simp only [before21_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel21_B c Set.univ (grid21.coords t) (fun h => h0 ((hFirst21 t).mp h)) _ _ _ _ _ _ _ _ _ _ _ _ _ _ (iblk21 V c 0 t) (iblk21 V c 1 t) (iblk21 V c 2 t) (iblk21 V c 3 t) (iblk21 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation21 (c : Dev nD) : BodyObligation (dat21 (F := F) V c) (defs₀ (F := F)) Variants.none () Set.univ := fun t => by
  rw [bigSep_W21, bigSep_W21]
  exact sound_body21 V c t

end Cert.KernelIdeal.Hand

end
-- ==== Proof.KI.Run.lean ====
/- The whole run of @main: the buffers' contents at every boundary between items (a fold from the launch memory: a host stretch
   applies its operations, a kernel region leaves its arrays at what its write-backs fold to and every other buffer alone), each region
   as a segment between two boundaries, and the run's post: every unscoped buffer ends at the last boundary's contents. -/
import proofs.«111645_j15006615733809_2_alg».proof.Proof.KI.R0
import proofs.«111645_j15006615733809_2_alg».proof.Proof.KI.R1
import proofs.«111645_j15006615733809_2_alg».proof.Proof.KI.R2
import proofs.«111645_j15006615733809_2_alg».proof.Proof.KI.R3
import proofs.«111645_j15006615733809_2_alg».proof.Proof.KI.R4
import proofs.«111645_j15006615733809_2_alg».proof.Proof.KI.R5
import proofs.«111645_j15006615733809_2_alg».proof.Proof.KI.R6
import proofs.«111645_j15006615733809_2_alg».proof.Proof.KI.R7
import proofs.«111645_j15006615733809_2_alg».proof.Proof.KI.R8
import proofs.«111645_j15006615733809_2_alg».proof.Proof.KI.R9
import proofs.«111645_j15006615733809_2_alg».proof.Proof.KI.R10
import proofs.«111645_j15006615733809_2_alg».proof.Proof.KI.R11
import proofs.«111645_j15006615733809_2_alg».proof.Proof.KI.R12
import proofs.«111645_j15006615733809_2_alg».proof.Proof.KI.R13
import proofs.«111645_j15006615733809_2_alg».proof.Proof.KI.R14
import proofs.«111645_j15006615733809_2_alg».proof.Proof.KI.R15
import proofs.«111645_j15006615733809_2_alg».proof.Proof.KI.R16
import proofs.«111645_j15006615733809_2_alg».proof.Proof.KI.R17
import proofs.«111645_j15006615733809_2_alg».proof.Proof.KI.R18
import proofs.«111645_j15006615733809_2_alg».proof.Proof.KI.R19
import proofs.«111645_j15006615733809_2_alg».proof.Proof.KI.R20
import proofs.«111645_j15006615733809_2_alg».proof.Proof.KI.R21
import proofs.«111645_j15006615733809_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core c's buffers at launch. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- At region 0's exit: its arrays at what the pipeline leaves, every other buffer as entered. -/
def WX0 (c : Dev nD) : Valuation τ sig (Elt F) :=
  Pipeline.withArrays spec0 c (W0 m ρ c) fun w => (dat0 (VE0 m ρ) c).arrAt w cfg0.N
theorem WX0_arr (c : Dev nD) (w : Fin cfg0.W) :
    WX0 m ρ c (Proc.devRef .tc (Pipeline.arrRef spec0 w)) = (dat0 (VE0 m ρ) c).arrAt w cfg0.N := by
  unfold WX0; exact Pipeline.withArrays_arr spec0 launch0.win.arr_inj c _ _ w
theorem WX0_of_ne (c : Dev nD) (b : Ref sig .tc) (hb : ∀ w, Pipeline.arrRef spec0 w ≠ b) :
    WX0 m ρ c (Proc.devRef .tc b) = W0 m ρ c (Proc.devRef .tc b) := by
  unfold WX0; exact Pipeline.withArrays_of_ne spec0 c _ _ b hb
abbrev VX0 : (c : Dev nD) → (b : Ref sig .tc) → Buf (Elt F) ((c : Thread nD τ).loc b) := fun c b => WX0 m ρ c b
theorem hF0 (c : Dev nD) (w : Fin cfg0.W) : (dat0 (VE0 m ρ) c).arrAt w cfg0.N = VX0 m ρ c (Pipeline.arrRef spec0 w) :=
  (WX0_arr m ρ c w).symm
theorem hrest0 (c : Dev nD) : ∀ b, b ∉ Finset.univ.image (Pipeline.arrRef spec0) → VX0 m ρ c b = VE0 m ρ c b :=
  fun b hb => WX0_of_ne m ρ c b fun w e => hb (Finset.mem_image.mpr ⟨w, Finset.mem_univ _, e⟩)
/-- Region 0 changes no buffer but its outputs' arrays. -/
theorem keep0 (c : Dev nD) (b : Ref sig .tc) (hb : ∀ w, (cfg0.win w).isOut = true → Pipeline.arrRef spec0 w ≠ b) :
    WX0 m ρ c (Proc.devRef .tc b) = W0 m ρ c (Proc.devRef .tc b) := by
  by_cases h : ∃ w, Pipeline.arrRef spec0 w = b
  · obtain ⟨w, rfl⟩ := h
    have hin : (cfg0.win w).isOut = false := by
      cases hh : (cfg0.win w).isOut
      · rfl
      · exact absurd rfl (hb w hh)
    exact (WX0_arr m ρ c w).trans (((dat0 (VE0 m ρ) c).arrAt_in w hin _).trans (A_eq0 (VE0 m ρ) c w))
  · exact WX0_of_ne m ρ c b (fun w e => h ⟨w, e⟩)
/-- After the first host stretch (the two all-ones vectors). -/
abbrev WE1 : Dev nD → Valuation τ sig (Elt F) := fun c => StableHlo.after hostOps1 (WX0 m ρ c)
abbrev VE1 : (c : Dev nD) → (b : Ref sig .tc) → Buf (Elt F) ((c : Thread nD τ).loc b) := fun c b => WE1 m ρ c b
/-- At region 1's exit: its arrays at what the pipeline leaves, every other buffer as entered. -/
def WX1 (c : Dev nD) : Valuation τ sig (Elt F) :=
  Pipeline.withArrays spec1 c (WE1 m ρ c) fun w => (dat1 (VE1 m ρ) c).arrAt w cfg1.N
theorem WX1_arr (c : Dev nD) (w : Fin cfg1.W) :
    WX1 m ρ c (Proc.devRef .tc (Pipeline.arrRef spec1 w)) = (dat1 (VE1 m ρ) c).arrAt w cfg1.N := by
  unfold WX1; exact Pipeline.withArrays_arr spec1 launch1.win.arr_inj c _ _ w
theorem WX1_of_ne (c : Dev nD) (b : Ref sig .tc) (hb : ∀ w, Pipeline.arrRef spec1 w ≠ b) :
    WX1 m ρ c (Proc.devRef .tc b) = WE1 m ρ c (Proc.devRef .tc b) := by
  unfold WX1; exact Pipeline.withArrays_of_ne spec1 c _ _ b hb
abbrev VX1 : (c : Dev nD) → (b : Ref sig .tc) → Buf (Elt F) ((c : Thread nD τ).loc b) := fun c b => WX1 m ρ c b
theorem hF1 (c : Dev nD) (w : Fin cfg1.W) : (dat1 (VE1 m ρ) c).arrAt w cfg1.N = VX1 m ρ c (Pipeline.arrRef spec1 w) :=
  (WX1_arr m ρ c w).symm
theorem hrest1 (c : Dev nD) : ∀ b, b ∉ Finset.univ.image (Pipeline.arrRef spec1) → VX1 m ρ c b = VE1 m ρ c b :=
  fun b hb => WX1_of_ne m ρ c b fun w e => hb (Finset.mem_image.mpr ⟨w, Finset.mem_univ _, e⟩)
/-- Region 1 changes no buffer but its outputs' arrays. -/
theorem keep1 (c : Dev nD) (b : Ref sig .tc) (hb : ∀ w, (cfg1.win w).isOut = true → Pipeline.arrRef spec1 w ≠ b) :
    WX1 m ρ c (Proc.devRef .tc b) = WE1 m ρ c (Proc.devRef .tc b) := by
  by_cases h : ∃ w, Pipeline.arrRef spec1 w = b
  · obtain ⟨w, rfl⟩ := h
    have hin : (cfg1.win w).isOut = false := by
      cases hh : (cfg1.win w).isOut
      · rfl
      · exact absurd rfl (hb w hh)
    exact (WX1_arr m ρ c w).trans (((dat1 (VE1 m ρ) c).arrAt_in w hin _).trans (A_eq1 (VE1 m ρ) c w))
  · exact WX1_of_ne m ρ c b (fun w e => h ⟨w, e⟩)
abbrev VE2 : (c : Dev nD) → (b : Ref sig .tc) → Buf (Elt F) ((c : Thread nD τ).loc b) := fun c b => WX1 m ρ c b
/-- At region 2's exit: its arrays at what the pipeline leaves, every other buffer as entered. -/
def WX2 (c : Dev nD) : Valuation τ sig (Elt F) :=
  Pipeline.withArrays spec2 c (WX1 m ρ c) fun w => (dat2 (VE2 m ρ) c).arrAt w cfg2.N
theorem WX2_arr (c : Dev nD) (w : Fin cfg2.W) :
    WX2 m ρ c (Proc.devRef .tc (Pipeline.arrRef spec2 w)) = (dat2 (VE2 m ρ) c).arrAt w cfg2.N := by
  unfold WX2; exact Pipeline.withArrays_arr spec2 launch2.win.arr_inj c _ _ w
theorem WX2_of_ne (c : Dev nD) (b : Ref sig .tc) (hb : ∀ w, Pipeline.arrRef spec2 w ≠ b) :
    WX2 m ρ c (Proc.devRef .tc b) = WX1 m ρ c (Proc.devRef .tc b) := by
  unfold WX2; exact Pipeline.withArrays_of_ne spec2 c _ _ b hb
abbrev VX2 : (c : Dev nD) → (b : Ref sig .tc) → Buf (Elt F) ((c : Thread nD τ).loc b) := fun c b => WX2 m ρ c b
theorem hF2 (c : Dev nD) (w : Fin cfg2.W) : (dat2 (VE2 m ρ) c).arrAt w cfg2.N = VX2 m ρ c (Pipeline.arrRef spec2 w) :=
  (WX2_arr m ρ c w).symm
theorem hrest2 (c : Dev nD) : ∀ b, b ∉ Finset.univ.image (Pipeline.arrRef spec2) → VX2 m ρ c b = VE2 m ρ c b :=
  fun b hb => WX2_of_ne m ρ c b fun w e => hb (Finset.mem_image.mpr ⟨w, Finset.mem_univ _, e⟩)
/-- Region 2 changes no buffer but its outputs' arrays. -/
theorem keep2 (c : Dev nD) (b : Ref sig .tc) (hb : ∀ w, (cfg2.win w).isOut = true → Pipeline.arrRef spec2 w ≠ b) :
    WX2 m ρ c (Proc.devRef .tc b) = WX1 m ρ c (Proc.devRef .tc b) := by
  by_cases h : ∃ w, Pipeline.arrRef spec2 w = b
  · obtain ⟨w, rfl⟩ := h
    have hin : (cfg2.win w).isOut = false := by
      cases hh : (cfg2.win w).isOut
      · rfl
      · exact absurd rfl (hb w hh)
    exact (WX2_arr m ρ c w).trans (((dat2 (VE2 m ρ) c).arrAt_in w hin _).trans (A_eq2 (VE2 m ρ) c w))
  · exact WX2_of_ne m ρ c b (fun w e => h ⟨w, e⟩)
abbrev VE3 : (c : Dev nD) → (b : Ref sig .tc) → Buf (Elt F) ((c : Thread nD τ).loc b) := fun c b => WX2 m ρ c b
/-- At region 3's exit: its arrays at what the pipeline leaves, every other buffer as entered. -/
def WX3 (c : Dev nD) : Valuation τ sig (Elt F) :=
  Pipeline.withArrays spec3 c (WX2 m ρ c) fun w => (dat3 (VE3 m ρ) c).arrAt w cfg3.N
theorem WX3_arr (c : Dev nD) (w : Fin cfg3.W) :
    WX3 m ρ c (Proc.devRef .tc (Pipeline.arrRef spec3 w)) = (dat3 (VE3 m ρ) c).arrAt w cfg3.N := by
  unfold WX3; exact Pipeline.withArrays_arr spec3 launch3.win.arr_inj c _ _ w
theorem WX3_of_ne (c : Dev nD) (b : Ref sig .tc) (hb : ∀ w, Pipeline.arrRef spec3 w ≠ b) :
    WX3 m ρ c (Proc.devRef .tc b) = WX2 m ρ c (Proc.devRef .tc b) := by
  unfold WX3; exact Pipeline.withArrays_of_ne spec3 c _ _ b hb
abbrev VX3 : (c : Dev nD) → (b : Ref sig .tc) → Buf (Elt F) ((c : Thread nD τ).loc b) := fun c b => WX3 m ρ c b
theorem hF3 (c : Dev nD) (w : Fin cfg3.W) : (dat3 (VE3 m ρ) c).arrAt w cfg3.N = VX3 m ρ c (Pipeline.arrRef spec3 w) :=
  (WX3_arr m ρ c w).symm
theorem hrest3 (c : Dev nD) : ∀ b, b ∉ Finset.univ.image (Pipeline.arrRef spec3) → VX3 m ρ c b = VE3 m ρ c b :=
  fun b hb => WX3_of_ne m ρ c b fun w e => hb (Finset.mem_image.mpr ⟨w, Finset.mem_univ _, e⟩)
/-- Region 3 changes no buffer but its outputs' arrays. -/
theorem keep3 (c : Dev nD) (b : Ref sig .tc) (hb : ∀ w, (cfg3.win w).isOut = true → Pipeline.arrRef spec3 w ≠ b) :
    WX3 m ρ c (Proc.devRef .tc b) = WX2 m ρ c (Proc.devRef .tc b) := by
  by_cases h : ∃ w, Pipeline.arrRef spec3 w = b
  · obtain ⟨w, rfl⟩ := h
    have hin : (cfg3.win w).isOut = false := by
      cases hh : (cfg3.win w).isOut
      · rfl
      · exact absurd rfl (hb w hh)
    exact (WX3_arr m ρ c w).trans (((dat3 (VE3 m ρ) c).arrAt_in w hin _).trans (A_eq3 (VE3 m ρ) c w))
  · exact WX3_of_ne m ρ c b (fun w e => h ⟨w, e⟩)
abbrev VE4 : (c : Dev nD) → (b : Ref sig .tc) → Buf (Elt F) ((c : Thread nD τ).loc b) := fun c b => WX3 m ρ c b
/-- At region 4's exit: its arrays at what the pipeline leaves, every other buffer as entered. -/
def WX4 (c : Dev nD) : Valuation τ sig (Elt F) :=
  Pipeline.withArrays spec4 c (WX3 m ρ c) fun w => (dat4 (VE4 m ρ) c).arrAt w cfg4.N
theorem WX4_arr (c : Dev nD) (w : Fin cfg4.W) :
    WX4 m ρ c (Proc.devRef .tc (Pipeline.arrRef spec4 w)) = (dat4 (VE4 m ρ) c).arrAt w cfg4.N := by
  unfold WX4; exact Pipeline.withArrays_arr spec4 launch4.win.arr_inj c _ _ w
theorem WX4_of_ne (c : Dev nD) (b : Ref sig .tc) (hb : ∀ w, Pipeline.arrRef spec4 w ≠ b) :
    WX4 m ρ c (Proc.devRef .tc b) = WX3 m ρ c (Proc.devRef .tc b) := by
  unfold WX4; exact Pipeline.withArrays_of_ne spec4 c _ _ b hb
abbrev VX4 : (c : Dev nD) → (b : Ref sig .tc) → Buf (Elt F) ((c : Thread nD τ).loc b) := fun c b => WX4 m ρ c b
theorem hF4 (c : Dev nD) (w : Fin cfg4.W) : (dat4 (VE4 m ρ) c).arrAt w cfg4.N = VX4 m ρ c (Pipeline.arrRef spec4 w) :=
  (WX4_arr m ρ c w).symm
theorem hrest4 (c : Dev nD) : ∀ b, b ∉ Finset.univ.image (Pipeline.arrRef spec4) → VX4 m ρ c b = VE4 m ρ c b :=
  fun b hb => WX4_of_ne m ρ c b fun w e => hb (Finset.mem_image.mpr ⟨w, Finset.mem_univ _, e⟩)
/-- Region 4 changes no buffer but its outputs' arrays. -/
theorem keep4 (c : Dev nD) (b : Ref sig .tc) (hb : ∀ w, (cfg4.win w).isOut = true → Pipeline.arrRef spec4 w ≠ b) :
    WX4 m ρ c (Proc.devRef .tc b) = WX3 m ρ c (Proc.devRef .tc b) := by
  by_cases h : ∃ w, Pipeline.arrRef spec4 w = b
  · obtain ⟨w, rfl⟩ := h
    have hin : (cfg4.win w).isOut = false := by
      cases hh : (cfg4.win w).isOut
      · rfl
      · exact absurd rfl (hb w hh)
    exact (WX4_arr m ρ c w).trans (((dat4 (VE4 m ρ) c).arrAt_in w hin _).trans (A_eq4 (VE4 m ρ) c w))
  · exact WX4_of_ne m ρ c b (fun w e => h ⟨w, e⟩)
abbrev VE5 : (c : Dev nD) → (b : Ref sig .tc) → Buf (Elt F) ((c : Thread nD τ).loc b) := fun c b => WX4 m ρ c b
/-- At region 5's exit: its arrays at what the pipeline leaves, every other buffer as entered. -/
def WX5 (c : Dev nD) : Valuation τ sig (Elt F) :=
  Pipeline.withArrays spec5 c (WX4 m ρ c) fun w => (dat5 (VE5 m ρ) c).arrAt w cfg5.N
theorem WX5_arr (c : Dev nD) (w : Fin cfg5.W) :
    WX5 m ρ c (Proc.devRef .tc (Pipeline.arrRef spec5 w)) = (dat5 (VE5 m ρ) c).arrAt w cfg5.N := by
  unfold WX5; exact Pipeline.withArrays_arr spec5 launch5.win.arr_inj c _ _ w
theorem WX5_of_ne (c : Dev nD) (b : Ref sig .tc) (hb : ∀ w, Pipeline.arrRef spec5 w ≠ b) :
    WX5 m ρ c (Proc.devRef .tc b) = WX4 m ρ c (Proc.devRef .tc b) := by
  unfold WX5; exact Pipeline.withArrays_of_ne spec5 c _ _ b hb
abbrev VX5 : (c : Dev nD) → (b : Ref sig .tc) → Buf (Elt F) ((c : Thread nD τ).loc b) := fun c b => WX5 m ρ c b
theorem hF5 (c : Dev nD) (w : Fin cfg5.W) : (dat5 (VE5 m ρ) c).arrAt w cfg5.N = VX5 m ρ c (Pipeline.arrRef spec5 w) :=
  (WX5_arr m ρ c w).symm
theorem hrest5 (c : Dev nD) : ∀ b, b ∉ Finset.univ.image (Pipeline.arrRef spec5) → VX5 m ρ c b = VE5 m ρ c b :=
  fun b hb => WX5_of_ne m ρ c b fun w e => hb (Finset.mem_image.mpr ⟨w, Finset.mem_univ _, e⟩)
/-- Region 5 changes no buffer but its outputs' arrays. -/
theorem keep5 (c : Dev nD) (b : Ref sig .tc) (hb : ∀ w, (cfg5.win w).isOut = true → Pipeline.arrRef spec5 w ≠ b) :
    WX5 m ρ c (Proc.devRef .tc b) = WX4 m ρ c (Proc.devRef .tc b) := by
  by_cases h : ∃ w, Pipeline.arrRef spec5 w = b
  · obtain ⟨w, rfl⟩ := h
    have hin : (cfg5.win w).isOut = false := by
      cases hh : (cfg5.win w).isOut
      · rfl
      · exact absurd rfl (hb w hh)
    exact (WX5_arr m ρ c w).trans (((dat5 (VE5 m ρ) c).arrAt_in w hin _).trans (A_eq5 (VE5 m ρ) c w))
  · exact WX5_of_ne m ρ c b (fun w e => h ⟨w, e⟩)
abbrev VE6 : (c : Dev nD) → (b : Ref sig .tc) → Buf (Elt F) ((c : Thread nD τ).loc b) := fun c b => WX5 m ρ c b
/-- At region 6's exit: its arrays at what the pipeline leaves, every other buffer as entered. -/
def WX6 (c : Dev nD) : Valuation τ sig (Elt F) :=
  Pipeline.withArrays spec6 c (WX5 m ρ c) fun w => (dat6 (VE6 m ρ) c).arrAt w cfg6.N
theorem WX6_arr (c : Dev nD) (w : Fin cfg6.W) :
    WX6 m ρ c (Proc.devRef .tc (Pipeline.arrRef spec6 w)) = (dat6 (VE6 m ρ) c).arrAt w cfg6.N := by
  unfold WX6; exact Pipeline.withArrays_arr spec6 launch6.win.arr_inj c _ _ w
theorem WX6_of_ne (c : Dev nD) (b : Ref sig .tc) (hb : ∀ w, Pipeline.arrRef spec6 w ≠ b) :
    WX6 m ρ c (Proc.devRef .tc b) = WX5 m ρ c (Proc.devRef .tc b) := by
  unfold WX6; exact Pipeline.withArrays_of_ne spec6 c _ _ b hb
abbrev VX6 : (c : Dev nD) → (b : Ref sig .tc) → Buf (Elt F) ((c : Thread nD τ).loc b) := fun c b => WX6 m ρ c b
theorem hF6 (c : Dev nD) (w : Fin cfg6.W) : (dat6 (VE6 m ρ) c).arrAt w cfg6.N = VX6 m ρ c (Pipeline.arrRef spec6 w) :=
  (WX6_arr m ρ c w).symm
theorem hrest6 (c : Dev nD) : ∀ b, b ∉ Finset.univ.image (Pipeline.arrRef spec6) → VX6 m ρ c b = VE6 m ρ c b :=
  fun b hb => WX6_of_ne m ρ c b fun w e => hb (Finset.mem_image.mpr ⟨w, Finset.mem_univ _, e⟩)
/-- Region 6 changes no buffer but its outputs' arrays. -/
theorem keep6 (c : Dev nD) (b : Ref sig .tc) (hb : ∀ w, (cfg6.win w).isOut = true → Pipeline.arrRef spec6 w ≠ b) :
    WX6 m ρ c (Proc.devRef .tc b) = WX5 m ρ c (Proc.devRef .tc b) := by
  by_cases h : ∃ w, Pipeline.arrRef spec6 w = b
  · obtain ⟨w, rfl⟩ := h
    have hin : (cfg6.win w).isOut = false := by
      cases hh : (cfg6.win w).isOut
      · rfl
      · exact absurd rfl (hb w hh)
    exact (WX6_arr m ρ c w).trans (((dat6 (VE6 m ρ) c).arrAt_in w hin _).trans (A_eq6 (VE6 m ρ) c w))
  · exact WX6_of_ne m ρ c b (fun w e => h ⟨w, e⟩)
abbrev VE7 : (c : Dev nD) → (b : Ref sig .tc) → Buf (Elt F) ((c : Thread nD τ).loc b) := fun c b => WX6 m ρ c b
/-- At region 7's exit: its arrays at what the pipeline leaves, every other buffer as entered. -/
def WX7 (c : Dev nD) : Valuation τ sig (Elt F) :=
  Pipeline.withArrays spec7 c (WX6 m ρ c) fun w => (dat7 (VE7 m ρ) c).arrAt w cfg7.N
theorem WX7_arr (c : Dev nD) (w : Fin cfg7.W) :
    WX7 m ρ c (Proc.devRef .tc (Pipeline.arrRef spec7 w)) = (dat7 (VE7 m ρ) c).arrAt w cfg7.N := by
  unfold WX7; exact Pipeline.withArrays_arr spec7 launch7.win.arr_inj c _ _ w
theorem WX7_of_ne (c : Dev nD) (b : Ref sig .tc) (hb : ∀ w, Pipeline.arrRef spec7 w ≠ b) :
    WX7 m ρ c (Proc.devRef .tc b) = WX6 m ρ c (Proc.devRef .tc b) := by
  unfold WX7; exact Pipeline.withArrays_of_ne spec7 c _ _ b hb
abbrev VX7 : (c : Dev nD) → (b : Ref sig .tc) → Buf (Elt F) ((c : Thread nD τ).loc b) := fun c b => WX7 m ρ c b
theorem hF7 (c : Dev nD) (w : Fin cfg7.W) : (dat7 (VE7 m ρ) c).arrAt w cfg7.N = VX7 m ρ c (Pipeline.arrRef spec7 w) :=
  (WX7_arr m ρ c w).symm
theorem hrest7 (c : Dev nD) : ∀ b, b ∉ Finset.univ.image (Pipeline.arrRef spec7) → VX7 m ρ c b = VE7 m ρ c b :=
  fun b hb => WX7_of_ne m ρ c b fun w e => hb (Finset.mem_image.mpr ⟨w, Finset.mem_univ _, e⟩)
/-- Region 7 changes no buffer but its outputs' arrays. -/
theorem keep7 (c : Dev nD) (b : Ref sig .tc) (hb : ∀ w, (cfg7.win w).isOut = true → Pipeline.arrRef spec7 w ≠ b) :
    WX7 m ρ c (Proc.devRef .tc b) = WX6 m ρ c (Proc.devRef .tc b) := by
  by_cases h : ∃ w, Pipeline.arrRef spec7 w = b
  · obtain ⟨w, rfl⟩ := h
    have hin : (cfg7.win w).isOut = false := by
      cases hh : (cfg7.win w).isOut
      · rfl
      · exact absurd rfl (hb w hh)
    exact (WX7_arr m ρ c w).trans (((dat7 (VE7 m ρ) c).arrAt_in w hin _).trans (A_eq7 (VE7 m ρ) c w))
  · exact WX7_of_ne m ρ c b (fun w e => h ⟨w, e⟩)
abbrev VE8 : (c : Dev nD) → (b : Ref sig .tc) → Buf (Elt F) ((c : Thread nD τ).loc b) := fun c b => WX7 m ρ c b
/-- At region 8's exit: its arrays at what the pipeline leaves, every other buffer as entered. -/
def WX8 (c : Dev nD) : Valuation τ sig (Elt F) :=
  Pipeline.withArrays spec8 c (WX7 m ρ c) fun w => (dat8 (VE8 m ρ) c).arrAt w cfg8.N
theorem WX8_arr (c : Dev nD) (w : Fin cfg8.W) :
    WX8 m ρ c (Proc.devRef .tc (Pipeline.arrRef spec8 w)) = (dat8 (VE8 m ρ) c).arrAt w cfg8.N := by
  unfold WX8; exact Pipeline.withArrays_arr spec8 launch8.win.arr_inj c _ _ w
theorem WX8_of_ne (c : Dev nD) (b : Ref sig .tc) (hb : ∀ w, Pipeline.arrRef spec8 w ≠ b) :
    WX8 m ρ c (Proc.devRef .tc b) = WX7 m ρ c (Proc.devRef .tc b) := by
  unfold WX8; exact Pipeline.withArrays_of_ne spec8 c _ _ b hb
abbrev VX8 : (c : Dev nD) → (b : Ref sig .tc) → Buf (Elt F) ((c : Thread nD τ).loc b) := fun c b => WX8 m ρ c b
theorem hF8 (c : Dev nD) (w : Fin cfg8.W) : (dat8 (VE8 m ρ) c).arrAt w cfg8.N = VX8 m ρ c (Pipeline.arrRef spec8 w) :=
  (WX8_arr m ρ c w).symm
theorem hrest8 (c : Dev nD) : ∀ b, b ∉ Finset.univ.image (Pipeline.arrRef spec8) → VX8 m ρ c b = VE8 m ρ c b :=
  fun b hb => WX8_of_ne m ρ c b fun w e => hb (Finset.mem_image.mpr ⟨w, Finset.mem_univ _, e⟩)
/-- Region 8 changes no buffer but its outputs' arrays. -/
theorem keep8 (c : Dev nD) (b : Ref sig .tc) (hb : ∀ w, (cfg8.win w).isOut = true → Pipeline.arrRef spec8 w ≠ b) :
    WX8 m ρ c (Proc.devRef .tc b) = WX7 m ρ c (Proc.devRef .tc b) := by
  by_cases h : ∃ w, Pipeline.arrRef spec8 w = b
  · obtain ⟨w, rfl⟩ := h
    have hin : (cfg8.win w).isOut = false := by
      cases hh : (cfg8.win w).isOut
      · rfl
      · exact absurd rfl (hb w hh)
    exact (WX8_arr m ρ c w).trans (((dat8 (VE8 m ρ) c).arrAt_in w hin _).trans (A_eq8 (VE8 m ρ) c w))
  · exact WX8_of_ne m ρ c b (fun w e => h ⟨w, e⟩)
abbrev VE9 : (c : Dev nD) → (b : Ref sig .tc) → Buf (Elt F) ((c : Thread nD τ).loc b) := fun c b => WX8 m ρ c b
/-- At region 9's exit: its arrays at what the pipeline leaves, every other buffer as entered. -/
def WX9 (c : Dev nD) : Valuation τ sig (Elt F) :=
  Pipeline.withArrays spec9 c (WX8 m ρ c) fun w => (dat9 (VE9 m ρ) c).arrAt w cfg9.N
theorem WX9_arr (c : Dev nD) (w : Fin cfg9.W) :
    WX9 m ρ c (Proc.devRef .tc (Pipeline.arrRef spec9 w)) = (dat9 (VE9 m ρ) c).arrAt w cfg9.N := by
  unfold WX9; exact Pipeline.withArrays_arr spec9 launch9.win.arr_inj c _ _ w
theorem WX9_of_ne (c : Dev nD) (b : Ref sig .tc) (hb : ∀ w, Pipeline.arrRef spec9 w ≠ b) :
    WX9 m ρ c (Proc.devRef .tc b) = WX8 m ρ c (Proc.devRef .tc b) := by
  unfold WX9; exact Pipeline.withArrays_of_ne spec9 c _ _ b hb
abbrev VX9 : (c : Dev nD) → (b : Ref sig .tc) → Buf (Elt F) ((c : Thread nD τ).loc b) := fun c b => WX9 m ρ c b
theorem hF9 (c : Dev nD) (w : Fin cfg9.W) : (dat9 (VE9 m ρ) c).arrAt w cfg9.N = VX9 m ρ c (Pipeline.arrRef spec9 w) :=
  (WX9_arr m ρ c w).symm
theorem hrest9 (c : Dev nD) : ∀ b, b ∉ Finset.univ.image (Pipeline.arrRef spec9) → VX9 m ρ c b = VE9 m ρ c b :=
  fun b hb => WX9_of_ne m ρ c b fun w e => hb (Finset.mem_image.mpr ⟨w, Finset.mem_univ _, e⟩)
/-- Region 9 changes no buffer but its outputs' arrays. -/
theorem keep9 (c : Dev nD) (b : Ref sig .tc) (hb : ∀ w, (cfg9.win w).isOut = true → Pipeline.arrRef spec9 w ≠ b) :
    WX9 m ρ c (Proc.devRef .tc b) = WX8 m ρ c (Proc.devRef .tc b) := by
  by_cases h : ∃ w, Pipeline.arrRef spec9 w = b
  · obtain ⟨w, rfl⟩ := h
    have hin : (cfg9.win w).isOut = false := by
      cases hh : (cfg9.win w).isOut
      · rfl
      · exact absurd rfl (hb w hh)
    exact (WX9_arr m ρ c w).trans (((dat9 (VE9 m ρ) c).arrAt_in w hin _).trans (A_eq9 (VE9 m ρ) c w))
  · exact WX9_of_ne m ρ c b (fun w e => h ⟨w, e⟩)
abbrev VE10 : (c : Dev nD) → (b : Ref sig .tc) → Buf (Elt F) ((c : Thread nD τ).loc b) := fun c b => WX9 m ρ c b
/-- At region 10's exit: its arrays at what the pipeline leaves, every other buffer as entered. -/
def WX10 (c : Dev nD) : Valuation τ sig (Elt F) :=
  Pipeline.withArrays spec10 c (WX9 m ρ c) fun w => (dat10 (VE10 m ρ) c).arrAt w cfg10.N
theorem WX10_arr (c : Dev nD) (w : Fin cfg10.W) :
    WX10 m ρ c (Proc.devRef .tc (Pipeline.arrRef spec10 w)) = (dat10 (VE10 m ρ) c).arrAt w cfg10.N := by
  unfold WX10; exact Pipeline.withArrays_arr spec10 launch10.win.arr_inj c _ _ w
theorem WX10_of_ne (c : Dev nD) (b : Ref sig .tc) (hb : ∀ w, Pipeline.arrRef spec10 w ≠ b) :
    WX10 m ρ c (Proc.devRef .tc b) = WX9 m ρ c (Proc.devRef .tc b) := by
  unfold WX10; exact Pipeline.withArrays_of_ne spec10 c _ _ b hb
abbrev VX10 : (c : Dev nD) → (b : Ref sig .tc) → Buf (Elt F) ((c : Thread nD τ).loc b) := fun c b => WX10 m ρ c b
theorem hF10 (c : Dev nD) (w : Fin cfg10.W) : (dat10 (VE10 m ρ) c).arrAt w cfg10.N = VX10 m ρ c (Pipeline.arrRef spec10 w) :=
  (WX10_arr m ρ c w).symm
theorem hrest10 (c : Dev nD) : ∀ b, b ∉ Finset.univ.image (Pipeline.arrRef spec10) → VX10 m ρ c b = VE10 m ρ c b :=
  fun b hb => WX10_of_ne m ρ c b fun w e => hb (Finset.mem_image.mpr ⟨w, Finset.mem_univ _, e⟩)
/-- Region 10 changes no buffer but its outputs' arrays. -/
theorem keep10 (c : Dev nD) (b : Ref sig .tc) (hb : ∀ w, (cfg10.win w).isOut = true → Pipeline.arrRef spec10 w ≠ b) :
    WX10 m ρ c (Proc.devRef .tc b) = WX9 m ρ c (Proc.devRef .tc b) := by
  by_cases h : ∃ w, Pipeline.arrRef spec10 w = b
  · obtain ⟨w, rfl⟩ := h
    have hin : (cfg10.win w).isOut = false := by
      cases hh : (cfg10.win w).isOut
      · rfl
      · exact absurd rfl (hb w hh)
    exact (WX10_arr m ρ c w).trans (((dat10 (VE10 m ρ) c).arrAt_in w hin _).trans (A_eq10 (VE10 m ρ) c w))
  · exact WX10_of_ne m ρ c b (fun w e => h ⟨w, e⟩)
abbrev VE11 : (c : Dev nD) → (b : Ref sig .tc) → Buf (Elt F) ((c : Thread nD τ).loc b) := fun c b => WX10 m ρ c b
/-- At region 11's exit: its arrays at what the pipeline leaves, every other buffer as entered. -/
def WX11 (c : Dev nD) : Valuation τ sig (Elt F) :=
  Pipeline.withArrays spec11 c (WX10 m ρ c) fun w => (dat11 (VE11 m ρ) c).arrAt w cfg11.N
theorem WX11_arr (c : Dev nD) (w : Fin cfg11.W) :
    WX11 m ρ c (Proc.devRef .tc (Pipeline.arrRef spec11 w)) = (dat11 (VE11 m ρ) c).arrAt w cfg11.N := by
  unfold WX11; exact Pipeline.withArrays_arr spec11 launch11.win.arr_inj c _ _ w
theorem WX11_of_ne (c : Dev nD) (b : Ref sig .tc) (hb : ∀ w, Pipeline.arrRef spec11 w ≠ b) :
    WX11 m ρ c (Proc.devRef .tc b) = WX10 m ρ c (Proc.devRef .tc b) := by
  unfold WX11; exact Pipeline.withArrays_of_ne spec11 c _ _ b hb
abbrev VX11 : (c : Dev nD) → (b : Ref sig .tc) → Buf (Elt F) ((c : Thread nD τ).loc b) := fun c b => WX11 m ρ c b
theorem hF11 (c : Dev nD) (w : Fin cfg11.W) : (dat11 (VE11 m ρ) c).arrAt w cfg11.N = VX11 m ρ c (Pipeline.arrRef spec11 w) :=
  (WX11_arr m ρ c w).symm
theorem hrest11 (c : Dev nD) : ∀ b, b ∉ Finset.univ.image (Pipeline.arrRef spec11) → VX11 m ρ c b = VE11 m ρ c b :=
  fun b hb => WX11_of_ne m ρ c b fun w e => hb (Finset.mem_image.mpr ⟨w, Finset.mem_univ _, e⟩)
/-- Region 11 changes no buffer but its outputs' arrays. -/
theorem keep11 (c : Dev nD) (b : Ref sig .tc) (hb : ∀ w, (cfg11.win w).isOut = true → Pipeline.arrRef spec11 w ≠ b) :
    WX11 m ρ c (Proc.devRef .tc b) = WX10 m ρ c (Proc.devRef .tc b) := by
  by_cases h : ∃ w, Pipeline.arrRef spec11 w = b
  · obtain ⟨w, rfl⟩ := h
    have hin : (cfg11.win w).isOut = false := by
      cases hh : (cfg11.win w).isOut
      · rfl
      · exact absurd rfl (hb w hh)
    exact (WX11_arr m ρ c w).trans (((dat11 (VE11 m ρ) c).arrAt_in w hin _).trans (A_eq11 (VE11 m ρ) c w))
  · exact WX11_of_ne m ρ c b (fun w e => h ⟨w, e⟩)
abbrev VE12 : (c : Dev nD) → (b : Ref sig .tc) → Buf (Elt F) ((c : Thread nD τ).loc b) := fun c b => WX11 m ρ c b
/-- At region 12's exit: its arrays at what the pipeline leaves, every other buffer as entered. -/
def WX12 (c : Dev nD) : Valuation τ sig (Elt F) :=
  Pipeline.withArrays spec12 c (WX11 m ρ c) fun w => (dat12 (VE12 m ρ) c).arrAt w cfg12.N
theorem WX12_arr (c : Dev nD) (w : Fin cfg12.W) :
    WX12 m ρ c (Proc.devRef .tc (Pipeline.arrRef spec12 w)) = (dat12 (VE12 m ρ) c).arrAt w cfg12.N := by
  unfold WX12; exact Pipeline.withArrays_arr spec12 launch12.win.arr_inj c _ _ w
theorem WX12_of_ne (c : Dev nD) (b : Ref sig .tc) (hb : ∀ w, Pipeline.arrRef spec12 w ≠ b) :
    WX12 m ρ c (Proc.devRef .tc b) = WX11 m ρ c (Proc.devRef .tc b) := by
  unfold WX12; exact Pipeline.withArrays_of_ne spec12 c _ _ b hb
abbrev VX12 : (c : Dev nD) → (b : Ref sig .tc) → Buf (Elt F) ((c : Thread nD τ).loc b) := fun c b => WX12 m ρ c b
theorem hF12 (c : Dev nD) (w : Fin cfg12.W) : (dat12 (VE12 m ρ) c).arrAt w cfg12.N = VX12 m ρ c (Pipeline.arrRef spec12 w) :=
  (WX12_arr m ρ c w).symm
theorem hrest12 (c : Dev nD) : ∀ b, b ∉ Finset.univ.image (Pipeline.arrRef spec12) → VX12 m ρ c b = VE12 m ρ c b :=
  fun b hb => WX12_of_ne m ρ c b fun w e => hb (Finset.mem_image.mpr ⟨w, Finset.mem_univ _, e⟩)
/-- Region 12 changes no buffer but its outputs' arrays. -/
theorem keep12 (c : Dev nD) (b : Ref sig .tc) (hb : ∀ w, (cfg12.win w).isOut = true → Pipeline.arrRef spec12 w ≠ b) :
    WX12 m ρ c (Proc.devRef .tc b) = WX11 m ρ c (Proc.devRef .tc b) := by
  by_cases h : ∃ w, Pipeline.arrRef spec12 w = b
  · obtain ⟨w, rfl⟩ := h
    have hin : (cfg12.win w).isOut = false := by
      cases hh : (cfg12.win w).isOut
      · rfl
      · exact absurd rfl (hb w hh)
    exact (WX12_arr m ρ c w).trans (((dat12 (VE12 m ρ) c).arrAt_in w hin _).trans (A_eq12 (VE12 m ρ) c w))
  · exact WX12_of_ne m ρ c b (fun w e => h ⟨w, e⟩)
abbrev VE13 : (c : Dev nD) → (b : Ref sig .tc) → Buf (Elt F) ((c : Thread nD τ).loc b) := fun c b => WX12 m ρ c b
/-- At region 13's exit: its arrays at what the pipeline leaves, every other buffer as entered. -/
def WX13 (c : Dev nD) : Valuation τ sig (Elt F) :=
  Pipeline.withArrays spec13 c (WX12 m ρ c) fun w => (dat13 (VE13 m ρ) c).arrAt w cfg13.N
theorem WX13_arr (c : Dev nD) (w : Fin cfg13.W) :
    WX13 m ρ c (Proc.devRef .tc (Pipeline.arrRef spec13 w)) = (dat13 (VE13 m ρ) c).arrAt w cfg13.N := by
  unfold WX13; exact Pipeline.withArrays_arr spec13 launch13.win.arr_inj c _ _ w
theorem WX13_of_ne (c : Dev nD) (b : Ref sig .tc) (hb : ∀ w, Pipeline.arrRef spec13 w ≠ b) :
    WX13 m ρ c (Proc.devRef .tc b) = WX12 m ρ c (Proc.devRef .tc b) := by
  unfold WX13; exact Pipeline.withArrays_of_ne spec13 c _ _ b hb
abbrev VX13 : (c : Dev nD) → (b : Ref sig .tc) → Buf (Elt F) ((c : Thread nD τ).loc b) := fun c b => WX13 m ρ c b
theorem hF13 (c : Dev nD) (w : Fin cfg13.W) : (dat13 (VE13 m ρ) c).arrAt w cfg13.N = VX13 m ρ c (Pipeline.arrRef spec13 w) :=
  (WX13_arr m ρ c w).symm
theorem hrest13 (c : Dev nD) : ∀ b, b ∉ Finset.univ.image (Pipeline.arrRef spec13) → VX13 m ρ c b = VE13 m ρ c b :=
  fun b hb => WX13_of_ne m ρ c b fun w e => hb (Finset.mem_image.mpr ⟨w, Finset.mem_univ _, e⟩)
/-- Region 13 changes no buffer but its outputs' arrays. -/
theorem keep13 (c : Dev nD) (b : Ref sig .tc) (hb : ∀ w, (cfg13.win w).isOut = true → Pipeline.arrRef spec13 w ≠ b) :
    WX13 m ρ c (Proc.devRef .tc b) = WX12 m ρ c (Proc.devRef .tc b) := by
  by_cases h : ∃ w, Pipeline.arrRef spec13 w = b
  · obtain ⟨w, rfl⟩ := h
    have hin : (cfg13.win w).isOut = false := by
      cases hh : (cfg13.win w).isOut
      · rfl
      · exact absurd rfl (hb w hh)
    exact (WX13_arr m ρ c w).trans (((dat13 (VE13 m ρ) c).arrAt_in w hin _).trans (A_eq13 (VE13 m ρ) c w))
  · exact WX13_of_ne m ρ c b (fun w e => h ⟨w, e⟩)
abbrev VE14 : (c : Dev nD) → (b : Ref sig .tc) → Buf (Elt F) ((c : Thread nD τ).loc b) := fun c b => WX13 m ρ c b
/-- At region 14's exit: its arrays at what the pipeline leaves, every other buffer as entered. -/
def WX14 (c : Dev nD) : Valuation τ sig (Elt F) :=
  Pipeline.withArrays spec14 c (WX13 m ρ c) fun w => (dat14 (VE14 m ρ) c).arrAt w cfg14.N
theorem WX14_arr (c : Dev nD) (w : Fin cfg14.W) :
    WX14 m ρ c (Proc.devRef .tc (Pipeline.arrRef spec14 w)) = (dat14 (VE14 m ρ) c).arrAt w cfg14.N := by
  unfold WX14; exact Pipeline.withArrays_arr spec14 launch14.win.arr_inj c _ _ w
theorem WX14_of_ne (c : Dev nD) (b : Ref sig .tc) (hb : ∀ w, Pipeline.arrRef spec14 w ≠ b) :
    WX14 m ρ c (Proc.devRef .tc b) = WX13 m ρ c (Proc.devRef .tc b) := by
  unfold WX14; exact Pipeline.withArrays_of_ne spec14 c _ _ b hb
abbrev VX14 : (c : Dev nD) → (b : Ref sig .tc) → Buf (Elt F) ((c : Thread nD τ).loc b) := fun c b => WX14 m ρ c b
theorem hF14 (c : Dev nD) (w : Fin cfg14.W) : (dat14 (VE14 m ρ) c).arrAt w cfg14.N = VX14 m ρ c (Pipeline.arrRef spec14 w) :=
  (WX14_arr m ρ c w).symm
theorem hrest14 (c : Dev nD) : ∀ b, b ∉ Finset.univ.image (Pipeline.arrRef spec14) → VX14 m ρ c b = VE14 m ρ c b :=
  fun b hb => WX14_of_ne m ρ c b fun w e => hb (Finset.mem_image.mpr ⟨w, Finset.mem_univ _, e⟩)
/-- Region 14 changes no buffer but its outputs' arrays. -/
theorem keep14 (c : Dev nD) (b : Ref sig .tc) (hb : ∀ w, (cfg14.win w).isOut = true → Pipeline.arrRef spec14 w ≠ b) :
    WX14 m ρ c (Proc.devRef .tc b) = WX13 m ρ c (Proc.devRef .tc b) := by
  by_cases h : ∃ w, Pipeline.arrRef spec14 w = b
  · obtain ⟨w, rfl⟩ := h
    have hin : (cfg14.win w).isOut = false := by
      cases hh : (cfg14.win w).isOut
      · rfl
      · exact absurd rfl (hb w hh)
    exact (WX14_arr m ρ c w).trans (((dat14 (VE14 m ρ) c).arrAt_in w hin _).trans (A_eq14 (VE14 m ρ) c w))
  · exact WX14_of_ne m ρ c b (fun w e => h ⟨w, e⟩)
abbrev VE15 : (c : Dev nD) → (b : Ref sig .tc) → Buf (Elt F) ((c : Thread nD τ).loc b) := fun c b => WX14 m ρ c b
/-- At region 15's exit: its arrays at what the pipeline leaves, every other buffer as entered. -/
def WX15 (c : Dev nD) : Valuation τ sig (Elt F) :=
  Pipeline.withArrays spec15 c (WX14 m ρ c) fun w => (dat15 (VE15 m ρ) c).arrAt w cfg15.N
theorem WX15_arr (c : Dev nD) (w : Fin cfg15.W) :
    WX15 m ρ c (Proc.devRef .tc (Pipeline.arrRef spec15 w)) = (dat15 (VE15 m ρ) c).arrAt w cfg15.N := by
  unfold WX15; exact Pipeline.withArrays_arr spec15 launch15.win.arr_inj c _ _ w
theorem WX15_of_ne (c : Dev nD) (b : Ref sig .tc) (hb : ∀ w, Pipeline.arrRef spec15 w ≠ b) :
    WX15 m ρ c (Proc.devRef .tc b) = WX14 m ρ c (Proc.devRef .tc b) := by
  unfold WX15; exact Pipeline.withArrays_of_ne spec15 c _ _ b hb
abbrev VX15 : (c : Dev nD) → (b : Ref sig .tc) → Buf (Elt F) ((c : Thread nD τ).loc b) := fun c b => WX15 m ρ c b
theorem hF15 (c : Dev nD) (w : Fin cfg15.W) : (dat15 (VE15 m ρ) c).arrAt w cfg15.N = VX15 m ρ c (Pipeline.arrRef spec15 w) :=
  (WX15_arr m ρ c w).symm
theorem hrest15 (c : Dev nD) : ∀ b, b ∉ Finset.univ.image (Pipeline.arrRef spec15) → VX15 m ρ c b = VE15 m ρ c b :=
  fun b hb => WX15_of_ne m ρ c b fun w e => hb (Finset.mem_image.mpr ⟨w, Finset.mem_univ _, e⟩)
/-- Region 15 changes no buffer but its outputs' arrays. -/
theorem keep15 (c : Dev nD) (b : Ref sig .tc) (hb : ∀ w, (cfg15.win w).isOut = true → Pipeline.arrRef spec15 w ≠ b) :
    WX15 m ρ c (Proc.devRef .tc b) = WX14 m ρ c (Proc.devRef .tc b) := by
  by_cases h : ∃ w, Pipeline.arrRef spec15 w = b
  · obtain ⟨w, rfl⟩ := h
    have hin : (cfg15.win w).isOut = false := by
      cases hh : (cfg15.win w).isOut
      · rfl
      · exact absurd rfl (hb w hh)
    exact (WX15_arr m ρ c w).trans (((dat15 (VE15 m ρ) c).arrAt_in w hin _).trans (A_eq15 (VE15 m ρ) c w))
  · exact WX15_of_ne m ρ c b (fun w e => h ⟨w, e⟩)
abbrev VE16 : (c : Dev nD) → (b : Ref sig .tc) → Buf (Elt F) ((c : Thread nD τ).loc b) := fun c b => WX15 m ρ c b
/-- At region 16's exit: its arrays at what the pipeline leaves, every other buffer as entered. -/
def WX16 (c : Dev nD) : Valuation τ sig (Elt F) :=
  Pipeline.withArrays spec16 c (WX15 m ρ c) fun w => (dat16 (VE16 m ρ) c).arrAt w cfg16.N
theorem WX16_arr (c : Dev nD) (w : Fin cfg16.W) :
    WX16 m ρ c (Proc.devRef .tc (Pipeline.arrRef spec16 w)) = (dat16 (VE16 m ρ) c).arrAt w cfg16.N := by
  unfold WX16; exact Pipeline.withArrays_arr spec16 launch16.win.arr_inj c _ _ w
theorem WX16_of_ne (c : Dev nD) (b : Ref sig .tc) (hb : ∀ w, Pipeline.arrRef spec16 w ≠ b) :
    WX16 m ρ c (Proc.devRef .tc b) = WX15 m ρ c (Proc.devRef .tc b) := by
  unfold WX16; exact Pipeline.withArrays_of_ne spec16 c _ _ b hb
abbrev VX16 : (c : Dev nD) → (b : Ref sig .tc) → Buf (Elt F) ((c : Thread nD τ).loc b) := fun c b => WX16 m ρ c b
theorem hF16 (c : Dev nD) (w : Fin cfg16.W) : (dat16 (VE16 m ρ) c).arrAt w cfg16.N = VX16 m ρ c (Pipeline.arrRef spec16 w) :=
  (WX16_arr m ρ c w).symm
theorem hrest16 (c : Dev nD) : ∀ b, b ∉ Finset.univ.image (Pipeline.arrRef spec16) → VX16 m ρ c b = VE16 m ρ c b :=
  fun b hb => WX16_of_ne m ρ c b fun w e => hb (Finset.mem_image.mpr ⟨w, Finset.mem_univ _, e⟩)
/-- Region 16 changes no buffer but its outputs' arrays. -/
theorem keep16 (c : Dev nD) (b : Ref sig .tc) (hb : ∀ w, (cfg16.win w).isOut = true → Pipeline.arrRef spec16 w ≠ b) :
    WX16 m ρ c (Proc.devRef .tc b) = WX15 m ρ c (Proc.devRef .tc b) := by
  by_cases h : ∃ w, Pipeline.arrRef spec16 w = b
  · obtain ⟨w, rfl⟩ := h
    have hin : (cfg16.win w).isOut = false := by
      cases hh : (cfg16.win w).isOut
      · rfl
      · exact absurd rfl (hb w hh)
    exact (WX16_arr m ρ c w).trans (((dat16 (VE16 m ρ) c).arrAt_in w hin _).trans (A_eq16 (VE16 m ρ) c w))
  · exact WX16_of_ne m ρ c b (fun w e => h ⟨w, e⟩)
abbrev VE17 : (c : Dev nD) → (b : Ref sig .tc) → Buf (Elt F) ((c : Thread nD τ).loc b) := fun c b => WX16 m ρ c b
/-- At region 17's exit: its arrays at what the pipeline leaves, every other buffer as entered. -/
def WX17 (c : Dev nD) : Valuation τ sig (Elt F) :=
  Pipeline.withArrays spec17 c (WX16 m ρ c) fun w => (dat17 (VE17 m ρ) c).arrAt w cfg17.N
theorem WX17_arr (c : Dev nD) (w : Fin cfg17.W) :
    WX17 m ρ c (Proc.devRef .tc (Pipeline.arrRef spec17 w)) = (dat17 (VE17 m ρ) c).arrAt w cfg17.N := by
  unfold WX17; exact Pipeline.withArrays_arr spec17 launch17.win.arr_inj c _ _ w
theorem WX17_of_ne (c : Dev nD) (b : Ref sig .tc) (hb : ∀ w, Pipeline.arrRef spec17 w ≠ b) :
    WX17 m ρ c (Proc.devRef .tc b) = WX16 m ρ c (Proc.devRef .tc b) := by
  unfold WX17; exact Pipeline.withArrays_of_ne spec17 c _ _ b hb
abbrev VX17 : (c : Dev nD) → (b : Ref sig .tc) → Buf (Elt F) ((c : Thread nD τ).loc b) := fun c b => WX17 m ρ c b
theorem hF17 (c : Dev nD) (w : Fin cfg17.W) : (dat17 (VE17 m ρ) c).arrAt w cfg17.N = VX17 m ρ c (Pipeline.arrRef spec17 w) :=
  (WX17_arr m ρ c w).symm
theorem hrest17 (c : Dev nD) : ∀ b, b ∉ Finset.univ.image (Pipeline.arrRef spec17) → VX17 m ρ c b = VE17 m ρ c b :=
  fun b hb => WX17_of_ne m ρ c b fun w e => hb (Finset.mem_image.mpr ⟨w, Finset.mem_univ _, e⟩)
/-- Region 17 changes no buffer but its outputs' arrays. -/
theorem keep17 (c : Dev nD) (b : Ref sig .tc) (hb : ∀ w, (cfg17.win w).isOut = true → Pipeline.arrRef spec17 w ≠ b) :
    WX17 m ρ c (Proc.devRef .tc b) = WX16 m ρ c (Proc.devRef .tc b) := by
  by_cases h : ∃ w, Pipeline.arrRef spec17 w = b
  · obtain ⟨w, rfl⟩ := h
    have hin : (cfg17.win w).isOut = false := by
      cases hh : (cfg17.win w).isOut
      · rfl
      · exact absurd rfl (hb w hh)
    exact (WX17_arr m ρ c w).trans (((dat17 (VE17 m ρ) c).arrAt_in w hin _).trans (A_eq17 (VE17 m ρ) c w))
  · exact WX17_of_ne m ρ c b (fun w e => h ⟨w, e⟩)
abbrev VE18 : (c : Dev nD) → (b : Ref sig .tc) → Buf (Elt F) ((c : Thread nD τ).loc b) := fun c b => WX17 m ρ c b
/-- At region 18's exit: its arrays at what the pipeline leaves, every other buffer as entered. -/
def WX18 (c : Dev nD) : Valuation τ sig (Elt F) :=
  Pipeline.withArrays spec18 c (WX17 m ρ c) fun w => (dat18 (VE18 m ρ) c).arrAt w cfg18.N
theorem WX18_arr (c : Dev nD) (w : Fin cfg18.W) :
    WX18 m ρ c (Proc.devRef .tc (Pipeline.arrRef spec18 w)) = (dat18 (VE18 m ρ) c).arrAt w cfg18.N := by
  unfold WX18; exact Pipeline.withArrays_arr spec18 launch18.win.arr_inj c _ _ w
theorem WX18_of_ne (c : Dev nD) (b : Ref sig .tc) (hb : ∀ w, Pipeline.arrRef spec18 w ≠ b) :
    WX18 m ρ c (Proc.devRef .tc b) = WX17 m ρ c (Proc.devRef .tc b) := by
  unfold WX18; exact Pipeline.withArrays_of_ne spec18 c _ _ b hb
abbrev VX18 : (c : Dev nD) → (b : Ref sig .tc) → Buf (Elt F) ((c : Thread nD τ).loc b) := fun c b => WX18 m ρ c b
theorem hF18 (c : Dev nD) (w : Fin cfg18.W) : (dat18 (VE18 m ρ) c).arrAt w cfg18.N = VX18 m ρ c (Pipeline.arrRef spec18 w) :=
  (WX18_arr m ρ c w).symm
theorem hrest18 (c : Dev nD) : ∀ b, b ∉ Finset.univ.image (Pipeline.arrRef spec18) → VX18 m ρ c b = VE18 m ρ c b :=
  fun b hb => WX18_of_ne m ρ c b fun w e => hb (Finset.mem_image.mpr ⟨w, Finset.mem_univ _, e⟩)
/-- Region 18 changes no buffer but its outputs' arrays. -/
theorem keep18 (c : Dev nD) (b : Ref sig .tc) (hb : ∀ w, (cfg18.win w).isOut = true → Pipeline.arrRef spec18 w ≠ b) :
    WX18 m ρ c (Proc.devRef .tc b) = WX17 m ρ c (Proc.devRef .tc b) := by
  by_cases h : ∃ w, Pipeline.arrRef spec18 w = b
  · obtain ⟨w, rfl⟩ := h
    have hin : (cfg18.win w).isOut = false := by
      cases hh : (cfg18.win w).isOut
      · rfl
      · exact absurd rfl (hb w hh)
    exact (WX18_arr m ρ c w).trans (((dat18 (VE18 m ρ) c).arrAt_in w hin _).trans (A_eq18 (VE18 m ρ) c w))
  · exact WX18_of_ne m ρ c b (fun w e => h ⟨w, e⟩)
abbrev VE19 : (c : Dev nD) → (b : Ref sig .tc) → Buf (Elt F) ((c : Thread nD τ).loc b) := fun c b => WX18 m ρ c b
/-- At region 19's exit: its arrays at what the pipeline leaves, every other buffer as entered. -/
def WX19 (c : Dev nD) : Valuation τ sig (Elt F) :=
  Pipeline.withArrays spec19 c (WX18 m ρ c) fun w => (dat19 (VE19 m ρ) c).arrAt w cfg19.N
theorem WX19_arr (c : Dev nD) (w : Fin cfg19.W) :
    WX19 m ρ c (Proc.devRef .tc (Pipeline.arrRef spec19 w)) = (dat19 (VE19 m ρ) c).arrAt w cfg19.N := by
  unfold WX19; exact Pipeline.withArrays_arr spec19 launch19.win.arr_inj c _ _ w
theorem WX19_of_ne (c : Dev nD) (b : Ref sig .tc) (hb : ∀ w, Pipeline.arrRef spec19 w ≠ b) :
    WX19 m ρ c (Proc.devRef .tc b) = WX18 m ρ c (Proc.devRef .tc b) := by
  unfold WX19; exact Pipeline.withArrays_of_ne spec19 c _ _ b hb
abbrev VX19 : (c : Dev nD) → (b : Ref sig .tc) → Buf (Elt F) ((c : Thread nD τ).loc b) := fun c b => WX19 m ρ c b
theorem hF19 (c : Dev nD) (w : Fin cfg19.W) : (dat19 (VE19 m ρ) c).arrAt w cfg19.N = VX19 m ρ c (Pipeline.arrRef spec19 w) :=
  (WX19_arr m ρ c w).symm
theorem hrest19 (c : Dev nD) : ∀ b, b ∉ Finset.univ.image (Pipeline.arrRef spec19) → VX19 m ρ c b = VE19 m ρ c b :=
  fun b hb => WX19_of_ne m ρ c b fun w e => hb (Finset.mem_image.mpr ⟨w, Finset.mem_univ _, e⟩)
/-- Region 19 changes no buffer but its outputs' arrays. -/
theorem keep19 (c : Dev nD) (b : Ref sig .tc) (hb : ∀ w, (cfg19.win w).isOut = true → Pipeline.arrRef spec19 w ≠ b) :
    WX19 m ρ c (Proc.devRef .tc b) = WX18 m ρ c (Proc.devRef .tc b) := by
  by_cases h : ∃ w, Pipeline.arrRef spec19 w = b
  · obtain ⟨w, rfl⟩ := h
    have hin : (cfg19.win w).isOut = false := by
      cases hh : (cfg19.win w).isOut
      · rfl
      · exact absurd rfl (hb w hh)
    exact (WX19_arr m ρ c w).trans (((dat19 (VE19 m ρ) c).arrAt_in w hin _).trans (A_eq19 (VE19 m ρ) c w))
  · exact WX19_of_ne m ρ c b (fun w e => h ⟨w, e⟩)
abbrev VE20 : (c : Dev nD) → (b : Ref sig .tc) → Buf (Elt F) ((c : Thread nD τ).loc b) := fun c b => WX19 m ρ c b
/-- At region 20's exit: its arrays at what the pipeline leaves, every other buffer as entered. -/
def WX20 (c : Dev nD) : Valuation τ sig (Elt F) :=
  Pipeline.withArrays spec20 c (WX19 m ρ c) fun w => (dat20 (VE20 m ρ) c).arrAt w cfg20.N
theorem WX20_arr (c : Dev nD) (w : Fin cfg20.W) :
    WX20 m ρ c (Proc.devRef .tc (Pipeline.arrRef spec20 w)) = (dat20 (VE20 m ρ) c).arrAt w cfg20.N := by
  unfold WX20; exact Pipeline.withArrays_arr spec20 launch20.win.arr_inj c _ _ w
theorem WX20_of_ne (c : Dev nD) (b : Ref sig .tc) (hb : ∀ w, Pipeline.arrRef spec20 w ≠ b) :
    WX20 m ρ c (Proc.devRef .tc b) = WX19 m ρ c (Proc.devRef .tc b) := by
  unfold WX20; exact Pipeline.withArrays_of_ne spec20 c _ _ b hb
abbrev VX20 : (c : Dev nD) → (b : Ref sig .tc) → Buf (Elt F) ((c : Thread nD τ).loc b) := fun c b => WX20 m ρ c b
theorem hF20 (c : Dev nD) (w : Fin cfg20.W) : (dat20 (VE20 m ρ) c).arrAt w cfg20.N = VX20 m ρ c (Pipeline.arrRef spec20 w) :=
  (WX20_arr m ρ c w).symm
theorem hrest20 (c : Dev nD) : ∀ b, b ∉ Finset.univ.image (Pipeline.arrRef spec20) → VX20 m ρ c b = VE20 m ρ c b :=
  fun b hb => WX20_of_ne m ρ c b fun w e => hb (Finset.mem_image.mpr ⟨w, Finset.mem_univ _, e⟩)
/-- Region 20 changes no buffer but its outputs' arrays. -/
theorem keep20 (c : Dev nD) (b : Ref sig .tc) (hb : ∀ w, (cfg20.win w).isOut = true → Pipeline.arrRef spec20 w ≠ b) :
    WX20 m ρ c (Proc.devRef .tc b) = WX19 m ρ c (Proc.devRef .tc b) := by
  by_cases h : ∃ w, Pipeline.arrRef spec20 w = b
  · obtain ⟨w, rfl⟩ := h
    have hin : (cfg20.win w).isOut = false := by
      cases hh : (cfg20.win w).isOut
      · rfl
      · exact absurd rfl (hb w hh)
    exact (WX20_arr m ρ c w).trans (((dat20 (VE20 m ρ) c).arrAt_in w hin _).trans (A_eq20 (VE20 m ρ) c w))
  · exact WX20_of_ne m ρ c b (fun w e => h ⟨w, e⟩)
abbrev VE21 : (c : Dev nD) → (b : Ref sig .tc) → Buf (Elt F) ((c : Thread nD τ).loc b) := fun c b => WX20 m ρ c b
/-- At region 21's exit: its arrays at what the pipeline leaves, every other buffer as entered. -/
def WX21 (c : Dev nD) : Valuation τ sig (Elt F) :=
  Pipeline.withArrays spec21 c (WX20 m ρ c) fun w => (dat21 (VE21 m ρ) c).arrAt w cfg21.N
theorem WX21_arr (c : Dev nD) (w : Fin cfg21.W) :
    WX21 m ρ c (Proc.devRef .tc (Pipeline.arrRef spec21 w)) = (dat21 (VE21 m ρ) c).arrAt w cfg21.N := by
  unfold WX21; exact Pipeline.withArrays_arr spec21 launch21.win.arr_inj c _ _ w
theorem WX21_of_ne (c : Dev nD) (b : Ref sig .tc) (hb : ∀ w, Pipeline.arrRef spec21 w ≠ b) :
    WX21 m ρ c (Proc.devRef .tc b) = WX20 m ρ c (Proc.devRef .tc b) := by
  unfold WX21; exact Pipeline.withArrays_of_ne spec21 c _ _ b hb
abbrev VX21 : (c : Dev nD) → (b : Ref sig .tc) → Buf (Elt F) ((c : Thread nD τ).loc b) := fun c b => WX21 m ρ c b
theorem hF21 (c : Dev nD) (w : Fin cfg21.W) : (dat21 (VE21 m ρ) c).arrAt w cfg21.N = VX21 m ρ c (Pipeline.arrRef spec21 w) :=
  (WX21_arr m ρ c w).symm
theorem hrest21 (c : Dev nD) : ∀ b, b ∉ Finset.univ.image (Pipeline.arrRef spec21) → VX21 m ρ c b = VE21 m ρ c b :=
  fun b hb => WX21_of_ne m ρ c b fun w e => hb (Finset.mem_image.mpr ⟨w, Finset.mem_univ _, e⟩)
/-- Region 21 changes no buffer but its outputs' arrays. -/
theorem keep21 (c : Dev nD) (b : Ref sig .tc) (hb : ∀ w, (cfg21.win w).isOut = true → Pipeline.arrRef spec21 w ≠ b) :
    WX21 m ρ c (Proc.devRef .tc b) = WX20 m ρ c (Proc.devRef .tc b) := by
  by_cases h : ∃ w, Pipeline.arrRef spec21 w = b
  · obtain ⟨w, rfl⟩ := h
    have hin : (cfg21.win w).isOut = false := by
      cases hh : (cfg21.win w).isOut
      · rfl
      · exact absurd rfl (hb w hh)
    exact (WX21_arr m ρ c w).trans (((dat21 (VE21 m ρ) c).arrAt_in w hin _).trans (A_eq21 (VE21 m ρ) c w))
  · exact WX21_of_ne m ρ c b (fun w e => h ⟨w, e⟩)
/-- After the last host stretch (the sum of the row sums, its quotient, the transposed column weights): the final contents. -/
abbrev Wfin : Dev nD → Valuation τ sig (Elt F) := fun c => StableHlo.after hostOps22 (WX21 m ρ c)

/-! ## The proof data family and the thread state -/

def hpdats : (p : Fin 22) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
  | ⟨7, _⟩ => fun c => dat7 (VE7 m ρ) c
  | ⟨8, _⟩ => fun c => dat8 (VE8 m ρ) c
  | ⟨9, _⟩ => fun c => dat9 (VE9 m ρ) c
  | ⟨10, _⟩ => fun c => dat10 (VE10 m ρ) c
  | ⟨11, _⟩ => fun c => dat11 (VE11 m ρ) c
  | ⟨12, _⟩ => fun c => dat12 (VE12 m ρ) c
  | ⟨13, _⟩ => fun c => dat13 (VE13 m ρ) c
  | ⟨14, _⟩ => fun c => dat14 (VE14 m ρ) c
  | ⟨15, _⟩ => fun c => dat15 (VE15 m ρ) c
  | ⟨16, _⟩ => fun c => dat16 (VE16 m ρ) c
  | ⟨17, _⟩ => fun c => dat17 (VE17 m ρ) c
  | ⟨18, _⟩ => fun c => dat18 (VE18 m ρ) c
  | ⟨19, _⟩ => fun c => dat19 (VE19 m ρ) c
  | ⟨20, _⟩ => fun c => dat20 (VE20 m ρ) c
  | ⟨21, _⟩ => fun c => dat21 (VE21 m ρ) c
  | ⟨_ + 22, h⟩ => absurd h (Nat.not_lt.2 (Nat.le_add_left _ _))
abbrev h𝒱₀ : Variants := Variants.none
abbrev hL : GSem nD τ sig → Finset Unit := fun _ => ∅
abbrev hlv : GSem nD τ sig → Unit → ℕ := fun _ _ => 0
/-- What rides beside the buffers through every segment: the generator register at some state and the core owing nothing. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱₀ hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTₙ (c : Dev nD) : sProp 𝕄 := iprop(StableHlo.held (c : Thread nD τ) (Pipeline.ucRefs τ sig) (Wfin m ρ c) ∗ ∃ r, prngReg c r)

/-! ## The regions as segments -/

set_option backward.isDefEq.respectTransparency.types false in
/-- Region 0 over the thread state: its arrays split out of the unscoped buffers at entry and put back at the exit contents. -/
def hreg0 : Pipeline.RegionSeg (pcfgs (F := F)) adm (hpdats m ρ) () defs₀ h𝒱₀ hL hlv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ hL hlv 0 fun _ _ => rfl
  pre c := iprop(StableHlo.held (c : Thread nD τ) (Pipeline.ucRefs τ sig) (W0 m ρ c) ∗ hR c)
  post c := iprop(StableHlo.held (c : Thread nD τ) (Pipeline.ucRefs τ sig) (WX0 m ρ c) ∗ hR c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (hpdats m ρ) launch0.win launch0.arr_whole c
      ((hpdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m ρ) ((hpdats m ρ 0 c).share_full fun _ => rfl)
      (VE0 m ρ c) (VX0 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit contents. -/
def hreg1 : Pipeline.RegionSeg (pcfgs (F := F)) adm (hpdats m ρ) () defs₀ h𝒱₀ hL hlv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ hL hlv 1 fun _ _ => rfl
  pre c := iprop(StableHlo.held (c : Thread nD τ) (Pipeline.ucRefs τ sig) (WE1 m ρ c) ∗ hR c)
  post c := iprop(StableHlo.held (c : Thread nD τ) (Pipeline.ucRefs τ sig) (WX1 m ρ c) ∗ hR c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (hpdats m ρ) launch1.win launch1.arr_whole c
      ((hpdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hpdats m ρ) ((hpdats m ρ 1 c).share_full fun _ => rfl)
      (VE1 m ρ c) (VX1 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit contents. -/
def hreg2 : Pipeline.RegionSeg (pcfgs (F := F)) adm (hpdats m ρ) () defs₀ h𝒱₀ hL hlv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ hL hlv 2 fun _ _ => rfl
  pre c := iprop(StableHlo.held (c : Thread nD τ) (Pipeline.ucRefs τ sig) (WX1 m ρ c) ∗ hR c)
  post c := iprop(StableHlo.held (c : Thread nD τ) (Pipeline.ucRefs τ sig) (WX2 m ρ c) ∗ hR c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) adm (hpdats m ρ) launch2.win launch2.arr_whole c
      ((hpdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = (dat2 (VE2 m ρ) c).Φ 0 from rfl]
    refine .trans ?_ (hin2 (VE2 m ρ) c)
    unfold Pipeline.ΦA
    iintro ⟨Hp, -, Hr⟩
    isplitl [Hr]; · iexact Hr
    iexact Hp
  hout c := by
    rw [Pipeline.ownSems0_none, show (hpdats m ρ 2 c).Φ (Fin.last _) = (dat2 (VE2 m ρ) c).Φ (Fin.last cfg2.N) from rfl]
    refine (hout2 (VE2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hpdats m ρ) ((hpdats m ρ 2 c).share_full fun _ => rfl)
      (VE2 m ρ c) (VX2 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers at entry and put back at the exit contents. -/
def hreg3 : Pipeline.RegionSeg (pcfgs (F := F)) adm (hpdats m ρ) () defs₀ h𝒱₀ hL hlv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ hL hlv 3 fun _ _ => rfl
  pre c := iprop(StableHlo.held (c : Thread nD τ) (Pipeline.ucRefs τ sig) (WX2 m ρ c) ∗ hR c)
  post c := iprop(StableHlo.held (c : Thread nD τ) (Pipeline.ucRefs τ sig) (WX3 m ρ c) ∗ hR c)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    rw [Pipeline.ownSems0_none]
    have hsplit := Pipeline.arrays_of_unscopedBufs (p := 3) (pcfgs (F := F)) adm (hpdats m ρ) launch3.win launch3.arr_whole c
      ((hpdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (hpdats m ρ) ((hpdats m ρ 3 c).share_full fun _ => rfl)
      (VE3 m ρ c) (VX3 m ρ c) ((hpdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers at entry and put back at the exit contents. -/
def hreg4 : Pipeline.RegionSeg (pcfgs (F := F)) adm (hpdats m ρ) () defs₀ h𝒱₀ hL hlv 4 where
  win := launch4.win.to₀
  block_pos := launch4.block_pos
  stage_whole := launch4.stage_whole
  K := PEmpty
  osem k := k.elim
  ho := Pipeline.OwnSemFacts.none _
  hbody c := (body_obligation4 (VE4 m ρ) c).loose
  hwaits := Pipeline.hwaits_of_owed_zero _ _ _ _ hL hlv 4 fun _ _ => rfl
  pre c := iprop(StableHlo.held (c : Thread nD τ) (Pipeline.ucRefs τ sig) (WX3 m ρ c) ∗ hR c)
  post c := iprop(StableHlo.held (c : Thread nD τ) (Pipeline.ucRefs τ sig) (WX4 m ρ c) ∗ hR c)
  X c := iprop(∃ r, prngReg c r)
  Y c := iprop(∃ r, prngReg c r)
  Z c := Pipeline.unscopedRest (Ix := Unit) (Name := ℕ) (U := UR sig nD τ) (Lvl := ℕ) spec4 c (VE4 m ρ c)
  hentry c := by
    rw [Pipeline.ownSems0_none]
    have hsplit := Pipeline.arrays_of_unscopedBufs (p := 4) (pcfgs (F := F)) adm (hpdats m ρ) launch4.win launch4.arr_whole c
      ((hpdats m ρ 4 c).share_full fun _ => rfl) (VE4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 4 c).Φ 0 = (dat4 (VE4 m ρ) c).Φ 0 from rfl]
    refine .trans ?_ (hin4 (VE4 m ρ) c)
    unfold Pipeline.ΦA
    iintro ⟨Hp, -, Hr⟩
    isplitl [Hr]; · iexact Hr
    iexact Hp
  hout c := by
    rw [Pipeline.ownSems0_none, show (hpdats m ρ 4 c).Φ (Fin.last _) = (dat4 (VE4 m ρ) c).Φ (Fin.last cfg4.N) from rfl]
    refine (hout4 (VE4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (hpdats m ρ) ((hpdats m ρ 4 c).share_full fun _ => rfl)
      (VE4 m ρ c) (VX4 m ρ c) ((hpdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays split out of the unscoped buffers at entry and put back at the exit contents. -/
def hreg5 : Pipeline.RegionSeg (pcfgs (F := F)) adm (hpdats m ρ) () defs₀ h𝒱₀ hL hlv 5 where
  win := launch5.win.to₀
  block_pos := launch5.block_pos
  stage_whole := launch5.stage_whole
  K := PEmpty
  osem k := k.elim
  ho := Pipeline.OwnSemFacts.none _
  hbody c := (body_obligation5 (VE5 m ρ) c).loose
  hwaits := Pipeline.hwaits_of_owed_zero _ _ _ _ hL hlv 5 fun _ _ => rfl
  pre c := iprop(StableHlo.held (c : Thread nD τ) (Pipeline.ucRefs τ sig) (WX4 m ρ c) ∗ hR c)
  post c := iprop(StableHlo.held (c : Thread nD τ) (Pipeline.ucRefs τ sig) (WX5 m ρ c) ∗ hR c)
  X c := iprop(∃ r, prngReg c r)
  Y c := iprop(∃ r, prngReg c r)
  Z c := Pipeline.unscopedRest (Ix := Unit) (Name := ℕ) (U := UR sig nD τ) (Lvl := ℕ) spec5 c (VE5 m ρ c)
  hentry c := by
    rw [Pipeline.ownSems0_none]
    have hsplit := Pipeline.arrays_of_unscopedBufs (p := 5) (pcfgs (F := F)) adm (hpdats m ρ) launch5.win launch5.arr_whole c
      ((hpdats m ρ 5 c).share_full fun _ => rfl) (VE5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (hpdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (hpdats m ρ) ((hpdats m ρ 5 c).share_full fun _ => rfl)
      (VE5 m ρ c) (VX5 m ρ c) ((hpdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: its arrays split out of the unscoped buffers at entry and put back at the exit contents. -/
def hreg6 : Pipeline.RegionSeg (pcfgs (F := F)) adm (hpdats m ρ) () defs₀ h𝒱₀ hL hlv 6 where
  win := launch6.win.to₀
  block_pos := launch6.block_pos
  stage_whole := launch6.stage_whole
  K := PEmpty
  osem k := k.elim
  ho := Pipeline.OwnSemFacts.none _
  hbody c := (body_obligation6 (VE6 m ρ) c).loose
  hwaits := Pipeline.hwaits_of_owed_zero _ _ _ _ hL hlv 6 fun _ _ => rfl
  pre c := iprop(StableHlo.held (c : Thread nD τ) (Pipeline.ucRefs τ sig) (WX5 m ρ c) ∗ hR c)
  post c := iprop(StableHlo.held (c : Thread nD τ) (Pipeline.ucRefs τ sig) (WX6 m ρ c) ∗ hR c)
  X c := iprop(∃ r, prngReg c r)
  Y c := iprop(∃ r, prngReg c r)
  Z c := Pipeline.unscopedRest (Ix := Unit) (Name := ℕ) (U := UR sig nD τ) (Lvl := ℕ) spec6 c (VE6 m ρ c)
  hentry c := by
    rw [Pipeline.ownSems0_none]
    have hsplit := Pipeline.arrays_of_unscopedBufs (p := 6) (pcfgs (F := F)) adm (hpdats m ρ) launch6.win launch6.arr_whole c
      ((hpdats m ρ 6 c).share_full fun _ => rfl) (VE6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 6 c).Φ 0 = (dat6 (VE6 m ρ) c).Φ 0 from rfl]
    refine .trans ?_ (hin6 (VE6 m ρ) c)
    unfold Pipeline.ΦA
    iintro ⟨Hp, -, Hr⟩
    isplitl [Hr]; · iexact Hr
    iexact Hp
  hout c := by
    rw [Pipeline.ownSems0_none, show (hpdats m ρ 6 c).Φ (Fin.last _) = (dat6 (VE6 m ρ) c).Φ (Fin.last cfg6.N) from rfl]
    refine (hout6 (VE6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (hpdats m ρ) ((hpdats m ρ 6 c).share_full fun _ => rfl)
      (VE6 m ρ c) (VX6 m ρ c) ((hpdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: its arrays split out of the unscoped buffers at entry and put back at the exit contents. -/
def hreg7 : Pipeline.RegionSeg (pcfgs (F := F)) adm (hpdats m ρ) () defs₀ h𝒱₀ hL hlv 7 where
  win := launch7.win.to₀
  block_pos := launch7.block_pos
  stage_whole := launch7.stage_whole
  K := PEmpty
  osem k := k.elim
  ho := Pipeline.OwnSemFacts.none _
  hbody c := (body_obligation7 (VE7 m ρ) c).loose
  hwaits := Pipeline.hwaits_of_owed_zero _ _ _ _ hL hlv 7 fun _ _ => rfl
  pre c := iprop(StableHlo.held (c : Thread nD τ) (Pipeline.ucRefs τ sig) (WX6 m ρ c) ∗ hR c)
  post c := iprop(StableHlo.held (c : Thread nD τ) (Pipeline.ucRefs τ sig) (WX7 m ρ c) ∗ hR c)
  X c := iprop(∃ r, prngReg c r)
  Y c := iprop(∃ r, prngReg c r)
  Z c := Pipeline.unscopedRest (Ix := Unit) (Name := ℕ) (U := UR sig nD τ) (Lvl := ℕ) spec7 c (VE7 m ρ c)
  hentry c := by
    rw [Pipeline.ownSems0_none]
    have hsplit := Pipeline.arrays_of_unscopedBufs (p := 7) (pcfgs (F := F)) adm (hpdats m ρ) launch7.win launch7.arr_whole c
      ((hpdats m ρ 7 c).share_full fun _ => rfl) (VE7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (hpdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (hpdats m ρ) ((hpdats m ρ 7 c).share_full fun _ => rfl)
      (VE7 m ρ c) (VX7 m ρ c) ((hpdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: its arrays split out of the unscoped buffers at entry and put back at the exit contents. -/
def hreg8 : Pipeline.RegionSeg (pcfgs (F := F)) adm (hpdats m ρ) () defs₀ h𝒱₀ hL hlv 8 where
  win := launch8.win.to₀
  block_pos := launch8.block_pos
  stage_whole := launch8.stage_whole
  K := PEmpty
  osem k := k.elim
  ho := Pipeline.OwnSemFacts.none _
  hbody c := (body_obligation8 (VE8 m ρ) c).loose
  hwaits := Pipeline.hwaits_of_owed_zero _ _ _ _ hL hlv 8 fun _ _ => rfl
  pre c := iprop(StableHlo.held (c : Thread nD τ) (Pipeline.ucRefs τ sig) (WX7 m ρ c) ∗ hR c)
  post c := iprop(StableHlo.held (c : Thread nD τ) (Pipeline.ucRefs τ sig) (WX8 m ρ c) ∗ hR c)
  X c := iprop(∃ r, prngReg c r)
  Y c := iprop(∃ r, prngReg c r)
  Z c := Pipeline.unscopedRest (Ix := Unit) (Name := ℕ) (U := UR sig nD τ) (Lvl := ℕ) spec8 c (VE8 m ρ c)
  hentry c := by
    rw [Pipeline.ownSems0_none]
    have hsplit := Pipeline.arrays_of_unscopedBufs (p := 8) (pcfgs (F := F)) adm (hpdats m ρ) launch8.win launch8.arr_whole c
      ((hpdats m ρ 8 c).share_full fun _ => rfl) (VE8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 8 c).Φ 0 = (dat8 (VE8 m ρ) c).Φ 0 from rfl]
    refine .trans ?_ (hin8 (VE8 m ρ) c)
    unfold Pipeline.ΦA
    iintro ⟨Hp, -, Hr⟩
    isplitl [Hr]; · iexact Hr
    iexact Hp
  hout c := by
    rw [Pipeline.ownSems0_none, show (hpdats m ρ 8 c).Φ (Fin.last _) = (dat8 (VE8 m ρ) c).Φ (Fin.last cfg8.N) from rfl]
    refine (hout8 (VE8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (hpdats m ρ) ((hpdats m ρ 8 c).share_full fun _ => rfl)
      (VE8 m ρ c) (VX8 m ρ c) ((hpdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: its arrays split out of the unscoped buffers at entry and put back at the exit contents. -/
def hreg9 : Pipeline.RegionSeg (pcfgs (F := F)) adm (hpdats m ρ) () defs₀ h𝒱₀ hL hlv 9 where
  win := launch9.win.to₀
  block_pos := launch9.block_pos
  stage_whole := launch9.stage_whole
  K := PEmpty
  osem k := k.elim
  ho := Pipeline.OwnSemFacts.none _
  hbody c := (body_obligation9 (VE9 m ρ) c).loose
  hwaits := Pipeline.hwaits_of_owed_zero _ _ _ _ hL hlv 9 fun _ _ => rfl
  pre c := iprop(StableHlo.held (c : Thread nD τ) (Pipeline.ucRefs τ sig) (WX8 m ρ c) ∗ hR c)
  post c := iprop(StableHlo.held (c : Thread nD τ) (Pipeline.ucRefs τ sig) (WX9 m ρ c) ∗ hR c)
  X c := iprop(∃ r, prngReg c r)
  Y c := iprop(∃ r, prngReg c r)
  Z c := Pipeline.unscopedRest (Ix := Unit) (Name := ℕ) (U := UR sig nD τ) (Lvl := ℕ) spec9 c (VE9 m ρ c)
  hentry c := by
    rw [Pipeline.ownSems0_none]
    have hsplit := Pipeline.arrays_of_unscopedBufs (p := 9) (pcfgs (F := F)) adm (hpdats m ρ) launch9.win launch9.arr_whole c
      ((hpdats m ρ 9 c).share_full fun _ => rfl) (VE9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (hpdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (hpdats m ρ) ((hpdats m ρ 9 c).share_full fun _ => rfl)
      (VE9 m ρ c) (VX9 m ρ c) ((hpdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: its arrays split out of the unscoped buffers at entry and put back at the exit contents. -/
def hreg10 : Pipeline.RegionSeg (pcfgs (F := F)) adm (hpdats m ρ) () defs₀ h𝒱₀ hL hlv 10 where
  win := launch10.win.to₀
  block_pos := launch10.block_pos
  stage_whole := launch10.stage_whole
  K := PEmpty
  osem k := k.elim
  ho := Pipeline.OwnSemFacts.none _
  hbody c := (body_obligation10 (VE10 m ρ) c).loose
  hwaits := Pipeline.hwaits_of_owed_zero _ _ _ _ hL hlv 10 fun _ _ => rfl
  pre c := iprop(StableHlo.held (c : Thread nD τ) (Pipeline.ucRefs τ sig) (WX9 m ρ c) ∗ hR c)
  post c := iprop(StableHlo.held (c : Thread nD τ) (Pipeline.ucRefs τ sig) (WX10 m ρ c) ∗ hR c)
  X c := iprop(∃ r, prngReg c r)
  Y c := iprop(∃ r, prngReg c r)
  Z c := Pipeline.unscopedRest (Ix := Unit) (Name := ℕ) (U := UR sig nD τ) (Lvl := ℕ) spec10 c (VE10 m ρ c)
  hentry c := by
    rw [Pipeline.ownSems0_none]
    have hsplit := Pipeline.arrays_of_unscopedBufs (p := 10) (pcfgs (F := F)) adm (hpdats m ρ) launch10.win launch10.arr_whole c
      ((hpdats m ρ 10 c).share_full fun _ => rfl) (VE10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 10 c).Φ 0 = (dat10 (VE10 m ρ) c).Φ 0 from rfl]
    refine .trans ?_ (hin10 (VE10 m ρ) c)
    unfold Pipeline.ΦA
    iintro ⟨Hp, -, Hr⟩
    isplitl [Hr]; · iexact Hr
    iexact Hp
  hout c := by
    rw [Pipeline.ownSems0_none, show (hpdats m ρ 10 c).Φ (Fin.last _) = (dat10 (VE10 m ρ) c).Φ (Fin.last cfg10.N) from rfl]
    refine (hout10 (VE10 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (hpdats m ρ) ((hpdats m ρ 10 c).share_full fun _ => rfl)
      (VE10 m ρ c) (VX10 m ρ c) ((hpdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: its arrays split out of the unscoped buffers at entry and put back at the exit contents. -/
def hreg11 : Pipeline.RegionSeg (pcfgs (F := F)) adm (hpdats m ρ) () defs₀ h𝒱₀ hL hlv 11 where
  win := launch11.win.to₀
  block_pos := launch11.block_pos
  stage_whole := launch11.stage_whole
  K := PEmpty
  osem k := k.elim
  ho := Pipeline.OwnSemFacts.none _
  hbody c := (body_obligation11 (VE11 m ρ) c).loose
  hwaits := Pipeline.hwaits_of_owed_zero _ _ _ _ hL hlv 11 fun _ _ => rfl
  pre c := iprop(StableHlo.held (c : Thread nD τ) (Pipeline.ucRefs τ sig) (WX10 m ρ c) ∗ hR c)
  post c := iprop(StableHlo.held (c : Thread nD τ) (Pipeline.ucRefs τ sig) (WX11 m ρ c) ∗ hR c)
  X c := iprop(∃ r, prngReg c r)
  Y c := iprop(∃ r, prngReg c r)
  Z c := Pipeline.unscopedRest (Ix := Unit) (Name := ℕ) (U := UR sig nD τ) (Lvl := ℕ) spec11 c (VE11 m ρ c)
  hentry c := by
    rw [Pipeline.ownSems0_none]
    have hsplit := Pipeline.arrays_of_unscopedBufs (p := 11) (pcfgs (F := F)) adm (hpdats m ρ) launch11.win launch11.arr_whole c
      ((hpdats m ρ 11 c).share_full fun _ => rfl) (VE11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (hpdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (hpdats m ρ) ((hpdats m ρ 11 c).share_full fun _ => rfl)
      (VE11 m ρ c) (VX11 m ρ c) ((hpdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: its arrays split out of the unscoped buffers at entry and put back at the exit contents. -/
def hreg12 : Pipeline.RegionSeg (pcfgs (F := F)) adm (hpdats m ρ) () defs₀ h𝒱₀ hL hlv 12 where
  win := launch12.win.to₀
  block_pos := launch12.block_pos
  stage_whole := launch12.stage_whole
  K := PEmpty
  osem k := k.elim
  ho := Pipeline.OwnSemFacts.none _
  hbody c := (body_obligation12 (VE12 m ρ) c).loose
  hwaits := Pipeline.hwaits_of_owed_zero _ _ _ _ hL hlv 12 fun _ _ => rfl
  pre c := iprop(StableHlo.held (c : Thread nD τ) (Pipeline.ucRefs τ sig) (WX11 m ρ c) ∗ hR c)
  post c := iprop(StableHlo.held (c : Thread nD τ) (Pipeline.ucRefs τ sig) (WX12 m ρ c) ∗ hR c)
  X c := iprop(∃ r, prngReg c r)
  Y c := iprop(∃ r, prngReg c r)
  Z c := Pipeline.unscopedRest (Ix := Unit) (Name := ℕ) (U := UR sig nD τ) (Lvl := ℕ) spec12 c (VE12 m ρ c)
  hentry c := by
    rw [Pipeline.ownSems0_none]
    have hsplit := Pipeline.arrays_of_unscopedBufs (p := 12) (pcfgs (F := F)) adm (hpdats m ρ) launch12.win launch12.arr_whole c
      ((hpdats m ρ 12 c).share_full fun _ => rfl) (VE12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 12 c).Φ 0 = (dat12 (VE12 m ρ) c).Φ 0 from rfl]
    refine .trans ?_ (hin12 (VE12 m ρ) c)
    unfold Pipeline.ΦA
    iintro ⟨Hp, -, Hr⟩
    isplitl [Hr]; · iexact Hr
    iexact Hp
  hout c := by
    rw [Pipeline.ownSems0_none, show (hpdats m ρ 12 c).Φ (Fin.last _) = (dat12 (VE12 m ρ) c).Φ (Fin.last cfg12.N) from rfl]
    refine (hout12 (VE12 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (hpdats m ρ) ((hpdats m ρ 12 c).share_full fun _ => rfl)
      (VE12 m ρ c) (VX12 m ρ c) ((hpdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: its arrays split out of the unscoped buffers at entry and put back at the exit contents. -/
def hreg13 : Pipeline.RegionSeg (pcfgs (F := F)) adm (hpdats m ρ) () defs₀ h𝒱₀ hL hlv 13 where
  win := launch13.win.to₀
  block_pos := launch13.block_pos
  stage_whole := launch13.stage_whole
  K := PEmpty
  osem k := k.elim
  ho := Pipeline.OwnSemFacts.none _
  hbody c := (body_obligation13 (VE13 m ρ) c).loose
  hwaits := Pipeline.hwaits_of_owed_zero _ _ _ _ hL hlv 13 fun _ _ => rfl
  pre c := iprop(StableHlo.held (c : Thread nD τ) (Pipeline.ucRefs τ sig) (WX12 m ρ c) ∗ hR c)
  post c := iprop(StableHlo.held (c : Thread nD τ) (Pipeline.ucRefs τ sig) (WX13 m ρ c) ∗ hR c)
  X c := iprop(∃ r, prngReg c r)
  Y c := iprop(∃ r, prngReg c r)
  Z c := Pipeline.unscopedRest (Ix := Unit) (Name := ℕ) (U := UR sig nD τ) (Lvl := ℕ) spec13 c (VE13 m ρ c)
  hentry c := by
    rw [Pipeline.ownSems0_none]
    have hsplit := Pipeline.arrays_of_unscopedBufs (p := 13) (pcfgs (F := F)) adm (hpdats m ρ) launch13.win launch13.arr_whole c
      ((hpdats m ρ 13 c).share_full fun _ => rfl) (VE13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (hpdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (hpdats m ρ) ((hpdats m ρ 13 c).share_full fun _ => rfl)
      (VE13 m ρ c) (VX13 m ρ c) ((hpdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: its arrays split out of the unscoped buffers at entry and put back at the exit contents. -/
def hreg14 : Pipeline.RegionSeg (pcfgs (F := F)) adm (hpdats m ρ) () defs₀ h𝒱₀ hL hlv 14 where
  win := launch14.win.to₀
  block_pos := launch14.block_pos
  stage_whole := launch14.stage_whole
  K := PEmpty
  osem k := k.elim
  ho := Pipeline.OwnSemFacts.none _
  hbody c := (body_obligation14 (VE14 m ρ) c).loose
  hwaits := Pipeline.hwaits_of_owed_zero _ _ _ _ hL hlv 14 fun _ _ => rfl
  pre c := iprop(StableHlo.held (c : Thread nD τ) (Pipeline.ucRefs τ sig) (WX13 m ρ c) ∗ hR c)
  post c := iprop(StableHlo.held (c : Thread nD τ) (Pipeline.ucRefs τ sig) (WX14 m ρ c) ∗ hR c)
  X c := iprop(∃ r, prngReg c r)
  Y c := iprop(∃ r, prngReg c r)
  Z c := Pipeline.unscopedRest (Ix := Unit) (Name := ℕ) (U := UR sig nD τ) (Lvl := ℕ) spec14 c (VE14 m ρ c)
  hentry c := by
    rw [Pipeline.ownSems0_none]
    have hsplit := Pipeline.arrays_of_unscopedBufs (p := 14) (pcfgs (F := F)) adm (hpdats m ρ) launch14.win launch14.arr_whole c
      ((hpdats m ρ 14 c).share_full fun _ => rfl) (VE14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 14 c).Φ 0 = (dat14 (VE14 m ρ) c).Φ 0 from rfl]
    refine .trans ?_ (hin14 (VE14 m ρ) c)
    unfold Pipeline.ΦA
    iintro ⟨Hp, -, Hr⟩
    isplitl [Hr]; · iexact Hr
    iexact Hp
  hout c := by
    rw [Pipeline.ownSems0_none, show (hpdats m ρ 14 c).Φ (Fin.last _) = (dat14 (VE14 m ρ) c).Φ (Fin.last cfg14.N) from rfl]
    refine (hout14 (VE14 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (hpdats m ρ) ((hpdats m ρ 14 c).share_full fun _ => rfl)
      (VE14 m ρ c) (VX14 m ρ c) ((hpdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15 over the thread state: its arrays split out of the unscoped buffers at entry and put back at the exit contents. -/
def hreg15 : Pipeline.RegionSeg (pcfgs (F := F)) adm (hpdats m ρ) () defs₀ h𝒱₀ hL hlv 15 where
  win := launch15.win.to₀
  block_pos := launch15.block_pos
  stage_whole := launch15.stage_whole
  K := PEmpty
  osem k := k.elim
  ho := Pipeline.OwnSemFacts.none _
  hbody c := (body_obligation15 (VE15 m ρ) c).loose
  hwaits := Pipeline.hwaits_of_owed_zero _ _ _ _ hL hlv 15 fun _ _ => rfl
  pre c := iprop(StableHlo.held (c : Thread nD τ) (Pipeline.ucRefs τ sig) (WX14 m ρ c) ∗ hR c)
  post c := iprop(StableHlo.held (c : Thread nD τ) (Pipeline.ucRefs τ sig) (WX15 m ρ c) ∗ hR c)
  X c := iprop(∃ r, prngReg c r)
  Y c := iprop(∃ r, prngReg c r)
  Z c := Pipeline.unscopedRest (Ix := Unit) (Name := ℕ) (U := UR sig nD τ) (Lvl := ℕ) spec15 c (VE15 m ρ c)
  hentry c := by
    rw [Pipeline.ownSems0_none]
    have hsplit := Pipeline.arrays_of_unscopedBufs (p := 15) (pcfgs (F := F)) adm (hpdats m ρ) launch15.win launch15.arr_whole c
      ((hpdats m ρ 15 c).share_full fun _ => rfl) (VE15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (hpdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (hpdats m ρ) ((hpdats m ρ 15 c).share_full fun _ => rfl)
      (VE15 m ρ c) (VX15 m ρ c) ((hpdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 16 over the thread state: its arrays split out of the unscoped buffers at entry and put back at the exit contents. -/
def hreg16 : Pipeline.RegionSeg (pcfgs (F := F)) adm (hpdats m ρ) () defs₀ h𝒱₀ hL hlv 16 where
  win := launch16.win.to₀
  block_pos := launch16.block_pos
  stage_whole := launch16.stage_whole
  K := PEmpty
  osem k := k.elim
  ho := Pipeline.OwnSemFacts.none _
  hbody c := (body_obligation16 (VE16 m ρ) c).loose
  hwaits := Pipeline.hwaits_of_owed_zero _ _ _ _ hL hlv 16 fun _ _ => rfl
  pre c := iprop(StableHlo.held (c : Thread nD τ) (Pipeline.ucRefs τ sig) (WX15 m ρ c) ∗ hR c)
  post c := iprop(StableHlo.held (c : Thread nD τ) (Pipeline.ucRefs τ sig) (WX16 m ρ c) ∗ hR c)
  X c := iprop(∃ r, prngReg c r)
  Y c := iprop(∃ r, prngReg c r)
  Z c := Pipeline.unscopedRest (Ix := Unit) (Name := ℕ) (U := UR sig nD τ) (Lvl := ℕ) spec16 c (VE16 m ρ c)
  hentry c := by
    rw [Pipeline.ownSems0_none]
    have hsplit := Pipeline.arrays_of_unscopedBufs (p := 16) (pcfgs (F := F)) adm (hpdats m ρ) launch16.win launch16.arr_whole c
      ((hpdats m ρ 16 c).share_full fun _ => rfl) (VE16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 16 c).Φ 0 = (dat16 (VE16 m ρ) c).Φ 0 from rfl]
    refine .trans ?_ (hin16 (VE16 m ρ) c)
    unfold Pipeline.ΦA
    iintro ⟨Hp, -, Hr⟩
    isplitl [Hr]; · iexact Hr
    iexact Hp
  hout c := by
    rw [Pipeline.ownSems0_none, show (hpdats m ρ 16 c).Φ (Fin.last _) = (dat16 (VE16 m ρ) c).Φ (Fin.last cfg16.N) from rfl]
    refine (hout16 (VE16 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (hpdats m ρ) ((hpdats m ρ 16 c).share_full fun _ => rfl)
      (VE16 m ρ c) (VX16 m ρ c) ((hpdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 17 over the thread state: its arrays split out of the unscoped buffers at entry and put back at the exit contents. -/
def hreg17 : Pipeline.RegionSeg (pcfgs (F := F)) adm (hpdats m ρ) () defs₀ h𝒱₀ hL hlv 17 where
  win := launch17.win.to₀
  block_pos := launch17.block_pos
  stage_whole := launch17.stage_whole
  K := PEmpty
  osem k := k.elim
  ho := Pipeline.OwnSemFacts.none _
  hbody c := (body_obligation17 (VE17 m ρ) c).loose
  hwaits := Pipeline.hwaits_of_owed_zero _ _ _ _ hL hlv 17 fun _ _ => rfl
  pre c := iprop(StableHlo.held (c : Thread nD τ) (Pipeline.ucRefs τ sig) (WX16 m ρ c) ∗ hR c)
  post c := iprop(StableHlo.held (c : Thread nD τ) (Pipeline.ucRefs τ sig) (WX17 m ρ c) ∗ hR c)
  X c := iprop(∃ r, prngReg c r)
  Y c := iprop(∃ r, prngReg c r)
  Z c := Pipeline.unscopedRest (Ix := Unit) (Name := ℕ) (U := UR sig nD τ) (Lvl := ℕ) spec17 c (VE17 m ρ c)
  hentry c := by
    rw [Pipeline.ownSems0_none]
    have hsplit := Pipeline.arrays_of_unscopedBufs (p := 17) (pcfgs (F := F)) adm (hpdats m ρ) launch17.win launch17.arr_whole c
      ((hpdats m ρ 17 c).share_full fun _ => rfl) (VE17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (hpdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (hpdats m ρ) ((hpdats m ρ 17 c).share_full fun _ => rfl)
      (VE17 m ρ c) (VX17 m ρ c) ((hpdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 18 over the thread state: its arrays split out of the unscoped buffers at entry and put back at the exit contents. -/
def hreg18 : Pipeline.RegionSeg (pcfgs (F := F)) adm (hpdats m ρ) () defs₀ h𝒱₀ hL hlv 18 where
  win := launch18.win.to₀
  block_pos := launch18.block_pos
  stage_whole := launch18.stage_whole
  K := PEmpty
  osem k := k.elim
  ho := Pipeline.OwnSemFacts.none _
  hbody c := (body_obligation18 (VE18 m ρ) c).loose
  hwaits := Pipeline.hwaits_of_owed_zero _ _ _ _ hL hlv 18 fun _ _ => rfl
  pre c := iprop(StableHlo.held (c : Thread nD τ) (Pipeline.ucRefs τ sig) (WX17 m ρ c) ∗ hR c)
  post c := iprop(StableHlo.held (c : Thread nD τ) (Pipeline.ucRefs τ sig) (WX18 m ρ c) ∗ hR c)
  X c := iprop(∃ r, prngReg c r)
  Y c := iprop(∃ r, prngReg c r)
  Z c := Pipeline.unscopedRest (Ix := Unit) (Name := ℕ) (U := UR sig nD τ) (Lvl := ℕ) spec18 c (VE18 m ρ c)
  hentry c := by
    rw [Pipeline.ownSems0_none]
    have hsplit := Pipeline.arrays_of_unscopedBufs (p := 18) (pcfgs (F := F)) adm (hpdats m ρ) launch18.win launch18.arr_whole c
      ((hpdats m ρ 18 c).share_full fun _ => rfl) (VE18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 18 c).Φ 0 = (dat18 (VE18 m ρ) c).Φ 0 from rfl]
    refine .trans ?_ (hin18 (VE18 m ρ) c)
    unfold Pipeline.ΦA
    iintro ⟨Hp, -, Hr⟩
    isplitl [Hr]; · iexact Hr
    iexact Hp
  hout c := by
    rw [Pipeline.ownSems0_none, show (hpdats m ρ 18 c).Φ (Fin.last _) = (dat18 (VE18 m ρ) c).Φ (Fin.last cfg18.N) from rfl]
    refine (hout18 (VE18 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (hpdats m ρ) ((hpdats m ρ 18 c).share_full fun _ => rfl)
      (VE18 m ρ c) (VX18 m ρ c) ((hpdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 19 over the thread state: its arrays split out of the unscoped buffers at entry and put back at the exit contents. -/
def hreg19 : Pipeline.RegionSeg (pcfgs (F := F)) adm (hpdats m ρ) () defs₀ h𝒱₀ hL hlv 19 where
  win := launch19.win.to₀
  block_pos := launch19.block_pos
  stage_whole := launch19.stage_whole
  K := PEmpty
  osem k := k.elim
  ho := Pipeline.OwnSemFacts.none _
  hbody c := (body_obligation19 (VE19 m ρ) c).loose
  hwaits := Pipeline.hwaits_of_owed_zero _ _ _ _ hL hlv 19 fun _ _ => rfl
  pre c := iprop(StableHlo.held (c : Thread nD τ) (Pipeline.ucRefs τ sig) (WX18 m ρ c) ∗ hR c)
  post c := iprop(StableHlo.held (c : Thread nD τ) (Pipeline.ucRefs τ sig) (WX19 m ρ c) ∗ hR c)
  X c := iprop(∃ r, prngReg c r)
  Y c := iprop(∃ r, prngReg c r)
  Z c := Pipeline.unscopedRest (Ix := Unit) (Name := ℕ) (U := UR sig nD τ) (Lvl := ℕ) spec19 c (VE19 m ρ c)
  hentry c := by
    rw [Pipeline.ownSems0_none]
    have hsplit := Pipeline.arrays_of_unscopedBufs (p := 19) (pcfgs (F := F)) adm (hpdats m ρ) launch19.win launch19.arr_whole c
      ((hpdats m ρ 19 c).share_full fun _ => rfl) (VE19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (hpdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (hpdats m ρ) ((hpdats m ρ 19 c).share_full fun _ => rfl)
      (VE19 m ρ c) (VX19 m ρ c) ((hpdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 20 over the thread state: its arrays split out of the unscoped buffers at entry and put back at the exit contents. -/
def hreg20 : Pipeline.RegionSeg (pcfgs (F := F)) adm (hpdats m ρ) () defs₀ h𝒱₀ hL hlv 20 where
  win := launch20.win.to₀
  block_pos := launch20.block_pos
  stage_whole := launch20.stage_whole
  K := PEmpty
  osem k := k.elim
  ho := Pipeline.OwnSemFacts.none _
  hbody c := (body_obligation20 (VE20 m ρ) c).loose
  hwaits := Pipeline.hwaits_of_owed_zero _ _ _ _ hL hlv 20 fun _ _ => rfl
  pre c := iprop(StableHlo.held (c : Thread nD τ) (Pipeline.ucRefs τ sig) (WX19 m ρ c) ∗ hR c)
  post c := iprop(StableHlo.held (c : Thread nD τ) (Pipeline.ucRefs τ sig) (WX20 m ρ c) ∗ hR c)
  X c := iprop(∃ r, prngReg c r)
  Y c := iprop(∃ r, prngReg c r)
  Z c := Pipeline.unscopedRest (Ix := Unit) (Name := ℕ) (U := UR sig nD τ) (Lvl := ℕ) spec20 c (VE20 m ρ c)
  hentry c := by
    rw [Pipeline.ownSems0_none]
    have hsplit := Pipeline.arrays_of_unscopedBufs (p := 20) (pcfgs (F := F)) adm (hpdats m ρ) launch20.win launch20.arr_whole c
      ((hpdats m ρ 20 c).share_full fun _ => rfl) (VE20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 20 c).Φ 0 = (dat20 (VE20 m ρ) c).Φ 0 from rfl]
    refine .trans ?_ (hin20 (VE20 m ρ) c)
    unfold Pipeline.ΦA
    iintro ⟨Hp, -, Hr⟩
    isplitl [Hr]; · iexact Hr
    iexact Hp
  hout c := by
    rw [Pipeline.ownSems0_none, show (hpdats m ρ 20 c).Φ (Fin.last _) = (dat20 (VE20 m ρ) c).Φ (Fin.last cfg20.N) from rfl]
    refine (hout20 (VE20 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (hpdats m ρ) ((hpdats m ρ 20 c).share_full fun _ => rfl)
      (VE20 m ρ c) (VX20 m ρ c) ((hpdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 21 over the thread state: its arrays split out of the unscoped buffers at entry and put back at the exit contents. -/
def hreg21 : Pipeline.RegionSeg (pcfgs (F := F)) adm (hpdats m ρ) () defs₀ h𝒱₀ hL hlv 21 where
  win := launch21.win.to₀
  block_pos := launch21.block_pos
  stage_whole := launch21.stage_whole
  K := PEmpty
  osem k := k.elim
  ho := Pipeline.OwnSemFacts.none _
  hbody c := (body_obligation21 (VE21 m ρ) c).loose
  hwaits := Pipeline.hwaits_of_owed_zero _ _ _ _ hL hlv 21 fun _ _ => rfl
  pre c := iprop(StableHlo.held (c : Thread nD τ) (Pipeline.ucRefs τ sig) (WX20 m ρ c) ∗ hR c)
  post c := iprop(StableHlo.held (c : Thread nD τ) (Pipeline.ucRefs τ sig) (WX21 m ρ c) ∗ hR c)
  X c := iprop(∃ r, prngReg c r)
  Y c := iprop(∃ r, prngReg c r)
  Z c := Pipeline.unscopedRest (Ix := Unit) (Name := ℕ) (U := UR sig nD τ) (Lvl := ℕ) spec21 c (VE21 m ρ c)
  hentry c := by
    rw [Pipeline.ownSems0_none]
    have hsplit := Pipeline.arrays_of_unscopedBufs (p := 21) (pcfgs (F := F)) adm (hpdats m ρ) launch21.win launch21.arr_whole c
      ((hpdats m ρ 21 c).share_full fun _ => rfl) (VE21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (hpdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (hpdats m ρ) ((hpdats m ρ 21 c).share_full fun _ => rfl)
      (VE21 m ρ c) (VX21 m ρ c) ((hpdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev hsegs : List (Pipeline.Seg (pcfgs (F := F)) adm (hpdats m ρ) () defs₀ h𝒱₀ hL hlv) :=
  [ .region (hreg0 m ρ),
    .host (hseg hostOps1 hostOps1_sub hostOps1_fresh (WX0 m ρ)),
    .region (hreg1 m ρ),
    .region (hreg2 m ρ),
    .region (hreg3 m ρ),
    .region (hreg4 m ρ),
    .region (hreg5 m ρ),
    .region (hreg6 m ρ),
    .region (hreg7 m ρ),
    .region (hreg8 m ρ),
    .region (hreg9 m ρ),
    .region (hreg10 m ρ),
    .region (hreg11 m ρ),
    .region (hreg12 m ρ),
    .region (hreg13 m ρ),
    .region (hreg14 m ρ),
    .region (hreg15 m ρ),
    .region (hreg16 m ρ),
    .region (hreg17 m ρ),
    .region (hreg18 m ρ),
    .region (hreg19 m ρ),
    .region (hreg20 m ρ),
    .region (hreg21 m ρ),
    .host (hseg hostOps22 hostOps22_sub hostOps22_fresh (WX21 m ρ)) ]

theorem main_run (c : Dev nD) : main (F := F) c = Pipeline.Seg.run (hsegs m ρ) := (main_chain c).trans (by chain_rfl)

set_option backward.isDefEq.respectTransparency.types false in
/-- Every weakly fair execution of @main from memory m with zero counters terminates, nothing faulting, and every final state holds
    each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (hpdats m ρ) () cellOf_inj emb₁ defs₀ h𝒱₀ hL hlv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (Wfin m ρ c) ∗ (∃ r, prngReg c r) ∗ ∃ W, owes (c : Thread nD τ) (0 : CellTallies nD τ sig Unit) W) : sProp 𝕄)
        ⊢ iprop((StableHlo.held (c : Thread nD τ) (Pipeline.ucRefs τ sig) (Wfin m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach hL hlv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h => h)

/-! ## The arguments end as launched -/
theorem main_arg0_X0 (c : Dev nD) : WX0 m ρ c (Proc.devRef .tc main_arg0) = m ((c : Thread nD τ).loc main_arg0) := (keep0 m ρ c main_arg0 (by decide)).trans rfl
theorem main_arg0_E1 (c : Dev nD) : WE1 m ρ c (Proc.devRef .tc main_arg0) = m ((c : Thread nD τ).loc main_arg0) :=
  (StableHlo.after_of_writes_sub hostOps1 _ hostOps1_writes (by decide)).trans (main_arg0_X0 m ρ c)
theorem main_arg0_X1 (c : Dev nD) : WX1 m ρ c (Proc.devRef .tc main_arg0) = m ((c : Thread nD τ).loc main_arg0) := (keep1 m ρ c main_arg0 (by decide)).trans (main_arg0_E1 m ρ c)
theorem main_arg0_X2 (c : Dev nD) : WX2 m ρ c (Proc.devRef .tc main_arg0) = m ((c : Thread nD τ).loc main_arg0) := (keep2 m ρ c main_arg0 (by decide)).trans (main_arg0_X1 m ρ c)
theorem main_arg0_X3 (c : Dev nD) : WX3 m ρ c (Proc.devRef .tc main_arg0) = m ((c : Thread nD τ).loc main_arg0) := (keep3 m ρ c main_arg0 (by decide)).trans (main_arg0_X2 m ρ c)
theorem main_arg0_X4 (c : Dev nD) : WX4 m ρ c (Proc.devRef .tc main_arg0) = m ((c : Thread nD τ).loc main_arg0) := (keep4 m ρ c main_arg0 (by decide)).trans (main_arg0_X3 m ρ c)
theorem main_arg0_X5 (c : Dev nD) : WX5 m ρ c (Proc.devRef .tc main_arg0) = m ((c : Thread nD τ).loc main_arg0) := (keep5 m ρ c main_arg0 (by decide)).trans (main_arg0_X4 m ρ c)
theorem main_arg0_X6 (c : Dev nD) : WX6 m ρ c (Proc.devRef .tc main_arg0) = m ((c : Thread nD τ).loc main_arg0) := (keep6 m ρ c main_arg0 (by decide)).trans (main_arg0_X5 m ρ c)
theorem main_arg0_X7 (c : Dev nD) : WX7 m ρ c (Proc.devRef .tc main_arg0) = m ((c : Thread nD τ).loc main_arg0) := (keep7 m ρ c main_arg0 (by decide)).trans (main_arg0_X6 m ρ c)
theorem main_arg0_X8 (c : Dev nD) : WX8 m ρ c (Proc.devRef .tc main_arg0) = m ((c : Thread nD τ).loc main_arg0) := (keep8 m ρ c main_arg0 (by decide)).trans (main_arg0_X7 m ρ c)
theorem main_arg0_X9 (c : Dev nD) : WX9 m ρ c (Proc.devRef .tc main_arg0) = m ((c : Thread nD τ).loc main_arg0) := (keep9 m ρ c main_arg0 (by decide)).trans (main_arg0_X8 m ρ c)
theorem main_arg0_X10 (c : Dev nD) : WX10 m ρ c (Proc.devRef .tc main_arg0) = m ((c : Thread nD τ).loc main_arg0) := (keep10 m ρ c main_arg0 (by decide)).trans (main_arg0_X9 m ρ c)
theorem main_arg0_X11 (c : Dev nD) : WX11 m ρ c (Proc.devRef .tc main_arg0) = m ((c : Thread nD τ).loc main_arg0) := (keep11 m ρ c main_arg0 (by decide)).trans (main_arg0_X10 m ρ c)
theorem main_arg0_X12 (c : Dev nD) : WX12 m ρ c (Proc.devRef .tc main_arg0) = m ((c : Thread nD τ).loc main_arg0) := (keep12 m ρ c main_arg0 (by decide)).trans (main_arg0_X11 m ρ c)
theorem main_arg0_X13 (c : Dev nD) : WX13 m ρ c (Proc.devRef .tc main_arg0) = m ((c : Thread nD τ).loc main_arg0) := (keep13 m ρ c main_arg0 (by decide)).trans (main_arg0_X12 m ρ c)
theorem main_arg0_X14 (c : Dev nD) : WX14 m ρ c (Proc.devRef .tc main_arg0) = m ((c : Thread nD τ).loc main_arg0) := (keep14 m ρ c main_arg0 (by decide)).trans (main_arg0_X13 m ρ c)
theorem main_arg0_X15 (c : Dev nD) : WX15 m ρ c (Proc.devRef .tc main_arg0) = m ((c : Thread nD τ).loc main_arg0) := (keep15 m ρ c main_arg0 (by decide)).trans (main_arg0_X14 m ρ c)
theorem main_arg0_X16 (c : Dev nD) : WX16 m ρ c (Proc.devRef .tc main_arg0) = m ((c : Thread nD τ).loc main_arg0) := (keep16 m ρ c main_arg0 (by decide)).trans (main_arg0_X15 m ρ c)
theorem main_arg0_X17 (c : Dev nD) : WX17 m ρ c (Proc.devRef .tc main_arg0) = m ((c : Thread nD τ).loc main_arg0) := (keep17 m ρ c main_arg0 (by decide)).trans (main_arg0_X16 m ρ c)
theorem main_arg0_X18 (c : Dev nD) : WX18 m ρ c (Proc.devRef .tc main_arg0) = m ((c : Thread nD τ).loc main_arg0) := (keep18 m ρ c main_arg0 (by decide)).trans (main_arg0_X17 m ρ c)
theorem main_arg0_X19 (c : Dev nD) : WX19 m ρ c (Proc.devRef .tc main_arg0) = m ((c : Thread nD τ).loc main_arg0) := (keep19 m ρ c main_arg0 (by decide)).trans (main_arg0_X18 m ρ c)
theorem main_arg0_X20 (c : Dev nD) : WX20 m ρ c (Proc.devRef .tc main_arg0) = m ((c : Thread nD τ).loc main_arg0) := (keep20 m ρ c main_arg0 (by decide)).trans (main_arg0_X19 m ρ c)
theorem main_arg0_X21 (c : Dev nD) : WX21 m ρ c (Proc.devRef .tc main_arg0) = m ((c : Thread nD τ).loc main_arg0) := (keep21 m ρ c main_arg0 (by decide)).trans (main_arg0_X20 m ρ c)
theorem main_arg0_fin (c : Dev nD) : Wfin m ρ c (Proc.devRef .tc main_arg0) = m ((c : Thread nD τ).loc main_arg0) :=
  (StableHlo.after_of_writes_sub hostOps22 _ hostOps22_writes (by decide)).trans (main_arg0_X21 m ρ c)
theorem main_arg1_X0 (c : Dev nD) : WX0 m ρ c (Proc.devRef .tc main_arg1) = m ((c : Thread nD τ).loc main_arg1) := (keep0 m ρ c main_arg1 (by decide)).trans rfl
theorem main_arg1_E1 (c : Dev nD) : WE1 m ρ c (Proc.devRef .tc main_arg1) = m ((c : Thread nD τ).loc main_arg1) :=
  (StableHlo.after_of_writes_sub hostOps1 _ hostOps1_writes (by decide)).trans (main_arg1_X0 m ρ c)
theorem main_arg1_X1 (c : Dev nD) : WX1 m ρ c (Proc.devRef .tc main_arg1) = m ((c : Thread nD τ).loc main_arg1) := (keep1 m ρ c main_arg1 (by decide)).trans (main_arg1_E1 m ρ c)
theorem main_arg1_X2 (c : Dev nD) : WX2 m ρ c (Proc.devRef .tc main_arg1) = m ((c : Thread nD τ).loc main_arg1) := (keep2 m ρ c main_arg1 (by decide)).trans (main_arg1_X1 m ρ c)
theorem main_arg1_X3 (c : Dev nD) : WX3 m ρ c (Proc.devRef .tc main_arg1) = m ((c : Thread nD τ).loc main_arg1) := (keep3 m ρ c main_arg1 (by decide)).trans (main_arg1_X2 m ρ c)
theorem main_arg1_X4 (c : Dev nD) : WX4 m ρ c (Proc.devRef .tc main_arg1) = m ((c : Thread nD τ).loc main_arg1) := (keep4 m ρ c main_arg1 (by decide)).trans (main_arg1_X3 m ρ c)
theorem main_arg1_X5 (c : Dev nD) : WX5 m ρ c (Proc.devRef .tc main_arg1) = m ((c : Thread nD τ).loc main_arg1) := (keep5 m ρ c main_arg1 (by decide)).trans (main_arg1_X4 m ρ c)
theorem main_arg1_X6 (c : Dev nD) : WX6 m ρ c (Proc.devRef .tc main_arg1) = m ((c : Thread nD τ).loc main_arg1) := (keep6 m ρ c main_arg1 (by decide)).trans (main_arg1_X5 m ρ c)
theorem main_arg1_X7 (c : Dev nD) : WX7 m ρ c (Proc.devRef .tc main_arg1) = m ((c : Thread nD τ).loc main_arg1) := (keep7 m ρ c main_arg1 (by decide)).trans (main_arg1_X6 m ρ c)
theorem main_arg1_X8 (c : Dev nD) : WX8 m ρ c (Proc.devRef .tc main_arg1) = m ((c : Thread nD τ).loc main_arg1) := (keep8 m ρ c main_arg1 (by decide)).trans (main_arg1_X7 m ρ c)
theorem main_arg1_X9 (c : Dev nD) : WX9 m ρ c (Proc.devRef .tc main_arg1) = m ((c : Thread nD τ).loc main_arg1) := (keep9 m ρ c main_arg1 (by decide)).trans (main_arg1_X8 m ρ c)
theorem main_arg1_X10 (c : Dev nD) : WX10 m ρ c (Proc.devRef .tc main_arg1) = m ((c : Thread nD τ).loc main_arg1) := (keep10 m ρ c main_arg1 (by decide)).trans (main_arg1_X9 m ρ c)
theorem main_arg1_X11 (c : Dev nD) : WX11 m ρ c (Proc.devRef .tc main_arg1) = m ((c : Thread nD τ).loc main_arg1) := (keep11 m ρ c main_arg1 (by decide)).trans (main_arg1_X10 m ρ c)
theorem main_arg1_X12 (c : Dev nD) : WX12 m ρ c (Proc.devRef .tc main_arg1) = m ((c : Thread nD τ).loc main_arg1) := (keep12 m ρ c main_arg1 (by decide)).trans (main_arg1_X11 m ρ c)
theorem main_arg1_X13 (c : Dev nD) : WX13 m ρ c (Proc.devRef .tc main_arg1) = m ((c : Thread nD τ).loc main_arg1) := (keep13 m ρ c main_arg1 (by decide)).trans (main_arg1_X12 m ρ c)
theorem main_arg1_X14 (c : Dev nD) : WX14 m ρ c (Proc.devRef .tc main_arg1) = m ((c : Thread nD τ).loc main_arg1) := (keep14 m ρ c main_arg1 (by decide)).trans (main_arg1_X13 m ρ c)
theorem main_arg1_X15 (c : Dev nD) : WX15 m ρ c (Proc.devRef .tc main_arg1) = m ((c : Thread nD τ).loc main_arg1) := (keep15 m ρ c main_arg1 (by decide)).trans (main_arg1_X14 m ρ c)
theorem main_arg1_X16 (c : Dev nD) : WX16 m ρ c (Proc.devRef .tc main_arg1) = m ((c : Thread nD τ).loc main_arg1) := (keep16 m ρ c main_arg1 (by decide)).trans (main_arg1_X15 m ρ c)
theorem main_arg1_X17 (c : Dev nD) : WX17 m ρ c (Proc.devRef .tc main_arg1) = m ((c : Thread nD τ).loc main_arg1) := (keep17 m ρ c main_arg1 (by decide)).trans (main_arg1_X16 m ρ c)
theorem main_arg1_X18 (c : Dev nD) : WX18 m ρ c (Proc.devRef .tc main_arg1) = m ((c : Thread nD τ).loc main_arg1) := (keep18 m ρ c main_arg1 (by decide)).trans (main_arg1_X17 m ρ c)
theorem main_arg1_X19 (c : Dev nD) : WX19 m ρ c (Proc.devRef .tc main_arg1) = m ((c : Thread nD τ).loc main_arg1) := (keep19 m ρ c main_arg1 (by decide)).trans (main_arg1_X18 m ρ c)
theorem main_arg1_X20 (c : Dev nD) : WX20 m ρ c (Proc.devRef .tc main_arg1) = m ((c : Thread nD τ).loc main_arg1) := (keep20 m ρ c main_arg1 (by decide)).trans (main_arg1_X19 m ρ c)
theorem main_arg1_X21 (c : Dev nD) : WX21 m ρ c (Proc.devRef .tc main_arg1) = m ((c : Thread nD τ).loc main_arg1) := (keep21 m ρ c main_arg1 (by decide)).trans (main_arg1_X20 m ρ c)
theorem main_arg1_fin (c : Dev nD) : Wfin m ρ c (Proc.devRef .tc main_arg1) = m ((c : Thread nD τ).loc main_arg1) :=
  (StableHlo.after_of_writes_sub hostOps22 _ hostOps22_writes (by decide)).trans (main_arg1_X21 m ρ c)

/-- The frame: @main runs to its end, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (main_arg0_fin m ρ c),
    (h c _ (mem_uc main_arg1 (by decide))).trans (main_arg1_fin m ρ c)⟩) (run_all m ρ)

end Cert.KernelIdeal.Hand

end
-- ==== Proof.Spec.lean ====
/- The mathematics both programs compute, over the extended reals, index by index and with no arrays: the entropic optimal-transport
   (Sinkhorn) iteration between two clouds of 8192 points in dimension 64 with uniform weights.
   cost r c is the Euclidean distance ‖s_r − t_c‖ spelt as sqrt(max(‖s_r‖² + ‖t_c‖² − 2⟨s_r, t_c⟩, 0)); the Gibbs matrix is exp(−cost / ε);
   ten rounds of u = w / (K v + δ), v = w / (Kᵀ u + δ) from v = 1; the coupling is u_r K_rc v_c and the distance the mean of
   coupling × cost. The constants are the programs' own f32 literals, kept as bit patterns (never evaluated). -/
import Idealize.ShloMosaic.PureOps.Ideal
import Idealize.ShloMosaic.Lib.ValueIdx

noncomputable section

namespace Cert.Spec

open Idealize.ShloMosaic

abbrev Feat : Type := Fin 8192 → Fin 64 → EReal
abbrev Mat : Type := Fin 8192 → Fin 8192 → EReal
abbrev Vc : Type := Fin 8192 → EReal

/-- 2, ε = f32(0.1), δ = f32(1e-8), w = 1/8192, 8192² — the programs' literals. -/
def two : EReal := Ideal.ofBits .f32 0x40000000#32
def eps : EReal := Ideal.ofBits .f32 0x3DCCCCCD#32
def stab : EReal := Ideal.ofBits .f32 0x322BCC77#32
def wgt : EReal := Ideal.ofBits .f32 0x39000000#32
def tot : EReal := Ideal.ofBits .f32 0x4C800000#32
def one : EReal := Ideal.ofBits .f32 0x3F800000#32

/-- ‖x_r‖². -/
def sqn (x : Feat) (r : Fin 8192) : EReal := ∑ k : Fin 64, x r k * x r k
/-- ⟨s_r, t_c⟩. -/
def dot (s t : Feat) (r c : Fin 8192) : EReal := ∑ k : Fin 64, s r k * t c k
/-- The distance matrix. -/
def cost (s t : Feat) : Mat := fun r c => Ideal.sqrt (max ((sqn s r + sqn t c) - two * dot s t r c) 0)
/-- The Gibbs matrix exp(−cost / ε), the negation spelt as a subtraction from zero. -/
def gibbs (s t : Feat) : Mat := fun r c => Ideal.exp (Ideal.div (0 - cost s t r c) eps)
/-- One update of the row scalings: w / (K v + δ). -/
def uStep (K : Mat) (v : Vc) : Vc := fun r => Ideal.div wgt ((∑ k : Fin 8192, K r k * v k) + stab)
/-- One update of the column scalings: w / (Kᵀ u + δ). -/
def vStep (K : Mat) (u : Vc) : Vc := fun c => Ideal.div wgt ((∑ r : Fin 8192, K r c * u r) + stab)
/-- The scalings after n rounds, from v = 1 (u before the first round is not read). -/
def uv (K : Mat) : ℕ → Vc × Vc
  | 0 => (fun _ => one, fun _ => one)
  | n + 1 => (uStep K (uv K n).2, vStep K (uStep K (uv K n).2))
/-- The coupling u_r K_rc v_c, multiplied in that order. -/
def coupling (K : Mat) (u v : Vc) : Mat := fun r c => (u r * K r c) * v c
/-- A row's sum of coupling × cost. -/
def rowSum (P C : Mat) (r : Fin 8192) : EReal := ∑ c : Fin 8192, P r c * C r c
/-- The distance: the sum over rows of the row sums, over 8192². -/
def dist (P C : Mat) : EReal := Ideal.div (∑ r : Fin 8192, rowSum P C r) tot

end Cert.Spec

end
-- ==== Proof.G.lean ====
/- The five whole-array functions the kernel's launches compute, over literal shapes and the extended reals: what each launch's output
   array holds as ONE function of the arrays it read. (Program-free: indices are the library's two-coordinate constructors.) -/
import proofs.«111645_j15006615733809_2_alg».proof.Proof.Spec
import Idealize.ShloMosaic.Lib.ValueIdx

noncomputable section

namespace Cert.G

open Idealize.ShloMosaic Idealize.ShloMosaic.ValueIdx

abbrev A8192x64 : Type := (⟨2, ![8192, 64]⟩ : Shape).Idx → EReal
abbrev A8192x8192 : Type := (⟨2, ![8192, 8192]⟩ : Shape).Idx → EReal
abbrev A8192x1 : Type := (⟨2, ![8192, 1]⟩ : Shape).Idx → EReal
abbrev A1x8192 : Type := (⟨2, ![1, 8192]⟩ : Shape).Idx → EReal

/-- Arrays as the specification's plain functions. -/
def featOf (x : A8192x64) : Spec.Feat := fun r k => x (ix2 r k)
def matOf (x : A8192x8192) : Spec.Mat := fun r c => x (ix2 r c)
def colOf (x : A8192x1) : Spec.Vc := fun r => x (ix2 r (0 : Fin 1))
def rowOf (x : A1x8192) : Spec.Vc := fun c => x (ix2 (0 : Fin 1) c)

/-- The Gibbs matrix of two feature arrays. -/
def Gg (s t : A8192x64) : A8192x8192 :=
  fun i => Spec.gibbs (featOf s) (featOf t) ⟨(i 0).val, (i 0).isLt⟩ ⟨(i 1).val, (i 1).isLt⟩
/-- The row-scalings update from the matrix and the column scalings held as a row. -/
def Gu (Karr : A8192x8192) (v : A1x8192) : A8192x1 :=
  fun i => Ideal.div Spec.wgt ((∑ k : Fin 8192, Karr (ix2 (⟨(i 0).val, (i 0).isLt⟩ : Fin 8192) k) * v (ix2 (0 : Fin 1) k)) + Spec.stab)
/-- The column-scalings update (as a row) from the matrix and the row scalings held as a column. -/
def Gv (Karr : A8192x8192) (u : A8192x1) : A1x8192 :=
  fun i => Ideal.div Spec.wgt ((∑ r : Fin 8192, Karr (ix2 r (⟨(i 1).val, (i 1).isLt⟩ : Fin 8192)) * u (ix2 r (0 : Fin 1))) + Spec.stab)
/-- The coupling matrix. -/
def Gc (Karr : A8192x8192) (u : A8192x1) (v : A1x8192) : A8192x8192 :=
  fun i => (u (ix2 (⟨(i 0).val, (i 0).isLt⟩ : Fin 8192) (0 : Fin 1)) * Karr i) * v (ix2 (0 : Fin 1) (⟨(i 1).val, (i 1).isLt⟩ : Fin 8192))
/-- Each row's sum of coupling × cost, as a column. -/
def Gr (s t : A8192x64) (Karr : A8192x8192) (u : A8192x1) (v : A1x8192) : A8192x1 :=
  fun i => ∑ q : Fin 8192, Gc Karr u v (ix2 (⟨(i 0).val, (i 0).isLt⟩ : Fin 8192) q) * Spec.cost (featOf s) (featOf t) ⟨(i 0).val, (i 0).isLt⟩ q

end Cert.G

end
-- ==== Proof.KI.V0.lean ====
/- Region 0's output array, whole: the Gibbs matrix exp(−‖s_r − t_c‖ / ε) of the two feature arrays it read, tile by tile. -/
import proofs.«111645_j15006615733809_2_alg».proof.Proof.KI.R0
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

theorem flushed0 (hpay : ∀ (x0 x1 : Vec Ideal S1024x64 .f32) (p q : Fin 1024),
      k0_pay1 (F := Ideal) x0 x1 (ix2 p q) = Ideal.exp (Ideal.div (0 - Ideal.sqrt (max (((∑ k : Fin 64, x0 (ix2 p k) * x0 (ix2 p k)) + (∑ k : Fin 64, x1 (ix2 q k) * x1 (ix2 q k))) - Spec.two * (∑ k : Fin 64, x0 (ix2 p k) * x1 (ix2 q k))) 0)) Spec.eps))
    (c : Dev nD) (t : Fin cfg0.N) :
    (dat0 V c).flushed 2 t = ((cfg0.win 2).blk t).view.read (Elt Ideal) (G.Gg (V c main_arg0) (V c main_arg1)) := by
  show (cfg0.win 2).cut (grid0.coords t) ((dat0 V c).after 2 t) = _
  rw [after0_2]
  unfold out0_2
  rw [View.canon_unit_zero hz0]
  simp only [View.ld_unit_zero (S := S1024x64) hz0]
  funext j
  obtain ⟨p, q, rfl⟩ : ∃ (p : Fin 1024) (q : Fin 1024), j = ix2 p q := ⟨j 0, j 1, eq_ix2 j⟩
  show k0_pay1 (F := Ideal) (iblk0 V c 0 t) (iblk0 V c 1 t) (ix2 p q) = G.Gg (V c main_arg0) (V c main_arg1) (((cfg0.win 2).blk t).view.emb (ix2 p q))
  refine (hpay _ _ p q).trans ?_
  obtain ⟨e0, e1, e2, e3, e4, e5⟩ := idx_facts0 t
  have h0 : ∀ k : Fin 64, ((cfg0.win 0).blk t).view.emb (ix2 p k) = ix2 (⟨((((cfg0.win 2).blk t).view.emb (ix2 p q)) 0).val, ((((cfg0.win 2).blk t).view.emb (ix2 p q)) 0).isLt⟩ : Fin 8192) k := by
    intro k; funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 64 + 1 * k.val = k.val; omega
  have h1 : ∀ k : Fin 64, ((cfg0.win 1).blk t).view.emb (ix2 q k) = ix2 (⟨((((cfg0.win 2).blk t).view.emb (ix2 p q)) 1).val, ((((cfg0.win 2).blk t).view.emb (ix2 p q)) 1).isLt⟩ : Fin 8192) k := by
    intro k; funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 64 + 1 * k.val = k.val; omega
  have g0 : ∀ k : Fin 64, (iblk0 V c 0 t (ix2 p k) : EReal) = (V c main_arg0 : S8192x64.Idx → EReal) (ix2 (⟨((((cfg0.win 2).blk t).view.emb (ix2 p q)) 0).val, ((((cfg0.win 2).blk t).view.emb (ix2 p q)) 0).isLt⟩ : Fin 8192) k) := by
    intro k
    show (V c main_arg0 : S8192x64.Idx → EReal) (((cfg0.win 0).blk t).view.emb (ix2 p k)) = _
    rw [h0]
  have g1 : ∀ k : Fin 64, (iblk0 V c 1 t (ix2 q k) : EReal) = (V c main_arg1 : S8192x64.Idx → EReal) (ix2 (⟨((((cfg0.win 2).blk t).view.emb (ix2 p q)) 1).val, ((((cfg0.win 2).blk t).view.emb (ix2 p q)) 1).isLt⟩ : Fin 8192) k) := by
    intro k
    show (V c main_arg1 : S8192x64.Idx → EReal) (((cfg0.win 1).blk t).view.emb (ix2 q k)) = _
    rw [h1]
  simp only [g0, g1]
  rfl

theorem mem_blk0 (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

theorem cover0 (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN : (i 0).val / 1024 * 8 + (i 1).val / 1024 < cfg0.N := by rw [show cfg0.N = 64 from N_0]; omega
  refine ⟨⟨(i 0).val / 1024 * 8 + (i 1).val / 1024, hN⟩, flush0_2 _, ?_⟩
  rw [mem_blk0]
  obtain ⟨e0, e1, e2, e3, e4, e5⟩ := idx_facts0 ⟨(i 0).val / 1024 * 8 + (i 1).val / 1024, hN⟩
  intro a
  match a with
  | ⟨0, _⟩ => show win0_2.index _ (0 : Fin 2) * 1024 ≤ (i 0).val ∧ (i 0).val < win0_2.index _ (0 : Fin 2) * 1024 + 1024; rw [e4]; show ((i 0).val / 1024 * 8 + (i 1).val / 1024) / 8 * 1024 ≤ (i 0).val ∧ (i 0).val < ((i 0).val / 1024 * 8 + (i 1).val / 1024) / 8 * 1024 + 1024; omega
  | ⟨1, _⟩ => show win0_2.index _ (1 : Fin 2) * 1024 ≤ (i 1).val ∧ (i 1).val < win0_2.index _ (1 : Fin 2) * 1024 + 1024; rw [e5]; show ((i 0).val / 1024 * 8 + (i 1).val / 1024) % 8 * 1024 ≤ (i 1).val ∧ (i 1).val < ((i 0).val / 1024 * 8 + (i 1).val / 1024) % 8 * 1024 + 1024; omega

theorem arr0 (hpay : ∀ (x0 x1 : Vec Ideal S1024x64 .f32) (p q : Fin 1024),
      k0_pay1 (F := Ideal) x0 x1 (ix2 p q) = Ideal.exp (Ideal.div (0 - Ideal.sqrt (max (((∑ k : Fin 64, x0 (ix2 p k) * x0 (ix2 p k)) + (∑ k : Fin 64, x1 (ix2 q k) * x1 (ix2 q k))) - Spec.two * (∑ k : Fin 64, x0 (ix2 p k) * x1 (ix2 q k))) 0)) Spec.eps))
    (c : Dev nD) : (dat0 V c).arrAt 2 cfg0.N = G.Gg (V c main_arg0) (V c main_arg1) :=
  (dat0 V c).arrAt_eq_of_cover 2 _ (fun t _ => flushed0 V hpay c t) cover0

end Cert.KernelIdeal.Val

end
-- ==== Proof.KI.V1.lean ====
/- Region 1's output array, whole: the row-scalings update w / (K·v + δ) of the matrix and the row of column scalings it read. -/
import proofs.«111645_j15006615733809_2_alg».proof.Proof.KI.R1
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV1 : (![0, 0] : Fin 2 → Nat) = fun _ => 0 := funext fun a => by fin_cases a <;> rfl

/-! ## Region 1: its output array is the row-scalings update of the matrix and the row it read. -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1 (hpay : ∀ (x0 : Vec Ideal S1024x8192 .bf16) (x1 : Vec Ideal S1x8192 .f32) (p : Fin 1024),
      k1_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg1.N) :
    (dat1 V c).flushed 2 t = ((cfg1.win 2).blk t).view.read (Elt Ideal) (G.Gu (V c main_v0) (V c main_v1)) := by
  show (cfg1.win 2).cut (grid1.coords t) ((dat1 V c).after 2 t) = _
  rw [after1_2]
  unfold out1_2
  rw [View.canon_unit_zero hzV1]
  simp only [View.ld_unit_zero (S := S1024x8192) hzV1, View.ld_unit_zero (S := S1x8192) hzV1]
  funext j
  obtain ⟨p, q, rfl⟩ : ∃ (p : Fin 1024) (q : Fin 1), j = ix2 p q := ⟨j 0, j 1, eq_ix2 j⟩
  obtain rfl : q = 0 := Subsingleton.elim _ _
  show k1_pay1 (F := Ideal) (iblk1 V c 0 t) (iblk1 V c 1 t) (ix2 p (0 : Fin 1)) = G.Gu (V c main_v0) (V c main_v1) (((cfg1.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts1 t
  have h0 : ((cfg1.win 0).blk t).view.emb (ix2 p k) = ix2 (⟨(((cfg1.win 2).blk t).view.emb (ix2 p (0 : Fin 1)) 0).val, (((cfg1.win 2).blk t).view.emb (ix2 p (0 : Fin 1)) 0).isLt⟩ : Fin 8192) k := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 8192 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 8192 + 1 * k.val = k.val; omega
  have g0 : (iblk1 V c 0 t (ix2 p k) : EReal) = (V c main_v0 : S8192x8192.Idx → EReal) (ix2 (⟨(((cfg1.win 2).blk t).view.emb (ix2 p (0 : Fin 1)) 0).val, (((cfg1.win 2).blk t).view.emb (ix2 p (0 : Fin 1)) 0).isLt⟩ : Fin 8192) k) := by
    show (V c main_v0 : S8192x8192.Idx → EReal) (((cfg1.win 0).blk t).view.emb (ix2 p k)) = _
    rw [h0]
  have g1 : (iblk1 V c 1 t (ix2 (0 : Fin 1) k) : EReal) = (V c main_v1 : S1x8192.Idx → EReal) (ix2 (0 : Fin 1) k) := by
    show (V c main_v1 : S1x8192.Idx → EReal) (((cfg1.win 1).blk t).view.emb (ix2 (0 : Fin 1) k)) = _
    rw [h1]
  exact congrArg₂ (· * ·) g0 g1

theorem mem_blk1 (t : Fin cfg1.N) (i : S8192x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v3).slice (win1_2.rect t)).set ↔ _
  rw [View.set_slice_whole, Rect.mem_set_unit]
  exact Iff.rfl

theorem cover1 (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  refine ⟨⟨(i 0).val / 1024, by rw [show cfg1.N = 8 from N_1]; omega⟩, flush1_2 _, ?_⟩
  rw [mem_blk1]
  obtain ⟨e0, e1, e2, e3, e4, e5⟩ := idx_facts1 ⟨(i 0).val / 1024, by rw [show cfg1.N = 8 from N_1]; omega⟩
  intro a
  match a with
  | ⟨0, _⟩ => show win1_2.index _ (0 : Fin 2) * 1024 ≤ (i 0).val ∧ (i 0).val < win1_2.index _ (0 : Fin 2) * 1024 + 1024; rw [e4]; show (i 0).val / 1024 * 1024 ≤ (i 0).val ∧ (i 0).val < (i 0).val / 1024 * 1024 + 1024; omega
  | ⟨1, _⟩ => show win1_2.index _ (1 : Fin 2) * 1 ≤ (i 1).val ∧ (i 1).val < win1_2.index _ (1 : Fin 2) * 1 + 1; rw [e5]; omega

/-- After the region the output array is the row-scalings update, whole. -/
theorem arr1 (hpay : ∀ (x0 : Vec Ideal S1024x8192 .bf16) (x1 : Vec Ideal S1x8192 .f32) (p : Fin 1024),
      k1_pay1 (F := Ideal) x0 x1 (ix2 p (0 : Fin 1)) = Ideal.div Spec.wgt ((∑ k : Fin 8192, x0 (ix2 p k) * x1 (ix2 (0 : Fin 1) k)) + Spec.stab))
    (c : Dev nD) : (dat1 V c).arrAt 2 cfg1.N = G.Gu (V c main_v0) (V c main_v1) :=
  (dat1 V c).arrAt_eq_of_cover 2 _ (fun t _ => flushed1 V hpay c t) cover1

end Cert.KernelIdeal.Val

end
-- ==== Proof.LibAccBlocks.lean ====
import Mathlib
import Idealize.ShloMosaic.Lib.ValueIdx

/-!
# A running accumulator over column blocks is the flat sum

A row of `a * b` entries is visited in `a` consecutive blocks of `b` entries.  An accumulator starts at `z` and, at block
`j`, adds the sum of that block's entries, the entry `l` of block `j` sitting at position `j * b + l`.  After the last
block the accumulator holds `z` plus the sum of all `a * b` entries.  This holds in any commutative additive monoid
(the extended reals are one).
-/

noncomputable section

namespace Cert.LibAccBlocks

/-- Position `l` of block `j` lies inside the row: `j * b + l < a * b` when `j < a` and `l < b`. -/
theorem idx_lt {a b j l : ℕ} (hj : j < a) (hl : l < b) : j * b + l < a * b :=
  calc j * b + l < j * b + b := Nat.add_lt_add_left hl _
    _ = (j + 1) * b := (Nat.succ_mul j b).symm
    _ ≤ a * b := Nat.mul_le_mul_right b hj

/-- The sum over a row of `a * b` entries is the sum over the `a` blocks of each block's `b` entries. -/
theorem sum_eq_sum_blocks {M : Type*} [AddCommMonoid M] (a b : ℕ) (f : Fin (a * b) → M) :
    ∑ k : Fin (a * b), f k = ∑ j : Fin a, ∑ l : Fin b, f ⟨j.val * b + l.val, idx_lt j.isLt l.isLt⟩ := by
  rw [← (finProdFinEquiv (m := a) (n := b)).sum_comp, Fintype.sum_prod_type]
  refine Finset.sum_congr rfl fun j _ => Finset.sum_congr rfl fun l _ => ?_
  congr 1
  ext
  simp only [finProdFinEquiv_apply_val]
  rw [Nat.mul_comm, Nat.add_comm]

/-- **The accumulator lemma.**  If `acc 0 = z` and, for each block `j < a`, `acc (j + 1)` is `acc j` plus the sum of block
    `j`'s entries, then `acc a` is `z` plus the sum of the whole row. -/
theorem acc_blocks {M : Type*} [AddCommMonoid M] (a b : ℕ) (f : Fin (a * b) → M) (z : M) (acc : ℕ → M)
    (h0 : acc 0 = z)
    (hstep : ∀ (j : ℕ) (hj : j < a), acc (j + 1) = acc j + ∑ l : Fin b, f ⟨j * b + l.val, idx_lt hj l.isLt⟩) :
    acc a = z + ∑ k : Fin (a * b), f k := by
  -- the block sums as a function of a bare natural number (zero past the last block)
  let g : ℕ → M := fun j => if hj : j < a then ∑ l : Fin b, f ⟨j * b + l.val, idx_lt hj l.isLt⟩ else 0
  have hpre : ∀ m : ℕ, m ≤ a → acc m = z + ∑ j ∈ Finset.range m, g j := by
    intro m
    induction m with
    | zero => intro _; simp [h0]
    | succ m ih =>
      intro hm
      have hlt : m < a := hm
      rw [hstep m hlt, ih (Nat.le_of_lt hlt), Finset.sum_range_succ, add_assoc]
      congr 2
      simp only [g, dif_pos hlt]
  rw [hpre a le_rfl, sum_eq_sum_blocks, ← Fin.sum_univ_eq_sum_range]
  congr 1
  refine Finset.sum_congr rfl fun j _ => ?_
  simp only [g, dif_pos j.isLt]

/-- The accumulator lemma at the sizes of a 4096-entry row visited in 8 blocks of 512 entries. -/
theorem acc_blocks_8_512 {M : Type*} [AddCommMonoid M] (f : Fin 4096 → M) (z : M) (acc : ℕ → M)
    (h0 : acc 0 = z)
    (hstep : ∀ (j : ℕ) (hj : j < 8),
      acc (j + 1) = acc j + ∑ l : Fin 512, f ⟨j * 512 + l.val, idx_lt (a := 8) (b := 512) hj l.isLt⟩) :
    acc 8 = z + ∑ k : Fin 4096, f k :=
  acc_blocks 8 512 f z acc h0 hstep

end Cert.LibAccBlocks
-- ==== Proof.KI.V2.lean ====
/- Region 2's output array, whole: the column-scalings update w / (Kᵀ·u + δ), as a row, of the matrix and the column of row scalings it read; the accumulator's eight block sums are the sum over all 8192 rows. -/
import proofs.«111645_j15006615733809_2_alg».proof.Proof.KI.R2
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz2 : (![0, 0] : Fin 2 → Nat) = fun _ => 0 := funext fun a => by fin_cases a <;> rfl

theorem idx_facts2 : ∀ t : Fin cfg2.N, win2_0.index t (0 : Fin 2) = t.val % 8 ∧ win2_0.index t (1 : Fin 2) = t.val / 8
    ∧ win2_1.index t (0 : Fin 2) = t.val % 8 ∧ win2_1.index t (1 : Fin 2) = 0
    ∧ win2_2.index t (0 : Fin 2) = 0 ∧ win2_2.index t (1 : Fin 2) = t.val / 8 :=
  (by decide +kernel : ∀ t : Fin grid2.N, _)

/-- A natural number as a row or column number (the numbers met are below 8192). -/
def fin8192_2 (n : ℕ) : Fin 8192 := ⟨n % 8192, Nat.mod_lt _ (by decide)⟩

theorem fin8192_of_lt_2 (n : ℕ) (h : n < 8192) : fin8192_2 n = ⟨n, h⟩ := Fin.ext (Nat.mod_eq_of_lt h)

/-- The product met at row n, column m; and the sum of the products of row block i (1024 rows), column block j, lane q. -/
def gterm_2 (Karr : S8192x8192.Idx → EReal) (u : S8192x1.Idx → EReal) (n m : ℕ) : EReal :=
  Karr (ix2 (fin8192_2 n) (fin8192_2 m)) * u (ix2 (fin8192_2 n) (0 : Fin 1))
def bsum_2 (Karr : S8192x8192.Idx → EReal) (u : S8192x1.Idx → EReal) (j i : ℕ) (q : Fin 1024) : EReal :=
  ∑ p : Fin 1024, gterm_2 Karr u (i * 1024 + p.val) (j * 1024 + q.val)

/-- A point's tile times its row weights, summed down a lane, is the block sum of the point's row and column blocks. -/
def lane2 (x0 : Vec Ideal S1024x1024 .bf16) (x1 : Vec Ideal S1024x1 .f32) (q : Fin 1024) : EReal :=
  ∑ p : Fin 1024, x0 (ix2 p q) * x1 (ix2 p (0 : Fin 1))

theorem blk2 (c : Dev nD) (t : Fin cfg2.N) (q : Fin 1024) :
    lane2 (iblk2 V c 0 t) (iblk2 V c 1 t) q = bsum_2 (V c main_v0 : S8192x8192.Idx → EReal) (V c main_v3 : S8192x1.Idx → EReal) (t.val / 8) (t.val % 8) q := by
  unfold lane2
  obtain ⟨e0, e1, e2, e3, e4, e5⟩ := idx_facts2 t
  have hN : t.val < 64 := lt_of_lt_of_eq t.isLt (show cfg2.N = 64 from N_2)
  refine Finset.sum_congr rfl fun p _ => ?_
  have h0 : ((cfg2.win 0).blk t).view.emb (ix2 p q) = ix2 (fin8192_2 (t.val % 8 * 1024 + p.val)) (fin8192_2 (t.val / 8 * 1024 + q.val)) := by
    funext a; apply Fin.ext
    match a with
    | ⟨0, _⟩ => show win2_0.index t (0 : Fin 2) * 1024 + 1 * p.val = (t.val % 8 * 1024 + p.val) % 8192; omega
    | ⟨1, _⟩ => show win2_0.index t (1 : Fin 2) * 1024 + 1 * q.val = (t.val / 8 * 1024 + q.val) % 8192; omega
  have h1 : ((cfg2.win 1).blk t).view.emb (ix2 p (0 : Fin 1)) = ix2 (fin8192_2 (t.val % 8 * 1024 + p.val)) (0 : Fin 1) := by
    funext a; apply Fin.ext
    match a with
    | ⟨0, _⟩ => show win2_1.index t (0 : Fin 2) * 1024 + 1 * p.val = (t.val % 8 * 1024 + p.val) % 8192; omega
    | ⟨1, _⟩ => show win2_1.index t (1 : Fin 2) * 1 + 1 * 0 = 0; omega
  have g0 : (iblk2 V c 0 t (ix2 p q) : EReal) = (V c main_v0 : S8192x8192.Idx → EReal) (ix2 (fin8192_2 (t.val % 8 * 1024 + p.val)) (fin8192_2 (t.val / 8 * 1024 + q.val))) := by
    show (V c main_v0 : S8192x8192.Idx → EReal) (((cfg2.win 0).blk t).view.emb (ix2 p q)) = _
    rw [h0]
  have g1 : (iblk2 V c 1 t (ix2 p (0 : Fin 1)) : EReal) = (V c main_v3 : S8192x1.Idx → EReal) (ix2 (fin8192_2 (t.val % 8 * 1024 + p.val)) (0 : Fin 1)) := by
    show (V c main_v3 : S8192x1.Idx → EReal) (((cfg2.win 1).blk t).view.emb (ix2 p (0 : Fin 1))) = _
    rw [h1]
  exact congrArg₂ (· * ·) g0 g1

set_option maxHeartbeats 1000000 in
/-- The accumulator after a first row block's point, at a lane: that block's sum. -/
theorem acc2_at_first (hpay1 : ∀ q : Fin 1024, k2_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k2_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg2.N) (h0 : t.val % 8 = 0) :
    (accAt2 V c t.val t.isLt (ix2 (0 : Fin 1) q) : EReal) = ∑ i ∈ Finset.range (t.val % 8 + 1), bsum_2 (V c main_v0 : S8192x8192.Idx → EReal) (V c main_v3 : S8192x1.Idx → EReal) (t.val / 8) i q := by
  refine (congrFun (accAt2_first V c t h0) (ix2 (0 : Fin 1) q)).trans ?_
  refine (hpay2 _ _ _ q).trans ?_
  rw [hpay1, zero_add]
  refine (blk2 V c t q).trans ?_
  rw [h0, zero_add, Finset.sum_range_one]

set_option maxHeartbeats 1000000 in
/-- The accumulator after a later row block's point, at a lane: what the point before left plus this block's sum. -/
theorem acc2_at_next (hpay1 : ∀ q : Fin 1024, k2_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k2_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg2.N) (h0 : ¬ t.val % 8 = 0) (hlt : t.val - 1 < cfg2.N)
    (ih : (accAt2 V c (t.val - 1) hlt (ix2 (0 : Fin 1) q) : EReal) = ∑ i ∈ Finset.range ((t.val - 1) % 8 + 1), bsum_2 (V c main_v0 : S8192x8192.Idx → EReal) (V c main_v3 : S8192x1.Idx → EReal) ((t.val - 1) / 8) i q) :
    (accAt2 V c t.val t.isLt (ix2 (0 : Fin 1) q) : EReal) = ∑ i ∈ Finset.range (t.val % 8 + 1), bsum_2 (V c main_v0 : S8192x8192.Idx → EReal) (V c main_v3 : S8192x1.Idx → EReal) (t.val / 8) i q := by
  refine (congrFun (accAt2_next V c t h0) (ix2 (0 : Fin 1) q)).trans ?_
  refine (hpay2 _ _ _ q).trans ?_
  refine (congrArg₂ (· + ·) ih (blk2 V c t q)).trans ?_
  have e1 : (t.val - 1) / 8 = t.val / 8 := by omega
  have e2 : (t.val - 1) % 8 + 1 = t.val % 8 := by omega
  rw [e1, e2]
  exact (Finset.sum_range_succ (fun i => bsum_2 (V c main_v0 : S8192x8192.Idx → EReal) (V c main_v3 : S8192x1.Idx → EReal) (t.val / 8) i q) (t.val % 8)).symm

set_option maxHeartbeats 1000000 in
/-- The accumulator after a point, at a lane: the block sums of the point's column block over the row blocks so far. -/
theorem acc2_range (hpay1 : ∀ q : Fin 1024, k2_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k2_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg2.N), t.val = n →
    (accAt2 V c t.val t.isLt (ix2 (0 : Fin 1) q) : EReal) = ∑ i ∈ Finset.range (t.val % 8 + 1), bsum_2 (V c main_v0 : S8192x8192.Idx → EReal) (V c main_v3 : S8192x1.Idx → EReal) (t.val / 8) i q := by
  intro n
  induction n with
  | zero =>
    intro t ht
    exact acc2_at_first V hpay1 hpay2 c q t (by rw [ht])
  | succ n ih =>
    intro t ht
    by_cases h0 : t.val % 8 = 0
    · exact acc2_at_first V hpay1 hpay2 c q t h0
    · have hlt : t.val - 1 < cfg2.N := Nat.lt_of_le_of_lt (Nat.sub_le _ _) t.isLt
      exact acc2_at_next V hpay1 hpay2 c q t h0 hlt (ih ⟨t.val - 1, hlt⟩ (by show t.val - 1 = n; omega))

/-- The eight block sums of a column block are the column's whole sum. -/
theorem bsum_all_2 (Karr : S8192x8192.Idx → EReal) (u : S8192x1.Idx → EReal) (j : ℕ) (q : Fin 1024) (C : Fin 8192) (hC : C.val = j * 1024 + q.val) :
    ∑ i ∈ Finset.range 8, bsum_2 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_2 Karr u j i q) 8]
  refine Finset.sum_congr rfl fun i _ => Finset.sum_congr rfl fun p _ => ?_
  have hlt : i.val * 1024 + p.val < 8192 := by have := i.isLt; have := p.isLt; omega
  have eC : fin8192_2 (j * 1024 + q.val) = C := Fin.ext (by show (j * 1024 + q.val) % 8192 = C.val; have := C.isLt; omega)
  show Karr (ix2 (fin8192_2 (i.val * 1024 + p.val)) (fin8192_2 (j * 1024 + q.val))) * u (ix2 (fin8192_2 (i.val * 1024 + p.val)) (0 : Fin 1)) = _
  rw [fin8192_of_lt_2 _ hlt, eC]

set_option maxHeartbeats 1000000 in
theorem flushed2 (hpay1 : ∀ q : Fin 1024, k2_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k2_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k2_pay3 (F := Ideal) a (ix2 (0 : Fin 1) q) = Ideal.div Spec.wgt (a (ix2 (0 : Fin 1) q) + Spec.stab))
    (c : Dev nD) (t : Fin cfg2.N) (hf : (cfg2.win 2).flush t = true) :
    (dat2 V c).flushed 2 t = ((cfg2.win 2).blk t).view.read (Elt Ideal) (G.Gv (V c main_v0) (V c main_v3)) := by
  have h7 : t.val % 8 = 7 := (flush2_2 t).mp hf
  show (cfg2.win 2).cut (grid2.coords t) ((dat2 V c).after 2 t) = _
  rw [after2_2]
  funext jx
  obtain ⟨z, q, rfl⟩ : ∃ (z : Fin 1) (q : Fin 1024), jx = ix2 z q := ⟨jx 0, jx 1, eq_ix2 jx⟩
  obtain rfl : z = 0 := Subsingleton.elim _ _
  show k2_pay3 (F := Ideal) (accAt2 V c t.val t.isLt) (ix2 (0 : Fin 1) q) = G.Gv (V c main_v0) (V c main_v3) (((cfg2.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts2 t
  refine (acc2_range V hpay1 hpay2 c q t.val t rfl).trans ?_
  rw [h7]
  refine bsum_all_2 _ _ (t.val / 8) q _ ?_
  show win2_2.index t (1 : Fin 2) * 1024 + 1 * q.val = t.val / 8 * 1024 + q.val
  omega

theorem mem_blk2 (t : Fin cfg2.N) (i : S1x8192.Idx) :
    i ∈ ((cfg2.win 2).blk t).view.set ↔ ∀ a : Fin 2, win2_2.index t a * S1x1024.size a ≤ (i a).val ∧ (i a).val < win2_2.index t a * S1x1024.size a + S1x1024.size a := by
  show i ∈ ((View.whole main_v4).slice (win2_2.rect t)).set ↔ _
  rw [View.set_slice_whole, Rect.mem_set_unit]
  exact Iff.rfl

theorem cover2 (i : S1x8192.Idx) : ∃ t : Fin cfg2.N, (cfg2.win 2).flush t = true ∧ i ∈ ((cfg2.win 2).blk t).view.set := by
  have hi0 : (i 0).val < 1 := (i 0).isLt
  have hi1 : (i 1).val < 8192 := (i 1).isLt
  have hN : (i 1).val / 1024 * 8 + 7 < cfg2.N := by rw [show cfg2.N = 64 from N_2]; omega
  refine ⟨⟨(i 1).val / 1024 * 8 + 7, hN⟩, (flush2_2 _).mpr (by show ((i 1).val / 1024 * 8 + 7) % 8 = 7; omega), ?_⟩
  rw [mem_blk2]
  obtain ⟨e0, e1, e2, e3, e4, e5⟩ := idx_facts2 ⟨(i 1).val / 1024 * 8 + 7, hN⟩
  intro a
  match a with
  | ⟨0, _⟩ => show win2_2.index _ (0 : Fin 2) * 1 ≤ (i 0).val ∧ (i 0).val < win2_2.index _ (0 : Fin 2) * 1 + 1; rw [e4]; omega
  | ⟨1, _⟩ => show win2_2.index _ (1 : Fin 2) * 1024 ≤ (i 1).val ∧ (i 1).val < win2_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr2 (hpay1 : ∀ q : Fin 1024, k2_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k2_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k2_pay3 (F := Ideal) a (ix2 (0 : Fin 1) q) = Ideal.div Spec.wgt (a (ix2 (0 : Fin 1) q) + Spec.stab))
    (c : Dev nD) : (dat2 V c).arrAt 2 cfg2.N = G.Gv (V c main_v0) (V c main_v3) :=
  (dat2 V c).arrAt_eq_of_cover 2 _ (fun t hf => flushed2 V hpay1 hpay2 hpay3 c t hf) cover2

end Cert.KernelIdeal.Val

end
-- ==== Proof.KI.V3.lean ====
/- Region 3's output array, whole: the row-scalings update w / (K·v + δ) of the matrix and the row of column scalings it read. -/
import proofs.«111645_j15006615733809_2_alg».proof.Proof.KI.R3
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV3 : (![0, 0] : Fin 2 → Nat) = fun _ => 0 := funext fun a => by fin_cases a <;> rfl

/-! ## Region 3: its output array is the row-scalings update of the matrix and the row it read. -/

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem flushed3 (hpay : ∀ (x0 : Vec Ideal S1024x8192 .bf16) (x1 : Vec Ideal S1x8192 .f32) (p : Fin 1024),
      k3_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg3.N) :
    (dat3 V c).flushed 2 t = ((cfg3.win 2).blk t).view.read (Elt Ideal) (G.Gu (V c main_v0) (V c main_v4)) := by
  show (cfg3.win 2).cut (grid3.coords t) ((dat3 V c).after 2 t) = _
  rw [after3_2]
  unfold out3_2
  rw [View.canon_unit_zero hzV3]
  simp only [View.ld_unit_zero (S := S1024x8192) hzV3, View.ld_unit_zero (S := S1x8192) hzV3]
  funext j
  obtain ⟨p, q, rfl⟩ : ∃ (p : Fin 1024) (q : Fin 1), j = ix2 p q := ⟨j 0, j 1, eq_ix2 j⟩
  obtain rfl : q = 0 := Subsingleton.elim _ _
  show k3_pay1 (F := Ideal) (iblk3 V c 0 t) (iblk3 V c 1 t) (ix2 p (0 : Fin 1)) = G.Gu (V c main_v0) (V c main_v4) (((cfg3.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts3 t
  have h0 : ((cfg3.win 0).blk t).view.emb (ix2 p k) = ix2 (⟨(((cfg3.win 2).blk t).view.emb (ix2 p (0 : Fin 1)) 0).val, (((cfg3.win 2).blk t).view.emb (ix2 p (0 : Fin 1)) 0).isLt⟩ : Fin 8192) k := by
    funext a; apply Fin.ext
    match a with
    | ⟨0, _⟩ => show win3_0.index t (0 : Fin 2) * 1024 + 1 * p.val = win3_2.index t (0 : Fin 2) * 1024 + 1 * p.val; omega
    | ⟨1, _⟩ => show win3_0.index t (1 : Fin 2) * 8192 + 1 * k.val = k.val; omega
  have h1 : ((cfg3.win 1).blk t).view.emb (ix2 (0 : Fin 1) k) = ix2 (0 : Fin 1) k := by
    funext a; apply Fin.ext
    match a with
    | ⟨0, _⟩ => show win3_1.index t (0 : Fin 2) * 1 + 1 * 0 = 0; omega
    | ⟨1, _⟩ => show win3_1.index t (1 : Fin 2) * 8192 + 1 * k.val = k.val; omega
  have g0 : (iblk3 V c 0 t (ix2 p k) : EReal) = (V c main_v0 : S8192x8192.Idx → EReal) (ix2 (⟨(((cfg3.win 2).blk t).view.emb (ix2 p (0 : Fin 1)) 0).val, (((cfg3.win 2).blk t).view.emb (ix2 p (0 : Fin 1)) 0).isLt⟩ : Fin 8192) k) := by
    show (V c main_v0 : S8192x8192.Idx → EReal) (((cfg3.win 0).blk t).view.emb (ix2 p k)) = _
    rw [h0]
  have g1 : (iblk3 V c 1 t (ix2 (0 : Fin 1) k) : EReal) = (V c main_v4 : S1x8192.Idx → EReal) (ix2 (0 : Fin 1) k) := by
    show (V c main_v4 : S1x8192.Idx → EReal) (((cfg3.win 1).blk t).view.emb (ix2 (0 : Fin 1) k)) = _
    rw [h1]
  exact congrArg₂ (· * ·) g0 g1

theorem mem_blk3 (t : Fin cfg3.N) (i : S8192x1.Idx) :
    i ∈ ((cfg3.win 2).blk t).view.set ↔ ∀ a : Fin 2, win3_2.index t a * S1024x1.size a ≤ (i a).val ∧ (i a).val < win3_2.index t a * S1024x1.size a + S1024x1.size a := by
  show i ∈ ((View.whole main_v5).slice (win3_2.rect t)).set ↔ _
  rw [View.set_slice_whole, Rect.mem_set_unit]
  exact Iff.rfl

theorem cover3 (i : S8192x1.Idx) : ∃ t : Fin cfg3.N, (cfg3.win 2).flush t = true ∧ i ∈ ((cfg3.win 2).blk t).view.set := by
  have hi0 : (i 0).val < 8192 := (i 0).isLt
  have hi1 : (i 1).val < 1 := (i 1).isLt
  refine ⟨⟨(i 0).val / 1024, by rw [show cfg3.N = 8 from N_3]; omega⟩, flush3_2 _, ?_⟩
  rw [mem_blk3]
  obtain ⟨e0, e1, e2, e3, e4, e5⟩ := idx_facts3 ⟨(i 0).val / 1024, by rw [show cfg3.N = 8 from N_3]; omega⟩
  intro a
  match a with
  | ⟨0, _⟩ => show win3_2.index _ (0 : Fin 2) * 1024 ≤ (i 0).val ∧ (i 0).val < win3_2.index _ (0 : Fin 2) * 1024 + 1024; rw [e4]; show (i 0).val / 1024 * 1024 ≤ (i 0).val ∧ (i 0).val < (i 0).val / 1024 * 1024 + 1024; omega
  | ⟨1, _⟩ => show win3_2.index _ (1 : Fin 2) * 1 ≤ (i 1).val ∧ (i 1).val < win3_2.index _ (1 : Fin 2) * 1 + 1; rw [e5]; omega

/-- After the region the output array is the row-scalings update, whole. -/
theorem arr3 (hpay : ∀ (x0 : Vec Ideal S1024x8192 .bf16) (x1 : Vec Ideal S1x8192 .f32) (p : Fin 1024),
      k3_pay1 (F := Ideal) x0 x1 (ix2 p (0 : Fin 1)) = Ideal.div Spec.wgt ((∑ k : Fin 8192, x0 (ix2 p k) * x1 (ix2 (0 : Fin 1) k)) + Spec.stab))
    (c : Dev nD) : (dat3 V c).arrAt 2 cfg3.N = G.Gu (V c main_v0) (V c main_v4) :=
  (dat3 V c).arrAt_eq_of_cover 2 _ (fun t _ => flushed3 V hpay c t) cover3

end Cert.KernelIdeal.Val

end
-- ==== Proof.KI.V4.lean ====
/- Region 4's output array, whole: the column-scalings update w / (Kᵀ·u + δ), as a row, of the matrix and the column of row scalings it read; the accumulator's eight block sums are the sum over all 8192 rows. -/
import proofs.«111645_j15006615733809_2_alg».proof.Proof.KI.R4
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz4 : (![0, 0] : Fin 2 → Nat) = fun _ => 0 := funext fun a => by fin_cases a <;> rfl

theorem idx_facts4 : ∀ t : Fin cfg4.N, win4_0.index t (0 : Fin 2) = t.val % 8 ∧ win4_0.index t (1 : Fin 2) = t.val / 8
    ∧ win4_1.index t (0 : Fin 2) = t.val % 8 ∧ win4_1.index t (1 : Fin 2) = 0
    ∧ win4_2.index t (0 : Fin 2) = 0 ∧ win4_2.index t (1 : Fin 2) = t.val / 8 :=
  (by decide +kernel : ∀ t : Fin grid4.N, _)

/-- A natural number as a row or column number (the numbers met are below 8192). -/
def fin8192_4 (n : ℕ) : Fin 8192 := ⟨n % 8192, Nat.mod_lt _ (by decide)⟩

theorem fin8192_of_lt_4 (n : ℕ) (h : n < 8192) : fin8192_4 n = ⟨n, h⟩ := Fin.ext (Nat.mod_eq_of_lt h)

/-- The product met at row n, column m; and the sum of the products of row block i (1024 rows), column block j, lane q. -/
def gterm_4 (Karr : S8192x8192.Idx → EReal) (u : S8192x1.Idx → EReal) (n m : ℕ) : EReal :=
  Karr (ix2 (fin8192_4 n) (fin8192_4 m)) * u (ix2 (fin8192_4 n) (0 : Fin 1))
def bsum_4 (Karr : S8192x8192.Idx → EReal) (u : S8192x1.Idx → EReal) (j i : ℕ) (q : Fin 1024) : EReal :=
  ∑ p : Fin 1024, gterm_4 Karr u (i * 1024 + p.val) (j * 1024 + q.val)

/-- A point's tile times its row weights, summed down a lane, is the block sum of the point's row and column blocks. -/
def lane4 (x0 : Vec Ideal S1024x1024 .bf16) (x1 : Vec Ideal S1024x1 .f32) (q : Fin 1024) : EReal :=
  ∑ p : Fin 1024, x0 (ix2 p q) * x1 (ix2 p (0 : Fin 1))

theorem blk4 (c : Dev nD) (t : Fin cfg4.N) (q : Fin 1024) :
    lane4 (iblk4 V c 0 t) (iblk4 V c 1 t) q = bsum_4 (V c main_v0 : S8192x8192.Idx → EReal) (V c main_v5 : S8192x1.Idx → EReal) (t.val / 8) (t.val % 8) q := by
  unfold lane4
  obtain ⟨e0, e1, e2, e3, e4, e5⟩ := idx_facts4 t
  have hN : t.val < 64 := lt_of_lt_of_eq t.isLt (show cfg4.N = 64 from N_4)
  refine Finset.sum_congr rfl fun p _ => ?_
  have h0 : ((cfg4.win 0).blk t).view.emb (ix2 p q) = ix2 (fin8192_4 (t.val % 8 * 1024 + p.val)) (fin8192_4 (t.val / 8 * 1024 + q.val)) := by
    funext a; apply Fin.ext
    match a with
    | ⟨0, _⟩ => show win4_0.index t (0 : Fin 2) * 1024 + 1 * p.val = (t.val % 8 * 1024 + p.val) % 8192; omega
    | ⟨1, _⟩ => show win4_0.index t (1 : Fin 2) * 1024 + 1 * q.val = (t.val / 8 * 1024 + q.val) % 8192; omega
  have h1 : ((cfg4.win 1).blk t).view.emb (ix2 p (0 : Fin 1)) = ix2 (fin8192_4 (t.val % 8 * 1024 + p.val)) (0 : Fin 1) := by
    funext a; apply Fin.ext
    match a with
    | ⟨0, _⟩ => show win4_1.index t (0 : Fin 2) * 1024 + 1 * p.val = (t.val % 8 * 1024 + p.val) % 8192; omega
    | ⟨1, _⟩ => show win4_1.index t (1 : Fin 2) * 1 + 1 * 0 = 0; omega
  have g0 : (iblk4 V c 0 t (ix2 p q) : EReal) = (V c main_v0 : S8192x8192.Idx → EReal) (ix2 (fin8192_4 (t.val % 8 * 1024 + p.val)) (fin8192_4 (t.val / 8 * 1024 + q.val))) := by
    show (V c main_v0 : S8192x8192.Idx → EReal) (((cfg4.win 0).blk t).view.emb (ix2 p q)) = _
    rw [h0]
  have g1 : (iblk4 V c 1 t (ix2 p (0 : Fin 1)) : EReal) = (V c main_v5 : S8192x1.Idx → EReal) (ix2 (fin8192_4 (t.val % 8 * 1024 + p.val)) (0 : Fin 1)) := by
    show (V c main_v5 : S8192x1.Idx → EReal) (((cfg4.win 1).blk t).view.emb (ix2 p (0 : Fin 1))) = _
    rw [h1]
  exact congrArg₂ (· * ·) g0 g1

set_option maxHeartbeats 1000000 in
/-- The accumulator after a first row block's point, at a lane: that block's sum. -/
theorem acc4_at_first (hpay1 : ∀ q : Fin 1024, k4_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k4_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg4.N) (h0 : t.val % 8 = 0) :
    (accAt4 V c t.val t.isLt (ix2 (0 : Fin 1) q) : EReal) = ∑ i ∈ Finset.range (t.val % 8 + 1), bsum_4 (V c main_v0 : S8192x8192.Idx → EReal) (V c main_v5 : S8192x1.Idx → EReal) (t.val / 8) i q := by
  refine (congrFun (accAt4_first V c t h0) (ix2 (0 : Fin 1) q)).trans ?_
  refine (hpay2 _ _ _ q).trans ?_
  rw [hpay1, zero_add]
  refine (blk4 V c t q).trans ?_
  rw [h0, zero_add, Finset.sum_range_one]

set_option maxHeartbeats 1000000 in
/-- The accumulator after a later row block's point, at a lane: what the point before left plus this block's sum. -/
theorem acc4_at_next (hpay1 : ∀ q : Fin 1024, k4_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k4_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg4.N) (h0 : ¬ t.val % 8 = 0) (hlt : t.val - 1 < cfg4.N)
    (ih : (accAt4 V c (t.val - 1) hlt (ix2 (0 : Fin 1) q) : EReal) = ∑ i ∈ Finset.range ((t.val - 1) % 8 + 1), bsum_4 (V c main_v0 : S8192x8192.Idx → EReal) (V c main_v5 : S8192x1.Idx → EReal) ((t.val - 1) / 8) i q) :
    (accAt4 V c t.val t.isLt (ix2 (0 : Fin 1) q) : EReal) = ∑ i ∈ Finset.range (t.val % 8 + 1), bsum_4 (V c main_v0 : S8192x8192.Idx → EReal) (V c main_v5 : S8192x1.Idx → EReal) (t.val / 8) i q := by
  refine (congrFun (accAt4_next V c t h0) (ix2 (0 : Fin 1) q)).trans ?_
  refine (hpay2 _ _ _ q).trans ?_
  refine (congrArg₂ (· + ·) ih (blk4 V c t q)).trans ?_
  have e1 : (t.val - 1) / 8 = t.val / 8 := by omega
  have e2 : (t.val - 1) % 8 + 1 = t.val % 8 := by omega
  rw [e1, e2]
  exact (Finset.sum_range_succ (fun i => bsum_4 (V c main_v0 : S8192x8192.Idx → EReal) (V c main_v5 : S8192x1.Idx → EReal) (t.val / 8) i q) (t.val % 8)).symm

set_option maxHeartbeats 1000000 in
/-- The accumulator after a point, at a lane: the block sums of the point's column block over the row blocks so far. -/
theorem acc4_range (hpay1 : ∀ q : Fin 1024, k4_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k4_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg4.N), t.val = n →
    (accAt4 V c t.val t.isLt (ix2 (0 : Fin 1) q) : EReal) = ∑ i ∈ Finset.range (t.val % 8 + 1), bsum_4 (V c main_v0 : S8192x8192.Idx → EReal) (V c main_v5 : S8192x1.Idx → EReal) (t.val / 8) i q := by
  intro n
  induction n with
  | zero =>
    intro t ht
    exact acc4_at_first V hpay1 hpay2 c q t (by rw [ht])
  | succ n ih =>
    intro t ht
    by_cases h0 : t.val % 8 = 0
    · exact acc4_at_first V hpay1 hpay2 c q t h0
    · have hlt : t.val - 1 < cfg4.N := Nat.lt_of_le_of_lt (Nat.sub_le _ _) t.isLt
      exact acc4_at_next V hpay1 hpay2 c q t h0 hlt (ih ⟨t.val - 1, hlt⟩ (by show t.val - 1 = n; omega))

/-- The eight block sums of a column block are the column's whole sum. -/
theorem bsum_all_4 (Karr : S8192x8192.Idx → EReal) (u : S8192x1.Idx → EReal) (j : ℕ) (q : Fin 1024) (C : Fin 8192) (hC : C.val = j * 1024 + q.val) :
    ∑ i ∈ Finset.range 8, bsum_4 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_4 Karr u j i q) 8]
  refine Finset.sum_congr rfl fun i _ => Finset.sum_congr rfl fun p _ => ?_
  have hlt : i.val * 1024 + p.val < 8192 := by have := i.isLt; have := p.isLt; omega
  have eC : fin8192_4 (j * 1024 + q.val) = C := Fin.ext (by show (j * 1024 + q.val) % 8192 = C.val; have := C.isLt; omega)
  show Karr (ix2 (fin8192_4 (i.val * 1024 + p.val)) (fin8192_4 (j * 1024 + q.val))) * u (ix2 (fin8192_4 (i.val * 1024 + p.val)) (0 : Fin 1)) = _
  rw [fin8192_of_lt_4 _ hlt, eC]

set_option maxHeartbeats 1000000 in
theorem flushed4 (hpay1 : ∀ q : Fin 1024, k4_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k4_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k4_pay3 (F := Ideal) a (ix2 (0 : Fin 1) q) = Ideal.div Spec.wgt (a (ix2 (0 : Fin 1) q) + Spec.stab))
    (c : Dev nD) (t : Fin cfg4.N) (hf : (cfg4.win 2).flush t = true) :
    (dat4 V c).flushed 2 t = ((cfg4.win 2).blk t).view.read (Elt Ideal) (G.Gv (V c main_v0) (V c main_v5)) := by
  have h7 : t.val % 8 = 7 := (flush4_2 t).mp hf
  show (cfg4.win 2).cut (grid4.coords t) ((dat4 V c).after 2 t) = _
  rw [after4_2]
  funext jx
  obtain ⟨z, q, rfl⟩ : ∃ (z : Fin 1) (q : Fin 1024), jx = ix2 z q := ⟨jx 0, jx 1, eq_ix2 jx⟩
  obtain rfl : z = 0 := Subsingleton.elim _ _
  show k4_pay3 (F := Ideal) (accAt4 V c t.val t.isLt) (ix2 (0 : Fin 1) q) = G.Gv (V c main_v0) (V c main_v5) (((cfg4.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts4 t
  refine (acc4_range V hpay1 hpay2 c q t.val t rfl).trans ?_
  rw [h7]
  refine bsum_all_4 _ _ (t.val / 8) q _ ?_
  show win4_2.index t (1 : Fin 2) * 1024 + 1 * q.val = t.val / 8 * 1024 + q.val
  omega

theorem mem_blk4 (t : Fin cfg4.N) (i : S1x8192.Idx) :
    i ∈ ((cfg4.win 2).blk t).view.set ↔ ∀ a : Fin 2, win4_2.index t a * S1x1024.size a ≤ (i a).val ∧ (i a).val < win4_2.index t a * S1x1024.size a + S1x1024.size a := by
  show i ∈ ((View.whole main_v6).slice (win4_2.rect t)).set ↔ _
  rw [View.set_slice_whole, Rect.mem_set_unit]
  exact Iff.rfl

theorem cover4 (i : S1x8192.Idx) : ∃ t : Fin cfg4.N, (cfg4.win 2).flush t = true ∧ i ∈ ((cfg4.win 2).blk t).view.set := by
  have hi0 : (i 0).val < 1 := (i 0).isLt
  have hi1 : (i 1).val < 8192 := (i 1).isLt
  have hN : (i 1).val / 1024 * 8 + 7 < cfg4.N := by rw [show cfg4.N = 64 from N_4]; omega
  refine ⟨⟨(i 1).val / 1024 * 8 + 7, hN⟩, (flush4_2 _).mpr (by show ((i 1).val / 1024 * 8 + 7) % 8 = 7; omega), ?_⟩
  rw [mem_blk4]
  obtain ⟨e0, e1, e2, e3, e4, e5⟩ := idx_facts4 ⟨(i 1).val / 1024 * 8 + 7, hN⟩
  intro a
  match a with
  | ⟨0, _⟩ => show win4_2.index _ (0 : Fin 2) * 1 ≤ (i 0).val ∧ (i 0).val < win4_2.index _ (0 : Fin 2) * 1 + 1; rw [e4]; omega
  | ⟨1, _⟩ => show win4_2.index _ (1 : Fin 2) * 1024 ≤ (i 1).val ∧ (i 1).val < win4_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr4 (hpay1 : ∀ q : Fin 1024, k4_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k4_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k4_pay3 (F := Ideal) a (ix2 (0 : Fin 1) q) = Ideal.div Spec.wgt (a (ix2 (0 : Fin 1) q) + Spec.stab))
    (c : Dev nD) : (dat4 V c).arrAt 2 cfg4.N = G.Gv (V c main_v0) (V c main_v5) :=
  (dat4 V c).arrAt_eq_of_cover 2 _ (fun t hf => flushed4 V hpay1 hpay2 hpay3 c t hf) cover4

end Cert.KernelIdeal.Val

end
-- ==== Proof.KI.V5.lean ====
/- Region 5's output array, whole: the row-scalings update w / (K·v + δ) of the matrix and the row of column scalings it read. -/
import proofs.«111645_j15006615733809_2_alg».proof.Proof.KI.R5
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV5 : (![0, 0] : Fin 2 → Nat) = fun _ => 0 := funext fun a => by fin_cases a <;> rfl

/-! ## Region 5: its output array is the row-scalings update of the matrix and the row it read. -/

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed5 (hpay : ∀ (x0 : Vec Ideal S1024x8192 .bf16) (x1 : Vec Ideal S1x8192 .f32) (p : Fin 1024),
      k5_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg5.N) :
    (dat5 V c).flushed 2 t = ((cfg5.win 2).blk t).view.read (Elt Ideal) (G.Gu (V c main_v0) (V c main_v6)) := by
  show (cfg5.win 2).cut (grid5.coords t) ((dat5 V c).after 2 t) = _
  rw [after5_2]
  unfold out5_2
  rw [View.canon_unit_zero hzV5]
  simp only [View.ld_unit_zero (S := S1024x8192) hzV5, View.ld_unit_zero (S := S1x8192) hzV5]
  funext j
  obtain ⟨p, q, rfl⟩ : ∃ (p : Fin 1024) (q : Fin 1), j = ix2 p q := ⟨j 0, j 1, eq_ix2 j⟩
  obtain rfl : q = 0 := Subsingleton.elim _ _
  show k5_pay1 (F := Ideal) (iblk5 V c 0 t) (iblk5 V c 1 t) (ix2 p (0 : Fin 1)) = G.Gu (V c main_v0) (V c main_v6) (((cfg5.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts5 t
  have h0 : ((cfg5.win 0).blk t).view.emb (ix2 p k) = ix2 (⟨(((cfg5.win 2).blk t).view.emb (ix2 p (0 : Fin 1)) 0).val, (((cfg5.win 2).blk t).view.emb (ix2 p (0 : Fin 1)) 0).isLt⟩ : Fin 8192) k := by
    funext a; apply Fin.ext
    match a with
    | ⟨0, _⟩ => show win5_0.index t (0 : Fin 2) * 1024 + 1 * p.val = win5_2.index t (0 : Fin 2) * 1024 + 1 * p.val; omega
    | ⟨1, _⟩ => show win5_0.index t (1 : Fin 2) * 8192 + 1 * k.val = k.val; omega
  have h1 : ((cfg5.win 1).blk t).view.emb (ix2 (0 : Fin 1) k) = ix2 (0 : Fin 1) k := by
    funext a; apply Fin.ext
    match a with
    | ⟨0, _⟩ => show win5_1.index t (0 : Fin 2) * 1 + 1 * 0 = 0; omega
    | ⟨1, _⟩ => show win5_1.index t (1 : Fin 2) * 8192 + 1 * k.val = k.val; omega
  have g0 : (iblk5 V c 0 t (ix2 p k) : EReal) = (V c main_v0 : S8192x8192.Idx → EReal) (ix2 (⟨(((cfg5.win 2).blk t).view.emb (ix2 p (0 : Fin 1)) 0).val, (((cfg5.win 2).blk t).view.emb (ix2 p (0 : Fin 1)) 0).isLt⟩ : Fin 8192) k) := by
    show (V c main_v0 : S8192x8192.Idx → EReal) (((cfg5.win 0).blk t).view.emb (ix2 p k)) = _
    rw [h0]
  have g1 : (iblk5 V c 1 t (ix2 (0 : Fin 1) k) : EReal) = (V c main_v6 : S1x8192.Idx → EReal) (ix2 (0 : Fin 1) k) := by
    show (V c main_v6 : S1x8192.Idx → EReal) (((cfg5.win 1).blk t).view.emb (ix2 (0 : Fin 1) k)) = _
    rw [h1]
  exact congrArg₂ (· * ·) g0 g1

theorem mem_blk5 (t : Fin cfg5.N) (i : S8192x1.Idx) :
    i ∈ ((cfg5.win 2).blk t).view.set ↔ ∀ a : Fin 2, win5_2.index t a * S1024x1.size a ≤ (i a).val ∧ (i a).val < win5_2.index t a * S1024x1.size a + S1024x1.size a := by
  show i ∈ ((View.whole main_v7).slice (win5_2.rect t)).set ↔ _
  rw [View.set_slice_whole, Rect.mem_set_unit]
  exact Iff.rfl

theorem cover5 (i : S8192x1.Idx) : ∃ t : Fin cfg5.N, (cfg5.win 2).flush t = true ∧ i ∈ ((cfg5.win 2).blk t).view.set := by
  have hi0 : (i 0).val < 8192 := (i 0).isLt
  have hi1 : (i 1).val < 1 := (i 1).isLt
  refine ⟨⟨(i 0).val / 1024, by rw [show cfg5.N = 8 from N_5]; omega⟩, flush5_2 _, ?_⟩
  rw [mem_blk5]
  obtain ⟨e0, e1, e2, e3, e4, e5⟩ := idx_facts5 ⟨(i 0).val / 1024, by rw [show cfg5.N = 8 from N_5]; omega⟩
  intro a
  match a with
  | ⟨0, _⟩ => show win5_2.index _ (0 : Fin 2) * 1024 ≤ (i 0).val ∧ (i 0).val < win5_2.index _ (0 : Fin 2) * 1024 + 1024; rw [e4]; show (i 0).val / 1024 * 1024 ≤ (i 0).val ∧ (i 0).val < (i 0).val / 1024 * 1024 + 1024; omega
  | ⟨1, _⟩ => show win5_2.index _ (1 : Fin 2) * 1 ≤ (i 1).val ∧ (i 1).val < win5_2.index _ (1 : Fin 2) * 1 + 1; rw [e5]; omega

/-- After the region the output array is the row-scalings update, whole. -/
theorem arr5 (hpay : ∀ (x0 : Vec Ideal S1024x8192 .bf16) (x1 : Vec Ideal S1x8192 .f32) (p : Fin 1024),
      k5_pay1 (F := Ideal) x0 x1 (ix2 p (0 : Fin 1)) = Ideal.div Spec.wgt ((∑ k : Fin 8192, x0 (ix2 p k) * x1 (ix2 (0 : Fin 1) k)) + Spec.stab))
    (c : Dev nD) : (dat5 V c).arrAt 2 cfg5.N = G.Gu (V c main_v0) (V c main_v6) :=
  (dat5 V c).arrAt_eq_of_cover 2 _ (fun t _ => flushed5 V hpay c t) cover5

end Cert.KernelIdeal.Val

end
-- ==== Proof.KI.V6.lean ====
/- Region 6's output array, whole: the column-scalings update w / (Kᵀ·u + δ), as a row, of the matrix and the column of row scalings it read; the accumulator's eight block sums are the sum over all 8192 rows. -/
import proofs.«111645_j15006615733809_2_alg».proof.Proof.KI.R6
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz6 : (![0, 0] : Fin 2 → Nat) = fun _ => 0 := funext fun a => by fin_cases a <;> rfl

theorem idx_facts6 : ∀ t : Fin cfg6.N, win6_0.index t (0 : Fin 2) = t.val % 8 ∧ win6_0.index t (1 : Fin 2) = t.val / 8
    ∧ win6_1.index t (0 : Fin 2) = t.val % 8 ∧ win6_1.index t (1 : Fin 2) = 0
    ∧ win6_2.index t (0 : Fin 2) = 0 ∧ win6_2.index t (1 : Fin 2) = t.val / 8 :=
  (by decide +kernel : ∀ t : Fin grid6.N, _)

/-- A natural number as a row or column number (the numbers met are below 8192). -/
def fin8192_6 (n : ℕ) : Fin 8192 := ⟨n % 8192, Nat.mod_lt _ (by decide)⟩

theorem fin8192_of_lt_6 (n : ℕ) (h : n < 8192) : fin8192_6 n = ⟨n, h⟩ := Fin.ext (Nat.mod_eq_of_lt h)

/-- The product met at row n, column m; and the sum of the products of row block i (1024 rows), column block j, lane q. -/
def gterm_6 (Karr : S8192x8192.Idx → EReal) (u : S8192x1.Idx → EReal) (n m : ℕ) : EReal :=
  Karr (ix2 (fin8192_6 n) (fin8192_6 m)) * u (ix2 (fin8192_6 n) (0 : Fin 1))
def bsum_6 (Karr : S8192x8192.Idx → EReal) (u : S8192x1.Idx → EReal) (j i : ℕ) (q : Fin 1024) : EReal :=
  ∑ p : Fin 1024, gterm_6 Karr u (i * 1024 + p.val) (j * 1024 + q.val)

/-- A point's tile times its row weights, summed down a lane, is the block sum of the point's row and column blocks. -/
def lane6 (x0 : Vec Ideal S1024x1024 .bf16) (x1 : Vec Ideal S1024x1 .f32) (q : Fin 1024) : EReal :=
  ∑ p : Fin 1024, x0 (ix2 p q) * x1 (ix2 p (0 : Fin 1))

theorem blk6 (c : Dev nD) (t : Fin cfg6.N) (q : Fin 1024) :
    lane6 (iblk6 V c 0 t) (iblk6 V c 1 t) q = bsum_6 (V c main_v0 : S8192x8192.Idx → EReal) (V c main_v7 : S8192x1.Idx → EReal) (t.val / 8) (t.val % 8) q := by
  unfold lane6
  obtain ⟨e0, e1, e2, e3, e4, e5⟩ := idx_facts6 t
  have hN : t.val < 64 := lt_of_lt_of_eq t.isLt (show cfg6.N = 64 from N_6)
  refine Finset.sum_congr rfl fun p _ => ?_
  have h0 : ((cfg6.win 0).blk t).view.emb (ix2 p q) = ix2 (fin8192_6 (t.val % 8 * 1024 + p.val)) (fin8192_6 (t.val / 8 * 1024 + q.val)) := by
    funext a; apply Fin.ext
    match a with
    | ⟨0, _⟩ => show win6_0.index t (0 : Fin 2) * 1024 + 1 * p.val = (t.val % 8 * 1024 + p.val) % 8192; omega
    | ⟨1, _⟩ => show win6_0.index t (1 : Fin 2) * 1024 + 1 * q.val = (t.val / 8 * 1024 + q.val) % 8192; omega
  have h1 : ((cfg6.win 1).blk t).view.emb (ix2 p (0 : Fin 1)) = ix2 (fin8192_6 (t.val % 8 * 1024 + p.val)) (0 : Fin 1) := by
    funext a; apply Fin.ext
    match a with
    | ⟨0, _⟩ => show win6_1.index t (0 : Fin 2) * 1024 + 1 * p.val = (t.val % 8 * 1024 + p.val) % 8192; omega
    | ⟨1, _⟩ => show win6_1.index t (1 : Fin 2) * 1 + 1 * 0 = 0; omega
  have g0 : (iblk6 V c 0 t (ix2 p q) : EReal) = (V c main_v0 : S8192x8192.Idx → EReal) (ix2 (fin8192_6 (t.val % 8 * 1024 + p.val)) (fin8192_6 (t.val / 8 * 1024 + q.val))) := by
    show (V c main_v0 : S8192x8192.Idx → EReal) (((cfg6.win 0).blk t).view.emb (ix2 p q)) = _
    rw [h0]
  have g1 : (iblk6 V c 1 t (ix2 p (0 : Fin 1)) : EReal) = (V c main_v7 : S8192x1.Idx → EReal) (ix2 (fin8192_6 (t.val % 8 * 1024 + p.val)) (0 : Fin 1)) := by
    show (V c main_v7 : S8192x1.Idx → EReal) (((cfg6.win 1).blk t).view.emb (ix2 p (0 : Fin 1))) = _
    rw [h1]
  exact congrArg₂ (· * ·) g0 g1

set_option maxHeartbeats 1000000 in
/-- The accumulator after a first row block's point, at a lane: that block's sum. -/
theorem acc6_at_first (hpay1 : ∀ q : Fin 1024, k6_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k6_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg6.N) (h0 : t.val % 8 = 0) :
    (accAt6 V c t.val t.isLt (ix2 (0 : Fin 1) q) : EReal) = ∑ i ∈ Finset.range (t.val % 8 + 1), bsum_6 (V c main_v0 : S8192x8192.Idx → EReal) (V c main_v7 : S8192x1.Idx → EReal) (t.val / 8) i q := by
  refine (congrFun (accAt6_first V c t h0) (ix2 (0 : Fin 1) q)).trans ?_
  refine (hpay2 _ _ _ q).trans ?_
  rw [hpay1, zero_add]
  refine (blk6 V c t q).trans ?_
  rw [h0, zero_add, Finset.sum_range_one]

set_option maxHeartbeats 1000000 in
/-- The accumulator after a later row block's point, at a lane: what the point before left plus this block's sum. -/
theorem acc6_at_next (hpay1 : ∀ q : Fin 1024, k6_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k6_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg6.N) (h0 : ¬ t.val % 8 = 0) (hlt : t.val - 1 < cfg6.N)
    (ih : (accAt6 V c (t.val - 1) hlt (ix2 (0 : Fin 1) q) : EReal) = ∑ i ∈ Finset.range ((t.val - 1) % 8 + 1), bsum_6 (V c main_v0 : S8192x8192.Idx → EReal) (V c main_v7 : S8192x1.Idx → EReal) ((t.val - 1) / 8) i q) :
    (accAt6 V c t.val t.isLt (ix2 (0 : Fin 1) q) : EReal) = ∑ i ∈ Finset.range (t.val % 8 + 1), bsum_6 (V c main_v0 : S8192x8192.Idx → EReal) (V c main_v7 : S8192x1.Idx → EReal) (t.val / 8) i q := by
  refine (congrFun (accAt6_next V c t h0) (ix2 (0 : Fin 1) q)).trans ?_
  refine (hpay2 _ _ _ q).trans ?_
  refine (congrArg₂ (· + ·) ih (blk6 V c t q)).trans ?_
  have e1 : (t.val - 1) / 8 = t.val / 8 := by omega
  have e2 : (t.val - 1) % 8 + 1 = t.val % 8 := by omega
  rw [e1, e2]
  exact (Finset.sum_range_succ (fun i => bsum_6 (V c main_v0 : S8192x8192.Idx → EReal) (V c main_v7 : S8192x1.Idx → EReal) (t.val / 8) i q) (t.val % 8)).symm

set_option maxHeartbeats 1000000 in
/-- The accumulator after a point, at a lane: the block sums of the point's column block over the row blocks so far. -/
theorem acc6_range (hpay1 : ∀ q : Fin 1024, k6_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k6_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg6.N), t.val = n →
    (accAt6 V c t.val t.isLt (ix2 (0 : Fin 1) q) : EReal) = ∑ i ∈ Finset.range (t.val % 8 + 1), bsum_6 (V c main_v0 : S8192x8192.Idx → EReal) (V c main_v7 : S8192x1.Idx → EReal) (t.val / 8) i q := by
  intro n
  induction n with
  | zero =>
    intro t ht
    exact acc6_at_first V hpay1 hpay2 c q t (by rw [ht])
  | succ n ih =>
    intro t ht
    by_cases h0 : t.val % 8 = 0
    · exact acc6_at_first V hpay1 hpay2 c q t h0
    · have hlt : t.val - 1 < cfg6.N := Nat.lt_of_le_of_lt (Nat.sub_le _ _) t.isLt
      exact acc6_at_next V hpay1 hpay2 c q t h0 hlt (ih ⟨t.val - 1, hlt⟩ (by show t.val - 1 = n; omega))

/-- The eight block sums of a column block are the column's whole sum. -/
theorem bsum_all_6 (Karr : S8192x8192.Idx → EReal) (u : S8192x1.Idx → EReal) (j : ℕ) (q : Fin 1024) (C : Fin 8192) (hC : C.val = j * 1024 + q.val) :
    ∑ i ∈ Finset.range 8, bsum_6 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_6 Karr u j i q) 8]
  refine Finset.sum_congr rfl fun i _ => Finset.sum_congr rfl fun p _ => ?_
  have hlt : i.val * 1024 + p.val < 8192 := by have := i.isLt; have := p.isLt; omega
  have eC : fin8192_6 (j * 1024 + q.val) = C := Fin.ext (by show (j * 1024 + q.val) % 8192 = C.val; have := C.isLt; omega)
  show Karr (ix2 (fin8192_6 (i.val * 1024 + p.val)) (fin8192_6 (j * 1024 + q.val))) * u (ix2 (fin8192_6 (i.val * 1024 + p.val)) (0 : Fin 1)) = _
  rw [fin8192_of_lt_6 _ hlt, eC]

set_option maxHeartbeats 1000000 in
theorem flushed6 (hpay1 : ∀ q : Fin 1024, k6_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k6_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k6_pay3 (F := Ideal) a (ix2 (0 : Fin 1) q) = Ideal.div Spec.wgt (a (ix2 (0 : Fin 1) q) + Spec.stab))
    (c : Dev nD) (t : Fin cfg6.N) (hf : (cfg6.win 2).flush t = true) :
    (dat6 V c).flushed 2 t = ((cfg6.win 2).blk t).view.read (Elt Ideal) (G.Gv (V c main_v0) (V c main_v7)) := by
  have h7 : t.val % 8 = 7 := (flush6_2 t).mp hf
  show (cfg6.win 2).cut (grid6.coords t) ((dat6 V c).after 2 t) = _
  rw [after6_2]
  funext jx
  obtain ⟨z, q, rfl⟩ : ∃ (z : Fin 1) (q : Fin 1024), jx = ix2 z q := ⟨jx 0, jx 1, eq_ix2 jx⟩
  obtain rfl : z = 0 := Subsingleton.elim _ _
  show k6_pay3 (F := Ideal) (accAt6 V c t.val t.isLt) (ix2 (0 : Fin 1) q) = G.Gv (V c main_v0) (V c main_v7) (((cfg6.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts6 t
  refine (acc6_range V hpay1 hpay2 c q t.val t rfl).trans ?_
  rw [h7]
  refine bsum_all_6 _ _ (t.val / 8) q _ ?_
  show win6_2.index t (1 : Fin 2) * 1024 + 1 * q.val = t.val / 8 * 1024 + q.val
  omega

theorem mem_blk6 (t : Fin cfg6.N) (i : S1x8192.Idx) :
    i ∈ ((cfg6.win 2).blk t).view.set ↔ ∀ a : Fin 2, win6_2.index t a * S1x1024.size a ≤ (i a).val ∧ (i a).val < win6_2.index t a * S1x1024.size a + S1x1024.size a := by
  show i ∈ ((View.whole main_v8).slice (win6_2.rect t)).set ↔ _
  rw [View.set_slice_whole, Rect.mem_set_unit]
  exact Iff.rfl

theorem cover6 (i : S1x8192.Idx) : ∃ t : Fin cfg6.N, (cfg6.win 2).flush t = true ∧ i ∈ ((cfg6.win 2).blk t).view.set := by
  have hi0 : (i 0).val < 1 := (i 0).isLt
  have hi1 : (i 1).val < 8192 := (i 1).isLt
  have hN : (i 1).val / 1024 * 8 + 7 < cfg6.N := by rw [show cfg6.N = 64 from N_6]; omega
  refine ⟨⟨(i 1).val / 1024 * 8 + 7, hN⟩, (flush6_2 _).mpr (by show ((i 1).val / 1024 * 8 + 7) % 8 = 7; omega), ?_⟩
  rw [mem_blk6]
  obtain ⟨e0, e1, e2, e3, e4, e5⟩ := idx_facts6 ⟨(i 1).val / 1024 * 8 + 7, hN⟩
  intro a
  match a with
  | ⟨0, _⟩ => show win6_2.index _ (0 : Fin 2) * 1 ≤ (i 0).val ∧ (i 0).val < win6_2.index _ (0 : Fin 2) * 1 + 1; rw [e4]; omega
  | ⟨1, _⟩ => show win6_2.index _ (1 : Fin 2) * 1024 ≤ (i 1).val ∧ (i 1).val < win6_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr6 (hpay1 : ∀ q : Fin 1024, k6_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k6_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k6_pay3 (F := Ideal) a (ix2 (0 : Fin 1) q) = Ideal.div Spec.wgt (a (ix2 (0 : Fin 1) q) + Spec.stab))
    (c : Dev nD) : (dat6 V c).arrAt 2 cfg6.N = G.Gv (V c main_v0) (V c main_v7) :=
  (dat6 V c).arrAt_eq_of_cover 2 _ (fun t hf => flushed6 V hpay1 hpay2 hpay3 c t hf) cover6

end Cert.KernelIdeal.Val

end
-- ==== Proof.KI.V7.lean ====
/- Region 7's output array, whole: the row-scalings update w / (K·v + δ) of the matrix and the row of column scalings it read. -/
import proofs.«111645_j15006615733809_2_alg».proof.Proof.KI.R7
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV7 : (![0, 0] : Fin 2 → Nat) = fun _ => 0 := funext fun a => by fin_cases a <;> rfl

/-! ## Region 7: its output array is the row-scalings update of the matrix and the row it read. -/

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

theorem flushed7 (hpay : ∀ (x0 : Vec Ideal S1024x8192 .bf16) (x1 : Vec Ideal S1x8192 .f32) (p : Fin 1024),
      k7_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg7.N) :
    (dat7 V c).flushed 2 t = ((cfg7.win 2).blk t).view.read (Elt Ideal) (G.Gu (V c main_v0) (V c main_v8)) := by
  show (cfg7.win 2).cut (grid7.coords t) ((dat7 V c).after 2 t) = _
  rw [after7_2]
  unfold out7_2
  rw [View.canon_unit_zero hzV7]
  simp only [View.ld_unit_zero (S := S1024x8192) hzV7, View.ld_unit_zero (S := S1x8192) hzV7]
  funext j
  obtain ⟨p, q, rfl⟩ : ∃ (p : Fin 1024) (q : Fin 1), j = ix2 p q := ⟨j 0, j 1, eq_ix2 j⟩
  obtain rfl : q = 0 := Subsingleton.elim _ _
  show k7_pay1 (F := Ideal) (iblk7 V c 0 t) (iblk7 V c 1 t) (ix2 p (0 : Fin 1)) = G.Gu (V c main_v0) (V c main_v8) (((cfg7.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts7 t
  have h0 : ((cfg7.win 0).blk t).view.emb (ix2 p k) = ix2 (⟨(((cfg7.win 2).blk t).view.emb (ix2 p (0 : Fin 1)) 0).val, (((cfg7.win 2).blk t).view.emb (ix2 p (0 : Fin 1)) 0).isLt⟩ : Fin 8192) k := by
    funext a; apply Fin.ext
    match a with
    | ⟨0, _⟩ => show win7_0.index t (0 : Fin 2) * 1024 + 1 * p.val = win7_2.index t (0 : Fin 2) * 1024 + 1 * p.val; omega
    | ⟨1, _⟩ => show win7_0.index t (1 : Fin 2) * 8192 + 1 * k.val = k.val; omega
  have h1 : ((cfg7.win 1).blk t).view.emb (ix2 (0 : Fin 1) k) = ix2 (0 : Fin 1) k := by
    funext a; apply Fin.ext
    match a with
    | ⟨0, _⟩ => show win7_1.index t (0 : Fin 2) * 1 + 1 * 0 = 0; omega
    | ⟨1, _⟩ => show win7_1.index t (1 : Fin 2) * 8192 + 1 * k.val = k.val; omega
  have g0 : (iblk7 V c 0 t (ix2 p k) : EReal) = (V c main_v0 : S8192x8192.Idx → EReal) (ix2 (⟨(((cfg7.win 2).blk t).view.emb (ix2 p (0 : Fin 1)) 0).val, (((cfg7.win 2).blk t).view.emb (ix2 p (0 : Fin 1)) 0).isLt⟩ : Fin 8192) k) := by
    show (V c main_v0 : S8192x8192.Idx → EReal) (((cfg7.win 0).blk t).view.emb (ix2 p k)) = _
    rw [h0]
  have g1 : (iblk7 V c 1 t (ix2 (0 : Fin 1) k) : EReal) = (V c main_v8 : S1x8192.Idx → EReal) (ix2 (0 : Fin 1) k) := by
    show (V c main_v8 : S1x8192.Idx → EReal) (((cfg7.win 1).blk t).view.emb (ix2 (0 : Fin 1) k)) = _
    rw [h1]
  exact congrArg₂ (· * ·) g0 g1

theorem mem_blk7 (t : Fin cfg7.N) (i : S8192x1.Idx) :
    i ∈ ((cfg7.win 2).blk t).view.set ↔ ∀ a : Fin 2, win7_2.index t a * S1024x1.size a ≤ (i a).val ∧ (i a).val < win7_2.index t a * S1024x1.size a + S1024x1.size a := by
  show i ∈ ((View.whole main_v9).slice (win7_2.rect t)).set ↔ _
  rw [View.set_slice_whole, Rect.mem_set_unit]
  exact Iff.rfl

theorem cover7 (i : S8192x1.Idx) : ∃ t : Fin cfg7.N, (cfg7.win 2).flush t = true ∧ i ∈ ((cfg7.win 2).blk t).view.set := by
  have hi0 : (i 0).val < 8192 := (i 0).isLt
  have hi1 : (i 1).val < 1 := (i 1).isLt
  refine ⟨⟨(i 0).val / 1024, by rw [show cfg7.N = 8 from N_7]; omega⟩, flush7_2 _, ?_⟩
  rw [mem_blk7]
  obtain ⟨e0, e1, e2, e3, e4, e5⟩ := idx_facts7 ⟨(i 0).val / 1024, by rw [show cfg7.N = 8 from N_7]; omega⟩
  intro a
  match a with
  | ⟨0, _⟩ => show win7_2.index _ (0 : Fin 2) * 1024 ≤ (i 0).val ∧ (i 0).val < win7_2.index _ (0 : Fin 2) * 1024 + 1024; rw [e4]; show (i 0).val / 1024 * 1024 ≤ (i 0).val ∧ (i 0).val < (i 0).val / 1024 * 1024 + 1024; omega
  | ⟨1, _⟩ => show win7_2.index _ (1 : Fin 2) * 1 ≤ (i 1).val ∧ (i 1).val < win7_2.index _ (1 : Fin 2) * 1 + 1; rw [e5]; omega

/-- After the region the output array is the row-scalings update, whole. -/
theorem arr7 (hpay : ∀ (x0 : Vec Ideal S1024x8192 .bf16) (x1 : Vec Ideal S1x8192 .f32) (p : Fin 1024),
      k7_pay1 (F := Ideal) x0 x1 (ix2 p (0 : Fin 1)) = Ideal.div Spec.wgt ((∑ k : Fin 8192, x0 (ix2 p k) * x1 (ix2 (0 : Fin 1) k)) + Spec.stab))
    (c : Dev nD) : (dat7 V c).arrAt 2 cfg7.N = G.Gu (V c main_v0) (V c main_v8) :=
  (dat7 V c).arrAt_eq_of_cover 2 _ (fun t _ => flushed7 V hpay c t) cover7

end Cert.KernelIdeal.Val

end
-- ==== Proof.KI.V8.lean ====
/- Region 8's output array, whole: the column-scalings update w / (Kᵀ·u + δ), as a row, of the matrix and the column of row scalings it read; the accumulator's eight block sums are the sum over all 8192 rows. -/
import proofs.«111645_j15006615733809_2_alg».proof.Proof.KI.R8
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz8 : (![0, 0] : Fin 2 → Nat) = fun _ => 0 := funext fun a => by fin_cases a <;> rfl

theorem idx_facts8 : ∀ t : Fin cfg8.N, win8_0.index t (0 : Fin 2) = t.val % 8 ∧ win8_0.index t (1 : Fin 2) = t.val / 8
    ∧ win8_1.index t (0 : Fin 2) = t.val % 8 ∧ win8_1.index t (1 : Fin 2) = 0
    ∧ win8_2.index t (0 : Fin 2) = 0 ∧ win8_2.index t (1 : Fin 2) = t.val / 8 :=
  (by decide +kernel : ∀ t : Fin grid8.N, _)

/-- A natural number as a row or column number (the numbers met are below 8192). -/
def fin8192_8 (n : ℕ) : Fin 8192 := ⟨n % 8192, Nat.mod_lt _ (by decide)⟩

theorem fin8192_of_lt_8 (n : ℕ) (h : n < 8192) : fin8192_8 n = ⟨n, h⟩ := Fin.ext (Nat.mod_eq_of_lt h)

/-- The product met at row n, column m; and the sum of the products of row block i (1024 rows), column block j, lane q. -/
def gterm_8 (Karr : S8192x8192.Idx → EReal) (u : S8192x1.Idx → EReal) (n m : ℕ) : EReal :=
  Karr (ix2 (fin8192_8 n) (fin8192_8 m)) * u (ix2 (fin8192_8 n) (0 : Fin 1))
def bsum_8 (Karr : S8192x8192.Idx → EReal) (u : S8192x1.Idx → EReal) (j i : ℕ) (q : Fin 1024) : EReal :=
  ∑ p : Fin 1024, gterm_8 Karr u (i * 1024 + p.val) (j * 1024 + q.val)

/-- A point's tile times its row weights, summed down a lane, is the block sum of the point's row and column blocks. -/
def lane8 (x0 : Vec Ideal S1024x1024 .bf16) (x1 : Vec Ideal S1024x1 .f32) (q : Fin 1024) : EReal :=
  ∑ p : Fin 1024, x0 (ix2 p q) * x1 (ix2 p (0 : Fin 1))

theorem blk8 (c : Dev nD) (t : Fin cfg8.N) (q : Fin 1024) :
    lane8 (iblk8 V c 0 t) (iblk8 V c 1 t) q = bsum_8 (V c main_v0 : S8192x8192.Idx → EReal) (V c main_v9 : S8192x1.Idx → EReal) (t.val / 8) (t.val % 8) q := by
  unfold lane8
  obtain ⟨e0, e1, e2, e3, e4, e5⟩ := idx_facts8 t
  have hN : t.val < 64 := lt_of_lt_of_eq t.isLt (show cfg8.N = 64 from N_8)
  refine Finset.sum_congr rfl fun p _ => ?_
  have h0 : ((cfg8.win 0).blk t).view.emb (ix2 p q) = ix2 (fin8192_8 (t.val % 8 * 1024 + p.val)) (fin8192_8 (t.val / 8 * 1024 + q.val)) := by
    funext a; apply Fin.ext
    match a with
    | ⟨0, _⟩ => show win8_0.index t (0 : Fin 2) * 1024 + 1 * p.val = (t.val % 8 * 1024 + p.val) % 8192; omega
    | ⟨1, _⟩ => show win8_0.index t (1 : Fin 2) * 1024 + 1 * q.val = (t.val / 8 * 1024 + q.val) % 8192; omega
  have h1 : ((cfg8.win 1).blk t).view.emb (ix2 p (0 : Fin 1)) = ix2 (fin8192_8 (t.val % 8 * 1024 + p.val)) (0 : Fin 1) := by
    funext a; apply Fin.ext
    match a with
    | ⟨0, _⟩ => show win8_1.index t (0 : Fin 2) * 1024 + 1 * p.val = (t.val % 8 * 1024 + p.val) % 8192; omega
    | ⟨1, _⟩ => show win8_1.index t (1 : Fin 2) * 1 + 1 * 0 = 0; omega
  have g0 : (iblk8 V c 0 t (ix2 p q) : EReal) = (V c main_v0 : S8192x8192.Idx → EReal) (ix2 (fin8192_8 (t.val % 8 * 1024 + p.val)) (fin8192_8 (t.val / 8 * 1024 + q.val))) := by
    show (V c main_v0 : S8192x8192.Idx → EReal) (((cfg8.win 0).blk t).view.emb (ix2 p q)) = _
    rw [h0]
  have g1 : (iblk8 V c 1 t (ix2 p (0 : Fin 1)) : EReal) = (V c main_v9 : S8192x1.Idx → EReal) (ix2 (fin8192_8 (t.val % 8 * 1024 + p.val)) (0 : Fin 1)) := by
    show (V c main_v9 : S8192x1.Idx → EReal) (((cfg8.win 1).blk t).view.emb (ix2 p (0 : Fin 1))) = _
    rw [h1]
  exact congrArg₂ (· * ·) g0 g1

set_option maxHeartbeats 1000000 in
/-- The accumulator after a first row block's point, at a lane: that block's sum. -/
theorem acc8_at_first (hpay1 : ∀ q : Fin 1024, k8_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k8_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg8.N) (h0 : t.val % 8 = 0) :
    (accAt8 V c t.val t.isLt (ix2 (0 : Fin 1) q) : EReal) = ∑ i ∈ Finset.range (t.val % 8 + 1), bsum_8 (V c main_v0 : S8192x8192.Idx → EReal) (V c main_v9 : S8192x1.Idx → EReal) (t.val / 8) i q := by
  refine (congrFun (accAt8_first V c t h0) (ix2 (0 : Fin 1) q)).trans ?_
  refine (hpay2 _ _ _ q).trans ?_
  rw [hpay1, zero_add]
  refine (blk8 V c t q).trans ?_
  rw [h0, zero_add, Finset.sum_range_one]

set_option maxHeartbeats 1000000 in
/-- The accumulator after a later row block's point, at a lane: what the point before left plus this block's sum. -/
theorem acc8_at_next (hpay1 : ∀ q : Fin 1024, k8_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k8_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg8.N) (h0 : ¬ t.val % 8 = 0) (hlt : t.val - 1 < cfg8.N)
    (ih : (accAt8 V c (t.val - 1) hlt (ix2 (0 : Fin 1) q) : EReal) = ∑ i ∈ Finset.range ((t.val - 1) % 8 + 1), bsum_8 (V c main_v0 : S8192x8192.Idx → EReal) (V c main_v9 : S8192x1.Idx → EReal) ((t.val - 1) / 8) i q) :
    (accAt8 V c t.val t.isLt (ix2 (0 : Fin 1) q) : EReal) = ∑ i ∈ Finset.range (t.val % 8 + 1), bsum_8 (V c main_v0 : S8192x8192.Idx → EReal) (V c main_v9 : S8192x1.Idx → EReal) (t.val / 8) i q := by
  refine (congrFun (accAt8_next V c t h0) (ix2 (0 : Fin 1) q)).trans ?_
  refine (hpay2 _ _ _ q).trans ?_
  refine (congrArg₂ (· + ·) ih (blk8 V c t q)).trans ?_
  have e1 : (t.val - 1) / 8 = t.val / 8 := by omega
  have e2 : (t.val - 1) % 8 + 1 = t.val % 8 := by omega
  rw [e1, e2]
  exact (Finset.sum_range_succ (fun i => bsum_8 (V c main_v0 : S8192x8192.Idx → EReal) (V c main_v9 : S8192x1.Idx → EReal) (t.val / 8) i q) (t.val % 8)).symm

set_option maxHeartbeats 1000000 in
/-- The accumulator after a point, at a lane: the block sums of the point's column block over the row blocks so far. -/
theorem acc8_range (hpay1 : ∀ q : Fin 1024, k8_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k8_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg8.N), t.val = n →
    (accAt8 V c t.val t.isLt (ix2 (0 : Fin 1) q) : EReal) = ∑ i ∈ Finset.range (t.val % 8 + 1), bsum_8 (V c main_v0 : S8192x8192.Idx → EReal) (V c main_v9 : S8192x1.Idx → EReal) (t.val / 8) i q := by
  intro n
  induction n with
  | zero =>
    intro t ht
    exact acc8_at_first V hpay1 hpay2 c q t (by rw [ht])
  | succ n ih =>
    intro t ht
    by_cases h0 : t.val % 8 = 0
    · exact acc8_at_first V hpay1 hpay2 c q t h0
    · have hlt : t.val - 1 < cfg8.N := Nat.lt_of_le_of_lt (Nat.sub_le _ _) t.isLt
      exact acc8_at_next V hpay1 hpay2 c q t h0 hlt (ih ⟨t.val - 1, hlt⟩ (by show t.val - 1 = n; omega))

/-- The eight block sums of a column block are the column's whole sum. -/
theorem bsum_all_8 (Karr : S8192x8192.Idx → EReal) (u : S8192x1.Idx → EReal) (j : ℕ) (q : Fin 1024) (C : Fin 8192) (hC : C.val = j * 1024 + q.val) :
    ∑ i ∈ Finset.range 8, bsum_8 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_8 Karr u j i q) 8]
  refine Finset.sum_congr rfl fun i _ => Finset.sum_congr rfl fun p _ => ?_
  have hlt : i.val * 1024 + p.val < 8192 := by have := i.isLt; have := p.isLt; omega
  have eC : fin8192_8 (j * 1024 + q.val) = C := Fin.ext (by show (j * 1024 + q.val) % 8192 = C.val; have := C.isLt; omega)
  show Karr (ix2 (fin8192_8 (i.val * 1024 + p.val)) (fin8192_8 (j * 1024 + q.val))) * u (ix2 (fin8192_8 (i.val * 1024 + p.val)) (0 : Fin 1)) = _
  rw [fin8192_of_lt_8 _ hlt, eC]

set_option maxHeartbeats 1000000 in
theorem flushed8 (hpay1 : ∀ q : Fin 1024, k8_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k8_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k8_pay3 (F := Ideal) a (ix2 (0 : Fin 1) q) = Ideal.div Spec.wgt (a (ix2 (0 : Fin 1) q) + Spec.stab))
    (c : Dev nD) (t : Fin cfg8.N) (hf : (cfg8.win 2).flush t = true) :
    (dat8 V c).flushed 2 t = ((cfg8.win 2).blk t).view.read (Elt Ideal) (G.Gv (V c main_v0) (V c main_v9)) := by
  have h7 : t.val % 8 = 7 := (flush8_2 t).mp hf
  show (cfg8.win 2).cut (grid8.coords t) ((dat8 V c).after 2 t) = _
  rw [after8_2]
  funext jx
  obtain ⟨z, q, rfl⟩ : ∃ (z : Fin 1) (q : Fin 1024), jx = ix2 z q := ⟨jx 0, jx 1, eq_ix2 jx⟩
  obtain rfl : z = 0 := Subsingleton.elim _ _
  show k8_pay3 (F := Ideal) (accAt8 V c t.val t.isLt) (ix2 (0 : Fin 1) q) = G.Gv (V c main_v0) (V c main_v9) (((cfg8.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts8 t
  refine (acc8_range V hpay1 hpay2 c q t.val t rfl).trans ?_
  rw [h7]
  refine bsum_all_8 _ _ (t.val / 8) q _ ?_
  show win8_2.index t (1 : Fin 2) * 1024 + 1 * q.val = t.val / 8 * 1024 + q.val
  omega

theorem mem_blk8 (t : Fin cfg8.N) (i : S1x8192.Idx) :
    i ∈ ((cfg8.win 2).blk t).view.set ↔ ∀ a : Fin 2, win8_2.index t a * S1x1024.size a ≤ (i a).val ∧ (i a).val < win8_2.index t a * S1x1024.size a + S1x1024.size a := by
  show i ∈ ((View.whole main_v10).slice (win8_2.rect t)).set ↔ _
  rw [View.set_slice_whole, Rect.mem_set_unit]
  exact Iff.rfl

theorem cover8 (i : S1x8192.Idx) : ∃ t : Fin cfg8.N, (cfg8.win 2).flush t = true ∧ i ∈ ((cfg8.win 2).blk t).view.set := by
  have hi0 : (i 0).val < 1 := (i 0).isLt
  have hi1 : (i 1).val < 8192 := (i 1).isLt
  have hN : (i 1).val / 1024 * 8 + 7 < cfg8.N := by rw [show cfg8.N = 64 from N_8]; omega
  refine ⟨⟨(i 1).val / 1024 * 8 + 7, hN⟩, (flush8_2 _).mpr (by show ((i 1).val / 1024 * 8 + 7) % 8 = 7; omega), ?_⟩
  rw [mem_blk8]
  obtain ⟨e0, e1, e2, e3, e4, e5⟩ := idx_facts8 ⟨(i 1).val / 1024 * 8 + 7, hN⟩
  intro a
  match a with
  | ⟨0, _⟩ => show win8_2.index _ (0 : Fin 2) * 1 ≤ (i 0).val ∧ (i 0).val < win8_2.index _ (0 : Fin 2) * 1 + 1; rw [e4]; omega
  | ⟨1, _⟩ => show win8_2.index _ (1 : Fin 2) * 1024 ≤ (i 1).val ∧ (i 1).val < win8_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr8 (hpay1 : ∀ q : Fin 1024, k8_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k8_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k8_pay3 (F := Ideal) a (ix2 (0 : Fin 1) q) = Ideal.div Spec.wgt (a (ix2 (0 : Fin 1) q) + Spec.stab))
    (c : Dev nD) : (dat8 V c).arrAt 2 cfg8.N = G.Gv (V c main_v0) (V c main_v9) :=
  (dat8 V c).arrAt_eq_of_cover 2 _ (fun t hf => flushed8 V hpay1 hpay2 hpay3 c t hf) cover8

end Cert.KernelIdeal.Val

end
-- ==== Proof.KI.V9.lean ====
/- Region 9's output array, whole: the row-scalings update w / (K·v + δ) of the matrix and the row of column scalings it read. -/
import proofs.«111645_j15006615733809_2_alg».proof.Proof.KI.R9
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV9 : (![0, 0] : Fin 2 → Nat) = fun _ => 0 := funext fun a => by fin_cases a <;> rfl

/-! ## Region 9: its output array is the row-scalings update of the matrix and the row it read. -/

theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

theorem flushed9 (hpay : ∀ (x0 : Vec Ideal S1024x8192 .bf16) (x1 : Vec Ideal S1x8192 .f32) (p : Fin 1024),
      k9_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg9.N) :
    (dat9 V c).flushed 2 t = ((cfg9.win 2).blk t).view.read (Elt Ideal) (G.Gu (V c main_v0) (V c main_v10)) := by
  show (cfg9.win 2).cut (grid9.coords t) ((dat9 V c).after 2 t) = _
  rw [after9_2]
  unfold out9_2
  rw [View.canon_unit_zero hzV9]
  simp only [View.ld_unit_zero (S := S1024x8192) hzV9, View.ld_unit_zero (S := S1x8192) hzV9]
  funext j
  obtain ⟨p, q, rfl⟩ : ∃ (p : Fin 1024) (q : Fin 1), j = ix2 p q := ⟨j 0, j 1, eq_ix2 j⟩
  obtain rfl : q = 0 := Subsingleton.elim _ _
  show k9_pay1 (F := Ideal) (iblk9 V c 0 t) (iblk9 V c 1 t) (ix2 p (0 : Fin 1)) = G.Gu (V c main_v0) (V c main_v10) (((cfg9.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts9 t
  have h0 : ((cfg9.win 0).blk t).view.emb (ix2 p k) = ix2 (⟨(((cfg9.win 2).blk t).view.emb (ix2 p (0 : Fin 1)) 0).val, (((cfg9.win 2).blk t).view.emb (ix2 p (0 : Fin 1)) 0).isLt⟩ : Fin 8192) k := by
    funext a; apply Fin.ext
    match a with
    | ⟨0, _⟩ => show win9_0.index t (0 : Fin 2) * 1024 + 1 * p.val = win9_2.index t (0 : Fin 2) * 1024 + 1 * p.val; omega
    | ⟨1, _⟩ => show win9_0.index t (1 : Fin 2) * 8192 + 1 * k.val = k.val; omega
  have h1 : ((cfg9.win 1).blk t).view.emb (ix2 (0 : Fin 1) k) = ix2 (0 : Fin 1) k := by
    funext a; apply Fin.ext
    match a with
    | ⟨0, _⟩ => show win9_1.index t (0 : Fin 2) * 1 + 1 * 0 = 0; omega
    | ⟨1, _⟩ => show win9_1.index t (1 : Fin 2) * 8192 + 1 * k.val = k.val; omega
  have g0 : (iblk9 V c 0 t (ix2 p k) : EReal) = (V c main_v0 : S8192x8192.Idx → EReal) (ix2 (⟨(((cfg9.win 2).blk t).view.emb (ix2 p (0 : Fin 1)) 0).val, (((cfg9.win 2).blk t).view.emb (ix2 p (0 : Fin 1)) 0).isLt⟩ : Fin 8192) k) := by
    show (V c main_v0 : S8192x8192.Idx → EReal) (((cfg9.win 0).blk t).view.emb (ix2 p k)) = _
    rw [h0]
  have g1 : (iblk9 V c 1 t (ix2 (0 : Fin 1) k) : EReal) = (V c main_v10 : S1x8192.Idx → EReal) (ix2 (0 : Fin 1) k) := by
    show (V c main_v10 : S1x8192.Idx → EReal) (((cfg9.win 1).blk t).view.emb (ix2 (0 : Fin 1) k)) = _
    rw [h1]
  exact congrArg₂ (· * ·) g0 g1

theorem mem_blk9 (t : Fin cfg9.N) (i : S8192x1.Idx) :
    i ∈ ((cfg9.win 2).blk t).view.set ↔ ∀ a : Fin 2, win9_2.index t a * S1024x1.size a ≤ (i a).val ∧ (i a).val < win9_2.index t a * S1024x1.size a + S1024x1.size a := by
  show i ∈ ((View.whole main_v11).slice (win9_2.rect t)).set ↔ _
  rw [View.set_slice_whole, Rect.mem_set_unit]
  exact Iff.rfl

theorem cover9 (i : S8192x1.Idx) : ∃ t : Fin cfg9.N, (cfg9.win 2).flush t = true ∧ i ∈ ((cfg9.win 2).blk t).view.set := by
  have hi0 : (i 0).val < 8192 := (i 0).isLt
  have hi1 : (i 1).val < 1 := (i 1).isLt
  refine ⟨⟨(i 0).val / 1024, by rw [show cfg9.N = 8 from N_9]; omega⟩, flush9_2 _, ?_⟩
  rw [mem_blk9]
  obtain ⟨e0, e1, e2, e3, e4, e5⟩ := idx_facts9 ⟨(i 0).val / 1024, by rw [show cfg9.N = 8 from N_9]; omega⟩
  intro a
  match a with
  | ⟨0, _⟩ => show win9_2.index _ (0 : Fin 2) * 1024 ≤ (i 0).val ∧ (i 0).val < win9_2.index _ (0 : Fin 2) * 1024 + 1024; rw [e4]; show (i 0).val / 1024 * 1024 ≤ (i 0).val ∧ (i 0).val < (i 0).val / 1024 * 1024 + 1024; omega
  | ⟨1, _⟩ => show win9_2.index _ (1 : Fin 2) * 1 ≤ (i 1).val ∧ (i 1).val < win9_2.index _ (1 : Fin 2) * 1 + 1; rw [e5]; omega

/-- After the region the output array is the row-scalings update, whole. -/
theorem arr9 (hpay : ∀ (x0 : Vec Ideal S1024x8192 .bf16) (x1 : Vec Ideal S1x8192 .f32) (p : Fin 1024),
      k9_pay1 (F := Ideal) x0 x1 (ix2 p (0 : Fin 1)) = Ideal.div Spec.wgt ((∑ k : Fin 8192, x0 (ix2 p k) * x1 (ix2 (0 : Fin 1) k)) + Spec.stab))
    (c : Dev nD) : (dat9 V c).arrAt 2 cfg9.N = G.Gu (V c main_v0) (V c main_v10) :=
  (dat9 V c).arrAt_eq_of_cover 2 _ (fun t _ => flushed9 V hpay c t) cover9

end Cert.KernelIdeal.Val

end
-- ==== Proof.KI.V10.lean ====
/- Region 10's output array, whole: the column-scalings update w / (Kᵀ·u + δ), as a row, of the matrix and the column of row scalings it read; the accumulator's eight block sums are the sum over all 8192 rows. -/
import proofs.«111645_j15006615733809_2_alg».proof.Proof.KI.R10
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz10 : (![0, 0] : Fin 2 → Nat) = fun _ => 0 := funext fun a => by fin_cases a <;> rfl

theorem idx_facts10 : ∀ t : Fin cfg10.N, win10_0.index t (0 : Fin 2) = t.val % 8 ∧ win10_0.index t (1 : Fin 2) = t.val / 8
    ∧ win10_1.index t (0 : Fin 2) = t.val % 8 ∧ win10_1.index t (1 : Fin 2) = 0
    ∧ win10_2.index t (0 : Fin 2) = 0 ∧ win10_2.index t (1 : Fin 2) = t.val / 8 :=
  (by decide +kernel : ∀ t : Fin grid10.N, _)

/-- A natural number as a row or column number (the numbers met are below 8192). -/
def fin8192_10 (n : ℕ) : Fin 8192 := ⟨n % 8192, Nat.mod_lt _ (by decide)⟩

theorem fin8192_of_lt_10 (n : ℕ) (h : n < 8192) : fin8192_10 n = ⟨n, h⟩ := Fin.ext (Nat.mod_eq_of_lt h)

/-- The product met at row n, column m; and the sum of the products of row block i (1024 rows), column block j, lane q. -/
def gterm_10 (Karr : S8192x8192.Idx → EReal) (u : S8192x1.Idx → EReal) (n m : ℕ) : EReal :=
  Karr (ix2 (fin8192_10 n) (fin8192_10 m)) * u (ix2 (fin8192_10 n) (0 : Fin 1))
def bsum_10 (Karr : S8192x8192.Idx → EReal) (u : S8192x1.Idx → EReal) (j i : ℕ) (q : Fin 1024) : EReal :=
  ∑ p : Fin 1024, gterm_10 Karr u (i * 1024 + p.val) (j * 1024 + q.val)

/-- A point's tile times its row weights, summed down a lane, is the block sum of the point's row and column blocks. -/
def lane10 (x0 : Vec Ideal S1024x1024 .bf16) (x1 : Vec Ideal S1024x1 .f32) (q : Fin 1024) : EReal :=
  ∑ p : Fin 1024, x0 (ix2 p q) * x1 (ix2 p (0 : Fin 1))

theorem blk10 (c : Dev nD) (t : Fin cfg10.N) (q : Fin 1024) :
    lane10 (iblk10 V c 0 t) (iblk10 V c 1 t) q = bsum_10 (V c main_v0 : S8192x8192.Idx → EReal) (V c main_v11 : S8192x1.Idx → EReal) (t.val / 8) (t.val % 8) q := by
  unfold lane10
  obtain ⟨e0, e1, e2, e3, e4, e5⟩ := idx_facts10 t
  have hN : t.val < 64 := lt_of_lt_of_eq t.isLt (show cfg10.N = 64 from N_10)
  refine Finset.sum_congr rfl fun p _ => ?_
  have h0 : ((cfg10.win 0).blk t).view.emb (ix2 p q) = ix2 (fin8192_10 (t.val % 8 * 1024 + p.val)) (fin8192_10 (t.val / 8 * 1024 + q.val)) := by
    funext a; apply Fin.ext
    match a with
    | ⟨0, _⟩ => show win10_0.index t (0 : Fin 2) * 1024 + 1 * p.val = (t.val % 8 * 1024 + p.val) % 8192; omega
    | ⟨1, _⟩ => show win10_0.index t (1 : Fin 2) * 1024 + 1 * q.val = (t.val / 8 * 1024 + q.val) % 8192; omega
  have h1 : ((cfg10.win 1).blk t).view.emb (ix2 p (0 : Fin 1)) = ix2 (fin8192_10 (t.val % 8 * 1024 + p.val)) (0 : Fin 1) := by
    funext a; apply Fin.ext
    match a with
    | ⟨0, _⟩ => show win10_1.index t (0 : Fin 2) * 1024 + 1 * p.val = (t.val % 8 * 1024 + p.val) % 8192; omega
    | ⟨1, _⟩ => show win10_1.index t (1 : Fin 2) * 1 + 1 * 0 = 0; omega
  have g0 : (iblk10 V c 0 t (ix2 p q) : EReal) = (V c main_v0 : S8192x8192.Idx → EReal) (ix2 (fin8192_10 (t.val % 8 * 1024 + p.val)) (fin8192_10 (t.val / 8 * 1024 + q.val))) := by
    show (V c main_v0 : S8192x8192.Idx → EReal) (((cfg10.win 0).blk t).view.emb (ix2 p q)) = _
    rw [h0]
  have g1 : (iblk10 V c 1 t (ix2 p (0 : Fin 1)) : EReal) = (V c main_v11 : S8192x1.Idx → EReal) (ix2 (fin8192_10 (t.val % 8 * 1024 + p.val)) (0 : Fin 1)) := by
    show (V c main_v11 : S8192x1.Idx → EReal) (((cfg10.win 1).blk t).view.emb (ix2 p (0 : Fin 1))) = _
    rw [h1]
  exact congrArg₂ (· * ·) g0 g1

set_option maxHeartbeats 1000000 in
/-- The accumulator after a first row block's point, at a lane: that block's sum. -/
theorem acc10_at_first (hpay1 : ∀ q : Fin 1024, k10_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k10_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg10.N) (h0 : t.val % 8 = 0) :
    (accAt10 V c t.val t.isLt (ix2 (0 : Fin 1) q) : EReal) = ∑ i ∈ Finset.range (t.val % 8 + 1), bsum_10 (V c main_v0 : S8192x8192.Idx → EReal) (V c main_v11 : S8192x1.Idx → EReal) (t.val / 8) i q := by
  refine (congrFun (accAt10_first V c t h0) (ix2 (0 : Fin 1) q)).trans ?_
  refine (hpay2 _ _ _ q).trans ?_
  rw [hpay1, zero_add]
  refine (blk10 V c t q).trans ?_
  rw [h0, zero_add, Finset.sum_range_one]

set_option maxHeartbeats 1000000 in
/-- The accumulator after a later row block's point, at a lane: what the point before left plus this block's sum. -/
theorem acc10_at_next (hpay1 : ∀ q : Fin 1024, k10_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k10_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg10.N) (h0 : ¬ t.val % 8 = 0) (hlt : t.val - 1 < cfg10.N)
    (ih : (accAt10 V c (t.val - 1) hlt (ix2 (0 : Fin 1) q) : EReal) = ∑ i ∈ Finset.range ((t.val - 1) % 8 + 1), bsum_10 (V c main_v0 : S8192x8192.Idx → EReal) (V c main_v11 : S8192x1.Idx → EReal) ((t.val - 1) / 8) i q) :
    (accAt10 V c t.val t.isLt (ix2 (0 : Fin 1) q) : EReal) = ∑ i ∈ Finset.range (t.val % 8 + 1), bsum_10 (V c main_v0 : S8192x8192.Idx → EReal) (V c main_v11 : S8192x1.Idx → EReal) (t.val / 8) i q := by
  refine (congrFun (accAt10_next V c t h0) (ix2 (0 : Fin 1) q)).trans ?_
  refine (hpay2 _ _ _ q).trans ?_
  refine (congrArg₂ (· + ·) ih (blk10 V c t q)).trans ?_
  have e1 : (t.val - 1) / 8 = t.val / 8 := by omega
  have e2 : (t.val - 1) % 8 + 1 = t.val % 8 := by omega
  rw [e1, e2]
  exact (Finset.sum_range_succ (fun i => bsum_10 (V c main_v0 : S8192x8192.Idx → EReal) (V c main_v11 : S8192x1.Idx → EReal) (t.val / 8) i q) (t.val % 8)).symm

set_option maxHeartbeats 1000000 in
/-- The accumulator after a point, at a lane: the block sums of the point's column block over the row blocks so far. -/
theorem acc10_range (hpay1 : ∀ q : Fin 1024, k10_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k10_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg10.N), t.val = n →
    (accAt10 V c t.val t.isLt (ix2 (0 : Fin 1) q) : EReal) = ∑ i ∈ Finset.range (t.val % 8 + 1), bsum_10 (V c main_v0 : S8192x8192.Idx → EReal) (V c main_v11 : S8192x1.Idx → EReal) (t.val / 8) i q := by
  intro n
  induction n with
  | zero =>
    intro t ht
    exact acc10_at_first V hpay1 hpay2 c q t (by rw [ht])
  | succ n ih =>
    intro t ht
    by_cases h0 : t.val % 8 = 0
    · exact acc10_at_first V hpay1 hpay2 c q t h0
    · have hlt : t.val - 1 < cfg10.N := Nat.lt_of_le_of_lt (Nat.sub_le _ _) t.isLt
      exact acc10_at_next V hpay1 hpay2 c q t h0 hlt (ih ⟨t.val - 1, hlt⟩ (by show t.val - 1 = n; omega))

/-- The eight block sums of a column block are the column's whole sum. -/
theorem bsum_all_10 (Karr : S8192x8192.Idx → EReal) (u : S8192x1.Idx → EReal) (j : ℕ) (q : Fin 1024) (C : Fin 8192) (hC : C.val = j * 1024 + q.val) :
    ∑ i ∈ Finset.range 8, bsum_10 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_10 Karr u j i q) 8]
  refine Finset.sum_congr rfl fun i _ => Finset.sum_congr rfl fun p _ => ?_
  have hlt : i.val * 1024 + p.val < 8192 := by have := i.isLt; have := p.isLt; omega
  have eC : fin8192_10 (j * 1024 + q.val) = C := Fin.ext (by show (j * 1024 + q.val) % 8192 = C.val; have := C.isLt; omega)
  show Karr (ix2 (fin8192_10 (i.val * 1024 + p.val)) (fin8192_10 (j * 1024 + q.val))) * u (ix2 (fin8192_10 (i.val * 1024 + p.val)) (0 : Fin 1)) = _
  rw [fin8192_of_lt_10 _ hlt, eC]

set_option maxHeartbeats 1000000 in
theorem flushed10 (hpay1 : ∀ q : Fin 1024, k10_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k10_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k10_pay3 (F := Ideal) a (ix2 (0 : Fin 1) q) = Ideal.div Spec.wgt (a (ix2 (0 : Fin 1) q) + Spec.stab))
    (c : Dev nD) (t : Fin cfg10.N) (hf : (cfg10.win 2).flush t = true) :
    (dat10 V c).flushed 2 t = ((cfg10.win 2).blk t).view.read (Elt Ideal) (G.Gv (V c main_v0) (V c main_v11)) := by
  have h7 : t.val % 8 = 7 := (flush10_2 t).mp hf
  show (cfg10.win 2).cut (grid10.coords t) ((dat10 V c).after 2 t) = _
  rw [after10_2]
  funext jx
  obtain ⟨z, q, rfl⟩ : ∃ (z : Fin 1) (q : Fin 1024), jx = ix2 z q := ⟨jx 0, jx 1, eq_ix2 jx⟩
  obtain rfl : z = 0 := Subsingleton.elim _ _
  show k10_pay3 (F := Ideal) (accAt10 V c t.val t.isLt) (ix2 (0 : Fin 1) q) = G.Gv (V c main_v0) (V c main_v11) (((cfg10.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts10 t
  refine (acc10_range V hpay1 hpay2 c q t.val t rfl).trans ?_
  rw [h7]
  refine bsum_all_10 _ _ (t.val / 8) q _ ?_
  show win10_2.index t (1 : Fin 2) * 1024 + 1 * q.val = t.val / 8 * 1024 + q.val
  omega

theorem mem_blk10 (t : Fin cfg10.N) (i : S1x8192.Idx) :
    i ∈ ((cfg10.win 2).blk t).view.set ↔ ∀ a : Fin 2, win10_2.index t a * S1x1024.size a ≤ (i a).val ∧ (i a).val < win10_2.index t a * S1x1024.size a + S1x1024.size a := by
  show i ∈ ((View.whole main_v12).slice (win10_2.rect t)).set ↔ _
  rw [View.set_slice_whole, Rect.mem_set_unit]
  exact Iff.rfl

theorem cover10 (i : S1x8192.Idx) : ∃ t : Fin cfg10.N, (cfg10.win 2).flush t = true ∧ i ∈ ((cfg10.win 2).blk t).view.set := by
  have hi0 : (i 0).val < 1 := (i 0).isLt
  have hi1 : (i 1).val < 8192 := (i 1).isLt
  have hN : (i 1).val / 1024 * 8 + 7 < cfg10.N := by rw [show cfg10.N = 64 from N_10]; omega
  refine ⟨⟨(i 1).val / 1024 * 8 + 7, hN⟩, (flush10_2 _).mpr (by show ((i 1).val / 1024 * 8 + 7) % 8 = 7; omega), ?_⟩
  rw [mem_blk10]
  obtain ⟨e0, e1, e2, e3, e4, e5⟩ := idx_facts10 ⟨(i 1).val / 1024 * 8 + 7, hN⟩
  intro a
  match a with
  | ⟨0, _⟩ => show win10_2.index _ (0 : Fin 2) * 1 ≤ (i 0).val ∧ (i 0).val < win10_2.index _ (0 : Fin 2) * 1 + 1; rw [e4]; omega
  | ⟨1, _⟩ => show win10_2.index _ (1 : Fin 2) * 1024 ≤ (i 1).val ∧ (i 1).val < win10_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr10 (hpay1 : ∀ q : Fin 1024, k10_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k10_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k10_pay3 (F := Ideal) a (ix2 (0 : Fin 1) q) = Ideal.div Spec.wgt (a (ix2 (0 : Fin 1) q) + Spec.stab))
    (c : Dev nD) : (dat10 V c).arrAt 2 cfg10.N = G.Gv (V c main_v0) (V c main_v11) :=
  (dat10 V c).arrAt_eq_of_cover 2 _ (fun t hf => flushed10 V hpay1 hpay2 hpay3 c t hf) cover10

end Cert.KernelIdeal.Val

end
-- ==== Proof.KI.V11.lean ====
/- Region 11's output array, whole: the row-scalings update w / (K·v + δ) of the matrix and the row of column scalings it read. -/
import proofs.«111645_j15006615733809_2_alg».proof.Proof.KI.R11
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV11 : (![0, 0] : Fin 2 → Nat) = fun _ => 0 := funext fun a => by fin_cases a <;> rfl

/-! ## Region 11: its output array is the row-scalings update of the matrix and the row it read. -/

theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

theorem flushed11 (hpay : ∀ (x0 : Vec Ideal S1024x8192 .bf16) (x1 : Vec Ideal S1x8192 .f32) (p : Fin 1024),
      k11_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg11.N) :
    (dat11 V c).flushed 2 t = ((cfg11.win 2).blk t).view.read (Elt Ideal) (G.Gu (V c main_v0) (V c main_v12)) := by
  show (cfg11.win 2).cut (grid11.coords t) ((dat11 V c).after 2 t) = _
  rw [after11_2]
  unfold out11_2
  rw [View.canon_unit_zero hzV11]
  simp only [View.ld_unit_zero (S := S1024x8192) hzV11, View.ld_unit_zero (S := S1x8192) hzV11]
  funext j
  obtain ⟨p, q, rfl⟩ : ∃ (p : Fin 1024) (q : Fin 1), j = ix2 p q := ⟨j 0, j 1, eq_ix2 j⟩
  obtain rfl : q = 0 := Subsingleton.elim _ _
  show k11_pay1 (F := Ideal) (iblk11 V c 0 t) (iblk11 V c 1 t) (ix2 p (0 : Fin 1)) = G.Gu (V c main_v0) (V c main_v12) (((cfg11.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts11 t
  have h0 : ((cfg11.win 0).blk t).view.emb (ix2 p k) = ix2 (⟨(((cfg11.win 2).blk t).view.emb (ix2 p (0 : Fin 1)) 0).val, (((cfg11.win 2).blk t).view.emb (ix2 p (0 : Fin 1)) 0).isLt⟩ : Fin 8192) k := by
    funext a; apply Fin.ext
    match a with
    | ⟨0, _⟩ => show win11_0.index t (0 : Fin 2) * 1024 + 1 * p.val = win11_2.index t (0 : Fin 2) * 1024 + 1 * p.val; omega
    | ⟨1, _⟩ => show win11_0.index t (1 : Fin 2) * 8192 + 1 * k.val = k.val; omega
  have h1 : ((cfg11.win 1).blk t).view.emb (ix2 (0 : Fin 1) k) = ix2 (0 : Fin 1) k := by
    funext a; apply Fin.ext
    match a with
    | ⟨0, _⟩ => show win11_1.index t (0 : Fin 2) * 1 + 1 * 0 = 0; omega
    | ⟨1, _⟩ => show win11_1.index t (1 : Fin 2) * 8192 + 1 * k.val = k.val; omega
  have g0 : (iblk11 V c 0 t (ix2 p k) : EReal) = (V c main_v0 : S8192x8192.Idx → EReal) (ix2 (⟨(((cfg11.win 2).blk t).view.emb (ix2 p (0 : Fin 1)) 0).val, (((cfg11.win 2).blk t).view.emb (ix2 p (0 : Fin 1)) 0).isLt⟩ : Fin 8192) k) := by
    show (V c main_v0 : S8192x8192.Idx → EReal) (((cfg11.win 0).blk t).view.emb (ix2 p k)) = _
    rw [h0]
  have g1 : (iblk11 V c 1 t (ix2 (0 : Fin 1) k) : EReal) = (V c main_v12 : S1x8192.Idx → EReal) (ix2 (0 : Fin 1) k) := by
    show (V c main_v12 : S1x8192.Idx → EReal) (((cfg11.win 1).blk t).view.emb (ix2 (0 : Fin 1) k)) = _
    rw [h1]
  exact congrArg₂ (· * ·) g0 g1

theorem mem_blk11 (t : Fin cfg11.N) (i : S8192x1.Idx) :
    i ∈ ((cfg11.win 2).blk t).view.set ↔ ∀ a : Fin 2, win11_2.index t a * S1024x1.size a ≤ (i a).val ∧ (i a).val < win11_2.index t a * S1024x1.size a + S1024x1.size a := by
  show i ∈ ((View.whole main_v13).slice (win11_2.rect t)).set ↔ _
  rw [View.set_slice_whole, Rect.mem_set_unit]
  exact Iff.rfl

theorem cover11 (i : S8192x1.Idx) : ∃ t : Fin cfg11.N, (cfg11.win 2).flush t = true ∧ i ∈ ((cfg11.win 2).blk t).view.set := by
  have hi0 : (i 0).val < 8192 := (i 0).isLt
  have hi1 : (i 1).val < 1 := (i 1).isLt
  refine ⟨⟨(i 0).val / 1024, by rw [show cfg11.N = 8 from N_11]; omega⟩, flush11_2 _, ?_⟩
  rw [mem_blk11]
  obtain ⟨e0, e1, e2, e3, e4, e5⟩ := idx_facts11 ⟨(i 0).val / 1024, by rw [show cfg11.N = 8 from N_11]; omega⟩
  intro a
  match a with
  | ⟨0, _⟩ => show win11_2.index _ (0 : Fin 2) * 1024 ≤ (i 0).val ∧ (i 0).val < win11_2.index _ (0 : Fin 2) * 1024 + 1024; rw [e4]; show (i 0).val / 1024 * 1024 ≤ (i 0).val ∧ (i 0).val < (i 0).val / 1024 * 1024 + 1024; omega
  | ⟨1, _⟩ => show win11_2.index _ (1 : Fin 2) * 1 ≤ (i 1).val ∧ (i 1).val < win11_2.index _ (1 : Fin 2) * 1 + 1; rw [e5]; omega

/-- After the region the output array is the row-scalings update, whole. -/
theorem arr11 (hpay : ∀ (x0 : Vec Ideal S1024x8192 .bf16) (x1 : Vec Ideal S1x8192 .f32) (p : Fin 1024),
      k11_pay1 (F := Ideal) x0 x1 (ix2 p (0 : Fin 1)) = Ideal.div Spec.wgt ((∑ k : Fin 8192, x0 (ix2 p k) * x1 (ix2 (0 : Fin 1) k)) + Spec.stab))
    (c : Dev nD) : (dat11 V c).arrAt 2 cfg11.N = G.Gu (V c main_v0) (V c main_v12) :=
  (dat11 V c).arrAt_eq_of_cover 2 _ (fun t _ => flushed11 V hpay c t) cover11

end Cert.KernelIdeal.Val

end
-- ==== Proof.KI.V12.lean ====
/- Region 12's output array, whole: the column-scalings update w / (Kᵀ·u + δ), as a row, of the matrix and the column of row scalings it read; the accumulator's eight block sums are the sum over all 8192 rows. -/
import proofs.«111645_j15006615733809_2_alg».proof.Proof.KI.R12
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz12 : (![0, 0] : Fin 2 → Nat) = fun _ => 0 := funext fun a => by fin_cases a <;> rfl

theorem idx_facts12 : ∀ t : Fin cfg12.N, win12_0.index t (0 : Fin 2) = t.val % 8 ∧ win12_0.index t (1 : Fin 2) = t.val / 8
    ∧ win12_1.index t (0 : Fin 2) = t.val % 8 ∧ win12_1.index t (1 : Fin 2) = 0
    ∧ win12_2.index t (0 : Fin 2) = 0 ∧ win12_2.index t (1 : Fin 2) = t.val / 8 :=
  (by decide +kernel : ∀ t : Fin grid12.N, _)

/-- A natural number as a row or column number (the numbers met are below 8192). -/
def fin8192_12 (n : ℕ) : Fin 8192 := ⟨n % 8192, Nat.mod_lt _ (by decide)⟩

theorem fin8192_of_lt_12 (n : ℕ) (h : n < 8192) : fin8192_12 n = ⟨n, h⟩ := Fin.ext (Nat.mod_eq_of_lt h)

/-- The product met at row n, column m; and the sum of the products of row block i (1024 rows), column block j, lane q. -/
def gterm_12 (Karr : S8192x8192.Idx → EReal) (u : S8192x1.Idx → EReal) (n m : ℕ) : EReal :=
  Karr (ix2 (fin8192_12 n) (fin8192_12 m)) * u (ix2 (fin8192_12 n) (0 : Fin 1))
def bsum_12 (Karr : S8192x8192.Idx → EReal) (u : S8192x1.Idx → EReal) (j i : ℕ) (q : Fin 1024) : EReal :=
  ∑ p : Fin 1024, gterm_12 Karr u (i * 1024 + p.val) (j * 1024 + q.val)

/-- A point's tile times its row weights, summed down a lane, is the block sum of the point's row and column blocks. -/
def lane12 (x0 : Vec Ideal S1024x1024 .bf16) (x1 : Vec Ideal S1024x1 .f32) (q : Fin 1024) : EReal :=
  ∑ p : Fin 1024, x0 (ix2 p q) * x1 (ix2 p (0 : Fin 1))

theorem blk12 (c : Dev nD) (t : Fin cfg12.N) (q : Fin 1024) :
    lane12 (iblk12 V c 0 t) (iblk12 V c 1 t) q = bsum_12 (V c main_v0 : S8192x8192.Idx → EReal) (V c main_v13 : S8192x1.Idx → EReal) (t.val / 8) (t.val % 8) q := by
  unfold lane12
  obtain ⟨e0, e1, e2, e3, e4, e5⟩ := idx_facts12 t
  have hN : t.val < 64 := lt_of_lt_of_eq t.isLt (show cfg12.N = 64 from N_12)
  refine Finset.sum_congr rfl fun p _ => ?_
  have h0 : ((cfg12.win 0).blk t).view.emb (ix2 p q) = ix2 (fin8192_12 (t.val % 8 * 1024 + p.val)) (fin8192_12 (t.val / 8 * 1024 + q.val)) := by
    funext a; apply Fin.ext
    match a with
    | ⟨0, _⟩ => show win12_0.index t (0 : Fin 2) * 1024 + 1 * p.val = (t.val % 8 * 1024 + p.val) % 8192; omega
    | ⟨1, _⟩ => show win12_0.index t (1 : Fin 2) * 1024 + 1 * q.val = (t.val / 8 * 1024 + q.val) % 8192; omega
  have h1 : ((cfg12.win 1).blk t).view.emb (ix2 p (0 : Fin 1)) = ix2 (fin8192_12 (t.val % 8 * 1024 + p.val)) (0 : Fin 1) := by
    funext a; apply Fin.ext
    match a with
    | ⟨0, _⟩ => show win12_1.index t (0 : Fin 2) * 1024 + 1 * p.val = (t.val % 8 * 1024 + p.val) % 8192; omega
    | ⟨1, _⟩ => show win12_1.index t (1 : Fin 2) * 1 + 1 * 0 = 0; omega
  have g0 : (iblk12 V c 0 t (ix2 p q) : EReal) = (V c main_v0 : S8192x8192.Idx → EReal) (ix2 (fin8192_12 (t.val % 8 * 1024 + p.val)) (fin8192_12 (t.val / 8 * 1024 + q.val))) := by
    show (V c main_v0 : S8192x8192.Idx → EReal) (((cfg12.win 0).blk t).view.emb (ix2 p q)) = _
    rw [h0]
  have g1 : (iblk12 V c 1 t (ix2 p (0 : Fin 1)) : EReal) = (V c main_v13 : S8192x1.Idx → EReal) (ix2 (fin8192_12 (t.val % 8 * 1024 + p.val)) (0 : Fin 1)) := by
    show (V c main_v13 : S8192x1.Idx → EReal) (((cfg12.win 1).blk t).view.emb (ix2 p (0 : Fin 1))) = _
    rw [h1]
  exact congrArg₂ (· * ·) g0 g1

set_option maxHeartbeats 1000000 in
/-- The accumulator after a first row block's point, at a lane: that block's sum. -/
theorem acc12_at_first (hpay1 : ∀ q : Fin 1024, k12_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k12_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg12.N) (h0 : t.val % 8 = 0) :
    (accAt12 V c t.val t.isLt (ix2 (0 : Fin 1) q) : EReal) = ∑ i ∈ Finset.range (t.val % 8 + 1), bsum_12 (V c main_v0 : S8192x8192.Idx → EReal) (V c main_v13 : S8192x1.Idx → EReal) (t.val / 8) i q := by
  refine (congrFun (accAt12_first V c t h0) (ix2 (0 : Fin 1) q)).trans ?_
  refine (hpay2 _ _ _ q).trans ?_
  rw [hpay1, zero_add]
  refine (blk12 V c t q).trans ?_
  rw [h0, zero_add, Finset.sum_range_one]

set_option maxHeartbeats 1000000 in
/-- The accumulator after a later row block's point, at a lane: what the point before left plus this block's sum. -/
theorem acc12_at_next (hpay1 : ∀ q : Fin 1024, k12_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k12_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg12.N) (h0 : ¬ t.val % 8 = 0) (hlt : t.val - 1 < cfg12.N)
    (ih : (accAt12 V c (t.val - 1) hlt (ix2 (0 : Fin 1) q) : EReal) = ∑ i ∈ Finset.range ((t.val - 1) % 8 + 1), bsum_12 (V c main_v0 : S8192x8192.Idx → EReal) (V c main_v13 : S8192x1.Idx → EReal) ((t.val - 1) / 8) i q) :
    (accAt12 V c t.val t.isLt (ix2 (0 : Fin 1) q) : EReal) = ∑ i ∈ Finset.range (t.val % 8 + 1), bsum_12 (V c main_v0 : S8192x8192.Idx → EReal) (V c main_v13 : S8192x1.Idx → EReal) (t.val / 8) i q := by
  refine (congrFun (accAt12_next V c t h0) (ix2 (0 : Fin 1) q)).trans ?_
  refine (hpay2 _ _ _ q).trans ?_
  refine (congrArg₂ (· + ·) ih (blk12 V c t q)).trans ?_
  have e1 : (t.val - 1) / 8 = t.val / 8 := by omega
  have e2 : (t.val - 1) % 8 + 1 = t.val % 8 := by omega
  rw [e1, e2]
  exact (Finset.sum_range_succ (fun i => bsum_12 (V c main_v0 : S8192x8192.Idx → EReal) (V c main_v13 : S8192x1.Idx → EReal) (t.val / 8) i q) (t.val % 8)).symm

set_option maxHeartbeats 1000000 in
/-- The accumulator after a point, at a lane: the block sums of the point's column block over the row blocks so far. -/
theorem acc12_range (hpay1 : ∀ q : Fin 1024, k12_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k12_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg12.N), t.val = n →
    (accAt12 V c t.val t.isLt (ix2 (0 : Fin 1) q) : EReal) = ∑ i ∈ Finset.range (t.val % 8 + 1), bsum_12 (V c main_v0 : S8192x8192.Idx → EReal) (V c main_v13 : S8192x1.Idx → EReal) (t.val / 8) i q := by
  intro n
  induction n with
  | zero =>
    intro t ht
    exact acc12_at_first V hpay1 hpay2 c q t (by rw [ht])
  | succ n ih =>
    intro t ht
    by_cases h0 : t.val % 8 = 0
    · exact acc12_at_first V hpay1 hpay2 c q t h0
    · have hlt : t.val - 1 < cfg12.N := Nat.lt_of_le_of_lt (Nat.sub_le _ _) t.isLt
      exact acc12_at_next V hpay1 hpay2 c q t h0 hlt (ih ⟨t.val - 1, hlt⟩ (by show t.val - 1 = n; omega))

/-- The eight block sums of a column block are the column's whole sum. -/
theorem bsum_all_12 (Karr : S8192x8192.Idx → EReal) (u : S8192x1.Idx → EReal) (j : ℕ) (q : Fin 1024) (C : Fin 8192) (hC : C.val = j * 1024 + q.val) :
    ∑ i ∈ Finset.range 8, bsum_12 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_12 Karr u j i q) 8]
  refine Finset.sum_congr rfl fun i _ => Finset.sum_congr rfl fun p _ => ?_
  have hlt : i.val * 1024 + p.val < 8192 := by have := i.isLt; have := p.isLt; omega
  have eC : fin8192_12 (j * 1024 + q.val) = C := Fin.ext (by show (j * 1024 + q.val) % 8192 = C.val; have := C.isLt; omega)
  show Karr (ix2 (fin8192_12 (i.val * 1024 + p.val)) (fin8192_12 (j * 1024 + q.val))) * u (ix2 (fin8192_12 (i.val * 1024 + p.val)) (0 : Fin 1)) = _
  rw [fin8192_of_lt_12 _ hlt, eC]

set_option maxHeartbeats 1000000 in
theorem flushed12 (hpay1 : ∀ q : Fin 1024, k12_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k12_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k12_pay3 (F := Ideal) a (ix2 (0 : Fin 1) q) = Ideal.div Spec.wgt (a (ix2 (0 : Fin 1) q) + Spec.stab))
    (c : Dev nD) (t : Fin cfg12.N) (hf : (cfg12.win 2).flush t = true) :
    (dat12 V c).flushed 2 t = ((cfg12.win 2).blk t).view.read (Elt Ideal) (G.Gv (V c main_v0) (V c main_v13)) := by
  have h7 : t.val % 8 = 7 := (flush12_2 t).mp hf
  show (cfg12.win 2).cut (grid12.coords t) ((dat12 V c).after 2 t) = _
  rw [after12_2]
  funext jx
  obtain ⟨z, q, rfl⟩ : ∃ (z : Fin 1) (q : Fin 1024), jx = ix2 z q := ⟨jx 0, jx 1, eq_ix2 jx⟩
  obtain rfl : z = 0 := Subsingleton.elim _ _
  show k12_pay3 (F := Ideal) (accAt12 V c t.val t.isLt) (ix2 (0 : Fin 1) q) = G.Gv (V c main_v0) (V c main_v13) (((cfg12.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts12 t
  refine (acc12_range V hpay1 hpay2 c q t.val t rfl).trans ?_
  rw [h7]
  refine bsum_all_12 _ _ (t.val / 8) q _ ?_
  show win12_2.index t (1 : Fin 2) * 1024 + 1 * q.val = t.val / 8 * 1024 + q.val
  omega

theorem mem_blk12 (t : Fin cfg12.N) (i : S1x8192.Idx) :
    i ∈ ((cfg12.win 2).blk t).view.set ↔ ∀ a : Fin 2, win12_2.index t a * S1x1024.size a ≤ (i a).val ∧ (i a).val < win12_2.index t a * S1x1024.size a + S1x1024.size a := by
  show i ∈ ((View.whole main_v14).slice (win12_2.rect t)).set ↔ _
  rw [View.set_slice_whole, Rect.mem_set_unit]
  exact Iff.rfl

theorem cover12 (i : S1x8192.Idx) : ∃ t : Fin cfg12.N, (cfg12.win 2).flush t = true ∧ i ∈ ((cfg12.win 2).blk t).view.set := by
  have hi0 : (i 0).val < 1 := (i 0).isLt
  have hi1 : (i 1).val < 8192 := (i 1).isLt
  have hN : (i 1).val / 1024 * 8 + 7 < cfg12.N := by rw [show cfg12.N = 64 from N_12]; omega
  refine ⟨⟨(i 1).val / 1024 * 8 + 7, hN⟩, (flush12_2 _).mpr (by show ((i 1).val / 1024 * 8 + 7) % 8 = 7; omega), ?_⟩
  rw [mem_blk12]
  obtain ⟨e0, e1, e2, e3, e4, e5⟩ := idx_facts12 ⟨(i 1).val / 1024 * 8 + 7, hN⟩
  intro a
  match a with
  | ⟨0, _⟩ => show win12_2.index _ (0 : Fin 2) * 1 ≤ (i 0).val ∧ (i 0).val < win12_2.index _ (0 : Fin 2) * 1 + 1; rw [e4]; omega
  | ⟨1, _⟩ => show win12_2.index _ (1 : Fin 2) * 1024 ≤ (i 1).val ∧ (i 1).val < win12_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr12 (hpay1 : ∀ q : Fin 1024, k12_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k12_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k12_pay3 (F := Ideal) a (ix2 (0 : Fin 1) q) = Ideal.div Spec.wgt (a (ix2 (0 : Fin 1) q) + Spec.stab))
    (c : Dev nD) : (dat12 V c).arrAt 2 cfg12.N = G.Gv (V c main_v0) (V c main_v13) :=
  (dat12 V c).arrAt_eq_of_cover 2 _ (fun t hf => flushed12 V hpay1 hpay2 hpay3 c t hf) cover12

end Cert.KernelIdeal.Val

end
-- ==== Proof.KI.V13.lean ====
/- Region 13's output array, whole: the row-scalings update w / (K·v + δ) of the matrix and the row of column scalings it read. -/
import proofs.«111645_j15006615733809_2_alg».proof.Proof.KI.R13
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV13 : (![0, 0] : Fin 2 → Nat) = fun _ => 0 := funext fun a => by fin_cases a <;> rfl

/-! ## Region 13: its output array is the row-scalings update of the matrix and the row it read. -/

theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

theorem flushed13 (hpay : ∀ (x0 : Vec Ideal S1024x8192 .bf16) (x1 : Vec Ideal S1x8192 .f32) (p : Fin 1024),
      k13_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg13.N) :
    (dat13 V c).flushed 2 t = ((cfg13.win 2).blk t).view.read (Elt Ideal) (G.Gu (V c main_v0) (V c main_v14)) := by
  show (cfg13.win 2).cut (grid13.coords t) ((dat13 V c).after 2 t) = _
  rw [after13_2]
  unfold out13_2
  rw [View.canon_unit_zero hzV13]
  simp only [View.ld_unit_zero (S := S1024x8192) hzV13, View.ld_unit_zero (S := S1x8192) hzV13]
  funext j
  obtain ⟨p, q, rfl⟩ : ∃ (p : Fin 1024) (q : Fin 1), j = ix2 p q := ⟨j 0, j 1, eq_ix2 j⟩
  obtain rfl : q = 0 := Subsingleton.elim _ _
  show k13_pay1 (F := Ideal) (iblk13 V c 0 t) (iblk13 V c 1 t) (ix2 p (0 : Fin 1)) = G.Gu (V c main_v0) (V c main_v14) (((cfg13.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts13 t
  have h0 : ((cfg13.win 0).blk t).view.emb (ix2 p k) = ix2 (⟨(((cfg13.win 2).blk t).view.emb (ix2 p (0 : Fin 1)) 0).val, (((cfg13.win 2).blk t).view.emb (ix2 p (0 : Fin 1)) 0).isLt⟩ : Fin 8192) k := by
    funext a; apply Fin.ext
    match a with
    | ⟨0, _⟩ => show win13_0.index t (0 : Fin 2) * 1024 + 1 * p.val = win13_2.index t (0 : Fin 2) * 1024 + 1 * p.val; omega
    | ⟨1, _⟩ => show win13_0.index t (1 : Fin 2) * 8192 + 1 * k.val = k.val; omega
  have h1 : ((cfg13.win 1).blk t).view.emb (ix2 (0 : Fin 1) k) = ix2 (0 : Fin 1) k := by
    funext a; apply Fin.ext
    match a with
    | ⟨0, _⟩ => show win13_1.index t (0 : Fin 2) * 1 + 1 * 0 = 0; omega
    | ⟨1, _⟩ => show win13_1.index t (1 : Fin 2) * 8192 + 1 * k.val = k.val; omega
  have g0 : (iblk13 V c 0 t (ix2 p k) : EReal) = (V c main_v0 : S8192x8192.Idx → EReal) (ix2 (⟨(((cfg13.win 2).blk t).view.emb (ix2 p (0 : Fin 1)) 0).val, (((cfg13.win 2).blk t).view.emb (ix2 p (0 : Fin 1)) 0).isLt⟩ : Fin 8192) k) := by
    show (V c main_v0 : S8192x8192.Idx → EReal) (((cfg13.win 0).blk t).view.emb (ix2 p k)) = _
    rw [h0]
  have g1 : (iblk13 V c 1 t (ix2 (0 : Fin 1) k) : EReal) = (V c main_v14 : S1x8192.Idx → EReal) (ix2 (0 : Fin 1) k) := by
    show (V c main_v14 : S1x8192.Idx → EReal) (((cfg13.win 1).blk t).view.emb (ix2 (0 : Fin 1) k)) = _
    rw [h1]
  exact congrArg₂ (· * ·) g0 g1

theorem mem_blk13 (t : Fin cfg13.N) (i : S8192x1.Idx) :
    i ∈ ((cfg13.win 2).blk t).view.set ↔ ∀ a : Fin 2, win13_2.index t a * S1024x1.size a ≤ (i a).val ∧ (i a).val < win13_2.index t a * S1024x1.size a + S1024x1.size a := by
  show i ∈ ((View.whole main_v15).slice (win13_2.rect t)).set ↔ _
  rw [View.set_slice_whole, Rect.mem_set_unit]
  exact Iff.rfl

theorem cover13 (i : S8192x1.Idx) : ∃ t : Fin cfg13.N, (cfg13.win 2).flush t = true ∧ i ∈ ((cfg13.win 2).blk t).view.set := by
  have hi0 : (i 0).val < 8192 := (i 0).isLt
  have hi1 : (i 1).val < 1 := (i 1).isLt
  refine ⟨⟨(i 0).val / 1024, by rw [show cfg13.N = 8 from N_13]; omega⟩, flush13_2 _, ?_⟩
  rw [mem_blk13]
  obtain ⟨e0, e1, e2, e3, e4, e5⟩ := idx_facts13 ⟨(i 0).val / 1024, by rw [show cfg13.N = 8 from N_13]; omega⟩
  intro a
  match a with
  | ⟨0, _⟩ => show win13_2.index _ (0 : Fin 2) * 1024 ≤ (i 0).val ∧ (i 0).val < win13_2.index _ (0 : Fin 2) * 1024 + 1024; rw [e4]; show (i 0).val / 1024 * 1024 ≤ (i 0).val ∧ (i 0).val < (i 0).val / 1024 * 1024 + 1024; omega
  | ⟨1, _⟩ => show win13_2.index _ (1 : Fin 2) * 1 ≤ (i 1).val ∧ (i 1).val < win13_2.index _ (1 : Fin 2) * 1 + 1; rw [e5]; omega

/-- After the region the output array is the row-scalings update, whole. -/
theorem arr13 (hpay : ∀ (x0 : Vec Ideal S1024x8192 .bf16) (x1 : Vec Ideal S1x8192 .f32) (p : Fin 1024),
      k13_pay1 (F := Ideal) x0 x1 (ix2 p (0 : Fin 1)) = Ideal.div Spec.wgt ((∑ k : Fin 8192, x0 (ix2 p k) * x1 (ix2 (0 : Fin 1) k)) + Spec.stab))
    (c : Dev nD) : (dat13 V c).arrAt 2 cfg13.N = G.Gu (V c main_v0) (V c main_v14) :=
  (dat13 V c).arrAt_eq_of_cover 2 _ (fun t _ => flushed13 V hpay c t) cover13

end Cert.KernelIdeal.Val

end
-- ==== Proof.KI.V14.lean ====
/- Region 14's output array, whole: the column-scalings update w / (Kᵀ·u + δ), as a row, of the matrix and the column of row scalings it read; the accumulator's eight block sums are the sum over all 8192 rows. -/
import proofs.«111645_j15006615733809_2_alg».proof.Proof.KI.R14
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz14 : (![0, 0] : Fin 2 → Nat) = fun _ => 0 := funext fun a => by fin_cases a <;> rfl

theorem idx_facts14 : ∀ t : Fin cfg14.N, win14_0.index t (0 : Fin 2) = t.val % 8 ∧ win14_0.index t (1 : Fin 2) = t.val / 8
    ∧ win14_1.index t (0 : Fin 2) = t.val % 8 ∧ win14_1.index t (1 : Fin 2) = 0
    ∧ win14_2.index t (0 : Fin 2) = 0 ∧ win14_2.index t (1 : Fin 2) = t.val / 8 :=
  (by decide +kernel : ∀ t : Fin grid14.N, _)

/-- A natural number as a row or column number (the numbers met are below 8192). -/
def fin8192_14 (n : ℕ) : Fin 8192 := ⟨n % 8192, Nat.mod_lt _ (by decide)⟩

theorem fin8192_of_lt_14 (n : ℕ) (h : n < 8192) : fin8192_14 n = ⟨n, h⟩ := Fin.ext (Nat.mod_eq_of_lt h)

/-- The product met at row n, column m; and the sum of the products of row block i (1024 rows), column block j, lane q. -/
def gterm_14 (Karr : S8192x8192.Idx → EReal) (u : S8192x1.Idx → EReal) (n m : ℕ) : EReal :=
  Karr (ix2 (fin8192_14 n) (fin8192_14 m)) * u (ix2 (fin8192_14 n) (0 : Fin 1))
def bsum_14 (Karr : S8192x8192.Idx → EReal) (u : S8192x1.Idx → EReal) (j i : ℕ) (q : Fin 1024) : EReal :=
  ∑ p : Fin 1024, gterm_14 Karr u (i * 1024 + p.val) (j * 1024 + q.val)

/-- A point's tile times its row weights, summed down a lane, is the block sum of the point's row and column blocks. -/
def lane14 (x0 : Vec Ideal S1024x1024 .bf16) (x1 : Vec Ideal S1024x1 .f32) (q : Fin 1024) : EReal :=
  ∑ p : Fin 1024, x0 (ix2 p q) * x1 (ix2 p (0 : Fin 1))

theorem blk14 (c : Dev nD) (t : Fin cfg14.N) (q : Fin 1024) :
    lane14 (iblk14 V c 0 t) (iblk14 V c 1 t) q = bsum_14 (V c main_v0 : S8192x8192.Idx → EReal) (V c main_v15 : S8192x1.Idx → EReal) (t.val / 8) (t.val % 8) q := by
  unfold lane14
  obtain ⟨e0, e1, e2, e3, e4, e5⟩ := idx_facts14 t
  have hN : t.val < 64 := lt_of_lt_of_eq t.isLt (show cfg14.N = 64 from N_14)
  refine Finset.sum_congr rfl fun p _ => ?_
  have h0 : ((cfg14.win 0).blk t).view.emb (ix2 p q) = ix2 (fin8192_14 (t.val % 8 * 1024 + p.val)) (fin8192_14 (t.val / 8 * 1024 + q.val)) := by
    funext a; apply Fin.ext
    match a with
    | ⟨0, _⟩ => show win14_0.index t (0 : Fin 2) * 1024 + 1 * p.val = (t.val % 8 * 1024 + p.val) % 8192; omega
    | ⟨1, _⟩ => show win14_0.index t (1 : Fin 2) * 1024 + 1 * q.val = (t.val / 8 * 1024 + q.val) % 8192; omega
  have h1 : ((cfg14.win 1).blk t).view.emb (ix2 p (0 : Fin 1)) = ix2 (fin8192_14 (t.val % 8 * 1024 + p.val)) (0 : Fin 1) := by
    funext a; apply Fin.ext
    match a with
    | ⟨0, _⟩ => show win14_1.index t (0 : Fin 2) * 1024 + 1 * p.val = (t.val % 8 * 1024 + p.val) % 8192; omega
    | ⟨1, _⟩ => show win14_1.index t (1 : Fin 2) * 1 + 1 * 0 = 0; omega
  have g0 : (iblk14 V c 0 t (ix2 p q) : EReal) = (V c main_v0 : S8192x8192.Idx → EReal) (ix2 (fin8192_14 (t.val % 8 * 1024 + p.val)) (fin8192_14 (t.val / 8 * 1024 + q.val))) := by
    show (V c main_v0 : S8192x8192.Idx → EReal) (((cfg14.win 0).blk t).view.emb (ix2 p q)) = _
    rw [h0]
  have g1 : (iblk14 V c 1 t (ix2 p (0 : Fin 1)) : EReal) = (V c main_v15 : S8192x1.Idx → EReal) (ix2 (fin8192_14 (t.val % 8 * 1024 + p.val)) (0 : Fin 1)) := by
    show (V c main_v15 : S8192x1.Idx → EReal) (((cfg14.win 1).blk t).view.emb (ix2 p (0 : Fin 1))) = _
    rw [h1]
  exact congrArg₂ (· * ·) g0 g1

set_option maxHeartbeats 1000000 in
/-- The accumulator after a first row block's point, at a lane: that block's sum. -/
theorem acc14_at_first (hpay1 : ∀ q : Fin 1024, k14_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k14_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg14.N) (h0 : t.val % 8 = 0) :
    (accAt14 V c t.val t.isLt (ix2 (0 : Fin 1) q) : EReal) = ∑ i ∈ Finset.range (t.val % 8 + 1), bsum_14 (V c main_v0 : S8192x8192.Idx → EReal) (V c main_v15 : S8192x1.Idx → EReal) (t.val / 8) i q := by
  refine (congrFun (accAt14_first V c t h0) (ix2 (0 : Fin 1) q)).trans ?_
  refine (hpay2 _ _ _ q).trans ?_
  rw [hpay1, zero_add]
  refine (blk14 V c t q).trans ?_
  rw [h0, zero_add, Finset.sum_range_one]

set_option maxHeartbeats 1000000 in
/-- The accumulator after a later row block's point, at a lane: what the point before left plus this block's sum. -/
theorem acc14_at_next (hpay1 : ∀ q : Fin 1024, k14_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k14_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg14.N) (h0 : ¬ t.val % 8 = 0) (hlt : t.val - 1 < cfg14.N)
    (ih : (accAt14 V c (t.val - 1) hlt (ix2 (0 : Fin 1) q) : EReal) = ∑ i ∈ Finset.range ((t.val - 1) % 8 + 1), bsum_14 (V c main_v0 : S8192x8192.Idx → EReal) (V c main_v15 : S8192x1.Idx → EReal) ((t.val - 1) / 8) i q) :
    (accAt14 V c t.val t.isLt (ix2 (0 : Fin 1) q) : EReal) = ∑ i ∈ Finset.range (t.val % 8 + 1), bsum_14 (V c main_v0 : S8192x8192.Idx → EReal) (V c main_v15 : S8192x1.Idx → EReal) (t.val / 8) i q := by
  refine (congrFun (accAt14_next V c t h0) (ix2 (0 : Fin 1) q)).trans ?_
  refine (hpay2 _ _ _ q).trans ?_
  refine (congrArg₂ (· + ·) ih (blk14 V c t q)).trans ?_
  have e1 : (t.val - 1) / 8 = t.val / 8 := by omega
  have e2 : (t.val - 1) % 8 + 1 = t.val % 8 := by omega
  rw [e1, e2]
  exact (Finset.sum_range_succ (fun i => bsum_14 (V c main_v0 : S8192x8192.Idx → EReal) (V c main_v15 : S8192x1.Idx → EReal) (t.val / 8) i q) (t.val % 8)).symm

set_option maxHeartbeats 1000000 in
/-- The accumulator after a point, at a lane: the block sums of the point's column block over the row blocks so far. -/
theorem acc14_range (hpay1 : ∀ q : Fin 1024, k14_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k14_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg14.N), t.val = n →
    (accAt14 V c t.val t.isLt (ix2 (0 : Fin 1) q) : EReal) = ∑ i ∈ Finset.range (t.val % 8 + 1), bsum_14 (V c main_v0 : S8192x8192.Idx → EReal) (V c main_v15 : S8192x1.Idx → EReal) (t.val / 8) i q := by
  intro n
  induction n with
  | zero =>
    intro t ht
    exact acc14_at_first V hpay1 hpay2 c q t (by rw [ht])
  | succ n ih =>
    intro t ht
    by_cases h0 : t.val % 8 = 0
    · exact acc14_at_first V hpay1 hpay2 c q t h0
    · have hlt : t.val - 1 < cfg14.N := Nat.lt_of_le_of_lt (Nat.sub_le _ _) t.isLt
      exact acc14_at_next V hpay1 hpay2 c q t h0 hlt (ih ⟨t.val - 1, hlt⟩ (by show t.val - 1 = n; omega))

/-- The eight block sums of a column block are the column's whole sum. -/
theorem bsum_all_14 (Karr : S8192x8192.Idx → EReal) (u : S8192x1.Idx → EReal) (j : ℕ) (q : Fin 1024) (C : Fin 8192) (hC : C.val = j * 1024 + q.val) :
    ∑ i ∈ Finset.range 8, bsum_14 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_14 Karr u j i q) 8]
  refine Finset.sum_congr rfl fun i _ => Finset.sum_congr rfl fun p _ => ?_
  have hlt : i.val * 1024 + p.val < 8192 := by have := i.isLt; have := p.isLt; omega
  have eC : fin8192_14 (j * 1024 + q.val) = C := Fin.ext (by show (j * 1024 + q.val) % 8192 = C.val; have := C.isLt; omega)
  show Karr (ix2 (fin8192_14 (i.val * 1024 + p.val)) (fin8192_14 (j * 1024 + q.val))) * u (ix2 (fin8192_14 (i.val * 1024 + p.val)) (0 : Fin 1)) = _
  rw [fin8192_of_lt_14 _ hlt, eC]

set_option maxHeartbeats 1000000 in
theorem flushed14 (hpay1 : ∀ q : Fin 1024, k14_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k14_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k14_pay3 (F := Ideal) a (ix2 (0 : Fin 1) q) = Ideal.div Spec.wgt (a (ix2 (0 : Fin 1) q) + Spec.stab))
    (c : Dev nD) (t : Fin cfg14.N) (hf : (cfg14.win 2).flush t = true) :
    (dat14 V c).flushed 2 t = ((cfg14.win 2).blk t).view.read (Elt Ideal) (G.Gv (V c main_v0) (V c main_v15)) := by
  have h7 : t.val % 8 = 7 := (flush14_2 t).mp hf
  show (cfg14.win 2).cut (grid14.coords t) ((dat14 V c).after 2 t) = _
  rw [after14_2]
  funext jx
  obtain ⟨z, q, rfl⟩ : ∃ (z : Fin 1) (q : Fin 1024), jx = ix2 z q := ⟨jx 0, jx 1, eq_ix2 jx⟩
  obtain rfl : z = 0 := Subsingleton.elim _ _
  show k14_pay3 (F := Ideal) (accAt14 V c t.val t.isLt) (ix2 (0 : Fin 1) q) = G.Gv (V c main_v0) (V c main_v15) (((cfg14.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts14 t
  refine (acc14_range V hpay1 hpay2 c q t.val t rfl).trans ?_
  rw [h7]
  refine bsum_all_14 _ _ (t.val / 8) q _ ?_
  show win14_2.index t (1 : Fin 2) * 1024 + 1 * q.val = t.val / 8 * 1024 + q.val
  omega

theorem mem_blk14 (t : Fin cfg14.N) (i : S1x8192.Idx) :
    i ∈ ((cfg14.win 2).blk t).view.set ↔ ∀ a : Fin 2, win14_2.index t a * S1x1024.size a ≤ (i a).val ∧ (i a).val < win14_2.index t a * S1x1024.size a + S1x1024.size a := by
  show i ∈ ((View.whole main_v16).slice (win14_2.rect t)).set ↔ _
  rw [View.set_slice_whole, Rect.mem_set_unit]
  exact Iff.rfl

theorem cover14 (i : S1x8192.Idx) : ∃ t : Fin cfg14.N, (cfg14.win 2).flush t = true ∧ i ∈ ((cfg14.win 2).blk t).view.set := by
  have hi0 : (i 0).val < 1 := (i 0).isLt
  have hi1 : (i 1).val < 8192 := (i 1).isLt
  have hN : (i 1).val / 1024 * 8 + 7 < cfg14.N := by rw [show cfg14.N = 64 from N_14]; omega
  refine ⟨⟨(i 1).val / 1024 * 8 + 7, hN⟩, (flush14_2 _).mpr (by show ((i 1).val / 1024 * 8 + 7) % 8 = 7; omega), ?_⟩
  rw [mem_blk14]
  obtain ⟨e0, e1, e2, e3, e4, e5⟩ := idx_facts14 ⟨(i 1).val / 1024 * 8 + 7, hN⟩
  intro a
  match a with
  | ⟨0, _⟩ => show win14_2.index _ (0 : Fin 2) * 1 ≤ (i 0).val ∧ (i 0).val < win14_2.index _ (0 : Fin 2) * 1 + 1; rw [e4]; omega
  | ⟨1, _⟩ => show win14_2.index _ (1 : Fin 2) * 1024 ≤ (i 1).val ∧ (i 1).val < win14_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr14 (hpay1 : ∀ q : Fin 1024, k14_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k14_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k14_pay3 (F := Ideal) a (ix2 (0 : Fin 1) q) = Ideal.div Spec.wgt (a (ix2 (0 : Fin 1) q) + Spec.stab))
    (c : Dev nD) : (dat14 V c).arrAt 2 cfg14.N = G.Gv (V c main_v0) (V c main_v15) :=
  (dat14 V c).arrAt_eq_of_cover 2 _ (fun t hf => flushed14 V hpay1 hpay2 hpay3 c t hf) cover14

end Cert.KernelIdeal.Val

end
-- ==== Proof.KI.V15.lean ====
/- Region 15's output array, whole: the row-scalings update w / (K·v + δ) of the matrix and the row of column scalings it read. -/
import proofs.«111645_j15006615733809_2_alg».proof.Proof.KI.R15
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV15 : (![0, 0] : Fin 2 → Nat) = fun _ => 0 := funext fun a => by fin_cases a <;> rfl

/-! ## Region 15: its output array is the row-scalings update of the matrix and the row it read. -/

theorem idx_facts15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

theorem flushed15 (hpay : ∀ (x0 : Vec Ideal S1024x8192 .bf16) (x1 : Vec Ideal S1x8192 .f32) (p : Fin 1024),
      k15_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg15.N) :
    (dat15 V c).flushed 2 t = ((cfg15.win 2).blk t).view.read (Elt Ideal) (G.Gu (V c main_v0) (V c main_v16)) := by
  show (cfg15.win 2).cut (grid15.coords t) ((dat15 V c).after 2 t) = _
  rw [after15_2]
  unfold out15_2
  rw [View.canon_unit_zero hzV15]
  simp only [View.ld_unit_zero (S := S1024x8192) hzV15, View.ld_unit_zero (S := S1x8192) hzV15]
  funext j
  obtain ⟨p, q, rfl⟩ : ∃ (p : Fin 1024) (q : Fin 1), j = ix2 p q := ⟨j 0, j 1, eq_ix2 j⟩
  obtain rfl : q = 0 := Subsingleton.elim _ _
  show k15_pay1 (F := Ideal) (iblk15 V c 0 t) (iblk15 V c 1 t) (ix2 p (0 : Fin 1)) = G.Gu (V c main_v0) (V c main_v16) (((cfg15.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts15 t
  have h0 : ((cfg15.win 0).blk t).view.emb (ix2 p k) = ix2 (⟨(((cfg15.win 2).blk t).view.emb (ix2 p (0 : Fin 1)) 0).val, (((cfg15.win 2).blk t).view.emb (ix2 p (0 : Fin 1)) 0).isLt⟩ : Fin 8192) k := by
    funext a; apply Fin.ext
    match a with
    | ⟨0, _⟩ => show win15_0.index t (0 : Fin 2) * 1024 + 1 * p.val = win15_2.index t (0 : Fin 2) * 1024 + 1 * p.val; omega
    | ⟨1, _⟩ => show win15_0.index t (1 : Fin 2) * 8192 + 1 * k.val = k.val; omega
  have h1 : ((cfg15.win 1).blk t).view.emb (ix2 (0 : Fin 1) k) = ix2 (0 : Fin 1) k := by
    funext a; apply Fin.ext
    match a with
    | ⟨0, _⟩ => show win15_1.index t (0 : Fin 2) * 1 + 1 * 0 = 0; omega
    | ⟨1, _⟩ => show win15_1.index t (1 : Fin 2) * 8192 + 1 * k.val = k.val; omega
  have g0 : (iblk15 V c 0 t (ix2 p k) : EReal) = (V c main_v0 : S8192x8192.Idx → EReal) (ix2 (⟨(((cfg15.win 2).blk t).view.emb (ix2 p (0 : Fin 1)) 0).val, (((cfg15.win 2).blk t).view.emb (ix2 p (0 : Fin 1)) 0).isLt⟩ : Fin 8192) k) := by
    show (V c main_v0 : S8192x8192.Idx → EReal) (((cfg15.win 0).blk t).view.emb (ix2 p k)) = _
    rw [h0]
  have g1 : (iblk15 V c 1 t (ix2 (0 : Fin 1) k) : EReal) = (V c main_v16 : S1x8192.Idx → EReal) (ix2 (0 : Fin 1) k) := by
    show (V c main_v16 : S1x8192.Idx → EReal) (((cfg15.win 1).blk t).view.emb (ix2 (0 : Fin 1) k)) = _
    rw [h1]
  exact congrArg₂ (· * ·) g0 g1

theorem mem_blk15 (t : Fin cfg15.N) (i : S8192x1.Idx) :
    i ∈ ((cfg15.win 2).blk t).view.set ↔ ∀ a : Fin 2, win15_2.index t a * S1024x1.size a ≤ (i a).val ∧ (i a).val < win15_2.index t a * S1024x1.size a + S1024x1.size a := by
  show i ∈ ((View.whole main_v17).slice (win15_2.rect t)).set ↔ _
  rw [View.set_slice_whole, Rect.mem_set_unit]
  exact Iff.rfl

theorem cover15 (i : S8192x1.Idx) : ∃ t : Fin cfg15.N, (cfg15.win 2).flush t = true ∧ i ∈ ((cfg15.win 2).blk t).view.set := by
  have hi0 : (i 0).val < 8192 := (i 0).isLt
  have hi1 : (i 1).val < 1 := (i 1).isLt
  refine ⟨⟨(i 0).val / 1024, by rw [show cfg15.N = 8 from N_15]; omega⟩, flush15_2 _, ?_⟩
  rw [mem_blk15]
  obtain ⟨e0, e1, e2, e3, e4, e5⟩ := idx_facts15 ⟨(i 0).val / 1024, by rw [show cfg15.N = 8 from N_15]; omega⟩
  intro a
  match a with
  | ⟨0, _⟩ => show win15_2.index _ (0 : Fin 2) * 1024 ≤ (i 0).val ∧ (i 0).val < win15_2.index _ (0 : Fin 2) * 1024 + 1024; rw [e4]; show (i 0).val / 1024 * 1024 ≤ (i 0).val ∧ (i 0).val < (i 0).val / 1024 * 1024 + 1024; omega
  | ⟨1, _⟩ => show win15_2.index _ (1 : Fin 2) * 1 ≤ (i 1).val ∧ (i 1).val < win15_2.index _ (1 : Fin 2) * 1 + 1; rw [e5]; omega

/-- After the region the output array is the row-scalings update, whole. -/
theorem arr15 (hpay : ∀ (x0 : Vec Ideal S1024x8192 .bf16) (x1 : Vec Ideal S1x8192 .f32) (p : Fin 1024),
      k15_pay1 (F := Ideal) x0 x1 (ix2 p (0 : Fin 1)) = Ideal.div Spec.wgt ((∑ k : Fin 8192, x0 (ix2 p k) * x1 (ix2 (0 : Fin 1) k)) + Spec.stab))
    (c : Dev nD) : (dat15 V c).arrAt 2 cfg15.N = G.Gu (V c main_v0) (V c main_v16) :=
  (dat15 V c).arrAt_eq_of_cover 2 _ (fun t _ => flushed15 V hpay c t) cover15

end Cert.KernelIdeal.Val

end
-- ==== Proof.KI.V16.lean ====
/- Region 16's output array, whole: the column-scalings update w / (Kᵀ·u + δ), as a row, of the matrix and the column of row scalings it read; the accumulator's eight block sums are the sum over all 8192 rows. -/
import proofs.«111645_j15006615733809_2_alg».proof.Proof.KI.R16
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz16 : (![0, 0] : Fin 2 → Nat) = fun _ => 0 := funext fun a => by fin_cases a <;> rfl

theorem idx_facts16 : ∀ t : Fin cfg16.N, win16_0.index t (0 : Fin 2) = t.val % 8 ∧ win16_0.index t (1 : Fin 2) = t.val / 8
    ∧ win16_1.index t (0 : Fin 2) = t.val % 8 ∧ win16_1.index t (1 : Fin 2) = 0
    ∧ win16_2.index t (0 : Fin 2) = 0 ∧ win16_2.index t (1 : Fin 2) = t.val / 8 :=
  (by decide +kernel : ∀ t : Fin grid16.N, _)

/-- A natural number as a row or column number (the numbers met are below 8192). -/
def fin8192_16 (n : ℕ) : Fin 8192 := ⟨n % 8192, Nat.mod_lt _ (by decide)⟩

theorem fin8192_of_lt_16 (n : ℕ) (h : n < 8192) : fin8192_16 n = ⟨n, h⟩ := Fin.ext (Nat.mod_eq_of_lt h)

/-- The product met at row n, column m; and the sum of the products of row block i (1024 rows), column block j, lane q. -/
def gterm_16 (Karr : S8192x8192.Idx → EReal) (u : S8192x1.Idx → EReal) (n m : ℕ) : EReal :=
  Karr (ix2 (fin8192_16 n) (fin8192_16 m)) * u (ix2 (fin8192_16 n) (0 : Fin 1))
def bsum_16 (Karr : S8192x8192.Idx → EReal) (u : S8192x1.Idx → EReal) (j i : ℕ) (q : Fin 1024) : EReal :=
  ∑ p : Fin 1024, gterm_16 Karr u (i * 1024 + p.val) (j * 1024 + q.val)

/-- A point's tile times its row weights, summed down a lane, is the block sum of the point's row and column blocks. -/
def lane16 (x0 : Vec Ideal S1024x1024 .bf16) (x1 : Vec Ideal S1024x1 .f32) (q : Fin 1024) : EReal :=
  ∑ p : Fin 1024, x0 (ix2 p q) * x1 (ix2 p (0 : Fin 1))

theorem blk16 (c : Dev nD) (t : Fin cfg16.N) (q : Fin 1024) :
    lane16 (iblk16 V c 0 t) (iblk16 V c 1 t) q = bsum_16 (V c main_v0 : S8192x8192.Idx → EReal) (V c main_v17 : S8192x1.Idx → EReal) (t.val / 8) (t.val % 8) q := by
  unfold lane16
  obtain ⟨e0, e1, e2, e3, e4, e5⟩ := idx_facts16 t
  have hN : t.val < 64 := lt_of_lt_of_eq t.isLt (show cfg16.N = 64 from N_16)
  refine Finset.sum_congr rfl fun p _ => ?_
  have h0 : ((cfg16.win 0).blk t).view.emb (ix2 p q) = ix2 (fin8192_16 (t.val % 8 * 1024 + p.val)) (fin8192_16 (t.val / 8 * 1024 + q.val)) := by
    funext a; apply Fin.ext
    match a with
    | ⟨0, _⟩ => show win16_0.index t (0 : Fin 2) * 1024 + 1 * p.val = (t.val % 8 * 1024 + p.val) % 8192; omega
    | ⟨1, _⟩ => show win16_0.index t (1 : Fin 2) * 1024 + 1 * q.val = (t.val / 8 * 1024 + q.val) % 8192; omega
  have h1 : ((cfg16.win 1).blk t).view.emb (ix2 p (0 : Fin 1)) = ix2 (fin8192_16 (t.val % 8 * 1024 + p.val)) (0 : Fin 1) := by
    funext a; apply Fin.ext
    match a with
    | ⟨0, _⟩ => show win16_1.index t (0 : Fin 2) * 1024 + 1 * p.val = (t.val % 8 * 1024 + p.val) % 8192; omega
    | ⟨1, _⟩ => show win16_1.index t (1 : Fin 2) * 1 + 1 * 0 = 0; omega
  have g0 : (iblk16 V c 0 t (ix2 p q) : EReal) = (V c main_v0 : S8192x8192.Idx → EReal) (ix2 (fin8192_16 (t.val % 8 * 1024 + p.val)) (fin8192_16 (t.val / 8 * 1024 + q.val))) := by
    show (V c main_v0 : S8192x8192.Idx → EReal) (((cfg16.win 0).blk t).view.emb (ix2 p q)) = _
    rw [h0]
  have g1 : (iblk16 V c 1 t (ix2 p (0 : Fin 1)) : EReal) = (V c main_v17 : S8192x1.Idx → EReal) (ix2 (fin8192_16 (t.val % 8 * 1024 + p.val)) (0 : Fin 1)) := by
    show (V c main_v17 : S8192x1.Idx → EReal) (((cfg16.win 1).blk t).view.emb (ix2 p (0 : Fin 1))) = _
    rw [h1]
  exact congrArg₂ (· * ·) g0 g1

set_option maxHeartbeats 1000000 in
/-- The accumulator after a first row block's point, at a lane: that block's sum. -/
theorem acc16_at_first (hpay1 : ∀ q : Fin 1024, k16_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k16_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg16.N) (h0 : t.val % 8 = 0) :
    (accAt16 V c t.val t.isLt (ix2 (0 : Fin 1) q) : EReal) = ∑ i ∈ Finset.range (t.val % 8 + 1), bsum_16 (V c main_v0 : S8192x8192.Idx → EReal) (V c main_v17 : S8192x1.Idx → EReal) (t.val / 8) i q := by
  refine (congrFun (accAt16_first V c t h0) (ix2 (0 : Fin 1) q)).trans ?_
  refine (hpay2 _ _ _ q).trans ?_
  rw [hpay1, zero_add]
  refine (blk16 V c t q).trans ?_
  rw [h0, zero_add, Finset.sum_range_one]

set_option maxHeartbeats 1000000 in
/-- The accumulator after a later row block's point, at a lane: what the point before left plus this block's sum. -/
theorem acc16_at_next (hpay1 : ∀ q : Fin 1024, k16_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k16_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg16.N) (h0 : ¬ t.val % 8 = 0) (hlt : t.val - 1 < cfg16.N)
    (ih : (accAt16 V c (t.val - 1) hlt (ix2 (0 : Fin 1) q) : EReal) = ∑ i ∈ Finset.range ((t.val - 1) % 8 + 1), bsum_16 (V c main_v0 : S8192x8192.Idx → EReal) (V c main_v17 : S8192x1.Idx → EReal) ((t.val - 1) / 8) i q) :
    (accAt16 V c t.val t.isLt (ix2 (0 : Fin 1) q) : EReal) = ∑ i ∈ Finset.range (t.val % 8 + 1), bsum_16 (V c main_v0 : S8192x8192.Idx → EReal) (V c main_v17 : S8192x1.Idx → EReal) (t.val / 8) i q := by
  refine (congrFun (accAt16_next V c t h0) (ix2 (0 : Fin 1) q)).trans ?_
  refine (hpay2 _ _ _ q).trans ?_
  refine (congrArg₂ (· + ·) ih (blk16 V c t q)).trans ?_
  have e1 : (t.val - 1) / 8 = t.val / 8 := by omega
  have e2 : (t.val - 1) % 8 + 1 = t.val % 8 := by omega
  rw [e1, e2]
  exact (Finset.sum_range_succ (fun i => bsum_16 (V c main_v0 : S8192x8192.Idx → EReal) (V c main_v17 : S8192x1.Idx → EReal) (t.val / 8) i q) (t.val % 8)).symm

set_option maxHeartbeats 1000000 in
/-- The accumulator after a point, at a lane: the block sums of the point's column block over the row blocks so far. -/
theorem acc16_range (hpay1 : ∀ q : Fin 1024, k16_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k16_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg16.N), t.val = n →
    (accAt16 V c t.val t.isLt (ix2 (0 : Fin 1) q) : EReal) = ∑ i ∈ Finset.range (t.val % 8 + 1), bsum_16 (V c main_v0 : S8192x8192.Idx → EReal) (V c main_v17 : S8192x1.Idx → EReal) (t.val / 8) i q := by
  intro n
  induction n with
  | zero =>
    intro t ht
    exact acc16_at_first V hpay1 hpay2 c q t (by rw [ht])
  | succ n ih =>
    intro t ht
    by_cases h0 : t.val % 8 = 0
    · exact acc16_at_first V hpay1 hpay2 c q t h0
    · have hlt : t.val - 1 < cfg16.N := Nat.lt_of_le_of_lt (Nat.sub_le _ _) t.isLt
      exact acc16_at_next V hpay1 hpay2 c q t h0 hlt (ih ⟨t.val - 1, hlt⟩ (by show t.val - 1 = n; omega))

/-- The eight block sums of a column block are the column's whole sum. -/
theorem bsum_all_16 (Karr : S8192x8192.Idx → EReal) (u : S8192x1.Idx → EReal) (j : ℕ) (q : Fin 1024) (C : Fin 8192) (hC : C.val = j * 1024 + q.val) :
    ∑ i ∈ Finset.range 8, bsum_16 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_16 Karr u j i q) 8]
  refine Finset.sum_congr rfl fun i _ => Finset.sum_congr rfl fun p _ => ?_
  have hlt : i.val * 1024 + p.val < 8192 := by have := i.isLt; have := p.isLt; omega
  have eC : fin8192_16 (j * 1024 + q.val) = C := Fin.ext (by show (j * 1024 + q.val) % 8192 = C.val; have := C.isLt; omega)
  show Karr (ix2 (fin8192_16 (i.val * 1024 + p.val)) (fin8192_16 (j * 1024 + q.val))) * u (ix2 (fin8192_16 (i.val * 1024 + p.val)) (0 : Fin 1)) = _
  rw [fin8192_of_lt_16 _ hlt, eC]

set_option maxHeartbeats 1000000 in
theorem flushed16 (hpay1 : ∀ q : Fin 1024, k16_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k16_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k16_pay3 (F := Ideal) a (ix2 (0 : Fin 1) q) = Ideal.div Spec.wgt (a (ix2 (0 : Fin 1) q) + Spec.stab))
    (c : Dev nD) (t : Fin cfg16.N) (hf : (cfg16.win 2).flush t = true) :
    (dat16 V c).flushed 2 t = ((cfg16.win 2).blk t).view.read (Elt Ideal) (G.Gv (V c main_v0) (V c main_v17)) := by
  have h7 : t.val % 8 = 7 := (flush16_2 t).mp hf
  show (cfg16.win 2).cut (grid16.coords t) ((dat16 V c).after 2 t) = _
  rw [after16_2]
  funext jx
  obtain ⟨z, q, rfl⟩ : ∃ (z : Fin 1) (q : Fin 1024), jx = ix2 z q := ⟨jx 0, jx 1, eq_ix2 jx⟩
  obtain rfl : z = 0 := Subsingleton.elim _ _
  show k16_pay3 (F := Ideal) (accAt16 V c t.val t.isLt) (ix2 (0 : Fin 1) q) = G.Gv (V c main_v0) (V c main_v17) (((cfg16.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts16 t
  refine (acc16_range V hpay1 hpay2 c q t.val t rfl).trans ?_
  rw [h7]
  refine bsum_all_16 _ _ (t.val / 8) q _ ?_
  show win16_2.index t (1 : Fin 2) * 1024 + 1 * q.val = t.val / 8 * 1024 + q.val
  omega

theorem mem_blk16 (t : Fin cfg16.N) (i : S1x8192.Idx) :
    i ∈ ((cfg16.win 2).blk t).view.set ↔ ∀ a : Fin 2, win16_2.index t a * S1x1024.size a ≤ (i a).val ∧ (i a).val < win16_2.index t a * S1x1024.size a + S1x1024.size a := by
  show i ∈ ((View.whole main_v18).slice (win16_2.rect t)).set ↔ _
  rw [View.set_slice_whole, Rect.mem_set_unit]
  exact Iff.rfl

theorem cover16 (i : S1x8192.Idx) : ∃ t : Fin cfg16.N, (cfg16.win 2).flush t = true ∧ i ∈ ((cfg16.win 2).blk t).view.set := by
  have hi0 : (i 0).val < 1 := (i 0).isLt
  have hi1 : (i 1).val < 8192 := (i 1).isLt
  have hN : (i 1).val / 1024 * 8 + 7 < cfg16.N := by rw [show cfg16.N = 64 from N_16]; omega
  refine ⟨⟨(i 1).val / 1024 * 8 + 7, hN⟩, (flush16_2 _).mpr (by show ((i 1).val / 1024 * 8 + 7) % 8 = 7; omega), ?_⟩
  rw [mem_blk16]
  obtain ⟨e0, e1, e2, e3, e4, e5⟩ := idx_facts16 ⟨(i 1).val / 1024 * 8 + 7, hN⟩
  intro a
  match a with
  | ⟨0, _⟩ => show win16_2.index _ (0 : Fin 2) * 1 ≤ (i 0).val ∧ (i 0).val < win16_2.index _ (0 : Fin 2) * 1 + 1; rw [e4]; omega
  | ⟨1, _⟩ => show win16_2.index _ (1 : Fin 2) * 1024 ≤ (i 1).val ∧ (i 1).val < win16_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr16 (hpay1 : ∀ q : Fin 1024, k16_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k16_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k16_pay3 (F := Ideal) a (ix2 (0 : Fin 1) q) = Ideal.div Spec.wgt (a (ix2 (0 : Fin 1) q) + Spec.stab))
    (c : Dev nD) : (dat16 V c).arrAt 2 cfg16.N = G.Gv (V c main_v0) (V c main_v17) :=
  (dat16 V c).arrAt_eq_of_cover 2 _ (fun t hf => flushed16 V hpay1 hpay2 hpay3 c t hf) cover16

end Cert.KernelIdeal.Val

end
-- ==== Proof.KI.V17.lean ====
/- Region 17's output array, whole: the row-scalings update w / (K·v + δ) of the matrix and the row of column scalings it read. -/
import proofs.«111645_j15006615733809_2_alg».proof.Proof.KI.R17
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV17 : (![0, 0] : Fin 2 → Nat) = fun _ => 0 := funext fun a => by fin_cases a <;> rfl

/-! ## Region 17: its output array is the row-scalings update of the matrix and the row it read. -/

theorem idx_facts17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

theorem flushed17 (hpay : ∀ (x0 : Vec Ideal S1024x8192 .bf16) (x1 : Vec Ideal S1x8192 .f32) (p : Fin 1024),
      k17_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg17.N) :
    (dat17 V c).flushed 2 t = ((cfg17.win 2).blk t).view.read (Elt Ideal) (G.Gu (V c main_v0) (V c main_v18)) := by
  show (cfg17.win 2).cut (grid17.coords t) ((dat17 V c).after 2 t) = _
  rw [after17_2]
  unfold out17_2
  rw [View.canon_unit_zero hzV17]
  simp only [View.ld_unit_zero (S := S1024x8192) hzV17, View.ld_unit_zero (S := S1x8192) hzV17]
  funext j
  obtain ⟨p, q, rfl⟩ : ∃ (p : Fin 1024) (q : Fin 1), j = ix2 p q := ⟨j 0, j 1, eq_ix2 j⟩
  obtain rfl : q = 0 := Subsingleton.elim _ _
  show k17_pay1 (F := Ideal) (iblk17 V c 0 t) (iblk17 V c 1 t) (ix2 p (0 : Fin 1)) = G.Gu (V c main_v0) (V c main_v18) (((cfg17.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts17 t
  have h0 : ((cfg17.win 0).blk t).view.emb (ix2 p k) = ix2 (⟨(((cfg17.win 2).blk t).view.emb (ix2 p (0 : Fin 1)) 0).val, (((cfg17.win 2).blk t).view.emb (ix2 p (0 : Fin 1)) 0).isLt⟩ : Fin 8192) k := by
    funext a; apply Fin.ext
    match a with
    | ⟨0, _⟩ => show win17_0.index t (0 : Fin 2) * 1024 + 1 * p.val = win17_2.index t (0 : Fin 2) * 1024 + 1 * p.val; omega
    | ⟨1, _⟩ => show win17_0.index t (1 : Fin 2) * 8192 + 1 * k.val = k.val; omega
  have h1 : ((cfg17.win 1).blk t).view.emb (ix2 (0 : Fin 1) k) = ix2 (0 : Fin 1) k := by
    funext a; apply Fin.ext
    match a with
    | ⟨0, _⟩ => show win17_1.index t (0 : Fin 2) * 1 + 1 * 0 = 0; omega
    | ⟨1, _⟩ => show win17_1.index t (1 : Fin 2) * 8192 + 1 * k.val = k.val; omega
  have g0 : (iblk17 V c 0 t (ix2 p k) : EReal) = (V c main_v0 : S8192x8192.Idx → EReal) (ix2 (⟨(((cfg17.win 2).blk t).view.emb (ix2 p (0 : Fin 1)) 0).val, (((cfg17.win 2).blk t).view.emb (ix2 p (0 : Fin 1)) 0).isLt⟩ : Fin 8192) k) := by
    show (V c main_v0 : S8192x8192.Idx → EReal) (((cfg17.win 0).blk t).view.emb (ix2 p k)) = _
    rw [h0]
  have g1 : (iblk17 V c 1 t (ix2 (0 : Fin 1) k) : EReal) = (V c main_v18 : S1x8192.Idx → EReal) (ix2 (0 : Fin 1) k) := by
    show (V c main_v18 : S1x8192.Idx → EReal) (((cfg17.win 1).blk t).view.emb (ix2 (0 : Fin 1) k)) = _
    rw [h1]
  exact congrArg₂ (· * ·) g0 g1

theorem mem_blk17 (t : Fin cfg17.N) (i : S8192x1.Idx) :
    i ∈ ((cfg17.win 2).blk t).view.set ↔ ∀ a : Fin 2, win17_2.index t a * S1024x1.size a ≤ (i a).val ∧ (i a).val < win17_2.index t a * S1024x1.size a + S1024x1.size a := by
  show i ∈ ((View.whole main_v19).slice (win17_2.rect t)).set ↔ _
  rw [View.set_slice_whole, Rect.mem_set_unit]
  exact Iff.rfl

theorem cover17 (i : S8192x1.Idx) : ∃ t : Fin cfg17.N, (cfg17.win 2).flush t = true ∧ i ∈ ((cfg17.win 2).blk t).view.set := by
  have hi0 : (i 0).val < 8192 := (i 0).isLt
  have hi1 : (i 1).val < 1 := (i 1).isLt
  refine ⟨⟨(i 0).val / 1024, by rw [show cfg17.N = 8 from N_17]; omega⟩, flush17_2 _, ?_⟩
  rw [mem_blk17]
  obtain ⟨e0, e1, e2, e3, e4, e5⟩ := idx_facts17 ⟨(i 0).val / 1024, by rw [show cfg17.N = 8 from N_17]; omega⟩
  intro a
  match a with
  | ⟨0, _⟩ => show win17_2.index _ (0 : Fin 2) * 1024 ≤ (i 0).val ∧ (i 0).val < win17_2.index _ (0 : Fin 2) * 1024 + 1024; rw [e4]; show (i 0).val / 1024 * 1024 ≤ (i 0).val ∧ (i 0).val < (i 0).val / 1024 * 1024 + 1024; omega
  | ⟨1, _⟩ => show win17_2.index _ (1 : Fin 2) * 1 ≤ (i 1).val ∧ (i 1).val < win17_2.index _ (1 : Fin 2) * 1 + 1; rw [e5]; omega

/-- After the region the output array is the row-scalings update, whole. -/
theorem arr17 (hpay : ∀ (x0 : Vec Ideal S1024x8192 .bf16) (x1 : Vec Ideal S1x8192 .f32) (p : Fin 1024),
      k17_pay1 (F := Ideal) x0 x1 (ix2 p (0 : Fin 1)) = Ideal.div Spec.wgt ((∑ k : Fin 8192, x0 (ix2 p k) * x1 (ix2 (0 : Fin 1) k)) + Spec.stab))
    (c : Dev nD) : (dat17 V c).arrAt 2 cfg17.N = G.Gu (V c main_v0) (V c main_v18) :=
  (dat17 V c).arrAt_eq_of_cover 2 _ (fun t _ => flushed17 V hpay c t) cover17

end Cert.KernelIdeal.Val

end
-- ==== Proof.KI.V18.lean ====
/- Region 18's output array, whole: the column-scalings update w / (Kᵀ·u + δ), as a row, of the matrix and the column of row scalings it read; the accumulator's eight block sums are the sum over all 8192 rows. -/
import proofs.«111645_j15006615733809_2_alg».proof.Proof.KI.R18
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz18 : (![0, 0] : Fin 2 → Nat) = fun _ => 0 := funext fun a => by fin_cases a <;> rfl

theorem idx_facts18 : ∀ t : Fin cfg18.N, win18_0.index t (0 : Fin 2) = t.val % 8 ∧ win18_0.index t (1 : Fin 2) = t.val / 8
    ∧ win18_1.index t (0 : Fin 2) = t.val % 8 ∧ win18_1.index t (1 : Fin 2) = 0
    ∧ win18_2.index t (0 : Fin 2) = 0 ∧ win18_2.index t (1 : Fin 2) = t.val / 8 :=
  (by decide +kernel : ∀ t : Fin grid18.N, _)

/-- A natural number as a row or column number (the numbers met are below 8192). -/
def fin8192_18 (n : ℕ) : Fin 8192 := ⟨n % 8192, Nat.mod_lt _ (by decide)⟩

theorem fin8192_of_lt_18 (n : ℕ) (h : n < 8192) : fin8192_18 n = ⟨n, h⟩ := Fin.ext (Nat.mod_eq_of_lt h)

/-- The product met at row n, column m; and the sum of the products of row block i (1024 rows), column block j, lane q. -/
def gterm_18 (Karr : S8192x8192.Idx → EReal) (u : S8192x1.Idx → EReal) (n m : ℕ) : EReal :=
  Karr (ix2 (fin8192_18 n) (fin8192_18 m)) * u (ix2 (fin8192_18 n) (0 : Fin 1))
def bsum_18 (Karr : S8192x8192.Idx → EReal) (u : S8192x1.Idx → EReal) (j i : ℕ) (q : Fin 1024) : EReal :=
  ∑ p : Fin 1024, gterm_18 Karr u (i * 1024 + p.val) (j * 1024 + q.val)

/-- A point's tile times its row weights, summed down a lane, is the block sum of the point's row and column blocks. -/
def lane18 (x0 : Vec Ideal S1024x1024 .bf16) (x1 : Vec Ideal S1024x1 .f32) (q : Fin 1024) : EReal :=
  ∑ p : Fin 1024, x0 (ix2 p q) * x1 (ix2 p (0 : Fin 1))

theorem blk18 (c : Dev nD) (t : Fin cfg18.N) (q : Fin 1024) :
    lane18 (iblk18 V c 0 t) (iblk18 V c 1 t) q = bsum_18 (V c main_v0 : S8192x8192.Idx → EReal) (V c main_v19 : S8192x1.Idx → EReal) (t.val / 8) (t.val % 8) q := by
  unfold lane18
  obtain ⟨e0, e1, e2, e3, e4, e5⟩ := idx_facts18 t
  have hN : t.val < 64 := lt_of_lt_of_eq t.isLt (show cfg18.N = 64 from N_18)
  refine Finset.sum_congr rfl fun p _ => ?_
  have h0 : ((cfg18.win 0).blk t).view.emb (ix2 p q) = ix2 (fin8192_18 (t.val % 8 * 1024 + p.val)) (fin8192_18 (t.val / 8 * 1024 + q.val)) := by
    funext a; apply Fin.ext
    match a with
    | ⟨0, _⟩ => show win18_0.index t (0 : Fin 2) * 1024 + 1 * p.val = (t.val % 8 * 1024 + p.val) % 8192; omega
    | ⟨1, _⟩ => show win18_0.index t (1 : Fin 2) * 1024 + 1 * q.val = (t.val / 8 * 1024 + q.val) % 8192; omega
  have h1 : ((cfg18.win 1).blk t).view.emb (ix2 p (0 : Fin 1)) = ix2 (fin8192_18 (t.val % 8 * 1024 + p.val)) (0 : Fin 1) := by
    funext a; apply Fin.ext
    match a with
    | ⟨0, _⟩ => show win18_1.index t (0 : Fin 2) * 1024 + 1 * p.val = (t.val % 8 * 1024 + p.val) % 8192; omega
    | ⟨1, _⟩ => show win18_1.index t (1 : Fin 2) * 1 + 1 * 0 = 0; omega
  have g0 : (iblk18 V c 0 t (ix2 p q) : EReal) = (V c main_v0 : S8192x8192.Idx → EReal) (ix2 (fin8192_18 (t.val % 8 * 1024 + p.val)) (fin8192_18 (t.val / 8 * 1024 + q.val))) := by
    show (V c main_v0 : S8192x8192.Idx → EReal) (((cfg18.win 0).blk t).view.emb (ix2 p q)) = _
    rw [h0]
  have g1 : (iblk18 V c 1 t (ix2 p (0 : Fin 1)) : EReal) = (V c main_v19 : S8192x1.Idx → EReal) (ix2 (fin8192_18 (t.val % 8 * 1024 + p.val)) (0 : Fin 1)) := by
    show (V c main_v19 : S8192x1.Idx → EReal) (((cfg18.win 1).blk t).view.emb (ix2 p (0 : Fin 1))) = _
    rw [h1]
  exact congrArg₂ (· * ·) g0 g1

set_option maxHeartbeats 1000000 in
/-- The accumulator after a first row block's point, at a lane: that block's sum. -/
theorem acc18_at_first (hpay1 : ∀ q : Fin 1024, k18_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k18_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg18.N) (h0 : t.val % 8 = 0) :
    (accAt18 V c t.val t.isLt (ix2 (0 : Fin 1) q) : EReal) = ∑ i ∈ Finset.range (t.val % 8 + 1), bsum_18 (V c main_v0 : S8192x8192.Idx → EReal) (V c main_v19 : S8192x1.Idx → EReal) (t.val / 8) i q := by
  refine (congrFun (accAt18_first V c t h0) (ix2 (0 : Fin 1) q)).trans ?_
  refine (hpay2 _ _ _ q).trans ?_
  rw [hpay1, zero_add]
  refine (blk18 V c t q).trans ?_
  rw [h0, zero_add, Finset.sum_range_one]

set_option maxHeartbeats 1000000 in
/-- The accumulator after a later row block's point, at a lane: what the point before left plus this block's sum. -/
theorem acc18_at_next (hpay1 : ∀ q : Fin 1024, k18_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k18_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg18.N) (h0 : ¬ t.val % 8 = 0) (hlt : t.val - 1 < cfg18.N)
    (ih : (accAt18 V c (t.val - 1) hlt (ix2 (0 : Fin 1) q) : EReal) = ∑ i ∈ Finset.range ((t.val - 1) % 8 + 1), bsum_18 (V c main_v0 : S8192x8192.Idx → EReal) (V c main_v19 : S8192x1.Idx → EReal) ((t.val - 1) / 8) i q) :
    (accAt18 V c t.val t.isLt (ix2 (0 : Fin 1) q) : EReal) = ∑ i ∈ Finset.range (t.val % 8 + 1), bsum_18 (V c main_v0 : S8192x8192.Idx → EReal) (V c main_v19 : S8192x1.Idx → EReal) (t.val / 8) i q := by
  refine (congrFun (accAt18_next V c t h0) (ix2 (0 : Fin 1) q)).trans ?_
  refine (hpay2 _ _ _ q).trans ?_
  refine (congrArg₂ (· + ·) ih (blk18 V c t q)).trans ?_
  have e1 : (t.val - 1) / 8 = t.val / 8 := by omega
  have e2 : (t.val - 1) % 8 + 1 = t.val % 8 := by omega
  rw [e1, e2]
  exact (Finset.sum_range_succ (fun i => bsum_18 (V c main_v0 : S8192x8192.Idx → EReal) (V c main_v19 : S8192x1.Idx → EReal) (t.val / 8) i q) (t.val % 8)).symm

set_option maxHeartbeats 1000000 in
/-- The accumulator after a point, at a lane: the block sums of the point's column block over the row blocks so far. -/
theorem acc18_range (hpay1 : ∀ q : Fin 1024, k18_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k18_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg18.N), t.val = n →
    (accAt18 V c t.val t.isLt (ix2 (0 : Fin 1) q) : EReal) = ∑ i ∈ Finset.range (t.val % 8 + 1), bsum_18 (V c main_v0 : S8192x8192.Idx → EReal) (V c main_v19 : S8192x1.Idx → EReal) (t.val / 8) i q := by
  intro n
  induction n with
  | zero =>
    intro t ht
    exact acc18_at_first V hpay1 hpay2 c q t (by rw [ht])
  | succ n ih =>
    intro t ht
    by_cases h0 : t.val % 8 = 0
    · exact acc18_at_first V hpay1 hpay2 c q t h0
    · have hlt : t.val - 1 < cfg18.N := Nat.lt_of_le_of_lt (Nat.sub_le _ _) t.isLt
      exact acc18_at_next V hpay1 hpay2 c q t h0 hlt (ih ⟨t.val - 1, hlt⟩ (by show t.val - 1 = n; omega))

/-- The eight block sums of a column block are the column's whole sum. -/
theorem bsum_all_18 (Karr : S8192x8192.Idx → EReal) (u : S8192x1.Idx → EReal) (j : ℕ) (q : Fin 1024) (C : Fin 8192) (hC : C.val = j * 1024 + q.val) :
    ∑ i ∈ Finset.range 8, bsum_18 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_18 Karr u j i q) 8]
  refine Finset.sum_congr rfl fun i _ => Finset.sum_congr rfl fun p _ => ?_
  have hlt : i.val * 1024 + p.val < 8192 := by have := i.isLt; have := p.isLt; omega
  have eC : fin8192_18 (j * 1024 + q.val) = C := Fin.ext (by show (j * 1024 + q.val) % 8192 = C.val; have := C.isLt; omega)
  show Karr (ix2 (fin8192_18 (i.val * 1024 + p.val)) (fin8192_18 (j * 1024 + q.val))) * u (ix2 (fin8192_18 (i.val * 1024 + p.val)) (0 : Fin 1)) = _
  rw [fin8192_of_lt_18 _ hlt, eC]

set_option maxHeartbeats 1000000 in
theorem flushed18 (hpay1 : ∀ q : Fin 1024, k18_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k18_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k18_pay3 (F := Ideal) a (ix2 (0 : Fin 1) q) = Ideal.div Spec.wgt (a (ix2 (0 : Fin 1) q) + Spec.stab))
    (c : Dev nD) (t : Fin cfg18.N) (hf : (cfg18.win 2).flush t = true) :
    (dat18 V c).flushed 2 t = ((cfg18.win 2).blk t).view.read (Elt Ideal) (G.Gv (V c main_v0) (V c main_v19)) := by
  have h7 : t.val % 8 = 7 := (flush18_2 t).mp hf
  show (cfg18.win 2).cut (grid18.coords t) ((dat18 V c).after 2 t) = _
  rw [after18_2]
  funext jx
  obtain ⟨z, q, rfl⟩ : ∃ (z : Fin 1) (q : Fin 1024), jx = ix2 z q := ⟨jx 0, jx 1, eq_ix2 jx⟩
  obtain rfl : z = 0 := Subsingleton.elim _ _
  show k18_pay3 (F := Ideal) (accAt18 V c t.val t.isLt) (ix2 (0 : Fin 1) q) = G.Gv (V c main_v0) (V c main_v19) (((cfg18.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts18 t
  refine (acc18_range V hpay1 hpay2 c q t.val t rfl).trans ?_
  rw [h7]
  refine bsum_all_18 _ _ (t.val / 8) q _ ?_
  show win18_2.index t (1 : Fin 2) * 1024 + 1 * q.val = t.val / 8 * 1024 + q.val
  omega

theorem mem_blk18 (t : Fin cfg18.N) (i : S1x8192.Idx) :
    i ∈ ((cfg18.win 2).blk t).view.set ↔ ∀ a : Fin 2, win18_2.index t a * S1x1024.size a ≤ (i a).val ∧ (i a).val < win18_2.index t a * S1x1024.size a + S1x1024.size a := by
  show i ∈ ((View.whole main_v20).slice (win18_2.rect t)).set ↔ _
  rw [View.set_slice_whole, Rect.mem_set_unit]
  exact Iff.rfl

theorem cover18 (i : S1x8192.Idx) : ∃ t : Fin cfg18.N, (cfg18.win 2).flush t = true ∧ i ∈ ((cfg18.win 2).blk t).view.set := by
  have hi0 : (i 0).val < 1 := (i 0).isLt
  have hi1 : (i 1).val < 8192 := (i 1).isLt
  have hN : (i 1).val / 1024 * 8 + 7 < cfg18.N := by rw [show cfg18.N = 64 from N_18]; omega
  refine ⟨⟨(i 1).val / 1024 * 8 + 7, hN⟩, (flush18_2 _).mpr (by show ((i 1).val / 1024 * 8 + 7) % 8 = 7; omega), ?_⟩
  rw [mem_blk18]
  obtain ⟨e0, e1, e2, e3, e4, e5⟩ := idx_facts18 ⟨(i 1).val / 1024 * 8 + 7, hN⟩
  intro a
  match a with
  | ⟨0, _⟩ => show win18_2.index _ (0 : Fin 2) * 1 ≤ (i 0).val ∧ (i 0).val < win18_2.index _ (0 : Fin 2) * 1 + 1; rw [e4]; omega
  | ⟨1, _⟩ => show win18_2.index _ (1 : Fin 2) * 1024 ≤ (i 1).val ∧ (i 1).val < win18_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr18 (hpay1 : ∀ q : Fin 1024, k18_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k18_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k18_pay3 (F := Ideal) a (ix2 (0 : Fin 1) q) = Ideal.div Spec.wgt (a (ix2 (0 : Fin 1) q) + Spec.stab))
    (c : Dev nD) : (dat18 V c).arrAt 2 cfg18.N = G.Gv (V c main_v0) (V c main_v19) :=
  (dat18 V c).arrAt_eq_of_cover 2 _ (fun t hf => flushed18 V hpay1 hpay2 hpay3 c t hf) cover18

end Cert.KernelIdeal.Val

end
-- ==== Proof.KI.V19.lean ====
/- Region 19's output array, whole: the row-scalings update w / (K·v + δ) of the matrix and the row of column scalings it read. -/
import proofs.«111645_j15006615733809_2_alg».proof.Proof.KI.R19
import proofs.«111645_j15006615733809_2_alg».proof.Proof.Spec
import proofs.«111645_j15006615733809_2_alg».proof.Proof.G
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
theorem hzV19 : (![0, 0] : Fin 2 → Nat) = fun _ => 0 := funext fun a => by fin_cases a <;> rfl

/-! ## Region 19: its output array is the row-scalings update of the matrix and the row it read. -/

theorem idx_facts19 : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0 :=
  (by decide +kernel : ∀ t : Fin grid19.N, _)

theorem flushed19 (hpay : ∀ (x0 : Vec Ideal S1024x8192 .bf16) (x1 : Vec Ideal S1x8192 .f32) (p : Fin 1024),
      k19_pay1 (F := Ideal) x0 x1 (ix2 p (0 : Fin 1)) = Ideal.div Spec.wgt ((∑ k : Fin 8192, x0 (ix2 p k) * x1 (ix2 (0 : Fin 1) k)) + Spec.stab))
    (c : Dev nD) (t : Fin cfg19.N) :
    (dat19 V c).flushed 2 t = ((cfg19.win 2).blk t).view.read (Elt Ideal) (G.Gu (V c main_v0) (V c main_v20)) := by
  show (cfg19.win 2).cut (grid19.coords t) ((dat19 V c).after 2 t) = _
  rw [after19_2]
  unfold out19_2
  rw [View.canon_unit_zero hzV19]
  simp only [View.ld_unit_zero (S := S1024x8192) hzV19, View.ld_unit_zero (S := S1x8192) hzV19]
  funext j
  obtain ⟨p, q, rfl⟩ : ∃ (p : Fin 1024) (q : Fin 1), j = ix2 p q := ⟨j 0, j 1, eq_ix2 j⟩
  obtain rfl : q = 0 := Subsingleton.elim _ _
  show k19_pay1 (F := Ideal) (iblk19 V c 0 t) (iblk19 V c 1 t) (ix2 p (0 : Fin 1)) = G.Gu (V c main_v0) (V c main_v20) (((cfg19.win 2).blk t).view.emb (ix2 p (0 : Fin 1)))
  refine (hpay _ _ p).trans ?_
  unfold G.Gu
  refine congrArg (fun x => Ideal.div Spec.wgt (x + Spec.stab)) (Finset.sum_congr rfl fun k _ => ?_)
  obtain ⟨e0, e1, e2, e3, e4, e5⟩ := idx_facts19 t
  have h0 : ((cfg19.win 0).blk t).view.emb (ix2 p k) = ix2 (⟨(((cfg19.win 2).blk t).view.emb (ix2 p (0 : Fin 1)) 0).val, (((cfg19.win 2).blk t).view.emb (ix2 p (0 : Fin 1)) 0).isLt⟩ : Fin 8192) k := by
    funext a; apply Fin.ext
    match a with
    | ⟨0, _⟩ => show win19_0.index t (0 : Fin 2) * 1024 + 1 * p.val = win19_2.index t (0 : Fin 2) * 1024 + 1 * p.val; omega
    | ⟨1, _⟩ => show win19_0.index t (1 : Fin 2) * 8192 + 1 * k.val = k.val; omega
  have h1 : ((cfg19.win 1).blk t).view.emb (ix2 (0 : Fin 1) k) = ix2 (0 : Fin 1) k := by
    funext a; apply Fin.ext
    match a with
    | ⟨0, _⟩ => show win19_1.index t (0 : Fin 2) * 1 + 1 * 0 = 0; omega
    | ⟨1, _⟩ => show win19_1.index t (1 : Fin 2) * 8192 + 1 * k.val = k.val; omega
  have g0 : (iblk19 V c 0 t (ix2 p k) : EReal) = (V c main_v0 : S8192x8192.Idx → EReal) (ix2 (⟨(((cfg19.win 2).blk t).view.emb (ix2 p (0 : Fin 1)) 0).val, (((cfg19.win 2).blk t).view.emb (ix2 p (0 : Fin 1)) 0).isLt⟩ : Fin 8192) k) := by
    show (V c main_v0 : S8192x8192.Idx → EReal) (((cfg19.win 0).blk t).view.emb (ix2 p k)) = _
    rw [h0]
  have g1 : (iblk19 V c 1 t (ix2 (0 : Fin 1) k) : EReal) = (V c main_v20 : S1x8192.Idx → EReal) (ix2 (0 : Fin 1) k) := by
    show (V c main_v20 : S1x8192.Idx → EReal) (((cfg19.win 1).blk t).view.emb (ix2 (0 : Fin 1) k)) = _
    rw [h1]
  exact congrArg₂ (· * ·) g0 g1

theorem mem_blk19 (t : Fin cfg19.N) (i : S8192x1.Idx) :
    i ∈ ((cfg19.win 2).blk t).view.set ↔ ∀ a : Fin 2, win19_2.index t a * S1024x1.size a ≤ (i a).val ∧ (i a).val < win19_2.index t a * S1024x1.size a + S1024x1.size a := by
  show i ∈ ((View.whole main_v21).slice (win19_2.rect t)).set ↔ _
  rw [View.set_slice_whole, Rect.mem_set_unit]
  exact Iff.rfl

theorem cover19 (i : S8192x1.Idx) : ∃ t : Fin cfg19.N, (cfg19.win 2).flush t = true ∧ i ∈ ((cfg19.win 2).blk t).view.set := by
  have hi0 : (i 0).val < 8192 := (i 0).isLt
  have hi1 : (i 1).val < 1 := (i 1).isLt
  refine ⟨⟨(i 0).val / 1024, by rw [show cfg19.N = 8 from N_19]; omega⟩, flush19_2 _, ?_⟩
  rw [mem_blk19]
  obtain ⟨e0, e1, e2, e3, e4, e5⟩ := idx_facts19 ⟨(i 0).val / 1024, by rw [show cfg19.N = 8 from N_19]; omega⟩
  intro a
  match a with
  | ⟨0, _⟩ => show win19_2.index _ (0 : Fin 2) * 1024 ≤ (i 0).val ∧ (i 0).val < win19_2.index _ (0 : Fin 2) * 1024 + 1024; rw [e4]; show (i 0).val / 1024 * 1024 ≤ (i 0).val ∧ (i 0).val < (i 0).val / 1024 * 1024 + 1024; omega
  | ⟨1, _⟩ => show win19_2.index _ (1 : Fin 2) * 1 ≤ (i 1).val ∧ (i 1).val < win19_2.index _ (1 : Fin 2) * 1 + 1; rw [e5]; omega

/-- After the region the output array is the row-scalings update, whole. -/
theorem arr19 (hpay : ∀ (x0 : Vec Ideal S1024x8192 .bf16) (x1 : Vec Ideal S1x8192 .f32) (p : Fin 1024),
      k19_pay1 (F := Ideal) x0 x1 (ix2 p (0 : Fin 1)) = Ideal.div Spec.wgt ((∑ k : Fin 8192, x0 (ix2 p k) * x1 (ix2 (0 : Fin 1) k)) + Spec.stab))
    (c : Dev nD) : (dat19 V c).arrAt 2 cfg19.N = G.Gu (V c main_v0) (V c main_v20) :=
  (dat19 V c).arrAt_eq_of_cover 2 _ (fun t _ => flushed19 V hpay c t) cover19

end Cert.KernelIdeal.Val

end
-- ==== Proof.KI.V20.lean ====
/- Region 20's output array, whole: the column-scalings update w / (Kᵀ·u + δ), as a row, of the matrix and the column of row scalings it read; the accumulator's eight block sums are the sum over all 8192 rows. -/
import proofs.«111645_j15006615733809_2_alg».proof.Proof.KI.R20
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem hz20 : (![0, 0] : Fin 2 → Nat) = fun _ => 0 := funext fun a => by fin_cases a <;> rfl

theorem idx_facts20 : ∀ t : Fin cfg20.N, win20_0.index t (0 : Fin 2) = t.val % 8 ∧ win20_0.index t (1 : Fin 2) = t.val / 8
    ∧ win20_1.index t (0 : Fin 2) = t.val % 8 ∧ win20_1.index t (1 : Fin 2) = 0
    ∧ win20_2.index t (0 : Fin 2) = 0 ∧ win20_2.index t (1 : Fin 2) = t.val / 8 :=
  (by decide +kernel : ∀ t : Fin grid20.N, _)

/-- A natural number as a row or column number (the numbers met are below 8192). -/
def fin8192_20 (n : ℕ) : Fin 8192 := ⟨n % 8192, Nat.mod_lt _ (by decide)⟩

theorem fin8192_of_lt_20 (n : ℕ) (h : n < 8192) : fin8192_20 n = ⟨n, h⟩ := Fin.ext (Nat.mod_eq_of_lt h)

/-- The product met at row n, column m; and the sum of the products of row block i (1024 rows), column block j, lane q. -/
def gterm_20 (Karr : S8192x8192.Idx → EReal) (u : S8192x1.Idx → EReal) (n m : ℕ) : EReal :=
  Karr (ix2 (fin8192_20 n) (fin8192_20 m)) * u (ix2 (fin8192_20 n) (0 : Fin 1))
def bsum_20 (Karr : S8192x8192.Idx → EReal) (u : S8192x1.Idx → EReal) (j i : ℕ) (q : Fin 1024) : EReal :=
  ∑ p : Fin 1024, gterm_20 Karr u (i * 1024 + p.val) (j * 1024 + q.val)

/-- A point's tile times its row weights, summed down a lane, is the block sum of the point's row and column blocks. -/
def lane20 (x0 : Vec Ideal S1024x1024 .bf16) (x1 : Vec Ideal S1024x1 .f32) (q : Fin 1024) : EReal :=
  ∑ p : Fin 1024, x0 (ix2 p q) * x1 (ix2 p (0 : Fin 1))

theorem blk20 (c : Dev nD) (t : Fin cfg20.N) (q : Fin 1024) :
    lane20 (iblk20 V c 0 t) (iblk20 V c 1 t) q = bsum_20 (V c main_v0 : S8192x8192.Idx → EReal) (V c main_v21 : S8192x1.Idx → EReal) (t.val / 8) (t.val % 8) q := by
  unfold lane20
  obtain ⟨e0, e1, e2, e3, e4, e5⟩ := idx_facts20 t
  have hN : t.val < 64 := lt_of_lt_of_eq t.isLt (show cfg20.N = 64 from N_20)
  refine Finset.sum_congr rfl fun p _ => ?_
  have h0 : ((cfg20.win 0).blk t).view.emb (ix2 p q) = ix2 (fin8192_20 (t.val % 8 * 1024 + p.val)) (fin8192_20 (t.val / 8 * 1024 + q.val)) := by
    funext a; apply Fin.ext
    match a with
    | ⟨0, _⟩ => show win20_0.index t (0 : Fin 2) * 1024 + 1 * p.val = (t.val % 8 * 1024 + p.val) % 8192; omega
    | ⟨1, _⟩ => show win20_0.index t (1 : Fin 2) * 1024 + 1 * q.val = (t.val / 8 * 1024 + q.val) % 8192; omega
  have h1 : ((cfg20.win 1).blk t).view.emb (ix2 p (0 : Fin 1)) = ix2 (fin8192_20 (t.val % 8 * 1024 + p.val)) (0 : Fin 1) := by
    funext a; apply Fin.ext
    match a with
    | ⟨0, _⟩ => show win20_1.index t (0 : Fin 2) * 1024 + 1 * p.val = (t.val % 8 * 1024 + p.val) % 8192; omega
    | ⟨1, _⟩ => show win20_1.index t (1 : Fin 2) * 1 + 1 * 0 = 0; omega
  have g0 : (iblk20 V c 0 t (ix2 p q) : EReal) = (V c main_v0 : S8192x8192.Idx → EReal) (ix2 (fin8192_20 (t.val % 8 * 1024 + p.val)) (fin8192_20 (t.val / 8 * 1024 + q.val))) := by
    show (V c main_v0 : S8192x8192.Idx → EReal) (((cfg20.win 0).blk t).view.emb (ix2 p q)) = _
    rw [h0]
  have g1 : (iblk20 V c 1 t (ix2 p (0 : Fin 1)) : EReal) = (V c main_v21 : S8192x1.Idx → EReal) (ix2 (fin8192_20 (t.val % 8 * 1024 + p.val)) (0 : Fin 1)) := by
    show (V c main_v21 : S8192x1.Idx → EReal) (((cfg20.win 1).blk t).view.emb (ix2 p (0 : Fin 1))) = _
    rw [h1]
  exact congrArg₂ (· * ·) g0 g1

set_option maxHeartbeats 1000000 in
/-- The accumulator after a first row block's point, at a lane: that block's sum. -/
theorem acc20_at_first (hpay1 : ∀ q : Fin 1024, k20_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k20_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg20.N) (h0 : t.val % 8 = 0) :
    (accAt20 V c t.val t.isLt (ix2 (0 : Fin 1) q) : EReal) = ∑ i ∈ Finset.range (t.val % 8 + 1), bsum_20 (V c main_v0 : S8192x8192.Idx → EReal) (V c main_v21 : S8192x1.Idx → EReal) (t.val / 8) i q := by
  refine (congrFun (accAt20_first V c t h0) (ix2 (0 : Fin 1) q)).trans ?_
  refine (hpay2 _ _ _ q).trans ?_
  rw [hpay1, zero_add]
  refine (blk20 V c t q).trans ?_
  rw [h0, zero_add, Finset.sum_range_one]

set_option maxHeartbeats 1000000 in
/-- The accumulator after a later row block's point, at a lane: what the point before left plus this block's sum. -/
theorem acc20_at_next (hpay1 : ∀ q : Fin 1024, k20_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k20_pay2 (F := Ideal) x0 a x1 (ix2 (0 : Fin 1) q) = a (ix2 (0 : Fin 1) q) + ∑ p : Fin 1024, x0 (ix2 p q) * x1 (ix2 p (0 : Fin 1)))
    (c : Dev nD) (q : Fin 1024) (t : Fin cfg20.N) (h0 : ¬ t.val % 8 = 0) (hlt : t.val - 1 < cfg20.N)
    (ih : (accAt20 V c (t.val - 1) hlt (ix2 (0 : Fin 1) q) : EReal) = ∑ i ∈ Finset.range ((t.val - 1) % 8 + 1), bsum_20 (V c main_v0 : S8192x8192.Idx → EReal) (V c main_v21 : S8192x1.Idx → EReal) ((t.val - 1) / 8) i q) :
    (accAt20 V c t.val t.isLt (ix2 (0 : Fin 1) q) : EReal) = ∑ i ∈ Finset.range (t.val % 8 + 1), bsum_20 (V c main_v0 : S8192x8192.Idx → EReal) (V c main_v21 : S8192x1.Idx → EReal) (t.val / 8) i q := by
  refine (congrFun (accAt20_next V c t h0) (ix2 (0 : Fin 1) q)).trans ?_
  refine (hpay2 _ _ _ q).trans ?_
  refine (congrArg₂ (· + ·) ih (blk20 V c t q)).trans ?_
  have e1 : (t.val - 1) / 8 = t.val / 8 := by omega
  have e2 : (t.val - 1) % 8 + 1 = t.val % 8 := by omega
  rw [e1, e2]
  exact (Finset.sum_range_succ (fun i => bsum_20 (V c main_v0 : S8192x8192.Idx → EReal) (V c main_v21 : S8192x1.Idx → EReal) (t.val / 8) i q) (t.val % 8)).symm

set_option maxHeartbeats 1000000 in
/-- The accumulator after a point, at a lane: the block sums of the point's column block over the row blocks so far. -/
theorem acc20_range (hpay1 : ∀ q : Fin 1024, k20_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k20_pay2 (F := Ideal) x0 a x1 (ix2 (0 : Fin 1) q) = a (ix2 (0 : Fin 1) q) + ∑ p : Fin 1024, x0 (ix2 p q) * x1 (ix2 p (0 : Fin 1)))
    (c : Dev nD) (q : Fin 1024) : ∀ (n : ℕ) (t : Fin cfg20.N), t.val = n →
    (accAt20 V c t.val t.isLt (ix2 (0 : Fin 1) q) : EReal) = ∑ i ∈ Finset.range (t.val % 8 + 1), bsum_20 (V c main_v0 : S8192x8192.Idx → EReal) (V c main_v21 : S8192x1.Idx → EReal) (t.val / 8) i q := by
  intro n
  induction n with
  | zero =>
    intro t ht
    exact acc20_at_first V hpay1 hpay2 c q t (by rw [ht])
  | succ n ih =>
    intro t ht
    by_cases h0 : t.val % 8 = 0
    · exact acc20_at_first V hpay1 hpay2 c q t h0
    · have hlt : t.val - 1 < cfg20.N := Nat.lt_of_le_of_lt (Nat.sub_le _ _) t.isLt
      exact acc20_at_next V hpay1 hpay2 c q t h0 hlt (ih ⟨t.val - 1, hlt⟩ (by show t.val - 1 = n; omega))

/-- The eight block sums of a column block are the column's whole sum. -/
theorem bsum_all_20 (Karr : S8192x8192.Idx → EReal) (u : S8192x1.Idx → EReal) (j : ℕ) (q : Fin 1024) (C : Fin 8192) (hC : C.val = j * 1024 + q.val) :
    ∑ i ∈ Finset.range 8, bsum_20 Karr u j i q = ∑ r : Fin 8192, Karr (ix2 r C) * u (ix2 r (0 : Fin 1)) := by
  have hb := Cert.LibAccBlocks.sum_eq_sum_blocks 8 1024 (fun r : Fin (8 * 1024) => Karr (ix2 (⟨r.val, r.isLt⟩ : Fin 8192) C) * u (ix2 (⟨r.val, r.isLt⟩ : Fin 8192) (0 : Fin 1)))
  refine Eq.trans ?_ hb.symm
  rw [← Fin.sum_univ_eq_sum_range (fun i => bsum_20 Karr u j i q) 8]
  refine Finset.sum_congr rfl fun i _ => Finset.sum_congr rfl fun p _ => ?_
  have hlt : i.val * 1024 + p.val < 8192 := by have := i.isLt; have := p.isLt; omega
  have eC : fin8192_20 (j * 1024 + q.val) = C := Fin.ext (by show (j * 1024 + q.val) % 8192 = C.val; have := C.isLt; omega)
  show Karr (ix2 (fin8192_20 (i.val * 1024 + p.val)) (fin8192_20 (j * 1024 + q.val))) * u (ix2 (fin8192_20 (i.val * 1024 + p.val)) (0 : Fin 1)) = _
  rw [fin8192_of_lt_20 _ hlt, eC]

set_option maxHeartbeats 1000000 in
theorem flushed20 (hpay1 : ∀ q : Fin 1024, k20_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k20_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k20_pay3 (F := Ideal) a (ix2 (0 : Fin 1) q) = Ideal.div Spec.wgt (a (ix2 (0 : Fin 1) q) + Spec.stab))
    (c : Dev nD) (t : Fin cfg20.N) (hf : (cfg20.win 2).flush t = true) :
    (dat20 V c).flushed 2 t = ((cfg20.win 2).blk t).view.read (Elt Ideal) (G.Gv (V c main_v0) (V c main_v21)) := by
  have h7 : t.val % 8 = 7 := (flush20_2 t).mp hf
  show (cfg20.win 2).cut (grid20.coords t) ((dat20 V c).after 2 t) = _
  rw [after20_2]
  funext jx
  obtain ⟨z, q, rfl⟩ : ∃ (z : Fin 1) (q : Fin 1024), jx = ix2 z q := ⟨jx 0, jx 1, eq_ix2 jx⟩
  obtain rfl : z = 0 := Subsingleton.elim _ _
  show k20_pay3 (F := Ideal) (accAt20 V c t.val t.isLt) (ix2 (0 : Fin 1) q) = G.Gv (V c main_v0) (V c main_v21) (((cfg20.win 2).blk t).view.emb (ix2 (0 : Fin 1) q))
  refine (hpay3 _ q).trans ?_
  unfold G.Gv
  refine congrArg (fun x => Ideal.div Spec.wgt (x + Spec.stab)) ?_
  obtain ⟨e0, e1, e2, e3, e4, e5⟩ := idx_facts20 t
  refine (acc20_range V hpay1 hpay2 c q t.val t rfl).trans ?_
  rw [h7]
  refine bsum_all_20 _ _ (t.val / 8) q _ ?_
  show win20_2.index t (1 : Fin 2) * 1024 + 1 * q.val = t.val / 8 * 1024 + q.val
  omega

theorem mem_blk20 (t : Fin cfg20.N) (i : S1x8192.Idx) :
    i ∈ ((cfg20.win 2).blk t).view.set ↔ ∀ a : Fin 2, win20_2.index t a * S1x1024.size a ≤ (i a).val ∧ (i a).val < win20_2.index t a * S1x1024.size a + S1x1024.size a := by
  show i ∈ ((View.whole main_v22).slice (win20_2.rect t)).set ↔ _
  rw [View.set_slice_whole, Rect.mem_set_unit]
  exact Iff.rfl

theorem cover20 (i : S1x8192.Idx) : ∃ t : Fin cfg20.N, (cfg20.win 2).flush t = true ∧ i ∈ ((cfg20.win 2).blk t).view.set := by
  have hi0 : (i 0).val < 1 := (i 0).isLt
  have hi1 : (i 1).val < 8192 := (i 1).isLt
  have hN : (i 1).val / 1024 * 8 + 7 < cfg20.N := by rw [show cfg20.N = 64 from N_20]; omega
  refine ⟨⟨(i 1).val / 1024 * 8 + 7, hN⟩, (flush20_2 _).mpr (by show ((i 1).val / 1024 * 8 + 7) % 8 = 7; omega), ?_⟩
  rw [mem_blk20]
  obtain ⟨e0, e1, e2, e3, e4, e5⟩ := idx_facts20 ⟨(i 1).val / 1024 * 8 + 7, hN⟩
  intro a
  match a with
  | ⟨0, _⟩ => show win20_2.index _ (0 : Fin 2) * 1 ≤ (i 0).val ∧ (i 0).val < win20_2.index _ (0 : Fin 2) * 1 + 1; rw [e4]; omega
  | ⟨1, _⟩ => show win20_2.index _ (1 : Fin 2) * 1024 ≤ (i 1).val ∧ (i 1).val < win20_2.index _ (1 : Fin 2) * 1024 + 1024; rw [e5]; show ((i 1).val / 1024 * 8 + 7) / 8 * 1024 ≤ (i 1).val ∧ (i 1).val < ((i 1).val / 1024 * 8 + 7) / 8 * 1024 + 1024; omega

theorem arr20 (hpay1 : ∀ q : Fin 1024, k20_pay1 (F := Ideal) (ix2 (0 : Fin 1) q) = 0)
    (hpay2 : ∀ (x0 : Vec Ideal S1024x1024 .bf16) (a : Vec Ideal S1x1024 .f32) (x1 : Vec Ideal S1024x1 .f32) (q : Fin 1024),
      k20_pay2 (F := Ideal) x0 a x1 (ix2 (0 : Fin 1) q) = a (ix2 (0 : Fin 1) q) + ∑ p : Fin 1024, x0 (ix2 p q) * x1 (ix2 p (0 : Fin 1)))
    (hpay3 : ∀ (a : Vec Ideal S1x1024 .f32) (q : Fin 1024),
      k20_pay3 (F := Ideal) a (ix2 (0 : Fin 1) q) = Ideal.div Spec.wgt (a (ix2 (0 : Fin 1) q) + Spec.stab))
    (c : Dev nD) : (dat20 V c).arrAt 2 cfg20.N = G.Gv (V c main_v0) (V c main_v21) :=
  (dat20 V c).arrAt_eq_of_cover 2 _ (fun t hf => flushed20 V hpay1 hpay2 hpay3 c t hf) cover20

end Cert.KernelIdeal.Val

end
-- ==== Proof.KI.V21.lean ====
/- Region 21's two output arrays, whole: the coupling matrix u_r K_rc v_c, and each row's sum of coupling × cost (eight column-block sums accumulated in place are the sum over all 8192 columns). -/
import proofs.«111645_j15006615733809_2_alg».proof.Proof.KI.R21
import proofs.«111645_j15006615733809_2_alg».proof.Proof.Spec
import proofs.«111645_j15006615733809_2_alg».proof.Proof.G
import proofs.«111645_j15006615733809_2_alg».proof.Proof.LibAccBlocks
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

theorem idx_facts21 : ∀ t : Fin cfg21.N,
    win21_0.index t (0 : Fin 2) = t.val / 8 ∧ win21_0.index t (1 : Fin 2) = 0
    ∧ win21_1.index t (0 : Fin 2) = t.val % 8 ∧ win21_1.index t (1 : Fin 2) = 0
    ∧ win21_2.index t (0 : Fin 2) = t.val / 8 ∧ win21_2.index t (1 : Fin 2) = t.val % 8
    ∧ win21_3.index t (0 : Fin 2) = t.val / 8 ∧ win21_3.index t (1 : Fin 2) = 0
    ∧ win21_4.index t (0 : Fin 2) = 0 ∧ win21_4.index t (1 : Fin 2) = t.val % 8
    ∧ win21_5.index t (0 : Fin 2) = t.val / 8 ∧ win21_5.index t (1 : Fin 2) = t.val % 8
    ∧ win21_6.index t (0 : Fin 2) = t.val / 8 ∧ win21_6.index t (1 : Fin 2) = 0 :=
  (by decide +kernel : ∀ t : Fin grid21.N, _)

/-! ## Output 5: the coupling matrix, every point writes its block back -/

theorem flushed21_5 (hpay4 : ∀ (x2 : Vec Ideal S1024x1024 .bf16) (x3 : Vec Ideal S1024x1 .f32) (x4 : Vec Ideal S1x1024 .f32) (p q : Fin 1024),
      k21_pay4 (F := Ideal) x2 x3 x4 (ix2 p q) = (x3 (ix2 p (0 : Fin 1)) * x2 (ix2 p q)) * x4 (ix2 (0 : Fin 1) q))
    (c : Dev nD) (t : Fin cfg21.N) :
    (dat21 V c).flushed 5 t = ((cfg21.win 5).blk t).view.read (Elt Ideal) (G.Gc (V c main_v0) (V c main_v21) (V c main_v22)) := by
  show (cfg21.win 5).cut (grid21.coords t) ((dat21 V c).after 5 t) = _
  rw [after21_5]
  funext jx
  obtain ⟨p, q, rfl⟩ : ∃ (p q : Fin 1024), jx = ix2 p q := ⟨jx 0, jx 1, eq_ix2 jx⟩
  show k21_pay4 (F := Ideal) (iblk21 V c 2 t) (iblk21 V c 3 t) (iblk21 V c 4 t) (ix2 p q) = G.Gc (V c main_v0) (V c main_v21) (V c main_v22) (((cfg21.win 5).blk t).view.emb (ix2 p q))
  refine (hpay4 _ _ _ p q).trans ?_
  obtain ⟨a00, a01, a10, a11, a20, a21, a30, a31, a40, a41, a50, a51, a60, a61⟩ := idx_facts21 t
  have h2 : ((cfg21.win 2).blk t).view.emb (ix2 p q) = ((cfg21.win 5).blk t).view.emb (ix2 p q) := by
    funext a; apply Fin.ext
    match a with
    | ⟨0, _⟩ => show win21_2.index t (0 : Fin 2) * 1024 + 1 * p.val = win21_5.index t (0 : Fin 2) * 1024 + 1 * p.val; omega
    | ⟨1, _⟩ => show win21_2.index t (1 : Fin 2) * 1024 + 1 * q.val = win21_5.index t (1 : Fin 2) * 1024 + 1 * q.val; omega
  have h3 : ((cfg21.win 3).blk t).view.emb (ix2 p (0 : Fin 1)) = ix2 (⟨((((cfg21.win 5).blk t).view.emb (ix2 p q)) 0).val, ((((cfg21.win 5).blk t).view.emb (ix2 p q)) 0).isLt⟩ : Fin 8192) (0 : Fin 1) := by
    funext a; apply Fin.ext
    match a with
    | ⟨0, _⟩ => show win21_3.index t (0 : Fin 2) * 1024 + 1 * p.val = win21_5.index t (0 : Fin 2) * 1024 + 1 * p.val; omega
    | ⟨1, _⟩ => show win21_3.index t (1 : Fin 2) * 1 + 1 * 0 = 0; omega
  have h4 : ((cfg21.win 4).blk t).view.emb (ix2 (0 : Fin 1) q) = ix2 (0 : Fin 1) (⟨((((cfg21.win 5).blk t).view.emb (ix2 p q)) 1).val, ((((cfg21.win 5).blk t).view.emb (ix2 p q)) 1).isLt⟩ : Fin 8192) := by
    funext a; apply Fin.ext
    match a with
    | ⟨0, _⟩ => show win21_4.index t (0 : Fin 2) * 1 + 1 * 0 = 0; omega
    | ⟨1, _⟩ => show win21_4.index t (1 : Fin 2) * 1024 + 1 * q.val = win21_5.index t (1 : Fin 2) * 1024 + 1 * q.val; omega
  have g2 : (iblk21 V c 2 t (ix2 p q) : EReal) = (V c main_v0 : S8192x8192.Idx → EReal) (((cfg21.win 5).blk t).view.emb (ix2 p q)) := by
    show (V c main_v0 : S8192x8192.Idx → EReal) (((cfg21.win 2).blk t).view.emb (ix2 p q)) = _
    rw [h2]
  have g3 : (iblk21 V c 3 t (ix2 p (0 : Fin 1)) : EReal) = (V c main_v21 : S8192x1.Idx → EReal) (ix2 (⟨((((cfg21.win 5).blk t).view.emb (ix2 p q)) 0).val, ((((cfg21.win 5).blk t).view.emb (ix2 p q)) 0).isLt⟩ : Fin 8192) (0 : Fin 1)) := by
    show (V c main_v21 : S8192x1.Idx → EReal) (((cfg21.win 3).blk t).view.emb (ix2 p (0 : Fin 1))) = _
    rw [h3]
  have g4 : (iblk21 V c 4 t (ix2 (0 : Fin 1) q) : EReal) = (V c main_v22 : S1x8192.Idx → EReal) (ix2 (0 : Fin 1) (⟨((((cfg21.win 5).blk t).view.emb (ix2 p q)) 1).val, ((((cfg21.win 5).blk t).view.emb (ix2 p q)) 1).isLt⟩ : Fin 8192)) := by
    show (V c main_v22 : S1x8192.Idx → EReal) (((cfg21.win 4).blk t).view.emb (ix2 (0 : Fin 1) q)) = _
    rw [h4]
  exact congrArg₂ (· * ·) (congrArg₂ (· * ·) g3 g2) g4

theorem mem_blk21_5 (t : Fin cfg21.N) (i : S8192x8192.Idx) :
    i ∈ ((cfg21.win 5).blk t).view.set ↔ ∀ a : Fin 2, win21_5.index t a * S1024x1024.size a ≤ (i a).val ∧ (i a).val < win21_5.index t a * S1024x1024.size a + S1024x1024.size a := by
  show i ∈ ((View.whole main_v23_0).slice (win21_5.rect t)).set ↔ _
  rw [View.set_slice_whole, Rect.mem_set_unit]
  exact Iff.rfl

theorem cover21_5 (i : S8192x8192.Idx) : ∃ t : Fin cfg21.N, (cfg21.win 5).flush t = true ∧ i ∈ ((cfg21.win 5).blk t).view.set := by
  have hi0 : (i 0).val < 8192 := (i 0).isLt
  have hi1 : (i 1).val < 8192 := (i 1).isLt
  have hN : (i 0).val / 1024 * 8 + (i 1).val / 1024 < cfg21.N := by rw [show cfg21.N = 64 from N_21]; omega
  refine ⟨⟨(i 0).val / 1024 * 8 + (i 1).val / 1024, hN⟩, flush21_5 _, ?_⟩
  rw [mem_blk21_5]
  obtain ⟨a00, a01, a10, a11, a20, a21, a30, a31, a40, a41, a50, a51, a60, a61⟩ := idx_facts21 ⟨(i 0).val / 1024 * 8 + (i 1).val / 1024, hN⟩
  intro a
  match a with
  | ⟨0, _⟩ => show win21_5.index _ (0 : Fin 2) * 1024 ≤ (i 0).val ∧ (i 0).val < win21_5.index _ (0 : Fin 2) * 1024 + 1024; rw [a50]; show ((i 0).val / 1024 * 8 + (i 1).val / 1024) / 8 * 1024 ≤ (i 0).val ∧ (i 0).val < ((i 0).val / 1024 * 8 + (i 1).val / 1024) / 8 * 1024 + 1024; omega
  | ⟨1, _⟩ => show win21_5.index _ (1 : Fin 2) * 1024 ≤ (i 1).val ∧ (i 1).val < win21_5.index _ (1 : Fin 2) * 1024 + 1024; rw [a51]; show ((i 0).val / 1024 * 8 + (i 1).val / 1024) % 8 * 1024 ≤ (i 1).val ∧ (i 1).val < ((i 0).val / 1024 * 8 + (i 1).val / 1024) % 8 * 1024 + 1024; omega

theorem arr21_5 (hpay4 : ∀ (x2 : Vec Ideal S1024x1024 .bf16) (x3 : Vec Ideal S1024x1 .f32) (x4 : Vec Ideal S1x1024 .f32) (p q : Fin 1024),
      k21_pay4 (F := Ideal) x2 x3 x4 (ix2 p q) = (x3 (ix2 p (0 : Fin 1)) * x2 (ix2 p q)) * x4 (ix2 (0 : Fin 1) q))
    (c : Dev nD) : (dat21 V c).arrAt 5 cfg21.N = G.Gc (V c main_v0) (V c main_v21) (V c main_v22) :=
  (dat21 V c).arrAt_eq_of_cover 5 _ (fun t _ => flushed21_5 V hpay4 c t) cover21_5

/-! ## Output 6: each row's sum of coupling × cost, carried across the eight column blocks -/

/-- A natural number as a row or column number (the numbers met are below 8192). -/
def fin8192_21 (n : ℕ) : Fin 8192 := ⟨n % 8192, Nat.mod_lt _ (by decide)⟩

theorem fin8192_of_lt_21 (n : ℕ) (h : n < 8192) : fin8192_21 n = ⟨n, h⟩ := Fin.ext (Nat.mod_eq_of_lt h)

/-- Coupling × cost at row n, column m; and its sum over the 1024 columns of column block j, at row p of row block i. -/
def cterm (s t : S8192x64.Idx → EReal) (Karr : S8192x8192.Idx → EReal) (u : S8192x1.Idx → EReal) (v : S1x8192.Idx → EReal) (n m : ℕ) : EReal :=
  G.Gc Karr u v (ix2 (fin8192_21 n) (fin8192_21 m)) * Spec.cost (G.featOf s) (G.featOf t) (fin8192_21 n) (fin8192_21 m)
def rsum (s t : S8192x64.Idx → EReal) (Karr : S8192x8192.Idx → EReal) (u : S8192x1.Idx → EReal) (v : S1x8192.Idx → EReal) (i j : ℕ) (p : Fin 1024) : EReal :=
  ∑ q : Fin 1024, cterm s t Karr u v (i * 1024 + p.val) (j * 1024 + q.val)

/-- A point's block of coupling × cost summed along a row, from the blocks the point reads. -/
def lane21 (x0 x1 : Vec Ideal S1024x64 .f32) (x2 : Vec Ideal S1024x1024 .bf16) (x3 : Vec Ideal S1024x1 .f32) (x4 : Vec Ideal S1x1024 .f32) (p : Fin 1024) : EReal :=
  ∑ q : Fin 1024, k21_pay4 (F := Ideal) x2 x3 x4 (ix2 p q) * k21_pay3 (F := Ideal) x0 x1 (ix2 p q)

set_option maxHeartbeats 1000000 in
theorem blk21 (hpay4 : ∀ (x2 : Vec Ideal S1024x1024 .bf16) (x3 : Vec Ideal S1024x1 .f32) (x4 : Vec Ideal S1x1024 .f32) (p q : Fin 1024),
      k21_pay4 (F := Ideal) x2 x3 x4 (ix2 p q) = (x3 (ix2 p (0 : Fin 1)) * x2 (ix2 p q)) * x4 (ix2 (0 : Fin 1) q))
    (hpay3 : ∀ (x0 x1 : Vec Ideal S1024x64 .f32) (p q : Fin 1024),
      k21_pay3 (F := Ideal) x0 x1 (ix2 p q) = Ideal.sqrt (max (((∑ k : Fin 64, x0 (ix2 p k) * x0 (ix2 p k)) + (∑ k : Fin 64, x1 (ix2 q k) * x1 (ix2 q k))) - Spec.two * (∑ k : Fin 64, x0 (ix2 p k) * x1 (ix2 q k))) 0))
    (c : Dev nD) (t : Fin cfg21.N) (p : Fin 1024) :
    lane21 (iblk21 V c 0 t) (iblk21 V c 1 t) (iblk21 V c 2 t) (iblk21 V c 3 t) (iblk21 V c 4 t) p
      = rsum (V c main_arg0 : S8192x64.Idx → EReal) (V c main_arg1 : S8192x64.Idx → EReal) (V c main_v0 : S8192x8192.Idx → EReal) (V c main_v21 : S8192x1.Idx → EReal) (V c main_v22 : S1x8192.Idx → EReal) (t.val / 8) (t.val % 8) p := by
  unfold lane21 rsum
  obtain ⟨a00, a01, a10, a11, a20, a21, a30, a31, a40, a41, a50, a51, a60, a61⟩ := idx_facts21 t
  have hN : t.val < 64 := lt_of_lt_of_eq t.isLt (show cfg21.N = 64 from N_21)
  refine Finset.sum_congr rfl fun q _ => ?_
  rw [hpay4, hpay3]
  have h0 : ∀ k : Fin 64, ((cfg21.win 0).blk t).view.emb (ix2 p k) = ix2 (fin8192_21 (t.val / 8 * 1024 + p.val)) k := fun k => by
    funext a; apply Fin.ext
    match a with
    | ⟨0, _⟩ => show win21_0.index t (0 : Fin 2) * 1024 + 1 * p.val = (t.val / 8 * 1024 + p.val) % 8192; omega
    | ⟨1, _⟩ => show win21_0.index t (1 : Fin 2) * 64 + 1 * k.val = k.val; omega
  have h1 : ∀ k : Fin 64, ((cfg21.win 1).blk t).view.emb (ix2 q k) = ix2 (fin8192_21 (t.val % 8 * 1024 + q.val)) k := fun k => by
    funext a; apply Fin.ext
    match a with
    | ⟨0, _⟩ => show win21_1.index t (0 : Fin 2) * 1024 + 1 * q.val = (t.val % 8 * 1024 + q.val) % 8192; omega
    | ⟨1, _⟩ => show win21_1.index t (1 : Fin 2) * 64 + 1 * k.val = k.val; omega
  have h2 : ((cfg21.win 2).blk t).view.emb (ix2 p q) = ix2 (fin8192_21 (t.val / 8 * 1024 + p.val)) (fin8192_21 (t.val % 8 * 1024 + q.val)) := by
    funext a; apply Fin.ext
    match a with
    | ⟨0, _⟩ => show win21_2.index t (0 : Fin 2) * 1024 + 1 * p.val = (t.val / 8 * 1024 + p.val) % 8192; omega
    | ⟨1, _⟩ => show win21_2.index t (1 : Fin 2) * 1024 + 1 * q.val = (t.val % 8 * 1024 + q.val) % 8192; omega
  have h3 : ((cfg21.win 3).blk t).view.emb (ix2 p (0 : Fin 1)) = ix2 (fin8192_21 (t.val / 8 * 1024 + p.val)) (0 : Fin 1) := by
    funext a; apply Fin.ext
    match a with
    | ⟨0, _⟩ => show win21_3.index t (0 : Fin 2) * 1024 + 1 * p.val = (t.val / 8 * 1024 + p.val) % 8192; omega
    | ⟨1, _⟩ => show win21_3.index t (1 : Fin 2) * 1 + 1 * 0 = 0; omega
  have h4 : ((cfg21.win 4).blk t).view.emb (ix2 (0 : Fin 1) q) = ix2 (0 : Fin 1) (fin8192_21 (t.val % 8 * 1024 + q.val)) := by
    funext a; apply Fin.ext
    match a with
    | ⟨0, _⟩ => show win21_4.index t (0 : Fin 2) * 1 + 1 * 0 = 0; omega
    | ⟨1, _⟩ => show win21_4.index t (1 : Fin 2) * 1024 + 1 * q.val = (t.val % 8 * 1024 + q.val) % 8192; omega
  have g0 : ∀ k : Fin 64, (iblk21 V c 0 t (ix2 p k) : EReal) = (V c main_arg0 : S8192x64.Idx → EReal) (ix2 (fin8192_21 (t.val / 8 * 1024 + p.val)) k) := by
    intro k
    show (V c main_arg0 : S8192x64.Idx → EReal) (((cfg21.win 0).blk t).view.emb (ix2 p k)) = _
    rw [h0]
  have g1 : ∀ k : Fin 64, (iblk21 V c 1 t (ix2 q k) : EReal) = (V c main_arg1 : S8192x64.Idx → EReal) (ix2 (fin8192_21 (t.val % 8 * 1024 + q.val)) k) := by
    intro k
    show (V c main_arg1 : S8192x64.Idx → EReal) (((cfg21.win 1).blk t).view.emb (ix2 q k)) = _
    rw [h1]
  have g2 : (iblk21 V c 2 t (ix2 p q) : EReal) = (V c main_v0 : S8192x8192.Idx → EReal) (ix2 (fin8192_21 (t.val / 8 * 1024 + p.val)) (fin8192_21 (t.val % 8 * 1024 + q.val))) := by
    show (V c main_v0 : S8192x8192.Idx → EReal) (((cfg21.win 2).blk t).view.emb (ix2 p q)) = _
    rw [h2]
  have g3 : (iblk21 V c 3 t (ix2 p (0 : Fin 1)) : EReal) = (V c main_v21 : S8192x1.Idx → EReal) (ix2 (fin8192_21 (t.val / 8 * 1024 + p.val)) (0 : Fin 1)) := by
    show (V c main_v21 : S8192x1.Idx → EReal) (((cfg21.win 3).blk t).view.emb (ix2 p (0 : Fin 1))) = _
    rw [h3]
  have g4 : (iblk21 V c 4 t (ix2 (0 : Fin 1) q) : EReal) = (V c main_v22 : S1x8192.Idx → EReal) (ix2 (0 : Fin 1) (fin8192_21 (t.val % 8 * 1024 + q.val))) := by
    show (V c main_v22 : S1x8192.Idx → EReal) (((cfg21.win 4).blk t).view.emb (ix2 (0 : Fin 1) q)) = _
    rw [h4]
  simp only [g0, g1, g2, g3, g4]
  rfl

set_option maxHeartbeats 1000000 in
/-- The running row sums after a first column block's point, at a row: that block's sum. -/
theorem row21_at_first (hpay1 : ∀ (A B : FVec Ideal S1024x1024 .f32) (r : Vec Ideal S1024x1 .f32) (p : Fin 1024),
      k21_pay1 (F := Ideal) A B r (ix2 p (0 : Fin 1)) = r (ix2 p (0 : Fin 1)) + ∑ q : Fin 1024, B (ix2 p q) * A (ix2 p q))
    (hpay2 : ∀ p : Fin 1024, k21_pay2 (F := Ideal) (ix2 p (0 : Fin 1)) = 0)
    (hpay3 : ∀ (x0 x1 : Vec Ideal S1024x64 .f32) (p q : Fin 1024),
      k21_pay3 (F := Ideal) x0 x1 (ix2 p q) = Ideal.sqrt (max (((∑ k : Fin 64, x0 (ix2 p k) * x0 (ix2 p k)) + (∑ k : Fin 64, x1 (ix2 q k) * x1 (ix2 q k))) - Spec.two * (∑ k : Fin 64, x0 (ix2 p k) * x1 (ix2 q k))) 0))
    (hpay4 : ∀ (x2 : Vec Ideal S1024x1024 .bf16) (x3 : Vec Ideal S1024x1 .f32) (x4 : Vec Ideal S1x1024 .f32) (p q : Fin 1024),
      k21_pay4 (F := Ideal) x2 x3 x4 (ix2 p q) = (x3 (ix2 p (0 : Fin 1)) * x2 (ix2 p q)) * x4 (ix2 (0 : Fin 1) q))
    (c : Dev nD) (p : Fin 1024) (t : Fin cfg21.N) (h0 : t.val % 8 = 0) :
    (rowAt21 V c t.val t.isLt (ix2 p (0 : Fin 1)) : EReal) = ∑ j ∈ Finset.range (t.val % 8 + 1), rsum (V c main_arg0 : S8192x64.Idx → EReal) (V c main_arg1 : S8192x64.Idx → EReal) (V c main_v0 : S8192x8192.Idx → EReal) (V c main_v21 : S8192x1.Idx → EReal) (V c main_v22 : S1x8192.Idx → EReal) (t.val / 8) j p := by
  refine (congrFun (rowAt21_first V c t h0) (ix2 p (0 : Fin 1))).trans ?_
  refine (hpay1 _ _ _ p).trans ?_
  rw [hpay2, zero_add]
  refine (blk21 V hpay4 hpay3 c t p).trans ?_
  rw [h0, zero_add, Finset.sum_range_one]

set_option maxHeartbeats 1000000 in
/-- The running row sums after a later column block's point, at a row: what the point before left plus this block's sum. -/
theorem row21_at_next (hpay1 : ∀ (A B : FVec Ideal S1024x1024 .f32) (r : Vec Ideal S1024x1 .f32) (p : Fin 1024),
      k21_pay1 (F := Ideal) A B r (ix2 p (0 : Fin 1)) = r (ix2 p (0 : Fin 1)) + ∑ q : Fin 1024, B (ix2 p q) * A (ix2 p q))
    (hpay2 : ∀ p : Fin 1024, k21_pay2 (F := Ideal) (ix2 p (0 : Fin 1)) = 0)
    (hpay3 : ∀ (x0 x1 : Vec Ideal S1024x64 .f32) (p q : Fin 1024),
      k21_pay3 (F := Ideal) x0 x1 (ix2 p q) = Ideal.sqrt (max (((∑ k : Fin 64, x0 (ix2 p k) * x0 (ix2 p k)) + (∑ k : Fin 64, x1 (ix2 q k) * x1 (ix2 q k))) - Spec.two * (∑ k : Fin 64, x0 (ix2 p k) * x1 (ix2 q k))) 0))
    (hpay4 : ∀ (x2 : Vec Ideal S1024x1024 .bf16) (x3 : Vec Ideal S1024x1 .f32) (x4 : Vec Ideal S1x1024 .f32) (p q : Fin 1024),
      k21_pay4 (F := Ideal) x2 x3 x4 (ix2 p q) = (x3 (ix2 p (0 : Fin 1)) * x2 (ix2 p q)) * x4 (ix2 (0 : Fin 1) q))
    (c : Dev nD) (p : Fin 1024) (t : Fin cfg21.N) (h0 : ¬ t.val % 8 = 0) (hlt : t.val - 1 < cfg21.N)
    (ih : (rowAt21 V c (t.val - 1) hlt (ix2 p (0 : Fin 1)) : EReal) = ∑ j ∈ Finset.range ((t.val - 1) % 8 + 1), rsum (V c main_arg0 : S8192x64.Idx → EReal) (V c main_arg1 : S8192x64.Idx → EReal) (V c main_v0 : S8192x8192.Idx → EReal) (V c main_v21 : S8192x1.Idx → EReal) (V c main_v22 : S1x8192.Idx → EReal) ((t.val - 1) / 8) j p) :
    (rowAt21 V c t.val t.isLt (ix2 p (0 : Fin 1)) : EReal) = ∑ j ∈ Finset.range (t.val % 8 + 1), rsum (V c main_arg0 : S8192x64.Idx → EReal) (V c main_arg1 : S8192x64.Idx → EReal) (V c main_v0 : S8192x8192.Idx → EReal) (V c main_v21 : S8192x1.Idx → EReal) (V c main_v22 : S1x8192.Idx → EReal) (t.val / 8) j p := by
  refine (congrFun (rowAt21_next V c t h0) (ix2 p (0 : Fin 1))).trans ?_
  refine (hpay1 _ _ _ p).trans ?_
  refine (congrArg₂ (· + ·) ih (blk21 V hpay4 hpay3 c t p)).trans ?_
  have e1 : (t.val - 1) / 8 = t.val / 8 := by omega
  have e2 : (t.val - 1) % 8 + 1 = t.val % 8 := by omega
  rw [e1, e2]
  exact (Finset.sum_range_succ (fun j => rsum (V c main_arg0 : S8192x64.Idx → EReal) (V c main_arg1 : S8192x64.Idx → EReal) (V c main_v0 : S8192x8192.Idx → EReal) (V c main_v21 : S8192x1.Idx → EReal) (V c main_v22 : S1x8192.Idx → EReal) (t.val / 8) j p) (t.val % 8)).symm

set_option maxHeartbeats 1000000 in
/-- The running row sums after a point, at a row: the block sums of the point's row block over the column blocks so far. -/
theorem row21_range (hpay1 : ∀ (A B : FVec Ideal S1024x1024 .f32) (r : Vec Ideal S1024x1 .f32) (p : Fin 1024),
      k21_pay1 (F := Ideal) A B r (ix2 p (0 : Fin 1)) = r (ix2 p (0 : Fin 1)) + ∑ q : Fin 1024, B (ix2 p q) * A (ix2 p q))
    (hpay2 : ∀ p : Fin 1024, k21_pay2 (F := Ideal) (ix2 p (0 : Fin 1)) = 0)
    (hpay3 : ∀ (x0 x1 : Vec Ideal S1024x64 .f32) (p q : Fin 1024),
      k21_pay3 (F := Ideal) x0 x1 (ix2 p q) = Ideal.sqrt (max (((∑ k : Fin 64, x0 (ix2 p k) * x0 (ix2 p k)) + (∑ k : Fin 64, x1 (ix2 q k) * x1 (ix2 q k))) - Spec.two * (∑ k : Fin 64, x0 (ix2 p k) * x1 (ix2 q k))) 0))
    (hpay4 : ∀ (x2 : Vec Ideal S1024x1024 .bf16) (x3 : Vec Ideal S1024x1 .f32) (x4 : Vec Ideal S1x1024 .f32) (p q : Fin 1024),
      k21_pay4 (F := Ideal) x2 x3 x4 (ix2 p q) = (x3 (ix2 p (0 : Fin 1)) * x2 (ix2 p q)) * x4 (ix2 (0 : Fin 1) q))
    (c : Dev nD) (p : Fin 1024) : ∀ (n : ℕ) (t : Fin cfg21.N), t.val = n →
    (rowAt21 V c t.val t.isLt (ix2 p (0 : Fin 1)) : EReal) = ∑ j ∈ Finset.range (t.val % 8 + 1), rsum (V c main_arg0 : S8192x64.Idx → EReal) (V c main_arg1 : S8192x64.Idx → EReal) (V c main_v0 : S8192x8192.Idx → EReal) (V c main_v21 : S8192x1.Idx → EReal) (V c main_v22 : S1x8192.Idx → EReal) (t.val / 8) j p := by
  intro n
  induction n with
  | zero =>
    intro t ht
    exact row21_at_first V hpay1 hpay2 hpay3 hpay4 c p t (by rw [ht])
  | succ n ih =>
    intro t ht
    by_cases h0 : t.val % 8 = 0
    · exact row21_at_first V hpay1 hpay2 hpay3 hpay4 c p t h0
    · have hlt : t.val - 1 < cfg21.N := Nat.lt_of_le_of_lt (Nat.sub_le _ _) t.isLt
      exact row21_at_next V hpay1 hpay2 hpay3 hpay4 c p t h0 hlt (ih ⟨t.val - 1, hlt⟩ (by show t.val - 1 = n; omega))

/-- The eight block sums of a row are the row's whole sum. -/
theorem rsum_all (s t : S8192x64.Idx → EReal) (Karr : S8192x8192.Idx → EReal) (u : S8192x1.Idx → EReal) (v : S1x8192.Idx → EReal)
    (i : ℕ) (p : Fin 1024) (R : Fin 8192) (hR : R.val = i * 1024 + p.val) :
    ∑ j ∈ Finset.range 8, rsum s t Karr u v i j p
      = ∑ q : Fin 8192, G.Gc Karr u v (ix2 R q) * Spec.cost (G.featOf s) (G.featOf t) R q := by
  have hb := Cert.LibAccBlocks.sum_eq_sum_blocks 8 1024 (fun q : Fin (8 * 1024) => G.Gc Karr u v (ix2 R (⟨q.val, q.isLt⟩ : Fin 8192)) * Spec.cost (G.featOf s) (G.featOf t) R (⟨q.val, q.isLt⟩ : Fin 8192))
  refine Eq.trans ?_ hb.symm
  rw [← Fin.sum_univ_eq_sum_range (fun j => rsum s t Karr u v i j p) 8]
  refine Finset.sum_congr rfl fun j _ => Finset.sum_congr rfl fun q _ => ?_
  have hlt : j.val * 1024 + q.val < 8192 := by have := j.isLt; have := q.isLt; omega
  have eR : fin8192_21 (i * 1024 + p.val) = R := Fin.ext (by show (i * 1024 + p.val) % 8192 = R.val; have := R.isLt; omega)
  show G.Gc Karr u v (ix2 (fin8192_21 (i * 1024 + p.val)) (fin8192_21 (j.val * 1024 + q.val))) * Spec.cost (G.featOf s) (G.featOf t) (fin8192_21 (i * 1024 + p.val)) (fin8192_21 (j.val * 1024 + q.val)) = _
  rw [fin8192_of_lt_21 _ hlt, eR]

set_option maxHeartbeats 1000000 in
theorem flushed21_6 (hpay1 : ∀ (A B : FVec Ideal S1024x1024 .f32) (r : Vec Ideal S1024x1 .f32) (p : Fin 1024),
      k21_pay1 (F := Ideal) A B r (ix2 p (0 : Fin 1)) = r (ix2 p (0 : Fin 1)) + ∑ q : Fin 1024, B (ix2 p q) * A (ix2 p q))
    (hpay2 : ∀ p : Fin 1024, k21_pay2 (F := Ideal) (ix2 p (0 : Fin 1)) = 0)
    (hpay3 : ∀ (x0 x1 : Vec Ideal S1024x64 .f32) (p q : Fin 1024),
      k21_pay3 (F := Ideal) x0 x1 (ix2 p q) = Ideal.sqrt (max (((∑ k : Fin 64, x0 (ix2 p k) * x0 (ix2 p k)) + (∑ k : Fin 64, x1 (ix2 q k) * x1 (ix2 q k))) - Spec.two * (∑ k : Fin 64, x0 (ix2 p k) * x1 (ix2 q k))) 0))
    (hpay4 : ∀ (x2 : Vec Ideal S1024x1024 .bf16) (x3 : Vec Ideal S1024x1 .f32) (x4 : Vec Ideal S1x1024 .f32) (p q : Fin 1024),
      k21_pay4 (F := Ideal) x2 x3 x4 (ix2 p q) = (x3 (ix2 p (0 : Fin 1)) * x2 (ix2 p q)) * x4 (ix2 (0 : Fin 1) q))
    (c : Dev nD) (t : Fin cfg21.N) (hf : (cfg21.win 6).flush t = true) :
    (dat21 V c).flushed 6 t = ((cfg21.win 6).blk t).view.read (Elt Ideal) (G.Gr (V c main_arg0) (V c main_arg1) (V c main_v0) (V c main_v21) (V c main_v22)) := by
  have h7 : t.val % 8 = 7 := (flush21_6 t).mp hf
  show (cfg21.win 6).cut (grid21.coords t) ((dat21 V c).after 6 t) = _
  rw [after21_6]
  funext jx
  obtain ⟨p, z, rfl⟩ : ∃ (p : Fin 1024) (z : Fin 1), jx = ix2 p z := ⟨jx 0, jx 1, eq_ix2 jx⟩
  obtain rfl : z = 0 := Subsingleton.elim _ _
  show rowAt21 V c t.val t.isLt (ix2 p (0 : Fin 1)) = G.Gr (V c main_arg0) (V c main_arg1) (V c main_v0) (V c main_v21) (V c main_v22) (((cfg21.win 6).blk t).view.emb (ix2 p (0 : Fin 1)))
  unfold G.Gr
  obtain ⟨a00, a01, a10, a11, a20, a21, a30, a31, a40, a41, a50, a51, a60, a61⟩ := idx_facts21 t
  refine (row21_range V hpay1 hpay2 hpay3 hpay4 c p t.val t rfl).trans ?_
  rw [h7]
  refine rsum_all _ _ _ _ _ (t.val / 8) p _ ?_
  show win21_6.index t (0 : Fin 2) * 1024 + 1 * p.val = t.val / 8 * 1024 + p.val
  omega

theorem mem_blk21_6 (t : Fin cfg21.N) (i : S8192x1.Idx) :
    i ∈ ((cfg21.win 6).blk t).view.set ↔ ∀ a : Fin 2, win21_6.index t a * S1024x1.size a ≤ (i a).val ∧ (i a).val < win21_6.index t a * S1024x1.size a + S1024x1.size a := by
  show i ∈ ((View.whole main_v23_1).slice (win21_6.rect t)).set ↔ _
  rw [View.set_slice_whole, Rect.mem_set_unit]
  exact Iff.rfl

theorem cover21_6 (i : S8192x1.Idx) : ∃ t : Fin cfg21.N, (cfg21.win 6).flush t = true ∧ i ∈ ((cfg21.win 6).blk t).view.set := by
  have hi0 : (i 0).val < 8192 := (i 0).isLt
  have hi1 : (i 1).val < 1 := (i 1).isLt
  have hN : (i 0).val / 1024 * 8 + 7 < cfg21.N := by rw [show cfg21.N = 64 from N_21]; omega
  refine ⟨⟨(i 0).val / 1024 * 8 + 7, hN⟩, (flush21_6 _).mpr (by show ((i 0).val / 1024 * 8 + 7) % 8 = 7; omega), ?_⟩
  rw [mem_blk21_6]
  obtain ⟨a00, a01, a10, a11, a20, a21, a30, a31, a40, a41, a50, a51, a60, a61⟩ := idx_facts21 ⟨(i 0).val / 1024 * 8 + 7, hN⟩
  intro a
  match a with
  | ⟨0, _⟩ => show win21_6.index _ (0 : Fin 2) * 1024 ≤ (i 0).val ∧ (i 0).val < win21_6.index _ (0 : Fin 2) * 1024 + 1024; rw [a60]; show ((i 0).val / 1024 * 8 + 7) / 8 * 1024 ≤ (i 0).val ∧ (i 0).val < ((i 0).val / 1024 * 8 + 7) / 8 * 1024 + 1024; omega
  | ⟨1, _⟩ => show win21_6.index _ (1 : Fin 2) * 1 ≤ (i 1).val ∧ (i 1).val < win21_6.index _ (1 : Fin 2) * 1 + 1; rw [a61]; omega

theorem arr21_6 (hpay1 : ∀ (A B : FVec Ideal S1024x1024 .f32) (r : Vec Ideal S1024x1 .f32) (p : Fin 1024),
      k21_pay1 (F := Ideal) A B r (ix2 p (0 : Fin 1)) = r (ix2 p (0 : Fin 1)) + ∑ q : Fin 1024, B (ix2 p q) * A (ix2 p q))
    (hpay2 : ∀ p : Fin 1024, k21_pay2 (F := Ideal) (ix2 p (0 : Fin 1)) = 0)
    (hpay3 : ∀ (x0 x1 : Vec Ideal S1024x64 .f32) (p q : Fin 1024),
      k21_pay3 (F := Ideal) x0 x1 (ix2 p q) = Ideal.sqrt (max (((∑ k : Fin 64, x0 (ix2 p k) * x0 (ix2 p k)) + (∑ k : Fin 64, x1 (ix2 q k) * x1 (ix2 q k))) - Spec.two * (∑ k : Fin 64, x0 (ix2 p k) * x1 (ix2 q k))) 0))
    (hpay4 : ∀ (x2 : Vec Ideal S1024x1024 .bf16) (x3 : Vec Ideal S1024x1 .f32) (x4 : Vec Ideal S1x1024 .f32) (p q : Fin 1024),
      k21_pay4 (F := Ideal) x2 x3 x4 (ix2 p q) = (x3 (ix2 p (0 : Fin 1)) * x2 (ix2 p q)) * x4 (ix2 (0 : Fin 1) q))
    (c : Dev nD) : (dat21 V c).arrAt 6 cfg21.N = G.Gr (V c main_arg0) (V c main_arg1) (V c main_v0) (V c main_v21) (V c main_v22) :=
  (dat21 V c).arrAt_eq_of_cover 6 _ (fun t hf => flushed21_6 V hpay1 hpay2 hpay3 hpay4 c t hf) cover21_6

end Cert.KernelIdeal.Val

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.Pay.lean ====
/-
  Each launch's stored value read at one entry, over the extended reals (where widening and narrowing a float
  are the identity and a sum has no order): the Gibbs tile exp(−cost/ε), the row-sum update w / (Σ_k M[p,k]·v[k] + δ),
  the column-sum accumulator (zero, then + Σ_p M[p,q]·u[p], then w / (acc + δ)), and the final launch's cost tile
  sqrt(max(‖s_p‖² + ‖t_q‖² − 2⟨s_p, t_q⟩, 0)), coupling tile (u_p · K[p,q]) · v_q and running row sums of coupling × cost.
-/
import proofs.«111645_j15006615733809_2_alg».proof.Proof.Gen.KernelIdeal.Skeleton
import proofs.«111645_j15006615733809_2_alg».proof.Proof.Spec
import proofs.«111645_j15006615733809_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx Idealize.ShloMosaic.ColumnForms

/-! ## General readings -/

section General
variable {α : Type}

/-- A cast between equal shapes reads the operand at the same index. -/
theorem shapeCast_same_apply {s : Shape} (x : s.Idx → α) (h : s.ShapeCasts s) (j : s.Idx) :
    shapeCast s x h j = x j :=
  shapeCast_apply x h j j rfl

/-- The sum along the second axis of an `a × b` array, read at row `p`: the sum of that row's entries. -/
theorem sumAxis1_apply {a b : ℕ} (src : FVec Ideal (⟨2, ![a, b]⟩ : Shape) .f32)
    (h : Shape.Reduces (⟨2, ![a, b]⟩ : Shape) [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  show ∑ k : Fin b, src (h.lift (ix1 p) k) = _
  refine Finset.sum_congr rfl fun k _ => congrArg src ?_
  funext c
  match c with
  | ⟨0, _⟩ => rfl
  | ⟨1, _⟩ => rfl

/-- The sum along the first axis of an `a × b` array, read at column `q`: the sum of that column's entries. -/
theorem sumAxis0_apply {a b : ℕ} (src : FVec Ideal (⟨2, ![a, b]⟩ : Shape) .f32)
    (h : Shape.Reduces (⟨2, ![a, b]⟩ : Shape) [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src _ h hφ hacc (ix1 q)).trans ?_
  show ∑ k : Fin a, src (h.lift (ix1 q) k) = _
  refine Finset.sum_congr rfl fun k _ => congrArg src ?_
  funext c
  match c with
  | ⟨0, _⟩ => rfl
  | ⟨1, _⟩ => rfl

end General

/-! ## The row-sum launch -/

theorem k1_pay1_apply (x0 : Vec Ideal S1024x8192 .bf16) (x1 : Vec Ideal S1x8192 .f32) (p : Fin 1024) :
    k1_pay1 (F := Ideal) x0 x1 (ix2 p 0)
      = Ideal.div Spec.wgt ((∑ k : Fin 8192, x0 (ix2 p k) * x1 (ix2 0 k)) + Spec.stab) := by
  unfold k1_pay1
  dsimp only
  refine (divf_apply _ _ _).trans ?_
  refine congrArg₂ Ideal.div rfl ?_
  refine (addf_apply _ _ _).trans ?_
  refine congrArg₂ (· + ·) ?_ rfl
  refine (shapeCast_a_a1_apply _ _ p 0).trans ?_
  refine (sumAxis1_apply _ _ _ _ p).trans ?_
  refine Finset.sum_congr rfl fun k _ => ?_
  refine (mulf_apply _ _ _).trans ?_
  refine congrArg₂ (· * ·) ?_ ?_
  · exact shapeCast_same_apply _ _ _
  · refine (broadcastTo_1b_ab_apply _ _ p k).trans ?_
    exact shapeCast_same_apply _ _ _

/-! ## The column-sum launch -/

theorem k2_pay1_apply (q : Fin 1024) : k2_pay1 (F := Ideal) (ix2 0 q) = 0 := by
  unfold k2_pay1
  refine (shapeCast_same_apply _ _ _).trans ?_
  exact Ideal.ofBits_zero_f32

theorem k2_pay2_apply (x0 : Vec Ideal S1024x1024 .bf16) (a : Vec Ideal S1x1024 .f32) (x1 : Vec Ideal S1024x1 .f32)
    (q : Fin 1024) :
    k2_pay2 (F := Ideal) x0 a x1 (ix2 0 q) = a (ix2 0 q) + ∑ p : Fin 1024, x0 (ix2 p q) * x1 (ix2 p 0) := by
  unfold k2_pay2
  dsimp only
  refine (shapeCast_same_apply _ _ _).trans ?_
  refine (addf_apply _ _ _).trans ?_
  refine congrArg₂ (· + ·) rfl ?_
  refine (shapeCast_a_1a_apply _ _ 0 q).trans ?_
  refine (sumAxis0_apply _ _ _ _ q).trans ?_
  refine Finset.sum_congr rfl fun k _ => ?_
  refine (mulf_apply _ _ _).trans ?_
  refine congrArg₂ (· * ·) ?_ ?_
  · exact shapeCast_same_apply _ _ _
  · refine (broadcastTo_a1_ab_apply _ _ k q).trans ?_
    exact shapeCast_same_apply _ _ _

theorem k2_pay3_apply (a : Vec Ideal S1x1024 .f32) (q : Fin 1024) :
    k2_pay3 (F := Ideal) a (ix2 0 q) = Ideal.div Spec.wgt (a (ix2 0 q) + Spec.stab) := by
  unfold k2_pay3
  refine (divf_apply _ _ _).trans ?_
  refine congrArg₂ Ideal.div rfl ?_
  refine (addf_apply _ _ _).trans ?_
  rfl

/-! ## The final launch: the coupling tile and the running row sums -/

theorem k21_pay4_apply (x2 : Vec Ideal S1024x1024 .bf16) (x3 : Vec Ideal S1024x1 .f32) (x4 : Vec Ideal S1x1024 .f32)
    (p q : Fin 1024) :
    k21_pay4 (F := Ideal) x2 x3 x4 (ix2 p q) = (x3 (ix2 p 0) * x2 (ix2 p q)) * x4 (ix2 0 q) := by
  unfold k21_pay4
  refine (mulf_apply _ _ _).trans ?_
  refine congrArg₂ (· * ·) ?_ ?_
  · refine (mulf_apply _ _ _).trans ?_
    refine congrArg₂ (· * ·) ?_ ?_
    · refine (broadcastTo_a1_ab_apply _ _ p q).trans ?_
      exact shapeCast_same_apply _ _ _
    · exact shapeCast_same_apply _ _ _
  · refine (broadcastTo_1b_ab_apply _ _ p q).trans ?_
    exact shapeCast_same_apply _ _ _

theorem k21_pay2_apply (p : Fin 1024) : k21_pay2 (F := Ideal) (ix2 p 0) = 0 := by
  unfold k21_pay2
  exact Ideal.ofBits_zero_f32

theorem k21_pay1_apply (A B : FVec Ideal S1024x1024 .f32) (r : Vec Ideal S1024x1 .f32) (p : Fin 1024) :
    k21_pay1 (F := Ideal) A B r (ix2 p 0) = r (ix2 p 0) + ∑ q : Fin 1024, B (ix2 p q) * A (ix2 p q) := by
  unfold k21_pay1
  dsimp only
  refine (addf_apply _ _ _).trans ?_
  refine congrArg₂ (· + ·) (shapeCast_same_apply _ _ _) ?_
  refine (shapeCast_a_a1_apply _ _ p 0).trans ?_
  refine (sumAxis1_apply _ _ _ _ p).trans ?_
  exact Finset.sum_congr rfl fun k _ => mulf_apply _ _ _

/-! ## The product x·yᵀ of two 1024 × 64 blocks, read at an entry -/

theorem lhsD_0 (i : S1024x1024.Idx) (c : dot_S1024x64_S1024x64_S1024x1024_1_1_0_0_n_n.contr.Idx) :
    (dot_S1024x64_S1024x64_S1024x1024_1_1_0_0_n_n.lhsIdx i c 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl

theorem lhsD_1 (i : S1024x1024.Idx) (c : dot_S1024x64_S1024x64_S1024x1024_1_1_0_0_n_n.contr.Idx) :
    (dot_S1024x64_S1024x64_S1024x1024_1_1_0_0_n_n.lhsIdx i c 1).val = (c ⟨0, by decide⟩).val :=
  dot_S1024x64_S1024x64_S1024x1024_1_1_0_0_n_n.lhsIdx_val_of_single rfl i c

theorem rhsD_0 (i : S1024x1024.Idx) (c : dot_S1024x64_S1024x64_S1024x1024_1_1_0_0_n_n.contr.Idx) :
    (dot_S1024x64_S1024x64_S1024x1024_1_1_0_0_n_n.rhsIdx i c 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl

theorem rhsD_1 (i : S1024x1024.Idx) (c : dot_S1024x64_S1024x64_S1024x1024_1_1_0_0_n_n.contr.Idx) :
    (dot_S1024x64_S1024x64_S1024x1024_1_1_0_0_n_n.rhsIdx i c 1).val = (c ⟨0, by decide⟩).val :=
  dot_S1024x64_S1024x64_S1024x1024_1_1_0_0_n_n.rhsIdx_val_of_single rfl i c

/-- The product into the zero block, at (p, q): the inner product of row p of x with row q of y. -/
theorem matmulT_apply (x y : FVec Ideal S1024x64 .f32) (p q : Fin 1024) :
    matmul (F := Ideal) dot_S1024x64_S1024x64_S1024x1024_1_1_0_0_n_n none x y (constant S1024x1024 .f32 0x00000000#32) (ix2 p q)
      = ∑ k : Fin 64, x (ix2 p k) * y (ix2 q k) := by
  refine (Ideal.matmul_constant_zero_apply dot_S1024x64_S1024x64_S1024x1024_1_1_0_0_n_n none x y (ix2 p q)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q)
      ((contrEquiv1 dot_S1024x64_S1024x64_S1024x1024_1_1_0_0_n_n 64 rfl rfl).symm k) = ix2 p k :=
    funext fun a => Fin.ext (by
      match a with
      | ⟨0, _⟩ => exact lhsD_0 _ _
      | ⟨1, _⟩ => exact (lhsD_1 _ _).trans hk)
  have er : dot_S1024x64_S1024x64_S1024x1024_1_1_0_0_n_n.rhsIdx (ix2 p q)
      ((contrEquiv1 dot_S1024x64_S1024x64_S1024x1024_1_1_0_0_n_n 64 rfl rfl).symm k) = ix2 q k :=
    funext fun a => Fin.ext (by
      match a with
      | ⟨0, _⟩ => exact rhsD_0 _ _
      | ⟨1, _⟩ => exact (rhsD_1 _ _).trans hk)
  rw [el, er]

/-! ## The cost tile and the Gibbs tile -/

theorem sqrt_apply {s : Shape} {φ : FTy} (a : FVec Ideal s φ) (i : s.Idx) : sqrt a i = Ideal.sqrt (a i) := rfl

theorem exp_apply {s : Shape} {φ : FTy} (a : FVec Ideal s φ) (i : s.Idx) : exp a i = Ideal.exp (a i) := rfl

theorem k21_pay3_apply (x0 x1 : Vec Ideal S1024x64 .f32) (p q : Fin 1024) :
    k21_pay3 (F := Ideal) x0 x1 (ix2 p q)
      = Ideal.sqrt (max (((∑ k : Fin 64, x0 (ix2 p k) * x0 (ix2 p k)) + (∑ k : Fin 64, x1 (ix2 q k) * x1 (ix2 q k)))
          - Spec.two * (∑ k : Fin 64, x0 (ix2 p k) * x1 (ix2 q k))) 0) := by
  unfold k21_pay3
  dsimp only
  refine (sqrt_apply _ _).trans ?_
  refine congrArg Ideal.sqrt ?_
  refine (maximumf_apply _ _ _).trans ?_
  refine congrArg₂ max ?_ Ideal.ofBits_zero_f32
  refine (subf_apply _ _ _).trans ?_
  refine congrArg₂ (· - ·) ?_ ?_
  · refine (addf_apply _ _ _).trans ?_
    refine congrArg₂ (· + ·) ?_ ?_
    · refine (broadcastTo_a1_ab_apply _ _ p q).trans ?_
      refine (shapeCast_a_a1_apply _ _ p 0).trans ?_
      refine (sumAxis1_apply _ _ _ _ p).trans ?_
      exact Finset.sum_congr rfl fun k _ => mulf_apply _ _ _
    · refine (broadcastTo_1b_ab_apply _ _ p q).trans ?_
      refine (transpose_ix2_apply _ _ 0 q).trans ?_
      refine (shapeCast_a_a1_apply _ _ q 0).trans ?_
      refine (sumAxis1_apply _ _ _ _ q).trans ?_
      exact Finset.sum_congr rfl fun k _ => mulf_apply _ _ _
  · refine (mulf_apply _ _ _).trans ?_
    refine congrArg₂ (· * ·) rfl ?_
    exact matmulT_apply x0 x1 p q

/-- The Gibbs tile is exp(−cost / ε) of the same cost term, entry by entry. -/
theorem k0_pay1_eq_cost (x0 x1 : Vec Ideal S1024x64 .f32) (i : S1024x1024.Idx) :
    k0_pay1 (F := Ideal) x0 x1 i = Ideal.exp (Ideal.div (0 - k21_pay3 (F := Ideal) x0 x1 i) Spec.eps) := by
  unfold k0_pay1 k21_pay3
  dsimp only
  refine (truncf_apply (ψ := .bf16) (φ := .f32) _ bitsLt_bf16_f32 i).trans ?_
  refine (exp_apply _ _).trans ?_
  refine congrArg Ideal.exp ?_
  refine (divf_apply _ _ _).trans ?_
  refine congrArg₂ Ideal.div ?_ rfl
  refine (subf_apply _ _ _).trans ?_
  exact congrArg₂ (· - ·) Ideal.ofBits_zero_f32 rfl

theorem k0_pay1_apply (x0 x1 : Vec Ideal S1024x64 .f32) (p q : Fin 1024) :
    k0_pay1 (F := Ideal) x0 x1 (ix2 p q)
      = Ideal.exp (Ideal.div (0 - Ideal.sqrt (max (((∑ k : Fin 64, x0 (ix2 p k) * x0 (ix2 p k))
          + (∑ k : Fin 64, x1 (ix2 q k) * x1 (ix2 q k))) - Spec.two * (∑ k : Fin 64, x0 (ix2 p k) * x1 (ix2 q k))) 0)) Spec.eps) := by
  rw [k0_pay1_eq_cost, k21_pay3_apply]

/-! ## The later launches of each kind carry the same payload text -/

theorem k3_pay1_eq : @k3_pay1 = @k1_pay1 := rfl
theorem k5_pay1_eq : @k5_pay1 = @k1_pay1 := rfl
theorem k7_pay1_eq : @k7_pay1 = @k1_pay1 := rfl
theorem k9_pay1_eq : @k9_pay1 = @k1_pay1 := rfl
theorem k11_pay1_eq : @k11_pay1 = @k1_pay1 := rfl
theorem k13_pay1_eq : @k13_pay1 = @k1_pay1 := rfl
theorem k15_pay1_eq : @k15_pay1 = @k1_pay1 := rfl
theorem k17_pay1_eq : @k17_pay1 = @k1_pay1 := rfl
theorem k19_pay1_eq : @k19_pay1 = @k1_pay1 := rfl
theorem k4_pay1_eq : @k4_pay1 = @k2_pay1 := rfl
theorem k4_pay2_eq : @k4_pay2 = @k2_pay2 := rfl
theorem k4_pay3_eq : @k4_pay3 = @k2_pay3 := rfl
theorem k6_pay1_eq : @k6_pay1 = @k2_pay1 := rfl
theorem k6_pay2_eq : @k6_pay2 = @k2_pay2 := rfl
theorem k6_pay3_eq : @k6_pay3 = @k2_pay3 := rfl
theorem k8_pay1_eq : @k8_pay1 = @k2_pay1 := rfl
theorem k8_pay2_eq : @k8_pay2 = @k2_pay2 := rfl
theorem k8_pay3_eq : @k8_pay3 = @k2_pay3 := rfl
theorem k10_pay1_eq : @k10_pay1 = @k2_pay1 := rfl
theorem k10_pay2_eq : @k10_pay2 = @k2_pay2 := rfl
theorem k10_pay3_eq : @k10_pay3 = @k2_pay3 := rfl
theorem k12_pay1_eq : @k12_pay1 = @k2_pay1 := rfl
theorem k12_pay2_eq : @k12_pay2 = @k2_pay2 := rfl
theorem k12_pay3_eq : @k12_pay3 = @k2_pay3 := rfl
theorem k14_pay1_eq : @k14_pay1 = @k2_pay1 := rfl
theorem k14_pay2_eq : @k14_pay2 = @k2_pay2 := rfl
theorem k14_pay3_eq : @k14_pay3 = @k2_pay3 := rfl
theorem k16_pay1_eq : @k16_pay1 = @k2_pay1 := rfl
theorem k16_pay2_eq : @k16_pay2 = @k2_pay2 := rfl
theorem k16_pay3_eq : @k16_pay3 = @k2_pay3 := rfl
theorem k18_pay1_eq : @k18_pay1 = @k2_pay1 := rfl
theorem k18_pay2_eq : @k18_pay2 = @k2_pay2 := rfl
theorem k18_pay3_eq : @k18_pay3 = @k2_pay3 := rfl
theorem k20_pay1_eq : @k20_pay1 = @k2_pay1 := rfl
theorem k20_pay2_eq : @k20_pay2 = @k2_pay2 := rfl
theorem k20_pay3_eq : @k20_pay3 = @k2_pay3 := rfl

end Cert.KernelIdeal.Pay

end
-- ==== Proof.Bridge.lean ====
/-
  The whole-array functions of the launches against the specification's index-level functions: an array read at the pair
  (r, c) and read back coordinate by coordinate is the same entry, so each array function, viewed through the plain
  functions of its arrays, is the specification's step; and the ten rounds of the two scaling updates, started from a
  row of ones, are the specification's iteration.
-/
import proofs.«111645_j15006615733809_2_alg».proof.Proof.G
import proofs.«111645_j15006615733809_2_alg».proof.Proof.Spec
import Idealize.ShloMosaic.Lib.ValueIdx

noncomputable section

namespace Cert.Bridge

open Cert.G
open Idealize.ShloMosaic Idealize.ShloMosaic.ValueIdx

/-! ## Each array function is the specification's step -/

/-- The row-scalings update. -/
theorem colOf_Gu (K : A8192x8192) (v : A1x8192) : colOf (Gu K v) = Spec.uStep (matOf K) (rowOf v) := by
  funext r
  rfl

/-- The column-scalings update. -/
theorem rowOf_Gv (K : A8192x8192) (u : A8192x1) : rowOf (Gv K u) = Spec.vStep (matOf K) (colOf u) := by
  funext c
  rfl

/-- The Gibbs matrix. -/
theorem matOf_Gg (s t : A8192x64) : matOf (Gg s t) = Spec.gibbs (featOf s) (featOf t) := by
  funext r c
  rfl

/-- The coupling. -/
theorem matOf_Gc (K : A8192x8192) (u : A8192x1) (v : A1x8192) :
    matOf (Gc K u v) = Spec.coupling (matOf K) (colOf u) (rowOf v) := by
  funext r c
  rfl

/-- The row sums of coupling × cost. -/
theorem colOf_Gr (s t : A8192x64) (K : A8192x8192) (u : A8192x1) (v : A1x8192) :
    colOf (Gr s t K u v)
      = fun r => Spec.rowSum (Spec.coupling (matOf K) (colOf u) (rowOf v)) (Spec.cost (featOf s) (featOf t)) r := by
  funext r
  rfl

/-! ## The ten rounds -/

/-- The scalings after n rounds as arrays: a column u and a row v, from the row v0 (the column before the first round
    is not read). -/
def itA (K : A8192x8192) (v0 : A1x8192) : ℕ → A8192x1 × A1x8192
  | 0 => (fun _ => 0, v0)
  | n + 1 => (Gu K (itA K v0 n).2, Gv K (Gu K (itA K v0 n).2))

theorem itA_zero (K : A8192x8192) (v0 : A1x8192) : itA K v0 0 = (fun _ => 0, v0) := rfl

theorem itA_succ (K : A8192x8192) (v0 : A1x8192) (n : ℕ) :
    itA K v0 (n + 1) = (Gu K (itA K v0 n).2, Gv K (Gu K (itA K v0 n).2)) := rfl

theorem uv_succ (M : Spec.Mat) (n : ℕ) :
    Spec.uv M (n + 1) = (Spec.uStep M (Spec.uv M n).2, Spec.vStep M (Spec.uStep M (Spec.uv M n).2)) := rfl

/-- From a row of ones the array iteration is the specification's: the row of column scalings after every number of
    rounds, and the column of row scalings after at least one. -/
theorem itA_spec (K : A8192x8192) (v0 : A1x8192) (hv0 : ∀ c : Fin 8192, v0 (ix2 (0 : Fin 1) c) = Spec.one) :
    ∀ n, rowOf (itA K v0 n).2 = (Spec.uv (matOf K) n).2 ∧ (0 < n → colOf (itA K v0 n).1 = (Spec.uv (matOf K) n).1)
  | 0 => ⟨funext fun c => hv0 c, fun h => absurd h (Nat.lt_irrefl 0)⟩
  | n + 1 => by
    have ih := (itA_spec K v0 hv0 n).1
    have hu : colOf (Gu K (itA K v0 n).2) = Spec.uStep (matOf K) (Spec.uv (matOf K) n).2 := by
      rw [colOf_Gu, ih]
    rw [itA_succ, uv_succ]
    refine ⟨?_, fun _ => hu⟩
    show rowOf (Gv K (Gu K (itA K v0 n).2)) = Spec.vStep (matOf K) (Spec.uStep (matOf K) (Spec.uv (matOf K) n).2)
    rw [rowOf_Gv, hu]

end Cert.Bridge

end
-- ==== Proof.LibTail.lean ====
import Mathlib
import Idealize.ShloMosaic.PureOps.Ideal
import Idealize.ShloMosaic.PureOps.Ideal.Laws
import Idealize.ShloMosaic.Lib.ValueIdx

/-!
# A total sum of a one-column array

A host reduction with an add body over BOTH axes of an `[n, 1]` array into a scalar is, at the ideal values, the
initial value plus the sum over the `n` rows of the array's entry in its single column: the column axis has one
coordinate, so the sum over all index pairs collapses to the sum over the rows.
-/

noncomputable section

namespace Cert.LibTail

open Idealize.ShloMosaic Idealize.ShloMosaic.ValueIdx

/-- A sum over the index set of an `[n, 1]` array is the sum over its rows of the entry in column zero. -/
theorem sum_idx_col {M : Type*} [AddCommMonoid M] {n : ℕ} (f : (⟨2, ![n, 1]⟩ : Shape).Idx → M) :
    ∑ i, f i = ∑ r : Fin n, f (ix2 r 0) := by
  rw [sum_idx2]
  refine Finset.sum_congr rfl fun r _ => ?_
  rw [Fin.sum_univ_one]

/-- **The host's total sum of an `[n, 1]` array.**  The float reduction with an add body over both axes, read at the
    scalar result's one index, is the initial scalar plus the sum over the rows. -/
theorem hostReduceAdd_col {n : ℕ} (y : FVec Ideal (⟨2, ![n, 1]⟩ : Shape) .f32)
    (init : (⟨0, ![]⟩ : Shape).Idx → Ideal .f32)
    (h1 : (⟨2, ![n, 1]⟩ : Shape).ReducesTo [0, 1] (⟨0, ![]⟩ : Shape)) (h2 : 0 < (⟨0, ![]⟩ : Shape).numel)
    (j : (⟨0, ![]⟩ : Shape).Idx) :
    Host.reduceAdd y init h1 h2 j = init ix0 + ∑ r : Fin n, y (ix2 r 0) := by
  show Ideal.hostReduceAdd h1 y (init (Shape.Idx.first h2)) j = _
  rw [Ideal.hostReduceAdd_total h1 (fun b => b.elim0), sum_idx_col, eq_ix0 (Shape.Idx.first h2)]

/-- The same at 4096 rows. -/
theorem hostReduceAdd_col_4096 (y : FVec Ideal (⟨2, ![4096, 1]⟩ : Shape) .f32)
    (init : (⟨0, ![]⟩ : Shape).Idx → Ideal .f32)
    (h1 : (⟨2, ![4096, 1]⟩ : Shape).ReducesTo [0, 1] (⟨0, ![]⟩ : Shape)) (h2 : 0 < (⟨0, ![]⟩ : Shape).numel)
    (j : (⟨0, ![]⟩ : Shape).Idx) :
    Host.reduceAdd y init h1 h2 j = init ix0 + ∑ r : Fin 4096, y (ix2 r 0) :=
  hostReduceAdd_col y init h1 h2 j

end Cert.LibTail
-- ==== Proof.BridgeHost.lean ====
/-
  The two host stretches read at an index, over the extended reals: the starting row of column scalings is the constant
  one; the distance is the sum of the row sums over 8192²; and a row seen as a column reads the row's entry.
-/
import proofs.«111645_j15006615733809_2_alg».proof.Proof.Gen.KernelIdeal
import proofs.«111645_j15006615733809_2_alg».proof.Proof.Spec
import proofs.«111645_j15006615733809_2_alg».proof.Proof.LibTail
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BridgeHost

open Cert.KernelIdeal Cert.KernelIdeal.Facts₀
open Idealize.ShloMosaic Idealize.ShloMosaic.ValueIdx

/-- The scalar one broadcast to a row reads one at every column. -/
theorem ones_row_apply (c : Fin 8192) :
    broadcastInDim S1x8192 ![] bcast_S_S1x8192 (constant (F := Ideal) S_ .f32 0x3F800000#32) (ix2 (0 : Fin 1) c) = Spec.one :=
  broadcastInDim_apply _ bcast_S_S1x8192 (constant (F := Ideal) S_ .f32 0x3F800000#32) (ix2 (0 : Fin 1) c) ix0
    (fun a => a.elim0)

/-- The total of a column from zero, divided by the scalar 8192², is the sum of the column's entries over that scalar. -/
theorem dist_apply (R : (⟨S8192x1, .f32⟩ : BufTy).Contents (Elt Ideal)) :
    Host.divf (F := Ideal)
        (Host.reduceAdd (F := Ideal) R (constant (F := Ideal) S_ .f32 0x00000000#32) reducesTo_S8192x1_S_d0_1 h_S_)
        (constant (F := Ideal) S_ .f32 0x4C800000#32) ValueIdx.ix0
      = Ideal.div (∑ r : Fin 8192, R (ix2 r (0 : Fin 1))) Spec.tot := by
  show Ideal.div (Host.reduceAdd (F := Ideal) R (constant (F := Ideal) S_ .f32 0x00000000#32) reducesTo_S8192x1_S_d0_1 h_S_ ix0)
      (Ideal.ofBits .f32 0x4C800000#32) = _
  refine congrArg₂ Ideal.div ?_ rfl
  refine (Cert.LibTail.hostReduceAdd_col R _ reducesTo_S8192x1_S_d0_1 h_S_ ix0).trans ?_
  show Ideal.ofBits .f32 0x00000000#32 + _ = _
  rw [Ideal.ofBits_zero_f32, zero_add]

/-- A row turned into a column reads, at row r, the row's entry r. -/
theorem row_as_col_apply (X : (⟨S1x8192, .f32⟩ : BufTy).Contents (Elt Ideal)) (r : Fin 8192) :
    transpose S8192x1 [1, 0] X transposes_S1x8192_S8192x1_1_0 (ix2 r (0 : Fin 1)) = X (ix2 (0 : Fin 1) r) :=
  transpose_ix2_apply X transposes_S1x8192_S8192x1_1_0 r (0 : Fin 1)

end Cert.KernelIdeal.BridgeHost

end
-- ==== Proof.KI.Chain.lean ====
/- The kernel program's results as functions of its two arguments: the contents of every boundary of the run, followed from the
   launch — the Gibbs matrix after the first region, then ten rounds of the two scalings' updates (each region's output array is one
   whole-array function of the arrays it read; every other buffer is left alone), the coupling and its row sums after the last
   region, and the last host stretch's sum, quotient and transposition. -/
import proofs.«111645_j15006615733809_2_alg».proof.Proof.KI.Run
import proofs.«111645_j15006615733809_2_alg».proof.Proof.KI.V0
import proofs.«111645_j15006615733809_2_alg».proof.Proof.KI.V1
import proofs.«111645_j15006615733809_2_alg».proof.Proof.KI.V2
import proofs.«111645_j15006615733809_2_alg».proof.Proof.KI.V3
import proofs.«111645_j15006615733809_2_alg».proof.Proof.KI.V4
import proofs.«111645_j15006615733809_2_alg».proof.Proof.KI.V5
import proofs.«111645_j15006615733809_2_alg».proof.Proof.KI.V6
import proofs.«111645_j15006615733809_2_alg».proof.Proof.KI.V7
import proofs.«111645_j15006615733809_2_alg».proof.Proof.KI.V8
import proofs.«111645_j15006615733809_2_alg».proof.Proof.KI.V9
import proofs.«111645_j15006615733809_2_alg».proof.Proof.KI.V10
import proofs.«111645_j15006615733809_2_alg».proof.Proof.KI.V11
import proofs.«111645_j15006615733809_2_alg».proof.Proof.KI.V12
import proofs.«111645_j15006615733809_2_alg».proof.Proof.KI.V13
import proofs.«111645_j15006615733809_2_alg».proof.Proof.KI.V14
import proofs.«111645_j15006615733809_2_alg».proof.Proof.KI.V15
import proofs.«111645_j15006615733809_2_alg».proof.Proof.KI.V16
import proofs.«111645_j15006615733809_2_alg».proof.Proof.KI.V17
import proofs.«111645_j15006615733809_2_alg».proof.Proof.KI.V18
import proofs.«111645_j15006615733809_2_alg».proof.Proof.KI.V19
import proofs.«111645_j15006615733809_2_alg».proof.Proof.KI.V20
import proofs.«111645_j15006615733809_2_alg».proof.Proof.KI.V21
import proofs.«111645_j15006615733809_2_alg».proof.Proof.Pay
import proofs.«111645_j15006615733809_2_alg».proof.Proof.Bridge
import proofs.«111645_j15006615733809_2_alg».proof.Proof.BridgeHost
import proofs.«111645_j15006615733809_2_alg».proof.Proof.G
import Idealize.ShloMosaic.Lib.StableHlo.Run

set_option maxRecDepth 16384

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx
open Idealize.SL Idealize.SL.Sem
open Cert.G Cert.Bridge

variable (m : (ℓ : Loc nD τ sig) → Buf (Elt Ideal) ℓ) (ρ : Dev nD → PrngReg)

/-- The two argument arrays, the Gibbs matrix of them, the all-ones row the rounds start from, and the rounds. -/
abbrev sA (c : Dev nD) : A8192x64 := m ((c : Thread nD τ).loc main_arg0)
abbrev tA (c : Dev nD) : A8192x64 := m ((c : Thread nD τ).loc main_arg1)
def Karr (c : Dev nD) : A8192x8192 := Gg (sA m c) (tA m c)
def v0row (c : Dev nD) : A1x8192 := WE1 m ρ c (Proc.devRef .tc main_v1)
def it (c : Dev nD) (n : ℕ) : A8192x1 × A1x8192 := itA (Karr m c) (v0row m ρ c) n

theorem v0row_one (c : Dev nD) (q : Fin 8192) : v0row m ρ c (ix2 (0 : Fin 1) q) = Spec.one := by
  have e : (WE1 m ρ c (Proc.devRef .tc main_v1) : S1x8192.Idx → EReal)
      = broadcastInDim S1x8192 ![] bcast_S_S1x8192 (constant (F := Ideal) S_ .f32 0x3F800000#32) := by
    show (StableHlo.after hostOps1 (WX0 m ρ c) (Proc.devRef .tc main_v1) : S1x8192.Idx → EReal) = _
    after_results
  unfold v0row
  rw [e]
  exact Cert.KernelIdeal.BridgeHost.ones_row_apply q

/-! ## The Gibbs matrix stays in its buffer from the first region on -/

theorem K_X0 (c : Dev nD) : (WX0 m ρ c (Proc.devRef .tc main_v0) : A8192x8192) = Karr m c :=
  (WX0_arr m ρ c 2).trans (arr0 (VE0 m ρ) (fun x0 x1 p q => k0_pay1_apply x0 x1 p q) c)
theorem K_E1 (c : Dev nD) : (WE1 m ρ c (Proc.devRef .tc main_v0) : A8192x8192) = Karr m c :=
  (StableHlo.after_of_writes_sub hostOps1 _ hostOps1_writes (by decide)).trans (K_X0 m ρ c)
theorem K_X1 (c : Dev nD) : (WX1 m ρ c (Proc.devRef .tc main_v0) : A8192x8192) = Karr m c := (keep1 m ρ c main_v0 (by decide)).trans (K_E1 m ρ c)
theorem K_X2 (c : Dev nD) : (WX2 m ρ c (Proc.devRef .tc main_v0) : A8192x8192) = Karr m c := (keep2 m ρ c main_v0 (by decide)).trans (K_X1 m ρ c)
theorem K_X3 (c : Dev nD) : (WX3 m ρ c (Proc.devRef .tc main_v0) : A8192x8192) = Karr m c := (keep3 m ρ c main_v0 (by decide)).trans (K_X2 m ρ c)
theorem K_X4 (c : Dev nD) : (WX4 m ρ c (Proc.devRef .tc main_v0) : A8192x8192) = Karr m c := (keep4 m ρ c main_v0 (by decide)).trans (K_X3 m ρ c)
theorem K_X5 (c : Dev nD) : (WX5 m ρ c (Proc.devRef .tc main_v0) : A8192x8192) = Karr m c := (keep5 m ρ c main_v0 (by decide)).trans (K_X4 m ρ c)
theorem K_X6 (c : Dev nD) : (WX6 m ρ c (Proc.devRef .tc main_v0) : A8192x8192) = Karr m c := (keep6 m ρ c main_v0 (by decide)).trans (K_X5 m ρ c)
theorem K_X7 (c : Dev nD) : (WX7 m ρ c (Proc.devRef .tc main_v0) : A8192x8192) = Karr m c := (keep7 m ρ c main_v0 (by decide)).trans (K_X6 m ρ c)
theorem K_X8 (c : Dev nD) : (WX8 m ρ c (Proc.devRef .tc main_v0) : A8192x8192) = Karr m c := (keep8 m ρ c main_v0 (by decide)).trans (K_X7 m ρ c)
theorem K_X9 (c : Dev nD) : (WX9 m ρ c (Proc.devRef .tc main_v0) : A8192x8192) = Karr m c := (keep9 m ρ c main_v0 (by decide)).trans (K_X8 m ρ c)
theorem K_X10 (c : Dev nD) : (WX10 m ρ c (Proc.devRef .tc main_v0) : A8192x8192) = Karr m c := (keep10 m ρ c main_v0 (by decide)).trans (K_X9 m ρ c)
theorem K_X11 (c : Dev nD) : (WX11 m ρ c (Proc.devRef .tc main_v0) : A8192x8192) = Karr m c := (keep11 m ρ c main_v0 (by decide)).trans (K_X10 m ρ c)
theorem K_X12 (c : Dev nD) : (WX12 m ρ c (Proc.devRef .tc main_v0) : A8192x8192) = Karr m c := (keep12 m ρ c main_v0 (by decide)).trans (K_X11 m ρ c)
theorem K_X13 (c : Dev nD) : (WX13 m ρ c (Proc.devRef .tc main_v0) : A8192x8192) = Karr m c := (keep13 m ρ c main_v0 (by decide)).trans (K_X12 m ρ c)
theorem K_X14 (c : Dev nD) : (WX14 m ρ c (Proc.devRef .tc main_v0) : A8192x8192) = Karr m c := (keep14 m ρ c main_v0 (by decide)).trans (K_X13 m ρ c)
theorem K_X15 (c : Dev nD) : (WX15 m ρ c (Proc.devRef .tc main_v0) : A8192x8192) = Karr m c := (keep15 m ρ c main_v0 (by decide)).trans (K_X14 m ρ c)
theorem K_X16 (c : Dev nD) : (WX16 m ρ c (Proc.devRef .tc main_v0) : A8192x8192) = Karr m c := (keep16 m ρ c main_v0 (by decide)).trans (K_X15 m ρ c)
theorem K_X17 (c : Dev nD) : (WX17 m ρ c (Proc.devRef .tc main_v0) : A8192x8192) = Karr m c := (keep17 m ρ c main_v0 (by decide)).trans (K_X16 m ρ c)
theorem K_X18 (c : Dev nD) : (WX18 m ρ c (Proc.devRef .tc main_v0) : A8192x8192) = Karr m c := (keep18 m ρ c main_v0 (by decide)).trans (K_X17 m ρ c)
theorem K_X19 (c : Dev nD) : (WX19 m ρ c (Proc.devRef .tc main_v0) : A8192x8192) = Karr m c := (keep19 m ρ c main_v0 (by decide)).trans (K_X18 m ρ c)
theorem K_X20 (c : Dev nD) : (WX20 m ρ c (Proc.devRef .tc main_v0) : A8192x8192) = Karr m c := (keep20 m ρ c main_v0 (by decide)).trans (K_X19 m ρ c)
theorem K_X21 (c : Dev nD) : (WX21 m ρ c (Proc.devRef .tc main_v0) : A8192x8192) = Karr m c := (keep21 m ρ c main_v0 (by decide)).trans (K_X20 m ρ c)

/-! ## The ten rounds -/

/-- Round 1, the row scalings: region 1 leaves them in main_v3. -/
theorem U_0 (c : Dev nD) : (WX1 m ρ c (Proc.devRef .tc main_v3) : A8192x1) = (it m ρ c 1).1 := by
  refine (WX1_arr m ρ c 2).trans ?_
  refine (arr1 (VE1 m ρ) (fun x0 x1 p => k1_pay1_apply x0 x1 p) c).trans ?_
  show Gu (WE1 m ρ c (Proc.devRef .tc main_v0) : A8192x8192) (WE1 m ρ c (Proc.devRef .tc main_v1) : A1x8192) = _
  rw [K_E1 m ρ c]
  rfl
/-- Round 1, the column scalings: region 2 leaves them, as a row, in main_v4. -/
theorem V_0 (c : Dev nD) : (WX2 m ρ c (Proc.devRef .tc main_v4) : A1x8192) = (it m ρ c 1).2 := by
  refine (WX2_arr m ρ c 2).trans ?_
  refine (arr2 (VE2 m ρ) (fun q => k2_pay1_apply q) (fun x0 a x1 q => k2_pay2_apply x0 a x1 q) (fun a q => k2_pay3_apply a q) c).trans ?_
  show Gv (WX1 m ρ c (Proc.devRef .tc main_v0) : A8192x8192) (WX1 m ρ c (Proc.devRef .tc main_v3) : A8192x1) = _
  rw [K_X1 m ρ c, U_0 m ρ c]
  rfl

/-- Round 2, the row scalings: region 3 leaves them in main_v5. -/
theorem U_1 (c : Dev nD) : (WX3 m ρ c (Proc.devRef .tc main_v5) : A8192x1) = (it m ρ c 2).1 := by
  refine (WX3_arr m ρ c 2).trans ?_
  refine (arr3 (VE3 m ρ) (fun x0 x1 p => show k3_pay1 (F := Ideal) x0 x1 (ix2 p (0 : Fin 1)) = _ from k1_pay1_apply x0 x1 p) c).trans ?_
  show Gu (WX2 m ρ c (Proc.devRef .tc main_v0) : A8192x8192) (WX2 m ρ c (Proc.devRef .tc main_v4) : A1x8192) = _
  rw [K_X2 m ρ c, V_0 m ρ c]
  rfl
/-- Round 2, the column scalings: region 4 leaves them, as a row, in main_v6. -/
theorem V_1 (c : Dev nD) : (WX4 m ρ c (Proc.devRef .tc main_v6) : A1x8192) = (it m ρ c 2).2 := by
  refine (WX4_arr m ρ c 2).trans ?_
  refine (arr4 (VE4 m ρ) (fun q => show k4_pay1 (F := Ideal) (ix2 (0 : Fin 1) q) = _ from k2_pay1_apply q) (fun x0 a x1 q => show k4_pay2 (F := Ideal) x0 a x1 (ix2 (0 : Fin 1) q) = _ from k2_pay2_apply x0 a x1 q) (fun a q => show k4_pay3 (F := Ideal) a (ix2 (0 : Fin 1) q) = _ from k2_pay3_apply a q) c).trans ?_
  show Gv (WX3 m ρ c (Proc.devRef .tc main_v0) : A8192x8192) (WX3 m ρ c (Proc.devRef .tc main_v5) : A8192x1) = _
  rw [K_X3 m ρ c, U_1 m ρ c]
  rfl

/-- Round 3, the row scalings: region 5 leaves them in main_v7. -/
theorem U_2 (c : Dev nD) : (WX5 m ρ c (Proc.devRef .tc main_v7) : A8192x1) = (it m ρ c 3).1 := by
  refine (WX5_arr m ρ c 2).trans ?_
  refine (arr5 (VE5 m ρ) (fun x0 x1 p => show k5_pay1 (F := Ideal) x0 x1 (ix2 p (0 : Fin 1)) = _ from k1_pay1_apply x0 x1 p) c).trans ?_
  show Gu (WX4 m ρ c (Proc.devRef .tc main_v0) : A8192x8192) (WX4 m ρ c (Proc.devRef .tc main_v6) : A1x8192) = _
  rw [K_X4 m ρ c, V_1 m ρ c]
  rfl
/-- Round 3, the column scalings: region 6 leaves them, as a row, in main_v8. -/
theorem V_2 (c : Dev nD) : (WX6 m ρ c (Proc.devRef .tc main_v8) : A1x8192) = (it m ρ c 3).2 := by
  refine (WX6_arr m ρ c 2).trans ?_
  refine (arr6 (VE6 m ρ) (fun q => show k6_pay1 (F := Ideal) (ix2 (0 : Fin 1) q) = _ from k2_pay1_apply q) (fun x0 a x1 q => show k6_pay2 (F := Ideal) x0 a x1 (ix2 (0 : Fin 1) q) = _ from k2_pay2_apply x0 a x1 q) (fun a q => show k6_pay3 (F := Ideal) a (ix2 (0 : Fin 1) q) = _ from k2_pay3_apply a q) c).trans ?_
  show Gv (WX5 m ρ c (Proc.devRef .tc main_v0) : A8192x8192) (WX5 m ρ c (Proc.devRef .tc main_v7) : A8192x1) = _
  rw [K_X5 m ρ c, U_2 m ρ c]
  rfl

/-- Round 4, the row scalings: region 7 leaves them in main_v9. -/
theorem U_3 (c : Dev nD) : (WX7 m ρ c (Proc.devRef .tc main_v9) : A8192x1) = (it m ρ c 4).1 := by
  refine (WX7_arr m ρ c 2).trans ?_
  refine (arr7 (VE7 m ρ) (fun x0 x1 p => show k7_pay1 (F := Ideal) x0 x1 (ix2 p (0 : Fin 1)) = _ from k1_pay1_apply x0 x1 p) c).trans ?_
  show Gu (WX6 m ρ c (Proc.devRef .tc main_v0) : A8192x8192) (WX6 m ρ c (Proc.devRef .tc main_v8) : A1x8192) = _
  rw [K_X6 m ρ c, V_2 m ρ c]
  rfl
/-- Round 4, the column scalings: region 8 leaves them, as a row, in main_v10. -/
theorem V_3 (c : Dev nD) : (WX8 m ρ c (Proc.devRef .tc main_v10) : A1x8192) = (it m ρ c 4).2 := by
  refine (WX8_arr m ρ c 2).trans ?_
  refine (arr8 (VE8 m ρ) (fun q => show k8_pay1 (F := Ideal) (ix2 (0 : Fin 1) q) = _ from k2_pay1_apply q) (fun x0 a x1 q => show k8_pay2 (F := Ideal) x0 a x1 (ix2 (0 : Fin 1) q) = _ from k2_pay2_apply x0 a x1 q) (fun a q => show k8_pay3 (F := Ideal) a (ix2 (0 : Fin 1) q) = _ from k2_pay3_apply a q) c).trans ?_
  show Gv (WX7 m ρ c (Proc.devRef .tc main_v0) : A8192x8192) (WX7 m ρ c (Proc.devRef .tc main_v9) : A8192x1) = _
  rw [K_X7 m ρ c, U_3 m ρ c]
  rfl

/-- Round 5, the row scalings: region 9 leaves them in main_v11. -/
theorem U_4 (c : Dev nD) : (WX9 m ρ c (Proc.devRef .tc main_v11) : A8192x1) = (it m ρ c 5).1 := by
  refine (WX9_arr m ρ c 2).trans ?_
  refine (arr9 (VE9 m ρ) (fun x0 x1 p => show k9_pay1 (F := Ideal) x0 x1 (ix2 p (0 : Fin 1)) = _ from k1_pay1_apply x0 x1 p) c).trans ?_
  show Gu (WX8 m ρ c (Proc.devRef .tc main_v0) : A8192x8192) (WX8 m ρ c (Proc.devRef .tc main_v10) : A1x8192) = _
  rw [K_X8 m ρ c, V_3 m ρ c]
  rfl
/-- Round 5, the column scalings: region 10 leaves them, as a row, in main_v12. -/
theorem V_4 (c : Dev nD) : (WX10 m ρ c (Proc.devRef .tc main_v12) : A1x8192) = (it m ρ c 5).2 := by
  refine (WX10_arr m ρ c 2).trans ?_
  refine (arr10 (VE10 m ρ) (fun q => show k10_pay1 (F := Ideal) (ix2 (0 : Fin 1) q) = _ from k2_pay1_apply q) (fun x0 a x1 q => show k10_pay2 (F := Ideal) x0 a x1 (ix2 (0 : Fin 1) q) = _ from k2_pay2_apply x0 a x1 q) (fun a q => show k10_pay3 (F := Ideal) a (ix2 (0 : Fin 1) q) = _ from k2_pay3_apply a q) c).trans ?_
  show Gv (WX9 m ρ c (Proc.devRef .tc main_v0) : A8192x8192) (WX9 m ρ c (Proc.devRef .tc main_v11) : A8192x1) = _
  rw [K_X9 m ρ c, U_4 m ρ c]
  rfl

/-- Round 6, the row scalings: region 11 leaves them in main_v13. -/
theorem U_5 (c : Dev nD) : (WX11 m ρ c (Proc.devRef .tc main_v13) : A8192x1) = (it m ρ c 6).1 := by
  refine (WX11_arr m ρ c 2).trans ?_
  refine (arr11 (VE11 m ρ) (fun x0 x1 p => show k11_pay1 (F := Ideal) x0 x1 (ix2 p (0 : Fin 1)) = _ from k1_pay1_apply x0 x1 p) c).trans ?_
  show Gu (WX10 m ρ c (Proc.devRef .tc main_v0) : A8192x8192) (WX10 m ρ c (Proc.devRef .tc main_v12) : A1x8192) = _
  rw [K_X10 m ρ c, V_4 m ρ c]
  rfl
/-- Round 6, the column scalings: region 12 leaves them, as a row, in main_v14. -/
theorem V_5 (c : Dev nD) : (WX12 m ρ c (Proc.devRef .tc main_v14) : A1x8192) = (it m ρ c 6).2 := by
  refine (WX12_arr m ρ c 2).trans ?_
  refine (arr12 (VE12 m ρ) (fun q => show k12_pay1 (F := Ideal) (ix2 (0 : Fin 1) q) = _ from k2_pay1_apply q) (fun x0 a x1 q => show k12_pay2 (F := Ideal) x0 a x1 (ix2 (0 : Fin 1) q) = _ from k2_pay2_apply x0 a x1 q) (fun a q => show k12_pay3 (F := Ideal) a (ix2 (0 : Fin 1) q) = _ from k2_pay3_apply a q) c).trans ?_
  show Gv (WX11 m ρ c (Proc.devRef .tc main_v0) : A8192x8192) (WX11 m ρ c (Proc.devRef .tc main_v13) : A8192x1) = _
  rw [K_X11 m ρ c, U_5 m ρ c]
  rfl

/-- Round 7, the row scalings: region 13 leaves them in main_v15. -/
theorem U_6 (c : Dev nD) : (WX13 m ρ c (Proc.devRef .tc main_v15) : A8192x1) = (it m ρ c 7).1 := by
  refine (WX13_arr m ρ c 2).trans ?_
  refine (arr13 (VE13 m ρ) (fun x0 x1 p => show k13_pay1 (F := Ideal) x0 x1 (ix2 p (0 : Fin 1)) = _ from k1_pay1_apply x0 x1 p) c).trans ?_
  show Gu (WX12 m ρ c (Proc.devRef .tc main_v0) : A8192x8192) (WX12 m ρ c (Proc.devRef .tc main_v14) : A1x8192) = _
  rw [K_X12 m ρ c, V_5 m ρ c]
  rfl
/-- Round 7, the column scalings: region 14 leaves them, as a row, in main_v16. -/
theorem V_6 (c : Dev nD) : (WX14 m ρ c (Proc.devRef .tc main_v16) : A1x8192) = (it m ρ c 7).2 := by
  refine (WX14_arr m ρ c 2).trans ?_
  refine (arr14 (VE14 m ρ) (fun q => show k14_pay1 (F := Ideal) (ix2 (0 : Fin 1) q) = _ from k2_pay1_apply q) (fun x0 a x1 q => show k14_pay2 (F := Ideal) x0 a x1 (ix2 (0 : Fin 1) q) = _ from k2_pay2_apply x0 a x1 q) (fun a q => show k14_pay3 (F := Ideal) a (ix2 (0 : Fin 1) q) = _ from k2_pay3_apply a q) c).trans ?_
  show Gv (WX13 m ρ c (Proc.devRef .tc main_v0) : A8192x8192) (WX13 m ρ c (Proc.devRef .tc main_v15) : A8192x1) = _
  rw [K_X13 m ρ c, U_6 m ρ c]
  rfl

/-- Round 8, the row scalings: region 15 leaves them in main_v17. -/
theorem U_7 (c : Dev nD) : (WX15 m ρ c (Proc.devRef .tc main_v17) : A8192x1) = (it m ρ c 8).1 := by
  refine (WX15_arr m ρ c 2).trans ?_
  refine (arr15 (VE15 m ρ) (fun x0 x1 p => show k15_pay1 (F := Ideal) x0 x1 (ix2 p (0 : Fin 1)) = _ from k1_pay1_apply x0 x1 p) c).trans ?_
  show Gu (WX14 m ρ c (Proc.devRef .tc main_v0) : A8192x8192) (WX14 m ρ c (Proc.devRef .tc main_v16) : A1x8192) = _
  rw [K_X14 m ρ c, V_6 m ρ c]
  rfl
/-- Round 8, the column scalings: region 16 leaves them, as a row, in main_v18. -/
theorem V_7 (c : Dev nD) : (WX16 m ρ c (Proc.devRef .tc main_v18) : A1x8192) = (it m ρ c 8).2 := by
  refine (WX16_arr m ρ c 2).trans ?_
  refine (arr16 (VE16 m ρ) (fun q => show k16_pay1 (F := Ideal) (ix2 (0 : Fin 1) q) = _ from k2_pay1_apply q) (fun x0 a x1 q => show k16_pay2 (F := Ideal) x0 a x1 (ix2 (0 : Fin 1) q) = _ from k2_pay2_apply x0 a x1 q) (fun a q => show k16_pay3 (F := Ideal) a (ix2 (0 : Fin 1) q) = _ from k2_pay3_apply a q) c).trans ?_
  show Gv (WX15 m ρ c (Proc.devRef .tc main_v0) : A8192x8192) (WX15 m ρ c (Proc.devRef .tc main_v17) : A8192x1) = _
  rw [K_X15 m ρ c, U_7 m ρ c]
  rfl

/-- Round 9, the row scalings: region 17 leaves them in main_v19. -/
theorem U_8 (c : Dev nD) : (WX17 m ρ c (Proc.devRef .tc main_v19) : A8192x1) = (it m ρ c 9).1 := by
  refine (WX17_arr m ρ c 2).trans ?_
  refine (arr17 (VE17 m ρ) (fun x0 x1 p => show k17_pay1 (F := Ideal) x0 x1 (ix2 p (0 : Fin 1)) = _ from k1_pay1_apply x0 x1 p) c).trans ?_
  show Gu (WX16 m ρ c (Proc.devRef .tc main_v0) : A8192x8192) (WX16 m ρ c (Proc.devRef .tc main_v18) : A1x8192) = _
  rw [K_X16 m ρ c, V_7 m ρ c]
  rfl
/-- Round 9, the column scalings: region 18 leaves them, as a row, in main_v20. -/
theorem V_8 (c : Dev nD) : (WX18 m ρ c (Proc.devRef .tc main_v20) : A1x8192) = (it m ρ c 9).2 := by
  refine (WX18_arr m ρ c 2).trans ?_
  refine (arr18 (VE18 m ρ) (fun q => show k18_pay1 (F := Ideal) (ix2 (0 : Fin 1) q) = _ from k2_pay1_apply q) (fun x0 a x1 q => show k18_pay2 (F := Ideal) x0 a x1 (ix2 (0 : Fin 1) q) = _ from k2_pay2_apply x0 a x1 q) (fun a q => show k18_pay3 (F := Ideal) a (ix2 (0 : Fin 1) q) = _ from k2_pay3_apply a q) c).trans ?_
  show Gv (WX17 m ρ c (Proc.devRef .tc main_v0) : A8192x8192) (WX17 m ρ c (Proc.devRef .tc main_v19) : A8192x1) = _
  rw [K_X17 m ρ c, U_8 m ρ c]
  rfl

/-- Round 10, the row scalings: region 19 leaves them in main_v21. -/
theorem U_9 (c : Dev nD) : (WX19 m ρ c (Proc.devRef .tc main_v21) : A8192x1) = (it m ρ c 10).1 := by
  refine (WX19_arr m ρ c 2).trans ?_
  refine (arr19 (VE19 m ρ) (fun x0 x1 p => show k19_pay1 (F := Ideal) x0 x1 (ix2 p (0 : Fin 1)) = _ from k1_pay1_apply x0 x1 p) c).trans ?_
  show Gu (WX18 m ρ c (Proc.devRef .tc main_v0) : A8192x8192) (WX18 m ρ c (Proc.devRef .tc main_v20) : A1x8192) = _
  rw [K_X18 m ρ c, V_8 m ρ c]
  rfl
/-- Round 10, the column scalings: region 20 leaves them, as a row, in main_v22. -/
theorem V_9 (c : Dev nD) : (WX20 m ρ c (Proc.devRef .tc main_v22) : A1x8192) = (it m ρ c 10).2 := by
  refine (WX20_arr m ρ c 2).trans ?_
  refine (arr20 (VE20 m ρ) (fun q => show k20_pay1 (F := Ideal) (ix2 (0 : Fin 1) q) = _ from k2_pay1_apply q) (fun x0 a x1 q => show k20_pay2 (F := Ideal) x0 a x1 (ix2 (0 : Fin 1) q) = _ from k2_pay2_apply x0 a x1 q) (fun a q => show k20_pay3 (F := Ideal) a (ix2 (0 : Fin 1) q) = _ from k2_pay3_apply a q) c).trans ?_
  show Gv (WX19 m ρ c (Proc.devRef .tc main_v0) : A8192x8192) (WX19 m ρ c (Proc.devRef .tc main_v21) : A8192x1) = _
  rw [K_X19 m ρ c, U_9 m ρ c]
  rfl

/-! ## The last region and the last host stretch -/

/-- The row scalings after ten rounds are still in their buffer when the last region runs, and after it. -/
theorem u_X20 (c : Dev nD) : (WX20 m ρ c (Proc.devRef .tc main_v21) : A8192x1) = (it m ρ c 10).1 := (keep20 m ρ c main_v21 (by decide)).trans (U_9 m ρ c)
theorem u_X21 (c : Dev nD) : (WX21 m ρ c (Proc.devRef .tc main_v21) : A8192x1) = (it m ρ c 10).1 := (keep21 m ρ c main_v21 (by decide)).trans (u_X20 m ρ c)
theorem v_X21 (c : Dev nD) : (WX21 m ρ c (Proc.devRef .tc main_v22) : A1x8192) = (it m ρ c 10).2 := (keep21 m ρ c main_v22 (by decide)).trans (V_9 m ρ c)

/-- The coupling matrix, in the last region's first result. -/
theorem cpl_X21 (c : Dev nD) : (WX21 m ρ c (Proc.devRef .tc main_v23_0) : A8192x8192) = Gc (Karr m c) (it m ρ c 10).1 (it m ρ c 10).2 := by
  refine (WX21_arr m ρ c 5).trans ?_
  refine (arr21_5 (VE21 m ρ) (fun x2 x3 x4 p q => k21_pay4_apply x2 x3 x4 p q) c).trans ?_
  show Gc (WX20 m ρ c (Proc.devRef .tc main_v0) : A8192x8192) (WX20 m ρ c (Proc.devRef .tc main_v21) : A8192x1) (WX20 m ρ c (Proc.devRef .tc main_v22) : A1x8192) = _
  rw [K_X20 m ρ c, u_X20 m ρ c, V_9 m ρ c]

/-- The per-row sums of coupling × cost, in its second result. -/
theorem row_X21 (c : Dev nD) : (WX21 m ρ c (Proc.devRef .tc main_v23_1) : A8192x1) = Gr (sA m c) (tA m c) (Karr m c) (it m ρ c 10).1 (it m ρ c 10).2 := by
  refine (WX21_arr m ρ c 6).trans ?_
  refine (arr21_6 (VE21 m ρ) (fun A B r p => k21_pay1_apply A B r p) (fun p => k21_pay2_apply p) (fun x0 x1 p q => k21_pay3_apply x0 x1 p q) (fun x2 x3 x4 p q => k21_pay4_apply x2 x3 x4 p q) c).trans ?_
  show Gr (WX20 m ρ c (Proc.devRef .tc main_arg0) : A8192x64) (WX20 m ρ c (Proc.devRef .tc main_arg1) : A8192x64) (WX20 m ρ c (Proc.devRef .tc main_v0) : A8192x8192) (WX20 m ρ c (Proc.devRef .tc main_v21) : A8192x1) (WX20 m ρ c (Proc.devRef .tc main_v22) : A1x8192) = _
  rw [main_arg0_X20 m ρ c, main_arg1_X20 m ρ c, K_X20 m ρ c, u_X20 m ρ c, V_9 m ρ c]

/-- The four results in the final contents. -/
theorem fin_u (c : Dev nD) : (Wfin m ρ c (Proc.devRef .tc main_v21) : A8192x1) = (it m ρ c 10).1 :=
  (StableHlo.after_of_writes_sub hostOps22 _ hostOps22_writes (by decide)).trans (u_X21 m ρ c)
theorem fin_cpl (c : Dev nD) : (Wfin m ρ c (Proc.devRef .tc main_v23_0) : A8192x8192) = Gc (Karr m c) (it m ρ c 10).1 (it m ρ c 10).2 :=
  (StableHlo.after_of_writes_sub hostOps22 _ hostOps22_writes (by decide)).trans (cpl_X21 m ρ c)
theorem fin_v (c : Dev nD) (r : Fin 8192) : (Wfin m ρ c (Proc.devRef .tc main_v26) : A8192x1) (ix2 r (0 : Fin 1)) = (it m ρ c 10).2 (ix2 (0 : Fin 1) r) := by
  have e : (Wfin m ρ c (Proc.devRef .tc main_v26) : S8192x1.Idx → EReal)
      = transpose S8192x1 [1, 0] (WX21 m ρ c (Proc.devRef .tc main_v22) : (⟨S1x8192, .f32⟩ : BufTy).Contents (Elt Ideal)) transposes_S1x8192_S8192x1_1_0 := by
    show (StableHlo.after hostOps22 (WX21 m ρ c) (Proc.devRef .tc main_v26) : S8192x1.Idx → EReal) = _
    after_results
  rw [e, Cert.KernelIdeal.BridgeHost.row_as_col_apply]
  exact congrFun (v_X21 m ρ c) _
theorem fin_dist (c : Dev nD) : (Wfin m ρ c (Proc.devRef .tc main_v25) : S_.Idx → EReal) ix0
    = Ideal.div (∑ r : Fin 8192, Gr (sA m c) (tA m c) (Karr m c) (it m ρ c 10).1 (it m ρ c 10).2 (ix2 r (0 : Fin 1))) Spec.tot := by
  have e : (Wfin m ρ c (Proc.devRef .tc main_v25) : S_.Idx → EReal)
      = Host.divf (F := Ideal) (Host.reduceAdd (F := Ideal) (WX21 m ρ c (Proc.devRef .tc main_v23_1) : (⟨S8192x1, .f32⟩ : BufTy).Contents (Elt Ideal)) (constant (F := Ideal) S_ .f32 0x00000000#32) reducesTo_S8192x1_S_d0_1 h_S_) (constant (F := Ideal) S_ .f32 0x4C800000#32) := by
    show (StableHlo.after hostOps22 (WX21 m ρ c) (Proc.devRef .tc main_v25) : S_.Idx → EReal) = _
    after_results
  rw [e, Cert.KernelIdeal.BridgeHost.dist_apply, row_X21 m ρ c]

end Cert.KernelIdeal.Val

end
-- ==== Proof.RefValue.lean ====
/- The reference program's values read index by index, over the extended reals: its distance and Gibbs matrices, one
   update of the row scalings and one of the column scalings, the ten rounds, the coupling and the distance, each equal
   to the specification's expression of the two feature arrays. -/
import proofs.«111645_j15006615733809_2_alg».proof.Defs
import proofs.«111645_j15006615733809_2_alg».proof.Proof.Gen.ReferenceIdeal
import proofs.«111645_j15006615733809_2_alg».proof.Proof.Gen.ReferenceIdeal.Run
import proofs.«111645_j15006615733809_2_alg».proof.Proof.Gen.ReferenceIdeal.Read
import proofs.«111645_j15006615733809_2_alg».proof.Proof.Spec
import Idealize.ShloMosaic.Lib.StackMember

noncomputable section

namespace Cert.Proof.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The arrays of the reference: the 8192×64 features, the 8192×8192 matrices, the 8192×1 columns. -/
abbrev FeatA : Type := FVec Ideal S8192x64 .f32
abbrev MatA : Type := FVec Ideal S8192x8192 .f32
abbrev ColA : Type := FVec Ideal S8192x1 .f32

/-- An array read by its coordinates. -/
def featOf (x : FeatA) : Spec.Feat := fun r k => x (ix2 r k)
def matOf (K : MatA) : Spec.Mat := fun a b => K (ix2 a b)
def colOf (v : ColA) : Spec.Vc := fun a => v (ix2 a 0)

/-- Two indices with equal coordinates are equal: rank two, then rank one. -/
local macro "idx2" : tactic => `(tactic| (funext a; match a with | ⟨0, _⟩ => rfl | ⟨1, _⟩ => rfl))
local macro "idx1" : tactic => `(tactic| (funext a; match a with | ⟨0, _⟩ => rfl))

section Gibbs

variable (x0 x1 : FeatA)

/-- ‖s_r‖²: the row sum of the squared source features starts from the zero word. -/
theorem sqn0_apply (r : Fin 8192) : val_main_v3 (F := Ideal) x0 (ix1 r) = Spec.sqn (featOf x0) r := by
  rw [val_main_v3_apply]
  show Ideal.ofBits .f32 0x00000000#32 + ∑ k : Fin 64, x0 (idx_main_v3 (ix1 r) k) * x0 (idx_main_v3 (ix1 r) k)
    = ∑ k : Fin 64, x0 (ix2 r k) * x0 (ix2 r k)
  rw [Ideal.ofBits_zero_f32, zero_add]
  refine Finset.sum_congr rfl fun k _ => ?_
  have e : idx_main_v3 (ix1 r) k = ix2 r k := by idx2
  rw [e]

/-- ‖t_c‖², likewise. -/
theorem sqn1_apply (q : Fin 8192) : val_main_v6 (F := Ideal) x1 (ix1 q) = Spec.sqn (featOf x1) q := by
  rw [val_main_v6_apply]
  show Ideal.ofBits .f32 0x00000000#32 + ∑ k : Fin 64, x1 (idx_main_v6 (ix1 q) k) * x1 (idx_main_v6 (ix1 q) k)
    = ∑ k : Fin 64, x1 (ix2 q k) * x1 (ix2 q k)
  rw [Ideal.ofBits_zero_f32, zero_add]
  refine Finset.sum_congr rfl fun k _ => ?_
  have e : idx_main_v6 (ix1 q) k = ix2 q k := by idx2
  rw [e]

/-- The source norms as a column repeated along the rows' entries. -/
theorem v9_apply (r q : Fin 8192) : val_main_v9 (F := Ideal) x0 (ix2 r q) = Spec.sqn (featOf x0) r := by
  have e9 : idx_main_v9 (ix2 r q) = ix2 r (0 : Fin 1) := by idx2
  have e4 : idx_main_v4 (ix2 r (0 : Fin 1)) = ix1 r := by idx1
  rw [val_main_v9_apply, e9, val_main_v4_apply, e4]
  exact sqn0_apply x0 r

/-- The target norms as a row repeated along the columns' entries. -/
theorem v10_apply (r q : Fin 8192) : val_main_v10 (F := Ideal) x1 (ix2 r q) = Spec.sqn (featOf x1) q := by
  have e10 : idx_main_v10 (ix2 r q) = ix2 (0 : Fin 1) q := by idx2
  have e8 : idx_main_v8 (ix2 (0 : Fin 1) q) = ix2 q (0 : Fin 1) := by idx2
  have e7 : idx_main_v7 (ix2 q (0 : Fin 1)) = ix1 q := by idx1
  rw [val_main_v10_apply, e10, val_main_v8_apply, e8, val_main_v7_apply, e7]
  exact sqn1_apply x1 q

/-- ⟨s_r, t_c⟩: the product of the source features by the transposed target features. -/
theorem v13_apply (r q : Fin 8192) : val_main_v13 (F := Ideal) x0 x1 (ix2 r q) = Spec.dot (featOf x0) (featOf x1) r q := by
  rw [val_main_v13_apply]
  show _ = ∑ k : Fin 64, x0 (ix2 r k) * x1 (ix2 q k)
  refine Finset.sum_congr rfl fun k _ => ?_
  have el : lidx_main_v13 (ix2 r q) k = ix2 r k := by idx2
  have er : ridx_main_v13 (ix2 r q) k = ix2 k q := by idx2
  have et : idx_main_v12 (ix2 k q) = ix2 q k := by idx2
  rw [el, er, val_main_v12_apply, et]

/-- The splat constants: 2, 0, ε. -/
theorem v14_apply (i : S8192x8192.Idx) : val_main_v14 (F := Ideal) i = Spec.two := (val_main_v14_apply i).trans rfl
theorem v17_apply (i : S8192x8192.Idx) : val_main_v17 (F := Ideal) i = 0 :=
  ((val_main_v17_apply i).trans rfl).trans Ideal.ofBits_zero_f32
theorem v21_apply (i : S8192x8192.Idx) : val_main_v21 (F := Ideal) i = Spec.eps := (val_main_v21_apply i).trans rfl

/-- The distance matrix. -/
theorem cost_apply (r q : Fin 8192) : val_main_v19 (F := Ideal) x0 x1 (ix2 r q) = Spec.cost (featOf x0) (featOf x1) r q := by
  show Ideal.sqrt (max ((val_main_v9 (F := Ideal) x0 (ix2 r q) + val_main_v10 (F := Ideal) x1 (ix2 r q))
      - val_main_v14 (F := Ideal) (ix2 r q) * val_main_v13 (F := Ideal) x0 x1 (ix2 r q)) (val_main_v17 (F := Ideal) (ix2 r q))) = _
  rw [v9_apply, v10_apply, v14_apply, v13_apply, v17_apply]
  rfl

/-- The Gibbs matrix: the host's negation is the subtraction from zero. -/
theorem gibbs_apply (r q : Fin 8192) : val_main_v23 (F := Ideal) x0 x1 (ix2 r q) = Spec.gibbs (featOf x0) (featOf x1) r q := by
  show Ideal.exp (Ideal.div (-(val_main_v19 (F := Ideal) x0 x1 (ix2 r q))) (val_main_v21 (F := Ideal) (ix2 r q))) = _
  rw [cost_apply, v21_apply]
  unfold Spec.gibbs
  rw [zero_sub]

theorem matOf_gibbs : matOf (val_main_v23 (F := Ideal) x0 x1) = Spec.gibbs (featOf x0) (featOf x1) :=
  funext fun a => funext fun b => gibbs_apply x0 x1 a b

theorem matOf_cost : matOf (val_main_v19 (F := Ideal) x0 x1) = Spec.cost (featOf x0) (featOf x1) :=
  funext fun a => funext fun b => cost_apply x0 x1 a b

end Gibbs

section Rounds

/-- The weight 1/8192, the stabilizer δ and the one, each splat on a column. -/
def wcol : ColA := broadcastInDim S8192x1 ![] bcast_S_S8192x1 (constant (F := Ideal) S_ .f32 0x39000000#32)
def dcol : ColA := broadcastInDim S8192x1 ![] bcast_S_S8192x1 (constant (F := Ideal) S_ .f32 0x322BCC77#32)
def onecol : ColA := broadcastInDim S8192x1 ![] bcast_S_S8192x1 (constant (F := Ideal) S_ .f32 0x3F800000#32)

theorem wcol_apply (i : S8192x1.Idx) : wcol i = Spec.wgt := by
  unfold wcol
  exact broadcastInDim_apply _ bcast_S_S8192x1 _ i (fun a => a.elim0) (fun a => a.elim0)
theorem dcol_apply (i : S8192x1.Idx) : dcol i = Spec.stab := by
  unfold dcol
  exact broadcastInDim_apply _ bcast_S_S8192x1 _ i (fun a => a.elim0) (fun a => a.elim0)
theorem onecol_apply (i : S8192x1.Idx) : onecol i = Spec.one := by
  unfold onecol
  exact broadcastInDim_apply _ bcast_S_S8192x1 _ i (fun a => a.elim0) (fun a => a.elim0)

/-- The product of a matrix by a column. -/
local notation "dotC" => Host.dotGeneral (F := Ideal) (φ₁ := FTy.f32) (φ₂ := FTy.f32) dot_S8192x8192_S8192x1_S8192x1_1_0_0_1_n_n none

/-- One update of the row scalings on arrays: w / (K v + δ). -/
def RU (K : MatA) (v : ColA) : ColA :=
  Host.divf (F := Ideal) wcol (addf (dotC K v) dcol)
/-- One update of the column scalings on arrays: w / (Kᵀ u + δ), the transpose taken as an array. -/
def RV (K : MatA) (u : ColA) : ColA :=
  Host.divf (F := Ideal) wcol (addf (dotC (transpose S8192x8192 [1, 0] K transposes_S8192x8192_S8192x8192_1_0) u) dcol)

/-- The matrix-by-column product has the plain dimension numbers. -/
theorem dot_plain : dot_S8192x8192_S8192x1_S8192x1_1_0_0_1_n_n = DotDims.plain 8192 8192 1 := rfl

/-- The matrix-by-column product at a row: the sum over the contracted coordinate. -/
theorem dotcol_apply (K : MatA) (v : ColA) (r : Fin 8192) :
    dotC K v (ix2 r (0 : Fin 1)) = ∑ k : Fin 8192, K (ix2 r k) * v (ix2 k (0 : Fin 1)) :=
  StackMember.dotGeneral_plain_apply (m := 8192) (k := 8192) (n := 1) none K v r 0

/-- The transposed matrix at (c, r) is the matrix at (r, c). -/
theorem transK_apply (K : MatA) (c r : Fin 8192) : (transpose S8192x8192 [1, 0] K transposes_S8192x8192_S8192x8192_1_0) (ix2 c r) = K (ix2 r c) :=
  transpose_apply [1, 0] K transposes_S8192x8192_S8192x8192_1_0 (ix2 c r) (ix2 r c) (fun b => match b with
    | ⟨0, _⟩ => rfl
    | ⟨1, _⟩ => rfl)

theorem RU_apply (K : MatA) (v : ColA) (r : Fin 8192) : RU K v (ix2 r (0 : Fin 1)) = Spec.uStep (matOf K) (colOf v) r := by
  show Ideal.div (wcol (ix2 r (0 : Fin 1))) (dotC K v (ix2 r (0 : Fin 1)) + dcol (ix2 r (0 : Fin 1))) = _
  rw [wcol_apply, dcol_apply, dotcol_apply]
  rfl

theorem RV_apply (K : MatA) (u : ColA) (c : Fin 8192) : RV K u (ix2 c (0 : Fin 1)) = Spec.vStep (matOf K) (colOf u) c := by
  show Ideal.div (wcol (ix2 c (0 : Fin 1))) (dotC (transpose S8192x8192 [1, 0] K transposes_S8192x8192_S8192x8192_1_0) u (ix2 c (0 : Fin 1)) + dcol (ix2 c (0 : Fin 1))) = _
  rw [wcol_apply, dcol_apply, dotcol_apply]
  unfold Spec.vStep
  refine congrArg (fun z => Ideal.div Spec.wgt (z + Spec.stab)) (Finset.sum_congr rfl fun k _ => ?_)
  rw [transK_apply]
  rfl

theorem colOf_RU (K : MatA) (v : ColA) : colOf (RU K v) = Spec.uStep (matOf K) (colOf v) := funext (RU_apply K v)
theorem colOf_RV (K : MatA) (u : ColA) : colOf (RV K u) = Spec.vStep (matOf K) (colOf u) := funext (RV_apply K u)

/-- The scalings after a round depend on the Gibbs matrix and the previous column scaling only. -/
theorem uv_succ (K : Spec.Mat) (n : ℕ) :
    Spec.uv K (n + 1) = (Spec.uStep K (Spec.uv K n).2, Spec.vStep K (Spec.uStep K (Spec.uv K n).2)) := rfl

variable (x0 x1 : FeatA)

/-- The column scaling before the first round is the column of ones. -/
theorem rv0 : colOf (val_main_v25 (F := Ideal)) = (Spec.uv (Spec.gibbs (featOf x0) (featOf x1)) 0).2 := by
  have e : val_main_v25 (F := Ideal) = onecol := rfl
  rw [e]
  exact funext fun a => onecol_apply _

/-- Round 1: the row scalings, then the column scalings. -/
theorem ru1 : colOf (val_main_v29 (F := Ideal) x0 x1) = (Spec.uv (Spec.gibbs (featOf x0) (featOf x1)) 1).1 := by
  have e : val_main_v29 (F := Ideal) x0 x1 = RU (val_main_v23 (F := Ideal) x0 x1) (val_main_v25 (F := Ideal)) := rfl
  rw [e, colOf_RU, matOf_gibbs, rv0 x0 x1]
  rfl
theorem rv1 : colOf (val_main_v34 (F := Ideal) x0 x1) = (Spec.uv (Spec.gibbs (featOf x0) (featOf x1)) 1).2 := by
  have e : val_main_v34 (F := Ideal) x0 x1 = RV (val_main_v23 (F := Ideal) x0 x1) (val_main_v29 (F := Ideal) x0 x1) := rfl
  rw [e, colOf_RV, matOf_gibbs, ru1 x0 x1]
  rfl

/-- Round 2: the row scalings, then the column scalings. -/
theorem ru2 : colOf (val_main_v38 (F := Ideal) x0 x1) = (Spec.uv (Spec.gibbs (featOf x0) (featOf x1)) 2).1 := by
  have e : val_main_v38 (F := Ideal) x0 x1 = RU (val_main_v23 (F := Ideal) x0 x1) (val_main_v34 (F := Ideal) x0 x1) := rfl
  rw [e, colOf_RU, matOf_gibbs, rv1 x0 x1]
  rfl
theorem rv2 : colOf (val_main_v43 (F := Ideal) x0 x1) = (Spec.uv (Spec.gibbs (featOf x0) (featOf x1)) 2).2 := by
  have e : val_main_v43 (F := Ideal) x0 x1 = RV (val_main_v23 (F := Ideal) x0 x1) (val_main_v38 (F := Ideal) x0 x1) := rfl
  rw [e, colOf_RV, matOf_gibbs, ru2 x0 x1]
  rfl

/-- Round 3: the row scalings, then the column scalings. -/
theorem ru3 : colOf (val_main_v47 (F := Ideal) x0 x1) = (Spec.uv (Spec.gibbs (featOf x0) (featOf x1)) 3).1 := by
  have e : val_main_v47 (F := Ideal) x0 x1 = RU (val_main_v23 (F := Ideal) x0 x1) (val_main_v43 (F := Ideal) x0 x1) := rfl
  rw [e, colOf_RU, matOf_gibbs, rv2 x0 x1]
  rfl
theorem rv3 : colOf (val_main_v52 (F := Ideal) x0 x1) = (Spec.uv (Spec.gibbs (featOf x0) (featOf x1)) 3).2 := by
  have e : val_main_v52 (F := Ideal) x0 x1 = RV (val_main_v23 (F := Ideal) x0 x1) (val_main_v47 (F := Ideal) x0 x1) := rfl
  rw [e, colOf_RV, matOf_gibbs, ru3 x0 x1]
  rfl

/-- Round 4: the row scalings, then the column scalings. -/
theorem ru4 : colOf (val_main_v56 (F := Ideal) x0 x1) = (Spec.uv (Spec.gibbs (featOf x0) (featOf x1)) 4).1 := by
  have e : val_main_v56 (F := Ideal) x0 x1 = RU (val_main_v23 (F := Ideal) x0 x1) (val_main_v52 (F := Ideal) x0 x1) := rfl
  rw [e, colOf_RU, matOf_gibbs, rv3 x0 x1]
  rfl
theorem rv4 : colOf (val_main_v61 (F := Ideal) x0 x1) = (Spec.uv (Spec.gibbs (featOf x0) (featOf x1)) 4).2 := by
  have e : val_main_v61 (F := Ideal) x0 x1 = RV (val_main_v23 (F := Ideal) x0 x1) (val_main_v56 (F := Ideal) x0 x1) := rfl
  rw [e, colOf_RV, matOf_gibbs, ru4 x0 x1]
  rfl

/-- Round 5: the row scalings, then the column scalings. -/
theorem ru5 : colOf (val_main_v65 (F := Ideal) x0 x1) = (Spec.uv (Spec.gibbs (featOf x0) (featOf x1)) 5).1 := by
  have e : val_main_v65 (F := Ideal) x0 x1 = RU (val_main_v23 (F := Ideal) x0 x1) (val_main_v61 (F := Ideal) x0 x1) := rfl
  rw [e, colOf_RU, matOf_gibbs, rv4 x0 x1]
  rfl
theorem rv5 : colOf (val_main_v70 (F := Ideal) x0 x1) = (Spec.uv (Spec.gibbs (featOf x0) (featOf x1)) 5).2 := by
  have e : val_main_v70 (F := Ideal) x0 x1 = RV (val_main_v23 (F := Ideal) x0 x1) (val_main_v65 (F := Ideal) x0 x1) := rfl
  rw [e, colOf_RV, matOf_gibbs, ru5 x0 x1]
  rfl

/-- Round 6: the row scalings, then the column scalings. -/
theorem ru6 : colOf (val_main_v74 (F := Ideal) x0 x1) = (Spec.uv (Spec.gibbs (featOf x0) (featOf x1)) 6).1 := by
  have e : val_main_v74 (F := Ideal) x0 x1 = RU (val_main_v23 (F := Ideal) x0 x1) (val_main_v70 (F := Ideal) x0 x1) := rfl
  rw [e, colOf_RU, matOf_gibbs, rv5 x0 x1]
  rfl
theorem rv6 : colOf (val_main_v79 (F := Ideal) x0 x1) = (Spec.uv (Spec.gibbs (featOf x0) (featOf x1)) 6).2 := by
  have e : val_main_v79 (F := Ideal) x0 x1 = RV (val_main_v23 (F := Ideal) x0 x1) (val_main_v74 (F := Ideal) x0 x1) := rfl
  rw [e, colOf_RV, matOf_gibbs, ru6 x0 x1]
  rfl

/-- Round 7: the row scalings, then the column scalings. -/
theorem ru7 : colOf (val_main_v83 (F := Ideal) x0 x1) = (Spec.uv (Spec.gibbs (featOf x0) (featOf x1)) 7).1 := by
  have e : val_main_v83 (F := Ideal) x0 x1 = RU (val_main_v23 (F := Ideal) x0 x1) (val_main_v79 (F := Ideal) x0 x1) := rfl
  rw [e, colOf_RU, matOf_gibbs, rv6 x0 x1]
  rfl
theorem rv7 : colOf (val_main_v88 (F := Ideal) x0 x1) = (Spec.uv (Spec.gibbs (featOf x0) (featOf x1)) 7).2 := by
  have e : val_main_v88 (F := Ideal) x0 x1 = RV (val_main_v23 (F := Ideal) x0 x1) (val_main_v83 (F := Ideal) x0 x1) := rfl
  rw [e, colOf_RV, matOf_gibbs, ru7 x0 x1]
  rfl

/-- Round 8: the row scalings, then the column scalings. -/
theorem ru8 : colOf (val_main_v92 (F := Ideal) x0 x1) = (Spec.uv (Spec.gibbs (featOf x0) (featOf x1)) 8).1 := by
  have e : val_main_v92 (F := Ideal) x0 x1 = RU (val_main_v23 (F := Ideal) x0 x1) (val_main_v88 (F := Ideal) x0 x1) := rfl
  rw [e, colOf_RU, matOf_gibbs, rv7 x0 x1]
  rfl
theorem rv8 : colOf (val_main_v97 (F := Ideal) x0 x1) = (Spec.uv (Spec.gibbs (featOf x0) (featOf x1)) 8).2 := by
  have e : val_main_v97 (F := Ideal) x0 x1 = RV (val_main_v23 (F := Ideal) x0 x1) (val_main_v92 (F := Ideal) x0 x1) := rfl
  rw [e, colOf_RV, matOf_gibbs, ru8 x0 x1]
  rfl

/-- Round 9: the row scalings, then the column scalings. -/
theorem ru9 : colOf (val_main_v101 (F := Ideal) x0 x1) = (Spec.uv (Spec.gibbs (featOf x0) (featOf x1)) 9).1 := by
  have e : val_main_v101 (F := Ideal) x0 x1 = RU (val_main_v23 (F := Ideal) x0 x1) (val_main_v97 (F := Ideal) x0 x1) := rfl
  rw [e, colOf_RU, matOf_gibbs, rv8 x0 x1]
  rfl
theorem rv9 : colOf (val_main_v106 (F := Ideal) x0 x1) = (Spec.uv (Spec.gibbs (featOf x0) (featOf x1)) 9).2 := by
  have e : val_main_v106 (F := Ideal) x0 x1 = RV (val_main_v23 (F := Ideal) x0 x1) (val_main_v101 (F := Ideal) x0 x1) := rfl
  rw [e, colOf_RV, matOf_gibbs, ru9 x0 x1]
  rfl

/-- Round 10: the row scalings, then the column scalings. -/
theorem ru10 : colOf (val_main_v110 (F := Ideal) x0 x1) = (Spec.uv (Spec.gibbs (featOf x0) (featOf x1)) 10).1 := by
  have e : val_main_v110 (F := Ideal) x0 x1 = RU (val_main_v23 (F := Ideal) x0 x1) (val_main_v106 (F := Ideal) x0 x1) := rfl
  rw [e, colOf_RU, matOf_gibbs, rv9 x0 x1]
  rfl
theorem rv10 : colOf (val_main_v115 (F := Ideal) x0 x1) = (Spec.uv (Spec.gibbs (featOf x0) (featOf x1)) 10).2 := by
  have e : val_main_v115 (F := Ideal) x0 x1 = RV (val_main_v23 (F := Ideal) x0 x1) (val_main_v110 (F := Ideal) x0 x1) := rfl
  rw [e, colOf_RV, matOf_gibbs, ru10 x0 x1]
  rfl

end Rounds

section Results

variable (x0 x1 : FeatA)

/-- The coupling u_r K_rc v_c: the row scalings repeated along the rows, the column scalings transposed and repeated
    along the columns. -/
theorem cpl_apply (r q : Fin 8192) :
    val_main_v120 (F := Ideal) x0 x1 (ix2 r q)
      = Spec.coupling (Spec.gibbs (featOf x0) (featOf x1)) (Spec.uv (Spec.gibbs (featOf x0) (featOf x1)) 10).1 (Spec.uv (Spec.gibbs (featOf x0) (featOf x1)) 10).2 r q := by
  have e116 : idx_main_v116 (ix2 r q) = ix2 r (0 : Fin 1) := by idx2
  have e119 : idx_main_v119 (ix2 r q) = ix2 (0 : Fin 1) q := by idx2
  have e118 : idx_main_v118 (ix2 (0 : Fin 1) q) = ix2 q (0 : Fin 1) := by idx2
  have hu : val_main_v110 (F := Ideal) x0 x1 (ix2 r (0 : Fin 1)) = (Spec.uv (Spec.gibbs (featOf x0) (featOf x1)) 10).1 r := congrFun (ru10 x0 x1) r
  have hv : val_main_v115 (F := Ideal) x0 x1 (ix2 q (0 : Fin 1)) = (Spec.uv (Spec.gibbs (featOf x0) (featOf x1)) 10).2 q := congrFun (rv10 x0 x1) q
  show (val_main_v116 (F := Ideal) x0 x1 (ix2 r q) * val_main_v23 (F := Ideal) x0 x1 (ix2 r q))
      * val_main_v119 (F := Ideal) x0 x1 (ix2 r q) = _
  rw [val_main_v116_apply, e116, val_main_v119_apply, e119, val_main_v118_apply, e118, gibbs_apply, hu, hv]
  rfl

/-- The distance: the sum over both axes of coupling × cost starts from the zero word and is the sum over the rows of
    the row sums. -/
theorem dist_apply :
    val_main_v123 (F := Ideal) x0 x1 ix0
      = Spec.dist (Spec.coupling (Spec.gibbs (featOf x0) (featOf x1)) (Spec.uv (Spec.gibbs (featOf x0) (featOf x1)) 10).1 (Spec.uv (Spec.gibbs (featOf x0) (featOf x1)) 10).2) (Spec.cost (featOf x0) (featOf x1)) := by
  show Ideal.div (val_main_v122 (F := Ideal) x0 x1 ix0) (Ideal.ofBits .f32 0x4C800000#32) = _
  rw [val_main_v122_apply]
  show Ideal.div (Ideal.ofBits .f32 0x00000000#32 + ∑ j : S8192x8192.Idx, val_main_v121 (F := Ideal) x0 x1 j) _ = _
  rw [Ideal.ofBits_zero_f32, zero_add, sum_idx2]
  unfold Spec.dist Spec.rowSum
  refine congrArg (fun z => Ideal.div z Spec.tot) (Finset.sum_congr rfl fun r _ => Finset.sum_congr rfl fun q _ => ?_)
  show val_main_v120 (F := Ideal) x0 x1 (ix2 r q) * val_main_v19 (F := Ideal) x0 x1 (ix2 r q) = _
  rw [cpl_apply, cost_apply]

end Results

section Run

variable (m : (ℓ : Loc nD τ sig) → Buf (Elt Ideal) ℓ) (c : Dev nD)

/-- The source and target features the reference was launched with, read by their coordinates. -/
def sOf : Spec.Feat := featOf (m ((c.tc : Thread nD τ).loc main_arg0))
def tOf : Spec.Feat := featOf (m ((c.tc : Thread nD τ).loc main_arg1))

/-- The row scalings the reference returns are the specification's after ten rounds. -/
theorem ref_u (r : Fin 8192) :
    (Cert.ReferenceIdeal.Value.res_main_v110 (F := Ideal) m c : ColA) (ix2 r (0 : Fin 1))
      = (Spec.uv (Spec.gibbs (sOf m c) (tOf m c)) 10).1 r := by
  rw [val_main_v110_eq]
  exact congrFun (ru10 _ _) r

/-- The column scalings likewise. -/
theorem ref_v (r : Fin 8192) :
    (Cert.ReferenceIdeal.Value.res_main_v115 (F := Ideal) m c : ColA) (ix2 r (0 : Fin 1))
      = (Spec.uv (Spec.gibbs (sOf m c) (tOf m c)) 10).2 r := by
  rw [val_main_v115_eq]
  exact congrFun (rv10 _ _) r

/-- The coupling the reference returns. -/
theorem ref_cpl (r q : Fin 8192) :
    (Cert.ReferenceIdeal.Value.res_main_v120 (F := Ideal) m c : MatA) (ix2 r q)
      = Spec.coupling (Spec.gibbs (sOf m c) (tOf m c)) (Spec.uv (Spec.gibbs (sOf m c) (tOf m c)) 10).1
          (Spec.uv (Spec.gibbs (sOf m c) (tOf m c)) 10).2 r q := by
  rw [val_main_v120_eq]
  exact cpl_apply _ _ r q

/-- The distance the reference returns. -/
theorem ref_dist :
    (Cert.ReferenceIdeal.Value.res_main_v123 (F := Ideal) m c : (⟨S_, .f32⟩ : BufTy).Contents (Elt Ideal)) ix0
      = Spec.dist (Spec.coupling (Spec.gibbs (sOf m c) (tOf m c)) (Spec.uv (Spec.gibbs (sOf m c) (tOf m c)) 10).1
          (Spec.uv (Spec.gibbs (sOf m c) (tOf m c)) 10).2) (Spec.cost (sOf m c) (tOf m c)) := by
  rw [val_main_v123_eq]
  exact dist_apply _ _

end Run

end Cert.Proof.RefValue

end
-- ==== Proof.Ref.lean ====
/- The reference program's side: its frame, from its generated run. -/
import proofs.«111645_j15006615733809_2_alg».proof.Defs
import proofs.«111645_j15006615733809_2_alg».proof.Proof.Gen.ReferenceIdeal
import proofs.«111645_j15006615733809_2_alg».proof.Proof.Gen.ReferenceIdeal.Run
import proofs.«111645_j15006615733809_2_alg».proof.Proof.Gen.ReferenceIdeal.Read
import proofs.«111645_j15006615733809_2_alg».proof.Proof.Gen.Pre_finite_inputs

noncomputable section

open Idealize.ShloMosaic Idealize.ShloMosaic.TcCoe Idealize.SL.Sem

namespace Cert.Proof.RefSide

/-- The reference runs to its end, faults nowhere and leaves its arguments as launched: its generated run with the results dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2.2.2) (Cert.ReferenceIdeal.Value.run (F := Ideal) m ρ)

end Cert.Proof.RefSide

end
-- ==== Proof.Alg.lean ====
/- The three claims that mention the kernel program: its frame at both instances, and the equality of its results with the reference's
   at the ideal instance — both programs' results are the specification's Sinkhorn quantities of the same two arguments. -/
import proofs.«111645_j15006615733809_2_alg».proof.Defs
import proofs.«111645_j15006615733809_2_alg».proof.Proof.K.Run
import proofs.«111645_j15006615733809_2_alg».proof.Proof.KI.Chain
import proofs.«111645_j15006615733809_2_alg».proof.Proof.RefValue
import proofs.«111645_j15006615733809_2_alg».proof.Proof.Ref
import proofs.«111645_j15006615733809_2_alg».proof.Proof.Gen.Kernel
import proofs.«111645_j15006615733809_2_alg».proof.Proof.Gen.KernelIdeal
import proofs.«111645_j15006615733809_2_alg».proof.Proof.Gen.ReferenceIdeal
import proofs.«111645_j15006615733809_2_alg».proof.Proof.Gen.Pre_finite_inputs

set_option maxRecDepth 16384

noncomputable section

namespace Cert.Proof.Alg

open Idealize.ShloMosaic Idealize.ShloMosaic.TcCoe Idealize.ShloMosaic.ValueIdx Idealize.SL.Sem
open Cert.G Cert.Bridge Cert.KernelIdeal.Val Cert.KernelIdeal.Hand

theorem frame_k : @Cert.frame_Kernel Cert.Kernel.Gen.facts Cert.Pre_finite_inputs.Gen.facts :=
  fun m ρ _ => Cert.Kernel.Hand.frame (F := Bits) m ρ
theorem frame_ki : @Cert.frame_KernelIdeal Cert.KernelIdeal.Gen.facts Cert.Pre_finite_inputs.Gen.facts :=
  fun m ρ _ => Cert.KernelIdeal.Hand.frame (F := Ideal) m ρ

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (c : Dev Cert.KernelIdeal.nD)

include hagree in
/-- The reference's feature arrays are the kernel's. -/
theorem hs : Cert.Proof.RefValue.sOf m' c = featOf (sA m c) := by
  unfold Cert.Proof.RefValue.sOf; rw [(hagree c).1]; rfl
include hagree in
theorem ht : Cert.Proof.RefValue.tOf m' c = featOf (tA m c) := by
  unfold Cert.Proof.RefValue.tOf; rw [(hagree c).2]; rfl
include hagree in
/-- So the specification's Gibbs matrix of the reference's arguments is the kernel's matrix array. -/
theorem hK : Spec.gibbs (Cert.Proof.RefValue.sOf m' c) (Cert.Proof.RefValue.tOf m' c) = matOf (Karr m c) := by
  rw [hs m m' hagree c, ht m m' hagree c]; exact (matOf_Gg _ _).symm

/-- The kernel's rounds are the specification's. -/
theorem hu : colOf (it m ρ c 10).1 = (Spec.uv (matOf (Karr m c)) 10).1 :=
  (itA_spec (Karr m c) (v0row m ρ c) (v0row_one m ρ c) 10).2 (by decide)
theorem hv : rowOf (it m ρ c 10).2 = (Spec.uv (matOf (Karr m c)) 10).2 :=
  (itA_spec (Karr m c) (v0row m ρ c) (v0row_one m ρ c) 10).1

include hagree in
theorem res_u : (Cert.ReferenceIdeal.Value.res_main_v110 (F := Ideal) m' c : A8192x1) = (Wfin m ρ c (Proc.devRef .tc Cert.KernelIdeal.main_v21) : A8192x1) := by
  funext i
  obtain ⟨r, q, rfl⟩ : ∃ (r : Fin 8192) (q : Fin 1), i = ix2 r q := ⟨i 0, i 1, eq_ix2 i⟩
  obtain rfl : q = 0 := Subsingleton.elim _ _
  refine (Cert.Proof.RefValue.ref_u m' c r).trans ?_
  rw [hK m m' hagree c, fin_u m ρ c, ← hu m ρ c]
  rfl

include hagree in
theorem res_v : (Cert.ReferenceIdeal.Value.res_main_v115 (F := Ideal) m' c : A8192x1) = (Wfin m ρ c (Proc.devRef .tc Cert.KernelIdeal.main_v26) : A8192x1) := by
  funext i
  obtain ⟨r, q, rfl⟩ : ∃ (r : Fin 8192) (q : Fin 1), i = ix2 r q := ⟨i 0, i 1, eq_ix2 i⟩
  obtain rfl : q = 0 := Subsingleton.elim _ _
  refine (Cert.Proof.RefValue.ref_v m' c r).trans ?_
  rw [hK m m' hagree c, fin_v m ρ c r, ← hv m ρ c]
  rfl

include hagree in
theorem res_cpl : (Cert.ReferenceIdeal.Value.res_main_v120 (F := Ideal) m' c : A8192x8192) = (Wfin m ρ c (Proc.devRef .tc Cert.KernelIdeal.main_v23_0) : A8192x8192) := by
  funext i
  obtain ⟨r, q, rfl⟩ : ∃ (r : Fin 8192) (q : Fin 8192), i = ix2 r q := ⟨i 0, i 1, eq_ix2 i⟩
  refine (Cert.Proof.RefValue.ref_cpl m' c r q).trans ?_
  rw [hK m m' hagree c, fin_cpl m ρ c, ← hu m ρ c, ← hv m ρ c]
  exact (congrFun (congrFun (matOf_Gc (Karr m c) (it m ρ c 10).1 (it m ρ c 10).2) r) q).symm

include hagree in
theorem res_dist : (Cert.ReferenceIdeal.Value.res_main_v123 (F := Ideal) m' c : (⟨0, ![]⟩ : Shape).Idx → EReal) = (Wfin m ρ c (Proc.devRef .tc Cert.KernelIdeal.main_v25) : (⟨0, ![]⟩ : Shape).Idx → EReal) := by
  funext i
  obtain rfl : i = ix0 := funext fun a => a.elim0
  refine (Cert.Proof.RefValue.ref_dist m' c).trans ?_
  rw [hK m m' hagree c, hs m m' hagree c, ht m m' hagree c, fin_dist m ρ c, ← hu m ρ c, ← hv m ρ c]
  unfold Spec.dist
  refine congrArg (fun x => Ideal.div x Spec.tot) (Finset.sum_congr rfl fun r _ => ?_)
  exact (congrFun (colOf_Gr (sA m c) (tA m c) (Karr m c) (it m ρ c 10).1 (it m ρ c 10).2) r).symm

end

/-- At the ideal instance both programs, from memories agreeing on the two arguments, run to their ends with equal results:
    the distance, the coupling matrix and the two scalings after ten rounds. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Wfin m ρ c (Proc.devRef .tc Cert.KernelIdeal.main_v25), fun c => Wfin m ρ c (Proc.devRef .tc Cert.KernelIdeal.main_v23_0),
    fun c => Wfin m ρ c (Proc.devRef .tc Cert.KernelIdeal.main_v21), fun c => Wfin m ρ c (Proc.devRef .tc Cert.KernelIdeal.main_v26), ?_, ?_⟩
  · exact (θ_run Cert.KernelIdeal.defs _ _).mono (fun r h c =>
      ⟨h c _ (mem_uc Cert.KernelIdeal.main_v25 (by decide)), h c _ (mem_uc Cert.KernelIdeal.main_v23_0 (by decide)),
        h c _ (mem_uc Cert.KernelIdeal.main_v21 (by decide)), h c _ (mem_uc Cert.KernelIdeal.main_v26 (by decide)),
        (h c _ (mem_uc Cert.KernelIdeal.main_arg0 (by decide))).trans (main_arg0_fin m ρ c),
        (h c _ (mem_uc Cert.KernelIdeal.main_arg1 (by decide))).trans (main_arg1_fin m ρ c)⟩)
      (Cert.KernelIdeal.Hand.run_all (F := Ideal) m ρ)
  · exact (θ_run Cert.ReferenceIdeal.defs _ _).mono (fun _ h c =>
      ⟨(h c).1.trans (res_dist m ρ m' hagree c), (h c).2.1.trans (res_cpl m ρ m' hagree c),
        (h c).2.2.1.trans (res_u m ρ m' hagree c), (h c).2.2.2.1.trans (res_v m ρ m' hagree c), (h c).2.2.2.2⟩)
      (Cert.ReferenceIdeal.Value.run (F := Ideal) m' ρ')

end Cert.Proof.Alg

end
-- ==== Proof.lean ====
/- The proof of the certificate's claim: a Pallas implementation of the entropic optimal-transport (Sinkhorn) distance between two
   clouds of 8192 points — one launch building the Gibbs matrix exp(−‖s_r − t_c‖/ε), ten rounds of two launches updating the row and
   column scalings (row sums of K·v, and column sums of Kᵀ·u accumulated block by block), one launch writing the coupling u_r K_rc v_c
   and its per-row sums against the distances, and a host sum — computes, over the extended reals, exactly what the jnp reference
   computes: every sum is the same set of terms in another grouping, every other operation is applied to equal operands.
   Each program's frame (it runs to its end, faults nowhere, leaves its arguments alone) comes first; the idealization rewrote nothing. -/
import proofs.«111645_j15006615733809_2_alg».proof.Defs
import proofs.«111645_j15006615733809_2_alg».proof.Proof.Alg
import proofs.«111645_j15006615733809_2_alg».proof.Proof.Ref
import proofs.«111645_j15006615733809_2_alg».proof.Proof.Gen.Kernel
import proofs.«111645_j15006615733809_2_alg».proof.Proof.Gen.KernelIdeal
import proofs.«111645_j15006615733809_2_alg».proof.Proof.Gen.ReferenceIdeal
import proofs.«111645_j15006615733809_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Alg.frame_k, Alg.frame_ki, RefSide.frame_ri, trivial, Alg.algebraic⟩

end Cert.Proof

end
